-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v229) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2x524288 : Shape := ⟨2, ![2, 524288]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S64x64 : Shape := ⟨2, ![64, 64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S64x64 : S_.BroadcastsInDim S64x64 (![] : Fin 0 → Fin S64x64.rank)
  reducesTo_S64x64_S_d0_1 : S64x64.ReducesTo [0, 1] S_
  bcast_S_S2x524288 : S_.BroadcastsInDim S2x524288 (![] : Fin 0 → Fin S2x524288.rank)
  reducesTo_S2x524288_S_d0_1 : S2x524288.ReducesTo [0, 1] S_

variable [Facts]

def fn_part3 {F : FTy → Type} [FloatOps F] (main_arg1 : IVec S2x524288 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S2x524288 32 := broadcastInDim S2x524288 ![] bcast_S_S2x524288 main_c_20
  let main_v55 : IVec S2x524288 1 := cmpi .sge main_arg1 main_v54
  let main_c_21 : IVec S_ 1 := constantI S_ 1 1#1
  let main_v56 : IVec S_ 1 := (fun x v => Host.reduce IntOp.andi x v reducesTo_S2x524288_S_d0_1 h_S_) main_v55 main_c_21
  let main_v57 : IVec S_ 1 := andi main_v53 main_v56
  let main_c_22 : IVec S_ 32 := constantI S_ 32 16384#32
  let main_v58 : IVec S2x524288 32 := broadcastInDim S2x524288 ![] bcast_S_S2x524288 main_c_22
  let main_v59 : IVec S2x524288 1 := cmpi .slt main_arg1 main_v58
  let main_c_23 : IVec S_ 1 := constantI S_ 1 1#1
  let main_v60 : IVec S_ 1 := (fun x v => Host.reduce IntOp.andi x v reducesTo_S2x524288_S_d0_1 h_S_) main_v59 main_c_23
  let main_v61 : IVec S_ 1 := andi main_v57 main_v60
  main_v61

def fn_part2 {F : FTy → Type} [FloatOps F] (main_arg1 : IVec S2x524288 32) (main_arg8 : FVec F S128x256 .f32) (main_arg9 : FVec F S256 .f32) (main_arg10 : FVec F S64x64 .f32) (main_arg11 : FVec F S64 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x524288 32) (main_arg5 : FVec F S64 .f32) (main_arg6 : FVec F S64x128 .f32) (main_arg7 : FVec F S128 .f32) (main_arg8 : FVec F S128x256 .f32) (main_arg9 : FVec F S256 .f32) (main_arg10 : FVec F S64x64 .f32) (main_arg11 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S16384x256 .f32) (main_arg1 : IVec S2x524288 32) (main_arg2 : FVec F S256x128 .f32) (main_arg3 : FVec F S128 .f32) (main_arg4 : FVec F S128x64 .f32) (main_arg5 : FVec F S64 .f32) (main_arg6 : FVec F S64x128 .f32) (main_arg7 : FVec F S128 .f32) (main_arg8 : FVec F S128x256 .f32) (main_arg9 : FVec F S256 .f32) (main_arg10 : FVec F S64x64 .f32) (main_arg11 : FVec F S64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_arg10 main_arg11 main_v13 main_v16
-- ==== Kernel.lean ====
abbrev S16384x256 : Shape := ⟨2, ![16384, 256]⟩
abbrev S2x524288 : Shape := ⟨2, ![2, 524288]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S64x64 : Shape := ⟨2, ![64, 64]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S16384x16384 : Shape := ⟨2, ![16384, 16384]⟩
abbrev S524288x2 : Shape := ⟨2, ![524288, 2]⟩
abbrev S16384x1 : Shape := ⟨2, ![16384, 1]⟩
abbrev S16384x2 : Shape := ⟨2, ![16384, 2]⟩
abbrev S1x128 : Shape := ⟨2, ![1, 128]⟩
abbrev S16384x128 : Shape := ⟨2, ![16384, 128]⟩
abbrev S2048x256 : Shape := ⟨2, ![2048, 256]⟩
abbrev S2048x128 : Shape := ⟨2, ![2048, 128]⟩
abbrev S1024x2048 : Shape := ⟨2, ![1024, 2048]⟩
abbrev S1024x128 : Shape := ⟨2, ![1024, 128]⟩
abbrev S1x64 : Shape := ⟨2, ![1, 64]⟩
abbrev S16384x64 : Shape := ⟨2, ![16384, 64]⟩
abbrev S2048x64 : Shape := ⟨2, ![2048, 64]⟩
abbrev S1024x64 : Shape := ⟨2, ![1024, 64]⟩
abbrev S1x256 : Shape := ⟨2, ![1, 256]⟩
abbrev S1024x256 : Shape := ⟨2, ![1024, 256]⟩
abbrev S2048x1024 : Shape := ⟨2, ![2048, 1024]⟩
abbrev S64x1024 : Shape := ⟨2, ![64, 1024]⟩

abbrev nBuf : Space → Nat
  | .hbm => 117
  | .vmem => 81
  | .smem => 0
  | _ => 0

abbrev bufTy : (tb : Table) → Fin (tcTables nBuf tb) → BufTy
  | .hbm, ⟨0, _⟩ => ⟨S16384x256, .f32⟩
  | .hbm, ⟨1, _⟩ => ⟨S2x524288, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S64x64, .f32⟩
  | .hbm, ⟨11, _⟩ => ⟨S64, .f32⟩
  | .hbm, ⟨12, _⟩ => ⟨S1x524288, .i32⟩
  | .hbm, ⟨13, _⟩ => ⟨S524288, .i32⟩
  | .hbm, ⟨14, _⟩ => ⟨S1x524288, .i32⟩
  | .hbm, ⟨15, _⟩ => ⟨S524288, .i32⟩
  | .hbm, ⟨16, _⟩ => ⟨S_, .f32⟩
  | .hbm, ⟨17, _⟩ => ⟨S524288, .f32⟩
  | .hbm, ⟨18, _⟩ => ⟨S_, .f32⟩
  | .hbm, ⟨19, _⟩ => ⟨S16384, .f32⟩
  | .hbm, ⟨20, _⟩ => ⟨S524288x1, .i32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S_, .i32⟩
  | .hbm, ⟨27, _⟩ => ⟨S524288, .i32⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288x1, .i32⟩
  | .hbm, ⟨34, _⟩ => ⟨S524288, .f32⟩
  | .hbm, ⟨35, _⟩ => ⟨S_, .i32⟩
  | .hbm, ⟨36, _⟩ => ⟨S524288, .i32⟩
  | .hbm, ⟨37, _⟩ => ⟨S524288, .i1⟩
  | .hbm, ⟨38, _⟩ => ⟨S_, .i32⟩
  | .hbm, ⟨39, _⟩ => ⟨S524288, .i32⟩
  | .hbm, ⟨40, _⟩ => ⟨S524288, .i32⟩
  | .hbm, ⟨41, _⟩ => ⟨S524288, .i32⟩
  | .hbm, ⟨42, _⟩ => ⟨S524288x1, .i32⟩
  | .hbm, ⟨43, _⟩ => ⟨S524288, .f32⟩
  | .hbm, ⟨44, _⟩ => ⟨S524288, .f32⟩
  | .hbm, ⟨45, _⟩ => ⟨S_, .f32⟩
  | .hbm, ⟨46, _⟩ => ⟨S16384x16384, .f32⟩
  | .hbm, ⟨47, _⟩ => ⟨S_, .i32⟩
  | .hbm, ⟨48, _⟩ => ⟨S524288, .i32⟩
  | .hbm, ⟨49, _⟩ => ⟨S524288, .i1⟩
  | .hbm, ⟨50, _⟩ => ⟨S_, .i32⟩
  | .hbm, ⟨51, _⟩ => ⟨S524288, .i32⟩
  | .hbm, ⟨52, _⟩ => ⟨S524288, .i32⟩
  | .hbm, ⟨53, _⟩ => ⟨S524288, .i32⟩
  | .hbm, ⟨54, _⟩ => ⟨S_, .i32⟩
  | .hbm, ⟨55, _⟩ => ⟨S524288, .i32⟩
  | .hbm, ⟨56, _⟩ => ⟨S524288, .i1⟩
  | .hbm, ⟨57, _⟩ => ⟨S_, .i32⟩
  | .hbm, ⟨58, _⟩ => ⟨S524288, .i32⟩
  | .hbm, ⟨59, _⟩ => ⟨S524288, .i32⟩
  | .hbm, ⟨60, _⟩ => ⟨S524288, .i32⟩
  | .hbm, ⟨61, _⟩ => ⟨S524288x1, .i32⟩
  | .hbm, ⟨62, _⟩ => ⟨S524288x1, .i32⟩
  | .hbm, ⟨63, _⟩ => ⟨S524288x2, .i32⟩
  | .hbm, ⟨64, _⟩ => ⟨S16384x16384, .f32⟩
  | .hbm, ⟨65, _⟩ => ⟨S16384, .i32⟩
  | .hbm, ⟨66, _⟩ => ⟨S16384, .f32⟩
  | .hbm, ⟨67, _⟩ => ⟨S_, .i32⟩
  | .hbm, ⟨68, _⟩ => ⟨S16384, .i32⟩
  | .hbm, ⟨69, _⟩ => ⟨S16384, .i1⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .i32⟩
  | .hbm, ⟨74, _⟩ => ⟨S_, .i32⟩
  | .hbm, ⟨75, _⟩ => ⟨S16384, .i32⟩
  | .hbm, ⟨76, _⟩ => ⟨S16384, .i1⟩
  | .hbm, ⟨77, _⟩ => ⟨S_, .i32⟩
  | .hbm, ⟨78, _⟩ => ⟨S16384, .i32⟩
  | .hbm, ⟨79, _⟩ => ⟨S16384, .i32⟩
  | .hbm, ⟨80, _⟩ => ⟨S16384, .i32⟩
  | .hbm, ⟨81, _⟩ => ⟨S16384x1, .i32⟩
  | .hbm, ⟨82, _⟩ => ⟨S16384x1, .i32⟩
  | .hbm, ⟨83, _⟩ => ⟨S16384x2, .i32⟩
  | .hbm, ⟨84, _⟩ => ⟨S16384x16384, .f32⟩
  | .hbm, ⟨85, _⟩ => ⟨S16384x16384, .bf16⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S16384x128, .f32⟩
  | .hbm, ⟨90, _⟩ => ⟨S1x128, .f32⟩
  | .hbm, ⟨91, _⟩ => ⟨S16384x128, .f32⟩
  | .hbm, ⟨92, _⟩ => ⟨S_, .f32⟩
  | .hbm, ⟨93, _⟩ => ⟨S64, .f32⟩
  | .hbm, ⟨94, _⟩ => ⟨S1x64, .f32⟩
  | .hbm, ⟨95, _⟩ => ⟨S16384x64, .f32⟩
  | .hbm, ⟨96, _⟩ => ⟨S1x64, .f32⟩
  | .hbm, ⟨97, _⟩ => ⟨S16384x64, .f32⟩
  | .hbm, ⟨98, _⟩ => ⟨S_, .f32⟩
  | .hbm, ⟨99, _⟩ => ⟨S128, .f32⟩
  | .hbm, ⟨100, _⟩ => ⟨S1x128, .f32⟩
  | .hbm, ⟨101, _⟩ => ⟨S16384x128, .f32⟩
  | .hbm, ⟨102, _⟩ => ⟨S1x128, .f32⟩
  | .hbm, ⟨103, _⟩ => ⟨S16384x128, .f32⟩
  | .hbm, ⟨104, _⟩ => ⟨S_, .f32⟩
  | .hbm, ⟨105, _⟩ => ⟨S256, .f32⟩
  | .hbm, ⟨106, _⟩ => ⟨S1x256, .f32⟩
  | .hbm, ⟨107, _⟩ => ⟨S16384x256, .f32⟩
  | .hbm, ⟨108, _⟩ => ⟨S1x256, .f32⟩
  | .hbm, ⟨109, _⟩ => ⟨S16384x256, .f32⟩
  | .hbm, ⟨110, _⟩ => ⟨S_, .f32⟩
  | .hbm, ⟨111, _⟩ => ⟨S64, .f32⟩
  | .hbm, ⟨112, _⟩ => ⟨S1x64, .f32⟩
  | .hbm, ⟨113, _⟩ => ⟨S16384x64, .f32⟩
  | .hbm, ⟨114, _⟩ => ⟨S1x64, .f32⟩
  | .hbm, ⟨115, _⟩ => ⟨S16384x64, .f32⟩
  | .hbm, ⟨116, _⟩ => ⟨S16384x16384, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1024x2048, .bf16⟩
  | .local _ .vmem, ⟨8, _⟩ => ⟨S1024x2048, .bf16⟩
  | .local _ .vmem, ⟨9, _⟩ => ⟨S2048x128, .f32⟩
  | .local _ .vmem, ⟨10, _⟩ => ⟨S2048x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S2048x128, .f32⟩
  | .local _ .vmem, ⟨16, _⟩ => ⟨S2048x128, .f32⟩
  | .local _ .vmem, ⟨17, _⟩ => ⟨S128x64, .f32⟩
  | .local _ .vmem, ⟨18, _⟩ => ⟨S1x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S1024x2048, .bf16⟩
  | .local _ .vmem, ⟨23, _⟩ => ⟨S1024x2048, .bf16⟩
  | .local _ .vmem, ⟨24, _⟩ => ⟨S2048x64, .f32⟩
  | .local _ .vmem, ⟨25, _⟩ => ⟨S2048x64, .f32⟩
  | .local _ .vmem, ⟨26, _⟩ => ⟨S1x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S2048x64, .f32⟩
  | .local _ .vmem, ⟨31, _⟩ => ⟨S2048x64, .f32⟩
  | .local _ .vmem, ⟨32, _⟩ => ⟨S64x128, .f32⟩
  | .local _ .vmem, ⟨33, _⟩ => ⟨S1x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S1024x2048, .bf16⟩
  | .local _ .vmem, ⟨38, _⟩ => ⟨S1024x2048, .bf16⟩
  | .local _ .vmem, ⟨39, _⟩ => ⟨S2048x128, .f32⟩
  | .local _ .vmem, ⟨40, _⟩ => ⟨S2048x128, .f32⟩
  | .local _ .vmem, ⟨41, _⟩ => ⟨S1x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S2048x128, .f32⟩
  | .local _ .vmem, ⟨46, _⟩ => ⟨S2048x128, .f32⟩
  | .local _ .vmem, ⟨47, _⟩ => ⟨S128x256, .f32⟩
  | .local _ .vmem, ⟨48, _⟩ => ⟨S1x256, .f32⟩
  | .local _ .vmem, ⟨49, _⟩ => ⟨S2048x256, .f32⟩
  | .local _ .vmem, ⟨50, _⟩ => ⟨S2048x256, .f32⟩
  | .local _ .vmem, ⟨51, _⟩ => ⟨S2048x256, .f32⟩
  | .local _ .vmem, ⟨52, _⟩ => ⟨S1024x2048, .bf16⟩
  | .local _ .vmem, ⟨53, _⟩ => ⟨S1024x2048, .bf16⟩
  | .local _ .vmem, ⟨54, _⟩ => ⟨S2048x256, .f32⟩
  | .local _ .vmem, ⟨55, _⟩ => ⟨S2048x256, .f32⟩
  | .local _ .vmem, ⟨56, _⟩ => ⟨S1x256, .f32⟩
  | .local _ .vmem, ⟨57, _⟩ => ⟨S1024x256, .f32⟩
  | .local _ .vmem, ⟨58, _⟩ => ⟨S1024x256, .f32⟩
  | .local _ .vmem, ⟨59, _⟩ => ⟨S1024x256, .f32⟩
  | .local _ .vmem, ⟨60, _⟩ => ⟨S2048x64, .f32⟩
  | .local _ .vmem, ⟨61, _⟩ => ⟨S2048x64, .f32⟩
  | .local _ .vmem, ⟨62, _⟩ => ⟨S64x64, .f32⟩
  | .local _ .vmem, ⟨63, _⟩ => ⟨S1x64, .f32⟩
  | .local _ .vmem, ⟨64, _⟩ => ⟨S2048x64, .f32⟩
  | .local _ .vmem, ⟨65, _⟩ => ⟨S2048x64, .f32⟩
  | .local _ .vmem, ⟨66, _⟩ => ⟨S2048x64, .f32⟩
  | .local _ .vmem, ⟨67, _⟩ => ⟨S1024x2048, .bf16⟩
  | .local _ .vmem, ⟨68, _⟩ => ⟨S1024x2048, .bf16⟩
  | .local _ .vmem, ⟨69, _⟩ => ⟨S2048x64, .f32⟩
  | .local _ .vmem, ⟨70, _⟩ => ⟨S2048x64, .f32⟩
  | .local _ .vmem, ⟨71, _⟩ => ⟨S1x64, .f32⟩
  | .local _ .vmem, ⟨72, _⟩ => ⟨S1024x64, .f32⟩
  | .local _ .vmem, ⟨73, _⟩ => ⟨S1024x64, .f32⟩
  | .local _ .vmem, ⟨74, _⟩ => ⟨S1024x64, .f32⟩
  | .local _ .vmem, ⟨75, _⟩ => ⟨S2048x64, .f32⟩
  | .local _ .vmem, ⟨76, _⟩ => ⟨S2048x64, .f32⟩
  | .local _ .vmem, ⟨77, _⟩ => ⟨S1024x64, .f32⟩
  | .local _ .vmem, ⟨78, _⟩ => ⟨S1024x64, .f32⟩
  | .local _ .vmem, ⟨79, _⟩ => ⟨S2048x1024, .f32⟩
  | .local _ .vmem, ⟨80, _⟩ => ⟨S2048x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_scratch0 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc6_scratch0 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc7_scratch0 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc8_scratch0 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg1_1 : Ref sig .tc := ⟨.vmem, 70, rfl⟩
abbrev cc9_stg2_0 : Ref sig .tc := ⟨.vmem, 71, rfl⟩
abbrev cc9_stg3_0 : Ref sig .tc := ⟨.vmem, 72, rfl⟩
abbrev cc9_stg3_1 : Ref sig .tc := ⟨.vmem, 73, rfl⟩
abbrev cc9_scratch0 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg1_1 : Ref sig .tc := ⟨.vmem, 78, rfl⟩
abbrev cc10_stg2_0 : Ref sig .tc := ⟨.vmem, 79, rfl⟩
abbrev cc10_stg2_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem3_1 : DmaSem sig := 57
abbrev cc9_sem0_0 : DmaSem sig := 58
abbrev cc9_sem0_1 : DmaSem sig := 59
abbrev cc9_sem1_0 : DmaSem sig := 60
abbrev cc9_sem1_1 : DmaSem sig := 61
abbrev cc9_sem2_0 : DmaSem sig := 62
abbrev cc9_sem3_0 : DmaSem sig := 63
abbrev cc9_sem3_1 : DmaSem sig := 64
abbrev cc10_sem0_0 : DmaSem sig := 65
abbrev cc10_sem0_1 : DmaSem sig := 66
abbrev cc10_sem1_0 : DmaSem sig := 67
abbrev cc10_sem1_1 : DmaSem sig := 68
abbrev cc10_sem2_0 : DmaSem sig := 69
abbrev cc10_sem2_1 : DmaSem sig := 70

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 1, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 1], ![false, false, false]⟩

def k2_cond2 (i : grid2.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 1, 8], ![false, false, false]⟩

def k3_cond2 (i : grid3.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![8, 1, 1], ![false, false, false]⟩

def k4_cond2 (i : grid4.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![16, 1, 8], ![false, false, false]⟩

def k5_cond2 (i : grid5.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![8, 1, 1], ![false, false, false]⟩

def k6_cond2 (i : grid6.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, true, false]

abbrev stage6_3 : Fin 2 → Memref sig .tc .vmem S2048x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![16, 1, 8], ![false, false, false]⟩

def k7_cond2 (i : grid7.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true, false]

abbrev stage7_3 : Fin 2 → Memref sig .tc .vmem S1024x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨3, ![8, 1, 1], ![false, false, false]⟩

def k8_cond2 (i : grid8.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2048x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, true, false]

abbrev stage8_3 : Fin 2 → Memref sig .tc .vmem S2048x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨3, ![16, 1, 8], ![false, false, false]⟩

def k9_cond2 (i : grid9.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S2048x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, true, false]

abbrev stage9_3 : Fin 2 → Memref sig .tc .vmem S1024x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨2, ![8, 16], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S2048x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1024x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2048x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S_S16384x16384 : S_.BroadcastsInDim S16384x16384 (![] : Fin 0 → Fin S16384x16384.rank)
  concatenates_S524288x1_S524288x1_S524288x2_d1 : Shape.Concatenates [S524288x1, S524288x1] S524288x2 1
  bcast_S16384_S16384x1_0 : S16384.BroadcastsInDim S16384x1 (![0] : Fin 1 → Fin S16384x1.rank)
  concatenates_S16384x1_S16384x1_S16384x2_d1 : Shape.Concatenates [S16384x1, S16384x1] S16384x2 1
  bitsLt_bf16_f32 : FTy.bits .bf16 < FTy.bits .f32
  bcast_S_S128 : S_.BroadcastsInDim S128 (![] : Fin 0 → Fin S128.rank)
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1x128_S1024x128 : S1x128.Broadcasts S1024x128
  bcast_S_S64 : S_.BroadcastsInDim S64 (![] : Fin 0 → Fin S64.rank)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S64x128_S64x128_0_0 : ∀ a, (![0, 0] : Fin 2 → Nat) a + S64x128.size a ≤ S64x128.size a
  h_S64x128 : 0 < S64x128.numel
  bcast_S_S256 : S_.BroadcastsInDim S256 (![] : Fin 0 → Fin S256.rank)
  shapeCasts_S256_S1x256 : S256.ShapeCasts S1x256
  shapeCasts_S2048x256_S2048x256 : S2048x256.ShapeCasts S2048x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x256_S1024x256 : S1x256.Broadcasts S1024x256
  inb_S64x64_S64x64_0_0 : ∀ a, (![0, 0] : Fin 2 → Nat) a + S64x64.size a ≤ S64x64.size a
  h_S64x64 : 0 < S64x64.numel
  transposes_S1024x64_p1_0_S64x1024 : S1024x64.Transposes [1, 0] S64x1024
  inb_S2048x1024_S2048x1024_0_0 : ∀ a, (![0, 0] : Fin 2 → Nat) a + S2048x1024.size a ≤ S2048x1024.size a
  h_S2048x1024 : 0 < S2048x1024.numel
  scatter_S16384_S524288x1_S524288_n_0_0_1_wf : ScatterDims.WF S16384 S524288x1 S524288 [] [0] [0] 1
  gather_S16384_S524288x1_S524288_n_0_n_n_0_1_1_wf : GatherDims.WF S16384 S524288x1 S524288 [] [0] [] [0] [] 1 ![1]
  scatter_S16384x16384_S524288x2_S524288_n_01_01_1_wf : ScatterDims.WF S16384x16384 S524288x2 S524288 [] [0, 1] [0, 1] 1
  scatter_S16384x16384_S16384x2_S16384_n_01_01_1_wf : ScatterDims.WF S16384x16384 S16384x2 S16384 [] [0, 1] [0, 1] 1
  dot_S2048x256_S256x128_S2048x128_1_0_0_1_n_n_wf : DotDims.WF S2048x256 S256x128 S2048x128 [1] [0] [0] [1] [] []
  dot_S1024x2048_S2048x128_S1024x128_1_0_0_1_n_n_wf : DotDims.WF S1024x2048 S2048x128 S1024x128 [1] [0] [0] [1] [] []
  dot_S2048x128_S128x64_S2048x64_1_0_0_1_n_n_wf : DotDims.WF S2048x128 S128x64 S2048x64 [1] [0] [0] [1] [] []
  dot_S1024x2048_S2048x64_S1024x64_1_0_0_1_n_n_wf : DotDims.WF S1024x2048 S2048x64 S1024x64 [1] [0] [0] [1] [] []
  dot_S2048x64_S64x128_S2048x128_1_0_0_1_n_n_wf : DotDims.WF S2048x64 S64x128 S2048x128 [1] [0] [0] [1] [] []
  dot_S2048x128_S128x256_S2048x256_1_0_0_1_n_n_wf : DotDims.WF S2048x128 S128x256 S2048x256 [1] [0] [0] [1] [] []
  dot_S1024x2048_S2048x256_S1024x256_1_0_0_1_n_n_wf : DotDims.WF S1024x2048 S2048x256 S1024x256 [1] [0] [0] [1] [] []
  dot_S2048x64_S64x64_S2048x64_1_0_0_1_n_n_wf : DotDims.WF S2048x64 S64x64 S2048x64 [1] [0] [0] [1] [] []
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .bf16 = 32 ∨ (Rect.block (s := S16384x16384) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S16384x128.size a
  hwx1_3 : ∀ i : grid1.Coords, EltTy.bits .f32 = 32 ∨ (Rect.block (s := S16384x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .f32 = 32 ∨ (Rect.block (s := S16384x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S16384x16384.size a
  hwx3_0 : ∀ i : grid3.Coords, EltTy.bits .bf16 = 32 ∨ (Rect.block (s := S16384x16384) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S16384x64.size a
  hwx3_1 : ∀ i : grid3.Coords, EltTy.bits .f32 = 32 ∨ (Rect.block (s := S16384x64) S2048x64.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S16384x64.size a
  hwx3_3 : ∀ i : grid3.Coords, EltTy.bits .f32 = 32 ∨ (Rect.block (s := S16384x64) S1024x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S16384x64.size a
  hwx4_0 : ∀ i : grid4.Coords, EltTy.bits .f32 = 32 ∨ (Rect.block (s := S16384x64) S2048x64.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S16384x128.size a
  hwx4_3 : ∀ i : grid4.Coords, EltTy.bits .f32 = 32 ∨ (Rect.block (s := S16384x128) S2048x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S16384x16384.size a
  hwx5_0 : ∀ i : grid5.Coords, EltTy.bits .bf16 = 32 ∨ (Rect.block (s := S16384x16384) S1024x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S16384x128.size a
  hwx5_1 : ∀ i : grid5.Coords, EltTy.bits .f32 = 32 ∨ (Rect.block (s := S16384x128) S2048x128.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S16384x128.size a
  hwx5_3 : ∀ i : grid5.Coords, EltTy.bits .f32 = 32 ∨ (Rect.block (s := S16384x128) S1024x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S16384x128.size a
  hwx6_0 : ∀ i : grid6.Coords, EltTy.bits .f32 = 32 ∨ (Rect.block (s := S16384x128) S2048x128.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x256.size a ≤ S16384x256.size a
  hwx6_3 : ∀ i : grid6.Coords, EltTy.bits .f32 = 32 ∨ (Rect.block (s := S16384x256) S2048x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x2048.size a ≤ S16384x16384.size a
  hwx7_0 : ∀ i : grid7.Coords, EltTy.bits .bf16 = 32 ∨ (Rect.block (s := S16384x16384) S1024x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x256.size a ≤ S16384x256.size a
  hwx7_1 : ∀ i : grid7.Coords, EltTy.bits .f32 = 32 ∨ (Rect.block (s := S16384x256) S2048x256.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x256.size a ≤ S16384x256.size a
  hwx7_3 : ∀ i : grid7.Coords, EltTy.bits .f32 = 32 ∨ (Rect.block (s := S16384x256) S1024x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x64.size a ≤ S16384x64.size a
  hwx8_0 : ∀ i : grid8.Coords, EltTy.bits .f32 = 32 ∨ (Rect.block (s := S16384x64) S2048x64.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x64.size a ≤ S16384x64.size a
  hwx8_3 : ∀ i : grid8.Coords, EltTy.bits .f32 = 32 ∨ (Rect.block (s := S16384x64) S2048x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x2048.size a ≤ S16384x16384.size a
  hwx9_0 : ∀ i : grid9.Coords, EltTy.bits .bf16 = 32 ∨ (Rect.block (s := S16384x16384) S1024x2048.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x64.size a ≤ S16384x64.size a
  hwx9_1 : ∀ i : grid9.Coords, EltTy.bits .f32 = 32 ∨ (Rect.block (s := S16384x64) S2048x64.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x64.size a ≤ S16384x64.size a
  hwx9_3 : ∀ i : grid9.Coords, EltTy.bits .f32 = 32 ∨ (Rect.block (s := S16384x64) S1024x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x64.size a ≤ S16384x64.size a
  hwx10_0 : ∀ i : grid10.Coords, EltTy.bits .f32 = 32 ∨ (Rect.block (s := S16384x64) S2048x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x64.size a ≤ S16384x64.size a
  hwx10_1 : ∀ i : grid10.Coords, EltTy.bits .f32 = 32 ∨ (Rect.block (s := S16384x64) S1024x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x1024.size a ≤ S16384x16384.size a
  hwx10_2 : ∀ i : grid10.Coords, EltTy.bits .f32 = 32 ∨ (Rect.block (s := S16384x16384) S2048x1024.size (cc10_transform_2 i) (hinb10_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v57) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v62) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x64.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v57) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x64.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v67) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x128.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S2048x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v57) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x128.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1024x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v72) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x256.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S1x256.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_v75) S2048x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v57) S1024x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S2048x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v76) S1x256.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v77) S1024x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v67) S2048x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x64.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v79) S1x64.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_v80) S2048x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v57) S1024x2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v80) S2048x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v81) S1x64.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v82) S1024x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v82) S2048x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v82) S1024x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v83) S2048x1024.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S16384x256 : Shape := ⟨2, ![16384, 256]⟩
abbrev S2x524288 : Shape := ⟨2, ![2, 524288]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S64x64 : Shape := ⟨2, ![64, 64]⟩
abbrev S1x524288 : Shape := ⟨2, ![1, 524288]⟩
abbrev S524288 : Shape := ⟨1, ![524288]⟩
abbrev S16384x128 : Shape := ⟨2, ![16384, 128]⟩
abbrev S_ : Shape := ⟨0, ![]⟩
abbrev S16384 : Shape := ⟨1, ![16384]⟩
abbrev S524288x1 : Shape := ⟨2, ![524288, 1]⟩
abbrev S524288x128 : Shape := ⟨2, ![524288, 128]⟩
abbrev S16384x1 : Shape := ⟨2, ![16384, 1]⟩
abbrev S1x128 : Shape := ⟨2, ![1, 128]⟩
abbrev S16384x64 : Shape := ⟨2, ![16384, 64]⟩
abbrev S524288x64 : Shape := ⟨2, ![524288, 64]⟩
abbrev S1x64 : Shape := ⟨2, ![1, 64]⟩
abbrev S524288x256 : Shape := ⟨2, ![524288, 256]⟩
abbrev S1x256 : Shape := ⟨2, ![1, 256]⟩
abbrev S64x16384 : Shape := ⟨2, ![64, 16384]⟩
abbrev S16384x16384 : Shape := ⟨2, ![16384, 16384]⟩

abbrev nBuf : Space → Nat
  | .hbm => 300
  | .vmem => 0
  | .smem => 0
  | _ => 0

abbrev hbmTy0_0 (i : Nat) : BufTy := match i % 128 with
  | 0 => ⟨S16384x256, .f32⟩
  | 1 => ⟨S2x524288, .i32⟩
  | 2 => ⟨S256x128, .f32⟩
  | 3 => ⟨S128, .f32⟩
  | 4 => ⟨S128x64, .f32⟩
  | 5 => ⟨S64, .f32⟩
  | 6 => ⟨S64x128, .f32⟩
  | 7 => ⟨S128, .f32⟩
  | 8 => ⟨S128x256, .f32⟩
  | 9 => ⟨S256, .f32⟩
  | 10 => ⟨S64x64, .f32⟩
  | 11 => ⟨S64, .f32⟩
  | 12 => ⟨S1x524288, .i32⟩
  | 13 => ⟨S524288, .i32⟩
  | 14 => ⟨S1x524288, .i32⟩
  | 15 => ⟨S524288, .i32⟩
  | 16 => ⟨S16384x128, .f32⟩
  | 17 => ⟨S_, .f32⟩
  | 18 => ⟨S524288, .f32⟩
  | 19 => ⟨S_, .f32⟩
  | 20 => ⟨S16384, .f32⟩
  | 21 => ⟨S524288x1, .i32⟩
  | 22 => ⟨S16384, .f32⟩
  | 23 => ⟨S_, .f32⟩
  | 24 => ⟨S16384, .f32⟩
  | 25 => ⟨S16384, .f32⟩
  | 26 => ⟨S16384, .f32⟩
  | 27 => ⟨S_, .i32⟩
  | 28 => ⟨S524288, .i32⟩
  | 29 => ⟨S524288, .i1⟩
  | 30 => ⟨S_, .i32⟩
  | 31 => ⟨S524288, .i32⟩
  | 32 => ⟨S524288, .i32⟩
  | 33 => ⟨S524288, .i32⟩
  | 34 => ⟨S524288x1, .i32⟩
  | 35 => ⟨S524288, .f32⟩
  | 36 => ⟨S_, .i32⟩
  | 37 => ⟨S524288, .i32⟩
  | 38 => ⟨S524288, .i1⟩
  | 39 => ⟨S_, .i32⟩
  | 40 => ⟨S524288, .i32⟩
  | 41 => ⟨S524288, .i32⟩
  | 42 => ⟨S524288, .i32⟩
  | 43 => ⟨S524288x1, .i32⟩
  | 44 => ⟨S524288, .f32⟩
  | 45 => ⟨S524288, .f32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S524288x1, .i32⟩
  | 54 => ⟨S524288x128, .f32⟩
  | 55 => ⟨S524288x1, .f32⟩
  | 56 => ⟨S524288x128, .f32⟩
  | 57 => ⟨S524288x128, .f32⟩
  | 58 => ⟨S_, .f32⟩
  | 59 => ⟨S16384x128, .f32⟩
  | 60 => ⟨S524288x1, .i32⟩
  | 61 => ⟨S16384x128, .f32⟩
  | 62 => ⟨S16384, .f32⟩
  | 63 => ⟨S16384x1, .f32⟩
  | 64 => ⟨S16384x128, .f32⟩
  | 65 => ⟨S16384x128, .f32⟩
  | 66 => ⟨S16384x128, .f32⟩
  | 67 => ⟨S1x128, .f32⟩
  | 68 => ⟨S16384x128, .f32⟩
  | 69 => ⟨S16384x128, .f32⟩
  | 70 => ⟨S_, .f32⟩
  | 71 => ⟨S16384x128, .f32⟩
  | 72 => ⟨S16384x128, .f32⟩
  | 73 => ⟨S16384x64, .f32⟩
  | 74 => ⟨S_, .f32⟩
  | 75 => ⟨S524288, .f32⟩
  | 76 => ⟨S_, .f32⟩
  | 77 => ⟨S16384, .f32⟩
  | 78 => ⟨S524288x1, .i32⟩
  | 79 => ⟨S16384, .f32⟩
  | 80 => ⟨S_, .f32⟩
  | 81 => ⟨S16384, .f32⟩
  | 82 => ⟨S16384, .f32⟩
  | 83 => ⟨S16384, .f32⟩
  | 84 => ⟨S_, .i32⟩
  | 85 => ⟨S524288, .i32⟩
  | 86 => ⟨S524288, .i1⟩
  | 87 => ⟨S_, .i32⟩
  | 88 => ⟨S524288, .i32⟩
  | 89 => ⟨S524288, .i32⟩
  | 90 => ⟨S524288, .i32⟩
  | 91 => ⟨S524288x1, .i32⟩
  | 92 => ⟨S524288, .f32⟩
  | 93 => ⟨S_, .i32⟩
  | 94 => ⟨S524288, .i32⟩
  | 95 => ⟨S524288, .i1⟩
  | 96 => ⟨S_, .i32⟩
  | 97 => ⟨S524288, .i32⟩
  | 98 => ⟨S524288, .i32⟩
  | 99 => ⟨S524288, .i32⟩
  | 100 => ⟨S524288x1, .i32⟩
  | 101 => ⟨S524288, .f32⟩
  | 102 => ⟨S524288, .f32⟩
  | 103 => ⟨S_, .i32⟩
  | 104 => ⟨S524288, .i32⟩
  | 105 => ⟨S524288, .i1⟩
  | 106 => ⟨S_, .i32⟩
  | 107 => ⟨S524288, .i32⟩
  | 108 => ⟨S524288, .i32⟩
  | 109 => ⟨S524288, .i32⟩
  | 110 => ⟨S524288x1, .i32⟩
  | 111 => ⟨S524288x64, .f32⟩
  | 112 => ⟨S524288x1, .f32⟩
  | 113 => ⟨S524288x64, .f32⟩
  | 114 => ⟨S524288x64, .f32⟩
  | 115 => ⟨S_, .f32⟩
  | 116 => ⟨S16384x64, .f32⟩
  | 117 => ⟨S524288x1, .i32⟩
  | 118 => ⟨S16384x64, .f32⟩
  | 119 => ⟨S16384, .f32⟩
  | 120 => ⟨S16384x1, .f32⟩
  | 121 => ⟨S16384x64, .f32⟩
  | 122 => ⟨S16384x64, .f32⟩
  | 123 => ⟨S16384x64, .f32⟩
  | 124 => ⟨S1x64, .f32⟩
  | 125 => ⟨S16384x64, .f32⟩
  | 126 => ⟨S16384x64, .f32⟩
  | 127 => ⟨S_, .f32⟩
  | _ => ⟨S16384x256, .f32⟩

abbrev hbmTy0_1 (i : Nat) : BufTy := match i % 128 with
  | 0 => ⟨S16384x64, .f32⟩
  | 1 => ⟨S16384x64, .f32⟩
  | 2 => ⟨S16384x128, .f32⟩
  | 3 => ⟨S_, .f32⟩
  | 4 => ⟨S524288, .f32⟩
  | 5 => ⟨S_, .f32⟩
  | 6 => ⟨S16384, .f32⟩
  | 7 => ⟨S524288x1, .i32⟩
  | 8 => ⟨S16384, .f32⟩
  | 9 => ⟨S_, .f32⟩
  | 10 => ⟨S16384, .f32⟩
  | 11 => ⟨S16384, .f32⟩
  | 12 => ⟨S16384, .f32⟩
  | 13 => ⟨S_, .i32⟩
  | 14 => ⟨S524288, .i32⟩
  | 15 => ⟨S524288, .i1⟩
  | 16 => ⟨S_, .i32⟩
  | 17 => ⟨S524288, .i32⟩
  | 18 => ⟨S524288, .i32⟩
  | 19 => ⟨S524288, .i32⟩
  | 20 => ⟨S524288x1, .i32⟩
  | 21 => ⟨S524288, .f32⟩
  | 22 => ⟨S_, .i32⟩
  | 23 => ⟨S524288, .i32⟩
  | 24 => ⟨S524288, .i1⟩
  | 25 => ⟨S_, .i32⟩
  | 26 => ⟨S524288, .i32⟩
  | 27 => ⟨S524288, .i32⟩
  | 28 => ⟨S524288, .i32⟩
  | 29 => ⟨S524288x1, .i32⟩
  | 30 => ⟨S524288, .f32⟩
  | 31 => ⟨S524288, .f32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S524288x1, .i32⟩
  | 40 => ⟨S524288x128, .f32⟩
  | 41 => ⟨S524288x1, .f32⟩
  | 42 => ⟨S524288x128, .f32⟩
  | 43 => ⟨S524288x128, .f32⟩
  | 44 => ⟨S_, .f32⟩
  | 45 => ⟨S16384x128, .f32⟩
  | 46 => ⟨S524288x1, .i32⟩
  | 47 => ⟨S16384x128, .f32⟩
  | 48 => ⟨S16384, .f32⟩
  | 49 => ⟨S16384x1, .f32⟩
  | 50 => ⟨S16384x128, .f32⟩
  | 51 => ⟨S16384x128, .f32⟩
  | 52 => ⟨S16384x128, .f32⟩
  | 53 => ⟨S1x128, .f32⟩
  | 54 => ⟨S16384x128, .f32⟩
  | 55 => ⟨S16384x128, .f32⟩
  | 56 => ⟨S_, .f32⟩
  | 57 => ⟨S16384x128, .f32⟩
  | 58 => ⟨S16384x128, .f32⟩
  | 59 => ⟨S16384x256, .f32⟩
  | 60 => ⟨S_, .f32⟩
  | 61 => ⟨S524288, .f32⟩
  | 62 => ⟨S_, .f32⟩
  | 63 => ⟨S16384, .f32⟩
  | 64 => ⟨S524288x1, .i32⟩
  | 65 => ⟨S16384, .f32⟩
  | 66 => ⟨S_, .f32⟩
  | 67 => ⟨S16384, .f32⟩
  | 68 => ⟨S16384, .f32⟩
  | 69 => ⟨S16384, .f32⟩
  | 70 => ⟨S_, .i32⟩
  | 71 => ⟨S524288, .i32⟩
  | 72 => ⟨S524288, .i1⟩
  | 73 => ⟨S_, .i32⟩
  | 74 => ⟨S524288, .i32⟩
  | 75 => ⟨S524288, .i32⟩
  | 76 => ⟨S524288, .i32⟩
  | 77 => ⟨S524288x1, .i32⟩
  | 78 => ⟨S524288, .f32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S524288x1, .i32⟩
  | 87 => ⟨S524288, .f32⟩
  | 88 => ⟨S524288, .f32⟩
  | 89 => ⟨S_, .i32⟩
  | 90 => ⟨S524288, .i32⟩
  | 91 => ⟨S524288, .i1⟩
  | 92 => ⟨S_, .i32⟩
  | 93 => ⟨S524288, .i32⟩
  | 94 => ⟨S524288, .i32⟩
  | 95 => ⟨S524288, .i32⟩
  | 96 => ⟨S524288x1, .i32⟩
  | 97 => ⟨S524288x256, .f32⟩
  | 98 => ⟨S524288x1, .f32⟩
  | 99 => ⟨S524288x256, .f32⟩
  | 100 => ⟨S524288x256, .f32⟩
  | 101 => ⟨S_, .f32⟩
  | 102 => ⟨S16384x256, .f32⟩
  | 103 => ⟨S524288x1, .i32⟩
  | 104 => ⟨S16384x256, .f32⟩
  | 105 => ⟨S16384, .f32⟩
  | 106 => ⟨S16384x1, .f32⟩
  | 107 => ⟨S16384x256, .f32⟩
  | 108 => ⟨S16384x256, .f32⟩
  | 109 => ⟨S16384x256, .f32⟩
  | 110 => ⟨S1x256, .f32⟩
  | 111 => ⟨S16384x256, .f32⟩
  | 112 => ⟨S16384x256, .f32⟩
  | 113 => ⟨S16384x64, .f32⟩
  | 114 => ⟨S_, .f32⟩
  | 115 => ⟨S524288, .f32⟩
  | 116 => ⟨S_, .f32⟩
  | 117 => ⟨S16384, .f32⟩
  | 118 => ⟨S524288x1, .i32⟩
  | 119 => ⟨S16384, .f32⟩
  | 120 => ⟨S_, .f32⟩
  | 121 => ⟨S16384, .f32⟩
  | 122 => ⟨S16384, .f32⟩
  | 123 => ⟨S16384, .f32⟩
  | 124 => ⟨S_, .i32⟩
  | 125 => ⟨S524288, .i32⟩
  | 126 => ⟨S524288, .i1⟩
  | 127 => ⟨S_, .i32⟩
  | _ => ⟨S16384x256, .f32⟩

abbrev hbmTy0_2 (i : Nat) : BufTy := match i % 128 with
  | 0 => ⟨S524288, .i32⟩
  | 1 => ⟨S524288, .i32⟩
  | 2 => ⟨S524288, .i32⟩
  | 3 => ⟨S524288x1, .i32⟩
  | 4 => ⟨S524288, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S524288, .f32⟩
  | 14 => ⟨S524288, .f32⟩
  | 15 => ⟨S_, .i32⟩
  | 16 => ⟨S524288, .i32⟩
  | 17 => ⟨S524288, .i1⟩
  | 18 => ⟨S_, .i32⟩
  | 19 => ⟨S524288, .i32⟩
  | 20 => ⟨S524288, .i32⟩
  | 21 => ⟨S524288, .i32⟩
  | 22 => ⟨S524288x1, .i32⟩
  | 23 => ⟨S524288x64, .f32⟩
  | 24 => ⟨S524288x1, .f32⟩
  | 25 => ⟨S524288x64, .f32⟩
  | 26 => ⟨S524288x64, .f32⟩
  | 27 => ⟨S_, .f32⟩
  | 28 => ⟨S16384x64, .f32⟩
  | 29 => ⟨S524288x1, .i32⟩
  | 30 => ⟨S16384x64, .f32⟩
  | 31 => ⟨S16384, .f32⟩
  | 32 => ⟨S16384x1, .f32⟩
  | 33 => ⟨S16384x64, .f32⟩
  | 34 => ⟨S16384x64, .f32⟩
  | 35 => ⟨S16384x64, .f32⟩
  | 36 => ⟨S1x64, .f32⟩
  | 37 => ⟨S16384x64, .f32⟩
  | 38 => ⟨S16384x64, .f32⟩
  | 39 => ⟨S_, .f32⟩
  | 40 => ⟨S16384x64, .f32⟩
  | 41 => ⟨S16384x64, .f32⟩
  | 42 => ⟨S64x16384, .f32⟩
  | 43 => ⟨S16384x16384, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call1_cst : Ref sig .tc := ⟨.hbm, 127, rfl⟩
abbrev main_call1_v0 : Ref sig .tc := ⟨.hbm, 128, rfl⟩
abbrev main_v93 : Ref sig .tc := ⟨.hbm, 129, rfl⟩
abbrev main_v94 : Ref sig .tc := ⟨.hbm, 130, rfl⟩
abbrev main_cst_18 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_21 : Ref sig .tc := ⟨.hbm, 141, rfl⟩
abbrev main_v102 : Ref sig .tc := ⟨.hbm, 142, rfl⟩
abbrev main_v103 : Ref sig .tc := ⟨.hbm, 143, rfl⟩
abbrev main_c_22 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_23 : Ref sig .tc := ⟨.hbm, 150, rfl⟩
abbrev main_v109 : Ref sig .tc := ⟨.hbm, 151, rfl⟩
abbrev main_v110 : Ref sig .tc := ⟨.hbm, 152, rfl⟩
abbrev main_c_24 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_25 : Ref sig .tc := ⟨.hbm, 160, rfl⟩
abbrev main_v117 : Ref sig .tc := ⟨.hbm, 161, rfl⟩
abbrev main_v118 : Ref sig .tc := ⟨.hbm, 162, rfl⟩
abbrev main_c_26 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_27 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_call2_cst : Ref sig .tc := ⟨.hbm, 184, rfl⟩
abbrev main_call2_v0 : Ref sig .tc := ⟨.hbm, 185, rfl⟩
abbrev main_v138 : Ref sig .tc := ⟨.hbm, 186, rfl⟩
abbrev main_v139 : Ref sig .tc := ⟨.hbm, 187, rfl⟩
abbrev main_cst_28 : Ref sig .tc := ⟨.hbm, 188, rfl⟩
abbrev main_v140 : Ref sig .tc := ⟨.hbm, 189, rfl⟩
abbrev main_cst_29 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_30 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_c_31 : Ref sig .tc := ⟨.hbm, 198, rfl⟩
abbrev main_v147 : Ref sig .tc := ⟨.hbm, 199, rfl⟩
abbrev main_v148 : Ref sig .tc := ⟨.hbm, 200, rfl⟩
abbrev main_c_32 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_33 : Ref sig .tc := ⟨.hbm, 207, rfl⟩
abbrev main_v154 : Ref sig .tc := ⟨.hbm, 208, rfl⟩
abbrev main_v155 : Ref sig .tc := ⟨.hbm, 209, rfl⟩
abbrev main_c_34 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_c_35 : Ref sig .tc := ⟨.hbm, 217, rfl⟩
abbrev main_v162 : Ref sig .tc := ⟨.hbm, 218, rfl⟩
abbrev main_v163 : Ref sig .tc := ⟨.hbm, 219, rfl⟩
abbrev main_c_36 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst_37 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_38 : Ref sig .tc := ⟨.hbm, 242, rfl⟩
abbrev main_v184 : Ref sig .tc := ⟨.hbm, 243, rfl⟩
abbrev main_cst_39 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_40 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_c_41 : Ref sig .tc := ⟨.hbm, 252, rfl⟩
abbrev main_v191 : Ref sig .tc := ⟨.hbm, 253, rfl⟩
abbrev main_v192 : Ref sig .tc := ⟨.hbm, 254, rfl⟩
abbrev main_c_42 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_43 : Ref sig .tc := ⟨.hbm, 261, rfl⟩
abbrev main_v198 : Ref sig .tc := ⟨.hbm, 262, rfl⟩
abbrev main_v199 : Ref sig .tc := ⟨.hbm, 263, rfl⟩
abbrev main_c_44 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_45 : Ref sig .tc := ⟨.hbm, 271, rfl⟩
abbrev main_v206 : Ref sig .tc := ⟨.hbm, 272, rfl⟩
abbrev main_v207 : Ref sig .tc := ⟨.hbm, 273, rfl⟩
abbrev main_c_46 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_cst_47 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_call3_cst : Ref sig .tc := ⟨.hbm, 295, rfl⟩
abbrev main_call3_v0 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S16384x128 : S_.BroadcastsInDim S16384x128 (![] : Fin 0 → Fin S16384x128.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S524288x1_S524288x64_0_1 : S524288x1.BroadcastsInDim S524288x64 (![0, 1] : Fin 2 → Fin S524288x64.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S16384x64_S64x16384_1_0 : S16384x64.Transposes [1, 0] S64x16384
  dot_S16384x256_S256x128_S16384x128_1_0_0_1_n_n_wf : DotDims.WF S16384x256 S256x128 S16384x128 [1] [0] [0] [1] [] []
  scatter_S16384_S524288x1_S524288_n_0_0_1_wf : ScatterDims.WF S16384 S524288x1 S524288 [] [0] [0] 1
  gather_S16384_S524288x1_S524288_n_0_n_n_0_1_1_wf : GatherDims.WF S16384 S524288x1 S524288 [] [0] [] [0] [] 1 ![1]
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x64_S16384x64_1_0_0_1_n_n_wf : DotDims.WF S16384x128 S128x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x128_S16384x128_1_0_0_1_n_n_wf : DotDims.WF S16384x64 S64x128 S16384x128 [1] [0] [0] [1] [] []
  dot_S16384x128_S128x256_S16384x256_1_0_0_1_n_n_wf : DotDims.WF S16384x128 S128x256 S16384x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x64_S64x64_S16384x64_1_0_0_1_n_n_wf : DotDims.WF S16384x64 S64x64 S16384x64 [1] [0] [0] [1] [] []
  dot_S16384x64_S64x16384_S16384x16384_1_0_0_1_n_n_wf : DotDims.WF S16384x64 S64x16384 S16384x16384 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.KB.Region0.lean ====
/-
  Region 0 of the program's main function: the matrix-product kernel of custom call 0, run by its pipeline on a grid whose
  contraction axis has ONE step.  At every grid point the kernel clears its accumulator, adds the product of the
  left block (2048x256) and the right block (256x128) into it, reads it back, adds the bias row (1x128) broadcast
  over the rows, and stores the result (2048x128) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not: where it did not, the block index has not moved since the last fetch and the body left the block in place.
    For any proof data whose array is the entry contents and whose body keeps the block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The offsets of every access are zero. -/
theorem hz0 : (![0, 0] : Fin 2 → Nat) = fun _ => 0 := by funext a; fin_cases a <;> rfl

abbrev r0_a : Rect S2048x256 := Rect.unit (s := S2048x256) ![0, 0] S2048x256.size inb_S2048x256_S2048x256_0_0
abbrev r0_b : Rect S256x128 := Rect.unit (s := S256x128) ![0, 0] S256x128.size inb_S256x128_S256x128_0_0
abbrev r0_c : Rect S1x128 := Rect.unit (s := S1x128) ![0, 0] S1x128.size inb_S1x128_S1x128_0_0
abbrev r0_o : Rect S2048x128 := Rect.unit (s := S2048x128) ![0, 0] S2048x128.size inb_S2048x128_S2048x128_0_0

/-! ## The body's two conditions, both true at every point (the contraction axis has one step) -/

/-- "This is the first contraction step", as the kernel computes it from grid coordinate 2. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))

/-- "This is the last contraction step". -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- So no window is idle at any point: the body stores the output block at each. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## What the body leaves in the output window's buffer -/

/-- The accumulator when it is read back for the output: cleared, then the product of the two blocks added once. -/
def acc0 (x0 : Vec F S2048x256 .f32) (x1 : Vec F S256x128 .f32) : Vec F S2048x128 .f32 :=
  k0_pay2 (View.ld x0 r0_a) (View.ld x1 r0_b) (k0_pay1 (F := F))

/-- The output window's staging buffer after the body, from the input windows' blocks: its one store, of the whole block. -/
def out0_3 (x0 : Vec F S2048x256 .f32) (x1 : Vec F S256x128 .f32) (x2 : Vec F S1x128 .f32) : Vec F S2048x128 .f32 :=
  View.canon [⟨r0_o, k0_pay3 (acc0 x0 x1) (View.ld x2 r0_c)⟩]

/-- That store covers the buffer. -/
theorem storeCover0_3 (p0 : Vec F S2048x128 .f32) (y : S2048x128.Idx) :
    ∃ pc ∈ ([⟨r0_o, p0⟩] : List (View.Piece (Elt F) S2048x128 .f32)), y ∈ pc.1.set :=
  ⟨_, List.mem_singleton_self _, View.mem_set_unit_zero (S := S2048x128) hz0 inb_S2048x128_S2048x128_0_0 y⟩

/-- THE VALUE of the output block: bias row added to (zeros + left block × right block), in the kernel's own arithmetic. -/
theorem out0_3_eq (x0 : Vec F S2048x256 .f32) (x1 : Vec F S256x128 .f32) (x2 : Vec F S1x128 .f32) :
    out0_3 x0 x1 x2 = k0_pay3 (k0_pay2 x0 x1 (k0_pay1 (F := F))) x2 := by
  unfold out0_3 acc0
  refine (View.canon_unit_zero (S := S2048x128) hz0 _ _).trans ?_
  rw [View.ld_unit_zero (S := S2048x256) hz0, View.ld_unit_zero (S := S256x128) hz0, View.ld_unit_zero (S := S1x128) hz0]

/-! ## The body's triple -/

set_option maxHeartbeats 2000000 in
/-- The kernel body on whole memrefs — the three inputs' at their read contents, the output's and the accumulator's at
    anything — runs to the continuation holding the inputs' as they were, the output's at `out0_3` of the inputs', and
    the accumulator's at some contents.  Both conditions hold (`hc0`, `hc1`), so both branches are taken. -/
theorem sound_kernel0 (c : Dev nD) (E : Set ℕ) (i : grid0.Coords) (hc0 : cond0_0 i) (hc1 : cond0_1 i)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole)
    (x0 : Vec F S2048x256 .f32) (x1 : Vec F S256x128 .f32) (x2 : Vec F S1x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out0_3 x0 x1 x2) ∗ (∃ d, owns (c : Thread nD τ) arg7 fullShare d)) -∗ K ⟨⟩))
      ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover0_3 _)]
    unfold out0_3 acc0
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM0 : Memref sig .tc .vmem S2048x128 .f32 := Memref.whole cc0_scratch0

/-- The region invariant with the accumulator taken out of the scoped rest: owned at some contents, beside every other
    scoped buffer (unopened) and the generator register. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0, owns_whole]; try rfl

/-- The proof data of pipeline 0 on core `c`: the arrays as the region finds them; after the body at point `t` each
    input's buffer at its block and the output's at `out0_3` of the input blocks; the constant invariant; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- The output window after the body at point `t`: `out0_3` of the three input blocks there (its value: `out0_3_eq`). -/
theorem after0_out (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- No window is idle, so the body's post for each is its buffer at what the body leaves. -/
theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (st0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (st0_3 t) fullShare (out0_3 (iblk0 V c 0 t) (iblk0 V c 1 t) (iblk0 V c 2 t)) := by
  unfold Dat.leavesExact; rw [liveAt0_3 t, after0_out]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    leaves0_0, leaves0_1, leaves0_2, leaves0_3,
    show (dat0 V c).Φ t.castSucc = Pipeline.ΦA spec0 c from rfl, PhiA0_eq]
  iintro ⟨⟨⟨HS, Hrest⟩, Hg⟩, Ho, ⟨%d0, H0⟩, ⟨%d1, H1⟩, ⟨%d2, H2⟩, ⟨%d3, H3⟩⟩
  iapply (sound_kernel0 c Set.univ (grid0.coords t) (hcond0_0 t) (hcond0_1 t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : (Pipeline.ΦA spec0 c : sProp 𝕄) ⊢ (dat0 V c).Φ 0 := by
  rw [show (dat0 V c).Φ 0 = Pipeline.ΦA spec0 c from rfl]

/-- and the invariant after the last point is what the region hands back. -/
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]

end Cert.Kernel.Fr

end
-- ==== Proof.KB.Region1Run.lean ====
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data over the entry arrays whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data over the entry arrays whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data over the entry arrays whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, in closed form -/

/-- The first conditional (reduction step 0: reset the accumulator), from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (reduction step 7: write the output block). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At step 0 the output block is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At steps 1..6 likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At step 7 the output block is live. -/
theorem liveAt1_3_C : ∀ t : Fin cfg1.N, ¬cond1_0 (grid1.coords t) → cond1_1 (grid1.coords t) → cfg1.idle 3 (grid1.coords t) = false := by decide +kernel

/-! ## The staging memrefs and the scratch -/

abbrev VO1_3 : View sig .tc .vmem S1024x128 .f32 := (Memref.whole cc1_stg3_0 : Memref sig .tc .vmem S1024x128 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x128 .f32 := Memref.whole cc1_scratch0
abbrev VS1_0 : View sig .tc .vmem S1024x128 .f32 := scM1_0.view

/-- The region's invariant with the accumulator as a memref owned at some contents; every other scoped buffer
    stays unopened. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun1_A (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun1_B (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun1_C (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KB.Region1.lean ====
import proofs.«127812_j6760278524061_1_alg».proof.Proof.KB.Region1Run
import Idealize.ShloMosaic.Lib.Pipeline.Value

/-! # Region 1: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out1_A_3 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) : Vec F S1024x128 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces for the accumulator tile it, so they cover it. -/
theorem scover1_A_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) (y : S1024x128.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x128.size (by sl_kernel_rfl) y

/-- What case A leaves in the accumulator: its pieces read back over junk. -/
def sout1_A_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) : Vec F S1024x128 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out1_B_3 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) : Vec F S1024x128 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for the accumulator tile it, so they cover it. -/
theorem scover1_B_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) (y : S1024x128.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x128.size (by sl_kernel_rfl) y

/-- What case B leaves in the accumulator: its pieces read back over junk. -/
def sout1_B_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) : Vec F S1024x128 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output block covers it. -/
theorem cover1_C_3 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) (y : S1024x128.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x128.size (by sl_kernel_rfl) y

/-- What case C leaves in the output block's buffer: its pieces read back over junk. -/
def out1_C_3 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) : Vec F S1024x128 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for the accumulator tile it, so they cover it. -/
theorem scover1_C_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) (y : S1024x128.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x128.size (by sl_kernel_rfl) y

/-- What case C leaves in the accumulator: its pieces read back over junk. -/
def sout1_C_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) : Vec F S1024x128 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt1 (c : Dev nD) : (n : ℕ) → n < cfg1.N → Vec F S1024x128 .f32 × Vec F S1024x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := Pipeline.UD sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := Pipeline.UD sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block and the output block's at
    `outsAt1`; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's form back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

/-! ## The values: each case's stores as the kernel's payload functions -/

theorem hzero1 : (![0, 0] : Fin 2 → Nat) = fun _ => 0 := funext fun a => by fin_cases a <;> rfl

/-- Step 0 leaves in the accumulator one accumulation over the zero block: the reset's store is read back by the
    accumulating load. -/
theorem sout1_A_0_eq (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x128) hzero1, View.readCov_unit_zero (S := S1024x128) _ hzero1]
  simp only [View.readAt_eq_ld, harg3.read_unread, harg4.read_unread, View.ld_unit_zero (S := S1024x2048) hzero1, View.ld_unit_zero (S := S2048x128) hzero1, View.ld_unit_zero (S := S1x128) hzero1, View.ld_unit_zero (S := S1024x128) hzero1]

/-- Steps 1..6 leave one more accumulation over what the accumulator held. -/
theorem sout1_B_0_eq (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hzero1]
  simp only [View.readAt_eq_ld, harg3.read_unread, harg4.read_unread, harg7.read_unread, View.ld_unit_zero (S := S1024x2048) hzero1, View.ld_unit_zero (S := S2048x128) hzero1, View.ld_unit_zero (S := S1x128) hzero1, View.ld_unit_zero (S := S1024x128) hzero1]

/-- Step 7 accumulates likewise. -/
theorem sout1_C_0_eq (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hzero1]
  simp only [View.readAt_eq_ld, harg3.read_unread, harg4.read_unread, harg7.read_unread, View.ld_unit_zero (S := S1024x2048) hzero1, View.ld_unit_zero (S := S2048x128) hzero1, View.ld_unit_zero (S := S1x128) hzero1, View.ld_unit_zero (S := S1024x128) hzero1]

/-- Step 7 then stores into the output block the finishing payload of the accumulator it just wrote and the bias row. -/
theorem out1_C_3_eq (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hzero1, View.readCov_unit_zero (S := S1024x128) _ hzero1]
  simp only [View.readAt_eq_ld, harg3.read_unread, harg4.read_unread, harg5.read_unread, harg7.read_unread, View.ld_unit_zero (S := S1024x2048) hzero1, View.ld_unit_zero (S := S2048x128) hzero1, View.ld_unit_zero (S := S1x128) hzero1, View.ld_unit_zero (S := S1024x128) hzero1]

/-- At the first reduction step of a row block the accumulator ends at one accumulation over zero. -/
theorem acc1_first (c : Dev nD) (t : Fin cfg1.N) (h0 : t.val % 8 = 0) :
    (outsAt1 V c t.val t.isLt).2 = k1_pay2 (iblk1 V c 0 t) (iblk1 V c 1 t) (k1_pay1 (F := F)) := by
  have h1 : ¬t.val % 8 = 7 := by omega
  rw [outsAt1_A V c t h0 h1]
  dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At every later step it ends at one more accumulation over what the point before left. -/
theorem acc1_step (c : Dev nD) (t : Fin cfg1.N) (h0 : ¬t.val % 8 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h1 : t.val % 8 = 7
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At the last step (where the output block is written back) the block holds the finishing payload of the
    accumulator's final contents and the bias row. -/
theorem after1_out (c : Dev nD) (t : Fin cfg1.N) (h1 : t.val % 8 = 7) :
    (dat1 V c).after 3 t = k1_pay3 (outsAt1 V c t.val t.isLt).2 (iblk1 V c 2 t) := by
  have h0 : ¬t.val % 8 = 0 := by omega
  rw [after1_3, outsAt1_C V c t h0 h1]
  dsimp only
  rw [sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
  exact out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Cert.Kernel.Fr

end
-- ==== Proof.KB.Region2.lean ====
/-
  Region 2 of the program's main function: the matrix-product kernel of custom call 2, run by its pipeline on a grid whose
  contraction axis has ONE step.  At every grid point the kernel clears its accumulator, adds the product of the
  left block (2048x128) and the right block (128x64) into it, reads it back, adds the bias row (1x64) broadcast
  over the rows, and stores the result (2048x64) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    not: where it did not, the block index has not moved since the last fetch and the body left the block in place.
    For any proof data whose array is the entry contents and whose body keeps the block. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

/-- The offsets of every access are zero. -/
theorem hz2 : (![0, 0] : Fin 2 → Nat) = fun _ => 0 := by funext a; fin_cases a <;> rfl

abbrev r2_a : Rect S2048x128 := Rect.unit (s := S2048x128) ![0, 0] S2048x128.size inb_S2048x128_S2048x128_0_0
abbrev r2_b : Rect S128x64 := Rect.unit (s := S128x64) ![0, 0] S128x64.size inb_S128x64_S128x64_0_0
abbrev r2_c : Rect S1x64 := Rect.unit (s := S1x64) ![0, 0] S1x64.size inb_S1x64_S1x64_0_0
abbrev r2_o : Rect S2048x64 := Rect.unit (s := S2048x64) ![0, 0] S2048x64.size inb_S2048x64_S2048x64_0_0

/-! ## The body's two conditions, both true at every point (the contraction axis has one step) -/

/-- "This is the first contraction step", as the kernel computes it from grid coordinate 2. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) :=
  (by decide +kernel : ∀ t : Fin grid2.N, cond2_0 (grid2.coords t))

/-- "This is the last contraction step". -/
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

/-- So no window is idle at any point: the body stores the output block at each. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## What the body leaves in the output window's buffer -/

/-- The accumulator when it is read back for the output: cleared, then the product of the two blocks added once. -/
def acc2 (x0 : Vec F S2048x128 .f32) (x1 : Vec F S128x64 .f32) : Vec F S2048x64 .f32 :=
  k2_pay2 (View.ld x0 r2_a) (View.ld x1 r2_b) (k2_pay1 (F := F))

/-- The output window's staging buffer after the body, from the input windows' blocks: its one store, of the whole block. -/
def out2_3 (x0 : Vec F S2048x128 .f32) (x1 : Vec F S128x64 .f32) (x2 : Vec F S1x64 .f32) : Vec F S2048x64 .f32 :=
  View.canon [⟨r2_o, k2_pay3 (acc2 x0 x1) (View.ld x2 r2_c)⟩]

/-- That store covers the buffer. -/
theorem storeCover2_3 (p0 : Vec F S2048x64 .f32) (y : S2048x64.Idx) :
    ∃ pc ∈ ([⟨r2_o, p0⟩] : List (View.Piece (Elt F) S2048x64 .f32)), y ∈ pc.1.set :=
  ⟨_, List.mem_singleton_self _, View.mem_set_unit_zero (S := S2048x64) hz2 inb_S2048x64_S2048x64_0_0 y⟩

/-- THE VALUE of the output block: bias row added to (zeros + left block × right block), in the kernel's own arithmetic. -/
theorem out2_3_eq (x0 : Vec F S2048x128 .f32) (x1 : Vec F S128x64 .f32) (x2 : Vec F S1x64 .f32) :
    out2_3 x0 x1 x2 = k2_pay3 (k2_pay2 x0 x1 (k2_pay1 (F := F))) x2 := by
  unfold out2_3 acc2
  refine (View.canon_unit_zero (S := S2048x64) hz2 _ _).trans ?_
  rw [View.ld_unit_zero (S := S2048x128) hz2, View.ld_unit_zero (S := S128x64) hz2, View.ld_unit_zero (S := S1x64) hz2]

/-! ## The body's triple -/

set_option maxHeartbeats 2000000 in
/-- The kernel body on whole memrefs — the three inputs' at their read contents, the output's and the accumulator's at
    anything — runs to the continuation holding the inputs' as they were, the output's at `out2_3` of the inputs', and
    the accumulator's at some contents.  Both conditions hold (`hc0`, `hc1`), so both branches are taken. -/
theorem sound_kernel2 (c : Dev nD) (E : Set ℕ) (i : grid2.Coords) (hc0 : cond2_0 i) (hc1 : cond2_1 i)
    (arg3 : Memref sig .tc .vmem S2048x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S2048x64 .f32) (harg6 : arg6.IsWhole)
    (arg7 : Memref sig .tc .vmem S2048x64 .f32) (harg7 : arg7.IsWhole)
    (x0 : Vec F S2048x128 .f32) (x1 : Vec F S128x64 .f32) (x2 : Vec F S1x64 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out2_3 x0 x1 x2) ∗ (∃ d, owns (c : Thread nD τ) arg7 fullShare d)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover2_3 _)]
    unfold out2_3 acc2
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM2 : Memref sig .tc .vmem S2048x64 .f32 := Memref.whole cc2_scratch0

/-- The region invariant with the accumulator taken out of the scoped rest: owned at some contents, beside every other
    scoped buffer (unopened) and the generator register. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := Pipeline.UD sig nD τ) (Lvl := ℕ) (Val := Elt F) spec2 c [cc2_scratch0]) ∗ (∃ r, prngReg c r)) := by
  unfold Pipeline.ΦA; rw [scopedRest2_split]; simp only [scM2, owns_whole]; try rfl

/-- The proof data of pipeline 2 on core `c`: the arrays as the region finds them; after the body at point `t` each
    input's buffer at its block and the output's at `out2_3` of the input blocks; the constant invariant; nothing owed;
    full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- The output window after the body at point `t`: `out2_3` of the three input blocks there (its value: `out2_3_eq`). -/
theorem after2_out (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- No window is idle, so the body's post for each is its buffer at what the body leaves. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (out2_3 (iblk2 V c 0 t) (iblk2 V c 1 t) (iblk2 V c 2 t)) := by
  unfold Dat.leavesExact; rw [liveAt2_3 t, after2_out]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    leaves2_0, leaves2_1, leaves2_2, leaves2_3,
    show (dat2 V c).Φ t.castSucc = Pipeline.ΦA spec2 c from rfl, PhiA2_eq]
  iintro ⟨⟨⟨HS, Hrest⟩, Hg⟩, Ho, ⟨%d0, H0⟩, ⟨%d1, H1⟩, ⟨%d2, H2⟩, ⟨%d3, H3⟩⟩
  iapply (sound_kernel2 c Set.univ (grid2.coords t) (hcond2_0 t) (hcond2_1 t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : (Pipeline.ΦA spec2 c : sProp 𝕄) ⊢ (dat2 V c).Φ 0 := by
  rw [show (dat2 V c).Φ 0 = Pipeline.ΦA spec2 c from rfl]

/-- and the invariant after the last point is what the region hands back. -/
theorem hout2 (c : Dev nD) : (dat2 V c).Φ (Fin.last cfg2.N) ⊢ (Pipeline.ΦA spec2 c : sProp 𝕄) := by
  rw [show (dat2 V c).Φ (Fin.last cfg2.N) = Pipeline.ΦA spec2 c from rfl]

end Cert.Kernel.Fr

end
-- ==== Proof.KB.Region3Run.lean ====
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data over the entry arrays whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data over the entry arrays whose body leaves the block in place. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data over the entry arrays whose body leaves the block in place. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditionals, in closed form -/

/-- The first conditional (reduction step 0: reset the accumulator), from the grid coordinates. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- The second conditional (reduction step 7: write the output block). -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- At step 0 the output block is idle and not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At steps 1..6 likewise. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At step 7 the output block is live. -/
theorem liveAt3_3_C : ∀ t : Fin cfg3.N, ¬cond3_0 (grid3.coords t) → cond3_1 (grid3.coords t) → cfg3.idle 3 (grid3.coords t) = false := by decide +kernel

/-! ## The staging memrefs and the scratch -/

abbrev VO3_3 : View sig .tc .vmem S1024x64 .f32 := (Memref.whole cc3_stg3_0 : Memref sig .tc .vmem S1024x64 .f32).view
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x64 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S1024x64 .f32 := Memref.whole cc3_scratch0
abbrev VS3_0 : View sig .tc .vmem S1024x64 .f32 := scM3_0.view

/-- The region's invariant with the accumulator as a memref owned at some contents; every other scoped buffer
    stays unopened. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := Pipeline.UD sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun3_A (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_kernel i arg3 harg3 arg4 harg4 arg5 harg5 arg6 harg6 arg7 harg7) K } := by
  refine ⟨[], ?_, fun xi3 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun3_B (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_kernel i arg3 harg3 arg4 harg4 arg5 harg5 arg6 harg6 arg7 harg7) K } := by
  refine ⟨[], ?_, fun xi3 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun3_C (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_kernel i arg3 harg3 arg4 harg4 arg5 harg5 arg6 harg6 arg7 harg7) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KB.Region3.lean ====
import proofs.«127812_j6760278524061_1_alg».proof.Proof.KB.Region3Run
import Idealize.ShloMosaic.Lib.Pipeline.Value

/-! # Region 3: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out3_A_3 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) : Vec F S1024x64 .f32 :=
  VO3_3.read (Elt F) (VO3_3.writes (Elt F) VO3_3.junk (kernelRun3_A c i arg3 harg3 arg4 harg4 arg5 harg5 arg6 harg6 arg7 harg7 hc0 hc1 x0 x1 x2).1)

/-- Case A's pieces for the accumulator tile it, so they cover it. -/
theorem scover3_A_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) (y : S1024x64.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S1024x64.size (by sl_kernel_rfl) y

/-- What case A leaves in the accumulator: its pieces read back over junk. -/
def sout3_A_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) : Vec F S1024x64 .f32 :=
  VS3_0.read (Elt F) (VS3_0.writes (Elt F) VS3_0.junk (kernelRun3_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out3_B_3 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) : Vec F S1024x64 .f32 :=
  VO3_3.read (Elt F) (VO3_3.writes (Elt F) VO3_3.junk (kernelRun3_B c i arg3 harg3 arg4 harg4 arg5 harg5 arg6 harg6 arg7 harg7 hc0 hc1 x0 x1 x2 xs0).1)

/-- Case B's pieces for the accumulator tile it, so they cover it. -/
theorem scover3_B_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) (y : S1024x64.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S1024x64.size (by sl_kernel_rfl) y

/-- What case B leaves in the accumulator: its pieces read back over junk. -/
def sout3_B_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) : Vec F S1024x64 .f32 :=
  VS3_0.read (Elt F) (VS3_0.writes (Elt F) VS3_0.junk (kernelRun3_B c i arg3 harg3 arg4 harg4 arg5 harg5 arg6 harg6 arg7 harg7 hc0 hc1 x0 x1 x2 xs0).2.1)

/-- Case C's one store into the output block covers it. -/
theorem cover3_C_3 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) (y : S1024x64.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S1024x64.size (by sl_kernel_rfl) y

/-- What case C leaves in the output block's buffer: its pieces read back over junk. -/
def out3_C_3 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) : Vec F S1024x64 .f32 :=
  VO3_3.read (Elt F) (VO3_3.writes (Elt F) VO3_3.junk (kernelRun3_C c i arg3 harg3 arg4 harg4 arg5 harg5 arg6 harg6 arg7 harg7 hc0 hc1 x0 x1 x2 xs0).1)

/-- Case C's pieces for the accumulator tile it, so they cover it. -/
theorem scover3_C_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) (y : S1024x64.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S1024x64.size (by sl_kernel_rfl) y

/-- What case C leaves in the accumulator: its pieces read back over junk. -/
def sout3_C_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) : Vec F S1024x64 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt3 (c : Dev nD) : (n : ℕ) → n < cfg3.N → Vec F S1024x64 .f32 × Vec F S1024x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := Pipeline.UD sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := Pipeline.UD sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := Pipeline.UD sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block and the output block's at
    `outsAt3`; the invariant `PhiS3`; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  by_cases h0 : t.val % 8 = 0
  · by_cases h1 : t.val % 8 = 7
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      have hz : t.val ≠ 0 := by omega
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      have hz : t.val ≠ 0 := by omega
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the launch's form back: the accumulator's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

theorem hout3 (c : Dev nD) : (dat3 V c).Φ (Fin.last cfg3.N) ⊢ (Pipeline.ΦA spec3 c : sProp 𝕄) :=
  Phi_out3 V c _ (by rw [Fin.val_last]; have : cfg3.N = 128 := N_3; omega)

/-! ## The values: each case's stores as the kernel's payload functions -/

theorem hzero3 : (![0, 0] : Fin 2 → Nat) = fun _ => 0 := funext fun a => by fin_cases a <;> rfl

/-- Step 0 leaves in the accumulator one accumulation over the zero block: the reset's store is read back by the
    accumulating load. -/
theorem sout3_A_0_eq (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) :
    sout3_A_0 c i arg3 harg3 arg4 harg4 arg5 harg5 arg6 harg6 arg7 harg7 hc0 hc1 x0 x1 x2 = k3_pay2 x0 x1 (k3_pay1 (F := F)) := by
  unfold sout3_A_0
  rw [View.read_writes_eq_canon _ _ _ (scover3_A_0 c i arg3 harg3 arg4 harg4 arg5 harg5 arg6 harg6 arg7 harg7 hc0 hc1 x0 x1 x2)]
  unfold kernelRun3_A
  dsimp only
  sl_unfold_words
  rw [View.canon_cons_unit_zero (S := S1024x64) hzero3, View.readCov_unit_zero (S := S1024x64) _ hzero3]
  simp only [View.readAt_eq_ld, harg3.read_unread, harg4.read_unread, View.ld_unit_zero (S := S1024x2048) hzero3, View.ld_unit_zero (S := S2048x64) hzero3, View.ld_unit_zero (S := S1x64) hzero3, View.ld_unit_zero (S := S1024x64) hzero3]

/-- Steps 1..6 leave one more accumulation over what the accumulator held. -/
theorem sout3_B_0_eq (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) :
    sout3_B_0 c i arg3 harg3 arg4 harg4 arg5 harg5 arg6 harg6 arg7 harg7 hc0 hc1 x0 x1 x2 xs0 = k3_pay2 x0 x1 xs0 := by
  unfold sout3_B_0
  rw [View.read_writes_eq_canon _ _ _ (scover3_B_0 c i arg3 harg3 arg4 harg4 arg5 harg5 arg6 harg6 arg7 harg7 hc0 hc1 x0 x1 x2 xs0)]
  unfold kernelRun3_B
  dsimp only
  sl_unfold_words
  rw [View.canon_unit_zero hzero3]
  simp only [View.readAt_eq_ld, harg3.read_unread, harg4.read_unread, harg7.read_unread, View.ld_unit_zero (S := S1024x2048) hzero3, View.ld_unit_zero (S := S2048x64) hzero3, View.ld_unit_zero (S := S1x64) hzero3, View.ld_unit_zero (S := S1024x64) hzero3]

/-- Step 7 accumulates likewise. -/
theorem sout3_C_0_eq (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) :
    sout3_C_0 c i arg3 harg3 arg4 harg4 arg5 harg5 arg6 harg6 arg7 harg7 hc0 hc1 x0 x1 x2 xs0 = k3_pay2 x0 x1 xs0 := by
  unfold sout3_C_0
  rw [View.read_writes_eq_canon _ _ _ (scover3_C_0 c i arg3 harg3 arg4 harg4 arg5 harg5 arg6 harg6 arg7 harg7 hc0 hc1 x0 x1 x2 xs0)]
  unfold kernelRun3_C
  dsimp only
  sl_unfold_words
  rw [View.canon_unit_zero hzero3]
  simp only [View.readAt_eq_ld, harg3.read_unread, harg4.read_unread, harg7.read_unread, View.ld_unit_zero (S := S1024x2048) hzero3, View.ld_unit_zero (S := S2048x64) hzero3, View.ld_unit_zero (S := S1x64) hzero3, View.ld_unit_zero (S := S1024x64) hzero3]

/-- Step 7 then stores into the output block the finishing payload of the accumulator it just wrote and the bias row. -/
theorem out3_C_3_eq (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) :
    out3_C_3 c i arg3 harg3 arg4 harg4 arg5 harg5 arg6 harg6 arg7 harg7 hc0 hc1 x0 x1 x2 xs0 = k3_pay3 (k3_pay2 x0 x1 xs0) x2 := by
  unfold out3_C_3
  rw [View.read_writes_eq_canon _ _ _ (cover3_C_3 c i arg3 harg3 arg4 harg4 arg5 harg5 arg6 harg6 arg7 harg7 hc0 hc1 x0 x1 x2 xs0)]
  unfold kernelRun3_C
  dsimp only
  sl_unfold_words
  rw [View.canon_unit_zero hzero3, View.readCov_unit_zero (S := S1024x64) _ hzero3]
  simp only [View.readAt_eq_ld, harg3.read_unread, harg4.read_unread, harg5.read_unread, harg7.read_unread, View.ld_unit_zero (S := S1024x2048) hzero3, View.ld_unit_zero (S := S2048x64) hzero3, View.ld_unit_zero (S := S1x64) hzero3, View.ld_unit_zero (S := S1024x64) hzero3]

/-- At the first reduction step of a row block the accumulator ends at one accumulation over zero. -/
theorem acc3_first (c : Dev nD) (t : Fin cfg3.N) (h0 : t.val % 8 = 0) :
    (outsAt3 V c t.val t.isLt).2 = k3_pay2 (iblk3 V c 0 t) (iblk3 V c 1 t) (k3_pay1 (F := F)) := by
  have h1 : ¬t.val % 8 = 7 := by omega
  rw [outsAt3_A V c t h0 h1]
  dsimp only
  exact sout3_A_0_eq c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)

/-- At every later step it ends at one more accumulation over what the point before left. -/
theorem acc3_step (c : Dev nD) (t : Fin cfg3.N) (h0 : ¬t.val % 8 = 0) :
    (outsAt3 V c t.val t.isLt).2 = k3_pay2 (iblk3 V c 0 t) (iblk3 V c 1 t) (outsAt3 V c (t.val - 1) (Nat.lt_of_le_of_lt (Nat.sub_le _ _) t.isLt)).2 := by
  by_cases h1 : t.val % 8 = 7
  · rw [outsAt3_C V c t h0 h1]
    dsimp only
    exact sout3_C_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2
  · rw [outsAt3_B V c t h0 h1]
    dsimp only
    exact sout3_B_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2

/-- At the last step (where the output block is written back) the block holds the finishing payload of the
    accumulator's final contents and the bias row. -/
theorem after3_out (c : Dev nD) (t : Fin cfg3.N) (h1 : t.val % 8 = 7) :
    (dat3 V c).after 3 t = k3_pay3 (outsAt3 V c t.val t.isLt).2 (iblk3 V c 2 t) := by
  have h0 : ¬t.val % 8 = 0 := by omega
  rw [after3_3, outsAt3_C V c t h0 h1]
  dsimp only
  rw [sout3_C_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2]
  exact out3_C_3_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2

end Cert.Kernel.Fr

end
-- ==== Proof.KB.Region4.lean ====
/-
  Region 4 of the program's main function: the matrix-product kernel of custom call 4, run by its pipeline on a grid whose
  contraction axis has ONE step.  At every grid point the kernel clears its accumulator, adds the product of the
  left block (2048x64) and the right block (64x128) into it, reads it back, adds the bias row (1x128) broadcast
  over the rows, and stores the result (2048x128) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it there or
    not: where it did not, the block index has not moved since the last fetch and the body left the block in place.
    For any proof data whose array is the entry contents and whose body keeps the block. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

/-- The offsets of every access are zero. -/
theorem hz4 : (![0, 0] : Fin 2 → Nat) = fun _ => 0 := by funext a; fin_cases a <;> rfl

abbrev r4_a : Rect S2048x64 := Rect.unit (s := S2048x64) ![0, 0] S2048x64.size inb_S2048x64_S2048x64_0_0
abbrev r4_b : Rect S64x128 := Rect.unit (s := S64x128) ![0, 0] S64x128.size inb_S64x128_S64x128_0_0
abbrev r4_c : Rect S1x128 := Rect.unit (s := S1x128) ![0, 0] S1x128.size inb_S1x128_S1x128_0_0
abbrev r4_o : Rect S2048x128 := Rect.unit (s := S2048x128) ![0, 0] S2048x128.size inb_S2048x128_S2048x128_0_0

/-! ## The body's two conditions, both true at every point (the contraction axis has one step) -/

/-- "This is the first contraction step", as the kernel computes it from grid coordinate 2. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) :=
  (by decide +kernel : ∀ t : Fin grid4.N, cond4_0 (grid4.coords t))

/-- "This is the last contraction step". -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- So no window is idle at any point: the body stores the output block at each. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

/-! ## What the body leaves in the output window's buffer -/

/-- The accumulator when it is read back for the output: cleared, then the product of the two blocks added once. -/
def acc4 (x0 : Vec F S2048x64 .f32) (x1 : Vec F S64x128 .f32) : Vec F S2048x128 .f32 :=
  k4_pay2 (View.ld x0 r4_a) (View.ld x1 r4_b) (k4_pay1 (F := F))

/-- The output window's staging buffer after the body, from the input windows' blocks: its one store, of the whole block. -/
def out4_3 (x0 : Vec F S2048x64 .f32) (x1 : Vec F S64x128 .f32) (x2 : Vec F S1x128 .f32) : Vec F S2048x128 .f32 :=
  View.canon [⟨r4_o, k4_pay3 (acc4 x0 x1) (View.ld x2 r4_c)⟩]

/-- That store covers the buffer. -/
theorem storeCover4_3 (p0 : Vec F S2048x128 .f32) (y : S2048x128.Idx) :
    ∃ pc ∈ ([⟨r4_o, p0⟩] : List (View.Piece (Elt F) S2048x128 .f32)), y ∈ pc.1.set :=
  ⟨_, List.mem_singleton_self _, View.mem_set_unit_zero (S := S2048x128) hz4 inb_S2048x128_S2048x128_0_0 y⟩

/-- THE VALUE of the output block: bias row added to (zeros + left block × right block), in the kernel's own arithmetic. -/
theorem out4_3_eq (x0 : Vec F S2048x64 .f32) (x1 : Vec F S64x128 .f32) (x2 : Vec F S1x128 .f32) :
    out4_3 x0 x1 x2 = k4_pay3 (k4_pay2 x0 x1 (k4_pay1 (F := F))) x2 := by
  unfold out4_3 acc4
  refine (View.canon_unit_zero (S := S2048x128) hz4 _ _).trans ?_
  rw [View.ld_unit_zero (S := S2048x64) hz4, View.ld_unit_zero (S := S64x128) hz4, View.ld_unit_zero (S := S1x128) hz4]

/-! ## The body's triple -/

set_option maxHeartbeats 2000000 in
/-- The kernel body on whole memrefs — the three inputs' at their read contents, the output's and the accumulator's at
    anything — runs to the continuation holding the inputs' as they were, the output's at `out4_3` of the inputs', and
    the accumulator's at some contents.  Both conditions hold (`hc0`, `hc1`), so both branches are taken. -/
theorem sound_kernel4 (c : Dev nD) (E : Set ℕ) (i : grid4.Coords) (hc0 : cond4_0 i) (hc1 : cond4_1 i)
    (arg3 : Memref sig .tc .vmem S2048x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole)
    (x0 : Vec F S2048x64 .f32) (x1 : Vec F S64x128 .f32) (x2 : Vec F S1x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out4_3 x0 x1 x2) ∗ (∃ d, owns (c : Thread nD τ) arg7 fullShare d)) -∗ K ⟨⟩))
      ⊢ wp frame (wpE (defs₀ (F := F)) Variants.none c none) E (cc4__matmul_kernel i arg3 harg3 arg4 harg4 arg5 harg5 arg6 harg6 arg7 harg7) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover4_3 _)]
    unfold out4_3 acc4
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM4 : Memref sig .tc .vmem S2048x128 .f32 := Memref.whole cc4_scratch0

/-- The region invariant with the accumulator taken out of the scoped rest: owned at some contents, beside every other
    scoped buffer (unopened) and the generator register. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := Pipeline.UD sig nD τ) (Lvl := ℕ) (Val := Elt F) spec4 c [cc4_scratch0]) ∗ (∃ r, prngReg c r)) := by
  unfold Pipeline.ΦA; rw [scopedRest4_split]; simp only [scM4, owns_whole]; try rfl

/-- The proof data of pipeline 4 on core `c`: the arrays as the region finds them; after the body at point `t` each
    input's buffer at its block and the output's at `out4_3` of the input blocks; the constant invariant; nothing owed;
    full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
/-- The output window after the body at point `t`: `out4_3` of the three input blocks there (its value: `out4_3_eq`). -/
theorem after4_out (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- No window is idle, so the body's post for each is its buffer at what the body leaves. -/
theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (st4_3 t) fullShare (out4_3 (iblk4 V c 0 t) (iblk4 V c 1 t) (iblk4 V c 2 t)) := by
  unfold Dat.leavesExact; rw [liveAt4_3 t, after4_out]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    leaves4_0, leaves4_1, leaves4_2, leaves4_3,
    show (dat4 V c).Φ t.castSucc = Pipeline.ΦA spec4 c from rfl, PhiA4_eq]
  iintro ⟨⟨⟨HS, Hrest⟩, Hg⟩, Ho, ⟨%d0, H0⟩, ⟨%d1, H1⟩, ⟨%d2, H2⟩, ⟨%d3, H3⟩⟩
  iapply (sound_kernel4 c Set.univ (grid4.coords t) (hcond4_0 t) (hcond4_1 t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point, -/
theorem hin4 (c : Dev nD) : (Pipeline.ΦA spec4 c : sProp 𝕄) ⊢ (dat4 V c).Φ 0 := by
  rw [show (dat4 V c).Φ 0 = Pipeline.ΦA spec4 c from rfl]

/-- and the invariant after the last point is what the region hands back. -/
theorem hout4 (c : Dev nD) : (dat4 V c).Φ (Fin.last cfg4.N) ⊢ (Pipeline.ΦA spec4 c : sProp 𝕄) := by
  rw [show (dat4 V c).Φ (Fin.last cfg4.N) = Pipeline.ΦA spec4 c from rfl]

end Cert.Kernel.Fr

end
-- ==== Proof.KB.Region5Run.lean ====
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (unfetched, the
    block index has not moved), for any proof data over the entry arrays whose body leaves the block in place. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (unfetched, the
    block index has not moved), for any proof data over the entry arrays whose body leaves the block in place. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (unfetched, the
    block index has not moved), for any proof data over the entry arrays whose body leaves the block in place. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditionals, in closed form -/

/-- The first conditional (reduction step 0: reset the accumulator), from the grid coordinates. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)

/-- The second conditional (reduction step 7: write the output block). -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

/-! ## Where the windows are idle -/

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
/-- At step 0 the output block is idle and not written back. -/
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
/-- At steps 1..6 likewise. -/
theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel
/-- At step 7 the output block is live. -/
theorem liveAt5_3_C : ∀ t : Fin cfg5.N, ¬cond5_0 (grid5.coords t) → cond5_1 (grid5.coords t) → cfg5.idle 3 (grid5.coords t) = false := by decide +kernel

/-! ## The staging memrefs and the scratch -/

abbrev VO5_3 : View sig .tc .vmem S1024x128 .f32 := (Memref.whole cc5_stg3_0 : Memref sig .tc .vmem S1024x128 .f32).view
abbrev ms5_0 (t : Fin cfg5.N) : Memref sig .tc .vmem S1024x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5_0 : Memref sig .tc .vmem S1024x128 .f32 := Memref.whole cc5_scratch0
abbrev VS5_0 : View sig .tc .vmem S1024x128 .f32 := scM5_0.view

/-- The region's invariant with the accumulator as a memref owned at some contents; every other scoped buffer
    stays unopened. -/
theorem PhiA5_eq (c : Dev nD) :
    (Pipeline.ΦA spec5 c : sProp 𝕄)
      = iprop(iprop((∃ d, owns (c : Thread nD τ) scM5_0 fullShare d)
          ∗ Pipeline.scopedRestBut (Ix := Unit) (Name := ℕ) (U := Pipeline.UD sig nD τ) (Lvl := ℕ) (Val := Elt F) spec5 c [cc5_scratch0]) ∗ (∃ r, prngReg c r)) := by
  unfold Pipeline.ΦA; rw [scopedRest5_split]; simp only [scM5_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun5_A (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_kernel i arg3 harg3 arg4 harg4 arg5 harg5 arg6 harg6 arg7 harg7) K } := by
  refine ⟨[], ?_, fun xi3 E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun5_B (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_kernel i arg3 harg3 arg4 harg4 arg5 harg5 arg6 harg6 arg7 harg7) K } := by
  refine ⟨[], ?_, fun xi3 E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun5_C (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_kernel i arg3 harg3 arg4 harg4 arg5 harg5 arg6 harg6 arg7 harg7) K } := by
  refine ⟨?_, ?_, fun E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KB.Region5.lean ====
import proofs.«127812_j6760278524061_1_alg».proof.Proof.KB.Region5Run
import Idealize.ShloMosaic.Lib.Pipeline.Value

/-! # Region 5: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out5_A_3 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) : Vec F S1024x128 .f32 :=
  VO5_3.read (Elt F) (VO5_3.writes (Elt F) VO5_3.junk (kernelRun5_A c i arg3 harg3 arg4 harg4 arg5 harg5 arg6 harg6 arg7 harg7 hc0 hc1 x0 x1 x2).1)

/-- Case A's pieces for the accumulator tile it, so they cover it. -/
theorem scover5_A_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) (y : S1024x128.Idx) :
    ∃ pc ∈ (kernelRun5_A c i arg3 harg3 arg4 harg4 arg5 harg5 arg6 harg6 arg7 harg7 hc0 hc1 x0 x1 x2).2.1, y ∈ pc.1.set :=
  View.cover_of_tiledL (kernelRun5_A c i arg3 harg3 arg4 harg4 arg5 harg5 arg6 harg6 arg7 harg7 hc0 hc1 x0 x1 x2).2.1 S1024x128.size (by sl_kernel_rfl) y

/-- What case A leaves in the accumulator: its pieces read back over junk. -/
def sout5_A_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) : Vec F S1024x128 .f32 :=
  VS5_0.read (Elt F) (VS5_0.writes (Elt F) VS5_0.junk (kernelRun5_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out5_B_3 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) : Vec F S1024x128 .f32 :=
  VO5_3.read (Elt F) (VO5_3.writes (Elt F) VO5_3.junk (kernelRun5_B c i arg3 harg3 arg4 harg4 arg5 harg5 arg6 harg6 arg7 harg7 hc0 hc1 x0 x1 x2 xs0).1)

/-- Case B's pieces for the accumulator tile it, so they cover it. -/
theorem scover5_B_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) (y : S1024x128.Idx) :
    ∃ pc ∈ (kernelRun5_B c i arg3 harg3 arg4 harg4 arg5 harg5 arg6 harg6 arg7 harg7 hc0 hc1 x0 x1 x2 xs0).2.1, y ∈ pc.1.set :=
  View.cover_of_tiledL (kernelRun5_B c i arg3 harg3 arg4 harg4 arg5 harg5 arg6 harg6 arg7 harg7 hc0 hc1 x0 x1 x2 xs0).2.1 S1024x128.size (by sl_kernel_rfl) y

/-- What case B leaves in the accumulator: its pieces read back over junk. -/
def sout5_B_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) : Vec F S1024x128 .f32 :=
  VS5_0.read (Elt F) (VS5_0.writes (Elt F) VS5_0.junk (kernelRun5_B c i arg3 harg3 arg4 harg4 arg5 harg5 arg6 harg6 arg7 harg7 hc0 hc1 x0 x1 x2 xs0).2.1)

/-- Case C's one store into the output block covers it. -/
theorem cover5_C_3 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) (y : S1024x128.Idx) :
    ∃ pc ∈ (kernelRun5_C c i arg3 harg3 arg4 harg4 arg5 harg5 arg6 harg6 arg7 harg7 hc0 hc1 x0 x1 x2 xs0).1, y ∈ pc.1.set :=
  View.cover_of_tiledL (kernelRun5_C c i arg3 harg3 arg4 harg4 arg5 harg5 arg6 harg6 arg7 harg7 hc0 hc1 x0 x1 x2 xs0).1 S1024x128.size (by sl_kernel_rfl) y

/-- What case C leaves in the output block's buffer: its pieces read back over junk. -/
def out5_C_3 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) : Vec F S1024x128 .f32 :=
  VO5_3.read (Elt F) (VO5_3.writes (Elt F) VO5_3.junk (kernelRun5_C c i arg3 harg3 arg4 harg4 arg5 harg5 arg6 harg6 arg7 harg7 hc0 hc1 x0 x1 x2 xs0).1)

/-- Case C's pieces for the accumulator tile it, so they cover it. -/
theorem scover5_C_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) (y : S1024x128.Idx) :
    ∃ pc ∈ (kernelRun5_C c i arg3 harg3 arg4 harg4 arg5 harg5 arg6 harg6 arg7 harg7 hc0 hc1 x0 x1 x2 xs0).2.1, y ∈ pc.1.set :=
  View.cover_of_tiledL (kernelRun5_C c i arg3 harg3 arg4 harg4 arg5 harg5 arg6 harg6 arg7 harg7 hc0 hc1 x0 x1 x2 xs0).2.1 S1024x128.size (by sl_kernel_rfl) y

/-- What case C leaves in the accumulator: its pieces read back over junk. -/
def sout5_C_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) : Vec F S1024x128 .f32 :=
  VS5_0.read (Elt F) (VS5_0.writes (Elt F) VS5_0.junk (kernelRun5_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt5 (c : Dev nD) : (n : ℕ) → n < cfg5.N → Vec F S1024x128 .f32 × Vec F S1024x128 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 8 = 0 then
      if h1 : (n + 1) % 8 = 7 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 8 = 7 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 8 = 0) (h1 : ¬t.val % 8 = 7) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : ¬t.val % 8 = 7) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 8 = 0) (h1 : t.val % 8 = 7) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := Pipeline.UD sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := Pipeline.UD sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := Pipeline.UD sig nD τ) (Lvl := ℕ) (Val := Elt F) spec5 c [cc5_scratch0]) ∗ (∃ r, prngReg c r)) := by
  cases n with
  | zero => exact absurd rfl hz
  | succ n => rfl

/-! ## The proof data -/

/-- The arrays as the region finds them; after the body each input's buffer at its block and the output block's at
    `outsAt5`; the invariant `PhiS5`; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 128 := lt_of_lt_of_eq t.isLt (show cfg5.N = 128 from N_5)
  by_cases h0 : t.val % 8 = 0
  · by_cases h1 : t.val % 8 = 7
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hrest⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, Hrest⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      have hz : t.val ≠ 0 := by omega
      rw [PhiS5_castSucc V c t, PhiS5_pos V c _ _ hz]
      iintro ⟨⟨⟨HS0, Hrest⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C_3 c _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      have hz : t.val ≠ 0 := by omega
      rw [PhiS5_castSucc V c t, PhiS5_pos V c _ _ hz]
      iintro ⟨⟨⟨HS0, Hrest⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the launch's form back: the accumulator's named contents are forgotten. -/
theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, Hrest⟩, Hg⟩
  isplitl [HS0 Hrest]
  · isplitl [HS0]
    · iexists _; iexact HS0
    iexact Hrest
  iexact Hg

theorem hout5 (c : Dev nD) : (dat5 V c).Φ (Fin.last cfg5.N) ⊢ (Pipeline.ΦA spec5 c : sProp 𝕄) :=
  Phi_out5 V c _ (by rw [Fin.val_last]; have : cfg5.N = 128 := N_5; omega)

/-! ## The values: each case's stores as the kernel's payload functions -/

theorem hzero5 : (![0, 0] : Fin 2 → Nat) = fun _ => 0 := funext fun a => by fin_cases a <;> rfl

/-- Step 0 leaves in the accumulator one accumulation over the zero block: the reset's store is read back by the
    accumulating load. -/
theorem sout5_A_0_eq (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) :
    sout5_A_0 c i arg3 harg3 arg4 harg4 arg5 harg5 arg6 harg6 arg7 harg7 hc0 hc1 x0 x1 x2 = k5_pay2 x0 x1 (k5_pay1 (F := F)) := by
  unfold sout5_A_0
  rw [View.read_writes_eq_canon _ _ _ (scover5_A_0 c i arg3 harg3 arg4 harg4 arg5 harg5 arg6 harg6 arg7 harg7 hc0 hc1 x0 x1 x2)]
  unfold kernelRun5_A
  dsimp only
  sl_unfold_words
  rw [View.canon_cons_unit_zero (S := S1024x128) hzero5, View.readCov_unit_zero (S := S1024x128) _ hzero5]
  simp only [View.readAt_eq_ld, harg3.read_unread, harg4.read_unread, View.ld_unit_zero (S := S1024x2048) hzero5, View.ld_unit_zero (S := S2048x128) hzero5, View.ld_unit_zero (S := S1x128) hzero5, View.ld_unit_zero (S := S1024x128) hzero5]

/-- Steps 1..6 leave one more accumulation over what the accumulator held. -/
theorem sout5_B_0_eq (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) :
    sout5_B_0 c i arg3 harg3 arg4 harg4 arg5 harg5 arg6 harg6 arg7 harg7 hc0 hc1 x0 x1 x2 xs0 = k5_pay2 x0 x1 xs0 := by
  unfold sout5_B_0
  rw [View.read_writes_eq_canon _ _ _ (scover5_B_0 c i arg3 harg3 arg4 harg4 arg5 harg5 arg6 harg6 arg7 harg7 hc0 hc1 x0 x1 x2 xs0)]
  unfold kernelRun5_B
  dsimp only
  sl_unfold_words
  rw [View.canon_unit_zero hzero5]
  simp only [View.readAt_eq_ld, harg3.read_unread, harg4.read_unread, harg7.read_unread, View.ld_unit_zero (S := S1024x2048) hzero5, View.ld_unit_zero (S := S2048x128) hzero5, View.ld_unit_zero (S := S1x128) hzero5, View.ld_unit_zero (S := S1024x128) hzero5]

/-- Step 7 accumulates likewise. -/
theorem sout5_C_0_eq (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) :
    sout5_C_0 c i arg3 harg3 arg4 harg4 arg5 harg5 arg6 harg6 arg7 harg7 hc0 hc1 x0 x1 x2 xs0 = k5_pay2 x0 x1 xs0 := by
  unfold sout5_C_0
  rw [View.read_writes_eq_canon _ _ _ (scover5_C_0 c i arg3 harg3 arg4 harg4 arg5 harg5 arg6 harg6 arg7 harg7 hc0 hc1 x0 x1 x2 xs0)]
  unfold kernelRun5_C
  dsimp only
  sl_unfold_words
  rw [View.canon_unit_zero hzero5]
  simp only [View.readAt_eq_ld, harg3.read_unread, harg4.read_unread, harg7.read_unread, View.ld_unit_zero (S := S1024x2048) hzero5, View.ld_unit_zero (S := S2048x128) hzero5, View.ld_unit_zero (S := S1x128) hzero5, View.ld_unit_zero (S := S1024x128) hzero5]

/-- Step 7 then stores into the output block the finishing payload of the accumulator it just wrote and the bias row. -/
theorem out5_C_3_eq (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) :
    out5_C_3 c i arg3 harg3 arg4 harg4 arg5 harg5 arg6 harg6 arg7 harg7 hc0 hc1 x0 x1 x2 xs0 = k5_pay3 (k5_pay2 x0 x1 xs0) x2 := by
  unfold out5_C_3
  rw [View.read_writes_eq_canon _ _ _ (cover5_C_3 c i arg3 harg3 arg4 harg4 arg5 harg5 arg6 harg6 arg7 harg7 hc0 hc1 x0 x1 x2 xs0)]
  unfold kernelRun5_C
  dsimp only
  sl_unfold_words
  rw [View.canon_unit_zero hzero5, View.readCov_unit_zero (S := S1024x128) _ hzero5]
  simp only [View.readAt_eq_ld, harg3.read_unread, harg4.read_unread, harg5.read_unread, harg7.read_unread, View.ld_unit_zero (S := S1024x2048) hzero5, View.ld_unit_zero (S := S2048x128) hzero5, View.ld_unit_zero (S := S1x128) hzero5, View.ld_unit_zero (S := S1024x128) hzero5]

/-- At the first reduction step of a row block the accumulator ends at one accumulation over zero. -/
theorem acc5_first (c : Dev nD) (t : Fin cfg5.N) (h0 : t.val % 8 = 0) :
    (outsAt5 V c t.val t.isLt).2 = k5_pay2 (iblk5 V c 0 t) (iblk5 V c 1 t) (k5_pay1 (F := F)) := by
  have h1 : ¬t.val % 8 = 7 := by omega
  rw [outsAt5_A V c t h0 h1]
  dsimp only
  exact sout5_A_0_eq c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)

/-- At every later step it ends at one more accumulation over what the point before left. -/
theorem acc5_step (c : Dev nD) (t : Fin cfg5.N) (h0 : ¬t.val % 8 = 0) :
    (outsAt5 V c t.val t.isLt).2 = k5_pay2 (iblk5 V c 0 t) (iblk5 V c 1 t) (outsAt5 V c (t.val - 1) (Nat.lt_of_le_of_lt (Nat.sub_le _ _) t.isLt)).2 := by
  by_cases h1 : t.val % 8 = 7
  · rw [outsAt5_C V c t h0 h1]
    dsimp only
    exact sout5_C_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2
  · rw [outsAt5_B V c t h0 h1]
    dsimp only
    exact sout5_B_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2

/-- At the last step (where the output block is written back) the block holds the finishing payload of the
    accumulator's final contents and the bias row. -/
theorem after5_out (c : Dev nD) (t : Fin cfg5.N) (h1 : t.val % 8 = 7) :
    (dat5 V c).after 3 t = k5_pay3 (outsAt5 V c t.val t.isLt).2 (iblk5 V c 2 t) := by
  have h0 : ¬t.val % 8 = 0 := by omega
  rw [after5_3, outsAt5_C V c t h0 h1]
  dsimp only
  rw [sout5_C_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2]
  exact out5_C_3_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2

end Cert.Kernel.Fr

end
-- ==== Proof.KB.Region6.lean ====
/-
  Region 6 of the program's main function: the matrix-product kernel of custom call 6, run by its pipeline on a grid whose
  contraction axis has ONE step.  At every grid point the kernel clears its accumulator, adds the product of the
  left block (2048x128) and the right block (128x256) into it, reads it back, adds the bias row (1x256) broadcast
  over the rows, and stores the result (2048x256) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether the pipeline fetched it there or
    not: where it did not, the block index has not moved since the last fetch and the body left the block in place.
    For any proof data whose array is the entry contents and whose body keeps the block. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is of a whole buffer -/

/-- The offsets of every access are zero. -/
theorem hz6 : (![0, 0] : Fin 2 → Nat) = fun _ => 0 := by funext a; fin_cases a <;> rfl

abbrev r6_a : Rect S2048x128 := Rect.unit (s := S2048x128) ![0, 0] S2048x128.size inb_S2048x128_S2048x128_0_0
abbrev r6_b : Rect S128x256 := Rect.unit (s := S128x256) ![0, 0] S128x256.size inb_S128x256_S128x256_0_0
abbrev r6_c : Rect S1x256 := Rect.unit (s := S1x256) ![0, 0] S1x256.size inb_S1x256_S1x256_0_0
abbrev r6_o : Rect S2048x256 := Rect.unit (s := S2048x256) ![0, 0] S2048x256.size inb_S2048x256_S2048x256_0_0

/-! ## The body's two conditions, both true at every point (the contraction axis has one step) -/

/-- "This is the first contraction step", as the kernel computes it from grid coordinate 2. -/
abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) :=
  (by decide +kernel : ∀ t : Fin grid6.N, cond6_0 (grid6.coords t))

/-- "This is the last contraction step". -/
abbrev cond6_1 (i : grid6.Coords) : Prop := k6_cond2 i = 1#1
theorem hcond6_1 : ∀ t : Fin cfg6.N, cond6_1 (grid6.coords t) :=
  (by decide +kernel : ∀ t : Fin grid6.N, cond6_1 (grid6.coords t))

/-- So no window is idle at any point: the body stores the output block at each. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel

/-! ## What the body leaves in the output window's buffer -/

/-- The accumulator when it is read back for the output: cleared, then the product of the two blocks added once. -/
def acc6 (x0 : Vec F S2048x128 .f32) (x1 : Vec F S128x256 .f32) : Vec F S2048x256 .f32 :=
  k6_pay2 (View.ld x0 r6_a) (View.ld x1 r6_b) (k6_pay1 (F := F))

/-- The output window's staging buffer after the body, from the input windows' blocks: its one store, of the whole block. -/
def out6_3 (x0 : Vec F S2048x128 .f32) (x1 : Vec F S128x256 .f32) (x2 : Vec F S1x256 .f32) : Vec F S2048x256 .f32 :=
  View.canon [⟨r6_o, k6_pay3 (acc6 x0 x1) (View.ld x2 r6_c)⟩]

/-- That store covers the buffer. -/
theorem storeCover6_3 (p0 : Vec F S2048x256 .f32) (y : S2048x256.Idx) :
    ∃ pc ∈ ([⟨r6_o, p0⟩] : List (View.Piece (Elt F) S2048x256 .f32)), y ∈ pc.1.set :=
  ⟨_, List.mem_singleton_self _, View.mem_set_unit_zero (S := S2048x256) hz6 inb_S2048x256_S2048x256_0_0 y⟩

/-- THE VALUE of the output block: bias row added to (zeros + left block × right block), in the kernel's own arithmetic. -/
theorem out6_3_eq (x0 : Vec F S2048x128 .f32) (x1 : Vec F S128x256 .f32) (x2 : Vec F S1x256 .f32) :
    out6_3 x0 x1 x2 = k6_pay3 (k6_pay2 x0 x1 (k6_pay1 (F := F))) x2 := by
  unfold out6_3 acc6
  refine (View.canon_unit_zero (S := S2048x256) hz6 _ _).trans ?_
  rw [View.ld_unit_zero (S := S2048x128) hz6, View.ld_unit_zero (S := S128x256) hz6, View.ld_unit_zero (S := S1x256) hz6]

/-! ## The body's triple -/

set_option maxHeartbeats 2000000 in
/-- The kernel body on whole memrefs — the three inputs' at their read contents, the output's and the accumulator's at
    anything — runs to the continuation holding the inputs' as they were, the output's at `out6_3` of the inputs', and
    the accumulator's at some contents.  Both conditions hold (`hc0`, `hc1`), so both branches are taken. -/
theorem sound_kernel6 (c : Dev nD) (E : Set ℕ) (i : grid6.Coords) (hc0 : cond6_0 i) (hc1 : cond6_1 i)
    (arg3 : Memref sig .tc .vmem S2048x128 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole)
    (x0 : Vec F S2048x128 .f32) (x1 : Vec F S128x256 .f32) (x2 : Vec F S1x256 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out6_3 x0 x1 x2) ∗ (∃ d, owns (c : Thread nD τ) arg7 fullShare d)) -∗ K ⟨⟩))
      ⊢ wp frame (wpE (defs₀ (F := F)) Variants.none c none) E (cc6__matmul_kernel i arg3 harg3 arg4 harg4 arg5 harg5 arg6 harg6 arg7 harg7) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover6_3 _)]
    unfold out6_3 acc6
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM6 : Memref sig .tc .vmem S2048x256 .f32 := Memref.whole cc6_scratch0

/-- The region invariant with the accumulator taken out of the scoped rest: owned at some contents, beside every other
    scoped buffer (unopened) and the generator register. -/
theorem PhiA6_eq (c : Dev nD) :
    (Pipeline.ΦA spec6 c : sProp 𝕄)
      = iprop(iprop(iprop((∃ d, owns (c : Thread nD τ) scM6 fullShare d))
          ∗ Pipeline.scopedRestBut (Ix := Unit) (Name := ℕ) (U := Pipeline.UD sig nD τ) (Lvl := ℕ) (Val := Elt F) spec6 c [cc6_scratch0]) ∗ (∃ r, prngReg c r)) := by
  unfold Pipeline.ΦA; rw [scopedRest6_split]; simp only [scM6, owns_whole]; try rfl

/-- The proof data of pipeline 6 on core `c`: the arrays as the region finds them; after the body at point `t` each
    input's buffer at its block and the output's at `out6_3` of the input blocks; the constant invariant; nothing owed;
    full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
/-- The output window after the body at point `t`: `out6_3` of the three input blocks there (its value: `out6_3_eq`). -/
theorem after6_out (c : Dev nD) (t : Fin cfg6.N) :
    (dat6 V c).after 3 t = out6_3 (iblk6 V c 0 t) (iblk6 V c 1 t) (iblk6 V c 2 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- No window is idle, so the body's post for each is its buffer at what the body leaves. -/
theorem leaves6_0 (c : Dev nD) (t : Fin cfg6.N) :
    (dat6 V c).leavesExact 0 t = owns (c : Thread nD τ) (st6_0 t) fullShare (iblk6 V c 0 t) := by
  unfold Dat.leavesExact; rw [liveAt6_0 t, after6_0]
theorem leaves6_1 (c : Dev nD) (t : Fin cfg6.N) :
    (dat6 V c).leavesExact 1 t = owns (c : Thread nD τ) (st6_1 t) fullShare (iblk6 V c 1 t) := by
  unfold Dat.leavesExact; rw [liveAt6_1 t, after6_1]
theorem leaves6_2 (c : Dev nD) (t : Fin cfg6.N) :
    (dat6 V c).leavesExact 2 t = owns (c : Thread nD τ) (st6_2 t) fullShare (iblk6 V c 2 t) := by
  unfold Dat.leavesExact; rw [liveAt6_2 t, after6_2]
theorem leaves6_3 (c : Dev nD) (t : Fin cfg6.N) :
    (dat6 V c).leavesExact 3 t = owns (c : Thread nD τ) (st6_3 t) fullShare (out6_3 (iblk6 V c 0 t) (iblk6 V c 1 t) (iblk6 V c 2 t)) := by
  unfold Dat.leavesExact; rw [liveAt6_3 t, after6_out]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    leaves6_0, leaves6_1, leaves6_2, leaves6_3,
    show (dat6 V c).Φ t.castSucc = Pipeline.ΦA spec6 c from rfl, PhiA6_eq]
  iintro ⟨⟨⟨HS, Hrest⟩, Hg⟩, Ho, ⟨%d0, H0⟩, ⟨%d1, H1⟩, ⟨%d2, H2⟩, ⟨%d3, H3⟩⟩
  iapply (sound_kernel6 c Set.univ (grid6.coords t) (hcond6_0 t) (hcond6_1 t) _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point, -/
theorem hin6 (c : Dev nD) : (Pipeline.ΦA spec6 c : sProp 𝕄) ⊢ (dat6 V c).Φ 0 := by
  rw [show (dat6 V c).Φ 0 = Pipeline.ΦA spec6 c from rfl]

/-- and the invariant after the last point is what the region hands back. -/
theorem hout6 (c : Dev nD) : (dat6 V c).Φ (Fin.last cfg6.N) ⊢ (Pipeline.ΦA spec6 c : sProp 𝕄) := by
  rw [show (dat6 V c).Φ (Fin.last cfg6.N) = Pipeline.ΦA spec6 c from rfl]

end Cert.Kernel.Fr

end
-- ==== Proof.KB.Region7Run.lean ====
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not (unfetched, the
    block index has not moved), for any proof data over the entry arrays whose body leaves the block in place. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (unfetched, the
    block index has not moved), for any proof data over the entry arrays whose body leaves the block in place. -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (unfetched, the
    block index has not moved), for any proof data over the entry arrays whose body leaves the block in place. -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditionals, in closed form -/

/-- The first conditional (reduction step 0: reset the accumulator), from the grid coordinates. -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)

/-- The second conditional (reduction step 7: write the output block). -/
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
/-- At step 0 the output block is idle and not written back. -/
theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
/-- At steps 1..6 likewise. -/
theorem idleAt7_3_B : ∀ t : Fin cfg7.N, ¬cond7_0 (grid7.coords t) → ¬cond7_1 (grid7.coords t) → cfg7.idle 3 (grid7.coords t) = true := by decide +kernel
theorem noFlush7_3_B : ∀ t : Fin cfg7.N, ¬cond7_0 (grid7.coords t) → ¬cond7_1 (grid7.coords t) → (cfg7.win 3).flush t = false := by decide +kernel
/-- At step 7 the output block is live. -/
theorem liveAt7_3_C : ∀ t : Fin cfg7.N, ¬cond7_0 (grid7.coords t) → cond7_1 (grid7.coords t) → cfg7.idle 3 (grid7.coords t) = false := by decide +kernel

/-! ## The staging memrefs and the scratch -/

abbrev VO7_3 : View sig .tc .vmem S1024x256 .f32 := (Memref.whole cc7_stg3_0 : Memref sig .tc .vmem S1024x256 .f32).view
abbrev ms7_0 (t : Fin cfg7.N) : Memref sig .tc .vmem S1024x2048 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x256 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x256 .f32 := win7_3.stage (cfg7.slots t 3)
abbrev hs7_3 (t : Fin cfg7.N) : (ms7_3 t).IsWhole := hstage7_3 ((cfg7.slots t 3).cast nbuf7_3)
/-- The accumulator: a whole scoped buffer of the kernel's own. -/
abbrev scM7_0 : Memref sig .tc .vmem S1024x256 .f32 := Memref.whole cc7_scratch0
abbrev VS7_0 : View sig .tc .vmem S1024x256 .f32 := scM7_0.view

/-- The region's invariant with the accumulator as a memref owned at some contents; every other scoped buffer
    stays unopened. -/
theorem PhiA7_eq (c : Dev nD) :
    (Pipeline.ΦA spec7 c : sProp 𝕄)
      = iprop(iprop((∃ d, owns (c : Thread nD τ) scM7_0 fullShare d)
          ∗ Pipeline.scopedRestBut (Ix := Unit) (Name := ℕ) (U := Pipeline.UD sig nD τ) (Lvl := ℕ) (Val := Elt F) spec7 c [cc7_scratch0]) ∗ (∃ r, prngReg c r)) := by
  unfold Pipeline.ΦA; rw [scopedRest7_split]; simp only [scM7_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun7_A (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_kernel i arg3 harg3 arg4 harg4 arg5 harg5 arg6 harg6 arg7 harg7) K } := by
  refine ⟨[], ?_, fun xi3 E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun7_B (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_kernel i arg3 harg3 arg4 harg4 arg5 harg5 arg6 harg6 arg7 harg7) K } := by
  refine ⟨[], ?_, fun xi3 E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun7_C (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_kernel i arg3 harg3 arg4 harg4 arg5 harg5 arg6 harg6 arg7 harg7) K } := by
  refine ⟨?_, ?_, fun E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KB.Region7.lean ====
import proofs.«127812_j6760278524061_1_alg».proof.Proof.KB.Region7Run
import Idealize.ShloMosaic.Lib.Pipeline.Value

/-! # Region 7: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out7_A_3 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) : Vec F S1024x256 .f32 :=
  VO7_3.read (Elt F) (VO7_3.writes (Elt F) VO7_3.junk (kernelRun7_A c i arg3 harg3 arg4 harg4 arg5 harg5 arg6 harg6 arg7 harg7 hc0 hc1 x0 x1 x2).1)

/-- Case A's pieces for the accumulator tile it, so they cover it. -/
theorem scover7_A_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) (y : S1024x256.Idx) :
    ∃ pc ∈ (kernelRun7_A c i arg3 harg3 arg4 harg4 arg5 harg5 arg6 harg6 arg7 harg7 hc0 hc1 x0 x1 x2).2.1, y ∈ pc.1.set :=
  View.cover_of_tiledL (kernelRun7_A c i arg3 harg3 arg4 harg4 arg5 harg5 arg6 harg6 arg7 harg7 hc0 hc1 x0 x1 x2).2.1 S1024x256.size (by sl_kernel_rfl) y

/-- What case A leaves in the accumulator: its pieces read back over junk. -/
def sout7_A_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) : Vec F S1024x256 .f32 :=
  VS7_0.read (Elt F) (VS7_0.writes (Elt F) VS7_0.junk (kernelRun7_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out7_B_3 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) : Vec F S1024x256 .f32 :=
  VO7_3.read (Elt F) (VO7_3.writes (Elt F) VO7_3.junk (kernelRun7_B c i arg3 harg3 arg4 harg4 arg5 harg5 arg6 harg6 arg7 harg7 hc0 hc1 x0 x1 x2 xs0).1)

/-- Case B's pieces for the accumulator tile it, so they cover it. -/
theorem scover7_B_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) (y : S1024x256.Idx) :
    ∃ pc ∈ (kernelRun7_B c i arg3 harg3 arg4 harg4 arg5 harg5 arg6 harg6 arg7 harg7 hc0 hc1 x0 x1 x2 xs0).2.1, y ∈ pc.1.set :=
  View.cover_of_tiledL (kernelRun7_B c i arg3 harg3 arg4 harg4 arg5 harg5 arg6 harg6 arg7 harg7 hc0 hc1 x0 x1 x2 xs0).2.1 S1024x256.size (by sl_kernel_rfl) y

/-- What case B leaves in the accumulator: its pieces read back over junk. -/
def sout7_B_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) : Vec F S1024x256 .f32 :=
  VS7_0.read (Elt F) (VS7_0.writes (Elt F) VS7_0.junk (kernelRun7_B c i arg3 harg3 arg4 harg4 arg5 harg5 arg6 harg6 arg7 harg7 hc0 hc1 x0 x1 x2 xs0).2.1)

/-- Case C's one store into the output block covers it. -/
theorem cover7_C_3 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) (y : S1024x256.Idx) :
    ∃ pc ∈ (kernelRun7_C c i arg3 harg3 arg4 harg4 arg5 harg5 arg6 harg6 arg7 harg7 hc0 hc1 x0 x1 x2 xs0).1, y ∈ pc.1.set :=
  View.cover_of_tiledL (kernelRun7_C c i arg3 harg3 arg4 harg4 arg5 harg5 arg6 harg6 arg7 harg7 hc0 hc1 x0 x1 x2 xs0).1 S1024x256.size (by sl_kernel_rfl) y

/-- What case C leaves in the output block's buffer: its pieces read back over junk. -/
def out7_C_3 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) : Vec F S1024x256 .f32 :=
  VO7_3.read (Elt F) (VO7_3.writes (Elt F) VO7_3.junk (kernelRun7_C c i arg3 harg3 arg4 harg4 arg5 harg5 arg6 harg6 arg7 harg7 hc0 hc1 x0 x1 x2 xs0).1)

/-- Case C's pieces for the accumulator tile it, so they cover it. -/
theorem scover7_C_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) (y : S1024x256.Idx) :
    ∃ pc ∈ (kernelRun7_C c i arg3 harg3 arg4 harg4 arg5 harg5 arg6 harg6 arg7 harg7 hc0 hc1 x0 x1 x2 xs0).2.1, y ∈ pc.1.set :=
  View.cover_of_tiledL (kernelRun7_C c i arg3 harg3 arg4 harg4 arg5 harg5 arg6 harg6 arg7 harg7 hc0 hc1 x0 x1 x2 xs0).2.1 S1024x256.size (by sl_kernel_rfl) y

/-- What case C leaves in the accumulator: its pieces read back over junk. -/
def sout7_C_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) : Vec F S1024x256 .f32 :=
  VS7_0.read (Elt F) (VS7_0.writes (Elt F) VS7_0.junk (kernelRun7_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt7 (c : Dev nD) : (n : ℕ) → n < cfg7.N → Vec F S1024x256 .f32 × Vec F S1024x256 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 8 = 0 then
      if h1 : (n + 1) % 8 = 7 then
        False.elim (by omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 8 = 7 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

theorem outsAt7_A (c : Dev nD) (t : Fin cfg7.N) (h0 : t.val % 8 = 0) (h1 : ¬t.val % 8 = 7) :
    outsAt7 V c t.val t.isLt = (out7_A_3 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t), sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

theorem outsAt7_B (c : Dev nD) (t : Fin cfg7.N) (h0 : ¬t.val % 8 = 0) (h1 : ¬t.val % 8 = 7) :
    outsAt7 V c t.val t.isLt = (out7_B_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 8 = 0) (h1 : t.val % 8 = 7) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := Pipeline.UD sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := Pipeline.UD sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ Pipeline.scopedRestBut (Ix := Unit) (Name := ℕ) (U := Pipeline.UD sig nD τ) (Lvl := ℕ) (Val := Elt F) spec7 c [cc7_scratch0]) ∗ (∃ r, prngReg c r)) := by
  cases n with
  | zero => exact absurd rfl hz
  | succ n => rfl

/-! ## The proof data -/

/-- The arrays as the region finds them; after the body each input's buffer at its block and the output block's at
    `outsAt7`; the invariant `PhiS7`; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  have hN : t.val < 128 := lt_of_lt_of_eq t.isLt (show cfg7.N = 128 from N_7)
  by_cases h0 : t.val % 8 = 0
  · by_cases h1 : t.val % 8 = 7
    · exfalso; omega
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A_0; (try dsimp only)
      by_cases hz : t.val = 0
      · rw [PhiS7_castSucc V c t, PhiS7_zero V c _ _ hz, PhiA7_eq]
        iintro ⟨⟨⟨HS0, Hrest⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover7_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, Hrest⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover7_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C_0; (try dsimp only)
      have hz : t.val ≠ 0 := by omega
      rw [PhiS7_castSucc V c t, PhiS7_pos V c _ _ hz]
      iintro ⟨⟨⟨HS0, Hrest⟩, Hg⟩, Ho, ⟨%d0, H0⟩, ⟨%d1, H1⟩, ⟨%d2, H2⟩, ⟨%d3, H3⟩⟩
      iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover7_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_C_3 c _ _ _ _ _ _ _ _ _ _ _ _ _ _ _ _ _)
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B_0; (try dsimp only)
      have hz : t.val ≠ 0 := by omega
      rw [PhiS7_castSucc V c t, PhiS7_pos V c _ _ hz]
      iintro ⟨⟨⟨HS0, Hrest⟩, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover7_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the launch's form back: the accumulator's named contents are forgotten. -/
theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS0, Hrest⟩, Hg⟩
  isplitl [HS0 Hrest]
  · isplitl [HS0]
    · iexists _; iexact HS0
    iexact Hrest
  iexact Hg

theorem hout7 (c : Dev nD) : (dat7 V c).Φ (Fin.last cfg7.N) ⊢ (Pipeline.ΦA spec7 c : sProp 𝕄) :=
  Phi_out7 V c _ (by rw [Fin.val_last]; have : cfg7.N = 128 := N_7; omega)

/-! ## The values: each case's stores as the kernel's payload functions -/

theorem hzero7 : (![0, 0] : Fin 2 → Nat) = fun _ => 0 := funext fun a => by fin_cases a <;> rfl

/-- Step 0 leaves in the accumulator one accumulation over the zero block: the reset's store is read back by the
    accumulating load. -/
theorem sout7_A_0_eq (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) :
    sout7_A_0 c i arg3 harg3 arg4 harg4 arg5 harg5 arg6 harg6 arg7 harg7 hc0 hc1 x0 x1 x2 = k7_pay2 x0 x1 (k7_pay1 (F := F)) := by
  unfold sout7_A_0
  rw [View.read_writes_eq_canon _ _ _ (scover7_A_0 c i arg3 harg3 arg4 harg4 arg5 harg5 arg6 harg6 arg7 harg7 hc0 hc1 x0 x1 x2)]
  unfold kernelRun7_A
  dsimp only
  sl_unfold_words
  rw [View.canon_cons_unit_zero (S := S1024x256) hzero7, View.readCov_unit_zero (S := S1024x256) _ hzero7]
  simp only [View.readAt_eq_ld, harg3.read_unread, harg4.read_unread, View.ld_unit_zero (S := S1024x2048) hzero7, View.ld_unit_zero (S := S2048x256) hzero7, View.ld_unit_zero (S := S1x256) hzero7, View.ld_unit_zero (S := S1024x256) hzero7]

/-- Steps 1..6 leave one more accumulation over what the accumulator held. -/
theorem sout7_B_0_eq (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) :
    sout7_B_0 c i arg3 harg3 arg4 harg4 arg5 harg5 arg6 harg6 arg7 harg7 hc0 hc1 x0 x1 x2 xs0 = k7_pay2 x0 x1 xs0 := by
  unfold sout7_B_0
  rw [View.read_writes_eq_canon _ _ _ (scover7_B_0 c i arg3 harg3 arg4 harg4 arg5 harg5 arg6 harg6 arg7 harg7 hc0 hc1 x0 x1 x2 xs0)]
  unfold kernelRun7_B
  dsimp only
  sl_unfold_words
  rw [View.canon_unit_zero hzero7]
  simp only [View.readAt_eq_ld, harg3.read_unread, harg4.read_unread, harg7.read_unread, View.ld_unit_zero (S := S1024x2048) hzero7, View.ld_unit_zero (S := S2048x256) hzero7, View.ld_unit_zero (S := S1x256) hzero7, View.ld_unit_zero (S := S1024x256) hzero7]

/-- Step 7 accumulates likewise. -/
theorem sout7_C_0_eq (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) :
    sout7_C_0 c i arg3 harg3 arg4 harg4 arg5 harg5 arg6 harg6 arg7 harg7 hc0 hc1 x0 x1 x2 xs0 = k7_pay2 x0 x1 xs0 := by
  unfold sout7_C_0
  rw [View.read_writes_eq_canon _ _ _ (scover7_C_0 c i arg3 harg3 arg4 harg4 arg5 harg5 arg6 harg6 arg7 harg7 hc0 hc1 x0 x1 x2 xs0)]
  unfold kernelRun7_C
  dsimp only
  sl_unfold_words
  rw [View.canon_unit_zero hzero7]
  simp only [View.readAt_eq_ld, harg3.read_unread, harg4.read_unread, harg7.read_unread, View.ld_unit_zero (S := S1024x2048) hzero7, View.ld_unit_zero (S := S2048x256) hzero7, View.ld_unit_zero (S := S1x256) hzero7, View.ld_unit_zero (S := S1024x256) hzero7]

/-- Step 7 then stores into the output block the finishing payload of the accumulator it just wrote and the bias row. -/
theorem out7_C_3_eq (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) :
    out7_C_3 c i arg3 harg3 arg4 harg4 arg5 harg5 arg6 harg6 arg7 harg7 hc0 hc1 x0 x1 x2 xs0 = k7_pay3 (k7_pay2 x0 x1 xs0) x2 := by
  unfold out7_C_3
  rw [View.read_writes_eq_canon _ _ _ (cover7_C_3 c i arg3 harg3 arg4 harg4 arg5 harg5 arg6 harg6 arg7 harg7 hc0 hc1 x0 x1 x2 xs0)]
  unfold kernelRun7_C
  dsimp only
  sl_unfold_words
  rw [View.canon_unit_zero hzero7, View.readCov_unit_zero (S := S1024x256) _ hzero7]
  simp only [View.readAt_eq_ld, harg3.read_unread, harg4.read_unread, harg5.read_unread, harg7.read_unread, View.ld_unit_zero (S := S1024x2048) hzero7, View.ld_unit_zero (S := S2048x256) hzero7, View.ld_unit_zero (S := S1x256) hzero7, View.ld_unit_zero (S := S1024x256) hzero7]

/-- At the first reduction step of a row block the accumulator ends at one accumulation over zero. -/
theorem acc7_first (c : Dev nD) (t : Fin cfg7.N) (h0 : t.val % 8 = 0) :
    (outsAt7 V c t.val t.isLt).2 = k7_pay2 (iblk7 V c 0 t) (iblk7 V c 1 t) (k7_pay1 (F := F)) := by
  have h1 : ¬t.val % 8 = 7 := by omega
  rw [outsAt7_A V c t h0 h1]
  dsimp only
  exact sout7_A_0_eq c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)

/-- At every later step it ends at one more accumulation over what the point before left. -/
theorem acc7_step (c : Dev nD) (t : Fin cfg7.N) (h0 : ¬t.val % 8 = 0) :
    (outsAt7 V c t.val t.isLt).2 = k7_pay2 (iblk7 V c 0 t) (iblk7 V c 1 t) (outsAt7 V c (t.val - 1) (Nat.lt_of_le_of_lt (Nat.sub_le _ _) t.isLt)).2 := by
  by_cases h1 : t.val % 8 = 7
  · rw [outsAt7_C V c t h0 h1]
    dsimp only
    exact sout7_C_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2
  · rw [outsAt7_B V c t h0 h1]
    dsimp only
    exact sout7_B_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2

/-- At the last step (where the output block is written back) the block holds the finishing payload of the
    accumulator's final contents and the bias row. -/
theorem after7_out (c : Dev nD) (t : Fin cfg7.N) (h1 : t.val % 8 = 7) :
    (dat7 V c).after 3 t = k7_pay3 (outsAt7 V c t.val t.isLt).2 (iblk7 V c 2 t) := by
  have h0 : ¬t.val % 8 = 0 := by omega
  rw [after7_3, outsAt7_C V c t h0 h1]
  dsimp only
  rw [sout7_C_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2]
  exact out7_C_3_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2

end Cert.Kernel.Fr

end
-- ==== Proof.KB.Region8.lean ====
/-
  Region 8 of the program's main function: the matrix-product kernel of custom call 8, run by its pipeline on a grid whose
  contraction axis has ONE step.  At every grid point the kernel clears its accumulator, adds the product of the
  left block (2048x64) and the right block (64x64) into it, reads it back, adds the bias row (1x64) broadcast
  over the rows, and stores the result (2048x64) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether the pipeline fetched it there or
    not: where it did not, the block index has not moved since the last fetch and the body left the block in place.
    For any proof data whose array is the entry contents and whose body keeps the block. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store is of a whole buffer -/

/-- The offsets of every access are zero. -/
theorem hz8 : (![0, 0] : Fin 2 → Nat) = fun _ => 0 := by funext a; fin_cases a <;> rfl

abbrev r8_a : Rect S2048x64 := Rect.unit (s := S2048x64) ![0, 0] S2048x64.size inb_S2048x64_S2048x64_0_0
abbrev r8_b : Rect S64x64 := Rect.unit (s := S64x64) ![0, 0] S64x64.size inb_S64x64_S64x64_0_0
abbrev r8_c : Rect S1x64 := Rect.unit (s := S1x64) ![0, 0] S1x64.size inb_S1x64_S1x64_0_0
abbrev r8_o : Rect S2048x64 := Rect.unit (s := S2048x64) ![0, 0] S2048x64.size inb_S2048x64_S2048x64_0_0

/-! ## The body's two conditions, both true at every point (the contraction axis has one step) -/

/-- "This is the first contraction step", as the kernel computes it from grid coordinate 2. -/
abbrev cond8_0 (i : grid8.Coords) : Prop := (Scalar.cmpi .ne (Scalar.extui (Scalar.cmpi .eq (BitVec.ofNat 32 (i 2).val) 0#32)) 0#32) = 1#1
theorem hcond8_0 : ∀ t : Fin cfg8.N, cond8_0 (grid8.coords t) :=
  (by decide +kernel : ∀ t : Fin grid8.N, cond8_0 (grid8.coords t))

/-- "This is the last contraction step". -/
abbrev cond8_1 (i : grid8.Coords) : Prop := k8_cond2 i = 1#1
theorem hcond8_1 : ∀ t : Fin cfg8.N, cond8_1 (grid8.coords t) :=
  (by decide +kernel : ∀ t : Fin grid8.N, cond8_1 (grid8.coords t))

/-- So no window is idle at any point: the body stores the output block at each. -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel

/-! ## What the body leaves in the output window's buffer -/

/-- The accumulator when it is read back for the output: cleared, then the product of the two blocks added once. -/
def acc8 (x0 : Vec F S2048x64 .f32) (x1 : Vec F S64x64 .f32) : Vec F S2048x64 .f32 :=
  k8_pay2 (View.ld x0 r8_a) (View.ld x1 r8_b) (k8_pay1 (F := F))

/-- The output window's staging buffer after the body, from the input windows' blocks: its one store, of the whole block. -/
def out8_3 (x0 : Vec F S2048x64 .f32) (x1 : Vec F S64x64 .f32) (x2 : Vec F S1x64 .f32) : Vec F S2048x64 .f32 :=
  View.canon [⟨r8_o, k8_pay3 (acc8 x0 x1) (View.ld x2 r8_c)⟩]

/-- That store covers the buffer. -/
theorem storeCover8_3 (p0 : Vec F S2048x64 .f32) (y : S2048x64.Idx) :
    ∃ pc ∈ ([⟨r8_o, p0⟩] : List (View.Piece (Elt F) S2048x64 .f32)), y ∈ pc.1.set :=
  ⟨_, List.mem_singleton_self _, View.mem_set_unit_zero (S := S2048x64) hz8 inb_S2048x64_S2048x64_0_0 y⟩

/-- THE VALUE of the output block: bias row added to (zeros + left block × right block), in the kernel's own arithmetic. -/
theorem out8_3_eq (x0 : Vec F S2048x64 .f32) (x1 : Vec F S64x64 .f32) (x2 : Vec F S1x64 .f32) :
    out8_3 x0 x1 x2 = k8_pay3 (k8_pay2 x0 x1 (k8_pay1 (F := F))) x2 := by
  unfold out8_3 acc8
  refine (View.canon_unit_zero (S := S2048x64) hz8 _ _).trans ?_
  rw [View.ld_unit_zero (S := S2048x64) hz8, View.ld_unit_zero (S := S64x64) hz8, View.ld_unit_zero (S := S1x64) hz8]

/-! ## The body's triple -/

set_option maxHeartbeats 2000000 in
/-- The kernel body on whole memrefs — the three inputs' at their read contents, the output's and the accumulator's at
    anything — runs to the continuation holding the inputs' as they were, the output's at `out8_3` of the inputs', and
    the accumulator's at some contents.  Both conditions hold (`hc0`, `hc1`), so both branches are taken. -/
theorem sound_kernel8 (c : Dev nD) (E : Set ℕ) (i : grid8.Coords) (hc0 : cond8_0 i) (hc1 : cond8_1 i)
    (arg3 : Memref sig .tc .vmem S2048x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S2048x64 .f32) (harg6 : arg6.IsWhole)
    (arg7 : Memref sig .tc .vmem S2048x64 .f32) (harg7 : arg7.IsWhole)
    (x0 : Vec F S2048x64 .f32) (x1 : Vec F S64x64 .f32) (x2 : Vec F S1x64 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out8_3 x0 x1 x2) ∗ (∃ d, owns (c : Thread nD τ) arg7 fullShare d)) -∗ K ⟨⟩))
      ⊢ wp frame (wpE (defs₀ (F := F)) Variants.none c none) E (cc8__matmul_kernel i arg3 harg3 arg4 harg4 arg5 harg5 arg6 harg6 arg7 harg7) K := by
  simp only [cc8__matmul_kernel_eq_skeleton]; unfold cc8__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover8_3 _)]
    unfold out8_3 acc8
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM8 : Memref sig .tc .vmem S2048x64 .f32 := Memref.whole cc8_scratch0

/-- The region invariant with the accumulator taken out of the scoped rest: owned at some contents, beside every other
    scoped buffer (unopened) and the generator register. -/
theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := Pipeline.UD sig nD τ) (Lvl := ℕ) (Val := Elt F) spec8 c [cc8_scratch0]) ∗ (∃ r, prngReg c r)) := by
  unfold Pipeline.ΦA; rw [scopedRest8_split]; simp only [scM8, owns_whole]; try rfl

/-- The proof data of pipeline 8 on core `c`: the arrays as the region finds them; after the body at point `t` each
    input's buffer at its block and the output's at `out8_3` of the input blocks; the constant invariant; nothing owed;
    full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
/-- The output window after the body at point `t`: `out8_3` of the three input blocks there (its value: `out8_3_eq`). -/
theorem after8_out (c : Dev nD) (t : Fin cfg8.N) :
    (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- No window is idle, so the body's post for each is its buffer at what the body leaves. -/
theorem leaves8_0 (c : Dev nD) (t : Fin cfg8.N) :
    (dat8 V c).leavesExact 0 t = owns (c : Thread nD τ) (st8_0 t) fullShare (iblk8 V c 0 t) := by
  unfold Dat.leavesExact; rw [liveAt8_0 t, after8_0]
theorem leaves8_1 (c : Dev nD) (t : Fin cfg8.N) :
    (dat8 V c).leavesExact 1 t = owns (c : Thread nD τ) (st8_1 t) fullShare (iblk8 V c 1 t) := by
  unfold Dat.leavesExact; rw [liveAt8_1 t, after8_1]
theorem leaves8_2 (c : Dev nD) (t : Fin cfg8.N) :
    (dat8 V c).leavesExact 2 t = owns (c : Thread nD τ) (st8_2 t) fullShare (iblk8 V c 2 t) := by
  unfold Dat.leavesExact; rw [liveAt8_2 t, after8_2]
theorem leaves8_3 (c : Dev nD) (t : Fin cfg8.N) :
    (dat8 V c).leavesExact 3 t = owns (c : Thread nD τ) (st8_3 t) fullShare (out8_3 (iblk8 V c 0 t) (iblk8 V c 1 t) (iblk8 V c 2 t)) := by
  unfold Dat.leavesExact; rw [liveAt8_3 t, after8_out]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    leaves8_0, leaves8_1, leaves8_2, leaves8_3,
    show (dat8 V c).Φ t.castSucc = Pipeline.ΦA spec8 c from rfl, PhiA8_eq]
  iintro ⟨⟨⟨HS, Hrest⟩, Hg⟩, Ho, ⟨%d0, H0⟩, ⟨%d1, H1⟩, ⟨%d2, H2⟩, ⟨%d3, H3⟩⟩
  iapply (sound_kernel8 c Set.univ (grid8.coords t) (hcond8_0 t) (hcond8_1 t) _ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point, -/
theorem hin8 (c : Dev nD) : (Pipeline.ΦA spec8 c : sProp 𝕄) ⊢ (dat8 V c).Φ 0 := by
  rw [show (dat8 V c).Φ 0 = Pipeline.ΦA spec8 c from rfl]

/-- and the invariant after the last point is what the region hands back. -/
theorem hout8 (c : Dev nD) : (dat8 V c).Φ (Fin.last cfg8.N) ⊢ (Pipeline.ΦA spec8 c : sProp 𝕄) := by
  rw [show (dat8 V c).Φ (Fin.last cfg8.N) = Pipeline.ΦA spec8 c from rfl]

end Cert.Kernel.Fr

end
-- ==== Proof.KB.Region9Run.lean ====
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not (unfetched, the
    block index has not moved), for any proof data over the entry arrays whose body leaves the block in place. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not (unfetched, the
    block index has not moved), for any proof data over the entry arrays whose body leaves the block in place. -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not (unfetched, the
    block index has not moved), for any proof data over the entry arrays whose body leaves the block in place. -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's two conditionals, in closed form -/

/-- The first conditional (reduction step 0: reset the accumulator), from the grid coordinates. -/
abbrev cond9_0 (i : grid9.Coords) : Prop := (Scalar.cmpi .ne (Scalar.extui (Scalar.cmpi .eq (BitVec.ofNat 32 (i 2).val) 0#32)) 0#32) = 1#1
theorem hcond9_0 : ∀ t : Fin cfg9.N, cond9_0 (grid9.coords t) ↔ t.val % 8 = 0 :=
  (by decide +kernel : ∀ t : Fin grid9.N, cond9_0 (grid9.coords t) ↔ t.val % 8 = 0)

/-- The second conditional (reduction step 7: write the output block). -/
abbrev cond9_1 (i : grid9.Coords) : Prop := k9_cond2 i = 1#1
theorem hcond9_1 : ∀ t : Fin cfg9.N, cond9_1 (grid9.coords t) ↔ t.val % 8 = 7 :=
  (by decide +kernel : ∀ t : Fin grid9.N, cond9_1 (grid9.coords t) ↔ t.val % 8 = 7)

/-! ## Where the windows are idle -/

theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl
/-- At step 0 the output block is idle and not written back. -/
theorem idleAt9_3_A : ∀ t : Fin cfg9.N, cond9_0 (grid9.coords t) → ¬cond9_1 (grid9.coords t) → cfg9.idle 3 (grid9.coords t) = true := by decide +kernel
theorem noFlush9_3_A : ∀ t : Fin cfg9.N, cond9_0 (grid9.coords t) → ¬cond9_1 (grid9.coords t) → (cfg9.win 3).flush t = false := by decide +kernel
/-- At steps 1..6 likewise. -/
theorem idleAt9_3_B : ∀ t : Fin cfg9.N, ¬cond9_0 (grid9.coords t) → ¬cond9_1 (grid9.coords t) → cfg9.idle 3 (grid9.coords t) = true := by decide +kernel
theorem noFlush9_3_B : ∀ t : Fin cfg9.N, ¬cond9_0 (grid9.coords t) → ¬cond9_1 (grid9.coords t) → (cfg9.win 3).flush t = false := by decide +kernel
/-- At step 7 the output block is live. -/
theorem liveAt9_3_C : ∀ t : Fin cfg9.N, ¬cond9_0 (grid9.coords t) → cond9_1 (grid9.coords t) → cfg9.idle 3 (grid9.coords t) = false := by decide +kernel

/-! ## The staging memrefs and the scratch -/

abbrev VO9_3 : View sig .tc .vmem S1024x64 .f32 := (Memref.whole cc9_stg3_0 : Memref sig .tc .vmem S1024x64 .f32).view
abbrev ms9_0 (t : Fin cfg9.N) : Memref sig .tc .vmem S1024x2048 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x64 .f32 := win9_3.stage (cfg9.slots t 3)
abbrev hs9_3 (t : Fin cfg9.N) : (ms9_3 t).IsWhole := hstage9_3 ((cfg9.slots t 3).cast nbuf9_3)
/-- The accumulator: a whole scoped buffer of the kernel's own. -/
abbrev scM9_0 : Memref sig .tc .vmem S1024x64 .f32 := Memref.whole cc9_scratch0
abbrev VS9_0 : View sig .tc .vmem S1024x64 .f32 := scM9_0.view

/-- The region's invariant with the accumulator as a memref owned at some contents; every other scoped buffer
    stays unopened. -/
theorem PhiA9_eq (c : Dev nD) :
    (Pipeline.ΦA spec9 c : sProp 𝕄)
      = iprop(iprop((∃ d, owns (c : Thread nD τ) scM9_0 fullShare d)
          ∗ Pipeline.scopedRestBut (Ix := Unit) (Name := ℕ) (U := Pipeline.UD sig nD τ) (Lvl := ℕ) (Val := Elt F) spec9 c [cc9_scratch0]) ∗ (∃ r, prngReg c r)) := by
  unfold Pipeline.ΦA; rw [scopedRest9_split]; simp only [scM9_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun9_A (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_kernel i arg3 harg3 arg4 harg4 arg5 harg5 arg6 harg6 arg7 harg7) K } := by
  refine ⟨[], ?_, fun xi3 E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun9_B (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_kernel i arg3 harg3 arg4 harg4 arg5 harg5 arg6 harg6 arg7 harg7) K } := by
  refine ⟨[], ?_, fun xi3 E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun9_C (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_kernel i arg3 harg3 arg4 harg4 arg5 harg5 arg6 harg6 arg7 harg7) K } := by
  refine ⟨?_, ?_, fun E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KB.Region9.lean ====
import proofs.«127812_j6760278524061_1_alg».proof.Proof.KB.Region9Run
import Idealize.ShloMosaic.Lib.Pipeline.Value

/-! # Region 9: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out9_A_3 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) : Vec F S1024x64 .f32 :=
  VO9_3.read (Elt F) (VO9_3.writes (Elt F) VO9_3.junk (kernelRun9_A c i arg3 harg3 arg4 harg4 arg5 harg5 arg6 harg6 arg7 harg7 hc0 hc1 x0 x1 x2).1)

/-- Case A's pieces for the accumulator tile it, so they cover it. -/
theorem scover9_A_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) (y : S1024x64.Idx) :
    ∃ pc ∈ (kernelRun9_A c i arg3 harg3 arg4 harg4 arg5 harg5 arg6 harg6 arg7 harg7 hc0 hc1 x0 x1 x2).2.1, y ∈ pc.1.set :=
  View.cover_of_tiledL (kernelRun9_A c i arg3 harg3 arg4 harg4 arg5 harg5 arg6 harg6 arg7 harg7 hc0 hc1 x0 x1 x2).2.1 S1024x64.size (by sl_kernel_rfl) y

/-- What case A leaves in the accumulator: its pieces read back over junk. -/
def sout9_A_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) : Vec F S1024x64 .f32 :=
  VS9_0.read (Elt F) (VS9_0.writes (Elt F) VS9_0.junk (kernelRun9_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out9_B_3 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) : Vec F S1024x64 .f32 :=
  VO9_3.read (Elt F) (VO9_3.writes (Elt F) VO9_3.junk (kernelRun9_B c i arg3 harg3 arg4 harg4 arg5 harg5 arg6 harg6 arg7 harg7 hc0 hc1 x0 x1 x2 xs0).1)

/-- Case B's pieces for the accumulator tile it, so they cover it. -/
theorem scover9_B_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) (y : S1024x64.Idx) :
    ∃ pc ∈ (kernelRun9_B c i arg3 harg3 arg4 harg4 arg5 harg5 arg6 harg6 arg7 harg7 hc0 hc1 x0 x1 x2 xs0).2.1, y ∈ pc.1.set :=
  View.cover_of_tiledL (kernelRun9_B c i arg3 harg3 arg4 harg4 arg5 harg5 arg6 harg6 arg7 harg7 hc0 hc1 x0 x1 x2 xs0).2.1 S1024x64.size (by sl_kernel_rfl) y

/-- What case B leaves in the accumulator: its pieces read back over junk. -/
def sout9_B_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) : Vec F S1024x64 .f32 :=
  VS9_0.read (Elt F) (VS9_0.writes (Elt F) VS9_0.junk (kernelRun9_B c i arg3 harg3 arg4 harg4 arg5 harg5 arg6 harg6 arg7 harg7 hc0 hc1 x0 x1 x2 xs0).2.1)

/-- Case C's one store into the output block covers it. -/
theorem cover9_C_3 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) (y : S1024x64.Idx) :
    ∃ pc ∈ (kernelRun9_C c i arg3 harg3 arg4 harg4 arg5 harg5 arg6 harg6 arg7 harg7 hc0 hc1 x0 x1 x2 xs0).1, y ∈ pc.1.set :=
  View.cover_of_tiledL (kernelRun9_C c i arg3 harg3 arg4 harg4 arg5 harg5 arg6 harg6 arg7 harg7 hc0 hc1 x0 x1 x2 xs0).1 S1024x64.size (by sl_kernel_rfl) y

/-- What case C leaves in the output block's buffer: its pieces read back over junk. -/
def out9_C_3 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) : Vec F S1024x64 .f32 :=
  VO9_3.read (Elt F) (VO9_3.writes (Elt F) VO9_3.junk (kernelRun9_C c i arg3 harg3 arg4 harg4 arg5 harg5 arg6 harg6 arg7 harg7 hc0 hc1 x0 x1 x2 xs0).1)

/-- Case C's pieces for the accumulator tile it, so they cover it. -/
theorem scover9_C_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) (y : S1024x64.Idx) :
    ∃ pc ∈ (kernelRun9_C c i arg3 harg3 arg4 harg4 arg5 harg5 arg6 harg6 arg7 harg7 hc0 hc1 x0 x1 x2 xs0).2.1, y ∈ pc.1.set :=
  View.cover_of_tiledL (kernelRun9_C c i arg3 harg3 arg4 harg4 arg5 harg5 arg6 harg6 arg7 harg7 hc0 hc1 x0 x1 x2 xs0).2.1 S1024x64.size (by sl_kernel_rfl) y

/-- What case C leaves in the accumulator: its pieces read back over junk. -/
def sout9_C_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) : Vec F S1024x64 .f32 :=
  VS9_0.read (Elt F) (VS9_0.writes (Elt F) VS9_0.junk (kernelRun9_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt9 (c : Dev nD) : (n : ℕ) → n < cfg9.N → Vec F S1024x64 .f32 × Vec F S1024x64 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h0 : (n + 1) % 8 = 0 then
      if h1 : (n + 1) % 8 = 7 then
        False.elim (by omega)
      else
        (out9_A_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩))
    else
      if h1 : (n + 1) % 8 = 7 then
        (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2)
      else
        (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2)

theorem outsAt9_A (c : Dev nD) (t : Fin cfg9.N) (h0 : t.val % 8 = 0) (h1 : ¬t.val % 8 = 7) :
    outsAt9 V c t.val t.isLt = (out9_A_3 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t), sout9_A_0 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact (dif_pos h0).trans ((dif_neg h1).trans rfl)

theorem outsAt9_B (c : Dev nD) (t : Fin cfg9.N) (h0 : ¬t.val % 8 = 0) (h1 : ¬t.val % 8 = 7) :
    outsAt9 V c t.val t.isLt = (out9_B_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2, sout9_B_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 8 = 0) (h1 : t.val % 8 = 7) :
    outsAt9 V c t.val t.isLt = (out9_C_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2, sout9_C_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2) ∗ Pipeline.scopedRestBut (Ix := Unit) (Name := ℕ) (U := Pipeline.UD sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9_0 fullShare ((outsAt9 V c n hn).2) ∗ Pipeline.scopedRestBut (Ix := Unit) (Name := ℕ) (U := Pipeline.UD sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9_0 fullShare ((outsAt9 V c (n - 1) (by omega)).2) ∗ Pipeline.scopedRestBut (Ix := Unit) (Name := ℕ) (U := Pipeline.UD sig nD τ) (Lvl := ℕ) (Val := Elt F) spec9 c [cc9_scratch0]) ∗ (∃ r, prngReg c r)) := by
  cases n with
  | zero => exact absurd rfl hz
  | succ n => rfl

/-! ## The proof data -/

/-- The arrays as the region finds them; after the body each input's buffer at its block and the output block's at
    `outsAt9`; the invariant `PhiS9`; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  have hN : t.val < 128 := lt_of_lt_of_eq t.isLt (show cfg9.N = 128 from N_9)
  by_cases h0 : t.val % 8 = 0
  · by_cases h1 : t.val % 8 = 7
    · exfalso; omega
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [show (dat9 V c).leavesExact 2 t = owns (c : Thread nD τ) (ms9_2 t) fullShare ((dat9 V c).after 2 t) from by
        unfold Dat.leavesExact; rw [liveAt9_2 t], after9_2]
      rw [Dat.leavesExact_idle (dat9 V c) 3 t (idleAt9_3_A t ((hcond9_0 t).mpr h0) (fun h => h1 ((hcond9_1 t).mp h))) (noFlush9_3_A t ((hcond9_0 t).mpr h0) (fun h => h1 ((hcond9_1 t).mp h)))]
      rw [outsAt9_A V c t h0 h1]
      unfold sout9_A_0; (try dsimp only)
      by_cases hz : t.val = 0
      · rw [PhiS9_castSucc V c t, PhiS9_zero V c _ _ hz, PhiA9_eq]
        iintro ⟨⟨⟨HS0, Hrest⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover9_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS9_castSucc V c t, PhiS9_pos V c _ _ hz]
        iintro ⟨⟨⟨HS0, Hrest⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover9_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [show (dat9 V c).leavesExact 2 t = owns (c : Thread nD τ) (ms9_2 t) fullShare ((dat9 V c).after 2 t) from by
        unfold Dat.leavesExact; rw [liveAt9_2 t], after9_2]
      rw [show (dat9 V c).leavesExact 3 t = owns (c : Thread nD τ) (ms9_3 t) fullShare ((dat9 V c).after 3 t) from by
        unfold Dat.leavesExact; rw [liveAt9_3_C t (fun h => h0 ((hcond9_0 t).mp h)) ((hcond9_1 t).mpr h1)], after9_3]
      rw [outsAt9_C V c t h0 h1]
      unfold out9_C_3 sout9_C_0; (try dsimp only)
      have hz : t.val ≠ 0 := by omega
      rw [PhiS9_castSucc V c t, PhiS9_pos V c _ _ hz]
      iintro ⟨⟨⟨HS0, Hrest⟩, Hg⟩, Ho, ⟨%d0, H0⟩, ⟨%d1, H1⟩, ⟨%d2, H2⟩, ⟨%d3, H3⟩⟩
      iapply ((kernelRun9_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover9_C_3 c _ _ _ _ _ _ _ _ _ _ _ _ _ _ _ _ _)
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [show (dat9 V c).leavesExact 2 t = owns (c : Thread nD τ) (ms9_2 t) fullShare ((dat9 V c).after 2 t) from by
        unfold Dat.leavesExact; rw [liveAt9_2 t], after9_2]
      rw [Dat.leavesExact_idle (dat9 V c) 3 t (idleAt9_3_B t (fun h => h0 ((hcond9_0 t).mp h)) (fun h => h1 ((hcond9_1 t).mp h))) (noFlush9_3_B t (fun h => h0 ((hcond9_0 t).mp h)) (fun h => h1 ((hcond9_1 t).mp h)))]
      rw [outsAt9_B V c t h0 h1]
      unfold sout9_B_0; (try dsimp only)
      have hz : t.val ≠ 0 := by omega
      rw [PhiS9_castSucc V c t, PhiS9_pos V c _ _ hz]
      iintro ⟨⟨⟨HS0, Hrest⟩, Hg⟩, Ho, ⟨%d0, H0⟩, ⟨%d1, H1⟩, ⟨%d2, H2⟩, ⟨%d3, H3⟩⟩
      iapply ((kernelRun9_B c (grid9.coords t) _ _ _ _ _ _ _ _ _ _ (fun h => h0 ((hcond9_0 t).mp h)) (fun h => h1 ((hcond9_1 t).mp h)) (iblk9 V c 0 t) (iblk9 V c 1 t) (iblk9 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : (Pipeline.ΦA spec9 c : sProp 𝕄) ⊢ (dat9 V c).Φ 0 := by
  rw [show (dat9 V c).Φ 0 = PhiS9 V c 0 (Nat.zero_le _) from rfl, PhiS9_zero V c 0 _ rfl]
  try exact Idealize.SL.BI.Entails.refl _

/-- After any point the invariant gives the launch's form back: the accumulator's named contents are forgotten. -/
theorem Phi_out9 (c : Dev nD) (t : Fin (cfg9.N + 1)) (ht : t.val ≠ 0) : (dat9 V c).Φ t ⊢ (Pipeline.ΦA spec9 c : sProp 𝕄) := by
  rw [show (dat9 V c).Φ t = PhiS9 V c t.val (Nat.le_of_lt_succ t.isLt) from rfl, PhiS9_pos V c _ _ ht, PhiA9_eq]
  iintro ⟨⟨HS0, Hrest⟩, Hg⟩
  isplitl [HS0 Hrest]
  · isplitl [HS0]
    · iexists _; iexact HS0
    iexact Hrest
  iexact Hg

theorem hout9 (c : Dev nD) : (dat9 V c).Φ (Fin.last cfg9.N) ⊢ (Pipeline.ΦA spec9 c : sProp 𝕄) :=
  Phi_out9 V c _ (by rw [Fin.val_last]; have : cfg9.N = 128 := N_9; omega)

/-! ## The values: each case's stores as the kernel's payload functions -/

theorem hzero9 : (![0, 0] : Fin 2 → Nat) = fun _ => 0 := funext fun a => by fin_cases a <;> rfl

/-- Step 0 leaves in the accumulator one accumulation over the zero block: the reset's store is read back by the
    accumulating load. -/
theorem sout9_A_0_eq (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) :
    sout9_A_0 c i arg3 harg3 arg4 harg4 arg5 harg5 arg6 harg6 arg7 harg7 hc0 hc1 x0 x1 x2 = k9_pay2 x0 x1 (k9_pay1 (F := F)) := by
  unfold sout9_A_0
  rw [View.read_writes_eq_canon _ _ _ (scover9_A_0 c i arg3 harg3 arg4 harg4 arg5 harg5 arg6 harg6 arg7 harg7 hc0 hc1 x0 x1 x2)]
  unfold kernelRun9_A
  dsimp only
  sl_unfold_words
  rw [View.canon_cons_unit_zero (S := S1024x64) hzero9, View.readCov_unit_zero (S := S1024x64) _ hzero9]
  simp only [View.readAt_eq_ld, harg3.read_unread, harg4.read_unread, View.ld_unit_zero (S := S1024x2048) hzero9, View.ld_unit_zero (S := S2048x64) hzero9, View.ld_unit_zero (S := S1x64) hzero9, View.ld_unit_zero (S := S1024x64) hzero9]

/-- Steps 1..6 leave one more accumulation over what the accumulator held. -/
theorem sout9_B_0_eq (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) :
    sout9_B_0 c i arg3 harg3 arg4 harg4 arg5 harg5 arg6 harg6 arg7 harg7 hc0 hc1 x0 x1 x2 xs0 = k9_pay2 x0 x1 xs0 := by
  unfold sout9_B_0
  rw [View.read_writes_eq_canon _ _ _ (scover9_B_0 c i arg3 harg3 arg4 harg4 arg5 harg5 arg6 harg6 arg7 harg7 hc0 hc1 x0 x1 x2 xs0)]
  unfold kernelRun9_B
  dsimp only
  sl_unfold_words
  rw [View.canon_unit_zero hzero9]
  simp only [View.readAt_eq_ld, harg3.read_unread, harg4.read_unread, harg7.read_unread, View.ld_unit_zero (S := S1024x2048) hzero9, View.ld_unit_zero (S := S2048x64) hzero9, View.ld_unit_zero (S := S1x64) hzero9, View.ld_unit_zero (S := S1024x64) hzero9]

/-- Step 7 accumulates likewise. -/
theorem sout9_C_0_eq (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) :
    sout9_C_0 c i arg3 harg3 arg4 harg4 arg5 harg5 arg6 harg6 arg7 harg7 hc0 hc1 x0 x1 x2 xs0 = k9_pay2 x0 x1 xs0 := by
  unfold sout9_C_0
  rw [View.read_writes_eq_canon _ _ _ (scover9_C_0 c i arg3 harg3 arg4 harg4 arg5 harg5 arg6 harg6 arg7 harg7 hc0 hc1 x0 x1 x2 xs0)]
  unfold kernelRun9_C
  dsimp only
  sl_unfold_words
  rw [View.canon_unit_zero hzero9]
  simp only [View.readAt_eq_ld, harg3.read_unread, harg4.read_unread, harg7.read_unread, View.ld_unit_zero (S := S1024x2048) hzero9, View.ld_unit_zero (S := S2048x64) hzero9, View.ld_unit_zero (S := S1x64) hzero9, View.ld_unit_zero (S := S1024x64) hzero9]

/-- Step 7 then stores into the output block the finishing payload of the accumulator it just wrote and the bias row. -/
theorem out9_C_3_eq (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) :
    out9_C_3 c i arg3 harg3 arg4 harg4 arg5 harg5 arg6 harg6 arg7 harg7 hc0 hc1 x0 x1 x2 xs0 = k9_pay3 (k9_pay2 x0 x1 xs0) x2 := by
  unfold out9_C_3
  rw [View.read_writes_eq_canon _ _ _ (cover9_C_3 c i arg3 harg3 arg4 harg4 arg5 harg5 arg6 harg6 arg7 harg7 hc0 hc1 x0 x1 x2 xs0)]
  unfold kernelRun9_C
  dsimp only
  sl_unfold_words
  rw [View.canon_unit_zero hzero9, View.readCov_unit_zero (S := S1024x64) _ hzero9]
  simp only [View.readAt_eq_ld, harg3.read_unread, harg4.read_unread, harg5.read_unread, harg7.read_unread, View.ld_unit_zero (S := S1024x2048) hzero9, View.ld_unit_zero (S := S2048x64) hzero9, View.ld_unit_zero (S := S1x64) hzero9, View.ld_unit_zero (S := S1024x64) hzero9]

/-- At the first reduction step of a row block the accumulator ends at one accumulation over zero. -/
theorem acc9_first (c : Dev nD) (t : Fin cfg9.N) (h0 : t.val % 8 = 0) :
    (outsAt9 V c t.val t.isLt).2 = k9_pay2 (iblk9 V c 0 t) (iblk9 V c 1 t) (k9_pay1 (F := F)) := by
  have h1 : ¬t.val % 8 = 7 := by omega
  rw [outsAt9_A V c t h0 h1]
  dsimp only
  exact sout9_A_0_eq c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)

/-- At every later step it ends at one more accumulation over what the point before left. -/
theorem acc9_step (c : Dev nD) (t : Fin cfg9.N) (h0 : ¬t.val % 8 = 0) :
    (outsAt9 V c t.val t.isLt).2 = k9_pay2 (iblk9 V c 0 t) (iblk9 V c 1 t) (outsAt9 V c (t.val - 1) (Nat.lt_of_le_of_lt (Nat.sub_le _ _) t.isLt)).2 := by
  by_cases h1 : t.val % 8 = 7
  · rw [outsAt9_C V c t h0 h1]
    dsimp only
    exact sout9_C_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2
  · rw [outsAt9_B V c t h0 h1]
    dsimp only
    exact sout9_B_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2

/-- At the last step (where the output block is written back) the block holds the finishing payload of the
    accumulator's final contents and the bias row. -/
theorem after9_out (c : Dev nD) (t : Fin cfg9.N) (h1 : t.val % 8 = 7) :
    (dat9 V c).after 3 t = k9_pay3 (outsAt9 V c t.val t.isLt).2 (iblk9 V c 2 t) := by
  have h0 : ¬t.val % 8 = 0 := by omega
  rw [after9_3, outsAt9_C V c t h0 h1]
  dsimp only
  rw [sout9_C_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2]
  exact out9_C_3_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2

end Cert.Kernel.Fr

end
-- ==== Proof.KB.Region10.lean ====
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 10 of @main: custom_call 10, `cc10__ssT_kernel` (pipeline 10), at the entry contents `V`

The kernel computes one 2048×1024 block of the product S·Sᵀ per grid point (i, j) of an 8×16 grid: it reads rows
2048·i … of S through window 0 and rows 1024·j … of S through window 1 — BOTH windows stage the same array —, and
stores the block through window 2, which is written back at every point. No scratch, no branch: the invariant is the
constant `ΦA`. Because the two input windows share their array, each holds HALF of that array's share
(`fullShare.left`, `fullShare.right`), and the region's entry and exit split and rejoin the array's full share. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not (it is fetched
    only where the row block changes), for any proof data whose array is `V`'s and whose body leaves the block in place. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point. -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_in0 : Rect S2048x64 := Rect.unit (s := S2048x64) ![0, 0] S2048x64.size inb_S2048x64_S2048x64_0_0
abbrev r10_in1 : Rect S1024x64 := Rect.unit (s := S1024x64) ![0, 0] S1024x64.size inb_S1024x64_S1024x64_0_0
abbrev r10_0 : Rect S2048x1024 := Rect.unit (s := S2048x1024) ![0, 0] S2048x1024.size inb_S2048x1024_S2048x1024_0_0

/-! ## What the body leaves in the output window's buffer -/

/-- Window 2's staging buffer after the body, from the input windows' blocks: its one store, of the product of the
    first block (rounded to bf16) with the transpose of the second (rounded to bf16), over the whole buffer. -/
def out10_2 (x0 : Vec F S2048x64 .f32) (x1 : Vec F S1024x64 .f32) : Vec F S2048x1024 .f32 :=
  View.canon [⟨r10_0, k10_pay1 (View.ld x0 r10_in0) (View.ld x1 r10_in1)⟩]

/-- The store tiles the buffer, so it covers it. -/
theorem cover10_2 (p0 : Vec F S2048x1024 .f32) (y : S2048x1024.Idx) :
    ∃ pc ∈ ([⟨r10_0, p0⟩] : List (View.Piece (Elt F) S2048x1024 .f32)), y ∈ pc.1.set :=
  View.cover_of_tiled [⟨r10_0, p0⟩] S2048x1024.size (by rfl) y

/-! ## The body's triple -/

set_option maxHeartbeats 1000000 in
/-- The kernel body on whole staging memrefs, the inputs' at read contents `x0`, `x1` and the output's at anything,
    runs to the continuation holding the inputs' as they were and the output's at `out10_2 x0 x1`. -/
theorem sound_kernel10 (c : Dev nD) (E : Set ℕ) (i : grid10.Coords) (arg2 : Memref sig .tc .vmem S2048x64 .f32) (harg2 : arg2.IsWhole)
    (arg3 : Memref sig .tc .vmem S1024x64 .f32) (harg3 : arg3.IsWhole) (arg4 : Memref sig .tc .vmem S2048x1024 .f32) (harg4 : arg4.IsWhole)
    (x0 : Vec F S2048x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out10_2 x0 x1)) -∗ K ⟨⟩))
      ⊢ wp frame (wpE (defs₀ (F := F)) Variants.none c none) E (cc10__ssT_kernel i arg2 harg2 arg3 harg3 arg4 harg4) K := by
  simp only [cc10__ssT_kernel_eq_skeleton]; unfold cc10__ssT_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core `c`: the arrays as the region finds them (`V`); after the body at point `t`
    each input's buffer at its block and the output's at `out10_2` of the input blocks; the invariant the constant
    `ΦA` (the scoped rest and the generator register, untouched); nothing owed. The two input windows read ONE array:
    each holds half of its share, the output window its array's full share. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q w := match w with
    | ⟨0, _⟩ => fullShare.left
    | ⟨1, _⟩ => fullShare.right
    | ⟨2, _⟩ => fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- The invariant is the constant `ΦA`: it is what the region hands in, and what it hands back. -/
theorem hin10 (c : Dev nD) : (Pipeline.ΦA spec10 c : sProp 𝕄) ⊢ (dat10 V c).Φ 0 := Entails.refl _
theorem hout10 (c : Dev nD) : (dat10 V c).Φ (Fin.last cfg10.N) ⊢ (Pipeline.ΦA spec10 c : sProp 𝕄) := Entails.refl _

/-! ## The value the output window holds -/

theorem zero2 : ∀ a : Fin 2, (![0, 0] : Fin 2 → ℕ) a = 0 := by decide

/-- The rectangle of the one store is the whole buffer, and so are the rectangles of the two loads: each places every
    index at itself. -/
theorem r10_0_emb (x : r10_0.shape.Idx) : r10_0.emb x = x := by
  funext a; apply Fin.ext
  have h : ((r10_0.emb x) a : ℕ) = r10_0.off a + r10_0.stride a * (x a) := rfl
  have h0 : r10_0.off a = 0 := zero2 a
  have h1 : r10_0.stride a = 1 := rfl
  rw [h, h0, h1]; omega
theorem r10_in0_idx (x : r10_in0.shape.Idx) : r10_in0.idx x = x := by
  funext a; apply Fin.ext
  have h : ((r10_in0.idx x) a : ℕ) = r10_in0.off a + r10_in0.stride a * (x a) := rfl
  have h0 : r10_in0.off a = 0 := zero2 a
  have h1 : r10_in0.stride a = 1 := rfl
  rw [h, h0, h1]; omega
theorem r10_in1_idx (x : r10_in1.shape.Idx) : r10_in1.idx x = x := by
  funext a; apply Fin.ext
  have h : ((r10_in1.idx x) a : ℕ) = r10_in1.off a + r10_in1.stride a * (x a) := rfl
  have h0 : r10_in1.off a = 0 := zero2 a
  have h1 : r10_in1.stride a = 1 := rfl
  rw [h, h0, h1]; omega

/-- What the body leaves in the output buffer IS the kernel's payload of the two input blocks: the store covers the
    buffer, and the loads read the whole input buffers. -/
theorem out10_2_eq (x0 : Vec F S2048x64 .f32) (x1 : Vec F S1024x64 .f32) : out10_2 x0 x1 = k10_pay1 x0 x1 := by
  have e0 : View.ld x0 r10_in0 = x0 := funext fun x => congrArg x0 (r10_in0_idx x)
  have e1 : View.ld x1 r10_in1 = x1 := funext fun x => congrArg x1 (r10_in1_idx x)
  funext y
  unfold out10_2
  rw [e0, e1]
  calc View.canon [(⟨r10_0, k10_pay1 x0 x1⟩ : View.Piece (Elt F) S2048x1024 .f32)] y
      = View.canon [(⟨r10_0, k10_pay1 x0 x1⟩ : View.Piece (Elt F) S2048x1024 .f32)] (r10_0.emb y) := by rw [r10_0_emb]
    _ = k10_pay1 x0 x1 y := View.canon_cons_emb r10_0 _ [] y

/-- The output window after the body at point `t` (it is written back at every point): the product block of the
    two input blocks. -/
theorem after10_out (c : Dev nD) (t : Fin cfg10.N) :
    (dat10 V c).after 2 t = k10_pay1 (iblk10 V c 0 t) (iblk10 V c 1 t) := by
  rw [after10_2, out10_2_eq]

/-! ## Entry and exit: the shared array's share split among the two windows on it, and rejoined -/

/-- The buffers behind the windows' arrays: the shared input array and the output array. -/
theorem arrBufs10_eq (c : Dev nD) (W : (b : Ref sig .tc) → Buf (Elt F) ((c : Thread nD τ).loc b)) :
    (Pipeline.arrBufs (Ix := Unit) (Name := ℕ) (U := Pipeline.UD sig nD τ) (Lvl := ℕ) spec10 c W : sProp 𝕄)
      = iprop((((c : Thread nD τ).loc main_v82) ↦{fullShare} W main_v82) ∗ (((c : Thread nD τ).loc main_v83) ↦{fullShare} W main_v83)) := by
  unfold Pipeline.arrBufs
  rw [BI.bigSep_eq_bigSepL_of_eq [main_v82, main_v83] (by decide) (by decide)]; rfl

/-- The pipeline's arrays at contents `Fs`, window by window: the two input windows hold the two halves of the shared
    array's share, the output window its array's full share. -/
theorem arrays10_eq (c : Dev nD) (Fs : (w : Fin cfg10.W) → Buf (Elt F) ((cfg10.win w).arr.view.loc (c : Thread nD τ))) :
    (dat10 V c).arrays Fs
      = iprop((((c : Thread nD τ).loc main_v82) ↦{fullShare.left} Fs 0) ∗ (((c : Thread nD τ).loc main_v82) ↦{fullShare.right} Fs 1)
          ∗ (((c : Thread nD τ).loc main_v83) ↦{fullShare} Fs 2)) := by
  unfold Dat.arrays
  rw [bigSep_W10, (arr_whole10 0).set_eq_univ, (arr_whole10 2).set_eq_univ]
  rfl

/-- A core's unscoped buffers at contents `W` are the buffers behind pipeline 10's arrays at `W` and the rest. -/
theorem unscopedBufs_split10 (c : Dev nD) (W : (b : Ref sig .tc) → Buf (Elt F) ((c : Thread nD τ).loc b)) :
    (unscopedBufs c W : sProp 𝕄)
      = iprop((Pipeline.arrBufs (Ix := Unit) (Name := ℕ) (U := Pipeline.UD sig nD τ) (Lvl := ℕ) spec10 c W : sProp 𝕄)
          ∗ Pipeline.unscopedRest (Ix := Unit) (Name := ℕ) (U := Pipeline.UD sig nD τ) (Lvl := ℕ) spec10 c W) :=
  Pipeline.unscopedBufs_split₀ cfgs 10 winFacts₀10.arr_unscoped c W

/-- ENTRY, the arrays' part: a core's unscoped buffers at contents `V c` are the pipeline's arrays at the proof data's
    entry contents — the shared input array's full share dealt in halves to the two windows on it — and the unscoped rest. -/
theorem arrays_of_unscopedBufs10 (c : Dev nD) :
    (unscopedBufs c (V c) : sProp 𝕄)
      ⊢ iprop((dat10 V c).arrays ((dat10 V c).arrAt · 0) ∗ Pipeline.unscopedRest (Ix := Unit) (Name := ℕ) (U := Pipeline.UD sig nD τ) (Lvl := ℕ) spec10 c (V c)) := by
  rw [unscopedBufs_split10, arrBufs10_eq, arrays10_eq]
  iintro ⟨⟨⟨H0, H1⟩, H2⟩, Hr⟩
  isplitr [Hr]
  · isplitl [H0]; · iexact H0
    isplitl [H1]; · iexact H1
    iexact H2
  iexact Hr

/-- Windows 0 and 1 read their array: it ends as the region found it. -/
theorem arrAt10_0 (c : Dev nD) (n : ℕ) : (dat10 V c).arrAt 0 n = V c main_v82 := (dat10 V c).arrAt_in 0 rfl n
theorem arrAt10_1 (c : Dev nD) (n : ℕ) : (dat10 V c).arrAt 1 n = V c main_v82 := (dat10 V c).arrAt_in 1 rfl n

/-- EXIT, the arrays' part: the pipeline's arrays at their final contents — the two halves of the shared input array's
    share rejoined — and the unscoped rest at `V c` are the core's unscoped buffers at any valuation `V'` that has the
    arrays at those contents and agrees with `V c` off them. -/
theorem unscopedBufs_of_arrays10 (c : Dev nD) (V' : (b : Ref sig .tc) → Buf (Elt F) ((c : Thread nD τ).loc b))
    (hF : ∀ w, (dat10 V c).arrAt w cfg10.N = V' (Pipeline.arrRef spec10 w))
    (hrest : ∀ b, b ∉ Finset.univ.image (Pipeline.arrRef spec10) → V' b = V c b) :
    iprop((dat10 V c).arrays ((dat10 V c).arrAt · cfg10.N) ∗ Pipeline.unscopedRest (Ix := Unit) (Name := ℕ) (U := Pipeline.UD sig nD τ) (Lvl := ℕ) spec10 c (V c))
      ⊢ (unscopedBufs c V' : sProp 𝕄) := by
  have hr : (Pipeline.unscopedRest (Ix := Unit) (Name := ℕ) (U := Pipeline.UD sig nD τ) (Lvl := ℕ) spec10 c (V c) : sProp 𝕄)
      = Pipeline.unscopedRest spec10 c V' := by
    unfold Pipeline.unscopedRest
    exact bigSep_congr fun b hb => by rw [hrest b (Finset.mem_sdiff.mp hb).2]
  have h0 : (dat10 V c).arrAt 0 cfg10.N = V' main_v82 := hF 0
  have h1 : (dat10 V c).arrAt 1 cfg10.N = V' main_v82 := hF 1
  have h2 : (dat10 V c).arrAt 2 cfg10.N = V' main_v83 := hF 2
  rw [unscopedBufs_split10, arrBufs10_eq, arrays10_eq, hr, h0, h1, h2]
  iintro ⟨⟨H0, H1, H2⟩, Hr⟩
  isplitr [Hr]
  · isplitr [H2]
    · isplitl [H0]; · iexact H0
      iexact H1
    iexact H2
  iexact Hr

/-- Two windows on one array end at the same contents (what the region found there). -/
theorem arrAt10_heq (c : Dev nD) (w w' : Fin 3) (e : Pipeline.arrRef spec10 w' = Pipeline.arrRef spec10 w) :
    HEq ((dat10 V c).arrAt w' cfg10.N) ((dat10 V c).arrAt w cfg10.N) := by
  fin_cases w <;> fin_cases w'
  · exact HEq.rfl
  · exact heq_of_eq ((arrAt10_1 V c _).trans (arrAt10_0 V c _).symm)
  · exact absurd e (by decide)
  · exact heq_of_eq ((arrAt10_0 V c _).trans (arrAt10_1 V c _).symm)
  · exact HEq.rfl
  · exact absurd e (by decide)
  · exact absurd e (by decide)
  · exact absurd e (by decide)
  · exact HEq.rfl

/-- The region's exit valuation at a window's array is that window's final contents, although two windows share an
    array: both end at what the region found there. -/
theorem withArrays_arr10 (c : Dev nD) (W : Valuation τ sig (Elt F)) (w : Fin cfg10.W) :
    Pipeline.withArrays spec10 c W (fun w => (dat10 V c).arrAt w cfg10.N) (Proc.devRef .tc (Pipeline.arrRef spec10 w))
      = (dat10 V c).arrAt w cfg10.N := by
  unfold Pipeline.withArrays
  have h : ∃ w', Proc.devRef .tc (Pipeline.arrRef spec10 w') = Proc.devRef (τ := τ) .tc (Pipeline.arrRef spec10 w) := ⟨w, rfl⟩
  rw [dif_pos h]
  exact cast_eq_iff_heq.mpr (arrAt10_heq V c w h.choose (Proc.devRef_injective _ h.choose_spec))

end Cert.Kernel.Fr

end
-- ==== Proof.KB.RunW.lean ====
/- The buffer contents at every boundary between the segments of @main — host stretches and kernel regions in
   order — as a fold from the launch memory: a host stretch leaves `StableHlo.after` of its operations, a region leaves
   its arrays at what its write-backs make of them and every other buffer untouched. A stretch changes only its
   operations' result buffers and a region only its output array, so the fold read at any other buffer — an argument
   array in particular — walks back to an earlier boundary. Then the proof data of all eleven pipelines, each at its
   region's entry contents, and the thread state that rides through the segments. -/
import proofs.«127812_j6760278524061_1_alg».proof.Proof.KB.Region0
import proofs.«127812_j6760278524061_1_alg».proof.Proof.KB.Region1
import proofs.«127812_j6760278524061_1_alg».proof.Proof.KB.Region2
import proofs.«127812_j6760278524061_1_alg».proof.Proof.KB.Region3
import proofs.«127812_j6760278524061_1_alg».proof.Proof.KB.Region4
import proofs.«127812_j6760278524061_1_alg».proof.Proof.KB.Region5
import proofs.«127812_j6760278524061_1_alg».proof.Proof.KB.Region6
import proofs.«127812_j6760278524061_1_alg».proof.Proof.KB.Region7
import proofs.«127812_j6760278524061_1_alg».proof.Proof.KB.Region8
import proofs.«127812_j6760278524061_1_alg».proof.Proof.KB.Region9
import proofs.«127812_j6760278524061_1_alg».proof.Proof.KB.Region10
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the host stretches write, and that they allocate nothing -/

set_option maxHeartbeats 40000000 in
/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_cst_5, main_v26, main_c_6, main_v27, main_v28, main_c_7, main_v29, main_v30, main_v31, main_c_8, main_v32, main_v33, main_c_9, main_v34, main_v35, main_v36, main_v37, main_v38, main_v39, main_v40, main_v41, main_v42, main_c_10, main_v43, main_v44, main_c_11, main_v45, main_v46, main_v47, main_c_12, main_v48, main_v49, main_c_13, main_v50, main_v51, main_v52, main_v53, main_v54, main_v55, main_v56, main_v57, main_cst_14, main_v58, main_v59]
set_option maxHeartbeats 40000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v61]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_cst_15, main_v63, main_v64]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v66]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_cst_16, main_v68, main_v69]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v71]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps6` allocates a buffer. -/
theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_cst_17, main_v73, main_v74]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps7` allocates a buffer. -/
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v76]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps8` allocates a buffer. -/
theorem hostOps8_fresh : (hostOps8 : List (HloOp τ sig (Elt F))).Forall fun op => op.fresh = ∅ := by
  simp only [List.Forall]; repeat' constructor
/-- The references `hostOps8`'s operations write. -/
abbrev hostOps8_W : List (Ref sig .tc) := [main_cst_18, main_v78, main_v79]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps9` allocates a buffer. -/
theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v81]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg)

/-! ## The buffer contents at each segment boundary -/

/-- Core `c`'s buffers at launch. -/
noncomputable abbrev W0 : Dev nD → Valuation τ sig (Elt F) := fun c b => (s₀ m ρ).mem ((c : Dev nD), b)

/-- After the host operations `hostOps0`: what region 0 is entered from. -/
noncomputable abbrev W1 : Dev nD → Valuation τ sig (Elt F) := fun c => StableHlo.after hostOps0 (W0 m ρ c)
/-- The same contents read at the TensorCore's references. -/
noncomputable abbrev V1 : (c : Dev nD) → (b : Ref sig .tc) → Buf (Elt F) ((c : Thread nD τ).loc b) := fun c b => W1 m ρ c b
/-- A buffer no operation of `hostOps0` writes keeps its contents over the stretch. -/
theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb

/-- When region 0 ends: its arrays at what the write-backs leave (an input as entered, an output with every
    written block folded in), every other buffer as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
noncomputable abbrev V2 : (c : Dev nD) → (b : Ref sig .tc) → Buf (Elt F) ((c : Thread nD τ).loc b) := fun c b => W2 m ρ c b
/-- Region 0's arrays hold what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 writes its output array `main_v60` only: every other buffer leaves the region as it entered it (an input
    window's array because the pipeline never writes an input back, any other buffer because the region does not touch it). -/
theorem W2_keep (c : Dev nD) (b : Ref sig .tc) (hb : b ≠ main_v60) : W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  by_cases h2 : b = main_v59
  · subst h2; exact (W2_arr m ρ c 2).trans (((dat0 (V1 m ρ) c).arrAt_in 2 rfl _).trans (A_eq0 (V1 m ρ) c 2))
  exact W2_of_ne m ρ c b fun | 0 => Ne.symm h0 | 1 => Ne.symm h1 | 2 => Ne.symm h2 | 3 => Ne.symm hb | ⟨_ + 4, h⟩ => absurd h (Nat.not_lt.2 (Nat.le_add_left _ _))
/-- Region 0's output array ends at its write-backs' fold. -/
theorem W2_out (c : Dev nD) : W2 m ρ c (Proc.devRef .tc main_v60) = (dat0 (V1 m ρ) c).arrAt 3 cfg0.N := W2_arr m ρ c 3

/-- After the host operations `hostOps1`: what region 1 is entered from. -/
noncomputable abbrev W3 : Dev nD → Valuation τ sig (Elt F) := fun c => StableHlo.after hostOps1 (W2 m ρ c)
/-- The same contents read at the TensorCore's references. -/
noncomputable abbrev V3 : (c : Dev nD) → (b : Ref sig .tc) → Buf (Elt F) ((c : Thread nD τ).loc b) := fun c b => W3 m ρ c b
/-- A buffer no operation of `hostOps1` writes keeps its contents over the stretch. -/
theorem W3_keep (c : Dev nD) (b : Ref sig .tc) (hb : b ∉ hostOps1_W) : W3 m ρ c (Proc.devRef .tc b) = W2 m ρ c (Proc.devRef .tc b) :=
  StableHlo.after_of_writes_sub hostOps1 _ hostOps1_writes hb

/-- When region 1 ends: its arrays at what the write-backs leave (an input as entered, an output with every
    written block folded in), every other buffer as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's references. -/
noncomputable abbrev V4 : (c : Dev nD) → (b : Ref sig .tc) → Buf (Elt F) ((c : Thread nD τ).loc b) := fun c b => W4 m ρ c b
/-- Region 1's arrays hold what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 writes its output array `main_v62` only: every other buffer leaves the region as it entered it (an input
    window's array because the pipeline never writes an input back, any other buffer because the region does not touch it). -/
theorem W4_keep (c : Dev nD) (b : Ref sig .tc) (hb : b ≠ main_v62) : W4 m ρ c (Proc.devRef .tc b) = W3 m ρ c (Proc.devRef .tc b) := by
  by_cases h0 : b = main_v57
  · subst h0; exact (W4_arr m ρ c 0).trans (((dat1 (V3 m ρ) c).arrAt_in 0 rfl _).trans (A_eq1 (V3 m ρ) c 0))
  by_cases h1 : b = main_v60
  · subst h1; exact (W4_arr m ρ c 1).trans (((dat1 (V3 m ρ) c).arrAt_in 1 rfl _).trans (A_eq1 (V3 m ρ) c 1))
  by_cases h2 : b = main_v61
  · subst h2; exact (W4_arr m ρ c 2).trans (((dat1 (V3 m ρ) c).arrAt_in 2 rfl _).trans (A_eq1 (V3 m ρ) c 2))
  exact W4_of_ne m ρ c b fun | 0 => Ne.symm h0 | 1 => Ne.symm h1 | 2 => Ne.symm h2 | 3 => Ne.symm hb | ⟨_ + 4, h⟩ => absurd h (Nat.not_lt.2 (Nat.le_add_left _ _))
/-- Region 1's output array ends at its write-backs' fold. -/
theorem W4_out (c : Dev nD) : W4 m ρ c (Proc.devRef .tc main_v62) = (dat1 (V3 m ρ) c).arrAt 3 cfg1.N := W4_arr m ρ c 3

/-- After the host operations `hostOps2`: what region 2 is entered from. -/
noncomputable abbrev W5 : Dev nD → Valuation τ sig (Elt F) := fun c => StableHlo.after hostOps2 (W4 m ρ c)
/-- The same contents read at the TensorCore's references. -/
noncomputable abbrev V5 : (c : Dev nD) → (b : Ref sig .tc) → Buf (Elt F) ((c : Thread nD τ).loc b) := fun c b => W5 m ρ c b
/-- A buffer no operation of `hostOps2` writes keeps its contents over the stretch. -/
theorem W5_keep (c : Dev nD) (b : Ref sig .tc) (hb : b ∉ hostOps2_W) : W5 m ρ c (Proc.devRef .tc b) = W4 m ρ c (Proc.devRef .tc b) :=
  StableHlo.after_of_writes_sub hostOps2 _ hostOps2_writes hb

/-- When region 2 ends: its arrays at what the write-backs leave (an input as entered, an output with every
    written block folded in), every other buffer as entered. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the TensorCore's references. -/
noncomputable abbrev V6 : (c : Dev nD) → (b : Ref sig .tc) → Buf (Elt F) ((c : Thread nD τ).loc b) := fun c b => W6 m ρ c b
/-- Region 2's arrays hold what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 writes its output array `main_v65` only: every other buffer leaves the region as it entered it (an input
    window's array because the pipeline never writes an input back, any other buffer because the region does not touch it). -/
theorem W6_keep (c : Dev nD) (b : Ref sig .tc) (hb : b ≠ main_v65) : W6 m ρ c (Proc.devRef .tc b) = W5 m ρ c (Proc.devRef .tc b) := by
  by_cases h0 : b = main_v62
  · subst h0; exact (W6_arr m ρ c 0).trans (((dat2 (V5 m ρ) c).arrAt_in 0 rfl _).trans (A_eq2 (V5 m ρ) c 0))
  by_cases h1 : b = main_arg4
  · subst h1; exact (W6_arr m ρ c 1).trans (((dat2 (V5 m ρ) c).arrAt_in 1 rfl _).trans (A_eq2 (V5 m ρ) c 1))
  by_cases h2 : b = main_v64
  · subst h2; exact (W6_arr m ρ c 2).trans (((dat2 (V5 m ρ) c).arrAt_in 2 rfl _).trans (A_eq2 (V5 m ρ) c 2))
  exact W6_of_ne m ρ c b fun | 0 => Ne.symm h0 | 1 => Ne.symm h1 | 2 => Ne.symm h2 | 3 => Ne.symm hb | ⟨_ + 4, h⟩ => absurd h (Nat.not_lt.2 (Nat.le_add_left _ _))
/-- Region 2's output array ends at its write-backs' fold. -/
theorem W6_out (c : Dev nD) : W6 m ρ c (Proc.devRef .tc main_v65) = (dat2 (V5 m ρ) c).arrAt 3 cfg2.N := W6_arr m ρ c 3

/-- After the host operations `hostOps3`: what region 3 is entered from. -/
noncomputable abbrev W7 : Dev nD → Valuation τ sig (Elt F) := fun c => StableHlo.after hostOps3 (W6 m ρ c)
/-- The same contents read at the TensorCore's references. -/
noncomputable abbrev V7 : (c : Dev nD) → (b : Ref sig .tc) → Buf (Elt F) ((c : Thread nD τ).loc b) := fun c b => W7 m ρ c b
/-- A buffer no operation of `hostOps3` writes keeps its contents over the stretch. -/
theorem W7_keep (c : Dev nD) (b : Ref sig .tc) (hb : b ∉ hostOps3_W) : W7 m ρ c (Proc.devRef .tc b) = W6 m ρ c (Proc.devRef .tc b) :=
  StableHlo.after_of_writes_sub hostOps3 _ hostOps3_writes hb

/-- When region 3 ends: its arrays at what the write-backs leave (an input as entered, an output with every
    written block folded in), every other buffer as entered. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same contents read at the TensorCore's references. -/
noncomputable abbrev V8 : (c : Dev nD) → (b : Ref sig .tc) → Buf (Elt F) ((c : Thread nD τ).loc b) := fun c b => W8 m ρ c b
/-- Region 3's arrays hold what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3 writes its output array `main_v67` only: every other buffer leaves the region as it entered it (an input
    window's array because the pipeline never writes an input back, any other buffer because the region does not touch it). -/
theorem W8_keep (c : Dev nD) (b : Ref sig .tc) (hb : b ≠ main_v67) : W8 m ρ c (Proc.devRef .tc b) = W7 m ρ c (Proc.devRef .tc b) := by
  by_cases h0 : b = main_v57
  · subst h0; exact (W8_arr m ρ c 0).trans (((dat3 (V7 m ρ) c).arrAt_in 0 rfl _).trans (A_eq3 (V7 m ρ) c 0))
  by_cases h1 : b = main_v65
  · subst h1; exact (W8_arr m ρ c 1).trans (((dat3 (V7 m ρ) c).arrAt_in 1 rfl _).trans (A_eq3 (V7 m ρ) c 1))
  by_cases h2 : b = main_v66
  · subst h2; exact (W8_arr m ρ c 2).trans (((dat3 (V7 m ρ) c).arrAt_in 2 rfl _).trans (A_eq3 (V7 m ρ) c 2))
  exact W8_of_ne m ρ c b fun | 0 => Ne.symm h0 | 1 => Ne.symm h1 | 2 => Ne.symm h2 | 3 => Ne.symm hb | ⟨_ + 4, h⟩ => absurd h (Nat.not_lt.2 (Nat.le_add_left _ _))
/-- Region 3's output array ends at its write-backs' fold. -/
theorem W8_out (c : Dev nD) : W8 m ρ c (Proc.devRef .tc main_v67) = (dat3 (V7 m ρ) c).arrAt 3 cfg3.N := W8_arr m ρ c 3

/-- After the host operations `hostOps4`: what region 4 is entered from. -/
noncomputable abbrev W9 : Dev nD → Valuation τ sig (Elt F) := fun c => StableHlo.after hostOps4 (W8 m ρ c)
/-- The same contents read at the TensorCore's references. -/
noncomputable abbrev V9 : (c : Dev nD) → (b : Ref sig .tc) → Buf (Elt F) ((c : Thread nD τ).loc b) := fun c b => W9 m ρ c b
/-- A buffer no operation of `hostOps4` writes keeps its contents over the stretch. -/
theorem W9_keep (c : Dev nD) (b : Ref sig .tc) (hb : b ∉ hostOps4_W) : W9 m ρ c (Proc.devRef .tc b) = W8 m ρ c (Proc.devRef .tc b) :=
  StableHlo.after_of_writes_sub hostOps4 _ hostOps4_writes hb

/-- When region 4 ends: its arrays at what the write-backs leave (an input as entered, an output with every
    written block folded in), every other buffer as entered. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same contents read at the TensorCore's references. -/
noncomputable abbrev V10 : (c : Dev nD) → (b : Ref sig .tc) → Buf (Elt F) ((c : Thread nD τ).loc b) := fun c b => W10 m ρ c b
/-- Region 4's arrays hold what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Region 4 writes its output array `main_v70` only: every other buffer leaves the region as it entered it (an input
    window's array because the pipeline never writes an input back, any other buffer because the region does not touch it). -/
theorem W10_keep (c : Dev nD) (b : Ref sig .tc) (hb : b ≠ main_v70) : W10 m ρ c (Proc.devRef .tc b) = W9 m ρ c (Proc.devRef .tc b) := by
  by_cases h0 : b = main_v67
  · subst h0; exact (W10_arr m ρ c 0).trans (((dat4 (V9 m ρ) c).arrAt_in 0 rfl _).trans (A_eq4 (V9 m ρ) c 0))
  by_cases h1 : b = main_arg6
  · subst h1; exact (W10_arr m ρ c 1).trans (((dat4 (V9 m ρ) c).arrAt_in 1 rfl _).trans (A_eq4 (V9 m ρ) c 1))
  by_cases h2 : b = main_v69
  · subst h2; exact (W10_arr m ρ c 2).trans (((dat4 (V9 m ρ) c).arrAt_in 2 rfl _).trans (A_eq4 (V9 m ρ) c 2))
  exact W10_of_ne m ρ c b fun | 0 => Ne.symm h0 | 1 => Ne.symm h1 | 2 => Ne.symm h2 | 3 => Ne.symm hb | ⟨_ + 4, h⟩ => absurd h (Nat.not_lt.2 (Nat.le_add_left _ _))
/-- Region 4's output array ends at its write-backs' fold. -/
theorem W10_out (c : Dev nD) : W10 m ρ c (Proc.devRef .tc main_v70) = (dat4 (V9 m ρ) c).arrAt 3 cfg4.N := W10_arr m ρ c 3

/-- After the host operations `hostOps5`: what region 5 is entered from. -/
noncomputable abbrev W11 : Dev nD → Valuation τ sig (Elt F) := fun c => StableHlo.after hostOps5 (W10 m ρ c)
/-- The same contents read at the TensorCore's references. -/
noncomputable abbrev V11 : (c : Dev nD) → (b : Ref sig .tc) → Buf (Elt F) ((c : Thread nD τ).loc b) := fun c b => W11 m ρ c b
/-- A buffer no operation of `hostOps5` writes keeps its contents over the stretch. -/
theorem W11_keep (c : Dev nD) (b : Ref sig .tc) (hb : b ∉ hostOps5_W) : W11 m ρ c (Proc.devRef .tc b) = W10 m ρ c (Proc.devRef .tc b) :=
  StableHlo.after_of_writes_sub hostOps5 _ hostOps5_writes hb

/-- When region 5 ends: its arrays at what the write-backs leave (an input as entered, an output with every
    written block folded in), every other buffer as entered. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same contents read at the TensorCore's references. -/
noncomputable abbrev V12 : (c : Dev nD) → (b : Ref sig .tc) → Buf (Elt F) ((c : Thread nD τ).loc b) := fun c b => W12 m ρ c b
/-- Region 5's arrays hold what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- Region 5 writes its output array `main_v72` only: every other buffer leaves the region as it entered it (an input
    window's array because the pipeline never writes an input back, any other buffer because the region does not touch it). -/
theorem W12_keep (c : Dev nD) (b : Ref sig .tc) (hb : b ≠ main_v72) : W12 m ρ c (Proc.devRef .tc b) = W11 m ρ c (Proc.devRef .tc b) := by
  by_cases h0 : b = main_v57
  · subst h0; exact (W12_arr m ρ c 0).trans (((dat5 (V11 m ρ) c).arrAt_in 0 rfl _).trans (A_eq5 (V11 m ρ) c 0))
  by_cases h1 : b = main_v70
  · subst h1; exact (W12_arr m ρ c 1).trans (((dat5 (V11 m ρ) c).arrAt_in 1 rfl _).trans (A_eq5 (V11 m ρ) c 1))
  by_cases h2 : b = main_v71
  · subst h2; exact (W12_arr m ρ c 2).trans (((dat5 (V11 m ρ) c).arrAt_in 2 rfl _).trans (A_eq5 (V11 m ρ) c 2))
  exact W12_of_ne m ρ c b fun | 0 => Ne.symm h0 | 1 => Ne.symm h1 | 2 => Ne.symm h2 | 3 => Ne.symm hb | ⟨_ + 4, h⟩ => absurd h (Nat.not_lt.2 (Nat.le_add_left _ _))
/-- Region 5's output array ends at its write-backs' fold. -/
theorem W12_out (c : Dev nD) : W12 m ρ c (Proc.devRef .tc main_v72) = (dat5 (V11 m ρ) c).arrAt 3 cfg5.N := W12_arr m ρ c 3

/-- After the host operations `hostOps6`: what region 6 is entered from. -/
noncomputable abbrev W13 : Dev nD → Valuation τ sig (Elt F) := fun c => StableHlo.after hostOps6 (W12 m ρ c)
/-- The same contents read at the TensorCore's references. -/
noncomputable abbrev V13 : (c : Dev nD) → (b : Ref sig .tc) → Buf (Elt F) ((c : Thread nD τ).loc b) := fun c b => W13 m ρ c b
/-- A buffer no operation of `hostOps6` writes keeps its contents over the stretch. -/
theorem W13_keep (c : Dev nD) (b : Ref sig .tc) (hb : b ∉ hostOps6_W) : W13 m ρ c (Proc.devRef .tc b) = W12 m ρ c (Proc.devRef .tc b) :=
  StableHlo.after_of_writes_sub hostOps6 _ hostOps6_writes hb

/-- When region 6 ends: its arrays at what the write-backs leave (an input as entered, an output with every
    written block folded in), every other buffer as entered. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same contents read at the TensorCore's references. -/
noncomputable abbrev V14 : (c : Dev nD) → (b : Ref sig .tc) → Buf (Elt F) ((c : Thread nD τ).loc b) := fun c b => W14 m ρ c b
/-- Region 6's arrays hold what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- Region 6 writes its output array `main_v75` only: every other buffer leaves the region as it entered it (an input
    window's array because the pipeline never writes an input back, any other buffer because the region does not touch it). -/
theorem W14_keep (c : Dev nD) (b : Ref sig .tc) (hb : b ≠ main_v75) : W14 m ρ c (Proc.devRef .tc b) = W13 m ρ c (Proc.devRef .tc b) := by
  by_cases h0 : b = main_v72
  · subst h0; exact (W14_arr m ρ c 0).trans (((dat6 (V13 m ρ) c).arrAt_in 0 rfl _).trans (A_eq6 (V13 m ρ) c 0))
  by_cases h1 : b = main_arg8
  · subst h1; exact (W14_arr m ρ c 1).trans (((dat6 (V13 m ρ) c).arrAt_in 1 rfl _).trans (A_eq6 (V13 m ρ) c 1))
  by_cases h2 : b = main_v74
  · subst h2; exact (W14_arr m ρ c 2).trans (((dat6 (V13 m ρ) c).arrAt_in 2 rfl _).trans (A_eq6 (V13 m ρ) c 2))
  exact W14_of_ne m ρ c b fun | 0 => Ne.symm h0 | 1 => Ne.symm h1 | 2 => Ne.symm h2 | 3 => Ne.symm hb | ⟨_ + 4, h⟩ => absurd h (Nat.not_lt.2 (Nat.le_add_left _ _))
/-- Region 6's output array ends at its write-backs' fold. -/
theorem W14_out (c : Dev nD) : W14 m ρ c (Proc.devRef .tc main_v75) = (dat6 (V13 m ρ) c).arrAt 3 cfg6.N := W14_arr m ρ c 3

/-- After the host operations `hostOps7`: what region 7 is entered from. -/
noncomputable abbrev W15 : Dev nD → Valuation τ sig (Elt F) := fun c => StableHlo.after hostOps7 (W14 m ρ c)
/-- The same contents read at the TensorCore's references. -/
noncomputable abbrev V15 : (c : Dev nD) → (b : Ref sig .tc) → Buf (Elt F) ((c : Thread nD τ).loc b) := fun c b => W15 m ρ c b
/-- A buffer no operation of `hostOps7` writes keeps its contents over the stretch. -/
theorem W15_keep (c : Dev nD) (b : Ref sig .tc) (hb : b ∉ hostOps7_W) : W15 m ρ c (Proc.devRef .tc b) = W14 m ρ c (Proc.devRef .tc b) :=
  StableHlo.after_of_writes_sub hostOps7 _ hostOps7_writes hb

/-- When region 7 ends: its arrays at what the write-backs leave (an input as entered, an output with every
    written block folded in), every other buffer as entered. -/
noncomputable def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same contents read at the TensorCore's references. -/
noncomputable abbrev V16 : (c : Dev nD) → (b : Ref sig .tc) → Buf (Elt F) ((c : Thread nD τ).loc b) := fun c b => W16 m ρ c b
/-- Region 7's arrays hold what the pipeline leaves, and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- Region 7 writes its output array `main_v77` only: every other buffer leaves the region as it entered it (an input
    window's array because the pipeline never writes an input back, any other buffer because the region does not touch it). -/
theorem W16_keep (c : Dev nD) (b : Ref sig .tc) (hb : b ≠ main_v77) : W16 m ρ c (Proc.devRef .tc b) = W15 m ρ c (Proc.devRef .tc b) := by
  by_cases h0 : b = main_v57
  · subst h0; exact (W16_arr m ρ c 0).trans (((dat7 (V15 m ρ) c).arrAt_in 0 rfl _).trans (A_eq7 (V15 m ρ) c 0))
  by_cases h1 : b = main_v75
  · subst h1; exact (W16_arr m ρ c 1).trans (((dat7 (V15 m ρ) c).arrAt_in 1 rfl _).trans (A_eq7 (V15 m ρ) c 1))
  by_cases h2 : b = main_v76
  · subst h2; exact (W16_arr m ρ c 2).trans (((dat7 (V15 m ρ) c).arrAt_in 2 rfl _).trans (A_eq7 (V15 m ρ) c 2))
  exact W16_of_ne m ρ c b fun | 0 => Ne.symm h0 | 1 => Ne.symm h1 | 2 => Ne.symm h2 | 3 => Ne.symm hb | ⟨_ + 4, h⟩ => absurd h (Nat.not_lt.2 (Nat.le_add_left _ _))
/-- Region 7's output array ends at its write-backs' fold. -/
theorem W16_out (c : Dev nD) : W16 m ρ c (Proc.devRef .tc main_v77) = (dat7 (V15 m ρ) c).arrAt 3 cfg7.N := W16_arr m ρ c 3

/-- After the host operations `hostOps8`: what region 8 is entered from. -/
noncomputable abbrev W17 : Dev nD → Valuation τ sig (Elt F) := fun c => StableHlo.after hostOps8 (W16 m ρ c)
/-- The same contents read at the TensorCore's references. -/
noncomputable abbrev V17 : (c : Dev nD) → (b : Ref sig .tc) → Buf (Elt F) ((c : Thread nD τ).loc b) := fun c b => W17 m ρ c b
/-- A buffer no operation of `hostOps8` writes keeps its contents over the stretch. -/
theorem W17_keep (c : Dev nD) (b : Ref sig .tc) (hb : b ∉ hostOps8_W) : W17 m ρ c (Proc.devRef .tc b) = W16 m ρ c (Proc.devRef .tc b) :=
  StableHlo.after_of_writes_sub hostOps8 _ hostOps8_writes hb

/-- When region 8 ends: its arrays at what the write-backs leave (an input as entered, an output with every
    written block folded in), every other buffer as entered. -/
noncomputable def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same contents read at the TensorCore's references. -/
noncomputable abbrev V18 : (c : Dev nD) → (b : Ref sig .tc) → Buf (Elt F) ((c : Thread nD τ).loc b) := fun c b => W18 m ρ c b
/-- Region 8's arrays hold what the pipeline leaves, and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- Region 8 writes its output array `main_v80` only: every other buffer leaves the region as it entered it (an input
    window's array because the pipeline never writes an input back, any other buffer because the region does not touch it). -/
theorem W18_keep (c : Dev nD) (b : Ref sig .tc) (hb : b ≠ main_v80) : W18 m ρ c (Proc.devRef .tc b) = W17 m ρ c (Proc.devRef .tc b) := by
  by_cases h0 : b = main_v67
  · subst h0; exact (W18_arr m ρ c 0).trans (((dat8 (V17 m ρ) c).arrAt_in 0 rfl _).trans (A_eq8 (V17 m ρ) c 0))
  by_cases h1 : b = main_arg10
  · subst h1; exact (W18_arr m ρ c 1).trans (((dat8 (V17 m ρ) c).arrAt_in 1 rfl _).trans (A_eq8 (V17 m ρ) c 1))
  by_cases h2 : b = main_v79
  · subst h2; exact (W18_arr m ρ c 2).trans (((dat8 (V17 m ρ) c).arrAt_in 2 rfl _).trans (A_eq8 (V17 m ρ) c 2))
  exact W18_of_ne m ρ c b fun | 0 => Ne.symm h0 | 1 => Ne.symm h1 | 2 => Ne.symm h2 | 3 => Ne.symm hb | ⟨_ + 4, h⟩ => absurd h (Nat.not_lt.2 (Nat.le_add_left _ _))
/-- Region 8's output array ends at its write-backs' fold. -/
theorem W18_out (c : Dev nD) : W18 m ρ c (Proc.devRef .tc main_v80) = (dat8 (V17 m ρ) c).arrAt 3 cfg8.N := W18_arr m ρ c 3

/-- After the host operations `hostOps9`: what region 9 is entered from. -/
noncomputable abbrev W19 : Dev nD → Valuation τ sig (Elt F) := fun c => StableHlo.after hostOps9 (W18 m ρ c)
/-- The same contents read at the TensorCore's references. -/
noncomputable abbrev V19 : (c : Dev nD) → (b : Ref sig .tc) → Buf (Elt F) ((c : Thread nD τ).loc b) := fun c b => W19 m ρ c b
/-- A buffer no operation of `hostOps9` writes keeps its contents over the stretch. -/
theorem W19_keep (c : Dev nD) (b : Ref sig .tc) (hb : b ∉ hostOps9_W) : W19 m ρ c (Proc.devRef .tc b) = W18 m ρ c (Proc.devRef .tc b) :=
  StableHlo.after_of_writes_sub hostOps9 _ hostOps9_writes hb

/-- When region 9 ends: its arrays at what the write-backs leave (an input as entered, an output with every
    written block folded in), every other buffer as entered. -/
noncomputable def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same contents read at the TensorCore's references. -/
noncomputable abbrev V20 : (c : Dev nD) → (b : Ref sig .tc) → Buf (Elt F) ((c : Thread nD τ).loc b) := fun c b => W20 m ρ c b
/-- Region 9's arrays hold what the pipeline leaves, and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- Region 9 writes its output array `main_v82` only: every other buffer leaves the region as it entered it (an input
    window's array because the pipeline never writes an input back, any other buffer because the region does not touch it). -/
theorem W20_keep (c : Dev nD) (b : Ref sig .tc) (hb : b ≠ main_v82) : W20 m ρ c (Proc.devRef .tc b) = W19 m ρ c (Proc.devRef .tc b) := by
  by_cases h0 : b = main_v57
  · subst h0; exact (W20_arr m ρ c 0).trans (((dat9 (V19 m ρ) c).arrAt_in 0 rfl _).trans (A_eq9 (V19 m ρ) c 0))
  by_cases h1 : b = main_v80
  · subst h1; exact (W20_arr m ρ c 1).trans (((dat9 (V19 m ρ) c).arrAt_in 1 rfl _).trans (A_eq9 (V19 m ρ) c 1))
  by_cases h2 : b = main_v81
  · subst h2; exact (W20_arr m ρ c 2).trans (((dat9 (V19 m ρ) c).arrAt_in 2 rfl _).trans (A_eq9 (V19 m ρ) c 2))
  exact W20_of_ne m ρ c b fun | 0 => Ne.symm h0 | 1 => Ne.symm h1 | 2 => Ne.symm h2 | 3 => Ne.symm hb | ⟨_ + 4, h⟩ => absurd h (Nat.not_lt.2 (Nat.le_add_left _ _))
/-- Region 9's output array ends at its write-backs' fold. -/
theorem W20_out (c : Dev nD) : W20 m ρ c (Proc.devRef .tc main_v82) = (dat9 (V19 m ρ) c).arrAt 3 cfg9.N := W20_arr m ρ c 3

/-- When region 10 ends: its arrays at what the write-backs leave (an input as entered, an output with every
    written block folded in), every other buffer as entered. -/
noncomputable def W21 (c : Dev nD) : Valuation τ sig (Elt F) :=
  Pipeline.withArrays spec10 c (W20 m ρ c) fun w => (dat10 (V20 m ρ) c).arrAt w cfg10.N
theorem W21_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb
/-- The same contents read at the TensorCore's references. -/
noncomputable abbrev V21 : (c : Dev nD) → (b : Ref sig .tc) → Buf (Elt F) ((c : Thread nD τ).loc b) := fun c b => W21 m ρ c b
theorem hrest10 (c : Dev nD) : ∀ b, b ∉ Finset.univ.image (Pipeline.arrRef spec10) → V21 m ρ c b = V20 m ρ c b :=
  fun b hb => W21_of_ne m ρ c b fun w e => hb (Finset.mem_image.mpr ⟨w, Finset.mem_univ _, e⟩)
/-- Region 10's two input windows read the same array; each of its arrays still ends at what the pipeline leaves. -/
theorem W21_arr (c : Dev nD) (w : Fin cfg10.W) :
    W21 m ρ c (Proc.devRef .tc (Pipeline.arrRef spec10 w)) = (dat10 (V20 m ρ) c).arrAt w cfg10.N := by
  unfold W21; exact withArrays_arr10 (V20 m ρ) c _ w
theorem hF10 (c : Dev nD) (w : Fin cfg10.W) : (dat10 (V20 m ρ) c).arrAt w cfg10.N = V21 m ρ c (Pipeline.arrRef spec10 w) :=
  (W21_arr m ρ c w).symm
/-- Region 10 writes its output array `main_v83` only: every other buffer leaves the region as it entered it (an input
    window's array because the pipeline never writes an input back, any other buffer because the region does not touch it). -/
theorem W21_keep (c : Dev nD) (b : Ref sig .tc) (hb : b ≠ main_v83) : W21 m ρ c (Proc.devRef .tc b) = W20 m ρ c (Proc.devRef .tc b) := by
  by_cases h0 : b = main_v82
  · subst h0; exact (W21_arr m ρ c 0).trans (((dat10 (V20 m ρ) c).arrAt_in 0 rfl _).trans (A_eq10 (V20 m ρ) c 0))
  exact W21_of_ne m ρ c b fun | 0 => Ne.symm h0 | 1 => Ne.symm h0 | 2 => Ne.symm hb | ⟨_ + 3, h⟩ => absurd h (Nat.not_lt.2 (Nat.le_add_left _ _))
/-- Region 10's output array ends at its write-backs' fold. -/
theorem W21_out (c : Dev nD) : W21 m ρ c (Proc.devRef .tc main_v83) = (dat10 (V20 m ρ) c).arrAt 2 cfg10.N := W21_arr m ρ c 2

/-! ## The arguments end as launched

No host operation's result is an argument and no region's output array is one. -/

theorem W21_main_arg0 (c : Dev nD) : W21 m ρ c (Proc.devRef .tc main_arg0) = m ((c : Thread nD τ).loc main_arg0) :=
  calc W21 m ρ c (Proc.devRef .tc main_arg0)
    _ = W20 m ρ c (Proc.devRef .tc main_arg0) := W21_keep m ρ c main_arg0 (by decide)
    _ = W19 m ρ c (Proc.devRef .tc main_arg0) := W20_keep m ρ c main_arg0 (by decide)
    _ = W18 m ρ c (Proc.devRef .tc main_arg0) := W19_keep m ρ c main_arg0 (by decide)
    _ = W17 m ρ c (Proc.devRef .tc main_arg0) := W18_keep m ρ c main_arg0 (by decide)
    _ = W16 m ρ c (Proc.devRef .tc main_arg0) := W17_keep m ρ c main_arg0 (by decide)
    _ = W15 m ρ c (Proc.devRef .tc main_arg0) := W16_keep m ρ c main_arg0 (by decide)
    _ = W14 m ρ c (Proc.devRef .tc main_arg0) := W15_keep m ρ c main_arg0 (by decide)
    _ = W13 m ρ c (Proc.devRef .tc main_arg0) := W14_keep m ρ c main_arg0 (by decide)
    _ = W12 m ρ c (Proc.devRef .tc main_arg0) := W13_keep m ρ c main_arg0 (by decide)
    _ = W11 m ρ c (Proc.devRef .tc main_arg0) := W12_keep m ρ c main_arg0 (by decide)
    _ = W10 m ρ c (Proc.devRef .tc main_arg0) := W11_keep m ρ c main_arg0 (by decide)
    _ = W9 m ρ c (Proc.devRef .tc main_arg0) := W10_keep m ρ c main_arg0 (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := W7_keep m ρ c main_arg0 (by decide)
    _ = W5 m ρ c (Proc.devRef .tc main_arg0) := W6_keep m ρ c main_arg0 (by decide)
    _ = W4 m ρ c (Proc.devRef .tc main_arg0) := W5_keep m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl
theorem W21_main_arg1 (c : Dev nD) : W21 m ρ c (Proc.devRef .tc main_arg1) = m ((c : Thread nD τ).loc main_arg1) :=
  calc W21 m ρ c (Proc.devRef .tc main_arg1)
    _ = W20 m ρ c (Proc.devRef .tc main_arg1) := W21_keep m ρ c main_arg1 (by decide)
    _ = W19 m ρ c (Proc.devRef .tc main_arg1) := W20_keep m ρ c main_arg1 (by decide)
    _ = W18 m ρ c (Proc.devRef .tc main_arg1) := W19_keep m ρ c main_arg1 (by decide)
    _ = W17 m ρ c (Proc.devRef .tc main_arg1) := W18_keep m ρ c main_arg1 (by decide)
    _ = W16 m ρ c (Proc.devRef .tc main_arg1) := W17_keep m ρ c main_arg1 (by decide)
    _ = W15 m ρ c (Proc.devRef .tc main_arg1) := W16_keep m ρ c main_arg1 (by decide)
    _ = W14 m ρ c (Proc.devRef .tc main_arg1) := W15_keep m ρ c main_arg1 (by decide)
    _ = W13 m ρ c (Proc.devRef .tc main_arg1) := W14_keep m ρ c main_arg1 (by decide)
    _ = W12 m ρ c (Proc.devRef .tc main_arg1) := W13_keep m ρ c main_arg1 (by decide)
    _ = W11 m ρ c (Proc.devRef .tc main_arg1) := W12_keep m ρ c main_arg1 (by decide)
    _ = W10 m ρ c (Proc.devRef .tc main_arg1) := W11_keep m ρ c main_arg1 (by decide)
    _ = W9 m ρ c (Proc.devRef .tc main_arg1) := W10_keep m ρ c main_arg1 (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := W7_keep m ρ c main_arg1 (by decide)
    _ = W5 m ρ c (Proc.devRef .tc main_arg1) := W6_keep m ρ c main_arg1 (by decide)
    _ = W4 m ρ c (Proc.devRef .tc main_arg1) := W5_keep m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl
theorem W21_main_arg2 (c : Dev nD) : W21 m ρ c (Proc.devRef .tc main_arg2) = m ((c : Thread nD τ).loc main_arg2) :=
  calc W21 m ρ c (Proc.devRef .tc main_arg2)
    _ = W20 m ρ c (Proc.devRef .tc main_arg2) := W21_keep m ρ c main_arg2 (by decide)
    _ = W19 m ρ c (Proc.devRef .tc main_arg2) := W20_keep m ρ c main_arg2 (by decide)
    _ = W18 m ρ c (Proc.devRef .tc main_arg2) := W19_keep m ρ c main_arg2 (by decide)
    _ = W17 m ρ c (Proc.devRef .tc main_arg2) := W18_keep m ρ c main_arg2 (by decide)
    _ = W16 m ρ c (Proc.devRef .tc main_arg2) := W17_keep m ρ c main_arg2 (by decide)
    _ = W15 m ρ c (Proc.devRef .tc main_arg2) := W16_keep m ρ c main_arg2 (by decide)
    _ = W14 m ρ c (Proc.devRef .tc main_arg2) := W15_keep m ρ c main_arg2 (by decide)
    _ = W13 m ρ c (Proc.devRef .tc main_arg2) := W14_keep m ρ c main_arg2 (by decide)
    _ = W12 m ρ c (Proc.devRef .tc main_arg2) := W13_keep m ρ c main_arg2 (by decide)
    _ = W11 m ρ c (Proc.devRef .tc main_arg2) := W12_keep m ρ c main_arg2 (by decide)
    _ = W10 m ρ c (Proc.devRef .tc main_arg2) := W11_keep m ρ c main_arg2 (by decide)
    _ = W9 m ρ c (Proc.devRef .tc main_arg2) := W10_keep m ρ c main_arg2 (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := W7_keep m ρ c main_arg2 (by decide)
    _ = W5 m ρ c (Proc.devRef .tc main_arg2) := W6_keep m ρ c main_arg2 (by decide)
    _ = W4 m ρ c (Proc.devRef .tc main_arg2) := W5_keep m ρ c main_arg2 (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl
theorem W21_main_arg3 (c : Dev nD) : W21 m ρ c (Proc.devRef .tc main_arg3) = m ((c : Thread nD τ).loc main_arg3) :=
  calc W21 m ρ c (Proc.devRef .tc main_arg3)
    _ = W20 m ρ c (Proc.devRef .tc main_arg3) := W21_keep m ρ c main_arg3 (by decide)
    _ = W19 m ρ c (Proc.devRef .tc main_arg3) := W20_keep m ρ c main_arg3 (by decide)
    _ = W18 m ρ c (Proc.devRef .tc main_arg3) := W19_keep m ρ c main_arg3 (by decide)
    _ = W17 m ρ c (Proc.devRef .tc main_arg3) := W18_keep m ρ c main_arg3 (by decide)
    _ = W16 m ρ c (Proc.devRef .tc main_arg3) := W17_keep m ρ c main_arg3 (by decide)
    _ = W15 m ρ c (Proc.devRef .tc main_arg3) := W16_keep m ρ c main_arg3 (by decide)
    _ = W14 m ρ c (Proc.devRef .tc main_arg3) := W15_keep m ρ c main_arg3 (by decide)
    _ = W13 m ρ c (Proc.devRef .tc main_arg3) := W14_keep m ρ c main_arg3 (by decide)
    _ = W12 m ρ c (Proc.devRef .tc main_arg3) := W13_keep m ρ c main_arg3 (by decide)
    _ = W11 m ρ c (Proc.devRef .tc main_arg3) := W12_keep m ρ c main_arg3 (by decide)
    _ = W10 m ρ c (Proc.devRef .tc main_arg3) := W11_keep m ρ c main_arg3 (by decide)
    _ = W9 m ρ c (Proc.devRef .tc main_arg3) := W10_keep m ρ c main_arg3 (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := W7_keep m ρ c main_arg3 (by decide)
    _ = W5 m ρ c (Proc.devRef .tc main_arg3) := W6_keep m ρ c main_arg3 (by decide)
    _ = W4 m ρ c (Proc.devRef .tc main_arg3) := W5_keep m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl
theorem W21_main_arg4 (c : Dev nD) : W21 m ρ c (Proc.devRef .tc main_arg4) = m ((c : Thread nD τ).loc main_arg4) :=
  calc W21 m ρ c (Proc.devRef .tc main_arg4)
    _ = W20 m ρ c (Proc.devRef .tc main_arg4) := W21_keep m ρ c main_arg4 (by decide)
    _ = W19 m ρ c (Proc.devRef .tc main_arg4) := W20_keep m ρ c main_arg4 (by decide)
    _ = W18 m ρ c (Proc.devRef .tc main_arg4) := W19_keep m ρ c main_arg4 (by decide)
    _ = W17 m ρ c (Proc.devRef .tc main_arg4) := W18_keep m ρ c main_arg4 (by decide)
    _ = W16 m ρ c (Proc.devRef .tc main_arg4) := W17_keep m ρ c main_arg4 (by decide)
    _ = W15 m ρ c (Proc.devRef .tc main_arg4) := W16_keep m ρ c main_arg4 (by decide)
    _ = W14 m ρ c (Proc.devRef .tc main_arg4) := W15_keep m ρ c main_arg4 (by decide)
    _ = W13 m ρ c (Proc.devRef .tc main_arg4) := W14_keep m ρ c main_arg4 (by decide)
    _ = W12 m ρ c (Proc.devRef .tc main_arg4) := W13_keep m ρ c main_arg4 (by decide)
    _ = W11 m ρ c (Proc.devRef .tc main_arg4) := W12_keep m ρ c main_arg4 (by decide)
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_keep m ρ c main_arg4 (by decide)
    _ = W5 m ρ c (Proc.devRef .tc main_arg4) := W6_keep m ρ c main_arg4 (by decide)
    _ = W4 m ρ c (Proc.devRef .tc main_arg4) := W5_keep m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl
theorem W21_main_arg5 (c : Dev nD) : W21 m ρ c (Proc.devRef .tc main_arg5) = m ((c : Thread nD τ).loc main_arg5) :=
  calc W21 m ρ c (Proc.devRef .tc main_arg5)
    _ = W20 m ρ c (Proc.devRef .tc main_arg5) := W21_keep m ρ c main_arg5 (by decide)
    _ = W19 m ρ c (Proc.devRef .tc main_arg5) := W20_keep m ρ c main_arg5 (by decide)
    _ = W18 m ρ c (Proc.devRef .tc main_arg5) := W19_keep m ρ c main_arg5 (by decide)
    _ = W17 m ρ c (Proc.devRef .tc main_arg5) := W18_keep m ρ c main_arg5 (by decide)
    _ = W16 m ρ c (Proc.devRef .tc main_arg5) := W17_keep m ρ c main_arg5 (by decide)
    _ = W15 m ρ c (Proc.devRef .tc main_arg5) := W16_keep m ρ c main_arg5 (by decide)
    _ = W14 m ρ c (Proc.devRef .tc main_arg5) := W15_keep m ρ c main_arg5 (by decide)
    _ = W13 m ρ c (Proc.devRef .tc main_arg5) := W14_keep m ρ c main_arg5 (by decide)
    _ = W12 m ρ c (Proc.devRef .tc main_arg5) := W13_keep m ρ c main_arg5 (by decide)
    _ = W11 m ρ c (Proc.devRef .tc main_arg5) := W12_keep m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_keep m ρ c main_arg5 (by decide)
    _ = W5 m ρ c (Proc.devRef .tc main_arg5) := W6_keep m ρ c main_arg5 (by decide)
    _ = W4 m ρ c (Proc.devRef .tc main_arg5) := W5_keep m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl
theorem W21_main_arg6 (c : Dev nD) : W21 m ρ c (Proc.devRef .tc main_arg6) = m ((c : Thread nD τ).loc main_arg6) :=
  calc W21 m ρ c (Proc.devRef .tc main_arg6)
    _ = W20 m ρ c (Proc.devRef .tc main_arg6) := W21_keep m ρ c main_arg6 (by decide)
    _ = W19 m ρ c (Proc.devRef .tc main_arg6) := W20_keep m ρ c main_arg6 (by decide)
    _ = W18 m ρ c (Proc.devRef .tc main_arg6) := W19_keep m ρ c main_arg6 (by decide)
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_keep m ρ c main_arg6 (by decide)
    _ = W12 m ρ c (Proc.devRef .tc main_arg6) := W13_keep m ρ c main_arg6 (by decide)
    _ = W11 m ρ c (Proc.devRef .tc main_arg6) := W12_keep m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_keep m ρ c main_arg6 (by decide)
    _ = W5 m ρ c (Proc.devRef .tc main_arg6) := W6_keep m ρ c main_arg6 (by decide)
    _ = W4 m ρ c (Proc.devRef .tc main_arg6) := W5_keep m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl
theorem W21_main_arg7 (c : Dev nD) : W21 m ρ c (Proc.devRef .tc main_arg7) = m ((c : Thread nD τ).loc main_arg7) :=
  calc W21 m ρ c (Proc.devRef .tc main_arg7)
    _ = W20 m ρ c (Proc.devRef .tc main_arg7) := W21_keep m ρ c main_arg7 (by decide)
    _ = W19 m ρ c (Proc.devRef .tc main_arg7) := W20_keep m ρ c main_arg7 (by decide)
    _ = W18 m ρ c (Proc.devRef .tc main_arg7) := W19_keep m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_keep m ρ c main_arg7 (by decide)
    _ = W12 m ρ c (Proc.devRef .tc main_arg7) := W13_keep m ρ c main_arg7 (by decide)
    _ = W11 m ρ c (Proc.devRef .tc main_arg7) := W12_keep m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_keep m ρ c main_arg7 (by decide)
    _ = W5 m ρ c (Proc.devRef .tc main_arg7) := W6_keep m ρ c main_arg7 (by decide)
    _ = W4 m ρ c (Proc.devRef .tc main_arg7) := W5_keep m ρ c main_arg7 (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl
theorem W21_main_arg8 (c : Dev nD) : W21 m ρ c (Proc.devRef .tc main_arg8) = m ((c : Thread nD τ).loc main_arg8) :=
  calc W21 m ρ c (Proc.devRef .tc main_arg8)
    _ = W20 m ρ c (Proc.devRef .tc main_arg8) := W21_keep m ρ c main_arg8 (by decide)
    _ = W19 m ρ c (Proc.devRef .tc main_arg8) := W20_keep m ρ c main_arg8 (by decide)
    _ = W18 m ρ c (Proc.devRef .tc main_arg8) := W19_keep m ρ c main_arg8 (by decide)
    _ = W17 m ρ c (Proc.devRef .tc main_arg8) := W18_keep m ρ c main_arg8 (by decide)
    _ = W16 m ρ c (Proc.devRef .tc main_arg8) := W17_keep m ρ c main_arg8 (by decide)
    _ = W15 m ρ c (Proc.devRef .tc main_arg8) := W16_keep m ρ c main_arg8 (by decide)
    _ = W14 m ρ c (Proc.devRef .tc main_arg8) := W15_keep m ρ c main_arg8 (by decide)
    _ = W13 m ρ c (Proc.devRef .tc main_arg8) := W14_keep m ρ c main_arg8 (by decide)
    _ = W12 m ρ c (Proc.devRef .tc main_arg8) := W13_keep m ρ c main_arg8 (by decide)
    _ = W11 m ρ c (Proc.devRef .tc main_arg8) := W12_keep m ρ c main_arg8 (by decide)
    _ = W10 m ρ c (Proc.devRef .tc main_arg8) := W11_keep m ρ c main_arg8 (by decide)
    _ = W9 m ρ c (Proc.devRef .tc main_arg8) := W10_keep m ρ c main_arg8 (by decide)
    _ = W8 m ρ c (Proc.devRef .tc main_arg8) := W9_keep m ρ c main_arg8 (by decide)
    _ = W7 m ρ c (Proc.devRef .tc main_arg8) := W8_keep m ρ c main_arg8 (by decide)
    _ = W6 m ρ c (Proc.devRef .tc main_arg8) := W7_keep m ρ c main_arg8 (by decide)
    _ = W5 m ρ c (Proc.devRef .tc main_arg8) := W6_keep m ρ c main_arg8 (by decide)
    _ = W4 m ρ c (Proc.devRef .tc main_arg8) := W5_keep m ρ c main_arg8 (by decide)
    _ = W3 m ρ c (Proc.devRef .tc main_arg8) := W4_keep m ρ c main_arg8 (by decide)
    _ = W2 m ρ c (Proc.devRef .tc main_arg8) := W3_keep m ρ c main_arg8 (by decide)
    _ = W1 m ρ c (Proc.devRef .tc main_arg8) := W2_keep m ρ c main_arg8 (by decide)
    _ = W0 m ρ c (Proc.devRef .tc main_arg8) := W1_keep m ρ c main_arg8 (by decide)
    _ = m ((c : Thread nD τ).loc main_arg8) := rfl
theorem W21_main_arg9 (c : Dev nD) : W21 m ρ c (Proc.devRef .tc main_arg9) = m ((c : Thread nD τ).loc main_arg9) :=
  calc W21 m ρ c (Proc.devRef .tc main_arg9)
    _ = W20 m ρ c (Proc.devRef .tc main_arg9) := W21_keep m ρ c main_arg9 (by decide)
    _ = W19 m ρ c (Proc.devRef .tc main_arg9) := W20_keep m ρ c main_arg9 (by decide)
    _ = W18 m ρ c (Proc.devRef .tc main_arg9) := W19_keep m ρ c main_arg9 (by decide)
    _ = W17 m ρ c (Proc.devRef .tc main_arg9) := W18_keep m ρ c main_arg9 (by decide)
    _ = W16 m ρ c (Proc.devRef .tc main_arg9) := W17_keep m ρ c main_arg9 (by decide)
    _ = W15 m ρ c (Proc.devRef .tc main_arg9) := W16_keep m ρ c main_arg9 (by decide)
    _ = W14 m ρ c (Proc.devRef .tc main_arg9) := W15_keep m ρ c main_arg9 (by decide)
    _ = W13 m ρ c (Proc.devRef .tc main_arg9) := W14_keep m ρ c main_arg9 (by decide)
    _ = W12 m ρ c (Proc.devRef .tc main_arg9) := W13_keep m ρ c main_arg9 (by decide)
    _ = W11 m ρ c (Proc.devRef .tc main_arg9) := W12_keep m ρ c main_arg9 (by decide)
    _ = W10 m ρ c (Proc.devRef .tc main_arg9) := W11_keep m ρ c main_arg9 (by decide)
    _ = W9 m ρ c (Proc.devRef .tc main_arg9) := W10_keep m ρ c main_arg9 (by decide)
    _ = W8 m ρ c (Proc.devRef .tc main_arg9) := W9_keep m ρ c main_arg9 (by decide)
    _ = W7 m ρ c (Proc.devRef .tc main_arg9) := W8_keep m ρ c main_arg9 (by decide)
    _ = W6 m ρ c (Proc.devRef .tc main_arg9) := W7_keep m ρ c main_arg9 (by decide)
    _ = W5 m ρ c (Proc.devRef .tc main_arg9) := W6_keep m ρ c main_arg9 (by decide)
    _ = W4 m ρ c (Proc.devRef .tc main_arg9) := W5_keep m ρ c main_arg9 (by decide)
    _ = W3 m ρ c (Proc.devRef .tc main_arg9) := W4_keep m ρ c main_arg9 (by decide)
    _ = W2 m ρ c (Proc.devRef .tc main_arg9) := W3_keep m ρ c main_arg9 (by decide)
    _ = W1 m ρ c (Proc.devRef .tc main_arg9) := W2_keep m ρ c main_arg9 (by decide)
    _ = W0 m ρ c (Proc.devRef .tc main_arg9) := W1_keep m ρ c main_arg9 (by decide)
    _ = m ((c : Thread nD τ).loc main_arg9) := rfl
theorem W21_main_arg10 (c : Dev nD) : W21 m ρ c (Proc.devRef .tc main_arg10) = m ((c : Thread nD τ).loc main_arg10) :=
  calc W21 m ρ c (Proc.devRef .tc main_arg10)
    _ = W20 m ρ c (Proc.devRef .tc main_arg10) := W21_keep m ρ c main_arg10 (by decide)
    _ = W19 m ρ c (Proc.devRef .tc main_arg10) := W20_keep m ρ c main_arg10 (by decide)
    _ = W18 m ρ c (Proc.devRef .tc main_arg10) := W19_keep m ρ c main_arg10 (by decide)
    _ = W17 m ρ c (Proc.devRef .tc main_arg10) := W18_keep m ρ c main_arg10 (by decide)
    _ = W16 m ρ c (Proc.devRef .tc main_arg10) := W17_keep m ρ c main_arg10 (by decide)
    _ = W15 m ρ c (Proc.devRef .tc main_arg10) := W16_keep m ρ c main_arg10 (by decide)
    _ = W14 m ρ c (Proc.devRef .tc main_arg10) := W15_keep m ρ c main_arg10 (by decide)
    _ = W13 m ρ c (Proc.devRef .tc main_arg10) := W14_keep m ρ c main_arg10 (by decide)
    _ = W12 m ρ c (Proc.devRef .tc main_arg10) := W13_keep m ρ c main_arg10 (by decide)
    _ = W11 m ρ c (Proc.devRef .tc main_arg10) := W12_keep m ρ c main_arg10 (by decide)
    _ = W10 m ρ c (Proc.devRef .tc main_arg10) := W11_keep m ρ c main_arg10 (by decide)
    _ = W9 m ρ c (Proc.devRef .tc main_arg10) := W10_keep m ρ c main_arg10 (by decide)
    _ = W8 m ρ c (Proc.devRef .tc main_arg10) := W9_keep m ρ c main_arg10 (by decide)
    _ = W7 m ρ c (Proc.devRef .tc main_arg10) := W8_keep m ρ c main_arg10 (by decide)
    _ = W6 m ρ c (Proc.devRef .tc main_arg10) := W7_keep m ρ c main_arg10 (by decide)
    _ = W5 m ρ c (Proc.devRef .tc main_arg10) := W6_keep m ρ c main_arg10 (by decide)
    _ = W4 m ρ c (Proc.devRef .tc main_arg10) := W5_keep m ρ c main_arg10 (by decide)
    _ = W3 m ρ c (Proc.devRef .tc main_arg10) := W4_keep m ρ c main_arg10 (by decide)
    _ = W2 m ρ c (Proc.devRef .tc main_arg10) := W3_keep m ρ c main_arg10 (by decide)
    _ = W1 m ρ c (Proc.devRef .tc main_arg10) := W2_keep m ρ c main_arg10 (by decide)
    _ = W0 m ρ c (Proc.devRef .tc main_arg10) := W1_keep m ρ c main_arg10 (by decide)
    _ = m ((c : Thread nD τ).loc main_arg10) := rfl
theorem W21_main_arg11 (c : Dev nD) : W21 m ρ c (Proc.devRef .tc main_arg11) = m ((c : Thread nD τ).loc main_arg11) :=
  calc W21 m ρ c (Proc.devRef .tc main_arg11)
    _ = W20 m ρ c (Proc.devRef .tc main_arg11) := W21_keep m ρ c main_arg11 (by decide)
    _ = W19 m ρ c (Proc.devRef .tc main_arg11) := W20_keep m ρ c main_arg11 (by decide)
    _ = W18 m ρ c (Proc.devRef .tc main_arg11) := W19_keep m ρ c main_arg11 (by decide)
    _ = W17 m ρ c (Proc.devRef .tc main_arg11) := W18_keep m ρ c main_arg11 (by decide)
    _ = W16 m ρ c (Proc.devRef .tc main_arg11) := W17_keep m ρ c main_arg11 (by decide)
    _ = W15 m ρ c (Proc.devRef .tc main_arg11) := W16_keep m ρ c main_arg11 (by decide)
    _ = W14 m ρ c (Proc.devRef .tc main_arg11) := W15_keep m ρ c main_arg11 (by decide)
    _ = W13 m ρ c (Proc.devRef .tc main_arg11) := W14_keep m ρ c main_arg11 (by decide)
    _ = W12 m ρ c (Proc.devRef .tc main_arg11) := W13_keep m ρ c main_arg11 (by decide)
    _ = W11 m ρ c (Proc.devRef .tc main_arg11) := W12_keep m ρ c main_arg11 (by decide)
    _ = W10 m ρ c (Proc.devRef .tc main_arg11) := W11_keep m ρ c main_arg11 (by decide)
    _ = W9 m ρ c (Proc.devRef .tc main_arg11) := W10_keep m ρ c main_arg11 (by decide)
    _ = W8 m ρ c (Proc.devRef .tc main_arg11) := W9_keep m ρ c main_arg11 (by decide)
    _ = W7 m ρ c (Proc.devRef .tc main_arg11) := W8_keep m ρ c main_arg11 (by decide)
    _ = W6 m ρ c (Proc.devRef .tc main_arg11) := W7_keep m ρ c main_arg11 (by decide)
    _ = W5 m ρ c (Proc.devRef .tc main_arg11) := W6_keep m ρ c main_arg11 (by decide)
    _ = W4 m ρ c (Proc.devRef .tc main_arg11) := W5_keep m ρ c main_arg11 (by decide)
    _ = W3 m ρ c (Proc.devRef .tc main_arg11) := W4_keep m ρ c main_arg11 (by decide)
    _ = W2 m ρ c (Proc.devRef .tc main_arg11) := W3_keep m ρ c main_arg11 (by decide)
    _ = W1 m ρ c (Proc.devRef .tc main_arg11) := W2_keep m ρ c main_arg11 (by decide)
    _ = W0 m ρ c (Proc.devRef .tc main_arg11) := W1_keep m ρ c main_arg11 (by decide)
    _ = m ((c : Thread nD τ).loc main_arg11) := rfl

/-! ## The proof data family and the thread state -/

/-- The prefetched tables' admissible contents: no pipeline has a table. -/
abbrev adm : (p : Fin 11) → (pcfgs (F := F) p).Adm := fun p => (cfgs p).toPCfg_adm
/-- Every pipeline's proof data, each at its region's entry contents. -/
noncomputable def pdats : (p : Fin 11) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
noncomputable abbrev R (c : Dev nD) : sProp 𝕄 := iprop((∃ r, prngReg c r) ∗ ∃ W, owes (c : Thread nD τ) (0 : CellTallies nD τ sig Unit) W)
/-- A host stretch as a segment: its operations run over the unscoped references from the contents `W` to
    `StableHlo.after ops (W c)`, `R` riding along. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
noncomputable abbrev Tₙ (c : Dev nD) : sProp 𝕄 := iprop(StableHlo.held (c : Thread nD τ) (Pipeline.ucRefs τ sig) (W21 m ρ c) ∗ ∃ r, prngReg c r)

end Cert.Kernel.Fr

end
-- ==== Proof.KB.Run.lean ====
/- @main as the run of its segments and the launch. First the kernel regions as segments over the thread state "every
   unscoped buffer at the boundary's contents, the generator register at some state, nothing owed": each region splits
   its arrays out of the unscoped buffers at entry, hands the generator register and the scoped buffers no window stages
   to the kernel's invariant, and puts the arrays back at the exit contents. Then @main as the run of ten host stretches
   and eleven regions in order, and the launch over them: from any memory with zero counters every weakly fair execution
   of @main on the TensorCores terminates, nothing faulting, and in every final state each unscoped buffer holds the last
   boundary's contents; in particular every argument array is as launched. -/
import proofs.«127812_j6760278524061_1_alg».proof.Proof.KB.RunW
import proofs.«127812_j6760278524061_1_alg».proof.Proof.Gen.Kernel.Launch
import proofs.«127812_j6760278524061_1_alg».proof.Proof.Gen.Kernel.Skeleton
import proofs.«127812_j6760278524061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
set_option maxHeartbeats 2000000 in
/-- Region 0 (custom_call 0) over the thread state: entered from every unscoped buffer at `W1`, left at `W2`. Its
    arrays are split out of the unscoped buffers at entry and put back at the exit contents; the generator register and
    the scoped buffers no window stages make the kernel's invariant before the first point and come back after the
    last; nothing is owed; the kernel has no semaphore of its own. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    exact (show _ ⊢ (Pipeline.ΦA spec0 c : sProp 𝕄) from by
      unfold Pipeline.ΦA
      iintro ⟨Hp, -, Hr⟩
      isplitl [Hr]; · iexact Hr
      iexact Hp).trans (hin0 (V1 m ρ) c)
  hout c := by
    rw [Pipeline.ownSems0_none, show (pdats m ρ 0 c).Φ (Fin.last _) = (dat0 (V1 m ρ) c).Φ (Fin.last _) from rfl]
    exact (hout0 (V1 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 1 (custom_call 1) over the thread state: entered from every unscoped buffer at `W3`, left at `W4`. Its
    arrays are split out of the unscoped buffers at entry and put back at the exit contents; the generator register and
    the scoped buffers no window stages make the kernel's invariant before the first point and come back after the
    last; nothing is owed; the kernel has no semaphore of its own. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    exact (show _ ⊢ (Pipeline.ΦA spec1 c : sProp 𝕄) from by
      unfold Pipeline.ΦA
      iintro ⟨Hp, -, Hr⟩
      isplitl [Hr]; · iexact Hr
      iexact Hp).trans (hin1 (V3 m ρ) c)
  hout c := by
    rw [Pipeline.ownSems0_none, show (pdats m ρ 1 c).Φ (Fin.last _) = (dat1 (V3 m ρ) c).Φ (Fin.last _) from rfl]
    exact (hout1 (V3 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 2 (custom_call 2) over the thread state: entered from every unscoped buffer at `W5`, left at `W6`. Its
    arrays are split out of the unscoped buffers at entry and put back at the exit contents; the generator register and
    the scoped buffers no window stages make the kernel's invariant before the first point and come back after the
    last; nothing is owed; the kernel has no semaphore of its own. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    exact (show _ ⊢ (Pipeline.ΦA spec2 c : sProp 𝕄) from by
      unfold Pipeline.ΦA
      iintro ⟨Hp, -, Hr⟩
      isplitl [Hr]; · iexact Hr
      iexact Hp).trans (hin2 (V5 m ρ) c)
  hout c := by
    rw [Pipeline.ownSems0_none, show (pdats m ρ 2 c).Φ (Fin.last _) = (dat2 (V5 m ρ) c).Φ (Fin.last _) from rfl]
    exact (hout2 (V5 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 3 (custom_call 3) over the thread state: entered from every unscoped buffer at `W7`, left at `W8`. Its
    arrays are split out of the unscoped buffers at entry and put back at the exit contents; the generator register and
    the scoped buffers no window stages make the kernel's invariant before the first point and come back after the
    last; nothing is owed; the kernel has no semaphore of its own. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    exact (show _ ⊢ (Pipeline.ΦA spec3 c : sProp 𝕄) from by
      unfold Pipeline.ΦA
      iintro ⟨Hp, -, Hr⟩
      isplitl [Hr]; · iexact Hr
      iexact Hp).trans (hin3 (V7 m ρ) c)
  hout c := by
    rw [Pipeline.ownSems0_none, show (pdats m ρ 3 c).Φ (Fin.last _) = (dat3 (V7 m ρ) c).Φ (Fin.last _) from rfl]
    exact (hout3 (V7 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 4 (custom_call 4) over the thread state: entered from every unscoped buffer at `W9`, left at `W10`. Its
    arrays are split out of the unscoped buffers at entry and put back at the exit contents; the generator register and
    the scoped buffers no window stages make the kernel's invariant before the first point and come back after the
    last; nothing is owed; the kernel has no semaphore of its own. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    exact (show _ ⊢ (Pipeline.ΦA spec4 c : sProp 𝕄) from by
      unfold Pipeline.ΦA
      iintro ⟨Hp, -, Hr⟩
      isplitl [Hr]; · iexact Hr
      iexact Hp).trans (hin4 (V9 m ρ) c)
  hout c := by
    rw [Pipeline.ownSems0_none, show (pdats m ρ 4 c).Φ (Fin.last _) = (dat4 (V9 m ρ) c).Φ (Fin.last _) from rfl]
    exact (hout4 (V9 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 5 (custom_call 5) over the thread state: entered from every unscoped buffer at `W11`, left at `W12`. Its
    arrays are split out of the unscoped buffers at entry and put back at the exit contents; the generator register and
    the scoped buffers no window stages make the kernel's invariant before the first point and come back after the
    last; nothing is owed; the kernel has no semaphore of its own. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun w => A_eq5 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    exact (show _ ⊢ (Pipeline.ΦA spec5 c : sProp 𝕄) from by
      unfold Pipeline.ΦA
      iintro ⟨Hp, -, Hr⟩
      isplitl [Hr]; · iexact Hr
      iexact Hp).trans (hin5 (V11 m ρ) c)
  hout c := by
    rw [Pipeline.ownSems0_none, show (pdats m ρ 5 c).Φ (Fin.last _) = (dat5 (V11 m ρ) c).Φ (Fin.last _) from rfl]
    exact (hout5 (V11 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 6 (custom_call 6) over the thread state: entered from every unscoped buffer at `W13`, left at `W14`. Its
    arrays are split out of the unscoped buffers at entry and put back at the exit contents; the generator register and
    the scoped buffers no window stages make the kernel's invariant before the first point and come back after the
    last; nothing is owed; the kernel has no semaphore of its own. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun w => A_eq6 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    exact (show _ ⊢ (Pipeline.ΦA spec6 c : sProp 𝕄) from by
      unfold Pipeline.ΦA
      iintro ⟨Hp, -, Hr⟩
      isplitl [Hr]; · iexact Hr
      iexact Hp).trans (hin6 (V13 m ρ) c)
  hout c := by
    rw [Pipeline.ownSems0_none, show (pdats m ρ 6 c).Φ (Fin.last _) = (dat6 (V13 m ρ) c).Φ (Fin.last _) from rfl]
    exact (hout6 (V13 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 7 (custom_call 7) over the thread state: entered from every unscoped buffer at `W15`, left at `W16`. Its
    arrays are split out of the unscoped buffers at entry and put back at the exit contents; the generator register and
    the scoped buffers no window stages make the kernel's invariant before the first point and come back after the
    last; nothing is owed; the kernel has no semaphore of its own. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun w => A_eq7 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V15 m ρ) c).Φ 0 from rfl]
    exact (show _ ⊢ (Pipeline.ΦA spec7 c : sProp 𝕄) from by
      unfold Pipeline.ΦA
      iintro ⟨Hp, -, Hr⟩
      isplitl [Hr]; · iexact Hr
      iexact Hp).trans (hin7 (V15 m ρ) c)
  hout c := by
    rw [Pipeline.ownSems0_none, show (pdats m ρ 7 c).Φ (Fin.last _) = (dat7 (V15 m ρ) c).Φ (Fin.last _) from rfl]
    exact (hout7 (V15 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 8 (custom_call 8) over the thread state: entered from every unscoped buffer at `W17`, left at `W18`. Its
    arrays are split out of the unscoped buffers at entry and put back at the exit contents; the generator register and
    the scoped buffers no window stages make the kernel's invariant before the first point and come back after the
    last; nothing is owed; the kernel has no semaphore of its own. -/
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := Pipeline.UD sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun w => A_eq8 (V17 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    exact (show _ ⊢ (Pipeline.ΦA spec8 c : sProp 𝕄) from by
      unfold Pipeline.ΦA
      iintro ⟨Hp, -, Hr⟩
      isplitl [Hr]; · iexact Hr
      iexact Hp).trans (hin8 (V17 m ρ) c)
  hout c := by
    rw [Pipeline.ownSems0_none, show (pdats m ρ 8 c).Φ (Fin.last _) = (dat8 (V17 m ρ) c).Φ (Fin.last _) from rfl]
    exact (hout8 (V17 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 8) (pcfgs (F := F)) adm (Ix := Unit) (Name := ℕ) (U := Pipeline.UD sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 9 (custom_call 9) over the thread state: entered from every unscoped buffer at `W19`, left at `W20`. Its
    arrays are split out of the unscoped buffers at entry and put back at the exit contents; the generator register and
    the scoped buffers no window stages make the kernel's invariant before the first point and come back after the
    last; nothing is owed; the kernel has no semaphore of its own. -/
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := Pipeline.UD sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun w => A_eq9 (V19 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V19 m ρ) c).Φ 0 from rfl]
    exact (show _ ⊢ (Pipeline.ΦA spec9 c : sProp 𝕄) from by
      unfold Pipeline.ΦA
      iintro ⟨Hp, -, Hr⟩
      isplitl [Hr]; · iexact Hr
      iexact Hp).trans (hin9 (V19 m ρ) c)
  hout c := by
    rw [Pipeline.ownSems0_none, show (pdats m ρ 9 c).Φ (Fin.last _) = (dat9 (V19 m ρ) c).Φ (Fin.last _) from rfl]
    exact (hout9 (V19 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 9) (pcfgs (F := F)) adm (Ix := Unit) (Name := ℕ) (U := Pipeline.UD sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 10 (custom_call 10) over the thread state: entered from every unscoped buffer at `W20`, left at `W21`. Its
    arrays are split out of the unscoped buffers at entry and put back at the exit contents; the generator register and
    the scoped buffers no window stages make the kernel's invariant before the first point and come back after the
    last; nothing is owed; the kernel has no semaphore of its own. -/
noncomputable def reg10 : Pipeline.RegionSeg (pcfgs (F := F)) adm (pdats m ρ) () defs₀ 𝒱₀ L lv 10 where
  win := winFacts₀10
  block_pos := block_pos10
  stage_whole := stage_whole10
  K := PEmpty
  osem k := k.elim
  ho := Pipeline.OwnSemFacts.none _
  hbody c := (body_obligation10 (V20 m ρ) c).loose
  hwaits := Pipeline.hwaits_of_owed_zero _ _ _ _ L lv 10 fun _ _ => rfl
  pre c := iprop(StableHlo.held (c : Thread nD τ) (Pipeline.ucRefs τ sig) (W20 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec10 c (V20 m ρ c)
  hentry c := by
    rw [Pipeline.ownSems0_none]
    have hsplit : (unscopedBufs c (V20 m ρ c) : sProp 𝕄) ⊢ iprop((pdats m ρ 10 c).arrays ((pdats m ρ 10 c).arrAt · 0)
        ∗ Pipeline.unscopedRest (Ix := Unit) (Name := ℕ) (U := Pipeline.UD sig nD τ) (Lvl := ℕ) spec10 c (V20 m ρ c)) :=
      arrays_of_unscopedBufs10 (V20 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V20 m ρ) c).Φ 0 from rfl]
    exact (show _ ⊢ (Pipeline.ΦA spec10 c : sProp 𝕄) from by
      unfold Pipeline.ΦA
      iintro ⟨Hp, -, Hr⟩
      isplitl [Hr]; · iexact Hr
      iexact Hp).trans (hin10 (V20 m ρ) c)
  hout c := by
    rw [Pipeline.ownSems0_none, show (pdats m ρ 10 c).Φ (Fin.last _) = (dat10 (V20 m ρ) c).Φ (Fin.last _) from rfl]
    exact (hout10 (V20 m ρ) c).trans (by
      unfold Pipeline.ΦA
      iintro ⟨Hr, Hp⟩
      isplitl [Hp]; · iexact Hp
      isplitr; · iempintro
      iexact Hr)
  hexit c := by
    have hjoin : iprop((pdats m ρ 10 c).arrays ((pdats m ρ 10 c).arrAt · cfg10.N)
        ∗ Pipeline.unscopedRest (Ix := Unit) (Name := ℕ) (U := Pipeline.UD sig nD τ) (Lvl := ℕ) spec10 c (V20 m ρ c)) ⊢ (unscopedBufs c (V21 m ρ c) : sProp 𝕄) :=
      unscopedBufs_of_arrays10 (V20 m ρ) c (V21 m ρ c) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 21 segments in order: a host segment per stretch from its boundary's contents, a region per kernel call. -/
noncomputable abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .region (reg10 m ρ) ]

/-- @main is the run of the segments: it is the chain of its items, and the segments' run is that chain. -/
theorem main_run (c : Dev nD) : main (F := F) c = Pipeline.Seg.run (segs m ρ) := (main_chain c).trans (by chain_rfl)

/-- The buffer contents when @main returns. -/
noncomputable abbrev W_last : Dev nD → Valuation τ sig (Elt F) := W21 m ρ

set_option backward.isDefEq.respectTransparency.types false in
/-- The launch over the segments, at any postcondition that follows from "every unscoped buffer of every core holds the
    last boundary's contents". -/
theorem run_post (Q : PUnit × MemSt nD τ sig (Elt F) → Prop)
    (hQ : ∀ s : MemSt nD τ sig (Elt F), (∀ c : Dev nD, ∀ b ∈ Pipeline.ucRefs τ sig, s.mem (((c : Thread nD τ)).1, b) = W_last m ρ c b) → Q (⟨⟩, s)) :
    θ_run defs (onTc (τ := τ) (main (F := F))) ⟨m, fun _ => 0, ρ⟩ Q :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W_last m ρ c b)
    (hfin := fun c s' => by
      iintro ⟨⟨Hh, -⟩, HSI⟩
      unfold StableHlo.held
      imodintro
      iapply (pointsTo_read_all (Pipeline.ucRefs τ sig) (fun b => (((c : Thread nD τ)).1, b)) (W_last m ρ c) s')
      isplitl [Hh] <;> iassumption)
    (hQ := hQ)

/-- Every weakly fair execution of @main terminates, and in every final state each unscoped buffer of each core holds
    the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W_last m ρ c b) :=
  run_post m ρ _ fun s h => h

theorem W_last_main_arg0 (c : Dev nD) : W_last m ρ c (Proc.devRef .tc main_arg0) = m ((c : Thread nD τ).loc main_arg0) := W21_main_arg0 m ρ c
theorem W_last_main_arg1 (c : Dev nD) : W_last m ρ c (Proc.devRef .tc main_arg1) = m ((c : Thread nD τ).loc main_arg1) := W21_main_arg1 m ρ c
theorem W_last_main_arg2 (c : Dev nD) : W_last m ρ c (Proc.devRef .tc main_arg2) = m ((c : Thread nD τ).loc main_arg2) := W21_main_arg2 m ρ c
theorem W_last_main_arg3 (c : Dev nD) : W_last m ρ c (Proc.devRef .tc main_arg3) = m ((c : Thread nD τ).loc main_arg3) := W21_main_arg3 m ρ c
theorem W_last_main_arg4 (c : Dev nD) : W_last m ρ c (Proc.devRef .tc main_arg4) = m ((c : Thread nD τ).loc main_arg4) := W21_main_arg4 m ρ c
theorem W_last_main_arg5 (c : Dev nD) : W_last m ρ c (Proc.devRef .tc main_arg5) = m ((c : Thread nD τ).loc main_arg5) := W21_main_arg5 m ρ c
theorem W_last_main_arg6 (c : Dev nD) : W_last m ρ c (Proc.devRef .tc main_arg6) = m ((c : Thread nD τ).loc main_arg6) := W21_main_arg6 m ρ c
theorem W_last_main_arg7 (c : Dev nD) : W_last m ρ c (Proc.devRef .tc main_arg7) = m ((c : Thread nD τ).loc main_arg7) := W21_main_arg7 m ρ c
theorem W_last_main_arg8 (c : Dev nD) : W_last m ρ c (Proc.devRef .tc main_arg8) = m ((c : Thread nD τ).loc main_arg8) := W21_main_arg8 m ρ c
theorem W_last_main_arg9 (c : Dev nD) : W_last m ρ c (Proc.devRef .tc main_arg9) = m ((c : Thread nD τ).loc main_arg9) := W21_main_arg9 m ρ c
theorem W_last_main_arg10 (c : Dev nD) : W_last m ρ c (Proc.devRef .tc main_arg10) = m ((c : Thread nD τ).loc main_arg10) := W21_main_arg10 m ρ c
theorem W_last_main_arg11 (c : Dev nD) : W_last m ρ c (Proc.devRef .tc main_arg11) = m ((c : Thread nD τ).loc main_arg11) := W21_main_arg11 m ρ c

/-- The frame claim at any float instance: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_post m ρ _ fun s h c =>
    ⟨(h c _ (mem_uc main_arg0 (by decide))).trans (W_last_main_arg0 m ρ c),
     (h c _ (mem_uc main_arg1 (by decide))).trans (W_last_main_arg1 m ρ c),
     (h c _ (mem_uc main_arg2 (by decide))).trans (W_last_main_arg2 m ρ c),
     (h c _ (mem_uc main_arg3 (by decide))).trans (W_last_main_arg3 m ρ c),
     (h c _ (mem_uc main_arg4 (by decide))).trans (W_last_main_arg4 m ρ c),
     (h c _ (mem_uc main_arg5 (by decide))).trans (W_last_main_arg5 m ρ c),
     (h c _ (mem_uc main_arg6 (by decide))).trans (W_last_main_arg6 m ρ c),
     (h c _ (mem_uc main_arg7 (by decide))).trans (W_last_main_arg7 m ρ c),
     (h c _ (mem_uc main_arg8 (by decide))).trans (W_last_main_arg8 m ρ c),
     (h c _ (mem_uc main_arg9 (by decide))).trans (W_last_main_arg9 m ρ c),
     (h c _ (mem_uc main_arg10 (by decide))).trans (W_last_main_arg10 m ρ c),
     (h c _ (mem_uc main_arg11 (by decide))).trans (W_last_main_arg11 m ρ c)⟩

end Cert.Kernel.Fr

end
-- ==== Proof.KI.Region0.lean ====
/-
  Region 0 of the program's main function: the matrix-product kernel of custom call 0, run by its pipeline on a grid whose
  contraction axis has ONE step.  At every grid point the kernel clears its accumulator, adds the product of the
  left block (2048x256) and the right block (256x128) into it, reads it back, adds the bias row (1x128) broadcast
  over the rows, and stores the result (2048x128) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not: where it did not, the block index has not moved since the last fetch and the body left the block in place.
    For any proof data whose array is the entry contents and whose body keeps the block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The offsets of every access are zero. -/
theorem hz0 : (![0, 0] : Fin 2 → Nat) = fun _ => 0 := by funext a; fin_cases a <;> rfl

abbrev r0_a : Rect S2048x256 := Rect.unit (s := S2048x256) ![0, 0] S2048x256.size inb_S2048x256_S2048x256_0_0
abbrev r0_b : Rect S256x128 := Rect.unit (s := S256x128) ![0, 0] S256x128.size inb_S256x128_S256x128_0_0
abbrev r0_c : Rect S1x128 := Rect.unit (s := S1x128) ![0, 0] S1x128.size inb_S1x128_S1x128_0_0
abbrev r0_o : Rect S2048x128 := Rect.unit (s := S2048x128) ![0, 0] S2048x128.size inb_S2048x128_S2048x128_0_0

/-! ## The body's two conditions, both true at every point (the contraction axis has one step) -/

/-- "This is the first contraction step", as the kernel computes it from grid coordinate 2. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))

/-- "This is the last contraction step". -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- So no window is idle at any point: the body stores the output block at each. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## What the body leaves in the output window's buffer -/

/-- The accumulator when it is read back for the output: cleared, then the product of the two blocks added once. -/
def acc0 (x0 : Vec F S2048x256 .f32) (x1 : Vec F S256x128 .f32) : Vec F S2048x128 .f32 :=
  k0_pay2 (View.ld x0 r0_a) (View.ld x1 r0_b) (k0_pay1 (F := F))

/-- The output window's staging buffer after the body, from the input windows' blocks: its one store, of the whole block. -/
def out0_3 (x0 : Vec F S2048x256 .f32) (x1 : Vec F S256x128 .f32) (x2 : Vec F S1x128 .f32) : Vec F S2048x128 .f32 :=
  View.canon [⟨r0_o, k0_pay3 (acc0 x0 x1) (View.ld x2 r0_c)⟩]

/-- That store covers the buffer. -/
theorem storeCover0_3 (p0 : Vec F S2048x128 .f32) (y : S2048x128.Idx) :
    ∃ pc ∈ ([⟨r0_o, p0⟩] : List (View.Piece (Elt F) S2048x128 .f32)), y ∈ pc.1.set :=
  ⟨_, List.mem_singleton_self _, View.mem_set_unit_zero (S := S2048x128) hz0 inb_S2048x128_S2048x128_0_0 y⟩

/-- THE VALUE of the output block: bias row added to (zeros + left block × right block), in the kernel's own arithmetic. -/
theorem out0_3_eq (x0 : Vec F S2048x256 .f32) (x1 : Vec F S256x128 .f32) (x2 : Vec F S1x128 .f32) :
    out0_3 x0 x1 x2 = k0_pay3 (k0_pay2 x0 x1 (k0_pay1 (F := F))) x2 := by
  unfold out0_3 acc0
  refine (View.canon_unit_zero (S := S2048x128) hz0 _ _).trans ?_
  rw [View.ld_unit_zero (S := S2048x256) hz0, View.ld_unit_zero (S := S256x128) hz0, View.ld_unit_zero (S := S1x128) hz0]

/-! ## The body's triple -/

set_option maxHeartbeats 2000000 in
/-- The kernel body on whole memrefs — the three inputs' at their read contents, the output's and the accumulator's at
    anything — runs to the continuation holding the inputs' as they were, the output's at `out0_3` of the inputs', and
    the accumulator's at some contents.  Both conditions hold (`hc0`, `hc1`), so both branches are taken. -/
theorem sound_kernel0 (c : Dev nD) (E : Set ℕ) (i : grid0.Coords) (hc0 : cond0_0 i) (hc1 : cond0_1 i)
    (arg3 : Memref sig .tc .vmem S2048x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole)
    (x0 : Vec F S2048x256 .f32) (x1 : Vec F S256x128 .f32) (x2 : Vec F S1x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out0_3 x0 x1 x2) ∗ (∃ d, owns (c : Thread nD τ) arg7 fullShare d)) -∗ K ⟨⟩))
      ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover0_3 _)]
    unfold out0_3 acc0
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM0 : Memref sig .tc .vmem S2048x128 .f32 := Memref.whole cc0_scratch0

/-- The region invariant with the accumulator taken out of the scoped rest: owned at some contents, beside every other
    scoped buffer (unopened) and the generator register. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0, owns_whole]; try rfl

/-- The proof data of pipeline 0 on core `c`: the arrays as the region finds them; after the body at point `t` each
    input's buffer at its block and the output's at `out0_3` of the input blocks; the constant invariant; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- The output window after the body at point `t`: `out0_3` of the three input blocks there (its value: `out0_3_eq`). -/
theorem after0_out (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- No window is idle, so the body's post for each is its buffer at what the body leaves. -/
theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (st0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (st0_3 t) fullShare (out0_3 (iblk0 V c 0 t) (iblk0 V c 1 t) (iblk0 V c 2 t)) := by
  unfold Dat.leavesExact; rw [liveAt0_3 t, after0_out]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    leaves0_0, leaves0_1, leaves0_2, leaves0_3,
    show (dat0 V c).Φ t.castSucc = Pipeline.ΦA spec0 c from rfl, PhiA0_eq]
  iintro ⟨⟨⟨HS, Hrest⟩, Hg⟩, Ho, ⟨%d0, H0⟩, ⟨%d1, H1⟩, ⟨%d2, H2⟩, ⟨%d3, H3⟩⟩
  iapply (sound_kernel0 c Set.univ (grid0.coords t) (hcond0_0 t) (hcond0_1 t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : (Pipeline.ΦA spec0 c : sProp 𝕄) ⊢ (dat0 V c).Φ 0 := by
  rw [show (dat0 V c).Φ 0 = Pipeline.ΦA spec0 c from rfl]

/-- and the invariant after the last point is what the region hands back. -/
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]

end Cert.KernelIdeal.Fr

end
-- ==== Proof.KI.Region1Run.lean ====
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data over the entry arrays whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data over the entry arrays whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data over the entry arrays whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, in closed form -/

/-- The first conditional (reduction step 0: reset the accumulator), from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (reduction step 7: write the output block). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At step 0 the output block is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At steps 1..6 likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At step 7 the output block is live. -/
theorem liveAt1_3_C : ∀ t : Fin cfg1.N, ¬cond1_0 (grid1.coords t) → cond1_1 (grid1.coords t) → cfg1.idle 3 (grid1.coords t) = false := by decide +kernel

/-! ## The staging memrefs and the scratch -/

abbrev VO1_3 : View sig .tc .vmem S1024x128 .f32 := (Memref.whole cc1_stg3_0 : Memref sig .tc .vmem S1024x128 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x128 .f32 := Memref.whole cc1_scratch0
abbrev VS1_0 : View sig .tc .vmem S1024x128 .f32 := scM1_0.view

/-- The region's invariant with the accumulator as a memref owned at some contents; every other scoped buffer
    stays unopened. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun1_A (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun1_B (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun1_C (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.Region1.lean ====
import proofs.«127812_j6760278524061_1_alg».proof.Proof.KI.Region1Run
import Idealize.ShloMosaic.Lib.Pipeline.Value

/-! # Region 1: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out1_A_3 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) : Vec F S1024x128 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces for the accumulator tile it, so they cover it. -/
theorem scover1_A_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) (y : S1024x128.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x128.size (by sl_kernel_rfl) y

/-- What case A leaves in the accumulator: its pieces read back over junk. -/
def sout1_A_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) : Vec F S1024x128 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out1_B_3 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) : Vec F S1024x128 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for the accumulator tile it, so they cover it. -/
theorem scover1_B_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) (y : S1024x128.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x128.size (by sl_kernel_rfl) y

/-- What case B leaves in the accumulator: its pieces read back over junk. -/
def sout1_B_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) : Vec F S1024x128 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output block covers it. -/
theorem cover1_C_3 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) (y : S1024x128.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x128.size (by sl_kernel_rfl) y

/-- What case C leaves in the output block's buffer: its pieces read back over junk. -/
def out1_C_3 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) : Vec F S1024x128 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for the accumulator tile it, so they cover it. -/
theorem scover1_C_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) (y : S1024x128.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x128.size (by sl_kernel_rfl) y

/-- What case C leaves in the accumulator: its pieces read back over junk. -/
def sout1_C_0 (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) : Vec F S1024x128 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt1 (c : Dev nD) : (n : ℕ) → n < cfg1.N → Vec F S1024x128 .f32 × Vec F S1024x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := Pipeline.UD sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := Pipeline.UD sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block and the output block's at
    `outsAt1`; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's form back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

/-! ## The values: each case's stores as the kernel's payload functions -/

theorem hzero1 : (![0, 0] : Fin 2 → Nat) = fun _ => 0 := funext fun a => by fin_cases a <;> rfl

/-- Step 0 leaves in the accumulator one accumulation over the zero block: the reset's store is read back by the
    accumulating load. -/
theorem sout1_A_0_eq (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x2048 .bf16) (x1 : Vec F S2048x128 .f32) (x2 : Vec F S1x128 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x128) hzero1, View.readCov_unit_zero (S := S1024x128) _ hzero1]
  simp only [View.readAt_eq_ld, harg3.read_unread, harg4.read_unread, View.ld_unit_zero (S := S1024x2048) hzero1, View.ld_unit_zero (S := S2048x128) hzero1, View.ld_unit_zero (S := S1x128) hzero1, View.ld_unit_zero (S := S1024x128) hzero1]

/-- Steps 1..6 leave one more accumulation over what the accumulator held. -/
theorem sout1_B_0_eq (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x2048 .bf16) (x1 : Vec F S2048x128 .f32) (x2 : Vec F S1x128 .f32) (xs0 : Vec F S1024x128 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hzero1]
  simp only [View.readAt_eq_ld, harg3.read_unread, harg4.read_unread, harg7.read_unread, View.ld_unit_zero (S := S1024x2048) hzero1, View.ld_unit_zero (S := S2048x128) hzero1, View.ld_unit_zero (S := S1x128) hzero1, View.ld_unit_zero (S := S1024x128) hzero1]

/-- Step 7 accumulates likewise. -/
theorem sout1_C_0_eq (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hzero1]
  simp only [View.readAt_eq_ld, harg3.read_unread, harg4.read_unread, harg7.read_unread, View.ld_unit_zero (S := S1024x2048) hzero1, View.ld_unit_zero (S := S2048x128) hzero1, View.ld_unit_zero (S := S1x128) hzero1, View.ld_unit_zero (S := S1024x128) hzero1]

/-- Step 7 then stores into the output block the finishing payload of the accumulator it just wrote and the bias row. -/
theorem out1_C_3_eq (c : Dev nD) (i : grid1.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x2048 .bf16) (x1 : Vec F S2048x128 .f32) (x2 : Vec F S1x128 .f32) (xs0 : Vec F S1024x128 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hzero1, View.readCov_unit_zero (S := S1024x128) _ hzero1]
  simp only [View.readAt_eq_ld, harg3.read_unread, harg4.read_unread, harg5.read_unread, harg7.read_unread, View.ld_unit_zero (S := S1024x2048) hzero1, View.ld_unit_zero (S := S2048x128) hzero1, View.ld_unit_zero (S := S1x128) hzero1, View.ld_unit_zero (S := S1024x128) hzero1]

/-- At the first reduction step of a row block the accumulator ends at one accumulation over zero. -/
theorem acc1_first (c : Dev nD) (t : Fin cfg1.N) (h0 : t.val % 8 = 0) :
    (outsAt1 V c t.val t.isLt).2 = k1_pay2 (iblk1 V c 0 t) (iblk1 V c 1 t) (k1_pay1 (F := F)) := by
  have h1 : ¬t.val % 8 = 7 := by omega
  rw [outsAt1_A V c t h0 h1]
  dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At every later step it ends at one more accumulation over what the point before left. -/
theorem acc1_step (c : Dev nD) (t : Fin cfg1.N) (h0 : ¬t.val % 8 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h1 : t.val % 8 = 7
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At the last step (where the output block is written back) the block holds the finishing payload of the
    accumulator's final contents and the bias row. -/
theorem after1_out (c : Dev nD) (t : Fin cfg1.N) (h1 : t.val % 8 = 7) :
    (dat1 V c).after 3 t = k1_pay3 (outsAt1 V c t.val t.isLt).2 (iblk1 V c 2 t) := by
  have h0 : ¬t.val % 8 = 0 := by omega
  rw [after1_3, outsAt1_C V c t h0 h1]
  dsimp only
  rw [sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
  exact out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Cert.KernelIdeal.Fr

end
-- ==== Proof.KI.Region2.lean ====
/-
  Region 2 of the program's main function: the matrix-product kernel of custom call 2, run by its pipeline on a grid whose
  contraction axis has ONE step.  At every grid point the kernel clears its accumulator, adds the product of the
  left block (2048x128) and the right block (128x64) into it, reads it back, adds the bias row (1x64) broadcast
  over the rows, and stores the result (2048x64) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    not: where it did not, the block index has not moved since the last fetch and the body left the block in place.
    For any proof data whose array is the entry contents and whose body keeps the block. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

/-- The offsets of every access are zero. -/
theorem hz2 : (![0, 0] : Fin 2 → Nat) = fun _ => 0 := by funext a; fin_cases a <;> rfl

abbrev r2_a : Rect S2048x128 := Rect.unit (s := S2048x128) ![0, 0] S2048x128.size inb_S2048x128_S2048x128_0_0
abbrev r2_b : Rect S128x64 := Rect.unit (s := S128x64) ![0, 0] S128x64.size inb_S128x64_S128x64_0_0
abbrev r2_c : Rect S1x64 := Rect.unit (s := S1x64) ![0, 0] S1x64.size inb_S1x64_S1x64_0_0
abbrev r2_o : Rect S2048x64 := Rect.unit (s := S2048x64) ![0, 0] S2048x64.size inb_S2048x64_S2048x64_0_0

/-! ## The body's two conditions, both true at every point (the contraction axis has one step) -/

/-- "This is the first contraction step", as the kernel computes it from grid coordinate 2. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) :=
  (by decide +kernel : ∀ t : Fin grid2.N, cond2_0 (grid2.coords t))

/-- "This is the last contraction step". -/
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

/-- So no window is idle at any point: the body stores the output block at each. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## What the body leaves in the output window's buffer -/

/-- The accumulator when it is read back for the output: cleared, then the product of the two blocks added once. -/
def acc2 (x0 : Vec F S2048x128 .f32) (x1 : Vec F S128x64 .f32) : Vec F S2048x64 .f32 :=
  k2_pay2 (View.ld x0 r2_a) (View.ld x1 r2_b) (k2_pay1 (F := F))

/-- The output window's staging buffer after the body, from the input windows' blocks: its one store, of the whole block. -/
def out2_3 (x0 : Vec F S2048x128 .f32) (x1 : Vec F S128x64 .f32) (x2 : Vec F S1x64 .f32) : Vec F S2048x64 .f32 :=
  View.canon [⟨r2_o, k2_pay3 (acc2 x0 x1) (View.ld x2 r2_c)⟩]

/-- That store covers the buffer. -/
theorem storeCover2_3 (p0 : Vec F S2048x64 .f32) (y : S2048x64.Idx) :
    ∃ pc ∈ ([⟨r2_o, p0⟩] : List (View.Piece (Elt F) S2048x64 .f32)), y ∈ pc.1.set :=
  ⟨_, List.mem_singleton_self _, View.mem_set_unit_zero (S := S2048x64) hz2 inb_S2048x64_S2048x64_0_0 y⟩

/-- THE VALUE of the output block: bias row added to (zeros + left block × right block), in the kernel's own arithmetic. -/
theorem out2_3_eq (x0 : Vec F S2048x128 .f32) (x1 : Vec F S128x64 .f32) (x2 : Vec F S1x64 .f32) :
    out2_3 x0 x1 x2 = k2_pay3 (k2_pay2 x0 x1 (k2_pay1 (F := F))) x2 := by
  unfold out2_3 acc2
  refine (View.canon_unit_zero (S := S2048x64) hz2 _ _).trans ?_
  rw [View.ld_unit_zero (S := S2048x128) hz2, View.ld_unit_zero (S := S128x64) hz2, View.ld_unit_zero (S := S1x64) hz2]

/-! ## The body's triple -/

set_option maxHeartbeats 2000000 in
/-- The kernel body on whole memrefs — the three inputs' at their read contents, the output's and the accumulator's at
    anything — runs to the continuation holding the inputs' as they were, the output's at `out2_3` of the inputs', and
    the accumulator's at some contents.  Both conditions hold (`hc0`, `hc1`), so both branches are taken. -/
theorem sound_kernel2 (c : Dev nD) (E : Set ℕ) (i : grid2.Coords) (hc0 : cond2_0 i) (hc1 : cond2_1 i)
    (arg3 : Memref sig .tc .vmem S2048x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S2048x64 .f32) (harg6 : arg6.IsWhole)
    (arg7 : Memref sig .tc .vmem S2048x64 .f32) (harg7 : arg7.IsWhole)
    (x0 : Vec F S2048x128 .f32) (x1 : Vec F S128x64 .f32) (x2 : Vec F S1x64 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out2_3 x0 x1 x2) ∗ (∃ d, owns (c : Thread nD τ) arg7 fullShare d)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover2_3 _)]
    unfold out2_3 acc2
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM2 : Memref sig .tc .vmem S2048x64 .f32 := Memref.whole cc2_scratch0

/-- The region invariant with the accumulator taken out of the scoped rest: owned at some contents, beside every other
    scoped buffer (unopened) and the generator register. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := Pipeline.UD sig nD τ) (Lvl := ℕ) (Val := Elt F) spec2 c [cc2_scratch0]) ∗ (∃ r, prngReg c r)) := by
  unfold Pipeline.ΦA; rw [scopedRest2_split]; simp only [scM2, owns_whole]; try rfl

/-- The proof data of pipeline 2 on core `c`: the arrays as the region finds them; after the body at point `t` each
    input's buffer at its block and the output's at `out2_3` of the input blocks; the constant invariant; nothing owed;
    full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- The output window after the body at point `t`: `out2_3` of the three input blocks there (its value: `out2_3_eq`). -/
theorem after2_out (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- No window is idle, so the body's post for each is its buffer at what the body leaves. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (out2_3 (iblk2 V c 0 t) (iblk2 V c 1 t) (iblk2 V c 2 t)) := by
  unfold Dat.leavesExact; rw [liveAt2_3 t, after2_out]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    leaves2_0, leaves2_1, leaves2_2, leaves2_3,
    show (dat2 V c).Φ t.castSucc = Pipeline.ΦA spec2 c from rfl, PhiA2_eq]
  iintro ⟨⟨⟨HS, Hrest⟩, Hg⟩, Ho, ⟨%d0, H0⟩, ⟨%d1, H1⟩, ⟨%d2, H2⟩, ⟨%d3, H3⟩⟩
  iapply (sound_kernel2 c Set.univ (grid2.coords t) (hcond2_0 t) (hcond2_1 t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : (Pipeline.ΦA spec2 c : sProp 𝕄) ⊢ (dat2 V c).Φ 0 := by
  rw [show (dat2 V c).Φ 0 = Pipeline.ΦA spec2 c from rfl]

/-- and the invariant after the last point is what the region hands back. -/
theorem hout2 (c : Dev nD) : (dat2 V c).Φ (Fin.last cfg2.N) ⊢ (Pipeline.ΦA spec2 c : sProp 𝕄) := by
  rw [show (dat2 V c).Φ (Fin.last cfg2.N) = Pipeline.ΦA spec2 c from rfl]

end Cert.KernelIdeal.Fr

end
-- ==== Proof.KI.Region3Run.lean ====
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data over the entry arrays whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data over the entry arrays whose body leaves the block in place. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data over the entry arrays whose body leaves the block in place. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditionals, in closed form -/

/-- The first conditional (reduction step 0: reset the accumulator), from the grid coordinates. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- The second conditional (reduction step 7: write the output block). -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- At step 0 the output block is idle and not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At steps 1..6 likewise. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At step 7 the output block is live. -/
theorem liveAt3_3_C : ∀ t : Fin cfg3.N, ¬cond3_0 (grid3.coords t) → cond3_1 (grid3.coords t) → cfg3.idle 3 (grid3.coords t) = false := by decide +kernel

/-! ## The staging memrefs and the scratch -/

abbrev VO3_3 : View sig .tc .vmem S1024x64 .f32 := (Memref.whole cc3_stg3_0 : Memref sig .tc .vmem S1024x64 .f32).view
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x64 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S1024x64 .f32 := Memref.whole cc3_scratch0
abbrev VS3_0 : View sig .tc .vmem S1024x64 .f32 := scM3_0.view

/-- The region's invariant with the accumulator as a memref owned at some contents; every other scoped buffer
    stays unopened. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := Pipeline.UD sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun3_A (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_kernel i arg3 harg3 arg4 harg4 arg5 harg5 arg6 harg6 arg7 harg7) K } := by
  refine ⟨[], ?_, fun xi3 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun3_B (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_kernel i arg3 harg3 arg4 harg4 arg5 harg5 arg6 harg6 arg7 harg7) K } := by
  refine ⟨[], ?_, fun xi3 E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun3_C (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_kernel i arg3 harg3 arg4 harg4 arg5 harg5 arg6 harg6 arg7 harg7) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.Region3.lean ====
import proofs.«127812_j6760278524061_1_alg».proof.Proof.KI.Region3Run
import Idealize.ShloMosaic.Lib.Pipeline.Value

/-! # Region 3: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out3_A_3 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) : Vec F S1024x64 .f32 :=
  VO3_3.read (Elt F) (VO3_3.writes (Elt F) VO3_3.junk (kernelRun3_A c i arg3 harg3 arg4 harg4 arg5 harg5 arg6 harg6 arg7 harg7 hc0 hc1 x0 x1 x2).1)

/-- Case A's pieces for the accumulator tile it, so they cover it. -/
theorem scover3_A_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) (y : S1024x64.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S1024x64.size (by sl_kernel_rfl) y

/-- What case A leaves in the accumulator: its pieces read back over junk. -/
def sout3_A_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) : Vec F S1024x64 .f32 :=
  VS3_0.read (Elt F) (VS3_0.writes (Elt F) VS3_0.junk (kernelRun3_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out3_B_3 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) : Vec F S1024x64 .f32 :=
  VO3_3.read (Elt F) (VO3_3.writes (Elt F) VO3_3.junk (kernelRun3_B c i arg3 harg3 arg4 harg4 arg5 harg5 arg6 harg6 arg7 harg7 hc0 hc1 x0 x1 x2 xs0).1)

/-- Case B's pieces for the accumulator tile it, so they cover it. -/
theorem scover3_B_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) (y : S1024x64.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S1024x64.size (by sl_kernel_rfl) y

/-- What case B leaves in the accumulator: its pieces read back over junk. -/
def sout3_B_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) : Vec F S1024x64 .f32 :=
  VS3_0.read (Elt F) (VS3_0.writes (Elt F) VS3_0.junk (kernelRun3_B c i arg3 harg3 arg4 harg4 arg5 harg5 arg6 harg6 arg7 harg7 hc0 hc1 x0 x1 x2 xs0).2.1)

/-- Case C's one store into the output block covers it. -/
theorem cover3_C_3 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) (y : S1024x64.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S1024x64.size (by sl_kernel_rfl) y

/-- What case C leaves in the output block's buffer: its pieces read back over junk. -/
def out3_C_3 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) : Vec F S1024x64 .f32 :=
  VO3_3.read (Elt F) (VO3_3.writes (Elt F) VO3_3.junk (kernelRun3_C c i arg3 harg3 arg4 harg4 arg5 harg5 arg6 harg6 arg7 harg7 hc0 hc1 x0 x1 x2 xs0).1)

/-- Case C's pieces for the accumulator tile it, so they cover it. -/
theorem scover3_C_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) (y : S1024x64.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S1024x64.size (by sl_kernel_rfl) y

/-- What case C leaves in the accumulator: its pieces read back over junk. -/
def sout3_C_0 (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) : Vec F S1024x64 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt3 (c : Dev nD) : (n : ℕ) → n < cfg3.N → Vec F S1024x64 .f32 × Vec F S1024x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := Pipeline.UD sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := Pipeline.UD sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := Pipeline.UD sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block and the output block's at
    `outsAt3`; the invariant `PhiS3`; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  by_cases h0 : t.val % 8 = 0
  · by_cases h1 : t.val % 8 = 7
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      have hz : t.val ≠ 0 := by omega
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      have hz : t.val ≠ 0 := by omega
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the launch's form back: the accumulator's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

theorem hout3 (c : Dev nD) : (dat3 V c).Φ (Fin.last cfg3.N) ⊢ (Pipeline.ΦA spec3 c : sProp 𝕄) :=
  Phi_out3 V c _ (by rw [Fin.val_last]; have : cfg3.N = 128 := N_3; omega)

/-! ## The values: each case's stores as the kernel's payload functions -/

theorem hzero3 : (![0, 0] : Fin 2 → Nat) = fun _ => 0 := funext fun a => by fin_cases a <;> rfl

/-- Step 0 leaves in the accumulator one accumulation over the zero block: the reset's store is read back by the
    accumulating load. -/
theorem sout3_A_0_eq (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond3_0 i) (hc1 : ¬cond3_1 i)
    (x0 : Vec F S1024x2048 .bf16) (x1 : Vec F S2048x64 .f32) (x2 : Vec F S1x64 .f32) :
    sout3_A_0 c i arg3 harg3 arg4 harg4 arg5 harg5 arg6 harg6 arg7 harg7 hc0 hc1 x0 x1 x2 = k3_pay2 x0 x1 (k3_pay1 (F := F)) := by
  unfold sout3_A_0
  rw [View.read_writes_eq_canon _ _ _ (scover3_A_0 c i arg3 harg3 arg4 harg4 arg5 harg5 arg6 harg6 arg7 harg7 hc0 hc1 x0 x1 x2)]
  unfold kernelRun3_A
  dsimp only
  sl_unfold_words
  rw [View.canon_cons_unit_zero (S := S1024x64) hzero3, View.readCov_unit_zero (S := S1024x64) _ hzero3]
  simp only [View.readAt_eq_ld, harg3.read_unread, harg4.read_unread, View.ld_unit_zero (S := S1024x2048) hzero3, View.ld_unit_zero (S := S2048x64) hzero3, View.ld_unit_zero (S := S1x64) hzero3, View.ld_unit_zero (S := S1024x64) hzero3]

/-- Steps 1..6 leave one more accumulation over what the accumulator held. -/
theorem sout3_B_0_eq (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : ¬cond3_1 i)
    (x0 : Vec F S1024x2048 .bf16) (x1 : Vec F S2048x64 .f32) (x2 : Vec F S1x64 .f32) (xs0 : Vec F S1024x64 .f32) :
    sout3_B_0 c i arg3 harg3 arg4 harg4 arg5 harg5 arg6 harg6 arg7 harg7 hc0 hc1 x0 x1 x2 xs0 = k3_pay2 x0 x1 xs0 := by
  unfold sout3_B_0
  rw [View.read_writes_eq_canon _ _ _ (scover3_B_0 c i arg3 harg3 arg4 harg4 arg5 harg5 arg6 harg6 arg7 harg7 hc0 hc1 x0 x1 x2 xs0)]
  unfold kernelRun3_B
  dsimp only
  sl_unfold_words
  rw [View.canon_unit_zero hzero3]
  simp only [View.readAt_eq_ld, harg3.read_unread, harg4.read_unread, harg7.read_unread, View.ld_unit_zero (S := S1024x2048) hzero3, View.ld_unit_zero (S := S2048x64) hzero3, View.ld_unit_zero (S := S1x64) hzero3, View.ld_unit_zero (S := S1024x64) hzero3]

/-- Step 7 accumulates likewise. -/
theorem sout3_C_0_eq (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) :
    sout3_C_0 c i arg3 harg3 arg4 harg4 arg5 harg5 arg6 harg6 arg7 harg7 hc0 hc1 x0 x1 x2 xs0 = k3_pay2 x0 x1 xs0 := by
  unfold sout3_C_0
  rw [View.read_writes_eq_canon _ _ _ (scover3_C_0 c i arg3 harg3 arg4 harg4 arg5 harg5 arg6 harg6 arg7 harg7 hc0 hc1 x0 x1 x2 xs0)]
  unfold kernelRun3_C
  dsimp only
  sl_unfold_words
  rw [View.canon_unit_zero hzero3]
  simp only [View.readAt_eq_ld, harg3.read_unread, harg4.read_unread, harg7.read_unread, View.ld_unit_zero (S := S1024x2048) hzero3, View.ld_unit_zero (S := S2048x64) hzero3, View.ld_unit_zero (S := S1x64) hzero3, View.ld_unit_zero (S := S1024x64) hzero3]

/-- Step 7 then stores into the output block the finishing payload of the accumulator it just wrote and the bias row. -/
theorem out3_C_3_eq (c : Dev nD) (i : grid3.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond3_0 i) (hc1 : cond3_1 i)
    (x0 : Vec F S1024x2048 .bf16) (x1 : Vec F S2048x64 .f32) (x2 : Vec F S1x64 .f32) (xs0 : Vec F S1024x64 .f32) :
    out3_C_3 c i arg3 harg3 arg4 harg4 arg5 harg5 arg6 harg6 arg7 harg7 hc0 hc1 x0 x1 x2 xs0 = k3_pay3 (k3_pay2 x0 x1 xs0) x2 := by
  unfold out3_C_3
  rw [View.read_writes_eq_canon _ _ _ (cover3_C_3 c i arg3 harg3 arg4 harg4 arg5 harg5 arg6 harg6 arg7 harg7 hc0 hc1 x0 x1 x2 xs0)]
  unfold kernelRun3_C
  dsimp only
  sl_unfold_words
  rw [View.canon_unit_zero hzero3, View.readCov_unit_zero (S := S1024x64) _ hzero3]
  simp only [View.readAt_eq_ld, harg3.read_unread, harg4.read_unread, harg5.read_unread, harg7.read_unread, View.ld_unit_zero (S := S1024x2048) hzero3, View.ld_unit_zero (S := S2048x64) hzero3, View.ld_unit_zero (S := S1x64) hzero3, View.ld_unit_zero (S := S1024x64) hzero3]

/-- At the first reduction step of a row block the accumulator ends at one accumulation over zero. -/
theorem acc3_first (c : Dev nD) (t : Fin cfg3.N) (h0 : t.val % 8 = 0) :
    (outsAt3 V c t.val t.isLt).2 = k3_pay2 (iblk3 V c 0 t) (iblk3 V c 1 t) (k3_pay1 (F := F)) := by
  have h1 : ¬t.val % 8 = 7 := by omega
  rw [outsAt3_A V c t h0 h1]
  dsimp only
  exact sout3_A_0_eq c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)

/-- At every later step it ends at one more accumulation over what the point before left. -/
theorem acc3_step (c : Dev nD) (t : Fin cfg3.N) (h0 : ¬t.val % 8 = 0) :
    (outsAt3 V c t.val t.isLt).2 = k3_pay2 (iblk3 V c 0 t) (iblk3 V c 1 t) (outsAt3 V c (t.val - 1) (Nat.lt_of_le_of_lt (Nat.sub_le _ _) t.isLt)).2 := by
  by_cases h1 : t.val % 8 = 7
  · rw [outsAt3_C V c t h0 h1]
    dsimp only
    exact sout3_C_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2
  · rw [outsAt3_B V c t h0 h1]
    dsimp only
    exact sout3_B_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2

/-- At the last step (where the output block is written back) the block holds the finishing payload of the
    accumulator's final contents and the bias row. -/
theorem after3_out (c : Dev nD) (t : Fin cfg3.N) (h1 : t.val % 8 = 7) :
    (dat3 V c).after 3 t = k3_pay3 (outsAt3 V c t.val t.isLt).2 (iblk3 V c 2 t) := by
  have h0 : ¬t.val % 8 = 0 := by omega
  rw [after3_3, outsAt3_C V c t h0 h1]
  dsimp only
  rw [sout3_C_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2]
  exact out3_C_3_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2

end Cert.KernelIdeal.Fr

end
-- ==== Proof.KI.Region4.lean ====
/-
  Region 4 of the program's main function: the matrix-product kernel of custom call 4, run by its pipeline on a grid whose
  contraction axis has ONE step.  At every grid point the kernel clears its accumulator, adds the product of the
  left block (2048x64) and the right block (64x128) into it, reads it back, adds the bias row (1x128) broadcast
  over the rows, and stores the result (2048x128) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it there or
    not: where it did not, the block index has not moved since the last fetch and the body left the block in place.
    For any proof data whose array is the entry contents and whose body keeps the block. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

/-- The offsets of every access are zero. -/
theorem hz4 : (![0, 0] : Fin 2 → Nat) = fun _ => 0 := by funext a; fin_cases a <;> rfl

abbrev r4_a : Rect S2048x64 := Rect.unit (s := S2048x64) ![0, 0] S2048x64.size inb_S2048x64_S2048x64_0_0
abbrev r4_b : Rect S64x128 := Rect.unit (s := S64x128) ![0, 0] S64x128.size inb_S64x128_S64x128_0_0
abbrev r4_c : Rect S1x128 := Rect.unit (s := S1x128) ![0, 0] S1x128.size inb_S1x128_S1x128_0_0
abbrev r4_o : Rect S2048x128 := Rect.unit (s := S2048x128) ![0, 0] S2048x128.size inb_S2048x128_S2048x128_0_0

/-! ## The body's two conditions, both true at every point (the contraction axis has one step) -/

/-- "This is the first contraction step", as the kernel computes it from grid coordinate 2. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) :=
  (by decide +kernel : ∀ t : Fin grid4.N, cond4_0 (grid4.coords t))

/-- "This is the last contraction step". -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- So no window is idle at any point: the body stores the output block at each. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

/-! ## What the body leaves in the output window's buffer -/

/-- The accumulator when it is read back for the output: cleared, then the product of the two blocks added once. -/
def acc4 (x0 : Vec F S2048x64 .f32) (x1 : Vec F S64x128 .f32) : Vec F S2048x128 .f32 :=
  k4_pay2 (View.ld x0 r4_a) (View.ld x1 r4_b) (k4_pay1 (F := F))

/-- The output window's staging buffer after the body, from the input windows' blocks: its one store, of the whole block. -/
def out4_3 (x0 : Vec F S2048x64 .f32) (x1 : Vec F S64x128 .f32) (x2 : Vec F S1x128 .f32) : Vec F S2048x128 .f32 :=
  View.canon [⟨r4_o, k4_pay3 (acc4 x0 x1) (View.ld x2 r4_c)⟩]

/-- That store covers the buffer. -/
theorem storeCover4_3 (p0 : Vec F S2048x128 .f32) (y : S2048x128.Idx) :
    ∃ pc ∈ ([⟨r4_o, p0⟩] : List (View.Piece (Elt F) S2048x128 .f32)), y ∈ pc.1.set :=
  ⟨_, List.mem_singleton_self _, View.mem_set_unit_zero (S := S2048x128) hz4 inb_S2048x128_S2048x128_0_0 y⟩

/-- THE VALUE of the output block: bias row added to (zeros + left block × right block), in the kernel's own arithmetic. -/
theorem out4_3_eq (x0 : Vec F S2048x64 .f32) (x1 : Vec F S64x128 .f32) (x2 : Vec F S1x128 .f32) :
    out4_3 x0 x1 x2 = k4_pay3 (k4_pay2 x0 x1 (k4_pay1 (F := F))) x2 := by
  unfold out4_3 acc4
  refine (View.canon_unit_zero (S := S2048x128) hz4 _ _).trans ?_
  rw [View.ld_unit_zero (S := S2048x64) hz4, View.ld_unit_zero (S := S64x128) hz4, View.ld_unit_zero (S := S1x128) hz4]

/-! ## The body's triple -/

set_option maxHeartbeats 2000000 in
/-- The kernel body on whole memrefs — the three inputs' at their read contents, the output's and the accumulator's at
    anything — runs to the continuation holding the inputs' as they were, the output's at `out4_3` of the inputs', and
    the accumulator's at some contents.  Both conditions hold (`hc0`, `hc1`), so both branches are taken. -/
theorem sound_kernel4 (c : Dev nD) (E : Set ℕ) (i : grid4.Coords) (hc0 : cond4_0 i) (hc1 : cond4_1 i)
    (arg3 : Memref sig .tc .vmem S2048x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S2048x128 .f32) (harg6 : arg6.IsWhole)
    (arg7 : Memref sig .tc .vmem S2048x128 .f32) (harg7 : arg7.IsWhole)
    (x0 : Vec F S2048x64 .f32) (x1 : Vec F S64x128 .f32) (x2 : Vec F S1x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out4_3 x0 x1 x2) ∗ (∃ d, owns (c : Thread nD τ) arg7 fullShare d)) -∗ K ⟨⟩))
      ⊢ wp frame (wpE (defs₀ (F := F)) Variants.none c none) E (cc4__matmul_kernel i arg3 harg3 arg4 harg4 arg5 harg5 arg6 harg6 arg7 harg7) K := by
  simp only [cc4__matmul_kernel_eq_skeleton]; unfold cc4__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover4_3 _)]
    unfold out4_3 acc4
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM4 : Memref sig .tc .vmem S2048x128 .f32 := Memref.whole cc4_scratch0

/-- The region invariant with the accumulator taken out of the scoped rest: owned at some contents, beside every other
    scoped buffer (unopened) and the generator register. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := Pipeline.UD sig nD τ) (Lvl := ℕ) (Val := Elt F) spec4 c [cc4_scratch0]) ∗ (∃ r, prngReg c r)) := by
  unfold Pipeline.ΦA; rw [scopedRest4_split]; simp only [scM4, owns_whole]; try rfl

/-- The proof data of pipeline 4 on core `c`: the arrays as the region finds them; after the body at point `t` each
    input's buffer at its block and the output's at `out4_3` of the input blocks; the constant invariant; nothing owed;
    full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
/-- The output window after the body at point `t`: `out4_3` of the three input blocks there (its value: `out4_3_eq`). -/
theorem after4_out (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- No window is idle, so the body's post for each is its buffer at what the body leaves. -/
theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (st4_3 t) fullShare (out4_3 (iblk4 V c 0 t) (iblk4 V c 1 t) (iblk4 V c 2 t)) := by
  unfold Dat.leavesExact; rw [liveAt4_3 t, after4_out]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    leaves4_0, leaves4_1, leaves4_2, leaves4_3,
    show (dat4 V c).Φ t.castSucc = Pipeline.ΦA spec4 c from rfl, PhiA4_eq]
  iintro ⟨⟨⟨HS, Hrest⟩, Hg⟩, Ho, ⟨%d0, H0⟩, ⟨%d1, H1⟩, ⟨%d2, H2⟩, ⟨%d3, H3⟩⟩
  iapply (sound_kernel4 c Set.univ (grid4.coords t) (hcond4_0 t) (hcond4_1 t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point, -/
theorem hin4 (c : Dev nD) : (Pipeline.ΦA spec4 c : sProp 𝕄) ⊢ (dat4 V c).Φ 0 := by
  rw [show (dat4 V c).Φ 0 = Pipeline.ΦA spec4 c from rfl]

/-- and the invariant after the last point is what the region hands back. -/
theorem hout4 (c : Dev nD) : (dat4 V c).Φ (Fin.last cfg4.N) ⊢ (Pipeline.ΦA spec4 c : sProp 𝕄) := by
  rw [show (dat4 V c).Φ (Fin.last cfg4.N) = Pipeline.ΦA spec4 c from rfl]

end Cert.KernelIdeal.Fr

end
-- ==== Proof.KI.Region5Run.lean ====
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (unfetched, the
    block index has not moved), for any proof data over the entry arrays whose body leaves the block in place. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (unfetched, the
    block index has not moved), for any proof data over the entry arrays whose body leaves the block in place. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (unfetched, the
    block index has not moved), for any proof data over the entry arrays whose body leaves the block in place. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditionals, in closed form -/

/-- The first conditional (reduction step 0: reset the accumulator), from the grid coordinates. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)

/-- The second conditional (reduction step 7: write the output block). -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

/-! ## Where the windows are idle -/

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
/-- At step 0 the output block is idle and not written back. -/
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
/-- At steps 1..6 likewise. -/
theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel
/-- At step 7 the output block is live. -/
theorem liveAt5_3_C : ∀ t : Fin cfg5.N, ¬cond5_0 (grid5.coords t) → cond5_1 (grid5.coords t) → cfg5.idle 3 (grid5.coords t) = false := by decide +kernel

/-! ## The staging memrefs and the scratch -/

abbrev VO5_3 : View sig .tc .vmem S1024x128 .f32 := (Memref.whole cc5_stg3_0 : Memref sig .tc .vmem S1024x128 .f32).view
abbrev ms5_0 (t : Fin cfg5.N) : Memref sig .tc .vmem S1024x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5_0 : Memref sig .tc .vmem S1024x128 .f32 := Memref.whole cc5_scratch0
abbrev VS5_0 : View sig .tc .vmem S1024x128 .f32 := scM5_0.view

/-- The region's invariant with the accumulator as a memref owned at some contents; every other scoped buffer
    stays unopened. -/
theorem PhiA5_eq (c : Dev nD) :
    (Pipeline.ΦA spec5 c : sProp 𝕄)
      = iprop(iprop((∃ d, owns (c : Thread nD τ) scM5_0 fullShare d)
          ∗ Pipeline.scopedRestBut (Ix := Unit) (Name := ℕ) (U := Pipeline.UD sig nD τ) (Lvl := ℕ) (Val := Elt F) spec5 c [cc5_scratch0]) ∗ (∃ r, prngReg c r)) := by
  unfold Pipeline.ΦA; rw [scopedRest5_split]; simp only [scM5_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun5_A (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_kernel i arg3 harg3 arg4 harg4 arg5 harg5 arg6 harg6 arg7 harg7) K } := by
  refine ⟨[], ?_, fun xi3 E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun5_B (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_kernel i arg3 harg3 arg4 harg4 arg5 harg5 arg6 harg6 arg7 harg7) K } := by
  refine ⟨[], ?_, fun xi3 E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun5_C (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_kernel i arg3 harg3 arg4 harg4 arg5 harg5 arg6 harg6 arg7 harg7) K } := by
  refine ⟨?_, ?_, fun E K => ?run⟩
  case run =>
    simp only [cc5__matmul_kernel_eq_skeleton]; unfold cc5__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.Region5.lean ====
import proofs.«127812_j6760278524061_1_alg».proof.Proof.KI.Region5Run
import Idealize.ShloMosaic.Lib.Pipeline.Value

/-! # Region 5: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out5_A_3 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) : Vec F S1024x128 .f32 :=
  VO5_3.read (Elt F) (VO5_3.writes (Elt F) VO5_3.junk (kernelRun5_A c i arg3 harg3 arg4 harg4 arg5 harg5 arg6 harg6 arg7 harg7 hc0 hc1 x0 x1 x2).1)

/-- Case A's pieces for the accumulator tile it, so they cover it. -/
theorem scover5_A_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) (y : S1024x128.Idx) :
    ∃ pc ∈ (kernelRun5_A c i arg3 harg3 arg4 harg4 arg5 harg5 arg6 harg6 arg7 harg7 hc0 hc1 x0 x1 x2).2.1, y ∈ pc.1.set :=
  View.cover_of_tiledL (kernelRun5_A c i arg3 harg3 arg4 harg4 arg5 harg5 arg6 harg6 arg7 harg7 hc0 hc1 x0 x1 x2).2.1 S1024x128.size (by sl_kernel_rfl) y

/-- What case A leaves in the accumulator: its pieces read back over junk. -/
def sout5_A_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) : Vec F S1024x128 .f32 :=
  VS5_0.read (Elt F) (VS5_0.writes (Elt F) VS5_0.junk (kernelRun5_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out5_B_3 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) : Vec F S1024x128 .f32 :=
  VO5_3.read (Elt F) (VO5_3.writes (Elt F) VO5_3.junk (kernelRun5_B c i arg3 harg3 arg4 harg4 arg5 harg5 arg6 harg6 arg7 harg7 hc0 hc1 x0 x1 x2 xs0).1)

/-- Case B's pieces for the accumulator tile it, so they cover it. -/
theorem scover5_B_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) (y : S1024x128.Idx) :
    ∃ pc ∈ (kernelRun5_B c i arg3 harg3 arg4 harg4 arg5 harg5 arg6 harg6 arg7 harg7 hc0 hc1 x0 x1 x2 xs0).2.1, y ∈ pc.1.set :=
  View.cover_of_tiledL (kernelRun5_B c i arg3 harg3 arg4 harg4 arg5 harg5 arg6 harg6 arg7 harg7 hc0 hc1 x0 x1 x2 xs0).2.1 S1024x128.size (by sl_kernel_rfl) y

/-- What case B leaves in the accumulator: its pieces read back over junk. -/
def sout5_B_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) : Vec F S1024x128 .f32 :=
  VS5_0.read (Elt F) (VS5_0.writes (Elt F) VS5_0.junk (kernelRun5_B c i arg3 harg3 arg4 harg4 arg5 harg5 arg6 harg6 arg7 harg7 hc0 hc1 x0 x1 x2 xs0).2.1)

/-- Case C's one store into the output block covers it. -/
theorem cover5_C_3 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) (y : S1024x128.Idx) :
    ∃ pc ∈ (kernelRun5_C c i arg3 harg3 arg4 harg4 arg5 harg5 arg6 harg6 arg7 harg7 hc0 hc1 x0 x1 x2 xs0).1, y ∈ pc.1.set :=
  View.cover_of_tiledL (kernelRun5_C c i arg3 harg3 arg4 harg4 arg5 harg5 arg6 harg6 arg7 harg7 hc0 hc1 x0 x1 x2 xs0).1 S1024x128.size (by sl_kernel_rfl) y

/-- What case C leaves in the output block's buffer: its pieces read back over junk. -/
def out5_C_3 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) : Vec F S1024x128 .f32 :=
  VO5_3.read (Elt F) (VO5_3.writes (Elt F) VO5_3.junk (kernelRun5_C c i arg3 harg3 arg4 harg4 arg5 harg5 arg6 harg6 arg7 harg7 hc0 hc1 x0 x1 x2 xs0).1)

/-- Case C's pieces for the accumulator tile it, so they cover it. -/
theorem scover5_C_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) (y : S1024x128.Idx) :
    ∃ pc ∈ (kernelRun5_C c i arg3 harg3 arg4 harg4 arg5 harg5 arg6 harg6 arg7 harg7 hc0 hc1 x0 x1 x2 xs0).2.1, y ∈ pc.1.set :=
  View.cover_of_tiledL (kernelRun5_C c i arg3 harg3 arg4 harg4 arg5 harg5 arg6 harg6 arg7 harg7 hc0 hc1 x0 x1 x2 xs0).2.1 S1024x128.size (by sl_kernel_rfl) y

/-- What case C leaves in the accumulator: its pieces read back over junk. -/
def sout5_C_0 (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) : Vec F S1024x128 .f32 :=
  VS5_0.read (Elt F) (VS5_0.writes (Elt F) VS5_0.junk (kernelRun5_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt5 (c : Dev nD) : (n : ℕ) → n < cfg5.N → Vec F S1024x128 .f32 × Vec F S1024x128 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 8 = 0 then
      if h1 : (n + 1) % 8 = 7 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 8 = 7 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 8 = 0) (h1 : ¬t.val % 8 = 7) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : ¬t.val % 8 = 7) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 8 = 0) (h1 : t.val % 8 = 7) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := Pipeline.UD sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := Pipeline.UD sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := Pipeline.UD sig nD τ) (Lvl := ℕ) (Val := Elt F) spec5 c [cc5_scratch0]) ∗ (∃ r, prngReg c r)) := by
  cases n with
  | zero => exact absurd rfl hz
  | succ n => rfl

/-! ## The proof data -/

/-- The arrays as the region finds them; after the body each input's buffer at its block and the output block's at
    `outsAt5`; the invariant `PhiS5`; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 128 := lt_of_lt_of_eq t.isLt (show cfg5.N = 128 from N_5)
  by_cases h0 : t.val % 8 = 0
  · by_cases h1 : t.val % 8 = 7
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hrest⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, Hrest⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      have hz : t.val ≠ 0 := by omega
      rw [PhiS5_castSucc V c t, PhiS5_pos V c _ _ hz]
      iintro ⟨⟨⟨HS0, Hrest⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C_3 c _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      have hz : t.val ≠ 0 := by omega
      rw [PhiS5_castSucc V c t, PhiS5_pos V c _ _ hz]
      iintro ⟨⟨⟨HS0, Hrest⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After any point the invariant gives the launch's form back: the accumulator's named contents are forgotten. -/
theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, Hrest⟩, Hg⟩
  isplitl [HS0 Hrest]
  · isplitl [HS0]
    · iexists _; iexact HS0
    iexact Hrest
  iexact Hg

theorem hout5 (c : Dev nD) : (dat5 V c).Φ (Fin.last cfg5.N) ⊢ (Pipeline.ΦA spec5 c : sProp 𝕄) :=
  Phi_out5 V c _ (by rw [Fin.val_last]; have : cfg5.N = 128 := N_5; omega)

/-! ## The values: each case's stores as the kernel's payload functions -/

theorem hzero5 : (![0, 0] : Fin 2 → Nat) = fun _ => 0 := funext fun a => by fin_cases a <;> rfl

/-- Step 0 leaves in the accumulator one accumulation over the zero block: the reset's store is read back by the
    accumulating load. -/
theorem sout5_A_0_eq (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond5_0 i) (hc1 : ¬cond5_1 i)
    (x0 : Vec F S1024x2048 .bf16) (x1 : Vec F S2048x128 .f32) (x2 : Vec F S1x128 .f32) :
    sout5_A_0 c i arg3 harg3 arg4 harg4 arg5 harg5 arg6 harg6 arg7 harg7 hc0 hc1 x0 x1 x2 = k5_pay2 x0 x1 (k5_pay1 (F := F)) := by
  unfold sout5_A_0
  rw [View.read_writes_eq_canon _ _ _ (scover5_A_0 c i arg3 harg3 arg4 harg4 arg5 harg5 arg6 harg6 arg7 harg7 hc0 hc1 x0 x1 x2)]
  unfold kernelRun5_A
  dsimp only
  sl_unfold_words
  rw [View.canon_cons_unit_zero (S := S1024x128) hzero5, View.readCov_unit_zero (S := S1024x128) _ hzero5]
  simp only [View.readAt_eq_ld, harg3.read_unread, harg4.read_unread, View.ld_unit_zero (S := S1024x2048) hzero5, View.ld_unit_zero (S := S2048x128) hzero5, View.ld_unit_zero (S := S1x128) hzero5, View.ld_unit_zero (S := S1024x128) hzero5]

/-- Steps 1..6 leave one more accumulation over what the accumulator held. -/
theorem sout5_B_0_eq (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : ¬cond5_1 i)
    (x0 : Vec F S1024x2048 .bf16) (x1 : Vec F S2048x128 .f32) (x2 : Vec F S1x128 .f32) (xs0 : Vec F S1024x128 .f32) :
    sout5_B_0 c i arg3 harg3 arg4 harg4 arg5 harg5 arg6 harg6 arg7 harg7 hc0 hc1 x0 x1 x2 xs0 = k5_pay2 x0 x1 xs0 := by
  unfold sout5_B_0
  rw [View.read_writes_eq_canon _ _ _ (scover5_B_0 c i arg3 harg3 arg4 harg4 arg5 harg5 arg6 harg6 arg7 harg7 hc0 hc1 x0 x1 x2 xs0)]
  unfold kernelRun5_B
  dsimp only
  sl_unfold_words
  rw [View.canon_unit_zero hzero5]
  simp only [View.readAt_eq_ld, harg3.read_unread, harg4.read_unread, harg7.read_unread, View.ld_unit_zero (S := S1024x2048) hzero5, View.ld_unit_zero (S := S2048x128) hzero5, View.ld_unit_zero (S := S1x128) hzero5, View.ld_unit_zero (S := S1024x128) hzero5]

/-- Step 7 accumulates likewise. -/
theorem sout5_C_0_eq (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) :
    sout5_C_0 c i arg3 harg3 arg4 harg4 arg5 harg5 arg6 harg6 arg7 harg7 hc0 hc1 x0 x1 x2 xs0 = k5_pay2 x0 x1 xs0 := by
  unfold sout5_C_0
  rw [View.read_writes_eq_canon _ _ _ (scover5_C_0 c i arg3 harg3 arg4 harg4 arg5 harg5 arg6 harg6 arg7 harg7 hc0 hc1 x0 x1 x2 xs0)]
  unfold kernelRun5_C
  dsimp only
  sl_unfold_words
  rw [View.canon_unit_zero hzero5]
  simp only [View.readAt_eq_ld, harg3.read_unread, harg4.read_unread, harg7.read_unread, View.ld_unit_zero (S := S1024x2048) hzero5, View.ld_unit_zero (S := S2048x128) hzero5, View.ld_unit_zero (S := S1x128) hzero5, View.ld_unit_zero (S := S1024x128) hzero5]

/-- Step 7 then stores into the output block the finishing payload of the accumulator it just wrote and the bias row. -/
theorem out5_C_3_eq (c : Dev nD) (i : grid5.Coords) (arg3 : Memref sig .tc .vmem S1024x2048 .bf16) (harg3 : arg3.IsWhole) (arg4 : Memref sig .tc .vmem S2048x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond5_0 i) (hc1 : cond5_1 i)
    (x0 : Vec F S1024x2048 .bf16) (x1 : Vec F S2048x128 .f32) (x2 : Vec F S1x128 .f32) (xs0 : Vec F S1024x128 .f32) :
    out5_C_3 c i arg3 harg3 arg4 harg4 arg5 harg5 arg6 harg6 arg7 harg7 hc0 hc1 x0 x1 x2 xs0 = k5_pay3 (k5_pay2 x0 x1 xs0) x2 := by
  unfold out5_C_3
  rw [View.read_writes_eq_canon _ _ _ (cover5_C_3 c i arg3 harg3 arg4 harg4 arg5 harg5 arg6 harg6 arg7 harg7 hc0 hc1 x0 x1 x2 xs0)]
  unfold kernelRun5_C
  dsimp only
  sl_unfold_words
  rw [View.canon_unit_zero hzero5, View.readCov_unit_zero (S := S1024x128) _ hzero5]
  simp only [View.readAt_eq_ld, harg3.read_unread, harg4.read_unread, harg5.read_unread, harg7.read_unread, View.ld_unit_zero (S := S1024x2048) hzero5, View.ld_unit_zero (S := S2048x128) hzero5, View.ld_unit_zero (S := S1x128) hzero5, View.ld_unit_zero (S := S1024x128) hzero5]

/-- At the first reduction step of a row block the accumulator ends at one accumulation over zero. -/
theorem acc5_first (c : Dev nD) (t : Fin cfg5.N) (h0 : t.val % 8 = 0) :
    (outsAt5 V c t.val t.isLt).2 = k5_pay2 (iblk5 V c 0 t) (iblk5 V c 1 t) (k5_pay1 (F := F)) := by
  have h1 : ¬t.val % 8 = 7 := by omega
  rw [outsAt5_A V c t h0 h1]
  dsimp only
  exact sout5_A_0_eq c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)

/-- At every later step it ends at one more accumulation over what the point before left. -/
theorem acc5_step (c : Dev nD) (t : Fin cfg5.N) (h0 : ¬t.val % 8 = 0) :
    (outsAt5 V c t.val t.isLt).2 = k5_pay2 (iblk5 V c 0 t) (iblk5 V c 1 t) (outsAt5 V c (t.val - 1) (Nat.lt_of_le_of_lt (Nat.sub_le _ _) t.isLt)).2 := by
  by_cases h1 : t.val % 8 = 7
  · rw [outsAt5_C V c t h0 h1]
    dsimp only
    exact sout5_C_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2
  · rw [outsAt5_B V c t h0 h1]
    dsimp only
    exact sout5_B_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2

/-- At the last step (where the output block is written back) the block holds the finishing payload of the
    accumulator's final contents and the bias row. -/
theorem after5_out (c : Dev nD) (t : Fin cfg5.N) (h1 : t.val % 8 = 7) :
    (dat5 V c).after 3 t = k5_pay3 (outsAt5 V c t.val t.isLt).2 (iblk5 V c 2 t) := by
  have h0 : ¬t.val % 8 = 0 := by omega
  rw [after5_3, outsAt5_C V c t h0 h1]
  dsimp only
  rw [sout5_C_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2]
  exact out5_C_3_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2

end Cert.KernelIdeal.Fr

end
-- ==== Proof.KI.Region6.lean ====
/-
  Region 6 of the program's main function: the matrix-product kernel of custom call 6, run by its pipeline on a grid whose
  contraction axis has ONE step.  At every grid point the kernel clears its accumulator, adds the product of the
  left block (2048x128) and the right block (128x256) into it, reads it back, adds the bias row (1x256) broadcast
  over the rows, and stores the result (2048x256) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether the pipeline fetched it there or
    not: where it did not, the block index has not moved since the last fetch and the body left the block in place.
    For any proof data whose array is the entry contents and whose body keeps the block. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is of a whole buffer -/

/-- The offsets of every access are zero. -/
theorem hz6 : (![0, 0] : Fin 2 → Nat) = fun _ => 0 := by funext a; fin_cases a <;> rfl

abbrev r6_a : Rect S2048x128 := Rect.unit (s := S2048x128) ![0, 0] S2048x128.size inb_S2048x128_S2048x128_0_0
abbrev r6_b : Rect S128x256 := Rect.unit (s := S128x256) ![0, 0] S128x256.size inb_S128x256_S128x256_0_0
abbrev r6_c : Rect S1x256 := Rect.unit (s := S1x256) ![0, 0] S1x256.size inb_S1x256_S1x256_0_0
abbrev r6_o : Rect S2048x256 := Rect.unit (s := S2048x256) ![0, 0] S2048x256.size inb_S2048x256_S2048x256_0_0

/-! ## The body's two conditions, both true at every point (the contraction axis has one step) -/

/-- "This is the first contraction step", as the kernel computes it from grid coordinate 2. -/
abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) :=
  (by decide +kernel : ∀ t : Fin grid6.N, cond6_0 (grid6.coords t))

/-- "This is the last contraction step". -/
abbrev cond6_1 (i : grid6.Coords) : Prop := k6_cond2 i = 1#1
theorem hcond6_1 : ∀ t : Fin cfg6.N, cond6_1 (grid6.coords t) :=
  (by decide +kernel : ∀ t : Fin grid6.N, cond6_1 (grid6.coords t))

/-- So no window is idle at any point: the body stores the output block at each. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel

/-! ## What the body leaves in the output window's buffer -/

/-- The accumulator when it is read back for the output: cleared, then the product of the two blocks added once. -/
def acc6 (x0 : Vec F S2048x128 .f32) (x1 : Vec F S128x256 .f32) : Vec F S2048x256 .f32 :=
  k6_pay2 (View.ld x0 r6_a) (View.ld x1 r6_b) (k6_pay1 (F := F))

/-- The output window's staging buffer after the body, from the input windows' blocks: its one store, of the whole block. -/
def out6_3 (x0 : Vec F S2048x128 .f32) (x1 : Vec F S128x256 .f32) (x2 : Vec F S1x256 .f32) : Vec F S2048x256 .f32 :=
  View.canon [⟨r6_o, k6_pay3 (acc6 x0 x1) (View.ld x2 r6_c)⟩]

/-- That store covers the buffer. -/
theorem storeCover6_3 (p0 : Vec F S2048x256 .f32) (y : S2048x256.Idx) :
    ∃ pc ∈ ([⟨r6_o, p0⟩] : List (View.Piece (Elt F) S2048x256 .f32)), y ∈ pc.1.set :=
  ⟨_, List.mem_singleton_self _, View.mem_set_unit_zero (S := S2048x256) hz6 inb_S2048x256_S2048x256_0_0 y⟩

/-- THE VALUE of the output block: bias row added to (zeros + left block × right block), in the kernel's own arithmetic. -/
theorem out6_3_eq (x0 : Vec F S2048x128 .f32) (x1 : Vec F S128x256 .f32) (x2 : Vec F S1x256 .f32) :
    out6_3 x0 x1 x2 = k6_pay3 (k6_pay2 x0 x1 (k6_pay1 (F := F))) x2 := by
  unfold out6_3 acc6
  refine (View.canon_unit_zero (S := S2048x256) hz6 _ _).trans ?_
  rw [View.ld_unit_zero (S := S2048x128) hz6, View.ld_unit_zero (S := S128x256) hz6, View.ld_unit_zero (S := S1x256) hz6]

/-! ## The body's triple -/

set_option maxHeartbeats 2000000 in
/-- The kernel body on whole memrefs — the three inputs' at their read contents, the output's and the accumulator's at
    anything — runs to the continuation holding the inputs' as they were, the output's at `out6_3` of the inputs', and
    the accumulator's at some contents.  Both conditions hold (`hc0`, `hc1`), so both branches are taken. -/
theorem sound_kernel6 (c : Dev nD) (E : Set ℕ) (i : grid6.Coords) (hc0 : cond6_0 i) (hc1 : cond6_1 i)
    (arg3 : Memref sig .tc .vmem S2048x128 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S2048x256 .f32) (harg6 : arg6.IsWhole)
    (arg7 : Memref sig .tc .vmem S2048x256 .f32) (harg7 : arg7.IsWhole)
    (x0 : Vec F S2048x128 .f32) (x1 : Vec F S128x256 .f32) (x2 : Vec F S1x256 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out6_3 x0 x1 x2) ∗ (∃ d, owns (c : Thread nD τ) arg7 fullShare d)) -∗ K ⟨⟩))
      ⊢ wp frame (wpE (defs₀ (F := F)) Variants.none c none) E (cc6__matmul_kernel i arg3 harg3 arg4 harg4 arg5 harg5 arg6 harg6 arg7 harg7) K := by
  simp only [cc6__matmul_kernel_eq_skeleton]; unfold cc6__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover6_3 _)]
    unfold out6_3 acc6
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM6 : Memref sig .tc .vmem S2048x256 .f32 := Memref.whole cc6_scratch0

/-- The region invariant with the accumulator taken out of the scoped rest: owned at some contents, beside every other
    scoped buffer (unopened) and the generator register. -/
theorem PhiA6_eq (c : Dev nD) :
    (Pipeline.ΦA spec6 c : sProp 𝕄)
      = iprop(iprop(iprop((∃ d, owns (c : Thread nD τ) scM6 fullShare d))
          ∗ Pipeline.scopedRestBut (Ix := Unit) (Name := ℕ) (U := Pipeline.UD sig nD τ) (Lvl := ℕ) (Val := Elt F) spec6 c [cc6_scratch0]) ∗ (∃ r, prngReg c r)) := by
  unfold Pipeline.ΦA; rw [scopedRest6_split]; simp only [scM6, owns_whole]; try rfl

/-- The proof data of pipeline 6 on core `c`: the arrays as the region finds them; after the body at point `t` each
    input's buffer at its block and the output's at `out6_3` of the input blocks; the constant invariant; nothing owed;
    full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
/-- The output window after the body at point `t`: `out6_3` of the three input blocks there (its value: `out6_3_eq`). -/
theorem after6_out (c : Dev nD) (t : Fin cfg6.N) :
    (dat6 V c).after 3 t = out6_3 (iblk6 V c 0 t) (iblk6 V c 1 t) (iblk6 V c 2 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- No window is idle, so the body's post for each is its buffer at what the body leaves. -/
theorem leaves6_0 (c : Dev nD) (t : Fin cfg6.N) :
    (dat6 V c).leavesExact 0 t = owns (c : Thread nD τ) (st6_0 t) fullShare (iblk6 V c 0 t) := by
  unfold Dat.leavesExact; rw [liveAt6_0 t, after6_0]
theorem leaves6_1 (c : Dev nD) (t : Fin cfg6.N) :
    (dat6 V c).leavesExact 1 t = owns (c : Thread nD τ) (st6_1 t) fullShare (iblk6 V c 1 t) := by
  unfold Dat.leavesExact; rw [liveAt6_1 t, after6_1]
theorem leaves6_2 (c : Dev nD) (t : Fin cfg6.N) :
    (dat6 V c).leavesExact 2 t = owns (c : Thread nD τ) (st6_2 t) fullShare (iblk6 V c 2 t) := by
  unfold Dat.leavesExact; rw [liveAt6_2 t, after6_2]
theorem leaves6_3 (c : Dev nD) (t : Fin cfg6.N) :
    (dat6 V c).leavesExact 3 t = owns (c : Thread nD τ) (st6_3 t) fullShare (out6_3 (iblk6 V c 0 t) (iblk6 V c 1 t) (iblk6 V c 2 t)) := by
  unfold Dat.leavesExact; rw [liveAt6_3 t, after6_out]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    leaves6_0, leaves6_1, leaves6_2, leaves6_3,
    show (dat6 V c).Φ t.castSucc = Pipeline.ΦA spec6 c from rfl, PhiA6_eq]
  iintro ⟨⟨⟨HS, Hrest⟩, Hg⟩, Ho, ⟨%d0, H0⟩, ⟨%d1, H1⟩, ⟨%d2, H2⟩, ⟨%d3, H3⟩⟩
  iapply (sound_kernel6 c Set.univ (grid6.coords t) (hcond6_0 t) (hcond6_1 t) _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point, -/
theorem hin6 (c : Dev nD) : (Pipeline.ΦA spec6 c : sProp 𝕄) ⊢ (dat6 V c).Φ 0 := by
  rw [show (dat6 V c).Φ 0 = Pipeline.ΦA spec6 c from rfl]

/-- and the invariant after the last point is what the region hands back. -/
theorem hout6 (c : Dev nD) : (dat6 V c).Φ (Fin.last cfg6.N) ⊢ (Pipeline.ΦA spec6 c : sProp 𝕄) := by
  rw [show (dat6 V c).Φ (Fin.last cfg6.N) = Pipeline.ΦA spec6 c from rfl]

end Cert.KernelIdeal.Fr

end
-- ==== Proof.KI.Region7Run.lean ====
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not (unfetched, the
    block index has not moved), for any proof data over the entry arrays whose body leaves the block in place. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (unfetched, the
    block index has not moved), for any proof data over the entry arrays whose body leaves the block in place. -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (unfetched, the
    block index has not moved), for any proof data over the entry arrays whose body leaves the block in place. -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditionals, in closed form -/

/-- The first conditional (reduction step 0: reset the accumulator), from the grid coordinates. -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)

/-- The second conditional (reduction step 7: write the output block). -/
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
/-- At step 0 the output block is idle and not written back. -/
theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
/-- At steps 1..6 likewise. -/
theorem idleAt7_3_B : ∀ t : Fin cfg7.N, ¬cond7_0 (grid7.coords t) → ¬cond7_1 (grid7.coords t) → cfg7.idle 3 (grid7.coords t) = true := by decide +kernel
theorem noFlush7_3_B : ∀ t : Fin cfg7.N, ¬cond7_0 (grid7.coords t) → ¬cond7_1 (grid7.coords t) → (cfg7.win 3).flush t = false := by decide +kernel
/-- At step 7 the output block is live. -/
theorem liveAt7_3_C : ∀ t : Fin cfg7.N, ¬cond7_0 (grid7.coords t) → cond7_1 (grid7.coords t) → cfg7.idle 3 (grid7.coords t) = false := by decide +kernel

/-! ## The staging memrefs and the scratch -/

abbrev VO7_3 : View sig .tc .vmem S1024x256 .f32 := (Memref.whole cc7_stg3_0 : Memref sig .tc .vmem S1024x256 .f32).view
abbrev ms7_0 (t : Fin cfg7.N) : Memref sig .tc .vmem S1024x2048 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x256 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x256 .f32 := win7_3.stage (cfg7.slots t 3)
abbrev hs7_3 (t : Fin cfg7.N) : (ms7_3 t).IsWhole := hstage7_3 ((cfg7.slots t 3).cast nbuf7_3)
/-- The accumulator: a whole scoped buffer of the kernel's own. -/
abbrev scM7_0 : Memref sig .tc .vmem S1024x256 .f32 := Memref.whole cc7_scratch0
abbrev VS7_0 : View sig .tc .vmem S1024x256 .f32 := scM7_0.view

/-- The region's invariant with the accumulator as a memref owned at some contents; every other scoped buffer
    stays unopened. -/
theorem PhiA7_eq (c : Dev nD) :
    (Pipeline.ΦA spec7 c : sProp 𝕄)
      = iprop(iprop((∃ d, owns (c : Thread nD τ) scM7_0 fullShare d)
          ∗ Pipeline.scopedRestBut (Ix := Unit) (Name := ℕ) (U := Pipeline.UD sig nD τ) (Lvl := ℕ) (Val := Elt F) spec7 c [cc7_scratch0]) ∗ (∃ r, prngReg c r)) := by
  unfold Pipeline.ΦA; rw [scopedRest7_split]; simp only [scM7_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun7_A (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_kernel i arg3 harg3 arg4 harg4 arg5 harg5 arg6 harg6 arg7 harg7) K } := by
  refine ⟨[], ?_, fun xi3 E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun7_B (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_kernel i arg3 harg3 arg4 harg4 arg5 harg5 arg6 harg6 arg7 harg7) K } := by
  refine ⟨[], ?_, fun xi3 E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun7_C (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_kernel i arg3 harg3 arg4 harg4 arg5 harg5 arg6 harg6 arg7 harg7) K } := by
  refine ⟨?_, ?_, fun E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.Region7.lean ====
import proofs.«127812_j6760278524061_1_alg».proof.Proof.KI.Region7Run
import Idealize.ShloMosaic.Lib.Pipeline.Value

/-! # Region 7: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out7_A_3 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) : Vec F S1024x256 .f32 :=
  VO7_3.read (Elt F) (VO7_3.writes (Elt F) VO7_3.junk (kernelRun7_A c i arg3 harg3 arg4 harg4 arg5 harg5 arg6 harg6 arg7 harg7 hc0 hc1 x0 x1 x2).1)

/-- Case A's pieces for the accumulator tile it, so they cover it. -/
theorem scover7_A_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) (y : S1024x256.Idx) :
    ∃ pc ∈ (kernelRun7_A c i arg3 harg3 arg4 harg4 arg5 harg5 arg6 harg6 arg7 harg7 hc0 hc1 x0 x1 x2).2.1, y ∈ pc.1.set :=
  View.cover_of_tiledL (kernelRun7_A c i arg3 harg3 arg4 harg4 arg5 harg5 arg6 harg6 arg7 harg7 hc0 hc1 x0 x1 x2).2.1 S1024x256.size (by sl_kernel_rfl) y

/-- What case A leaves in the accumulator: its pieces read back over junk. -/
def sout7_A_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) : Vec F S1024x256 .f32 :=
  VS7_0.read (Elt F) (VS7_0.writes (Elt F) VS7_0.junk (kernelRun7_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out7_B_3 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) : Vec F S1024x256 .f32 :=
  VO7_3.read (Elt F) (VO7_3.writes (Elt F) VO7_3.junk (kernelRun7_B c i arg3 harg3 arg4 harg4 arg5 harg5 arg6 harg6 arg7 harg7 hc0 hc1 x0 x1 x2 xs0).1)

/-- Case B's pieces for the accumulator tile it, so they cover it. -/
theorem scover7_B_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) (y : S1024x256.Idx) :
    ∃ pc ∈ (kernelRun7_B c i arg3 harg3 arg4 harg4 arg5 harg5 arg6 harg6 arg7 harg7 hc0 hc1 x0 x1 x2 xs0).2.1, y ∈ pc.1.set :=
  View.cover_of_tiledL (kernelRun7_B c i arg3 harg3 arg4 harg4 arg5 harg5 arg6 harg6 arg7 harg7 hc0 hc1 x0 x1 x2 xs0).2.1 S1024x256.size (by sl_kernel_rfl) y

/-- What case B leaves in the accumulator: its pieces read back over junk. -/
def sout7_B_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) : Vec F S1024x256 .f32 :=
  VS7_0.read (Elt F) (VS7_0.writes (Elt F) VS7_0.junk (kernelRun7_B c i arg3 harg3 arg4 harg4 arg5 harg5 arg6 harg6 arg7 harg7 hc0 hc1 x0 x1 x2 xs0).2.1)

/-- Case C's one store into the output block covers it. -/
theorem cover7_C_3 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) (y : S1024x256.Idx) :
    ∃ pc ∈ (kernelRun7_C c i arg3 harg3 arg4 harg4 arg5 harg5 arg6 harg6 arg7 harg7 hc0 hc1 x0 x1 x2 xs0).1, y ∈ pc.1.set :=
  View.cover_of_tiledL (kernelRun7_C c i arg3 harg3 arg4 harg4 arg5 harg5 arg6 harg6 arg7 harg7 hc0 hc1 x0 x1 x2 xs0).1 S1024x256.size (by sl_kernel_rfl) y

/-- What case C leaves in the output block's buffer: its pieces read back over junk. -/
def out7_C_3 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) : Vec F S1024x256 .f32 :=
  VO7_3.read (Elt F) (VO7_3.writes (Elt F) VO7_3.junk (kernelRun7_C c i arg3 harg3 arg4 harg4 arg5 harg5 arg6 harg6 arg7 harg7 hc0 hc1 x0 x1 x2 xs0).1)

/-- Case C's pieces for the accumulator tile it, so they cover it. -/
theorem scover7_C_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) (y : S1024x256.Idx) :
    ∃ pc ∈ (kernelRun7_C c i arg3 harg3 arg4 harg4 arg5 harg5 arg6 harg6 arg7 harg7 hc0 hc1 x0 x1 x2 xs0).2.1, y ∈ pc.1.set :=
  View.cover_of_tiledL (kernelRun7_C c i arg3 harg3 arg4 harg4 arg5 harg5 arg6 harg6 arg7 harg7 hc0 hc1 x0 x1 x2 xs0).2.1 S1024x256.size (by sl_kernel_rfl) y

/-- What case C leaves in the accumulator: its pieces read back over junk. -/
def sout7_C_0 (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) : Vec F S1024x256 .f32 :=
  VS7_0.read (Elt F) (VS7_0.writes (Elt F) VS7_0.junk (kernelRun7_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt7 (c : Dev nD) : (n : ℕ) → n < cfg7.N → Vec F S1024x256 .f32 × Vec F S1024x256 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 8 = 0 then
      if h1 : (n + 1) % 8 = 7 then
        False.elim (by omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 8 = 7 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

theorem outsAt7_A (c : Dev nD) (t : Fin cfg7.N) (h0 : t.val % 8 = 0) (h1 : ¬t.val % 8 = 7) :
    outsAt7 V c t.val t.isLt = (out7_A_3 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t), sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

theorem outsAt7_B (c : Dev nD) (t : Fin cfg7.N) (h0 : ¬t.val % 8 = 0) (h1 : ¬t.val % 8 = 7) :
    outsAt7 V c t.val t.isLt = (out7_B_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 8 = 0) (h1 : t.val % 8 = 7) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := Pipeline.UD sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := Pipeline.UD sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ Pipeline.scopedRestBut (Ix := Unit) (Name := ℕ) (U := Pipeline.UD sig nD τ) (Lvl := ℕ) (Val := Elt F) spec7 c [cc7_scratch0]) ∗ (∃ r, prngReg c r)) := by
  cases n with
  | zero => exact absurd rfl hz
  | succ n => rfl

/-! ## The proof data -/

/-- The arrays as the region finds them; after the body each input's buffer at its block and the output block's at
    `outsAt7`; the invariant `PhiS7`; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  have hN : t.val < 128 := lt_of_lt_of_eq t.isLt (show cfg7.N = 128 from N_7)
  by_cases h0 : t.val % 8 = 0
  · by_cases h1 : t.val % 8 = 7
    · exfalso; omega
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A_0; (try dsimp only)
      by_cases hz : t.val = 0
      · rw [PhiS7_castSucc V c t, PhiS7_zero V c _ _ hz, PhiA7_eq]
        iintro ⟨⟨⟨HS0, Hrest⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover7_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, Hrest⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover7_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C_0; (try dsimp only)
      have hz : t.val ≠ 0 := by omega
      rw [PhiS7_castSucc V c t, PhiS7_pos V c _ _ hz]
      iintro ⟨⟨⟨HS0, Hrest⟩, Hg⟩, Ho, ⟨%d0, H0⟩, ⟨%d1, H1⟩, ⟨%d2, H2⟩, ⟨%d3, H3⟩⟩
      iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover7_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_C_3 c _ _ _ _ _ _ _ _ _ _ _ _ _ _ _ _ _)
    ·
      rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2 t], after7_2]
      rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B_0; (try dsimp only)
      have hz : t.val ≠ 0 := by omega
      rw [PhiS7_castSucc V c t, PhiS7_pos V c _ _ hz]
      iintro ⟨⟨⟨HS0, Hrest⟩, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover7_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the launch's form back: the accumulator's named contents are forgotten. -/
theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨HS0, Hrest⟩, Hg⟩
  isplitl [HS0 Hrest]
  · isplitl [HS0]
    · iexists _; iexact HS0
    iexact Hrest
  iexact Hg

theorem hout7 (c : Dev nD) : (dat7 V c).Φ (Fin.last cfg7.N) ⊢ (Pipeline.ΦA spec7 c : sProp 𝕄) :=
  Phi_out7 V c _ (by rw [Fin.val_last]; have : cfg7.N = 128 := N_7; omega)

/-! ## The values: each case's stores as the kernel's payload functions -/

theorem hzero7 : (![0, 0] : Fin 2 → Nat) = fun _ => 0 := funext fun a => by fin_cases a <;> rfl

/-- Step 0 leaves in the accumulator one accumulation over the zero block: the reset's store is read back by the
    accumulating load. -/
theorem sout7_A_0_eq (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : cond7_0 i) (hc1 : ¬cond7_1 i)
    (x0 : Vec F S1024x2048 .bf16) (x1 : Vec F S2048x256 .f32) (x2 : Vec F S1x256 .f32) :
    sout7_A_0 c i arg3 harg3 arg4 harg4 arg5 harg5 arg6 harg6 arg7 harg7 hc0 hc1 x0 x1 x2 = k7_pay2 x0 x1 (k7_pay1 (F := F)) := by
  unfold sout7_A_0
  rw [View.read_writes_eq_canon _ _ _ (scover7_A_0 c i arg3 harg3 arg4 harg4 arg5 harg5 arg6 harg6 arg7 harg7 hc0 hc1 x0 x1 x2)]
  unfold kernelRun7_A
  dsimp only
  sl_unfold_words
  rw [View.canon_cons_unit_zero (S := S1024x256) hzero7, View.readCov_unit_zero (S := S1024x256) _ hzero7]
  simp only [View.readAt_eq_ld, harg3.read_unread, harg4.read_unread, View.ld_unit_zero (S := S1024x2048) hzero7, View.ld_unit_zero (S := S2048x256) hzero7, View.ld_unit_zero (S := S1x256) hzero7, View.ld_unit_zero (S := S1024x256) hzero7]

/-- Steps 1..6 leave one more accumulation over what the accumulator held. -/
theorem sout7_B_0_eq (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : ¬cond7_1 i)
    (x0 : Vec F S1024x2048 .bf16) (x1 : Vec F S2048x256 .f32) (x2 : Vec F S1x256 .f32) (xs0 : Vec F S1024x256 .f32) :
    sout7_B_0 c i arg3 harg3 arg4 harg4 arg5 harg5 arg6 harg6 arg7 harg7 hc0 hc1 x0 x1 x2 xs0 = k7_pay2 x0 x1 xs0 := by
  unfold sout7_B_0
  rw [View.read_writes_eq_canon _ _ _ (scover7_B_0 c i arg3 harg3 arg4 harg4 arg5 harg5 arg6 harg6 arg7 harg7 hc0 hc1 x0 x1 x2 xs0)]
  unfold kernelRun7_B
  dsimp only
  sl_unfold_words
  rw [View.canon_unit_zero hzero7]
  simp only [View.readAt_eq_ld, harg3.read_unread, harg4.read_unread, harg7.read_unread, View.ld_unit_zero (S := S1024x2048) hzero7, View.ld_unit_zero (S := S2048x256) hzero7, View.ld_unit_zero (S := S1x256) hzero7, View.ld_unit_zero (S := S1024x256) hzero7]

/-- Step 7 accumulates likewise. -/
theorem sout7_C_0_eq (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) :
    sout7_C_0 c i arg3 harg3 arg4 harg4 arg5 harg5 arg6 harg6 arg7 harg7 hc0 hc1 x0 x1 x2 xs0 = k7_pay2 x0 x1 xs0 := by
  unfold sout7_C_0
  rw [View.read_writes_eq_canon _ _ _ (scover7_C_0 c i arg3 harg3 arg4 harg4 arg5 harg5 arg6 harg6 arg7 harg7 hc0 hc1 x0 x1 x2 xs0)]
  unfold kernelRun7_C
  dsimp only
  sl_unfold_words
  rw [View.canon_unit_zero hzero7]
  simp only [View.readAt_eq_ld, harg3.read_unread, harg4.read_unread, harg7.read_unread, View.ld_unit_zero (S := S1024x2048) hzero7, View.ld_unit_zero (S := S2048x256) hzero7, View.ld_unit_zero (S := S1x256) hzero7, View.ld_unit_zero (S := S1024x256) hzero7]

/-- Step 7 then stores into the output block the finishing payload of the accumulator it just wrote and the bias row. -/
theorem out7_C_3_eq (c : Dev nD) (i : grid7.Coords) (arg3 : Memref sig .tc .vmem S1024x2048 .bf16) (harg3 : arg3.IsWhole) (arg4 : Memref sig .tc .vmem S2048x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬cond7_0 i) (hc1 : cond7_1 i)
    (x0 : Vec F S1024x2048 .bf16) (x1 : Vec F S2048x256 .f32) (x2 : Vec F S1x256 .f32) (xs0 : Vec F S1024x256 .f32) :
    out7_C_3 c i arg3 harg3 arg4 harg4 arg5 harg5 arg6 harg6 arg7 harg7 hc0 hc1 x0 x1 x2 xs0 = k7_pay3 (k7_pay2 x0 x1 xs0) x2 := by
  unfold out7_C_3
  rw [View.read_writes_eq_canon _ _ _ (cover7_C_3 c i arg3 harg3 arg4 harg4 arg5 harg5 arg6 harg6 arg7 harg7 hc0 hc1 x0 x1 x2 xs0)]
  unfold kernelRun7_C
  dsimp only
  sl_unfold_words
  rw [View.canon_unit_zero hzero7, View.readCov_unit_zero (S := S1024x256) _ hzero7]
  simp only [View.readAt_eq_ld, harg3.read_unread, harg4.read_unread, harg5.read_unread, harg7.read_unread, View.ld_unit_zero (S := S1024x2048) hzero7, View.ld_unit_zero (S := S2048x256) hzero7, View.ld_unit_zero (S := S1x256) hzero7, View.ld_unit_zero (S := S1024x256) hzero7]

/-- At the first reduction step of a row block the accumulator ends at one accumulation over zero. -/
theorem acc7_first (c : Dev nD) (t : Fin cfg7.N) (h0 : t.val % 8 = 0) :
    (outsAt7 V c t.val t.isLt).2 = k7_pay2 (iblk7 V c 0 t) (iblk7 V c 1 t) (k7_pay1 (F := F)) := by
  have h1 : ¬t.val % 8 = 7 := by omega
  rw [outsAt7_A V c t h0 h1]
  dsimp only
  exact sout7_A_0_eq c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)

/-- At every later step it ends at one more accumulation over what the point before left. -/
theorem acc7_step (c : Dev nD) (t : Fin cfg7.N) (h0 : ¬t.val % 8 = 0) :
    (outsAt7 V c t.val t.isLt).2 = k7_pay2 (iblk7 V c 0 t) (iblk7 V c 1 t) (outsAt7 V c (t.val - 1) (Nat.lt_of_le_of_lt (Nat.sub_le _ _) t.isLt)).2 := by
  by_cases h1 : t.val % 8 = 7
  · rw [outsAt7_C V c t h0 h1]
    dsimp only
    exact sout7_C_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2
  · rw [outsAt7_B V c t h0 h1]
    dsimp only
    exact sout7_B_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2

/-- At the last step (where the output block is written back) the block holds the finishing payload of the
    accumulator's final contents and the bias row. -/
theorem after7_out (c : Dev nD) (t : Fin cfg7.N) (h1 : t.val % 8 = 7) :
    (dat7 V c).after 3 t = k7_pay3 (outsAt7 V c t.val t.isLt).2 (iblk7 V c 2 t) := by
  have h0 : ¬t.val % 8 = 0 := by omega
  rw [after7_3, outsAt7_C V c t h0 h1]
  dsimp only
  rw [sout7_C_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2]
  exact out7_C_3_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2

end Cert.KernelIdeal.Fr

end
-- ==== Proof.KI.Region8.lean ====
/-
  Region 8 of the program's main function: the matrix-product kernel of custom call 8, run by its pipeline on a grid whose
  contraction axis has ONE step.  At every grid point the kernel clears its accumulator, adds the product of the
  left block (2048x64) and the right block (64x64) into it, reads it back, adds the bias row (1x64) broadcast
  over the rows, and stores the result (2048x64) into the output block.  Nothing is carried from one point to the next:
  the accumulator is a scratch buffer the region owns at arbitrary contents before and after every point, so the region
  invariant is the constant one (every scoped buffer that is no staging buffer at some contents, the generator register at
  some state).  The output block is written back at every point.

  Everything is stated at a parameter `V`, the buffer contents when the region is entered, and for any float instance.
-/
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether the pipeline fetched it there or
    not: where it did not, the block index has not moved since the last fetch and the body left the block in place.
    For any proof data whose array is the entry contents and whose body keeps the block. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store is of a whole buffer -/

/-- The offsets of every access are zero. -/
theorem hz8 : (![0, 0] : Fin 2 → Nat) = fun _ => 0 := by funext a; fin_cases a <;> rfl

abbrev r8_a : Rect S2048x64 := Rect.unit (s := S2048x64) ![0, 0] S2048x64.size inb_S2048x64_S2048x64_0_0
abbrev r8_b : Rect S64x64 := Rect.unit (s := S64x64) ![0, 0] S64x64.size inb_S64x64_S64x64_0_0
abbrev r8_c : Rect S1x64 := Rect.unit (s := S1x64) ![0, 0] S1x64.size inb_S1x64_S1x64_0_0
abbrev r8_o : Rect S2048x64 := Rect.unit (s := S2048x64) ![0, 0] S2048x64.size inb_S2048x64_S2048x64_0_0

/-! ## The body's two conditions, both true at every point (the contraction axis has one step) -/

/-- "This is the first contraction step", as the kernel computes it from grid coordinate 2. -/
abbrev cond8_0 (i : grid8.Coords) : Prop := (Scalar.cmpi .ne (Scalar.extui (Scalar.cmpi .eq (BitVec.ofNat 32 (i 2).val) 0#32)) 0#32) = 1#1
theorem hcond8_0 : ∀ t : Fin cfg8.N, cond8_0 (grid8.coords t) :=
  (by decide +kernel : ∀ t : Fin grid8.N, cond8_0 (grid8.coords t))

/-- "This is the last contraction step". -/
abbrev cond8_1 (i : grid8.Coords) : Prop := k8_cond2 i = 1#1
theorem hcond8_1 : ∀ t : Fin cfg8.N, cond8_1 (grid8.coords t) :=
  (by decide +kernel : ∀ t : Fin grid8.N, cond8_1 (grid8.coords t))

/-- So no window is idle at any point: the body stores the output block at each. -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel

/-! ## What the body leaves in the output window's buffer -/

/-- The accumulator when it is read back for the output: cleared, then the product of the two blocks added once. -/
def acc8 (x0 : Vec F S2048x64 .f32) (x1 : Vec F S64x64 .f32) : Vec F S2048x64 .f32 :=
  k8_pay2 (View.ld x0 r8_a) (View.ld x1 r8_b) (k8_pay1 (F := F))

/-- The output window's staging buffer after the body, from the input windows' blocks: its one store, of the whole block. -/
def out8_3 (x0 : Vec F S2048x64 .f32) (x1 : Vec F S64x64 .f32) (x2 : Vec F S1x64 .f32) : Vec F S2048x64 .f32 :=
  View.canon [⟨r8_o, k8_pay3 (acc8 x0 x1) (View.ld x2 r8_c)⟩]

/-- That store covers the buffer. -/
theorem storeCover8_3 (p0 : Vec F S2048x64 .f32) (y : S2048x64.Idx) :
    ∃ pc ∈ ([⟨r8_o, p0⟩] : List (View.Piece (Elt F) S2048x64 .f32)), y ∈ pc.1.set :=
  ⟨_, List.mem_singleton_self _, View.mem_set_unit_zero (S := S2048x64) hz8 inb_S2048x64_S2048x64_0_0 y⟩

/-- THE VALUE of the output block: bias row added to (zeros + left block × right block), in the kernel's own arithmetic. -/
theorem out8_3_eq (x0 : Vec F S2048x64 .f32) (x1 : Vec F S64x64 .f32) (x2 : Vec F S1x64 .f32) :
    out8_3 x0 x1 x2 = k8_pay3 (k8_pay2 x0 x1 (k8_pay1 (F := F))) x2 := by
  unfold out8_3 acc8
  refine (View.canon_unit_zero (S := S2048x64) hz8 _ _).trans ?_
  rw [View.ld_unit_zero (S := S2048x64) hz8, View.ld_unit_zero (S := S64x64) hz8, View.ld_unit_zero (S := S1x64) hz8]

/-! ## The body's triple -/

set_option maxHeartbeats 2000000 in
/-- The kernel body on whole memrefs — the three inputs' at their read contents, the output's and the accumulator's at
    anything — runs to the continuation holding the inputs' as they were, the output's at `out8_3` of the inputs', and
    the accumulator's at some contents.  Both conditions hold (`hc0`, `hc1`), so both branches are taken. -/
theorem sound_kernel8 (c : Dev nD) (E : Set ℕ) (i : grid8.Coords) (hc0 : cond8_0 i) (hc1 : cond8_1 i)
    (arg3 : Memref sig .tc .vmem S2048x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S2048x64 .f32) (harg6 : arg6.IsWhole)
    (arg7 : Memref sig .tc .vmem S2048x64 .f32) (harg7 : arg7.IsWhole)
    (x0 : Vec F S2048x64 .f32) (x1 : Vec F S64x64 .f32) (x2 : Vec F S1x64 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out8_3 x0 x1 x2) ∗ (∃ d, owns (c : Thread nD τ) arg7 fullShare d)) -∗ K ⟨⟩))
      ⊢ wp frame (wpE (defs₀ (F := F)) Variants.none c none) E (cc8__matmul_kernel i arg3 harg3 arg4 harg4 arg5 harg5 arg6 harg6 arg7 harg7) K := by
  simp only [cc8__matmul_kernel_eq_skeleton]; unfold cc8__matmul_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitr [HS]
  · iexists _; isplitr
    swap; · iexact H3
    ipureintro
    rw [View.read_writes_eq_canon _ _ _ (storeCover8_3 _)]
    unfold out8_3 acc8
    sl_unfold_words
    simp only [View.readCov_cons_toLoadRect]
    rfl
  iexists _; iexists _; isplitr
  swap; · iexact HS
  ipureintro; rfl

/-! ## The pipeline's proof data -/

/-- The accumulator as the kernel is handed it: the region's own scratch buffer, whole. -/
abbrev scM8 : Memref sig .tc .vmem S2048x64 .f32 := Memref.whole cc8_scratch0

/-- The region invariant with the accumulator taken out of the scoped rest: owned at some contents, beside every other
    scoped buffer (unopened) and the generator register. -/
theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := Pipeline.UD sig nD τ) (Lvl := ℕ) (Val := Elt F) spec8 c [cc8_scratch0]) ∗ (∃ r, prngReg c r)) := by
  unfold Pipeline.ΦA; rw [scopedRest8_split]; simp only [scM8, owns_whole]; try rfl

/-- The proof data of pipeline 8 on core `c`: the arrays as the region finds them; after the body at point `t` each
    input's buffer at its block and the output's at `out8_3` of the input blocks; the constant invariant; nothing owed;
    full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
/-- The output window after the body at point `t`: `out8_3` of the three input blocks there (its value: `out8_3_eq`). -/
theorem after8_out (c : Dev nD) (t : Fin cfg8.N) :
    (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- No window is idle, so the body's post for each is its buffer at what the body leaves. -/
theorem leaves8_0 (c : Dev nD) (t : Fin cfg8.N) :
    (dat8 V c).leavesExact 0 t = owns (c : Thread nD τ) (st8_0 t) fullShare (iblk8 V c 0 t) := by
  unfold Dat.leavesExact; rw [liveAt8_0 t, after8_0]
theorem leaves8_1 (c : Dev nD) (t : Fin cfg8.N) :
    (dat8 V c).leavesExact 1 t = owns (c : Thread nD τ) (st8_1 t) fullShare (iblk8 V c 1 t) := by
  unfold Dat.leavesExact; rw [liveAt8_1 t, after8_1]
theorem leaves8_2 (c : Dev nD) (t : Fin cfg8.N) :
    (dat8 V c).leavesExact 2 t = owns (c : Thread nD τ) (st8_2 t) fullShare (iblk8 V c 2 t) := by
  unfold Dat.leavesExact; rw [liveAt8_2 t, after8_2]
theorem leaves8_3 (c : Dev nD) (t : Fin cfg8.N) :
    (dat8 V c).leavesExact 3 t = owns (c : Thread nD τ) (st8_3 t) fullShare (out8_3 (iblk8 V c 0 t) (iblk8 V c 1 t) (iblk8 V c 2 t)) := by
  unfold Dat.leavesExact; rw [liveAt8_3 t, after8_out]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 2000000 in
/-- The body at any point: the inputs' memrefs hold their blocks, both conditions hold there, the invariant lends the
    accumulator at some contents and takes it back at some contents; the rest of the invariant and what the core owes pass
    through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    leaves8_0, leaves8_1, leaves8_2, leaves8_3,
    show (dat8 V c).Φ t.castSucc = Pipeline.ΦA spec8 c from rfl, PhiA8_eq]
  iintro ⟨⟨⟨HS, Hrest⟩, Hg⟩, Ho, ⟨%d0, H0⟩, ⟨%d1, H1⟩, ⟨%d2, H2⟩, ⟨%d3, H3⟩⟩
  iapply (sound_kernel8 c Set.univ (grid8.coords t) (hcond8_0 t) (hcond8_1 t) _ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point, -/
theorem hin8 (c : Dev nD) : (Pipeline.ΦA spec8 c : sProp 𝕄) ⊢ (dat8 V c).Φ 0 := by
  rw [show (dat8 V c).Φ 0 = Pipeline.ΦA spec8 c from rfl]

/-- and the invariant after the last point is what the region hands back. -/
theorem hout8 (c : Dev nD) : (dat8 V c).Φ (Fin.last cfg8.N) ⊢ (Pipeline.ΦA spec8 c : sProp 𝕄) := by
  rw [show (dat8 V c).Φ (Fin.last cfg8.N) = Pipeline.ΦA spec8 c from rfl]

end Cert.KernelIdeal.Fr

end
-- ==== Proof.KI.Region9Run.lean ====
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9: the accumulating matrix product over eight reduction steps

The grid is (16, 1, 8): point `t` works on row block `t / 8` at reduction step `t % 8`. A scratch accumulator is
carried across the eight steps of a row block: reset to zero and accumulated once at step 0, accumulated at steps
1..6, and at step 7 accumulated and then written (plus bias) to the output block, which is idle at every other
step. The invariant names the accumulator's contents after each point. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not (unfetched, the
    block index has not moved), for any proof data over the entry arrays whose body leaves the block in place. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not (unfetched, the
    block index has not moved), for any proof data over the entry arrays whose body leaves the block in place. -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not (unfetched, the
    block index has not moved), for any proof data over the entry arrays whose body leaves the block in place. -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's two conditionals, in closed form -/

/-- The first conditional (reduction step 0: reset the accumulator), from the grid coordinates. -/
abbrev cond9_0 (i : grid9.Coords) : Prop := (Scalar.cmpi .ne (Scalar.extui (Scalar.cmpi .eq (BitVec.ofNat 32 (i 2).val) 0#32)) 0#32) = 1#1
theorem hcond9_0 : ∀ t : Fin cfg9.N, cond9_0 (grid9.coords t) ↔ t.val % 8 = 0 :=
  (by decide +kernel : ∀ t : Fin grid9.N, cond9_0 (grid9.coords t) ↔ t.val % 8 = 0)

/-- The second conditional (reduction step 7: write the output block). -/
abbrev cond9_1 (i : grid9.Coords) : Prop := k9_cond2 i = 1#1
theorem hcond9_1 : ∀ t : Fin cfg9.N, cond9_1 (grid9.coords t) ↔ t.val % 8 = 7 :=
  (by decide +kernel : ∀ t : Fin grid9.N, cond9_1 (grid9.coords t) ↔ t.val % 8 = 7)

/-! ## Where the windows are idle -/

theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl
/-- At step 0 the output block is idle and not written back. -/
theorem idleAt9_3_A : ∀ t : Fin cfg9.N, cond9_0 (grid9.coords t) → ¬cond9_1 (grid9.coords t) → cfg9.idle 3 (grid9.coords t) = true := by decide +kernel
theorem noFlush9_3_A : ∀ t : Fin cfg9.N, cond9_0 (grid9.coords t) → ¬cond9_1 (grid9.coords t) → (cfg9.win 3).flush t = false := by decide +kernel
/-- At steps 1..6 likewise. -/
theorem idleAt9_3_B : ∀ t : Fin cfg9.N, ¬cond9_0 (grid9.coords t) → ¬cond9_1 (grid9.coords t) → cfg9.idle 3 (grid9.coords t) = true := by decide +kernel
theorem noFlush9_3_B : ∀ t : Fin cfg9.N, ¬cond9_0 (grid9.coords t) → ¬cond9_1 (grid9.coords t) → (cfg9.win 3).flush t = false := by decide +kernel
/-- At step 7 the output block is live. -/
theorem liveAt9_3_C : ∀ t : Fin cfg9.N, ¬cond9_0 (grid9.coords t) → cond9_1 (grid9.coords t) → cfg9.idle 3 (grid9.coords t) = false := by decide +kernel

/-! ## The staging memrefs and the scratch -/

abbrev VO9_3 : View sig .tc .vmem S1024x64 .f32 := (Memref.whole cc9_stg3_0 : Memref sig .tc .vmem S1024x64 .f32).view
abbrev ms9_0 (t : Fin cfg9.N) : Memref sig .tc .vmem S1024x2048 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x64 .f32 := win9_3.stage (cfg9.slots t 3)
abbrev hs9_3 (t : Fin cfg9.N) : (ms9_3 t).IsWhole := hstage9_3 ((cfg9.slots t 3).cast nbuf9_3)
/-- The accumulator: a whole scoped buffer of the kernel's own. -/
abbrev scM9_0 : Memref sig .tc .vmem S1024x64 .f32 := Memref.whole cc9_scratch0
abbrev VS9_0 : View sig .tc .vmem S1024x64 .f32 := scM9_0.view

/-- The region's invariant with the accumulator as a memref owned at some contents; every other scoped buffer
    stays unopened. -/
theorem PhiA9_eq (c : Dev nD) :
    (Pipeline.ΦA spec9 c : sProp 𝕄)
      = iprop(iprop((∃ d, owns (c : Thread nD τ) scM9_0 fullShare d)
          ∗ Pipeline.scopedRestBut (Ix := Unit) (Name := ℕ) (U := Pipeline.UD sig nD τ) (Lvl := ℕ) (Val := Elt F) spec9 c [cc9_scratch0]) ∗ (∃ r, prngReg c r)) := by
  unfold Pipeline.ΦA; rw [scopedRest9_split]; simp only [scM9_0, owns_whole]; try rfl

set_option maxHeartbeats 1000000 in
/-- The body at a point of case A, on whole memrefs: the pieces its stores leave in the output buffer and in the
    accumulator (last first), with the triple that the body runs from the inputs at their contents to the continuation
    holding them unchanged and the stored buffers with those pieces written. -/
noncomputable def kernelRun9_A (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_kernel i arg3 harg3 arg4 harg4 arg5 harg5 arg6 harg6 arg7 harg7) K } := by
  refine ⟨[], ?_, fun xi3 E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case B, on whole memrefs: the pieces its stores leave in the output buffer and in the
    accumulator (last first), with the triple that the body runs from the inputs at their contents to the continuation
    holding them unchanged and the stored buffers with those pieces written. -/
noncomputable def kernelRun9_B (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_kernel i arg3 harg3 arg4 harg4 arg5 harg5 arg6 harg6 arg7 harg7) K } := by
  refine ⟨[], ?_, fun xi3 E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body at a point of case C, on whole memrefs: the pieces its stores leave in the output buffer and in the
    accumulator (last first), with the triple that the body runs from the inputs at their contents to the continuation
    holding them unchanged and the stored buffers with those pieces written. -/
noncomputable def kernelRun9_C (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_kernel i arg3 harg3 arg4 harg4 arg5 harg5 arg6 harg6 arg7 harg7) K } := by
  refine ⟨?_, ?_, fun E K => ?run⟩
  case run =>
    simp only [cc9__matmul_kernel_eq_skeleton]; unfold cc9__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.Region9.lean ====
import proofs.«127812_j6760278524061_1_alg».proof.Proof.KI.Region9Run
import Idealize.ShloMosaic.Lib.Pipeline.Value

/-! # Region 9: the accumulation point by point, the proof data and the body obligation

What each case of the body leaves in the output block's buffer and in the accumulator, the pair of them after every
point by recursion on the point, the invariant naming the accumulator's contents, the obligation case by case, and
each case's stores as the kernel's payload functions of the input blocks. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What case A leaves in the output block's buffer: its pieces read back over junk (no piece: a placeholder nothing consults, the block being idle and not written back at these points). -/
def out9_A_3 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) : Vec F S1024x64 .f32 :=
  VO9_3.read (Elt F) (VO9_3.writes (Elt F) VO9_3.junk (kernelRun9_A c i arg3 harg3 arg4 harg4 arg5 harg5 arg6 harg6 arg7 harg7 hc0 hc1 x0 x1 x2).1)

/-- Case A's pieces for the accumulator tile it, so they cover it. -/
theorem scover9_A_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) (y : S1024x64.Idx) :
    ∃ pc ∈ (kernelRun9_A c i arg3 harg3 arg4 harg4 arg5 harg5 arg6 harg6 arg7 harg7 hc0 hc1 x0 x1 x2).2.1, y ∈ pc.1.set :=
  View.cover_of_tiledL (kernelRun9_A c i arg3 harg3 arg4 harg4 arg5 harg5 arg6 harg6 arg7 harg7 hc0 hc1 x0 x1 x2).2.1 S1024x64.size (by sl_kernel_rfl) y

/-- What case A leaves in the accumulator: its pieces read back over junk. -/
def sout9_A_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) : Vec F S1024x64 .f32 :=
  VS9_0.read (Elt F) (VS9_0.writes (Elt F) VS9_0.junk (kernelRun9_A c i arg3 harg3 arg4 harg4 arg5 harg5 arg6 harg6 arg7 harg7 hc0 hc1 x0 x1 x2).2.1)

/-- What case B leaves in the output block's buffer: its pieces read back over junk (no piece: a placeholder nothing consults, the block being idle and not written back at these points). -/
def out9_B_3 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) : Vec F S1024x64 .f32 :=
  VO9_3.read (Elt F) (VO9_3.writes (Elt F) VO9_3.junk (kernelRun9_B c i arg3 harg3 arg4 harg4 arg5 harg5 arg6 harg6 arg7 harg7 hc0 hc1 x0 x1 x2 xs0).1)

/-- Case B's pieces for the accumulator tile it, so they cover it. -/
theorem scover9_B_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) (y : S1024x64.Idx) :
    ∃ pc ∈ (kernelRun9_B c i arg3 harg3 arg4 harg4 arg5 harg5 arg6 harg6 arg7 harg7 hc0 hc1 x0 x1 x2 xs0).2.1, y ∈ pc.1.set :=
  View.cover_of_tiledL (kernelRun9_B c i arg3 harg3 arg4 harg4 arg5 harg5 arg6 harg6 arg7 harg7 hc0 hc1 x0 x1 x2 xs0).2.1 S1024x64.size (by sl_kernel_rfl) y

/-- What case B leaves in the accumulator: its pieces read back over junk. -/
def sout9_B_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) : Vec F S1024x64 .f32 :=
  VS9_0.read (Elt F) (VS9_0.writes (Elt F) VS9_0.junk (kernelRun9_B c i arg3 harg3 arg4 harg4 arg5 harg5 arg6 harg6 arg7 harg7 hc0 hc1 x0 x1 x2 xs0).2.1)

/-- Case C's one store into the output block covers it. -/
theorem cover9_C_3 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) (y : S1024x64.Idx) :
    ∃ pc ∈ (kernelRun9_C c i arg3 harg3 arg4 harg4 arg5 harg5 arg6 harg6 arg7 harg7 hc0 hc1 x0 x1 x2 xs0).1, y ∈ pc.1.set :=
  View.cover_of_tiledL (kernelRun9_C c i arg3 harg3 arg4 harg4 arg5 harg5 arg6 harg6 arg7 harg7 hc0 hc1 x0 x1 x2 xs0).1 S1024x64.size (by sl_kernel_rfl) y

/-- What case C leaves in the output block's buffer: its pieces read back over junk. -/
def out9_C_3 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) : Vec F S1024x64 .f32 :=
  VO9_3.read (Elt F) (VO9_3.writes (Elt F) VO9_3.junk (kernelRun9_C c i arg3 harg3 arg4 harg4 arg5 harg5 arg6 harg6 arg7 harg7 hc0 hc1 x0 x1 x2 xs0).1)

/-- Case C's pieces for the accumulator tile it, so they cover it. -/
theorem scover9_C_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) (y : S1024x64.Idx) :
    ∃ pc ∈ (kernelRun9_C c i arg3 harg3 arg4 harg4 arg5 harg5 arg6 harg6 arg7 harg7 hc0 hc1 x0 x1 x2 xs0).2.1, y ∈ pc.1.set :=
  View.cover_of_tiledL (kernelRun9_C c i arg3 harg3 arg4 harg4 arg5 harg5 arg6 harg6 arg7 harg7 hc0 hc1 x0 x1 x2 xs0).2.1 S1024x64.size (by sl_kernel_rfl) y

/-- What case C leaves in the accumulator: its pieces read back over junk. -/
def sout9_C_0 (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) : Vec F S1024x64 .f32 :=
  VS9_0.read (Elt F) (VS9_0.writes (Elt F) VS9_0.junk (kernelRun9_C c i arg3 harg3 arg4 harg4 arg5 harg5 arg6 harg6 arg7 harg7 hc0 hc1 x0 x1 x2 xs0).2.1)

/-! ## What the output block's buffer and the accumulator hold after each point -/

/-- The accumulation: after the body at position `n`, the pair (output block's buffer, accumulator) — the case the
    closed forms select at `n`, run at the point's input blocks, the accumulator read at what position `n - 1` left. -/
def outsAt9 (c : Dev nD) : (n : ℕ) → n < cfg9.N → Vec F S1024x64 .f32 × Vec F S1024x64 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h0 : (n + 1) % 8 = 0 then
      if h1 : (n + 1) % 8 = 7 then
        False.elim (by omega)
      else
        (out9_A_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩))
    else
      if h1 : (n + 1) % 8 = 7 then
        (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2)
      else
        (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2)

theorem outsAt9_A (c : Dev nD) (t : Fin cfg9.N) (h0 : t.val % 8 = 0) (h1 : ¬t.val % 8 = 7) :
    outsAt9 V c t.val t.isLt = (out9_A_3 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t), sout9_A_0 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact (dif_pos h0).trans ((dif_neg h1).trans rfl)

theorem outsAt9_B (c : Dev nD) (t : Fin cfg9.N) (h0 : ¬t.val % 8 = 0) (h1 : ¬t.val % 8 = 7) :
    outsAt9 V c t.val t.isLt = (out9_B_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2, sout9_B_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 8 = 0) (h1 : t.val % 8 = 7) :
    outsAt9 V c t.val t.isLt = (out9_C_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2, sout9_C_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left, the other scoped buffers unopened. -/
def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2) ∗ Pipeline.scopedRestBut (Ix := Unit) (Name := ℕ) (U := Pipeline.UD sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9_0 fullShare ((outsAt9 V c n hn).2) ∗ Pipeline.scopedRestBut (Ix := Unit) (Name := ℕ) (U := Pipeline.UD sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9_0 fullShare ((outsAt9 V c (n - 1) (by omega)).2) ∗ Pipeline.scopedRestBut (Ix := Unit) (Name := ℕ) (U := Pipeline.UD sig nD τ) (Lvl := ℕ) (Val := Elt F) spec9 c [cc9_scratch0]) ∗ (∃ r, prngReg c r)) := by
  cases n with
  | zero => exact absurd rfl hz
  | succ n => rfl

/-! ## The proof data -/

/-- The arrays as the region finds them; after the body each input's buffer at its block and the output block's at
    `outsAt9`; the invariant `PhiS9`; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' buffers hold their blocks; the closed forms say which case the point is in; the
    invariant hands the body the accumulator at what the point before left (at anything before the first point) and
    takes it back at this point's contents; at steps 0..6 the output block's buffer is handed back untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  have hN : t.val < 128 := lt_of_lt_of_eq t.isLt (show cfg9.N = 128 from N_9)
  by_cases h0 : t.val % 8 = 0
  · by_cases h1 : t.val % 8 = 7
    · exfalso; omega
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [show (dat9 V c).leavesExact 2 t = owns (c : Thread nD τ) (ms9_2 t) fullShare ((dat9 V c).after 2 t) from by
        unfold Dat.leavesExact; rw [liveAt9_2 t], after9_2]
      rw [Dat.leavesExact_idle (dat9 V c) 3 t (idleAt9_3_A t ((hcond9_0 t).mpr h0) (fun h => h1 ((hcond9_1 t).mp h))) (noFlush9_3_A t ((hcond9_0 t).mpr h0) (fun h => h1 ((hcond9_1 t).mp h)))]
      rw [outsAt9_A V c t h0 h1]
      unfold sout9_A_0; (try dsimp only)
      by_cases hz : t.val = 0
      · rw [PhiS9_castSucc V c t, PhiS9_zero V c _ _ hz, PhiA9_eq]
        iintro ⟨⟨⟨HS0, Hrest⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover9_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS9_castSucc V c t, PhiS9_pos V c _ _ hz]
        iintro ⟨⟨⟨HS0, Hrest⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover9_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 8 = 7
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [show (dat9 V c).leavesExact 2 t = owns (c : Thread nD τ) (ms9_2 t) fullShare ((dat9 V c).after 2 t) from by
        unfold Dat.leavesExact; rw [liveAt9_2 t], after9_2]
      rw [show (dat9 V c).leavesExact 3 t = owns (c : Thread nD τ) (ms9_3 t) fullShare ((dat9 V c).after 3 t) from by
        unfold Dat.leavesExact; rw [liveAt9_3_C t (fun h => h0 ((hcond9_0 t).mp h)) ((hcond9_1 t).mpr h1)], after9_3]
      rw [outsAt9_C V c t h0 h1]
      unfold out9_C_3 sout9_C_0; (try dsimp only)
      have hz : t.val ≠ 0 := by omega
      rw [PhiS9_castSucc V c t, PhiS9_pos V c _ _ hz]
      iintro ⟨⟨⟨HS0, Hrest⟩, Hg⟩, Ho, ⟨%d0, H0⟩, ⟨%d1, H1⟩, ⟨%d2, H2⟩, ⟨%d3, H3⟩⟩
      iapply ((kernelRun9_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover9_C_3 c _ _ _ _ _ _ _ _ _ _ _ _ _ _ _ _ _)
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [show (dat9 V c).leavesExact 2 t = owns (c : Thread nD τ) (ms9_2 t) fullShare ((dat9 V c).after 2 t) from by
        unfold Dat.leavesExact; rw [liveAt9_2 t], after9_2]
      rw [Dat.leavesExact_idle (dat9 V c) 3 t (idleAt9_3_B t (fun h => h0 ((hcond9_0 t).mp h)) (fun h => h1 ((hcond9_1 t).mp h))) (noFlush9_3_B t (fun h => h0 ((hcond9_0 t).mp h)) (fun h => h1 ((hcond9_1 t).mp h)))]
      rw [outsAt9_B V c t h0 h1]
      unfold sout9_B_0; (try dsimp only)
      have hz : t.val ≠ 0 := by omega
      rw [PhiS9_castSucc V c t, PhiS9_pos V c _ _ hz]
      iintro ⟨⟨⟨HS0, Hrest⟩, Hg⟩, Ho, ⟨%d0, H0⟩, ⟨%d1, H1⟩, ⟨%d2, H2⟩, ⟨%d3, H3⟩⟩
      iapply ((kernelRun9_B c (grid9.coords t) _ _ _ _ _ _ _ _ _ _ (fun h => h0 ((hcond9_0 t).mp h)) (fun h => h1 ((hcond9_1 t).mp h)) (iblk9 V c 0 t) (iblk9 V c 1 t) (iblk9 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : (Pipeline.ΦA spec9 c : sProp 𝕄) ⊢ (dat9 V c).Φ 0 := by
  rw [show (dat9 V c).Φ 0 = PhiS9 V c 0 (Nat.zero_le _) from rfl, PhiS9_zero V c 0 _ rfl]
  try exact Idealize.SL.BI.Entails.refl _

/-- After any point the invariant gives the launch's form back: the accumulator's named contents are forgotten. -/
theorem Phi_out9 (c : Dev nD) (t : Fin (cfg9.N + 1)) (ht : t.val ≠ 0) : (dat9 V c).Φ t ⊢ (Pipeline.ΦA spec9 c : sProp 𝕄) := by
  rw [show (dat9 V c).Φ t = PhiS9 V c t.val (Nat.le_of_lt_succ t.isLt) from rfl, PhiS9_pos V c _ _ ht, PhiA9_eq]
  iintro ⟨⟨HS0, Hrest⟩, Hg⟩
  isplitl [HS0 Hrest]
  · isplitl [HS0]
    · iexists _; iexact HS0
    iexact Hrest
  iexact Hg

theorem hout9 (c : Dev nD) : (dat9 V c).Φ (Fin.last cfg9.N) ⊢ (Pipeline.ΦA spec9 c : sProp 𝕄) :=
  Phi_out9 V c _ (by rw [Fin.val_last]; have : cfg9.N = 128 := N_9; omega)

/-! ## The values: each case's stores as the kernel's payload functions -/

theorem hzero9 : (![0, 0] : Fin 2 → Nat) = fun _ => 0 := funext fun a => by fin_cases a <;> rfl

/-- Step 0 leaves in the accumulator one accumulation over the zero block: the reset's store is read back by the
    accumulating load. -/
theorem sout9_A_0_eq (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : cond9_0 i) (hc1 : ¬cond9_1 i)
    (x0 : Vec F S1024x2048 .bf16) (x1 : Vec F S2048x64 .f32) (x2 : Vec F S1x64 .f32) :
    sout9_A_0 c i arg3 harg3 arg4 harg4 arg5 harg5 arg6 harg6 arg7 harg7 hc0 hc1 x0 x1 x2 = k9_pay2 x0 x1 (k9_pay1 (F := F)) := by
  unfold sout9_A_0
  rw [View.read_writes_eq_canon _ _ _ (scover9_A_0 c i arg3 harg3 arg4 harg4 arg5 harg5 arg6 harg6 arg7 harg7 hc0 hc1 x0 x1 x2)]
  unfold kernelRun9_A
  dsimp only
  sl_unfold_words
  rw [View.canon_cons_unit_zero (S := S1024x64) hzero9, View.readCov_unit_zero (S := S1024x64) _ hzero9]
  simp only [View.readAt_eq_ld, harg3.read_unread, harg4.read_unread, View.ld_unit_zero (S := S1024x2048) hzero9, View.ld_unit_zero (S := S2048x64) hzero9, View.ld_unit_zero (S := S1x64) hzero9, View.ld_unit_zero (S := S1024x64) hzero9]

/-- Steps 1..6 leave one more accumulation over what the accumulator held. -/
theorem sout9_B_0_eq (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : ¬cond9_1 i)
    (x0 : Vec F S1024x2048 .bf16) (x1 : Vec F S2048x64 .f32) (x2 : Vec F S1x64 .f32) (xs0 : Vec F S1024x64 .f32) :
    sout9_B_0 c i arg3 harg3 arg4 harg4 arg5 harg5 arg6 harg6 arg7 harg7 hc0 hc1 x0 x1 x2 xs0 = k9_pay2 x0 x1 xs0 := by
  unfold sout9_B_0
  rw [View.read_writes_eq_canon _ _ _ (scover9_B_0 c i arg3 harg3 arg4 harg4 arg5 harg5 arg6 harg6 arg7 harg7 hc0 hc1 x0 x1 x2 xs0)]
  unfold kernelRun9_B
  dsimp only
  sl_unfold_words
  rw [View.canon_unit_zero hzero9]
  simp only [View.readAt_eq_ld, harg3.read_unread, harg4.read_unread, harg7.read_unread, View.ld_unit_zero (S := S1024x2048) hzero9, View.ld_unit_zero (S := S2048x64) hzero9, View.ld_unit_zero (S := S1x64) hzero9, View.ld_unit_zero (S := S1024x64) hzero9]

/-- Step 7 accumulates likewise. -/
theorem sout9_C_0_eq (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) :
    sout9_C_0 c i arg3 harg3 arg4 harg4 arg5 harg5 arg6 harg6 arg7 harg7 hc0 hc1 x0 x1 x2 xs0 = k9_pay2 x0 x1 xs0 := by
  unfold sout9_C_0
  rw [View.read_writes_eq_canon _ _ _ (scover9_C_0 c i arg3 harg3 arg4 harg4 arg5 harg5 arg6 harg6 arg7 harg7 hc0 hc1 x0 x1 x2 xs0)]
  unfold kernelRun9_C
  dsimp only
  sl_unfold_words
  rw [View.canon_unit_zero hzero9]
  simp only [View.readAt_eq_ld, harg3.read_unread, harg4.read_unread, harg7.read_unread, View.ld_unit_zero (S := S1024x2048) hzero9, View.ld_unit_zero (S := S2048x64) hzero9, View.ld_unit_zero (S := S1x64) hzero9, View.ld_unit_zero (S := S1024x64) hzero9]

/-- Step 7 then stores into the output block the finishing payload of the accumulator it just wrote and the bias row. -/
theorem out9_C_3_eq (c : Dev nD) (i : grid9.Coords) (arg3 : Memref sig .tc .vmem S1024x2048 .bf16) (harg3 : arg3.IsWhole) (arg4 : Memref sig .tc .vmem S2048x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (hc0 : ¬cond9_0 i) (hc1 : cond9_1 i)
    (x0 : Vec F S1024x2048 .bf16) (x1 : Vec F S2048x64 .f32) (x2 : Vec F S1x64 .f32) (xs0 : Vec F S1024x64 .f32) :
    out9_C_3 c i arg3 harg3 arg4 harg4 arg5 harg5 arg6 harg6 arg7 harg7 hc0 hc1 x0 x1 x2 xs0 = k9_pay3 (k9_pay2 x0 x1 xs0) x2 := by
  unfold out9_C_3
  rw [View.read_writes_eq_canon _ _ _ (cover9_C_3 c i arg3 harg3 arg4 harg4 arg5 harg5 arg6 harg6 arg7 harg7 hc0 hc1 x0 x1 x2 xs0)]
  unfold kernelRun9_C
  dsimp only
  sl_unfold_words
  rw [View.canon_unit_zero hzero9, View.readCov_unit_zero (S := S1024x64) _ hzero9]
  simp only [View.readAt_eq_ld, harg3.read_unread, harg4.read_unread, harg5.read_unread, harg7.read_unread, View.ld_unit_zero (S := S1024x2048) hzero9, View.ld_unit_zero (S := S2048x64) hzero9, View.ld_unit_zero (S := S1x64) hzero9, View.ld_unit_zero (S := S1024x64) hzero9]

/-- At the first reduction step of a row block the accumulator ends at one accumulation over zero. -/
theorem acc9_first (c : Dev nD) (t : Fin cfg9.N) (h0 : t.val % 8 = 0) :
    (outsAt9 V c t.val t.isLt).2 = k9_pay2 (iblk9 V c 0 t) (iblk9 V c 1 t) (k9_pay1 (F := F)) := by
  have h1 : ¬t.val % 8 = 7 := by omega
  rw [outsAt9_A V c t h0 h1]
  dsimp only
  exact sout9_A_0_eq c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)

/-- At every later step it ends at one more accumulation over what the point before left. -/
theorem acc9_step (c : Dev nD) (t : Fin cfg9.N) (h0 : ¬t.val % 8 = 0) :
    (outsAt9 V c t.val t.isLt).2 = k9_pay2 (iblk9 V c 0 t) (iblk9 V c 1 t) (outsAt9 V c (t.val - 1) (Nat.lt_of_le_of_lt (Nat.sub_le _ _) t.isLt)).2 := by
  by_cases h1 : t.val % 8 = 7
  · rw [outsAt9_C V c t h0 h1]
    dsimp only
    exact sout9_C_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2
  · rw [outsAt9_B V c t h0 h1]
    dsimp only
    exact sout9_B_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2

/-- At the last step (where the output block is written back) the block holds the finishing payload of the
    accumulator's final contents and the bias row. -/
theorem after9_out (c : Dev nD) (t : Fin cfg9.N) (h1 : t.val % 8 = 7) :
    (dat9 V c).after 3 t = k9_pay3 (outsAt9 V c t.val t.isLt).2 (iblk9 V c 2 t) := by
  have h0 : ¬t.val % 8 = 0 := by omega
  rw [after9_3, outsAt9_C V c t h0 h1]
  dsimp only
  rw [sout9_C_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2]
  exact out9_C_3_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2

end Cert.KernelIdeal.Fr

end
-- ==== Proof.KI.Region10.lean ====
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 10 of @main: custom_call 10, `cc10__ssT_kernel` (pipeline 10), at the entry contents `V`

The kernel computes one 2048×1024 block of the product S·Sᵀ per grid point (i, j) of an 8×16 grid: it reads rows
2048·i … of S through window 0 and rows 1024·j … of S through window 1 — BOTH windows stage the same array —, and
stores the block through window 2, which is written back at every point. No scratch, no branch: the invariant is the
constant `ΦA`. Because the two input windows share their array, each holds HALF of that array's share
(`fullShare.left`, `fullShare.right`), and the region's entry and exit split and rejoin the array's full share. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not (it is fetched
    only where the row block changes), for any proof data whose array is `V`'s and whose body leaves the block in place. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point. -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_in0 : Rect S2048x64 := Rect.unit (s := S2048x64) ![0, 0] S2048x64.size inb_S2048x64_S2048x64_0_0
abbrev r10_in1 : Rect S1024x64 := Rect.unit (s := S1024x64) ![0, 0] S1024x64.size inb_S1024x64_S1024x64_0_0
abbrev r10_0 : Rect S2048x1024 := Rect.unit (s := S2048x1024) ![0, 0] S2048x1024.size inb_S2048x1024_S2048x1024_0_0

/-! ## What the body leaves in the output window's buffer -/

/-- Window 2's staging buffer after the body, from the input windows' blocks: its one store, of the product of the
    first block (rounded to bf16) with the transpose of the second (rounded to bf16), over the whole buffer. -/
def out10_2 (x0 : Vec F S2048x64 .f32) (x1 : Vec F S1024x64 .f32) : Vec F S2048x1024 .f32 :=
  View.canon [⟨r10_0, k10_pay1 (View.ld x0 r10_in0) (View.ld x1 r10_in1)⟩]

/-- The store tiles the buffer, so it covers it. -/
theorem cover10_2 (p0 : Vec F S2048x1024 .f32) (y : S2048x1024.Idx) :
    ∃ pc ∈ ([⟨r10_0, p0⟩] : List (View.Piece (Elt F) S2048x1024 .f32)), y ∈ pc.1.set :=
  View.cover_of_tiled [⟨r10_0, p0⟩] S2048x1024.size (by rfl) y

/-! ## The body's triple -/

set_option maxHeartbeats 1000000 in
/-- The kernel body on whole staging memrefs, the inputs' at read contents `x0`, `x1` and the output's at anything,
    runs to the continuation holding the inputs' as they were and the output's at `out10_2 x0 x1`. -/
theorem sound_kernel10 (c : Dev nD) (E : Set ℕ) (i : grid10.Coords) (arg2 : Memref sig .tc .vmem S2048x64 .f32) (harg2 : arg2.IsWhole)
    (arg3 : Memref sig .tc .vmem S1024x64 .f32) (harg3 : arg3.IsWhole) (arg4 : Memref sig .tc .vmem S2048x1024 .f32) (harg4 : arg4.IsWhole)
    (x0 : Vec F S2048x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out10_2 x0 x1)) -∗ K ⟨⟩))
      ⊢ wp frame (wpE (defs₀ (F := F)) Variants.none c none) E (cc10__ssT_kernel i arg2 harg2 arg3 harg3 arg4 harg4) K := by
  simp only [cc10__ssT_kernel_eq_skeleton]; unfold cc10__ssT_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core `c`: the arrays as the region finds them (`V`); after the body at point `t`
    each input's buffer at its block and the output's at `out10_2` of the input blocks; the invariant the constant
    `ΦA` (the scoped rest and the generator register, untouched); nothing owed. The two input windows read ONE array:
    each holds half of its share, the output window its array's full share. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q w := match w with
    | ⟨0, _⟩ => fullShare.left
    | ⟨1, _⟩ => fullShare.right
    | ⟨2, _⟩ => fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- The invariant is the constant `ΦA`: it is what the region hands in, and what it hands back. -/
theorem hin10 (c : Dev nD) : (Pipeline.ΦA spec10 c : sProp 𝕄) ⊢ (dat10 V c).Φ 0 := Entails.refl _
theorem hout10 (c : Dev nD) : (dat10 V c).Φ (Fin.last cfg10.N) ⊢ (Pipeline.ΦA spec10 c : sProp 𝕄) := Entails.refl _

/-! ## The value the output window holds -/

theorem zero2 : ∀ a : Fin 2, (![0, 0] : Fin 2 → ℕ) a = 0 := by decide

/-- The rectangle of the one store is the whole buffer, and so are the rectangles of the two loads: each places every
    index at itself. -/
theorem r10_0_emb (x : r10_0.shape.Idx) : r10_0.emb x = x := by
  funext a; apply Fin.ext
  have h : ((r10_0.emb x) a : ℕ) = r10_0.off a + r10_0.stride a * (x a) := rfl
  have h0 : r10_0.off a = 0 := zero2 a
  have h1 : r10_0.stride a = 1 := rfl
  rw [h, h0, h1]; omega
theorem r10_in0_idx (x : r10_in0.shape.Idx) : r10_in0.idx x = x := by
  funext a; apply Fin.ext
  have h : ((r10_in0.idx x) a : ℕ) = r10_in0.off a + r10_in0.stride a * (x a) := rfl
  have h0 : r10_in0.off a = 0 := zero2 a
  have h1 : r10_in0.stride a = 1 := rfl
  rw [h, h0, h1]; omega
theorem r10_in1_idx (x : r10_in1.shape.Idx) : r10_in1.idx x = x := by
  funext a; apply Fin.ext
  have h : ((r10_in1.idx x) a : ℕ) = r10_in1.off a + r10_in1.stride a * (x a) := rfl
  have h0 : r10_in1.off a = 0 := zero2 a
  have h1 : r10_in1.stride a = 1 := rfl
  rw [h, h0, h1]; omega

/-- What the body leaves in the output buffer IS the kernel's payload of the two input blocks: the store covers the
    buffer, and the loads read the whole input buffers. -/
theorem out10_2_eq (x0 : Vec F S2048x64 .f32) (x1 : Vec F S1024x64 .f32) : out10_2 x0 x1 = k10_pay1 x0 x1 := by
  have e0 : View.ld x0 r10_in0 = x0 := funext fun x => congrArg x0 (r10_in0_idx x)
  have e1 : View.ld x1 r10_in1 = x1 := funext fun x => congrArg x1 (r10_in1_idx x)
  funext y
  unfold out10_2
  rw [e0, e1]
  calc View.canon [(⟨r10_0, k10_pay1 x0 x1⟩ : View.Piece (Elt F) S2048x1024 .f32)] y
      = View.canon [(⟨r10_0, k10_pay1 x0 x1⟩ : View.Piece (Elt F) S2048x1024 .f32)] (r10_0.emb y) := by rw [r10_0_emb]
    _ = k10_pay1 x0 x1 y := View.canon_cons_emb r10_0 _ [] y

/-- The output window after the body at point `t` (it is written back at every point): the product block of the
    two input blocks. -/
theorem after10_out (c : Dev nD) (t : Fin cfg10.N) :
    (dat10 V c).after 2 t = k10_pay1 (iblk10 V c 0 t) (iblk10 V c 1 t) := by
  rw [after10_2, out10_2_eq]

/-! ## Entry and exit: the shared array's share split among the two windows on it, and rejoined -/

/-- The buffers behind the windows' arrays: the shared input array and the output array. -/
theorem arrBufs10_eq (c : Dev nD) (W : (b : Ref sig .tc) → Buf (Elt F) ((c : Thread nD τ).loc b)) :
    (Pipeline.arrBufs (Ix := Unit) (Name := ℕ) (U := Pipeline.UD sig nD τ) (Lvl := ℕ) spec10 c W : sProp 𝕄)
      = iprop((((c : Thread nD τ).loc main_v82) ↦{fullShare} W main_v82) ∗ (((c : Thread nD τ).loc main_v83) ↦{fullShare} W main_v83)) := by
  unfold Pipeline.arrBufs
  rw [BI.bigSep_eq_bigSepL_of_eq [main_v82, main_v83] (by decide) (by decide)]; rfl

/-- The pipeline's arrays at contents `Fs`, window by window: the two input windows hold the two halves of the shared
    array's share, the output window its array's full share. -/
theorem arrays10_eq (c : Dev nD) (Fs : (w : Fin cfg10.W) → Buf (Elt F) ((cfg10.win w).arr.view.loc (c : Thread nD τ))) :
    (dat10 V c).arrays Fs
      = iprop((((c : Thread nD τ).loc main_v82) ↦{fullShare.left} Fs 0) ∗ (((c : Thread nD τ).loc main_v82) ↦{fullShare.right} Fs 1)
          ∗ (((c : Thread nD τ).loc main_v83) ↦{fullShare} Fs 2)) := by
  unfold Dat.arrays
  rw [bigSep_W10, (arr_whole10 0).set_eq_univ, (arr_whole10 2).set_eq_univ]
  rfl

/-- A core's unscoped buffers at contents `W` are the buffers behind pipeline 10's arrays at `W` and the rest. -/
theorem unscopedBufs_split10 (c : Dev nD) (W : (b : Ref sig .tc) → Buf (Elt F) ((c : Thread nD τ).loc b)) :
    (unscopedBufs c W : sProp 𝕄)
      = iprop((Pipeline.arrBufs (Ix := Unit) (Name := ℕ) (U := Pipeline.UD sig nD τ) (Lvl := ℕ) spec10 c W : sProp 𝕄)
          ∗ Pipeline.unscopedRest (Ix := Unit) (Name := ℕ) (U := Pipeline.UD sig nD τ) (Lvl := ℕ) spec10 c W) :=
  Pipeline.unscopedBufs_split₀ cfgs 10 winFacts₀10.arr_unscoped c W

/-- ENTRY, the arrays' part: a core's unscoped buffers at contents `V c` are the pipeline's arrays at the proof data's
    entry contents — the shared input array's full share dealt in halves to the two windows on it — and the unscoped rest. -/
theorem arrays_of_unscopedBufs10 (c : Dev nD) :
    (unscopedBufs c (V c) : sProp 𝕄)
      ⊢ iprop((dat10 V c).arrays ((dat10 V c).arrAt · 0) ∗ Pipeline.unscopedRest (Ix := Unit) (Name := ℕ) (U := Pipeline.UD sig nD τ) (Lvl := ℕ) spec10 c (V c)) := by
  rw [unscopedBufs_split10, arrBufs10_eq, arrays10_eq]
  iintro ⟨⟨⟨H0, H1⟩, H2⟩, Hr⟩
  isplitr [Hr]
  · isplitl [H0]; · iexact H0
    isplitl [H1]; · iexact H1
    iexact H2
  iexact Hr

/-- Windows 0 and 1 read their array: it ends as the region found it. -/
theorem arrAt10_0 (c : Dev nD) (n : ℕ) : (dat10 V c).arrAt 0 n = V c main_v82 := (dat10 V c).arrAt_in 0 rfl n
theorem arrAt10_1 (c : Dev nD) (n : ℕ) : (dat10 V c).arrAt 1 n = V c main_v82 := (dat10 V c).arrAt_in 1 rfl n

/-- EXIT, the arrays' part: the pipeline's arrays at their final contents — the two halves of the shared input array's
    share rejoined — and the unscoped rest at `V c` are the core's unscoped buffers at any valuation `V'` that has the
    arrays at those contents and agrees with `V c` off them. -/
theorem unscopedBufs_of_arrays10 (c : Dev nD) (V' : (b : Ref sig .tc) → Buf (Elt F) ((c : Thread nD τ).loc b))
    (hF : ∀ w, (dat10 V c).arrAt w cfg10.N = V' (Pipeline.arrRef spec10 w))
    (hrest : ∀ b, b ∉ Finset.univ.image (Pipeline.arrRef spec10) → V' b = V c b) :
    iprop((dat10 V c).arrays ((dat10 V c).arrAt · cfg10.N) ∗ Pipeline.unscopedRest (Ix := Unit) (Name := ℕ) (U := Pipeline.UD sig nD τ) (Lvl := ℕ) spec10 c (V c))
      ⊢ (unscopedBufs c V' : sProp 𝕄) := by
  have hr : (Pipeline.unscopedRest (Ix := Unit) (Name := ℕ) (U := Pipeline.UD sig nD τ) (Lvl := ℕ) spec10 c (V c) : sProp 𝕄)
      = Pipeline.unscopedRest spec10 c V' := by
    unfold Pipeline.unscopedRest
    exact bigSep_congr fun b hb => by rw [hrest b (Finset.mem_sdiff.mp hb).2]
  have h0 : (dat10 V c).arrAt 0 cfg10.N = V' main_v82 := hF 0
  have h1 : (dat10 V c).arrAt 1 cfg10.N = V' main_v82 := hF 1
  have h2 : (dat10 V c).arrAt 2 cfg10.N = V' main_v83 := hF 2
  rw [unscopedBufs_split10, arrBufs10_eq, arrays10_eq, hr, h0, h1, h2]
  iintro ⟨⟨H0, H1, H2⟩, Hr⟩
  isplitr [Hr]
  · isplitr [H2]
    · isplitl [H0]; · iexact H0
      iexact H1
    iexact H2
  iexact Hr

/-- Two windows on one array end at the same contents (what the region found there). -/
theorem arrAt10_heq (c : Dev nD) (w w' : Fin 3) (e : Pipeline.arrRef spec10 w' = Pipeline.arrRef spec10 w) :
    HEq ((dat10 V c).arrAt w' cfg10.N) ((dat10 V c).arrAt w cfg10.N) := by
  fin_cases w <;> fin_cases w'
  · exact HEq.rfl
  · exact heq_of_eq ((arrAt10_1 V c _).trans (arrAt10_0 V c _).symm)
  · exact absurd e (by decide)
  · exact heq_of_eq ((arrAt10_0 V c _).trans (arrAt10_1 V c _).symm)
  · exact HEq.rfl
  · exact absurd e (by decide)
  · exact absurd e (by decide)
  · exact absurd e (by decide)
  · exact HEq.rfl

/-- The region's exit valuation at a window's array is that window's final contents, although two windows share an
    array: both end at what the region found there. -/
theorem withArrays_arr10 (c : Dev nD) (W : Valuation τ sig (Elt F)) (w : Fin cfg10.W) :
    Pipeline.withArrays spec10 c W (fun w => (dat10 V c).arrAt w cfg10.N) (Proc.devRef .tc (Pipeline.arrRef spec10 w))
      = (dat10 V c).arrAt w cfg10.N := by
  unfold Pipeline.withArrays
  have h : ∃ w', Proc.devRef .tc (Pipeline.arrRef spec10 w') = Proc.devRef (τ := τ) .tc (Pipeline.arrRef spec10 w) := ⟨w, rfl⟩
  rw [dif_pos h]
  exact cast_eq_iff_heq.mpr (arrAt10_heq V c w h.choose (Proc.devRef_injective _ h.choose_spec))

end Cert.KernelIdeal.Fr

end
-- ==== Proof.KI.RunW.lean ====
/- The buffer contents at every boundary between the segments of @main — host stretches and kernel regions in
   order — as a fold from the launch memory: a host stretch leaves `StableHlo.after` of its operations, a region leaves
   its arrays at what its write-backs make of them and every other buffer untouched. A stretch changes only its
   operations' result buffers and a region only its output array, so the fold read at any other buffer — an argument
   array in particular — walks back to an earlier boundary. Then the proof data of all eleven pipelines, each at its
   region's entry contents, and the thread state that rides through the segments. -/
import proofs.«127812_j6760278524061_1_alg».proof.Proof.KI.Region0
import proofs.«127812_j6760278524061_1_alg».proof.Proof.KI.Region1
import proofs.«127812_j6760278524061_1_alg».proof.Proof.KI.Region2
import proofs.«127812_j6760278524061_1_alg».proof.Proof.KI.Region3
import proofs.«127812_j6760278524061_1_alg».proof.Proof.KI.Region4
import proofs.«127812_j6760278524061_1_alg».proof.Proof.KI.Region5
import proofs.«127812_j6760278524061_1_alg».proof.Proof.KI.Region6
import proofs.«127812_j6760278524061_1_alg».proof.Proof.KI.Region7
import proofs.«127812_j6760278524061_1_alg».proof.Proof.KI.Region8
import proofs.«127812_j6760278524061_1_alg».proof.Proof.KI.Region9
import proofs.«127812_j6760278524061_1_alg».proof.Proof.KI.Region10
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the host stretches write, and that they allocate nothing -/

set_option maxHeartbeats 40000000 in
/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_cst_5, main_v26, main_c_6, main_v27, main_v28, main_c_7, main_v29, main_v30, main_v31, main_c_8, main_v32, main_v33, main_c_9, main_v34, main_v35, main_v36, main_v37, main_v38, main_v39, main_v40, main_v41, main_v42, main_c_10, main_v43, main_v44, main_c_11, main_v45, main_v46, main_v47, main_c_12, main_v48, main_v49, main_c_13, main_v50, main_v51, main_v52, main_v53, main_v54, main_v55, main_v56, main_v57, main_cst_14, main_v58, main_v59]
set_option maxHeartbeats 40000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v61]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_cst_15, main_v63, main_v64]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v66]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_cst_16, main_v68, main_v69]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v71]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps6` allocates a buffer. -/
theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_cst_17, main_v73, main_v74]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps7` allocates a buffer. -/
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v76]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps8` allocates a buffer. -/
theorem hostOps8_fresh : (hostOps8 : List (HloOp τ sig (Elt F))).Forall fun op => op.fresh = ∅ := by
  simp only [List.Forall]; repeat' constructor
/-- The references `hostOps8`'s operations write. -/
abbrev hostOps8_W : List (Ref sig .tc) := [main_cst_18, main_v78, main_v79]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- No operation of `hostOps9` allocates a buffer. -/
theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v81]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg)

/-! ## The buffer contents at each segment boundary -/

/-- Core `c`'s buffers at launch. -/
noncomputable abbrev W0 : Dev nD → Valuation τ sig (Elt F) := fun c b => (s₀ m ρ).mem ((c : Dev nD), b)

/-- After the host operations `hostOps0`: what region 0 is entered from. -/
noncomputable abbrev W1 : Dev nD → Valuation τ sig (Elt F) := fun c => StableHlo.after hostOps0 (W0 m ρ c)
/-- The same contents read at the TensorCore's references. -/
noncomputable abbrev V1 : (c : Dev nD) → (b : Ref sig .tc) → Buf (Elt F) ((c : Thread nD τ).loc b) := fun c b => W1 m ρ c b
/-- A buffer no operation of `hostOps0` writes keeps its contents over the stretch. -/
theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb

/-- When region 0 ends: its arrays at what the write-backs leave (an input as entered, an output with every
    written block folded in), every other buffer as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
noncomputable abbrev V2 : (c : Dev nD) → (b : Ref sig .tc) → Buf (Elt F) ((c : Thread nD τ).loc b) := fun c b => W2 m ρ c b
/-- Region 0's arrays hold what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 writes its output array `main_v60` only: every other buffer leaves the region as it entered it (an input
    window's array because the pipeline never writes an input back, any other buffer because the region does not touch it). -/
theorem W2_keep (c : Dev nD) (b : Ref sig .tc) (hb : b ≠ main_v60) : W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  by_cases h2 : b = main_v59
  · subst h2; exact (W2_arr m ρ c 2).trans (((dat0 (V1 m ρ) c).arrAt_in 2 rfl _).trans (A_eq0 (V1 m ρ) c 2))
  exact W2_of_ne m ρ c b fun | 0 => Ne.symm h0 | 1 => Ne.symm h1 | 2 => Ne.symm h2 | 3 => Ne.symm hb | ⟨_ + 4, h⟩ => absurd h (Nat.not_lt.2 (Nat.le_add_left _ _))
/-- Region 0's output array ends at its write-backs' fold. -/
theorem W2_out (c : Dev nD) : W2 m ρ c (Proc.devRef .tc main_v60) = (dat0 (V1 m ρ) c).arrAt 3 cfg0.N := W2_arr m ρ c 3

/-- After the host operations `hostOps1`: what region 1 is entered from. -/
noncomputable abbrev W3 : Dev nD → Valuation τ sig (Elt F) := fun c => StableHlo.after hostOps1 (W2 m ρ c)
/-- The same contents read at the TensorCore's references. -/
noncomputable abbrev V3 : (c : Dev nD) → (b : Ref sig .tc) → Buf (Elt F) ((c : Thread nD τ).loc b) := fun c b => W3 m ρ c b
/-- A buffer no operation of `hostOps1` writes keeps its contents over the stretch. -/
theorem W3_keep (c : Dev nD) (b : Ref sig .tc) (hb : b ∉ hostOps1_W) : W3 m ρ c (Proc.devRef .tc b) = W2 m ρ c (Proc.devRef .tc b) :=
  StableHlo.after_of_writes_sub hostOps1 _ hostOps1_writes hb

/-- When region 1 ends: its arrays at what the write-backs leave (an input as entered, an output with every
    written block folded in), every other buffer as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the TensorCore's references. -/
noncomputable abbrev V4 : (c : Dev nD) → (b : Ref sig .tc) → Buf (Elt F) ((c : Thread nD τ).loc b) := fun c b => W4 m ρ c b
/-- Region 1's arrays hold what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 writes its output array `main_v62` only: every other buffer leaves the region as it entered it (an input
    window's array because the pipeline never writes an input back, any other buffer because the region does not touch it). -/
theorem W4_keep (c : Dev nD) (b : Ref sig .tc) (hb : b ≠ main_v62) : W4 m ρ c (Proc.devRef .tc b) = W3 m ρ c (Proc.devRef .tc b) := by
  by_cases h0 : b = main_v57
  · subst h0; exact (W4_arr m ρ c 0).trans (((dat1 (V3 m ρ) c).arrAt_in 0 rfl _).trans (A_eq1 (V3 m ρ) c 0))
  by_cases h1 : b = main_v60
  · subst h1; exact (W4_arr m ρ c 1).trans (((dat1 (V3 m ρ) c).arrAt_in 1 rfl _).trans (A_eq1 (V3 m ρ) c 1))
  by_cases h2 : b = main_v61
  · subst h2; exact (W4_arr m ρ c 2).trans (((dat1 (V3 m ρ) c).arrAt_in 2 rfl _).trans (A_eq1 (V3 m ρ) c 2))
  exact W4_of_ne m ρ c b fun | 0 => Ne.symm h0 | 1 => Ne.symm h1 | 2 => Ne.symm h2 | 3 => Ne.symm hb | ⟨_ + 4, h⟩ => absurd h (Nat.not_lt.2 (Nat.le_add_left _ _))
/-- Region 1's output array ends at its write-backs' fold. -/
theorem W4_out (c : Dev nD) : W4 m ρ c (Proc.devRef .tc main_v62) = (dat1 (V3 m ρ) c).arrAt 3 cfg1.N := W4_arr m ρ c 3

/-- After the host operations `hostOps2`: what region 2 is entered from. -/
noncomputable abbrev W5 : Dev nD → Valuation τ sig (Elt F) := fun c => StableHlo.after hostOps2 (W4 m ρ c)
/-- The same contents read at the TensorCore's references. -/
noncomputable abbrev V5 : (c : Dev nD) → (b : Ref sig .tc) → Buf (Elt F) ((c : Thread nD τ).loc b) := fun c b => W5 m ρ c b
/-- A buffer no operation of `hostOps2` writes keeps its contents over the stretch. -/
theorem W5_keep (c : Dev nD) (b : Ref sig .tc) (hb : b ∉ hostOps2_W) : W5 m ρ c (Proc.devRef .tc b) = W4 m ρ c (Proc.devRef .tc b) :=
  StableHlo.after_of_writes_sub hostOps2 _ hostOps2_writes hb

/-- When region 2 ends: its arrays at what the write-backs leave (an input as entered, an output with every
    written block folded in), every other buffer as entered. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the TensorCore's references. -/
noncomputable abbrev V6 : (c : Dev nD) → (b : Ref sig .tc) → Buf (Elt F) ((c : Thread nD τ).loc b) := fun c b => W6 m ρ c b
/-- Region 2's arrays hold what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 writes its output array `main_v65` only: every other buffer leaves the region as it entered it (an input
    window's array because the pipeline never writes an input back, any other buffer because the region does not touch it). -/
theorem W6_keep (c : Dev nD) (b : Ref sig .tc) (hb : b ≠ main_v65) : W6 m ρ c (Proc.devRef .tc b) = W5 m ρ c (Proc.devRef .tc b) := by
  by_cases h0 : b = main_v62
  · subst h0; exact (W6_arr m ρ c 0).trans (((dat2 (V5 m ρ) c).arrAt_in 0 rfl _).trans (A_eq2 (V5 m ρ) c 0))
  by_cases h1 : b = main_arg4
  · subst h1; exact (W6_arr m ρ c 1).trans (((dat2 (V5 m ρ) c).arrAt_in 1 rfl _).trans (A_eq2 (V5 m ρ) c 1))
  by_cases h2 : b = main_v64
  · subst h2; exact (W6_arr m ρ c 2).trans (((dat2 (V5 m ρ) c).arrAt_in 2 rfl _).trans (A_eq2 (V5 m ρ) c 2))
  exact W6_of_ne m ρ c b fun | 0 => Ne.symm h0 | 1 => Ne.symm h1 | 2 => Ne.symm h2 | 3 => Ne.symm hb | ⟨_ + 4, h⟩ => absurd h (Nat.not_lt.2 (Nat.le_add_left _ _))
/-- Region 2's output array ends at its write-backs' fold. -/
theorem W6_out (c : Dev nD) : W6 m ρ c (Proc.devRef .tc main_v65) = (dat2 (V5 m ρ) c).arrAt 3 cfg2.N := W6_arr m ρ c 3

/-- After the host operations `hostOps3`: what region 3 is entered from. -/
noncomputable abbrev W7 : Dev nD → Valuation τ sig (Elt F) := fun c => StableHlo.after hostOps3 (W6 m ρ c)
/-- The same contents read at the TensorCore's references. -/
noncomputable abbrev V7 : (c : Dev nD) → (b : Ref sig .tc) → Buf (Elt F) ((c : Thread nD τ).loc b) := fun c b => W7 m ρ c b
/-- A buffer no operation of `hostOps3` writes keeps its contents over the stretch. -/
theorem W7_keep (c : Dev nD) (b : Ref sig .tc) (hb : b ∉ hostOps3_W) : W7 m ρ c (Proc.devRef .tc b) = W6 m ρ c (Proc.devRef .tc b) :=
  StableHlo.after_of_writes_sub hostOps3 _ hostOps3_writes hb

/-- When region 3 ends: its arrays at what the write-backs leave (an input as entered, an output with every
    written block folded in), every other buffer as entered. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same contents read at the TensorCore's references. -/
noncomputable abbrev V8 : (c : Dev nD) → (b : Ref sig .tc) → Buf (Elt F) ((c : Thread nD τ).loc b) := fun c b => W8 m ρ c b
/-- Region 3's arrays hold what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3 writes its output array `main_v67` only: every other buffer leaves the region as it entered it (an input
    window's array because the pipeline never writes an input back, any other buffer because the region does not touch it). -/
theorem W8_keep (c : Dev nD) (b : Ref sig .tc) (hb : b ≠ main_v67) : W8 m ρ c (Proc.devRef .tc b) = W7 m ρ c (Proc.devRef .tc b) := by
  by_cases h0 : b = main_v57
  · subst h0; exact (W8_arr m ρ c 0).trans (((dat3 (V7 m ρ) c).arrAt_in 0 rfl _).trans (A_eq3 (V7 m ρ) c 0))
  by_cases h1 : b = main_v65
  · subst h1; exact (W8_arr m ρ c 1).trans (((dat3 (V7 m ρ) c).arrAt_in 1 rfl _).trans (A_eq3 (V7 m ρ) c 1))
  by_cases h2 : b = main_v66
  · subst h2; exact (W8_arr m ρ c 2).trans (((dat3 (V7 m ρ) c).arrAt_in 2 rfl _).trans (A_eq3 (V7 m ρ) c 2))
  exact W8_of_ne m ρ c b fun | 0 => Ne.symm h0 | 1 => Ne.symm h1 | 2 => Ne.symm h2 | 3 => Ne.symm hb | ⟨_ + 4, h⟩ => absurd h (Nat.not_lt.2 (Nat.le_add_left _ _))
/-- Region 3's output array ends at its write-backs' fold. -/
theorem W8_out (c : Dev nD) : W8 m ρ c (Proc.devRef .tc main_v67) = (dat3 (V7 m ρ) c).arrAt 3 cfg3.N := W8_arr m ρ c 3

/-- After the host operations `hostOps4`: what region 4 is entered from. -/
noncomputable abbrev W9 : Dev nD → Valuation τ sig (Elt F) := fun c => StableHlo.after hostOps4 (W8 m ρ c)
/-- The same contents read at the TensorCore's references. -/
noncomputable abbrev V9 : (c : Dev nD) → (b : Ref sig .tc) → Buf (Elt F) ((c : Thread nD τ).loc b) := fun c b => W9 m ρ c b
/-- A buffer no operation of `hostOps4` writes keeps its contents over the stretch. -/
theorem W9_keep (c : Dev nD) (b : Ref sig .tc) (hb : b ∉ hostOps4_W) : W9 m ρ c (Proc.devRef .tc b) = W8 m ρ c (Proc.devRef .tc b) :=
  StableHlo.after_of_writes_sub hostOps4 _ hostOps4_writes hb

/-- When region 4 ends: its arrays at what the write-backs leave (an input as entered, an output with every
    written block folded in), every other buffer as entered. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same contents read at the TensorCore's references. -/
noncomputable abbrev V10 : (c : Dev nD) → (b : Ref sig .tc) → Buf (Elt F) ((c : Thread nD τ).loc b) := fun c b => W10 m ρ c b
/-- Region 4's arrays hold what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Region 4 writes its output array `main_v70` only: every other buffer leaves the region as it entered it (an input
    window's array because the pipeline never writes an input back, any other buffer because the region does not touch it). -/
theorem W10_keep (c : Dev nD) (b : Ref sig .tc) (hb : b ≠ main_v70) : W10 m ρ c (Proc.devRef .tc b) = W9 m ρ c (Proc.devRef .tc b) := by
  by_cases h0 : b = main_v67
  · subst h0; exact (W10_arr m ρ c 0).trans (((dat4 (V9 m ρ) c).arrAt_in 0 rfl _).trans (A_eq4 (V9 m ρ) c 0))
  by_cases h1 : b = main_arg6
  · subst h1; exact (W10_arr m ρ c 1).trans (((dat4 (V9 m ρ) c).arrAt_in 1 rfl _).trans (A_eq4 (V9 m ρ) c 1))
  by_cases h2 : b = main_v69
  · subst h2; exact (W10_arr m ρ c 2).trans (((dat4 (V9 m ρ) c).arrAt_in 2 rfl _).trans (A_eq4 (V9 m ρ) c 2))
  exact W10_of_ne m ρ c b fun | 0 => Ne.symm h0 | 1 => Ne.symm h1 | 2 => Ne.symm h2 | 3 => Ne.symm hb | ⟨_ + 4, h⟩ => absurd h (Nat.not_lt.2 (Nat.le_add_left _ _))
/-- Region 4's output array ends at its write-backs' fold. -/
theorem W10_out (c : Dev nD) : W10 m ρ c (Proc.devRef .tc main_v70) = (dat4 (V9 m ρ) c).arrAt 3 cfg4.N := W10_arr m ρ c 3

/-- After the host operations `hostOps5`: what region 5 is entered from. -/
noncomputable abbrev W11 : Dev nD → Valuation τ sig (Elt F) := fun c => StableHlo.after hostOps5 (W10 m ρ c)
/-- The same contents read at the TensorCore's references. -/
noncomputable abbrev V11 : (c : Dev nD) → (b : Ref sig .tc) → Buf (Elt F) ((c : Thread nD τ).loc b) := fun c b => W11 m ρ c b
/-- A buffer no operation of `hostOps5` writes keeps its contents over the stretch. -/
theorem W11_keep (c : Dev nD) (b : Ref sig .tc) (hb : b ∉ hostOps5_W) : W11 m ρ c (Proc.devRef .tc b) = W10 m ρ c (Proc.devRef .tc b) :=
  StableHlo.after_of_writes_sub hostOps5 _ hostOps5_writes hb

/-- When region 5 ends: its arrays at what the write-backs leave (an input as entered, an output with every
    written block folded in), every other buffer as entered. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same contents read at the TensorCore's references. -/
noncomputable abbrev V12 : (c : Dev nD) → (b : Ref sig .tc) → Buf (Elt F) ((c : Thread nD τ).loc b) := fun c b => W12 m ρ c b
/-- Region 5's arrays hold what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- Region 5 writes its output array `main_v72` only: every other buffer leaves the region as it entered it (an input
    window's array because the pipeline never writes an input back, any other buffer because the region does not touch it). -/
theorem W12_keep (c : Dev nD) (b : Ref sig .tc) (hb : b ≠ main_v72) : W12 m ρ c (Proc.devRef .tc b) = W11 m ρ c (Proc.devRef .tc b) := by
  by_cases h0 : b = main_v57
  · subst h0; exact (W12_arr m ρ c 0).trans (((dat5 (V11 m ρ) c).arrAt_in 0 rfl _).trans (A_eq5 (V11 m ρ) c 0))
  by_cases h1 : b = main_v70
  · subst h1; exact (W12_arr m ρ c 1).trans (((dat5 (V11 m ρ) c).arrAt_in 1 rfl _).trans (A_eq5 (V11 m ρ) c 1))
  by_cases h2 : b = main_v71
  · subst h2; exact (W12_arr m ρ c 2).trans (((dat5 (V11 m ρ) c).arrAt_in 2 rfl _).trans (A_eq5 (V11 m ρ) c 2))
  exact W12_of_ne m ρ c b fun | 0 => Ne.symm h0 | 1 => Ne.symm h1 | 2 => Ne.symm h2 | 3 => Ne.symm hb | ⟨_ + 4, h⟩ => absurd h (Nat.not_lt.2 (Nat.le_add_left _ _))
/-- Region 5's output array ends at its write-backs' fold. -/
theorem W12_out (c : Dev nD) : W12 m ρ c (Proc.devRef .tc main_v72) = (dat5 (V11 m ρ) c).arrAt 3 cfg5.N := W12_arr m ρ c 3

/-- After the host operations `hostOps6`: what region 6 is entered from. -/
noncomputable abbrev W13 : Dev nD → Valuation τ sig (Elt F) := fun c => StableHlo.after hostOps6 (W12 m ρ c)
/-- The same contents read at the TensorCore's references. -/
noncomputable abbrev V13 : (c : Dev nD) → (b : Ref sig .tc) → Buf (Elt F) ((c : Thread nD τ).loc b) := fun c b => W13 m ρ c b
/-- A buffer no operation of `hostOps6` writes keeps its contents over the stretch. -/
theorem W13_keep (c : Dev nD) (b : Ref sig .tc) (hb : b ∉ hostOps6_W) : W13 m ρ c (Proc.devRef .tc b) = W12 m ρ c (Proc.devRef .tc b) :=
  StableHlo.after_of_writes_sub hostOps6 _ hostOps6_writes hb

/-- When region 6 ends: its arrays at what the write-backs leave (an input as entered, an output with every
    written block folded in), every other buffer as entered. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same contents read at the TensorCore's references. -/
noncomputable abbrev V14 : (c : Dev nD) → (b : Ref sig .tc) → Buf (Elt F) ((c : Thread nD τ).loc b) := fun c b => W14 m ρ c b
/-- Region 6's arrays hold what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- Region 6 writes its output array `main_v75` only: every other buffer leaves the region as it entered it (an input
    window's array because the pipeline never writes an input back, any other buffer because the region does not touch it). -/
theorem W14_keep (c : Dev nD) (b : Ref sig .tc) (hb : b ≠ main_v75) : W14 m ρ c (Proc.devRef .tc b) = W13 m ρ c (Proc.devRef .tc b) := by
  by_cases h0 : b = main_v72
  · subst h0; exact (W14_arr m ρ c 0).trans (((dat6 (V13 m ρ) c).arrAt_in 0 rfl _).trans (A_eq6 (V13 m ρ) c 0))
  by_cases h1 : b = main_arg8
  · subst h1; exact (W14_arr m ρ c 1).trans (((dat6 (V13 m ρ) c).arrAt_in 1 rfl _).trans (A_eq6 (V13 m ρ) c 1))
  by_cases h2 : b = main_v74
  · subst h2; exact (W14_arr m ρ c 2).trans (((dat6 (V13 m ρ) c).arrAt_in 2 rfl _).trans (A_eq6 (V13 m ρ) c 2))
  exact W14_of_ne m ρ c b fun | 0 => Ne.symm h0 | 1 => Ne.symm h1 | 2 => Ne.symm h2 | 3 => Ne.symm hb | ⟨_ + 4, h⟩ => absurd h (Nat.not_lt.2 (Nat.le_add_left _ _))
/-- Region 6's output array ends at its write-backs' fold. -/
theorem W14_out (c : Dev nD) : W14 m ρ c (Proc.devRef .tc main_v75) = (dat6 (V13 m ρ) c).arrAt 3 cfg6.N := W14_arr m ρ c 3

/-- After the host operations `hostOps7`: what region 7 is entered from. -/
noncomputable abbrev W15 : Dev nD → Valuation τ sig (Elt F) := fun c => StableHlo.after hostOps7 (W14 m ρ c)
/-- The same contents read at the TensorCore's references. -/
noncomputable abbrev V15 : (c : Dev nD) → (b : Ref sig .tc) → Buf (Elt F) ((c : Thread nD τ).loc b) := fun c b => W15 m ρ c b
/-- A buffer no operation of `hostOps7` writes keeps its contents over the stretch. -/
theorem W15_keep (c : Dev nD) (b : Ref sig .tc) (hb : b ∉ hostOps7_W) : W15 m ρ c (Proc.devRef .tc b) = W14 m ρ c (Proc.devRef .tc b) :=
  StableHlo.after_of_writes_sub hostOps7 _ hostOps7_writes hb

/-- When region 7 ends: its arrays at what the write-backs leave (an input as entered, an output with every
    written block folded in), every other buffer as entered. -/
noncomputable def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same contents read at the TensorCore's references. -/
noncomputable abbrev V16 : (c : Dev nD) → (b : Ref sig .tc) → Buf (Elt F) ((c : Thread nD τ).loc b) := fun c b => W16 m ρ c b
/-- Region 7's arrays hold what the pipeline leaves, and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- Region 7 writes its output array `main_v77` only: every other buffer leaves the region as it entered it (an input
    window's array because the pipeline never writes an input back, any other buffer because the region does not touch it). -/
theorem W16_keep (c : Dev nD) (b : Ref sig .tc) (hb : b ≠ main_v77) : W16 m ρ c (Proc.devRef .tc b) = W15 m ρ c (Proc.devRef .tc b) := by
  by_cases h0 : b = main_v57
  · subst h0; exact (W16_arr m ρ c 0).trans (((dat7 (V15 m ρ) c).arrAt_in 0 rfl _).trans (A_eq7 (V15 m ρ) c 0))
  by_cases h1 : b = main_v75
  · subst h1; exact (W16_arr m ρ c 1).trans (((dat7 (V15 m ρ) c).arrAt_in 1 rfl _).trans (A_eq7 (V15 m ρ) c 1))
  by_cases h2 : b = main_v76
  · subst h2; exact (W16_arr m ρ c 2).trans (((dat7 (V15 m ρ) c).arrAt_in 2 rfl _).trans (A_eq7 (V15 m ρ) c 2))
  exact W16_of_ne m ρ c b fun | 0 => Ne.symm h0 | 1 => Ne.symm h1 | 2 => Ne.symm h2 | 3 => Ne.symm hb | ⟨_ + 4, h⟩ => absurd h (Nat.not_lt.2 (Nat.le_add_left _ _))
/-- Region 7's output array ends at its write-backs' fold. -/
theorem W16_out (c : Dev nD) : W16 m ρ c (Proc.devRef .tc main_v77) = (dat7 (V15 m ρ) c).arrAt 3 cfg7.N := W16_arr m ρ c 3

/-- After the host operations `hostOps8`: what region 8 is entered from. -/
noncomputable abbrev W17 : Dev nD → Valuation τ sig (Elt F) := fun c => StableHlo.after hostOps8 (W16 m ρ c)
/-- The same contents read at the TensorCore's references. -/
noncomputable abbrev V17 : (c : Dev nD) → (b : Ref sig .tc) → Buf (Elt F) ((c : Thread nD τ).loc b) := fun c b => W17 m ρ c b
/-- A buffer no operation of `hostOps8` writes keeps its contents over the stretch. -/
theorem W17_keep (c : Dev nD) (b : Ref sig .tc) (hb : b ∉ hostOps8_W) : W17 m ρ c (Proc.devRef .tc b) = W16 m ρ c (Proc.devRef .tc b) :=
  StableHlo.after_of_writes_sub hostOps8 _ hostOps8_writes hb

/-- When region 8 ends: its arrays at what the write-backs leave (an input as entered, an output with every
    written block folded in), every other buffer as entered. -/
noncomputable def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same contents read at the TensorCore's references. -/
noncomputable abbrev V18 : (c : Dev nD) → (b : Ref sig .tc) → Buf (Elt F) ((c : Thread nD τ).loc b) := fun c b => W18 m ρ c b
/-- Region 8's arrays hold what the pipeline leaves, and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- Region 8 writes its output array `main_v80` only: every other buffer leaves the region as it entered it (an input
    window's array because the pipeline never writes an input back, any other buffer because the region does not touch it). -/
theorem W18_keep (c : Dev nD) (b : Ref sig .tc) (hb : b ≠ main_v80) : W18 m ρ c (Proc.devRef .tc b) = W17 m ρ c (Proc.devRef .tc b) := by
  by_cases h0 : b = main_v67
  · subst h0; exact (W18_arr m ρ c 0).trans (((dat8 (V17 m ρ) c).arrAt_in 0 rfl _).trans (A_eq8 (V17 m ρ) c 0))
  by_cases h1 : b = main_arg10
  · subst h1; exact (W18_arr m ρ c 1).trans (((dat8 (V17 m ρ) c).arrAt_in 1 rfl _).trans (A_eq8 (V17 m ρ) c 1))
  by_cases h2 : b = main_v79
  · subst h2; exact (W18_arr m ρ c 2).trans (((dat8 (V17 m ρ) c).arrAt_in 2 rfl _).trans (A_eq8 (V17 m ρ) c 2))
  exact W18_of_ne m ρ c b fun | 0 => Ne.symm h0 | 1 => Ne.symm h1 | 2 => Ne.symm h2 | 3 => Ne.symm hb | ⟨_ + 4, h⟩ => absurd h (Nat.not_lt.2 (Nat.le_add_left _ _))
/-- Region 8's output array ends at its write-backs' fold. -/
theorem W18_out (c : Dev nD) : W18 m ρ c (Proc.devRef .tc main_v80) = (dat8 (V17 m ρ) c).arrAt 3 cfg8.N := W18_arr m ρ c 3

/-- After the host operations `hostOps9`: what region 9 is entered from. -/
noncomputable abbrev W19 : Dev nD → Valuation τ sig (Elt F) := fun c => StableHlo.after hostOps9 (W18 m ρ c)
/-- The same contents read at the TensorCore's references. -/
noncomputable abbrev V19 : (c : Dev nD) → (b : Ref sig .tc) → Buf (Elt F) ((c : Thread nD τ).loc b) := fun c b => W19 m ρ c b
/-- A buffer no operation of `hostOps9` writes keeps its contents over the stretch. -/
theorem W19_keep (c : Dev nD) (b : Ref sig .tc) (hb : b ∉ hostOps9_W) : W19 m ρ c (Proc.devRef .tc b) = W18 m ρ c (Proc.devRef .tc b) :=
  StableHlo.after_of_writes_sub hostOps9 _ hostOps9_writes hb

/-- When region 9 ends: its arrays at what the write-backs leave (an input as entered, an output with every
    written block folded in), every other buffer as entered. -/
noncomputable def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same contents read at the TensorCore's references. -/
noncomputable abbrev V20 : (c : Dev nD) → (b : Ref sig .tc) → Buf (Elt F) ((c : Thread nD τ).loc b) := fun c b => W20 m ρ c b
/-- Region 9's arrays hold what the pipeline leaves, and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- Region 9 writes its output array `main_v82` only: every other buffer leaves the region as it entered it (an input
    window's array because the pipeline never writes an input back, any other buffer because the region does not touch it). -/
theorem W20_keep (c : Dev nD) (b : Ref sig .tc) (hb : b ≠ main_v82) : W20 m ρ c (Proc.devRef .tc b) = W19 m ρ c (Proc.devRef .tc b) := by
  by_cases h0 : b = main_v57
  · subst h0; exact (W20_arr m ρ c 0).trans (((dat9 (V19 m ρ) c).arrAt_in 0 rfl _).trans (A_eq9 (V19 m ρ) c 0))
  by_cases h1 : b = main_v80
  · subst h1; exact (W20_arr m ρ c 1).trans (((dat9 (V19 m ρ) c).arrAt_in 1 rfl _).trans (A_eq9 (V19 m ρ) c 1))
  by_cases h2 : b = main_v81
  · subst h2; exact (W20_arr m ρ c 2).trans (((dat9 (V19 m ρ) c).arrAt_in 2 rfl _).trans (A_eq9 (V19 m ρ) c 2))
  exact W20_of_ne m ρ c b fun | 0 => Ne.symm h0 | 1 => Ne.symm h1 | 2 => Ne.symm h2 | 3 => Ne.symm hb | ⟨_ + 4, h⟩ => absurd h (Nat.not_lt.2 (Nat.le_add_left _ _))
/-- Region 9's output array ends at its write-backs' fold. -/
theorem W20_out (c : Dev nD) : W20 m ρ c (Proc.devRef .tc main_v82) = (dat9 (V19 m ρ) c).arrAt 3 cfg9.N := W20_arr m ρ c 3

/-- When region 10 ends: its arrays at what the write-backs leave (an input as entered, an output with every
    written block folded in), every other buffer as entered. -/
noncomputable def W21 (c : Dev nD) : Valuation τ sig (Elt F) :=
  Pipeline.withArrays spec10 c (W20 m ρ c) fun w => (dat10 (V20 m ρ) c).arrAt w cfg10.N
theorem W21_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb
/-- The same contents read at the TensorCore's references. -/
noncomputable abbrev V21 : (c : Dev nD) → (b : Ref sig .tc) → Buf (Elt F) ((c : Thread nD τ).loc b) := fun c b => W21 m ρ c b
theorem hrest10 (c : Dev nD) : ∀ b, b ∉ Finset.univ.image (Pipeline.arrRef spec10) → V21 m ρ c b = V20 m ρ c b :=
  fun b hb => W21_of_ne m ρ c b fun w e => hb (Finset.mem_image.mpr ⟨w, Finset.mem_univ _, e⟩)
/-- Region 10's two input windows read the same array; each of its arrays still ends at what the pipeline leaves. -/
theorem W21_arr (c : Dev nD) (w : Fin cfg10.W) :
    W21 m ρ c (Proc.devRef .tc (Pipeline.arrRef spec10 w)) = (dat10 (V20 m ρ) c).arrAt w cfg10.N := by
  unfold W21; exact withArrays_arr10 (V20 m ρ) c _ w
theorem hF10 (c : Dev nD) (w : Fin cfg10.W) : (dat10 (V20 m ρ) c).arrAt w cfg10.N = V21 m ρ c (Pipeline.arrRef spec10 w) :=
  (W21_arr m ρ c w).symm
/-- Region 10 writes its output array `main_v83` only: every other buffer leaves the region as it entered it (an input
    window's array because the pipeline never writes an input back, any other buffer because the region does not touch it). -/
theorem W21_keep (c : Dev nD) (b : Ref sig .tc) (hb : b ≠ main_v83) : W21 m ρ c (Proc.devRef .tc b) = W20 m ρ c (Proc.devRef .tc b) := by
  by_cases h0 : b = main_v82
  · subst h0; exact (W21_arr m ρ c 0).trans (((dat10 (V20 m ρ) c).arrAt_in 0 rfl _).trans (A_eq10 (V20 m ρ) c 0))
  exact W21_of_ne m ρ c b fun | 0 => Ne.symm h0 | 1 => Ne.symm h0 | 2 => Ne.symm hb | ⟨_ + 3, h⟩ => absurd h (Nat.not_lt.2 (Nat.le_add_left _ _))
/-- Region 10's output array ends at its write-backs' fold. -/
theorem W21_out (c : Dev nD) : W21 m ρ c (Proc.devRef .tc main_v83) = (dat10 (V20 m ρ) c).arrAt 2 cfg10.N := W21_arr m ρ c 2

/-! ## The arguments end as launched

No host operation's result is an argument and no region's output array is one. -/

theorem W21_main_arg0 (c : Dev nD) : W21 m ρ c (Proc.devRef .tc main_arg0) = m ((c : Thread nD τ).loc main_arg0) :=
  calc W21 m ρ c (Proc.devRef .tc main_arg0)
    _ = W20 m ρ c (Proc.devRef .tc main_arg0) := W21_keep m ρ c main_arg0 (by decide)
    _ = W19 m ρ c (Proc.devRef .tc main_arg0) := W20_keep m ρ c main_arg0 (by decide)
    _ = W18 m ρ c (Proc.devRef .tc main_arg0) := W19_keep m ρ c main_arg0 (by decide)
    _ = W17 m ρ c (Proc.devRef .tc main_arg0) := W18_keep m ρ c main_arg0 (by decide)
    _ = W16 m ρ c (Proc.devRef .tc main_arg0) := W17_keep m ρ c main_arg0 (by decide)
    _ = W15 m ρ c (Proc.devRef .tc main_arg0) := W16_keep m ρ c main_arg0 (by decide)
    _ = W14 m ρ c (Proc.devRef .tc main_arg0) := W15_keep m ρ c main_arg0 (by decide)
    _ = W13 m ρ c (Proc.devRef .tc main_arg0) := W14_keep m ρ c main_arg0 (by decide)
    _ = W12 m ρ c (Proc.devRef .tc main_arg0) := W13_keep m ρ c main_arg0 (by decide)
    _ = W11 m ρ c (Proc.devRef .tc main_arg0) := W12_keep m ρ c main_arg0 (by decide)
    _ = W10 m ρ c (Proc.devRef .tc main_arg0) := W11_keep m ρ c main_arg0 (by decide)
    _ = W9 m ρ c (Proc.devRef .tc main_arg0) := W10_keep m ρ c main_arg0 (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := W7_keep m ρ c main_arg0 (by decide)
    _ = W5 m ρ c (Proc.devRef .tc main_arg0) := W6_keep m ρ c main_arg0 (by decide)
    _ = W4 m ρ c (Proc.devRef .tc main_arg0) := W5_keep m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl
theorem W21_main_arg1 (c : Dev nD) : W21 m ρ c (Proc.devRef .tc main_arg1) = m ((c : Thread nD τ).loc main_arg1) :=
  calc W21 m ρ c (Proc.devRef .tc main_arg1)
    _ = W20 m ρ c (Proc.devRef .tc main_arg1) := W21_keep m ρ c main_arg1 (by decide)
    _ = W19 m ρ c (Proc.devRef .tc main_arg1) := W20_keep m ρ c main_arg1 (by decide)
    _ = W18 m ρ c (Proc.devRef .tc main_arg1) := W19_keep m ρ c main_arg1 (by decide)
    _ = W17 m ρ c (Proc.devRef .tc main_arg1) := W18_keep m ρ c main_arg1 (by decide)
    _ = W16 m ρ c (Proc.devRef .tc main_arg1) := W17_keep m ρ c main_arg1 (by decide)
    _ = W15 m ρ c (Proc.devRef .tc main_arg1) := W16_keep m ρ c main_arg1 (by decide)
    _ = W14 m ρ c (Proc.devRef .tc main_arg1) := W15_keep m ρ c main_arg1 (by decide)
    _ = W13 m ρ c (Proc.devRef .tc main_arg1) := W14_keep m ρ c main_arg1 (by decide)
    _ = W12 m ρ c (Proc.devRef .tc main_arg1) := W13_keep m ρ c main_arg1 (by decide)
    _ = W11 m ρ c (Proc.devRef .tc main_arg1) := W12_keep m ρ c main_arg1 (by decide)
    _ = W10 m ρ c (Proc.devRef .tc main_arg1) := W11_keep m ρ c main_arg1 (by decide)
    _ = W9 m ρ c (Proc.devRef .tc main_arg1) := W10_keep m ρ c main_arg1 (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := W7_keep m ρ c main_arg1 (by decide)
    _ = W5 m ρ c (Proc.devRef .tc main_arg1) := W6_keep m ρ c main_arg1 (by decide)
    _ = W4 m ρ c (Proc.devRef .tc main_arg1) := W5_keep m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl
theorem W21_main_arg2 (c : Dev nD) : W21 m ρ c (Proc.devRef .tc main_arg2) = m ((c : Thread nD τ).loc main_arg2) :=
  calc W21 m ρ c (Proc.devRef .tc main_arg2)
    _ = W20 m ρ c (Proc.devRef .tc main_arg2) := W21_keep m ρ c main_arg2 (by decide)
    _ = W19 m ρ c (Proc.devRef .tc main_arg2) := W20_keep m ρ c main_arg2 (by decide)
    _ = W18 m ρ c (Proc.devRef .tc main_arg2) := W19_keep m ρ c main_arg2 (by decide)
    _ = W17 m ρ c (Proc.devRef .tc main_arg2) := W18_keep m ρ c main_arg2 (by decide)
    _ = W16 m ρ c (Proc.devRef .tc main_arg2) := W17_keep m ρ c main_arg2 (by decide)
    _ = W15 m ρ c (Proc.devRef .tc main_arg2) := W16_keep m ρ c main_arg2 (by decide)
    _ = W14 m ρ c (Proc.devRef .tc main_arg2) := W15_keep m ρ c main_arg2 (by decide)
    _ = W13 m ρ c (Proc.devRef .tc main_arg2) := W14_keep m ρ c main_arg2 (by decide)
    _ = W12 m ρ c (Proc.devRef .tc main_arg2) := W13_keep m ρ c main_arg2 (by decide)
    _ = W11 m ρ c (Proc.devRef .tc main_arg2) := W12_keep m ρ c main_arg2 (by decide)
    _ = W10 m ρ c (Proc.devRef .tc main_arg2) := W11_keep m ρ c main_arg2 (by decide)
    _ = W9 m ρ c (Proc.devRef .tc main_arg2) := W10_keep m ρ c main_arg2 (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := W7_keep m ρ c main_arg2 (by decide)
    _ = W5 m ρ c (Proc.devRef .tc main_arg2) := W6_keep m ρ c main_arg2 (by decide)
    _ = W4 m ρ c (Proc.devRef .tc main_arg2) := W5_keep m ρ c main_arg2 (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl
theorem W21_main_arg3 (c : Dev nD) : W21 m ρ c (Proc.devRef .tc main_arg3) = m ((c : Thread nD τ).loc main_arg3) :=
  calc W21 m ρ c (Proc.devRef .tc main_arg3)
    _ = W20 m ρ c (Proc.devRef .tc main_arg3) := W21_keep m ρ c main_arg3 (by decide)
    _ = W19 m ρ c (Proc.devRef .tc main_arg3) := W20_keep m ρ c main_arg3 (by decide)
    _ = W18 m ρ c (Proc.devRef .tc main_arg3) := W19_keep m ρ c main_arg3 (by decide)
    _ = W17 m ρ c (Proc.devRef .tc main_arg3) := W18_keep m ρ c main_arg3 (by decide)
    _ = W16 m ρ c (Proc.devRef .tc main_arg3) := W17_keep m ρ c main_arg3 (by decide)
    _ = W15 m ρ c (Proc.devRef .tc main_arg3) := W16_keep m ρ c main_arg3 (by decide)
    _ = W14 m ρ c (Proc.devRef .tc main_arg3) := W15_keep m ρ c main_arg3 (by decide)
    _ = W13 m ρ c (Proc.devRef .tc main_arg3) := W14_keep m ρ c main_arg3 (by decide)
    _ = W12 m ρ c (Proc.devRef .tc main_arg3) := W13_keep m ρ c main_arg3 (by decide)
    _ = W11 m ρ c (Proc.devRef .tc main_arg3) := W12_keep m ρ c main_arg3 (by decide)
    _ = W10 m ρ c (Proc.devRef .tc main_arg3) := W11_keep m ρ c main_arg3 (by decide)
    _ = W9 m ρ c (Proc.devRef .tc main_arg3) := W10_keep m ρ c main_arg3 (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := W7_keep m ρ c main_arg3 (by decide)
    _ = W5 m ρ c (Proc.devRef .tc main_arg3) := W6_keep m ρ c main_arg3 (by decide)
    _ = W4 m ρ c (Proc.devRef .tc main_arg3) := W5_keep m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl
theorem W21_main_arg4 (c : Dev nD) : W21 m ρ c (Proc.devRef .tc main_arg4) = m ((c : Thread nD τ).loc main_arg4) :=
  calc W21 m ρ c (Proc.devRef .tc main_arg4)
    _ = W20 m ρ c (Proc.devRef .tc main_arg4) := W21_keep m ρ c main_arg4 (by decide)
    _ = W19 m ρ c (Proc.devRef .tc main_arg4) := W20_keep m ρ c main_arg4 (by decide)
    _ = W18 m ρ c (Proc.devRef .tc main_arg4) := W19_keep m ρ c main_arg4 (by decide)
    _ = W17 m ρ c (Proc.devRef .tc main_arg4) := W18_keep m ρ c main_arg4 (by decide)
    _ = W16 m ρ c (Proc.devRef .tc main_arg4) := W17_keep m ρ c main_arg4 (by decide)
    _ = W15 m ρ c (Proc.devRef .tc main_arg4) := W16_keep m ρ c main_arg4 (by decide)
    _ = W14 m ρ c (Proc.devRef .tc main_arg4) := W15_keep m ρ c main_arg4 (by decide)
    _ = W13 m ρ c (Proc.devRef .tc main_arg4) := W14_keep m ρ c main_arg4 (by decide)
    _ = W12 m ρ c (Proc.devRef .tc main_arg4) := W13_keep m ρ c main_arg4 (by decide)
    _ = W11 m ρ c (Proc.devRef .tc main_arg4) := W12_keep m ρ c main_arg4 (by decide)
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_keep m ρ c main_arg4 (by decide)
    _ = W5 m ρ c (Proc.devRef .tc main_arg4) := W6_keep m ρ c main_arg4 (by decide)
    _ = W4 m ρ c (Proc.devRef .tc main_arg4) := W5_keep m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl
theorem W21_main_arg5 (c : Dev nD) : W21 m ρ c (Proc.devRef .tc main_arg5) = m ((c : Thread nD τ).loc main_arg5) :=
  calc W21 m ρ c (Proc.devRef .tc main_arg5)
    _ = W20 m ρ c (Proc.devRef .tc main_arg5) := W21_keep m ρ c main_arg5 (by decide)
    _ = W19 m ρ c (Proc.devRef .tc main_arg5) := W20_keep m ρ c main_arg5 (by decide)
    _ = W18 m ρ c (Proc.devRef .tc main_arg5) := W19_keep m ρ c main_arg5 (by decide)
    _ = W17 m ρ c (Proc.devRef .tc main_arg5) := W18_keep m ρ c main_arg5 (by decide)
    _ = W16 m ρ c (Proc.devRef .tc main_arg5) := W17_keep m ρ c main_arg5 (by decide)
    _ = W15 m ρ c (Proc.devRef .tc main_arg5) := W16_keep m ρ c main_arg5 (by decide)
    _ = W14 m ρ c (Proc.devRef .tc main_arg5) := W15_keep m ρ c main_arg5 (by decide)
    _ = W13 m ρ c (Proc.devRef .tc main_arg5) := W14_keep m ρ c main_arg5 (by decide)
    _ = W12 m ρ c (Proc.devRef .tc main_arg5) := W13_keep m ρ c main_arg5 (by decide)
    _ = W11 m ρ c (Proc.devRef .tc main_arg5) := W12_keep m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_keep m ρ c main_arg5 (by decide)
    _ = W5 m ρ c (Proc.devRef .tc main_arg5) := W6_keep m ρ c main_arg5 (by decide)
    _ = W4 m ρ c (Proc.devRef .tc main_arg5) := W5_keep m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl
theorem W21_main_arg6 (c : Dev nD) : W21 m ρ c (Proc.devRef .tc main_arg6) = m ((c : Thread nD τ).loc main_arg6) :=
  calc W21 m ρ c (Proc.devRef .tc main_arg6)
    _ = W20 m ρ c (Proc.devRef .tc main_arg6) := W21_keep m ρ c main_arg6 (by decide)
    _ = W19 m ρ c (Proc.devRef .tc main_arg6) := W20_keep m ρ c main_arg6 (by decide)
    _ = W18 m ρ c (Proc.devRef .tc main_arg6) := W19_keep m ρ c main_arg6 (by decide)
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_keep m ρ c main_arg6 (by decide)
    _ = W12 m ρ c (Proc.devRef .tc main_arg6) := W13_keep m ρ c main_arg6 (by decide)
    _ = W11 m ρ c (Proc.devRef .tc main_arg6) := W12_keep m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_keep m ρ c main_arg6 (by decide)
    _ = W5 m ρ c (Proc.devRef .tc main_arg6) := W6_keep m ρ c main_arg6 (by decide)
    _ = W4 m ρ c (Proc.devRef .tc main_arg6) := W5_keep m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl
theorem W21_main_arg7 (c : Dev nD) : W21 m ρ c (Proc.devRef .tc main_arg7) = m ((c : Thread nD τ).loc main_arg7) :=
  calc W21 m ρ c (Proc.devRef .tc main_arg7)
    _ = W20 m ρ c (Proc.devRef .tc main_arg7) := W21_keep m ρ c main_arg7 (by decide)
    _ = W19 m ρ c (Proc.devRef .tc main_arg7) := W20_keep m ρ c main_arg7 (by decide)
    _ = W18 m ρ c (Proc.devRef .tc main_arg7) := W19_keep m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_keep m ρ c main_arg7 (by decide)
    _ = W12 m ρ c (Proc.devRef .tc main_arg7) := W13_keep m ρ c main_arg7 (by decide)
    _ = W11 m ρ c (Proc.devRef .tc main_arg7) := W12_keep m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_keep m ρ c main_arg7 (by decide)
    _ = W5 m ρ c (Proc.devRef .tc main_arg7) := W6_keep m ρ c main_arg7 (by decide)
    _ = W4 m ρ c (Proc.devRef .tc main_arg7) := W5_keep m ρ c main_arg7 (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl
theorem W21_main_arg8 (c : Dev nD) : W21 m ρ c (Proc.devRef .tc main_arg8) = m ((c : Thread nD τ).loc main_arg8) :=
  calc W21 m ρ c (Proc.devRef .tc main_arg8)
    _ = W20 m ρ c (Proc.devRef .tc main_arg8) := W21_keep m ρ c main_arg8 (by decide)
    _ = W19 m ρ c (Proc.devRef .tc main_arg8) := W20_keep m ρ c main_arg8 (by decide)
    _ = W18 m ρ c (Proc.devRef .tc main_arg8) := W19_keep m ρ c main_arg8 (by decide)
    _ = W17 m ρ c (Proc.devRef .tc main_arg8) := W18_keep m ρ c main_arg8 (by decide)
    _ = W16 m ρ c (Proc.devRef .tc main_arg8) := W17_keep m ρ c main_arg8 (by decide)
    _ = W15 m ρ c (Proc.devRef .tc main_arg8) := W16_keep m ρ c main_arg8 (by decide)
    _ = W14 m ρ c (Proc.devRef .tc main_arg8) := W15_keep m ρ c main_arg8 (by decide)
    _ = W13 m ρ c (Proc.devRef .tc main_arg8) := W14_keep m ρ c main_arg8 (by decide)
    _ = W12 m ρ c (Proc.devRef .tc main_arg8) := W13_keep m ρ c main_arg8 (by decide)
    _ = W11 m ρ c (Proc.devRef .tc main_arg8) := W12_keep m ρ c main_arg8 (by decide)
    _ = W10 m ρ c (Proc.devRef .tc main_arg8) := W11_keep m ρ c main_arg8 (by decide)
    _ = W9 m ρ c (Proc.devRef .tc main_arg8) := W10_keep m ρ c main_arg8 (by decide)
    _ = W8 m ρ c (Proc.devRef .tc main_arg8) := W9_keep m ρ c main_arg8 (by decide)
    _ = W7 m ρ c (Proc.devRef .tc main_arg8) := W8_keep m ρ c main_arg8 (by decide)
    _ = W6 m ρ c (Proc.devRef .tc main_arg8) := W7_keep m ρ c main_arg8 (by decide)
    _ = W5 m ρ c (Proc.devRef .tc main_arg8) := W6_keep m ρ c main_arg8 (by decide)
    _ = W4 m ρ c (Proc.devRef .tc main_arg8) := W5_keep m ρ c main_arg8 (by decide)
    _ = W3 m ρ c (Proc.devRef .tc main_arg8) := W4_keep m ρ c main_arg8 (by decide)
    _ = W2 m ρ c (Proc.devRef .tc main_arg8) := W3_keep m ρ c main_arg8 (by decide)
    _ = W1 m ρ c (Proc.devRef .tc main_arg8) := W2_keep m ρ c main_arg8 (by decide)
    _ = W0 m ρ c (Proc.devRef .tc main_arg8) := W1_keep m ρ c main_arg8 (by decide)
    _ = m ((c : Thread nD τ).loc main_arg8) := rfl
theorem W21_main_arg9 (c : Dev nD) : W21 m ρ c (Proc.devRef .tc main_arg9) = m ((c : Thread nD τ).loc main_arg9) :=
  calc W21 m ρ c (Proc.devRef .tc main_arg9)
    _ = W20 m ρ c (Proc.devRef .tc main_arg9) := W21_keep m ρ c main_arg9 (by decide)
    _ = W19 m ρ c (Proc.devRef .tc main_arg9) := W20_keep m ρ c main_arg9 (by decide)
    _ = W18 m ρ c (Proc.devRef .tc main_arg9) := W19_keep m ρ c main_arg9 (by decide)
    _ = W17 m ρ c (Proc.devRef .tc main_arg9) := W18_keep m ρ c main_arg9 (by decide)
    _ = W16 m ρ c (Proc.devRef .tc main_arg9) := W17_keep m ρ c main_arg9 (by decide)
    _ = W15 m ρ c (Proc.devRef .tc main_arg9) := W16_keep m ρ c main_arg9 (by decide)
    _ = W14 m ρ c (Proc.devRef .tc main_arg9) := W15_keep m ρ c main_arg9 (by decide)
    _ = W13 m ρ c (Proc.devRef .tc main_arg9) := W14_keep m ρ c main_arg9 (by decide)
    _ = W12 m ρ c (Proc.devRef .tc main_arg9) := W13_keep m ρ c main_arg9 (by decide)
    _ = W11 m ρ c (Proc.devRef .tc main_arg9) := W12_keep m ρ c main_arg9 (by decide)
    _ = W10 m ρ c (Proc.devRef .tc main_arg9) := W11_keep m ρ c main_arg9 (by decide)
    _ = W9 m ρ c (Proc.devRef .tc main_arg9) := W10_keep m ρ c main_arg9 (by decide)
    _ = W8 m ρ c (Proc.devRef .tc main_arg9) := W9_keep m ρ c main_arg9 (by decide)
    _ = W7 m ρ c (Proc.devRef .tc main_arg9) := W8_keep m ρ c main_arg9 (by decide)
    _ = W6 m ρ c (Proc.devRef .tc main_arg9) := W7_keep m ρ c main_arg9 (by decide)
    _ = W5 m ρ c (Proc.devRef .tc main_arg9) := W6_keep m ρ c main_arg9 (by decide)
    _ = W4 m ρ c (Proc.devRef .tc main_arg9) := W5_keep m ρ c main_arg9 (by decide)
    _ = W3 m ρ c (Proc.devRef .tc main_arg9) := W4_keep m ρ c main_arg9 (by decide)
    _ = W2 m ρ c (Proc.devRef .tc main_arg9) := W3_keep m ρ c main_arg9 (by decide)
    _ = W1 m ρ c (Proc.devRef .tc main_arg9) := W2_keep m ρ c main_arg9 (by decide)
    _ = W0 m ρ c (Proc.devRef .tc main_arg9) := W1_keep m ρ c main_arg9 (by decide)
    _ = m ((c : Thread nD τ).loc main_arg9) := rfl
theorem W21_main_arg10 (c : Dev nD) : W21 m ρ c (Proc.devRef .tc main_arg10) = m ((c : Thread nD τ).loc main_arg10) :=
  calc W21 m ρ c (Proc.devRef .tc main_arg10)
    _ = W20 m ρ c (Proc.devRef .tc main_arg10) := W21_keep m ρ c main_arg10 (by decide)
    _ = W19 m ρ c (Proc.devRef .tc main_arg10) := W20_keep m ρ c main_arg10 (by decide)
    _ = W18 m ρ c (Proc.devRef .tc main_arg10) := W19_keep m ρ c main_arg10 (by decide)
    _ = W17 m ρ c (Proc.devRef .tc main_arg10) := W18_keep m ρ c main_arg10 (by decide)
    _ = W16 m ρ c (Proc.devRef .tc main_arg10) := W17_keep m ρ c main_arg10 (by decide)
    _ = W15 m ρ c (Proc.devRef .tc main_arg10) := W16_keep m ρ c main_arg10 (by decide)
    _ = W14 m ρ c (Proc.devRef .tc main_arg10) := W15_keep m ρ c main_arg10 (by decide)
    _ = W13 m ρ c (Proc.devRef .tc main_arg10) := W14_keep m ρ c main_arg10 (by decide)
    _ = W12 m ρ c (Proc.devRef .tc main_arg10) := W13_keep m ρ c main_arg10 (by decide)
    _ = W11 m ρ c (Proc.devRef .tc main_arg10) := W12_keep m ρ c main_arg10 (by decide)
    _ = W10 m ρ c (Proc.devRef .tc main_arg10) := W11_keep m ρ c main_arg10 (by decide)
    _ = W9 m ρ c (Proc.devRef .tc main_arg10) := W10_keep m ρ c main_arg10 (by decide)
    _ = W8 m ρ c (Proc.devRef .tc main_arg10) := W9_keep m ρ c main_arg10 (by decide)
    _ = W7 m ρ c (Proc.devRef .tc main_arg10) := W8_keep m ρ c main_arg10 (by decide)
    _ = W6 m ρ c (Proc.devRef .tc main_arg10) := W7_keep m ρ c main_arg10 (by decide)
    _ = W5 m ρ c (Proc.devRef .tc main_arg10) := W6_keep m ρ c main_arg10 (by decide)
    _ = W4 m ρ c (Proc.devRef .tc main_arg10) := W5_keep m ρ c main_arg10 (by decide)
    _ = W3 m ρ c (Proc.devRef .tc main_arg10) := W4_keep m ρ c main_arg10 (by decide)
    _ = W2 m ρ c (Proc.devRef .tc main_arg10) := W3_keep m ρ c main_arg10 (by decide)
    _ = W1 m ρ c (Proc.devRef .tc main_arg10) := W2_keep m ρ c main_arg10 (by decide)
    _ = W0 m ρ c (Proc.devRef .tc main_arg10) := W1_keep m ρ c main_arg10 (by decide)
    _ = m ((c : Thread nD τ).loc main_arg10) := rfl
theorem W21_main_arg11 (c : Dev nD) : W21 m ρ c (Proc.devRef .tc main_arg11) = m ((c : Thread nD τ).loc main_arg11) :=
  calc W21 m ρ c (Proc.devRef .tc main_arg11)
    _ = W20 m ρ c (Proc.devRef .tc main_arg11) := W21_keep m ρ c main_arg11 (by decide)
    _ = W19 m ρ c (Proc.devRef .tc main_arg11) := W20_keep m ρ c main_arg11 (by decide)
    _ = W18 m ρ c (Proc.devRef .tc main_arg11) := W19_keep m ρ c main_arg11 (by decide)
    _ = W17 m ρ c (Proc.devRef .tc main_arg11) := W18_keep m ρ c main_arg11 (by decide)
    _ = W16 m ρ c (Proc.devRef .tc main_arg11) := W17_keep m ρ c main_arg11 (by decide)
    _ = W15 m ρ c (Proc.devRef .tc main_arg11) := W16_keep m ρ c main_arg11 (by decide)
    _ = W14 m ρ c (Proc.devRef .tc main_arg11) := W15_keep m ρ c main_arg11 (by decide)
    _ = W13 m ρ c (Proc.devRef .tc main_arg11) := W14_keep m ρ c main_arg11 (by decide)
    _ = W12 m ρ c (Proc.devRef .tc main_arg11) := W13_keep m ρ c main_arg11 (by decide)
    _ = W11 m ρ c (Proc.devRef .tc main_arg11) := W12_keep m ρ c main_arg11 (by decide)
    _ = W10 m ρ c (Proc.devRef .tc main_arg11) := W11_keep m ρ c main_arg11 (by decide)
    _ = W9 m ρ c (Proc.devRef .tc main_arg11) := W10_keep m ρ c main_arg11 (by decide)
    _ = W8 m ρ c (Proc.devRef .tc main_arg11) := W9_keep m ρ c main_arg11 (by decide)
    _ = W7 m ρ c (Proc.devRef .tc main_arg11) := W8_keep m ρ c main_arg11 (by decide)
    _ = W6 m ρ c (Proc.devRef .tc main_arg11) := W7_keep m ρ c main_arg11 (by decide)
    _ = W5 m ρ c (Proc.devRef .tc main_arg11) := W6_keep m ρ c main_arg11 (by decide)
    _ = W4 m ρ c (Proc.devRef .tc main_arg11) := W5_keep m ρ c main_arg11 (by decide)
    _ = W3 m ρ c (Proc.devRef .tc main_arg11) := W4_keep m ρ c main_arg11 (by decide)
    _ = W2 m ρ c (Proc.devRef .tc main_arg11) := W3_keep m ρ c main_arg11 (by decide)
    _ = W1 m ρ c (Proc.devRef .tc main_arg11) := W2_keep m ρ c main_arg11 (by decide)
    _ = W0 m ρ c (Proc.devRef .tc main_arg11) := W1_keep m ρ c main_arg11 (by decide)
    _ = m ((c : Thread nD τ).loc main_arg11) := rfl

/-! ## The proof data family and the thread state -/

/-- The prefetched tables' admissible contents: no pipeline has a table. -/
abbrev adm : (p : Fin 11) → (pcfgs (F := F) p).Adm := fun p => (cfgs p).toPCfg_adm
/-- Every pipeline's proof data, each at its region's entry contents. -/
noncomputable def pdats : (p : Fin 11) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
noncomputable abbrev R (c : Dev nD) : sProp 𝕄 := iprop((∃ r, prngReg c r) ∗ ∃ W, owes (c : Thread nD τ) (0 : CellTallies nD τ sig Unit) W)
/-- A host stretch as a segment: its operations run over the unscoped references from the contents `W` to
    `StableHlo.after ops (W c)`, `R` riding along. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
noncomputable abbrev Tₙ (c : Dev nD) : sProp 𝕄 := iprop(StableHlo.held (c : Thread nD τ) (Pipeline.ucRefs τ sig) (W21 m ρ c) ∗ ∃ r, prngReg c r)

end Cert.KernelIdeal.Fr

end
-- ==== Proof.KI.Run.lean ====
/- @main as the run of its segments and the launch. First the kernel regions as segments over the thread state "every
   unscoped buffer at the boundary's contents, the generator register at some state, nothing owed": each region splits
   its arrays out of the unscoped buffers at entry, hands the generator register and the scoped buffers no window stages
   to the kernel's invariant, and puts the arrays back at the exit contents. Then @main as the run of ten host stretches
   and eleven regions in order, and the launch over them: from any memory with zero counters every weakly fair execution
   of @main on the TensorCores terminates, nothing faulting, and in every final state each unscoped buffer holds the last
   boundary's contents; in particular every argument array is as launched. -/
import proofs.«127812_j6760278524061_1_alg».proof.Proof.KI.RunW
import proofs.«127812_j6760278524061_1_alg».proof.Proof.Gen.KernelIdeal.Launch
import proofs.«127812_j6760278524061_1_alg».proof.Proof.Gen.KernelIdeal.Skeleton
import proofs.«127812_j6760278524061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
set_option maxHeartbeats 2000000 in
/-- Region 0 (custom_call 0) over the thread state: entered from every unscoped buffer at `W1`, left at `W2`. Its
    arrays are split out of the unscoped buffers at entry and put back at the exit contents; the generator register and
    the scoped buffers no window stages make the kernel's invariant before the first point and come back after the
    last; nothing is owed; the kernel has no semaphore of its own. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    exact (show _ ⊢ (Pipeline.ΦA spec0 c : sProp 𝕄) from by
      unfold Pipeline.ΦA
      iintro ⟨Hp, -, Hr⟩
      isplitl [Hr]; · iexact Hr
      iexact Hp).trans (hin0 (V1 m ρ) c)
  hout c := by
    rw [Pipeline.ownSems0_none, show (pdats m ρ 0 c).Φ (Fin.last _) = (dat0 (V1 m ρ) c).Φ (Fin.last _) from rfl]
    exact (hout0 (V1 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 1 (custom_call 1) over the thread state: entered from every unscoped buffer at `W3`, left at `W4`. Its
    arrays are split out of the unscoped buffers at entry and put back at the exit contents; the generator register and
    the scoped buffers no window stages make the kernel's invariant before the first point and come back after the
    last; nothing is owed; the kernel has no semaphore of its own. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    exact (show _ ⊢ (Pipeline.ΦA spec1 c : sProp 𝕄) from by
      unfold Pipeline.ΦA
      iintro ⟨Hp, -, Hr⟩
      isplitl [Hr]; · iexact Hr
      iexact Hp).trans (hin1 (V3 m ρ) c)
  hout c := by
    rw [Pipeline.ownSems0_none, show (pdats m ρ 1 c).Φ (Fin.last _) = (dat1 (V3 m ρ) c).Φ (Fin.last _) from rfl]
    exact (hout1 (V3 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 2 (custom_call 2) over the thread state: entered from every unscoped buffer at `W5`, left at `W6`. Its
    arrays are split out of the unscoped buffers at entry and put back at the exit contents; the generator register and
    the scoped buffers no window stages make the kernel's invariant before the first point and come back after the
    last; nothing is owed; the kernel has no semaphore of its own. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    exact (show _ ⊢ (Pipeline.ΦA spec2 c : sProp 𝕄) from by
      unfold Pipeline.ΦA
      iintro ⟨Hp, -, Hr⟩
      isplitl [Hr]; · iexact Hr
      iexact Hp).trans (hin2 (V5 m ρ) c)
  hout c := by
    rw [Pipeline.ownSems0_none, show (pdats m ρ 2 c).Φ (Fin.last _) = (dat2 (V5 m ρ) c).Φ (Fin.last _) from rfl]
    exact (hout2 (V5 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 3 (custom_call 3) over the thread state: entered from every unscoped buffer at `W7`, left at `W8`. Its
    arrays are split out of the unscoped buffers at entry and put back at the exit contents; the generator register and
    the scoped buffers no window stages make the kernel's invariant before the first point and come back after the
    last; nothing is owed; the kernel has no semaphore of its own. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    exact (show _ ⊢ (Pipeline.ΦA spec3 c : sProp 𝕄) from by
      unfold Pipeline.ΦA
      iintro ⟨Hp, -, Hr⟩
      isplitl [Hr]; · iexact Hr
      iexact Hp).trans (hin3 (V7 m ρ) c)
  hout c := by
    rw [Pipeline.ownSems0_none, show (pdats m ρ 3 c).Φ (Fin.last _) = (dat3 (V7 m ρ) c).Φ (Fin.last _) from rfl]
    exact (hout3 (V7 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 4 (custom_call 4) over the thread state: entered from every unscoped buffer at `W9`, left at `W10`. Its
    arrays are split out of the unscoped buffers at entry and put back at the exit contents; the generator register and
    the scoped buffers no window stages make the kernel's invariant before the first point and come back after the
    last; nothing is owed; the kernel has no semaphore of its own. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    exact (show _ ⊢ (Pipeline.ΦA spec4 c : sProp 𝕄) from by
      unfold Pipeline.ΦA
      iintro ⟨Hp, -, Hr⟩
      isplitl [Hr]; · iexact Hr
      iexact Hp).trans (hin4 (V9 m ρ) c)
  hout c := by
    rw [Pipeline.ownSems0_none, show (pdats m ρ 4 c).Φ (Fin.last _) = (dat4 (V9 m ρ) c).Φ (Fin.last _) from rfl]
    exact (hout4 (V9 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 5 (custom_call 5) over the thread state: entered from every unscoped buffer at `W11`, left at `W12`. Its
    arrays are split out of the unscoped buffers at entry and put back at the exit contents; the generator register and
    the scoped buffers no window stages make the kernel's invariant before the first point and come back after the
    last; nothing is owed; the kernel has no semaphore of its own. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun w => A_eq5 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    exact (show _ ⊢ (Pipeline.ΦA spec5 c : sProp 𝕄) from by
      unfold Pipeline.ΦA
      iintro ⟨Hp, -, Hr⟩
      isplitl [Hr]; · iexact Hr
      iexact Hp).trans (hin5 (V11 m ρ) c)
  hout c := by
    rw [Pipeline.ownSems0_none, show (pdats m ρ 5 c).Φ (Fin.last _) = (dat5 (V11 m ρ) c).Φ (Fin.last _) from rfl]
    exact (hout5 (V11 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 6 (custom_call 6) over the thread state: entered from every unscoped buffer at `W13`, left at `W14`. Its
    arrays are split out of the unscoped buffers at entry and put back at the exit contents; the generator register and
    the scoped buffers no window stages make the kernel's invariant before the first point and come back after the
    last; nothing is owed; the kernel has no semaphore of its own. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun w => A_eq6 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    exact (show _ ⊢ (Pipeline.ΦA spec6 c : sProp 𝕄) from by
      unfold Pipeline.ΦA
      iintro ⟨Hp, -, Hr⟩
      isplitl [Hr]; · iexact Hr
      iexact Hp).trans (hin6 (V13 m ρ) c)
  hout c := by
    rw [Pipeline.ownSems0_none, show (pdats m ρ 6 c).Φ (Fin.last _) = (dat6 (V13 m ρ) c).Φ (Fin.last _) from rfl]
    exact (hout6 (V13 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 7 (custom_call 7) over the thread state: entered from every unscoped buffer at `W15`, left at `W16`. Its
    arrays are split out of the unscoped buffers at entry and put back at the exit contents; the generator register and
    the scoped buffers no window stages make the kernel's invariant before the first point and come back after the
    last; nothing is owed; the kernel has no semaphore of its own. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun w => A_eq7 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V15 m ρ) c).Φ 0 from rfl]
    exact (show _ ⊢ (Pipeline.ΦA spec7 c : sProp 𝕄) from by
      unfold Pipeline.ΦA
      iintro ⟨Hp, -, Hr⟩
      isplitl [Hr]; · iexact Hr
      iexact Hp).trans (hin7 (V15 m ρ) c)
  hout c := by
    rw [Pipeline.ownSems0_none, show (pdats m ρ 7 c).Φ (Fin.last _) = (dat7 (V15 m ρ) c).Φ (Fin.last _) from rfl]
    exact (hout7 (V15 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 8 (custom_call 8) over the thread state: entered from every unscoped buffer at `W17`, left at `W18`. Its
    arrays are split out of the unscoped buffers at entry and put back at the exit contents; the generator register and
    the scoped buffers no window stages make the kernel's invariant before the first point and come back after the
    last; nothing is owed; the kernel has no semaphore of its own. -/
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := Pipeline.UD sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun w => A_eq8 (V17 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    exact (show _ ⊢ (Pipeline.ΦA spec8 c : sProp 𝕄) from by
      unfold Pipeline.ΦA
      iintro ⟨Hp, -, Hr⟩
      isplitl [Hr]; · iexact Hr
      iexact Hp).trans (hin8 (V17 m ρ) c)
  hout c := by
    rw [Pipeline.ownSems0_none, show (pdats m ρ 8 c).Φ (Fin.last _) = (dat8 (V17 m ρ) c).Φ (Fin.last _) from rfl]
    exact (hout8 (V17 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 8) (pcfgs (F := F)) adm (Ix := Unit) (Name := ℕ) (U := Pipeline.UD sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 9 (custom_call 9) over the thread state: entered from every unscoped buffer at `W19`, left at `W20`. Its
    arrays are split out of the unscoped buffers at entry and put back at the exit contents; the generator register and
    the scoped buffers no window stages make the kernel's invariant before the first point and come back after the
    last; nothing is owed; the kernel has no semaphore of its own. -/
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := Pipeline.UD sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun w => A_eq9 (V19 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V19 m ρ) c).Φ 0 from rfl]
    exact (show _ ⊢ (Pipeline.ΦA spec9 c : sProp 𝕄) from by
      unfold Pipeline.ΦA
      iintro ⟨Hp, -, Hr⟩
      isplitl [Hr]; · iexact Hr
      iexact Hp).trans (hin9 (V19 m ρ) c)
  hout c := by
    rw [Pipeline.ownSems0_none, show (pdats m ρ 9 c).Φ (Fin.last _) = (dat9 (V19 m ρ) c).Φ (Fin.last _) from rfl]
    exact (hout9 (V19 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 9) (pcfgs (F := F)) adm (Ix := Unit) (Name := ℕ) (U := Pipeline.UD sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 2000000 in
/-- Region 10 (custom_call 10) over the thread state: entered from every unscoped buffer at `W20`, left at `W21`. Its
    arrays are split out of the unscoped buffers at entry and put back at the exit contents; the generator register and
    the scoped buffers no window stages make the kernel's invariant before the first point and come back after the
    last; nothing is owed; the kernel has no semaphore of its own. -/
noncomputable def reg10 : Pipeline.RegionSeg (pcfgs (F := F)) adm (pdats m ρ) () defs₀ 𝒱₀ L lv 10 where
  win := winFacts₀10
  block_pos := block_pos10
  stage_whole := stage_whole10
  K := PEmpty
  osem k := k.elim
  ho := Pipeline.OwnSemFacts.none _
  hbody c := (body_obligation10 (V20 m ρ) c).loose
  hwaits := Pipeline.hwaits_of_owed_zero _ _ _ _ L lv 10 fun _ _ => rfl
  pre c := iprop(StableHlo.held (c : Thread nD τ) (Pipeline.ucRefs τ sig) (W20 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec10 c (V20 m ρ c)
  hentry c := by
    rw [Pipeline.ownSems0_none]
    have hsplit : (unscopedBufs c (V20 m ρ c) : sProp 𝕄) ⊢ iprop((pdats m ρ 10 c).arrays ((pdats m ρ 10 c).arrAt · 0)
        ∗ Pipeline.unscopedRest (Ix := Unit) (Name := ℕ) (U := Pipeline.UD sig nD τ) (Lvl := ℕ) spec10 c (V20 m ρ c)) :=
      arrays_of_unscopedBufs10 (V20 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V20 m ρ) c).Φ 0 from rfl]
    exact (show _ ⊢ (Pipeline.ΦA spec10 c : sProp 𝕄) from by
      unfold Pipeline.ΦA
      iintro ⟨Hp, -, Hr⟩
      isplitl [Hr]; · iexact Hr
      iexact Hp).trans (hin10 (V20 m ρ) c)
  hout c := by
    rw [Pipeline.ownSems0_none, show (pdats m ρ 10 c).Φ (Fin.last _) = (dat10 (V20 m ρ) c).Φ (Fin.last _) from rfl]
    exact (hout10 (V20 m ρ) c).trans (by
      unfold Pipeline.ΦA
      iintro ⟨Hr, Hp⟩
      isplitl [Hp]; · iexact Hp
      isplitr; · iempintro
      iexact Hr)
  hexit c := by
    have hjoin : iprop((pdats m ρ 10 c).arrays ((pdats m ρ 10 c).arrAt · cfg10.N)
        ∗ Pipeline.unscopedRest (Ix := Unit) (Name := ℕ) (U := Pipeline.UD sig nD τ) (Lvl := ℕ) spec10 c (V20 m ρ c)) ⊢ (unscopedBufs c (V21 m ρ c) : sProp 𝕄) :=
      unscopedBufs_of_arrays10 (V20 m ρ) c (V21 m ρ c) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 21 segments in order: a host segment per stretch from its boundary's contents, a region per kernel call. -/
noncomputable abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .region (reg10 m ρ) ]

/-- @main is the run of the segments: it is the chain of its items, and the segments' run is that chain. -/
theorem main_run (c : Dev nD) : main (F := F) c = Pipeline.Seg.run (segs m ρ) := (main_chain c).trans (by chain_rfl)

/-- The buffer contents when @main returns. -/
noncomputable abbrev W_last : Dev nD → Valuation τ sig (Elt F) := W21 m ρ

set_option backward.isDefEq.respectTransparency.types false in
/-- The launch over the segments, at any postcondition that follows from "every unscoped buffer of every core holds the
    last boundary's contents". -/
theorem run_post (Q : PUnit × MemSt nD τ sig (Elt F) → Prop)
    (hQ : ∀ s : MemSt nD τ sig (Elt F), (∀ c : Dev nD, ∀ b ∈ Pipeline.ucRefs τ sig, s.mem (((c : Thread nD τ)).1, b) = W_last m ρ c b) → Q (⟨⟩, s)) :
    θ_run defs (onTc (τ := τ) (main (F := F))) ⟨m, fun _ => 0, ρ⟩ Q :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W_last m ρ c b)
    (hfin := fun c s' => by
      iintro ⟨⟨Hh, -⟩, HSI⟩
      unfold StableHlo.held
      imodintro
      iapply (pointsTo_read_all (Pipeline.ucRefs τ sig) (fun b => (((c : Thread nD τ)).1, b)) (W_last m ρ c) s')
      isplitl [Hh] <;> iassumption)
    (hQ := hQ)

/-- Every weakly fair execution of @main terminates, and in every final state each unscoped buffer of each core holds
    the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W_last m ρ c b) :=
  run_post m ρ _ fun s h => h

theorem W_last_main_arg0 (c : Dev nD) : W_last m ρ c (Proc.devRef .tc main_arg0) = m ((c : Thread nD τ).loc main_arg0) := W21_main_arg0 m ρ c
theorem W_last_main_arg1 (c : Dev nD) : W_last m ρ c (Proc.devRef .tc main_arg1) = m ((c : Thread nD τ).loc main_arg1) := W21_main_arg1 m ρ c
theorem W_last_main_arg2 (c : Dev nD) : W_last m ρ c (Proc.devRef .tc main_arg2) = m ((c : Thread nD τ).loc main_arg2) := W21_main_arg2 m ρ c
theorem W_last_main_arg3 (c : Dev nD) : W_last m ρ c (Proc.devRef .tc main_arg3) = m ((c : Thread nD τ).loc main_arg3) := W21_main_arg3 m ρ c
theorem W_last_main_arg4 (c : Dev nD) : W_last m ρ c (Proc.devRef .tc main_arg4) = m ((c : Thread nD τ).loc main_arg4) := W21_main_arg4 m ρ c
theorem W_last_main_arg5 (c : Dev nD) : W_last m ρ c (Proc.devRef .tc main_arg5) = m ((c : Thread nD τ).loc main_arg5) := W21_main_arg5 m ρ c
theorem W_last_main_arg6 (c : Dev nD) : W_last m ρ c (Proc.devRef .tc main_arg6) = m ((c : Thread nD τ).loc main_arg6) := W21_main_arg6 m ρ c
theorem W_last_main_arg7 (c : Dev nD) : W_last m ρ c (Proc.devRef .tc main_arg7) = m ((c : Thread nD τ).loc main_arg7) := W21_main_arg7 m ρ c
theorem W_last_main_arg8 (c : Dev nD) : W_last m ρ c (Proc.devRef .tc main_arg8) = m ((c : Thread nD τ).loc main_arg8) := W21_main_arg8 m ρ c
theorem W_last_main_arg9 (c : Dev nD) : W_last m ρ c (Proc.devRef .tc main_arg9) = m ((c : Thread nD τ).loc main_arg9) := W21_main_arg9 m ρ c
theorem W_last_main_arg10 (c : Dev nD) : W_last m ρ c (Proc.devRef .tc main_arg10) = m ((c : Thread nD τ).loc main_arg10) := W21_main_arg10 m ρ c
theorem W_last_main_arg11 (c : Dev nD) : W_last m ρ c (Proc.devRef .tc main_arg11) = m ((c : Thread nD τ).loc main_arg11) := W21_main_arg11 m ρ c

/-- The frame claim at any float instance: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_post m ρ _ fun s h c =>
    ⟨(h c _ (mem_uc main_arg0 (by decide))).trans (W_last_main_arg0 m ρ c),
     (h c _ (mem_uc main_arg1 (by decide))).trans (W_last_main_arg1 m ρ c),
     (h c _ (mem_uc main_arg2 (by decide))).trans (W_last_main_arg2 m ρ c),
     (h c _ (mem_uc main_arg3 (by decide))).trans (W_last_main_arg3 m ρ c),
     (h c _ (mem_uc main_arg4 (by decide))).trans (W_last_main_arg4 m ρ c),
     (h c _ (mem_uc main_arg5 (by decide))).trans (W_last_main_arg5 m ρ c),
     (h c _ (mem_uc main_arg6 (by decide))).trans (W_last_main_arg6 m ρ c),
     (h c _ (mem_uc main_arg7 (by decide))).trans (W_last_main_arg7 m ρ c),
     (h c _ (mem_uc main_arg8 (by decide))).trans (W_last_main_arg8 m ρ c),
     (h c _ (mem_uc main_arg9 (by decide))).trans (W_last_main_arg9 m ρ c),
     (h c _ (mem_uc main_arg10 (by decide))).trans (W_last_main_arg10 m ρ c),
     (h c _ (mem_uc main_arg11 (by decide))).trans (W_last_main_arg11 m ρ c)⟩

end Cert.KernelIdeal.Fr

end
-- ==== Proof.KI.Blocks0.lean ====
/-
  Where the blocks of the dense layer's windows sit in their arrays.

  The grid of the product `X · W + b` with `X` of 16384 × 256 in row blocks of 2048 has 8 points; point `t` works on
  row block `t`. Element `(p, y)` of the block of `X` at `t` is `X (2048 · t + p, y)`; the matrix `W` of
  256 × 128 and the bias row are read whole at every point; the result's block at `t` is rows `2048 · t …` of
  the 16384 × 128 result, written back at every point.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t`. -/
theorem idx0_0 : ∀ t : Fin cfg0.N, win0_0.index t 0 = t.val ∧ win0_0.index t 1 = 0 :=
  (by decide +kernel : ∀ t : Fin grid0.N, win0_0.index t 0 = t.val ∧ win0_0.index t 1 = 0)

theorem idx0_1 : ∀ t : Fin cfg0.N, win0_1.index t 0 = 0 ∧ win0_1.index t 1 = 0 :=
  (by decide +kernel : ∀ t : Fin grid0.N, win0_1.index t 0 = 0 ∧ win0_1.index t 1 = 0)

theorem idx0_2 : ∀ t : Fin cfg0.N, win0_2.index t 0 = 0 ∧ win0_2.index t 1 = 0 :=
  (by decide +kernel : ∀ t : Fin grid0.N, win0_2.index t 0 = 0 ∧ win0_2.index t 1 = 0)

theorem idx0_3 : ∀ t : Fin cfg0.N, win0_3.index t 0 = t.val ∧ win0_3.index t 1 = 0 :=
  (by decide +kernel : ∀ t : Fin grid0.N, win0_3.index t 0 = t.val ∧ win0_3.index t 1 = 0)

/-- Element `(p, y)` of the block of the left operand at point `t`. -/
theorem blk0_0_apply (c : Dev nD) (t : Fin cfg0.N) (p : Fin 2048) (y : Fin 256)
    (hp : 2048 * t.val + p.val < 16384) :
    ((cfg0.win 0).blk t).view.read (Elt F) (V c (Pipeline.arrRef spec0 0)) (ix2 p y)
      = V c main_arg0 (ix2 (⟨2048 * t.val + p.val, hp⟩ : Fin 16384) y) := by
  have hi := idx0_0 t
  rw [View.read_apply]
  show V c main_arg0 _ = V c main_arg0 _
  congr 1
  funext a
  apply Fin.ext
  match a with
  | ⟨0, _⟩ => show win0_0.index t 0 * 2048 + 1 * p.val = 2048 * t.val + p.val; rw [hi.1]; omega
  | ⟨1, _⟩ => show win0_0.index t 1 * 256 + 1 * y.val = y.val; rw [hi.2]; omega

/-- The right operand is read whole at every point. -/
theorem blk0_1_apply (c : Dev nD) (t : Fin cfg0.N) (y : Fin 256) (q : Fin 128) :
    ((cfg0.win 1).blk t).view.read (Elt F) (V c (Pipeline.arrRef spec0 1)) (ix2 y q)
      = V c main_arg2 (ix2 y q) := by
  have hi := idx0_1 t
  rw [View.read_apply]
  show V c main_arg2 _ = V c main_arg2 _
  congr 1
  funext a
  apply Fin.ext
  match a with
  | ⟨0, _⟩ => show win0_1.index t 0 * 256 + 1 * y.val = y.val; rw [hi.1]; omega
  | ⟨1, _⟩ => show win0_1.index t 1 * 128 + 1 * q.val = q.val; rw [hi.2]; omega

/-- The bias row is read whole at every point. -/
theorem blk0_2_apply (c : Dev nD) (t : Fin cfg0.N) (q : Fin 128) :
    ((cfg0.win 2).blk t).view.read (Elt F) (V c (Pipeline.arrRef spec0 2)) (ix2 (0 : Fin 1) q)
      = V c main_v59 (ix2 (0 : Fin 1) q) := by
  have hi := idx0_2 t
  rw [View.read_apply]
  show V c main_v59 _ = V c main_v59 _
  congr 1
  funext a
  apply Fin.ext
  match a with
  | ⟨0, _⟩ => show win0_2.index t 0 * 1 + 1 * 0 = 0; rw [hi.1]
  | ⟨1, _⟩ => show win0_2.index t 1 * 128 + 1 * q.val = q.val; rw [hi.2]; omega

/-- The output window's blocks are whole: 2048 rows of 128 columns at every point. -/
theorem xsize0_3 : ∀ t : Fin cfg0.N, win0_3.xsize (grid0.coords t) 0 = 2048 ∧ win0_3.xsize (grid0.coords t) 1 = 128 :=
  (by decide +kernel : ∀ t : Fin grid0.N, win0_3.xsize (grid0.coords t) 0 = 2048 ∧ win0_3.xsize (grid0.coords t) 1 = 128)

/-- Every point writes its block of the result back. -/
theorem flushall0_3 : ∀ t : Fin cfg0.N, (cfg0.win 3).flush t = true := flush0_3

/-- Every element of the result lies in the block written back at the point of its row block. -/
theorem cover0_3 (i : S16384x128.Idx) :
    ∃ t : Fin cfg0.N, (cfg0.win 3).flush t = true ∧ i ∈ ((cfg0.win 3).blk t).view.set := by
  have h0 : (i 0 : Nat) < 16384 := (i 0).isLt
  have h1 : (i 1 : Nat) < 128 := (i 1).isLt
  have hN : cfg0.N = 8 := N_0
  have ht : (i 0 : Nat) / 2048 < cfg0.N := by rw [hN]; omega
  obtain ⟨t, htv⟩ : ∃ t : Fin cfg0.N, t.val = (i 0 : Nat) / 2048 := ⟨⟨_, ht⟩, rfl⟩
  refine ⟨t, flush0_3 t, ?_⟩
  have hi := idx0_3 t
  have hx := xsize0_3 t
  show i ∈ ((View.whole main_v60).slice (win0_3.rect t)).set
  rw [View.set_slice_whole, Rect.mem_set_unit]
  intro a
  match a with
  | ⟨0, _⟩ =>
    show win0_3.index t 0 * 2048 ≤ (i 0 : Nat) ∧ (i 0 : Nat) < win0_3.index t 0 * 2048 + win0_3.xsize (grid0.coords t) 0
    rw [hi.1, hx.1, htv]
    omega
  | ⟨1, _⟩ =>
    show win0_3.index t 1 * 128 ≤ (i 1 : Nat) ∧ (i 1 : Nat) < win0_3.index t 1 * 128 + win0_3.xsize (grid0.coords t) 1
    rw [hi.2, hx.2]
    omega

end Cert.KernelIdeal.Fr

end
-- ==== Proof.KI.Payloads.lean ====
/-
  The kernels' payloads read at an index, at the ideal values (floats are extended reals, every operation exact, a format
  change the identity). For each of the ten matmul calls: the accumulator's reset value is zero; the accumulate step is the
  accumulator plus the sum over the contracted axis of the products of the two blocks' entries; the finish step adds the
  bias row, and for the calls with a rectifier takes the maximum with zero. For the a @ bᵀ call the payload is the sum of
  the products of a row of the first block with a row of the second. Every statement is over the literal block shapes and
  literal coordinate types.
-/
import proofs.«127812_j6760278524061_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

open scoped BigOperators

namespace Cert.KernelIdeal.Pay

open Idealize.ShloMosaic Idealize.SL.Sem Idealize.ShloMosaic.ValueIdx Cert.KernelIdeal Cert.KernelIdeal.Gen

/-! ## Matmul call 0: a [2048, 256] block times a [256, 128] block -/

/-- The accumulator's reset value is zero everywhere. -/
theorem pay1_0_apply (p : Fin 2048) (q : Fin 128) : k0_pay1 (F := Ideal) (ix2 p q) = 0 := by
  unfold k0_pay1
  rw [shapeCast_self]
  exact Ideal.ofBits_zero_f32

theorem mm_0_lhs0 (j : S2048x128.Idx) (c : dot_S2048x256_S256x128_S2048x128_1_0_0_1_n_n.contr.Idx) :
    (dot_S2048x256_S256x128_S2048x128_1_0_0_1_n_n.lhsIdx j c 0).val = (j 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem mm_0_rhs1 (j : S2048x128.Idx) (c : dot_S2048x256_S256x128_S2048x128_1_0_0_1_n_n.contr.Idx) :
    (dot_S2048x256_S256x128_S2048x128_1_0_0_1_n_n.rhsIdx j c 1).val = (j 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product of a [2048, 256] by a [256, 128] matrix into a zero accumulator, read at row p and column q, is the
    sum over the contracted axis of the products of the row's and the column's entries. -/
theorem mm_0 (a : FVec Ideal S2048x256 .bf16) (b : FVec Ideal S256x128 .bf16) (p : Fin 2048) (q : Fin 128) :
    matmul (F := Ideal) dot_S2048x256_S256x128_S2048x128_1_0_0_1_n_n none a b (constant (F := Ideal) S2048x128 .f32 0x00000000#32) (ix2 p q)
      = ∑ k : Fin 256, a (ix2 p k) * b (ix2 k q) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun c => Fin.ext (by
    match c with
    | ⟨0, _⟩ => exact mm_0_lhs0 _ _
    | ⟨1, _⟩ => exact (dot_S2048x256_S256x128_S2048x128_1_0_0_1_n_n.lhsIdx_val_of_single rfl _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun c => Fin.ext (by
    match c with
    | ⟨0, _⟩ => exact (dot_S2048x256_S256x128_S2048x128_1_0_0_1_n_n.rhsIdx_val_of_single rfl _ _).trans hk
    | ⟨1, _⟩ => exact mm_0_rhs1 _ _)
  rw [el, er]

/-- The accumulate step adds to the accumulator the product of the two blocks (narrowing a format is the identity on
    extended reals). -/
theorem pay2_0_apply (x0 : FVec Ideal S2048x256 .f32) (x1 : FVec Ideal S256x128 .f32) (acc : FVec Ideal S2048x128 .f32) (p : Fin 2048) (q : Fin 128) :
    k0_pay2 (F := Ideal) x0 x1 acc (ix2 p q) = acc (ix2 p q) + ∑ k : Fin 256, x0 (ix2 p k) * x1 (ix2 k q) := by
  unfold k0_pay2
  simp only [shapeCast_self]
  rw [addf_apply, mm_0]
  rfl

/-- The finish step adds the bias row to every row. -/
theorem pay3_0_apply (acc : FVec Ideal S2048x128 .f32) (bias : FVec Ideal S1x128 .f32) (p : Fin 2048) (q : Fin 128) :
    k0_pay3 (F := Ideal) acc bias (ix2 p q) = acc (ix2 p q) + bias (ix2 (0 : Fin 1) q) := by
  unfold k0_pay3
  rw [addf_apply, broadcastTo_1b_ab_apply, shapeCast_self]

/-! ## Matmul call 1: a [1024, 2048] block times a [2048, 128] block -/

/-- The accumulator's reset value is zero everywhere. -/
theorem pay1_1_apply (p : Fin 1024) (q : Fin 128) : k1_pay1 (F := Ideal) (ix2 p q) = 0 := by
  unfold k1_pay1
  rw [shapeCast_self]
  exact Ideal.ofBits_zero_f32

theorem mm_1_lhs0 (j : S1024x128.Idx) (c : dot_S1024x2048_S2048x128_S1024x128_1_0_0_1_n_n.contr.Idx) :
    (dot_S1024x2048_S2048x128_S1024x128_1_0_0_1_n_n.lhsIdx j c 0).val = (j 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem mm_1_rhs1 (j : S1024x128.Idx) (c : dot_S1024x2048_S2048x128_S1024x128_1_0_0_1_n_n.contr.Idx) :
    (dot_S1024x2048_S2048x128_S1024x128_1_0_0_1_n_n.rhsIdx j c 1).val = (j 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product of a [1024, 2048] by a [2048, 128] matrix into a zero accumulator, read at row p and column q, is the
    sum over the contracted axis of the products of the row's and the column's entries. -/
theorem mm_1 (a : FVec Ideal S1024x2048 .bf16) (b : FVec Ideal S2048x128 .bf16) (p : Fin 1024) (q : Fin 128) :
    matmul (F := Ideal) dot_S1024x2048_S2048x128_S1024x128_1_0_0_1_n_n none a b (constant (F := Ideal) S1024x128 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun c => Fin.ext (by
    match c with
    | ⟨0, _⟩ => exact mm_1_lhs0 _ _
    | ⟨1, _⟩ => exact (dot_S1024x2048_S2048x128_S1024x128_1_0_0_1_n_n.lhsIdx_val_of_single rfl _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun c => Fin.ext (by
    match c with
    | ⟨0, _⟩ => exact (dot_S1024x2048_S2048x128_S1024x128_1_0_0_1_n_n.rhsIdx_val_of_single rfl _ _).trans hk
    | ⟨1, _⟩ => exact mm_1_rhs1 _ _)
  rw [el, er]

/-- The accumulate step adds to the accumulator the product of the two blocks (narrowing a format is the identity on
    extended reals). -/
theorem pay2_1_apply (x0 : FVec Ideal S1024x2048 .bf16) (x1 : FVec Ideal S2048x128 .f32) (acc : FVec Ideal S1024x128 .f32) (p : Fin 1024) (q : Fin 128) :
    k1_pay2 (F := Ideal) x0 x1 acc (ix2 p q) = acc (ix2 p q) + ∑ k : Fin 2048, x0 (ix2 p k) * x1 (ix2 k q) := by
  unfold k1_pay2
  simp only [shapeCast_self]
  rw [addf_apply, mm_1]
  rfl

/-- The finish step adds the bias row to every row and takes the maximum with zero. -/
theorem pay3_1_apply (acc : FVec Ideal S1024x128 .f32) (bias : FVec Ideal S1x128 .f32) (p : Fin 1024) (q : Fin 128) :
    k1_pay3 (F := Ideal) acc bias (ix2 p q) = max (acc (ix2 p q) + bias (ix2 (0 : Fin 1) q)) 0 := by
  unfold k1_pay3
  rw [maximumf_apply, addf_apply, broadcastTo_1b_ab_apply, shapeCast_self, broadcast_apply]
  exact congrArg (max _) Ideal.ofBits_zero_f32

/-! ## Matmul call 2: a [2048, 128] block times a [128, 64] block -/

/-- The accumulator's reset value is zero everywhere. -/
theorem pay1_2_apply (p : Fin 2048) (q : Fin 64) : k2_pay1 (F := Ideal) (ix2 p q) = 0 := by
  unfold k2_pay1
  rw [shapeCast_self]
  exact Ideal.ofBits_zero_f32

theorem mm_2_lhs0 (j : S2048x64.Idx) (c : dot_S2048x128_S128x64_S2048x64_1_0_0_1_n_n.contr.Idx) :
    (dot_S2048x128_S128x64_S2048x64_1_0_0_1_n_n.lhsIdx j c 0).val = (j 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem mm_2_rhs1 (j : S2048x64.Idx) (c : dot_S2048x128_S128x64_S2048x64_1_0_0_1_n_n.contr.Idx) :
    (dot_S2048x128_S128x64_S2048x64_1_0_0_1_n_n.rhsIdx j c 1).val = (j 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- The product of a [2048, 128] by a [128, 64] matrix into a zero accumulator, read at row p and column q, is the
    sum over the contracted axis of the products of the row's and the column's entries. -/
theorem mm_2 (a : FVec Ideal S2048x128 .bf16) (b : FVec Ideal S128x64 .bf16) (p : Fin 2048) (q : Fin 64) :
    matmul (F := Ideal) dot_S2048x128_S128x64_S2048x64_1_0_0_1_n_n none a b (constant (F := Ideal) S2048x64 .f32 0x00000000#32) (ix2 p q)
      = ∑ k : Fin 128, a (ix2 p k) * b (ix2 k q) := by
  simp only [matmul]
  rw [Ideal.matmul_constant_zero_apply, ← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx (ix2 p q) ((contrEquiv1 dot_S2048x128_S128x64_S2048x64_1_0_0_1_n_n 128 rfl rfl).symm k) = ix2 p k := funext fun c => Fin.ext (by
    match c with
    | ⟨0, _⟩ => exact mm_2_lhs0 _ _
    | ⟨1, _⟩ => exact (dot_S2048x128_S128x64_S2048x64_1_0_0_1_n_n.lhsIdx_val_of_single rfl _ _).trans hk)
  have er : dot_S2048x128_S128x64_S2048x64_1_0_0_1_n_n.rhsIdx (ix2 p q) ((contrEquiv1 dot_S2048x128_S128x64_S2048x64_1_0_0_1_n_n 128 rfl rfl).symm k) = ix2 k q := funext fun c => Fin.ext (by
    match c with
    | ⟨0, _⟩ => exact (dot_S2048x128_S128x64_S2048x64_1_0_0_1_n_n.rhsIdx_val_of_single rfl _ _).trans hk
    | ⟨1, _⟩ => exact mm_2_rhs1 _ _)
  rw [el, er]

/-- The accumulate step adds to the accumulator the product of the two blocks (narrowing a format is the identity on
    extended reals). -/
theorem pay2_2_apply (x0 : FVec Ideal S2048x128 .f32) (x1 : FVec Ideal S128x64 .f32) (acc : FVec Ideal S2048x64 .f32) (p : Fin 2048) (q : Fin 64) :
    k2_pay2 (F := Ideal) x0 x1 acc (ix2 p q) = acc (ix2 p q) + ∑ k : Fin 128, x0 (ix2 p k) * x1 (ix2 k q) := by
  unfold k2_pay2
  simp only [shapeCast_self]
  rw [addf_apply, mm_2]
  rfl

/-- The finish step adds the bias row to every row. -/
theorem pay3_2_apply (acc : FVec Ideal S2048x64 .f32) (bias : FVec Ideal S1x64 .f32) (p : Fin 2048) (q : Fin 64) :
    k2_pay3 (F := Ideal) acc bias (ix2 p q) = acc (ix2 p q) + bias (ix2 (0 : Fin 1) q) := by
  unfold k2_pay3
  rw [addf_apply, broadcastTo_1b_ab_apply, shapeCast_self]

/-! ## Matmul call 3: a [1024, 2048] block times a [2048, 64] block -/

/-- The accumulator's reset value is zero everywhere. -/
theorem pay1_3_apply (p : Fin 1024) (q : Fin 64) : k3_pay1 (F := Ideal) (ix2 p q) = 0 := by
  unfold k3_pay1
  rw [shapeCast_self]
  exact Ideal.ofBits_zero_f32

theorem mm_3_lhs0 (j : S1024x64.Idx) (c : dot_S1024x2048_S2048x64_S1024x64_1_0_0_1_n_n.contr.Idx) :
    (dot_S1024x2048_S2048x64_S1024x64_1_0_0_1_n_n.lhsIdx j c 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem mm_3_rhs1 (j : S1024x64.Idx) (c : dot_S1024x2048_S2048x64_S1024x64_1_0_0_1_n_n.contr.Idx) :
    (dot_S1024x2048_S2048x64_S1024x64_1_0_0_1_n_n.rhsIdx j c 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The product of a [1024, 2048] by a [2048, 64] matrix into a zero accumulator, read at row p and column q, is the
    sum over the contracted axis of the products of the row's and the column's entries. -/
theorem mm_3 (a : FVec Ideal S1024x2048 .bf16) (b : FVec Ideal S2048x64 .bf16) (p : Fin 1024) (q : Fin 64) :
    matmul (F := Ideal) dot_S1024x2048_S2048x64_S1024x64_1_0_0_1_n_n none a b (constant (F := Ideal) S1024x64 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p q) ((contrEquiv1 dot_S1024x2048_S2048x64_S1024x64_1_0_0_1_n_n 2048 rfl rfl).symm k) = ix2 p k := funext fun c => Fin.ext (by
    match c with
    | ⟨0, _⟩ => exact mm_3_lhs0 _ _
    | ⟨1, _⟩ => exact (dot_S1024x2048_S2048x64_S1024x64_1_0_0_1_n_n.lhsIdx_val_of_single rfl _ _).trans hk)
  have er : dot_S1024x2048_S2048x64_S1024x64_1_0_0_1_n_n.rhsIdx (ix2 p q) ((contrEquiv1 dot_S1024x2048_S2048x64_S1024x64_1_0_0_1_n_n 2048 rfl rfl).symm k) = ix2 k q := funext fun c => Fin.ext (by
    match c with
    | ⟨0, _⟩ => exact (dot_S1024x2048_S2048x64_S1024x64_1_0_0_1_n_n.rhsIdx_val_of_single rfl _ _).trans hk
    | ⟨1, _⟩ => exact mm_3_rhs1 _ _)
  rw [el, er]

/-- The accumulate step adds to the accumulator the product of the two blocks (narrowing a format is the identity on
    extended reals). -/
theorem pay2_3_apply (x0 : FVec Ideal S1024x2048 .bf16) (x1 : FVec Ideal S2048x64 .f32) (acc : FVec Ideal S1024x64 .f32) (p : Fin 1024) (q : Fin 64) :
    k3_pay2 (F := Ideal) x0 x1 acc (ix2 p q) = acc (ix2 p q) + ∑ k : Fin 2048, x0 (ix2 p k) * x1 (ix2 k q) := by
  unfold k3_pay2
  simp only [shapeCast_self]
  rw [addf_apply, mm_3]
  rfl

/-- The finish step adds the bias row to every row and takes the maximum with zero. -/
theorem pay3_3_apply (acc : FVec Ideal S1024x64 .f32) (bias : FVec Ideal S1x64 .f32) (p : Fin 1024) (q : Fin 64) :
    k3_pay3 (F := Ideal) acc bias (ix2 p q) = max (acc (ix2 p q) + bias (ix2 (0 : Fin 1) q)) 0 := by
  unfold k3_pay3
  rw [maximumf_apply, addf_apply, broadcastTo_1b_ab_apply, shapeCast_self, broadcast_apply]
  exact congrArg (max _) Ideal.ofBits_zero_f32

/-! ## Matmul call 4: a [2048, 64] block times a [64, 128] block -/

/-- The accumulator's reset value is zero everywhere. -/
theorem pay1_4_apply (p : Fin 2048) (q : Fin 128) : k4_pay1 (F := Ideal) (ix2 p q) = 0 := by
  unfold k4_pay1
  rw [shapeCast_self]
  exact Ideal.ofBits_zero_f32

theorem mm_4_lhs0 (j : S2048x128.Idx) (c : dot_S2048x64_S64x128_S2048x128_1_0_0_1_n_n.contr.Idx) :
    (dot_S2048x64_S64x128_S2048x128_1_0_0_1_n_n.lhsIdx j c 0).val = (j 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
theorem mm_4_rhs1 (j : S2048x128.Idx) (c : dot_S2048x64_S64x128_S2048x128_1_0_0_1_n_n.contr.Idx) :
    (dot_S2048x64_S64x128_S2048x128_1_0_0_1_n_n.rhsIdx j c 1).val = (j 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl

/-- The product of a [2048, 64] by a [64, 128] matrix into a zero accumulator, read at row p and column q, is the
    sum over the contracted axis of the products of the row's and the column's entries. -/
theorem mm_4 (a : FVec Ideal S2048x64 .bf16) (b : FVec Ideal S64x128 .bf16) (p : Fin 2048) (q : Fin 128) :
    matmul (F := Ideal) dot_S2048x64_S64x128_S2048x128_1_0_0_1_n_n none a b (constant (F := Ideal) S2048x128 .f32 0x00000000#32) (ix2 p q)
      = ∑ k : Fin 64, a (ix2 p k) * b (ix2 k q) := by
  simp only [matmul]
  rw [Ideal.matmul_constant_zero_apply, ← Equiv.sum_comp (contrEquiv1 dot_S2048x64_S64x128_S2048x128_1_0_0_1_n_n 64 rfl rfl).symm]
  refine Finset.sum_congr rfl fun k _ => ?_
  have hk := contrEquiv1_symm_val dot_S2048x64_S64x128_S2048x128_1_0_0_1_n_n 64 rfl rfl k
  have el : dot_S2048x64_S64x128_S2048x128_1_0_0_1_n_n.lhsIdx (ix2 p q) ((contrEquiv1 dot_S2048x64_S64x128_S2048x128_1_0_0_1_n_n 64 rfl rfl).symm k) = ix2 p k := funext fun c => Fin.ext (by
    match c with
    | ⟨0, _⟩ => exact mm_4_lhs0 _ _
    | ⟨1, _⟩ => exact (dot_S2048x64_S64x128_S2048x128_1_0_0_1_n_n.lhsIdx_val_of_single rfl _ _).trans hk)
  have er : dot_S2048x64_S64x128_S2048x128_1_0_0_1_n_n.rhsIdx (ix2 p q) ((contrEquiv1 dot_S2048x64_S64x128_S2048x128_1_0_0_1_n_n 64 rfl rfl).symm k) = ix2 k q := funext fun c => Fin.ext (by
    match c with
    | ⟨0, _⟩ => exact (dot_S2048x64_S64x128_S2048x128_1_0_0_1_n_n.rhsIdx_val_of_single rfl _ _).trans hk
    | ⟨1, _⟩ => exact mm_4_rhs1 _ _)
  rw [el, er]

/-- The accumulate step adds to the accumulator the product of the two blocks (narrowing a format is the identity on
    extended reals). -/
theorem pay2_4_apply (x0 : FVec Ideal S2048x64 .f32) (x1 : FVec Ideal S64x128 .f32) (acc : FVec Ideal S2048x128 .f32) (p : Fin 2048) (q : Fin 128) :
    k4_pay2 (F := Ideal) x0 x1 acc (ix2 p q) = acc (ix2 p q) + ∑ k : Fin 64, x0 (ix2 p k) * x1 (ix2 k q) := by
  unfold k4_pay2
  simp only [shapeCast_self]
  rw [addf_apply, mm_4]
  rfl

/-- The finish step adds the bias row to every row. -/
theorem pay3_4_apply (acc : FVec Ideal S2048x128 .f32) (bias : FVec Ideal S1x128 .f32) (p : Fin 2048) (q : Fin 128) :
    k4_pay3 (F := Ideal) acc bias (ix2 p q) = acc (ix2 p q) + bias (ix2 (0 : Fin 1) q) := by
  unfold k4_pay3
  rw [addf_apply, broadcastTo_1b_ab_apply, shapeCast_self]

/-! ## Matmul call 5: a [1024, 2048] block times a [2048, 128] block -/

/-- The accumulator's reset value is zero everywhere. -/
theorem pay1_5_apply (p : Fin 1024) (q : Fin 128) : k5_pay1 (F := Ideal) (ix2 p q) = 0 := by
  unfold k5_pay1
  rw [shapeCast_self]
  exact Ideal.ofBits_zero_f32

theorem mm_5_lhs0 (j : S1024x128.Idx) (c : dot_S1024x2048_S2048x128_S1024x128_1_0_0_1_n_n.contr.Idx) :
    (dot_S1024x2048_S2048x128_S1024x128_1_0_0_1_n_n.lhsIdx j c 0).val = (j 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem mm_5_rhs1 (j : S1024x128.Idx) (c : dot_S1024x2048_S2048x128_S1024x128_1_0_0_1_n_n.contr.Idx) :
    (dot_S1024x2048_S2048x128_S1024x128_1_0_0_1_n_n.rhsIdx j c 1).val = (j 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product of a [1024, 2048] by a [2048, 128] matrix into a zero accumulator, read at row p and column q, is the
    sum over the contracted axis of the products of the row's and the column's entries. -/
theorem mm_5 (a : FVec Ideal S1024x2048 .bf16) (b : FVec Ideal S2048x128 .bf16) (p : Fin 1024) (q : Fin 128) :
    matmul (F := Ideal) dot_S1024x2048_S2048x128_S1024x128_1_0_0_1_n_n none a b (constant (F := Ideal) S1024x128 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun c => Fin.ext (by
    match c with
    | ⟨0, _⟩ => exact mm_5_lhs0 _ _
    | ⟨1, _⟩ => exact (dot_S1024x2048_S2048x128_S1024x128_1_0_0_1_n_n.lhsIdx_val_of_single rfl _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun c => Fin.ext (by
    match c with
    | ⟨0, _⟩ => exact (dot_S1024x2048_S2048x128_S1024x128_1_0_0_1_n_n.rhsIdx_val_of_single rfl _ _).trans hk
    | ⟨1, _⟩ => exact mm_5_rhs1 _ _)
  rw [el, er]

/-- The accumulate step adds to the accumulator the product of the two blocks (narrowing a format is the identity on
    extended reals). -/
theorem pay2_5_apply (x0 : FVec Ideal S1024x2048 .bf16) (x1 : FVec Ideal S2048x128 .f32) (acc : FVec Ideal S1024x128 .f32) (p : Fin 1024) (q : Fin 128) :
    k5_pay2 (F := Ideal) x0 x1 acc (ix2 p q) = acc (ix2 p q) + ∑ k : Fin 2048, x0 (ix2 p k) * x1 (ix2 k q) := by
  unfold k5_pay2
  simp only [shapeCast_self]
  rw [addf_apply, mm_5]
  rfl

/-- The finish step adds the bias row to every row and takes the maximum with zero. -/
theorem pay3_5_apply (acc : FVec Ideal S1024x128 .f32) (bias : FVec Ideal S1x128 .f32) (p : Fin 1024) (q : Fin 128) :
    k5_pay3 (F := Ideal) acc bias (ix2 p q) = max (acc (ix2 p q) + bias (ix2 (0 : Fin 1) q)) 0 := by
  unfold k5_pay3
  rw [maximumf_apply, addf_apply, broadcastTo_1b_ab_apply, shapeCast_self, broadcast_apply]
  exact congrArg (max _) Ideal.ofBits_zero_f32

/-! ## Matmul call 6: a [2048, 128] block times a [128, 256] block -/

/-- The accumulator's reset value is zero everywhere. -/
theorem pay1_6_apply (p : Fin 2048) (q : Fin 256) : k6_pay1 (F := Ideal) (ix2 p q) = 0 := by
  unfold k6_pay1
  rw [shapeCast_self]
  exact Ideal.ofBits_zero_f32

theorem mm_6_lhs0 (j : S2048x256.Idx) (c : dot_S2048x128_S128x256_S2048x256_1_0_0_1_n_n.contr.Idx) :
    (dot_S2048x128_S128x256_S2048x256_1_0_0_1_n_n.lhsIdx j c 0).val = (j 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem mm_6_rhs1 (j : S2048x256.Idx) (c : dot_S2048x128_S128x256_S2048x256_1_0_0_1_n_n.contr.Idx) :
    (dot_S2048x128_S128x256_S2048x256_1_0_0_1_n_n.rhsIdx j c 1).val = (j 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The product of a [2048, 128] by a [128, 256] matrix into a zero accumulator, read at row p and column q, is the
    sum over the contracted axis of the products of the row's and the column's entries. -/
theorem mm_6 (a : FVec Ideal S2048x128 .bf16) (b : FVec Ideal S128x256 .bf16) (p : Fin 2048) (q : Fin 256) :
    matmul (F := Ideal) dot_S2048x128_S128x256_S2048x256_1_0_0_1_n_n none a b (constant (F := Ideal) S2048x256 .f32 0x00000000#32) (ix2 p q)
      = ∑ k : Fin 128, a (ix2 p k) * b (ix2 k q) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k := funext fun c => Fin.ext (by
    match c with
    | ⟨0, _⟩ => exact mm_6_lhs0 _ _
    | ⟨1, _⟩ => exact (dot_S2048x128_S128x256_S2048x256_1_0_0_1_n_n.lhsIdx_val_of_single rfl _ _).trans hk)
  have er : dot_S2048x128_S128x256_S2048x256_1_0_0_1_n_n.rhsIdx (ix2 p q) ((contrEquiv1 dot_S2048x128_S128x256_S2048x256_1_0_0_1_n_n 128 rfl rfl).symm k) = ix2 k q := funext fun c => Fin.ext (by
    match c with
    | ⟨0, _⟩ => exact (dot_S2048x128_S128x256_S2048x256_1_0_0_1_n_n.rhsIdx_val_of_single rfl _ _).trans hk
    | ⟨1, _⟩ => exact mm_6_rhs1 _ _)
  rw [el, er]

/-- The accumulate step adds to the accumulator the product of the two blocks (narrowing a format is the identity on
    extended reals). -/
theorem pay2_6_apply (x0 : FVec Ideal S2048x128 .f32) (x1 : FVec Ideal S128x256 .f32) (acc : FVec Ideal S2048x256 .f32) (p : Fin 2048) (q : Fin 256) :
    k6_pay2 (F := Ideal) x0 x1 acc (ix2 p q) = acc (ix2 p q) + ∑ k : Fin 128, x0 (ix2 p k) * x1 (ix2 k q) := by
  unfold k6_pay2
  simp only [shapeCast_self]
  rw [addf_apply, mm_6]
  rfl

/-- The finish step adds the bias row to every row. -/
theorem pay3_6_apply (acc : FVec Ideal S2048x256 .f32) (bias : FVec Ideal S1x256 .f32) (p : Fin 2048) (q : Fin 256) :
    k6_pay3 (F := Ideal) acc bias (ix2 p q) = acc (ix2 p q) + bias (ix2 (0 : Fin 1) q) := by
  unfold k6_pay3
  rw [addf_apply, broadcastTo_1b_ab_apply, shapeCast_self]

/-! ## Matmul call 7: a [1024, 2048] block times a [2048, 256] block -/

/-- The accumulator's reset value is zero everywhere. -/
theorem pay1_7_apply (p : Fin 1024) (q : Fin 256) : k7_pay1 (F := Ideal) (ix2 p q) = 0 := by
  unfold k7_pay1
  rw [shapeCast_self]
  exact Ideal.ofBits_zero_f32

theorem mm_7_lhs0 (j : S1024x256.Idx) (c : dot_S1024x2048_S2048x256_S1024x256_1_0_0_1_n_n.contr.Idx) :
    (dot_S1024x2048_S2048x256_S1024x256_1_0_0_1_n_n.lhsIdx j c 0).val = (j 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem mm_7_rhs1 (j : S1024x256.Idx) (c : dot_S1024x2048_S2048x256_S1024x256_1_0_0_1_n_n.contr.Idx) :
    (dot_S1024x2048_S2048x256_S1024x256_1_0_0_1_n_n.rhsIdx j c 1).val = (j 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The product of a [1024, 2048] by a [2048, 256] matrix into a zero accumulator, read at row p and column q, is the
    sum over the contracted axis of the products of the row's and the column's entries. -/
theorem mm_7 (a : FVec Ideal S1024x2048 .bf16) (b : FVec Ideal S2048x256 .bf16) (p : Fin 1024) (q : Fin 256) :
    matmul (F := Ideal) dot_S1024x2048_S2048x256_S1024x256_1_0_0_1_n_n none a b (constant (F := Ideal) S1024x256 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q) ((contrEquiv1 dot_S1024x2048_S2048x256_S1024x256_1_0_0_1_n_n 2048 rfl rfl).symm k) = ix2 p k := funext fun c => Fin.ext (by
    match c with
    | ⟨0, _⟩ => exact mm_7_lhs0 _ _
    | ⟨1, _⟩ => exact (dot_S1024x2048_S2048x256_S1024x256_1_0_0_1_n_n.lhsIdx_val_of_single rfl _ _).trans hk)
  have er : dot_S1024x2048_S2048x256_S1024x256_1_0_0_1_n_n.rhsIdx (ix2 p q) ((contrEquiv1 dot_S1024x2048_S2048x256_S1024x256_1_0_0_1_n_n 2048 rfl rfl).symm k) = ix2 k q := funext fun c => Fin.ext (by
    match c with
    | ⟨0, _⟩ => exact (dot_S1024x2048_S2048x256_S1024x256_1_0_0_1_n_n.rhsIdx_val_of_single rfl _ _).trans hk
    | ⟨1, _⟩ => exact mm_7_rhs1 _ _)
  rw [el, er]

/-- The accumulate step adds to the accumulator the product of the two blocks (narrowing a format is the identity on
    extended reals). -/
theorem pay2_7_apply (x0 : FVec Ideal S1024x2048 .bf16) (x1 : FVec Ideal S2048x256 .f32) (acc : FVec Ideal S1024x256 .f32) (p : Fin 1024) (q : Fin 256) :
    k7_pay2 (F := Ideal) x0 x1 acc (ix2 p q) = acc (ix2 p q) + ∑ k : Fin 2048, x0 (ix2 p k) * x1 (ix2 k q) := by
  unfold k7_pay2
  simp only [shapeCast_self]
  rw [addf_apply, mm_7]
  rfl

/-- The finish step adds the bias row to every row. -/
theorem pay3_7_apply (acc : FVec Ideal S1024x256 .f32) (bias : FVec Ideal S1x256 .f32) (p : Fin 1024) (q : Fin 256) :
    k7_pay3 (F := Ideal) acc bias (ix2 p q) = acc (ix2 p q) + bias (ix2 (0 : Fin 1) q) := by
  unfold k7_pay3
  rw [addf_apply, broadcastTo_1b_ab_apply, shapeCast_self]

/-! ## Matmul call 8: a [2048, 64] block times a [64, 64] block -/

/-- The accumulator's reset value is zero everywhere. -/
theorem pay1_8_apply (p : Fin 2048) (q : Fin 64) : k8_pay1 (F := Ideal) (ix2 p q) = 0 := by
  unfold k8_pay1
  rw [shapeCast_self]
  exact Ideal.ofBits_zero_f32

theorem mm_8_lhs0 (j : S2048x64.Idx) (c : dot_S2048x64_S64x64_S2048x64_1_0_0_1_n_n.contr.Idx) :
    (dot_S2048x64_S64x64_S2048x64_1_0_0_1_n_n.lhsIdx j c 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem mm_8_rhs1 (j : S2048x64.Idx) (c : dot_S2048x64_S64x64_S2048x64_1_0_0_1_n_n.contr.Idx) :
    (dot_S2048x64_S64x64_S2048x64_1_0_0_1_n_n.rhsIdx j c 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The product of a [2048, 64] by a [64, 64] matrix into a zero accumulator, read at row p and column q, is the
    sum over the contracted axis of the products of the row's and the column's entries. -/
theorem mm_8 (a : FVec Ideal S2048x64 .bf16) (b : FVec Ideal S64x64 .bf16) (p : Fin 2048) (q : Fin 64) :
    matmul (F := Ideal) dot_S2048x64_S64x64_S2048x64_1_0_0_1_n_n none a b (constant (F := Ideal) S2048x64 .f32 0x00000000#32) (ix2 p q)
      = ∑ k : Fin 64, a (ix2 p k) * b (ix2 k q) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p q) ((contrEquiv1 dot_S2048x64_S64x64_S2048x64_1_0_0_1_n_n 64 rfl rfl).symm k) = ix2 p k := funext fun c => Fin.ext (by
    match c with
    | ⟨0, _⟩ => exact mm_8_lhs0 _ _
    | ⟨1, _⟩ => exact (dot_S2048x64_S64x64_S2048x64_1_0_0_1_n_n.lhsIdx_val_of_single rfl _ _).trans hk)
  have er : dot_S2048x64_S64x64_S2048x64_1_0_0_1_n_n.rhsIdx (ix2 p q) ((contrEquiv1 dot_S2048x64_S64x64_S2048x64_1_0_0_1_n_n 64 rfl rfl).symm k) = ix2 k q := funext fun c => Fin.ext (by
    match c with
    | ⟨0, _⟩ => exact (dot_S2048x64_S64x64_S2048x64_1_0_0_1_n_n.rhsIdx_val_of_single rfl _ _).trans hk
    | ⟨1, _⟩ => exact mm_8_rhs1 _ _)
  rw [el, er]

/-- The accumulate step adds to the accumulator the product of the two blocks (narrowing a format is the identity on
    extended reals). -/
theorem pay2_8_apply (x0 : FVec Ideal S2048x64 .f32) (x1 : FVec Ideal S64x64 .f32) (acc : FVec Ideal S2048x64 .f32) (p : Fin 2048) (q : Fin 64) :
    k8_pay2 (F := Ideal) x0 x1 acc (ix2 p q) = acc (ix2 p q) + ∑ k : Fin 64, x0 (ix2 p k) * x1 (ix2 k q) := by
  unfold k8_pay2
  simp only [shapeCast_self]
  rw [addf_apply, mm_8]
  rfl

/-- The finish step adds the bias row to every row. -/
theorem pay3_8_apply (acc : FVec Ideal S2048x64 .f32) (bias : FVec Ideal S1x64 .f32) (p : Fin 2048) (q : Fin 64) :
    k8_pay3 (F := Ideal) acc bias (ix2 p q) = acc (ix2 p q) + bias (ix2 (0 : Fin 1) q) := by
  unfold k8_pay3
  rw [addf_apply, broadcastTo_1b_ab_apply, shapeCast_self]

/-! ## Matmul call 9: a [1024, 2048] block times a [2048, 64] block -/

/-- The accumulator's reset value is zero everywhere. -/
theorem pay1_9_apply (p : Fin 1024) (q : Fin 64) : k9_pay1 (F := Ideal) (ix2 p q) = 0 := by
  unfold k9_pay1
  rw [shapeCast_self]
  exact Ideal.ofBits_zero_f32

theorem mm_9_lhs0 (j : S1024x64.Idx) (c : dot_S1024x2048_S2048x64_S1024x64_1_0_0_1_n_n.contr.Idx) :
    (dot_S1024x2048_S2048x64_S1024x64_1_0_0_1_n_n.lhsIdx j c 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem mm_9_rhs1 (j : S1024x64.Idx) (c : dot_S1024x2048_S2048x64_S1024x64_1_0_0_1_n_n.contr.Idx) :
    (dot_S1024x2048_S2048x64_S1024x64_1_0_0_1_n_n.rhsIdx j c 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The product of a [1024, 2048] by a [2048, 64] matrix into a zero accumulator, read at row p and column q, is the
    sum over the contracted axis of the products of the row's and the column's entries. -/
theorem mm_9 (a : FVec Ideal S1024x2048 .bf16) (b : FVec Ideal S2048x64 .bf16) (p : Fin 1024) (q : Fin 64) :
    matmul (F := Ideal) dot_S1024x2048_S2048x64_S1024x64_1_0_0_1_n_n none a b (constant (F := Ideal) S1024x64 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p q) ((contrEquiv1 dot_S1024x2048_S2048x64_S1024x64_1_0_0_1_n_n 2048 rfl rfl).symm k) = ix2 p k := funext fun c => Fin.ext (by
    match c with
    | ⟨0, _⟩ => exact mm_9_lhs0 _ _
    | ⟨1, _⟩ => exact (dot_S1024x2048_S2048x64_S1024x64_1_0_0_1_n_n.lhsIdx_val_of_single rfl _ _).trans hk)
  have er : dot_S1024x2048_S2048x64_S1024x64_1_0_0_1_n_n.rhsIdx (ix2 p q) ((contrEquiv1 dot_S1024x2048_S2048x64_S1024x64_1_0_0_1_n_n 2048 rfl rfl).symm k) = ix2 k q := funext fun c => Fin.ext (by
    match c with
    | ⟨0, _⟩ => exact (dot_S1024x2048_S2048x64_S1024x64_1_0_0_1_n_n.rhsIdx_val_of_single rfl _ _).trans hk
    | ⟨1, _⟩ => exact mm_9_rhs1 _ _)
  rw [el, er]

/-- The accumulate step adds to the accumulator the product of the two blocks (narrowing a format is the identity on
    extended reals). -/
theorem pay2_9_apply (x0 : FVec Ideal S1024x2048 .bf16) (x1 : FVec Ideal S2048x64 .f32) (acc : FVec Ideal S1024x64 .f32) (p : Fin 1024) (q : Fin 64) :
    k9_pay2 (F := Ideal) x0 x1 acc (ix2 p q) = acc (ix2 p q) + ∑ k : Fin 2048, x0 (ix2 p k) * x1 (ix2 k q) := by
  unfold k9_pay2
  simp only [shapeCast_self]
  rw [addf_apply, mm_9]
  rfl

/-- The finish step adds the bias row to every row and takes the maximum with zero. -/
theorem pay3_9_apply (acc : FVec Ideal S1024x64 .f32) (bias : FVec Ideal S1x64 .f32) (p : Fin 1024) (q : Fin 64) :
    k9_pay3 (F := Ideal) acc bias (ix2 p q) = max (acc (ix2 p q) + bias (ix2 (0 : Fin 1) q)) 0 := by
  unfold k9_pay3
  rw [maximumf_apply, addf_apply, broadcastTo_1b_ab_apply, shapeCast_self, broadcast_apply]
  exact congrArg (max _) Ideal.ofBits_zero_f32

/-! ## The call a @ bᵀ: a [2048, 64] block times the transpose of a [1024, 64] block -/

theorem mm_10_lhs0 (j : S2048x1024.Idx) (c : dot_S2048x64_S64x1024_S2048x1024_1_0_0_1_n_n.contr.Idx) :
    (dot_S2048x64_S64x1024_S2048x1024_1_0_0_1_n_n.lhsIdx j c 0).val = (j 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
theorem mm_10_rhs1 (j : S2048x1024.Idx) (c : dot_S2048x64_S64x1024_S2048x1024_1_0_0_1_n_n.contr.Idx) :
    (dot_S2048x64_S64x1024_S2048x1024_1_0_0_1_n_n.rhsIdx j c 1).val = (j 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

/-- The product of a [2048, 64] by a [64, 1024] matrix into a zero accumulator, read at row p and column q, is the
    sum over the contracted axis of the products of the row's and the column's entries. -/
theorem mm_10 (a : FVec Ideal S2048x64 .bf16) (b : FVec Ideal S64x1024 .bf16) (p : Fin 2048) (q : Fin 1024) :
    matmul (F := Ideal) dot_S2048x64_S64x1024_S2048x1024_1_0_0_1_n_n none a b (constant (F := Ideal) S2048x1024 .f32 0x00000000#32) (ix2 p q)
      = ∑ k : Fin 64, a (ix2 p k) * b (ix2 k q) := by
  simp only [matmul]
  rw [Ideal.matmul_constant_zero_apply, ← Equiv.sum_comp (contrEquiv1 dot_S2048x64_S64x1024_S2048x1024_1_0_0_1_n_n 64 rfl rfl).symm]
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 p q) ((contrEquiv1 dot_S2048x64_S64x1024_S2048x1024_1_0_0_1_n_n 64 rfl rfl).symm k) = ix2 p k := funext fun c => Fin.ext (by
    match c with
    | ⟨0, _⟩ => exact mm_10_lhs0 _ _
    | ⟨1, _⟩ => exact (dot_S2048x64_S64x1024_S2048x1024_1_0_0_1_n_n.lhsIdx_val_of_single rfl _ _).trans hk)
  have er : dot_S2048x64_S64x1024_S2048x1024_1_0_0_1_n_n.rhsIdx (ix2 p q) ((contrEquiv1 dot_S2048x64_S64x1024_S2048x1024_1_0_0_1_n_n 64 rfl rfl).symm k) = ix2 k q := funext fun c => Fin.ext (by
    match c with
    | ⟨0, _⟩ => exact (dot_S2048x64_S64x1024_S2048x1024_1_0_0_1_n_n.rhsIdx_val_of_single rfl _ _).trans hk
    | ⟨1, _⟩ => exact mm_10_rhs1 _ _)
  rw [el, er]

/-- The product with the transposed block, read at row p and column q, sums the products of row p of the first block
    and row q of the second. -/
theorem pay1_10_apply (x0 : FVec Ideal S2048x64 .f32) (x1 : FVec Ideal S1024x64 .f32) (p : Fin 2048) (q : Fin 1024) :
    k10_pay1 (F := Ideal) x0 x1 (ix2 p q) = ∑ k : Fin 64, x0 (ix2 p k) * x1 (ix2 q k) := by
  unfold k10_pay1
  simp only [shapeCast_self]
  rw [mm_10]
  refine Finset.sum_congr rfl fun k _ => ?_
  rw [transpose_ix2_apply]
  rfl

end Cert.KernelIdeal.Pay
-- ==== Proof.KI.Final0.lean ====
/-
  What the dense layer `X · W + b` of region 0 leaves in its result array, as one function of the buffers it is entered with.

  The grid has 8 points; point `t` works on row block `t` of 2048 rows, reads the 256 × 128 matrix and the bias row whole,
  clears the accumulator, adds the product of the two blocks once, adds the bias row and writes the block back. So entry
  `(n, q)` of the result is zero plus the sum over the 256 columns of `X (n, ·) · W (·, q)`, plus `b q`; the blocks
  written back cover the result array.
-/
import proofs.«127812_j6760278524061_1_alg».proof.Proof.KI.Region0
import proofs.«127812_j6760278524061_1_alg».proof.Proof.KI.Blocks0
import proofs.«127812_j6760278524061_1_alg».proof.Proof.KI.Payloads
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inX0 (c : Dev nD) : S16384x256.Idx → EReal := V c main_arg0
abbrev inW0 (c : Dev nD) : S256x128.Idx → EReal := V c main_arg2
abbrev inZ0 (c : Dev nD) : S1x128.Idx → EReal := V c main_v59
abbrev ibX0 (c : Dev nD) (t : Fin cfg0.N) : S2048x256.Idx → EReal := iblk0 V c 0 t
abbrev ibW0 (c : Dev nD) (t : Fin cfg0.N) : S256x128.Idx → EReal := iblk0 V c 1 t
abbrev ibZ0 (c : Dev nD) (t : Fin cfg0.N) : S1x128.Idx → EReal := iblk0 V c 2 t

/-- Entry `(n, q)` of the result. -/
def g0 (c : Dev nD) (n : Fin 16384) (q : Fin 128) : EReal :=
  (0 + ∑ k : Fin 256, inX0 V c (ix2 n k) * inW0 V c (ix2 k q)) + inZ0 V c (ix2 (0 : Fin 1) q)

/-- The result array. -/
def G0fun (c : Dev nD) : S16384x128.Idx → EReal := fun i =>
  g0 V c ⟨(i 0).val, by have h : (i 0).val < 16384 := (i 0).isLt; exact h⟩
    ⟨(i 1).val, by have h : (i 1).val < 128 := (i 1).isLt; exact h⟩

theorem G0fun_ix2 (c : Dev nD) (n : Fin 16384) (q : Fin 128) : G0fun V c (ix2 n q) = g0 V c n q := rfl

abbrev G0 (c : Dev nD) : Buf (Elt Ideal) ((c : Thread nD τ).loc main_v60) := G0fun V c

/-- What a point writes back: its block of the result. -/
theorem flushed0_eq (c : Dev nD) (t : Fin cfg0.N) (hf : (cfg0.win 3).flush t = true) :
    (dat0 V c).flushed 3 t = ((cfg0.win 3).blk t).view.read (Elt Ideal) (G0 V c) := by
  have hN : cfg0.N = 8 := N_0
  have hi := idx0_3 t
  show (cfg0.win 3).cut (grid0.coords t) ((dat0 V c).after 3 t) = _
  rw [after0_out V c t, out0_3_eq]
  funext j
  obtain ⟨p, q, rfl⟩ : ∃ (p : Fin 2048) (q : Fin 128), j = ix2 p q := ⟨j 0, j 1, eq_ix2 j⟩
  have hp : 2048 * t.val + p.val < 16384 := by have := t.isLt; omega
  show k0_pay3 (F := Ideal) (k0_pay2 (iblk0 V c 0 t) (iblk0 V c 1 t) (k0_pay1 (F := Ideal))) (iblk0 V c 2 t) (ix2 p q)
    = G0fun V c (((cfg0.win 3).blk t).view.emb (ix2 p q))
  have hemb : ((cfg0.win 3).blk t).view.emb (ix2 p q) = ix2 (⟨2048 * t.val + p.val, hp⟩ : Fin 16384) q := by
    funext a; apply Fin.ext
    match a with
    | ⟨0, _⟩ => show win0_3.index t 0 * 2048 + 1 * p.val = 2048 * t.val + p.val; rw [hi.1]; omega
    | ⟨1, _⟩ => show win0_3.index t 1 * 128 + 1 * q.val = q.val; rw [hi.2]; omega
  obtain ⟨n', hn'⟩ : ∃ n' : Fin 16384, n'.val = 2048 * t.val + p.val := ⟨⟨_, hp⟩, rfl⟩
  have hn'' : (⟨2048 * t.val + p.val, hp⟩ : Fin 16384) = n' := Fin.ext hn'.symm
  have hsum : ∑ k : Fin 256, ibX0 V c t (ix2 p k) * ibW0 V c t (ix2 k q)
      = ∑ k : Fin 256, inX0 V c (ix2 n' k) * inW0 V c (ix2 k q) := by
    refine Finset.sum_congr rfl (fun k _ => ?_)
    rw [← hn'']
    exact congrArg₂ (· * ·) (blk0_0_apply V c t p k hp) (blk0_1_apply V c t k q)
  rw [hemb, hn'', G0fun_ix2, pay3_0_apply, pay2_0_apply, pay1_0_apply]
  unfold g0
  exact congrArg₂ (fun a b : EReal => (0 + a) + b) hsum (blk0_2_apply V c t q)

/-- The result array after the region. -/
theorem final0 (c : Dev nD) : (dat0 V c).arrAt 3 cfg0.N = G0 V c :=
  (dat0 V c).arrAt_eq_of_cover 3 (G0 V c) (flushed0_eq V c) cover0_3

end Cert.KernelIdeal.Fr

end
-- ==== Proof.KI.Blocks1.lean ====
/-
  Where the blocks of the accumulating matrix product's windows sit in their arrays.

  The grid of the product `A · H + b` with `A` of 16384 × 16384 in row blocks of 1024 and column blocks of 2048 has
  16 · 8 points; point `t` works on row block `t / 8` and contraction block `t % 8`. Element `(p, y)` of the block of
  `A` at `t` is `A (1024 · (t / 8) + p, 2048 · (t % 8) + y)`; element `(y, q)` of the block of `H` is
  `H (2048 · (t % 8) + y, q)`; the bias row is read whole at every point.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t / 8` and contraction block `t % 8`. -/
theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)

theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)

theorem idx1_2 : ∀ t : Fin cfg1.N, win1_2.index t 0 = 0 ∧ win1_2.index t 1 = 0 :=
  (by decide +kernel : ∀ t : Fin grid1.N, win1_2.index t 0 = 0 ∧ win1_2.index t 1 = 0)

theorem idx1_3 : ∀ t : Fin cfg1.N, win1_3.index t 0 = t.val / 8 ∧ win1_3.index t 1 = 0 :=
  (by decide +kernel : ∀ t : Fin grid1.N, win1_3.index t 0 = t.val / 8 ∧ win1_3.index t 1 = 0)

/-- Element `(p, y)` of the block of the left operand at point `t`. -/
theorem blk1_0_apply (c : Dev nD) (t : Fin cfg1.N) (p : Fin 1024) (y : Fin 2048)
    (hp : 1024 * (t.val / 8) + p.val < 16384) (hy : 2048 * (t.val % 8) + y.val < 16384) :
    ((cfg1.win 0).blk t).view.read (Elt F) (V c (Pipeline.arrRef spec1 0)) (ix2 p y)
      = V c main_v57 (ix2 (⟨1024 * (t.val / 8) + p.val, hp⟩ : Fin 16384) (⟨2048 * (t.val % 8) + y.val, hy⟩ : Fin 16384)) := by
  have hi := idx1_0 t
  rw [View.read_apply]
  show V c main_v57 _ = V c main_v57 _
  congr 1
  funext a
  apply Fin.ext
  match a with
  | ⟨0, _⟩ => show win1_0.index t 0 * 1024 + 1 * p.val = 1024 * (t.val / 8) + p.val; rw [hi.1]; omega
  | ⟨1, _⟩ => show win1_0.index t 1 * 2048 + 1 * y.val = 2048 * (t.val % 8) + y.val; rw [hi.2]; omega

/-- Element `(y, q)` of the block of the right operand at point `t`. -/
theorem blk1_1_apply (c : Dev nD) (t : Fin cfg1.N) (y : Fin 2048) (q : Fin 128)
    (hy : 2048 * (t.val % 8) + y.val < 16384) :
    ((cfg1.win 1).blk t).view.read (Elt F) (V c (Pipeline.arrRef spec1 1)) (ix2 y q)
      = V c main_v60 (ix2 (⟨2048 * (t.val % 8) + y.val, hy⟩ : Fin 16384) q) := by
  have hi := idx1_1 t
  rw [View.read_apply]
  show V c main_v60 _ = V c main_v60 _
  congr 1
  funext a
  apply Fin.ext
  match a with
  | ⟨0, _⟩ => show win1_1.index t 0 * 2048 + 1 * y.val = 2048 * (t.val % 8) + y.val; rw [hi.1]; omega
  | ⟨1, _⟩ => show win1_1.index t 1 * 128 + 1 * q.val = q.val; rw [hi.2]; omega

/-- The bias row is read whole at every point. -/
theorem blk1_2_apply (c : Dev nD) (t : Fin cfg1.N) (q : Fin 128) :
    ((cfg1.win 2).blk t).view.read (Elt F) (V c (Pipeline.arrRef spec1 2)) (ix2 (0 : Fin 1) q)
      = V c main_v61 (ix2 (0 : Fin 1) q) := by
  have hi := idx1_2 t
  rw [View.read_apply]
  show V c main_v61 _ = V c main_v61 _
  congr 1
  funext a
  apply Fin.ext
  match a with
  | ⟨0, _⟩ => show win1_2.index t 0 * 1 + 1 * 0 = 0; rw [hi.1]
  | ⟨1, _⟩ => show win1_2.index t 1 * 128 + 1 * q.val = q.val; rw [hi.2]; omega

/-- The output window's blocks are whole: 1024 rows of 128 columns at every point. -/
theorem xsize1_3 : ∀ t : Fin cfg1.N, win1_3.xsize (grid1.coords t) 0 = 1024 ∧ win1_3.xsize (grid1.coords t) 1 = 128 :=
  (by decide +kernel : ∀ t : Fin grid1.N, win1_3.xsize (grid1.coords t) 0 = 1024 ∧ win1_3.xsize (grid1.coords t) 1 = 128)

/-- Every element of the result lies in the block written back at the last point of its row block. -/
theorem cover1_3 (i : S16384x128.Idx) :
    ∃ t : Fin cfg1.N, (cfg1.win 3).flush t = true ∧ i ∈ ((cfg1.win 3).blk t).view.set := by
  have h0 : (i 0 : Nat) < 16384 := (i 0).isLt
  have h1 : (i 1 : Nat) < 128 := (i 1).isLt
  have hN : cfg1.N = 128 := N_1
  have ht : 8 * ((i 0 : Nat) / 1024) + 7 < cfg1.N := by rw [hN]; omega
  obtain ⟨t, htv⟩ : ∃ t : Fin cfg1.N, t.val = 8 * ((i 0 : Nat) / 1024) + 7 := ⟨⟨_, ht⟩, rfl⟩
  refine ⟨t, (flush1_3 t).mpr (by rw [htv]; omega), ?_⟩
  have hi := idx1_3 t
  have hx := xsize1_3 t
  show i ∈ ((View.whole main_v62).slice (win1_3.rect t)).set
  rw [View.set_slice_whole, Rect.mem_set_unit]
  intro a
  match a with
  | ⟨0, _⟩ =>
    show win1_3.index t 0 * 1024 ≤ (i 0 : Nat) ∧ (i 0 : Nat) < win1_3.index t 0 * 1024 + win1_3.xsize (grid1.coords t) 0
    rw [hi.1, hx.1, htv]
    omega
  | ⟨1, _⟩ =>
    show win1_3.index t 1 * 128 ≤ (i 1 : Nat) ∧ (i 1 : Nat) < win1_3.index t 1 * 128 + win1_3.xsize (grid1.coords t) 1
    rw [hi.2, hx.2]
    omega

end Cert.KernelIdeal.Fr

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.KI.Final1.lean ====
/-
  What the first aggregation `relu (Â · H + b)` leaves in its result array, as one function of the buffers it is
  entered with.

  Row block `t / 8` of the result is accumulated over the eight contraction blocks `t % 8 = 0 … 7`: after the step at
  block `k` the accumulator holds, at `(p, q)`, zero plus the partial sums of `Â (n, ·) · H (·, q)` over the column blocks
  `0 … k` of row `n = 1024 · (t / 8) + p`. After the last block that running sum is the whole sum over the 16384
  columns (a sum regrouped into eight consecutive blocks of 2048), and the finishing step adds the bias and rectifies. The
  blocks written back at the last steps cover the result array.
-/
import proofs.«127812_j6760278524061_1_alg».proof.Proof.KI.Region1
import proofs.«127812_j6760278524061_1_alg».proof.Proof.KI.Blocks1
import proofs.«127812_j6760278524061_1_alg».proof.Proof.KI.Payloads
import proofs.«127812_j6760278524061_1_alg».proof.Proof.LibBlockSum
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inA1 (c : Dev nD) : S16384x16384.Idx → EReal := V c main_v57
abbrev inH1 (c : Dev nD) : S16384x128.Idx → EReal := V c main_v60
abbrev inB1 (c : Dev nD) : S1x128.Idx → EReal := V c main_v61
abbrev ibA1 (c : Dev nD) (t : Fin cfg1.N) : S1024x2048.Idx → EReal := iblk1 V c 0 t
abbrev ibH1 (c : Dev nD) (t : Fin cfg1.N) : S2048x128.Idx → EReal := iblk1 V c 1 t
abbrev ibB1 (c : Dev nD) (t : Fin cfg1.N) : S1x128.Idx → EReal := iblk1 V c 2 t

/-- The contribution of contraction block `k` to entry `(n, q)`. -/
def bsum1 (c : Dev nD) (n : Fin 16384) (q : Fin 128) (k : ℕ) : EReal :=
  if hk : k < 8 then
    ∑ y : Fin 2048, inA1 V c (ix2 n (⟨2048 * k + y.val, by omega⟩ : Fin 16384))
      * inH1 V c (ix2 (⟨2048 * k + y.val, by omega⟩ : Fin 16384) q)
  else 0

/-- The accumulator after the step at contraction block `k`. -/
def accS1 (c : Dev nD) (n : Fin 16384) (q : Fin 128) : ℕ → EReal
  | 0 => 0 + bsum1 V c n q 0
  | k + 1 => accS1 c n q k + bsum1 V c n q (k + 1)

/-- The product of the two blocks at point `t`, at `(p, q)`, is the contribution of block `t % 8` to row
    `1024 · (t / 8) + p`. -/
theorem blockterm1 (c : Dev nD) (t : Fin cfg1.N) (p : Fin 1024) (q : Fin 128) (n : Fin 16384)
    (hn : n.val = 1024 * (t.val / 8) + p.val) :
    ∑ y : Fin 2048, ibA1 V c t (ix2 p y) * ibH1 V c t (ix2 y q) = bsum1 V c n q (t.val % 8) := by
  have hk : t.val % 8 < 8 := Nat.mod_lt _ (by decide)
  have hp : 1024 * (t.val / 8) + p.val < 16384 := hn ▸ n.isLt
  obtain rfl : n = ⟨1024 * (t.val / 8) + p.val, hp⟩ := Fin.ext hn
  unfold bsum1
  rw [dif_pos hk]
  refine Finset.sum_congr rfl (fun y _ => ?_)
  exact congrArg₂ (· * ·) (blk1_0_apply V c t p y hp (by omega)) (blk1_1_apply V c t y q (by omega))

/-- The accumulator's contents after every point. -/
theorem scratch1 (c : Dev nD) : ∀ (k : ℕ) (t : Fin cfg1.N), t.val % 8 = k → ∀ (p : Fin 1024) (q : Fin 128) (n : Fin 16384),
    n.val = 1024 * (t.val / 8) + p.val → (outsAt1 V c t.val t.isLt).2 (ix2 p q) = accS1 V c n q k := by
  intro k
  induction k with
  | zero =>
    intro t hk p q n hn
    rw [acc1_first V c t hk, pay2_1_apply, pay1_1_apply]
    exact congrArg (fun z => (0 : EReal) + z) ((blockterm1 V c t p q n hn).trans (by rw [hk]))
  | succ k ih =>
    intro t hk p q n hn
    have h0 : ¬ t.val % 8 = 0 := by omega
    have hlt : t.val - 1 < cfg1.N := Nat.lt_of_le_of_lt (Nat.sub_le _ _) t.isLt
    have hprev := ih ⟨t.val - 1, hlt⟩ (by show (t.val - 1) % 8 = k; omega) p q n
      (by show n.val = 1024 * ((t.val - 1) / 8) + p.val; have : (t.val - 1) / 8 = t.val / 8 := by omega
          rw [this]; exact hn)
    rw [acc1_step V c t h0, pay2_1_apply]
    exact congrArg₂ (fun a b : EReal => a + b) hprev ((blockterm1 V c t p q n hn).trans (by rw [hk]))

/-- After the eighth block the accumulator holds the whole row-by-column sum. -/
theorem acc7_1 (c : Dev nD) (n : Fin 16384) (q : Fin 128) :
    accS1 V c n q 7 = ∑ r : Fin 16384, inA1 V c (ix2 n r) * inH1 V c (ix2 r q) := by
  rw [Cert.Lib.running_sum_lt' (N := 8) (bsum1 V c n q) (accS1 V c n q) rfl (fun _ _ => rfl) 7 (by omega)]
  exact Cert.Lib.sum_range_blocks_of_eq (nb := 8) (bs := 2048) (N := 16384) rfl
    (fun r => inA1 V c (ix2 n r) * inH1 V c (ix2 r q)) (bsum1 V c n q)
    (fun t ht => by unfold bsum1; rw [dif_pos ht])

/-- Entry `(n, q)` of the result. -/
def g1 (c : Dev nD) (n : Fin 16384) (q : Fin 128) : EReal :=
  max ((∑ r : Fin 16384, inA1 V c (ix2 n r) * inH1 V c (ix2 r q)) + inB1 V c (ix2 (0 : Fin 1) q)) 0

/-- The result array. -/
def G1fun (c : Dev nD) : S16384x128.Idx → EReal := fun i =>
  g1 V c ⟨(i 0).val, by have h : (i 0).val < 16384 := (i 0).isLt; exact h⟩
    ⟨(i 1).val, by have h : (i 1).val < 128 := (i 1).isLt; exact h⟩

theorem G1fun_ix2 (c : Dev nD) (n : Fin 16384) (q : Fin 128) : G1fun V c (ix2 n q) = g1 V c n q := rfl

abbrev G1 (c : Dev nD) : Buf (Elt Ideal) ((c : Thread nD τ).loc main_v62) := G1fun V c

/-- What a point that writes back writes: its block of the result. -/
theorem flushed1_eq (c : Dev nD) (t : Fin cfg1.N) (hf : (cfg1.win 3).flush t = true) :
    (dat1 V c).flushed 3 t = ((cfg1.win 3).blk t).view.read (Elt Ideal) (G1 V c) := by
  have h7 : t.val % 8 = 7 := (flush1_3 t).mp hf
  have hN : cfg1.N = 128 := N_1
  have hi := idx1_3 t
  show (cfg1.win 3).cut (grid1.coords t) ((dat1 V c).after 3 t) = _
  rw [after1_out V c t h7]
  funext j
  obtain ⟨p, q, rfl⟩ : ∃ (p : Fin 1024) (q : Fin 128), j = ix2 p q := ⟨j 0, j 1, eq_ix2 j⟩
  have hp : 1024 * (t.val / 8) + p.val < 16384 := by have := t.isLt; omega
  show k1_pay3 (F := Ideal) (outsAt1 V c t.val t.isLt).2 (iblk1 V c 2 t) (ix2 p q)
    = G1fun V c (((cfg1.win 3).blk t).view.emb (ix2 p q))
  have hemb : ((cfg1.win 3).blk t).view.emb (ix2 p q) = ix2 (⟨1024 * (t.val / 8) + p.val, hp⟩ : Fin 16384) q := by
    funext a; apply Fin.ext
    match a with
    | ⟨0, _⟩ => show win1_3.index t 0 * 1024 + 1 * p.val = 1024 * (t.val / 8) + p.val; rw [hi.1]; omega
    | ⟨1, _⟩ => show win1_3.index t 1 * 128 + 1 * q.val = q.val; rw [hi.2]; omega
  obtain ⟨n', hn'⟩ : ∃ n' : Fin 16384, n'.val = 1024 * (t.val / 8) + p.val := ⟨⟨_, hp⟩, rfl⟩
  have hn'' : (⟨1024 * (t.val / 8) + p.val, hp⟩ : Fin 16384) = n' := Fin.ext hn'.symm
  rw [hemb, hn'', G1fun_ix2, pay3_1_apply, scratch1 V c 7 t h7 p q n' hn', acc7_1]
  unfold g1
  exact congrArg (fun z : EReal => max ((∑ r : Fin 16384, inA1 V c (ix2 n' r) * inH1 V c (ix2 r q)) + z) 0) (blk1_2_apply V c t q)

/-- The result array after the region. -/
theorem final1 (c : Dev nD) : (dat1 V c).arrAt 3 cfg1.N = G1 V c :=
  (dat1 V c).arrAt_eq_of_cover 3 (G1 V c) (flushed1_eq V c) cover1_3

end Cert.KernelIdeal.Fr

end
-- ==== Proof.KI.Blocks2.lean ====
/-
  Where the blocks of the dense layer's windows sit in their arrays.

  The grid of the product `X · W + b` with `X` of 16384 × 128 in row blocks of 2048 has 8 points; point `t` works on
  row block `t`. Element `(p, y)` of the block of `X` at `t` is `X (2048 · t + p, y)`; the matrix `W` of
  128 × 64 and the bias row are read whole at every point; the result's block at `t` is rows `2048 · t …` of
  the 16384 × 64 result, written back at every point.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t`. -/
theorem idx2_0 : ∀ t : Fin cfg2.N, win2_0.index t 0 = t.val ∧ win2_0.index t 1 = 0 :=
  (by decide +kernel : ∀ t : Fin grid2.N, win2_0.index t 0 = t.val ∧ win2_0.index t 1 = 0)

theorem idx2_1 : ∀ t : Fin cfg2.N, win2_1.index t 0 = 0 ∧ win2_1.index t 1 = 0 :=
  (by decide +kernel : ∀ t : Fin grid2.N, win2_1.index t 0 = 0 ∧ win2_1.index t 1 = 0)

theorem idx2_2 : ∀ t : Fin cfg2.N, win2_2.index t 0 = 0 ∧ win2_2.index t 1 = 0 :=
  (by decide +kernel : ∀ t : Fin grid2.N, win2_2.index t 0 = 0 ∧ win2_2.index t 1 = 0)

theorem idx2_3 : ∀ t : Fin cfg2.N, win2_3.index t 0 = t.val ∧ win2_3.index t 1 = 0 :=
  (by decide +kernel : ∀ t : Fin grid2.N, win2_3.index t 0 = t.val ∧ win2_3.index t 1 = 0)

/-- Element `(p, y)` of the block of the left operand at point `t`. -/
theorem blk2_0_apply (c : Dev nD) (t : Fin cfg2.N) (p : Fin 2048) (y : Fin 128)
    (hp : 2048 * t.val + p.val < 16384) :
    ((cfg2.win 0).blk t).view.read (Elt F) (V c (Pipeline.arrRef spec2 0)) (ix2 p y)
      = V c main_v62 (ix2 (⟨2048 * t.val + p.val, hp⟩ : Fin 16384) y) := by
  have hi := idx2_0 t
  rw [View.read_apply]
  show V c main_v62 _ = V c main_v62 _
  congr 1
  funext a
  apply Fin.ext
  match a with
  | ⟨0, _⟩ => show win2_0.index t 0 * 2048 + 1 * p.val = 2048 * t.val + p.val; rw [hi.1]; omega
  | ⟨1, _⟩ => show win2_0.index t 1 * 128 + 1 * y.val = y.val; rw [hi.2]; omega

/-- The right operand is read whole at every point. -/
theorem blk2_1_apply (c : Dev nD) (t : Fin cfg2.N) (y : Fin 128) (q : Fin 64) :
    ((cfg2.win 1).blk t).view.read (Elt F) (V c (Pipeline.arrRef spec2 1)) (ix2 y q)
      = V c main_arg4 (ix2 y q) := by
  have hi := idx2_1 t
  rw [View.read_apply]
  show V c main_arg4 _ = V c main_arg4 _
  congr 1
  funext a
  apply Fin.ext
  match a with
  | ⟨0, _⟩ => show win2_1.index t 0 * 128 + 1 * y.val = y.val; rw [hi.1]; omega
  | ⟨1, _⟩ => show win2_1.index t 1 * 64 + 1 * q.val = q.val; rw [hi.2]; omega

/-- The bias row is read whole at every point. -/
theorem blk2_2_apply (c : Dev nD) (t : Fin cfg2.N) (q : Fin 64) :
    ((cfg2.win 2).blk t).view.read (Elt F) (V c (Pipeline.arrRef spec2 2)) (ix2 (0 : Fin 1) q)
      = V c main_v64 (ix2 (0 : Fin 1) q) := by
  have hi := idx2_2 t
  rw [View.read_apply]
  show V c main_v64 _ = V c main_v64 _
  congr 1
  funext a
  apply Fin.ext
  match a with
  | ⟨0, _⟩ => show win2_2.index t 0 * 1 + 1 * 0 = 0; rw [hi.1]
  | ⟨1, _⟩ => show win2_2.index t 1 * 64 + 1 * q.val = q.val; rw [hi.2]; omega

/-- The output window's blocks are whole: 2048 rows of 64 columns at every point. -/
theorem xsize2_3 : ∀ t : Fin cfg2.N, win2_3.xsize (grid2.coords t) 0 = 2048 ∧ win2_3.xsize (grid2.coords t) 1 = 64 :=
  (by decide +kernel : ∀ t : Fin grid2.N, win2_3.xsize (grid2.coords t) 0 = 2048 ∧ win2_3.xsize (grid2.coords t) 1 = 64)

/-- Every point writes its block of the result back. -/
theorem flushall2_3 : ∀ t : Fin cfg2.N, (cfg2.win 3).flush t = true := flush2_3

/-- Every element of the result lies in the block written back at the point of its row block. -/
theorem cover2_3 (i : S16384x64.Idx) :
    ∃ t : Fin cfg2.N, (cfg2.win 3).flush t = true ∧ i ∈ ((cfg2.win 3).blk t).view.set := by
  have h0 : (i 0 : Nat) < 16384 := (i 0).isLt
  have h1 : (i 1 : Nat) < 64 := (i 1).isLt
  have hN : cfg2.N = 8 := N_2
  have ht : (i 0 : Nat) / 2048 < cfg2.N := by rw [hN]; omega
  obtain ⟨t, htv⟩ : ∃ t : Fin cfg2.N, t.val = (i 0 : Nat) / 2048 := ⟨⟨_, ht⟩, rfl⟩
  refine ⟨t, flush2_3 t, ?_⟩
  have hi := idx2_3 t
  have hx := xsize2_3 t
  show i ∈ ((View.whole main_v65).slice (win2_3.rect t)).set
  rw [View.set_slice_whole, Rect.mem_set_unit]
  intro a
  match a with
  | ⟨0, _⟩ =>
    show win2_3.index t 0 * 2048 ≤ (i 0 : Nat) ∧ (i 0 : Nat) < win2_3.index t 0 * 2048 + win2_3.xsize (grid2.coords t) 0
    rw [hi.1, hx.1, htv]
    omega
  | ⟨1, _⟩ =>
    show win2_3.index t 1 * 64 ≤ (i 1 : Nat) ∧ (i 1 : Nat) < win2_3.index t 1 * 64 + win2_3.xsize (grid2.coords t) 1
    rw [hi.2, hx.2]
    omega

end Cert.KernelIdeal.Fr

end
-- ==== Proof.KI.Final2.lean ====
/-
  What the dense layer `X · W + b` of region 2 leaves in its result array, as one function of the buffers it is entered with.

  The grid has 8 points; point `t` works on row block `t` of 2048 rows, reads the 128 × 64 matrix and the bias row whole,
  clears the accumulator, adds the product of the two blocks once, adds the bias row and writes the block back. So entry
  `(n, q)` of the result is zero plus the sum over the 128 columns of `X (n, ·) · W (·, q)`, plus `b q`; the blocks
  written back cover the result array.
-/
import proofs.«127812_j6760278524061_1_alg».proof.Proof.KI.Region2
import proofs.«127812_j6760278524061_1_alg».proof.Proof.KI.Blocks2
import proofs.«127812_j6760278524061_1_alg».proof.Proof.KI.Payloads
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inX2 (c : Dev nD) : S16384x128.Idx → EReal := V c main_v62
abbrev inW2 (c : Dev nD) : S128x64.Idx → EReal := V c main_arg4
abbrev inZ2 (c : Dev nD) : S1x64.Idx → EReal := V c main_v64
abbrev ibX2 (c : Dev nD) (t : Fin cfg2.N) : S2048x128.Idx → EReal := iblk2 V c 0 t
abbrev ibW2 (c : Dev nD) (t : Fin cfg2.N) : S128x64.Idx → EReal := iblk2 V c 1 t
abbrev ibZ2 (c : Dev nD) (t : Fin cfg2.N) : S1x64.Idx → EReal := iblk2 V c 2 t

/-- Entry `(n, q)` of the result. -/
def g2 (c : Dev nD) (n : Fin 16384) (q : Fin 64) : EReal :=
  (0 + ∑ k : Fin 128, inX2 V c (ix2 n k) * inW2 V c (ix2 k q)) + inZ2 V c (ix2 (0 : Fin 1) q)

/-- The result array. -/
def G2fun (c : Dev nD) : S16384x64.Idx → EReal := fun i =>
  g2 V c ⟨(i 0).val, by have h : (i 0).val < 16384 := (i 0).isLt; exact h⟩
    ⟨(i 1).val, by have h : (i 1).val < 64 := (i 1).isLt; exact h⟩

theorem G2fun_ix2 (c : Dev nD) (n : Fin 16384) (q : Fin 64) : G2fun V c (ix2 n q) = g2 V c n q := rfl

abbrev G2 (c : Dev nD) : Buf (Elt Ideal) ((c : Thread nD τ).loc main_v65) := G2fun V c

/-- What a point writes back: its block of the result. -/
theorem flushed2_eq (c : Dev nD) (t : Fin cfg2.N) (hf : (cfg2.win 3).flush t = true) :
    (dat2 V c).flushed 3 t = ((cfg2.win 3).blk t).view.read (Elt Ideal) (G2 V c) := by
  have hN : cfg2.N = 8 := N_2
  have hi := idx2_3 t
  show (cfg2.win 3).cut (grid2.coords t) ((dat2 V c).after 3 t) = _
  rw [after2_out V c t, out2_3_eq]
  funext j
  obtain ⟨p, q, rfl⟩ : ∃ (p : Fin 2048) (q : Fin 64), j = ix2 p q := ⟨j 0, j 1, eq_ix2 j⟩
  have hp : 2048 * t.val + p.val < 16384 := by have := t.isLt; omega
  show k2_pay3 (F := Ideal) (k2_pay2 (iblk2 V c 0 t) (iblk2 V c 1 t) (k2_pay1 (F := Ideal))) (iblk2 V c 2 t) (ix2 p q)
    = G2fun V c (((cfg2.win 3).blk t).view.emb (ix2 p q))
  have hemb : ((cfg2.win 3).blk t).view.emb (ix2 p q) = ix2 (⟨2048 * t.val + p.val, hp⟩ : Fin 16384) q := by
    funext a; apply Fin.ext
    match a with
    | ⟨0, _⟩ => show win2_3.index t 0 * 2048 + 1 * p.val = 2048 * t.val + p.val; rw [hi.1]; omega
    | ⟨1, _⟩ => show win2_3.index t 1 * 64 + 1 * q.val = q.val; rw [hi.2]; omega
  obtain ⟨n', hn'⟩ : ∃ n' : Fin 16384, n'.val = 2048 * t.val + p.val := ⟨⟨_, hp⟩, rfl⟩
  have hn'' : (⟨2048 * t.val + p.val, hp⟩ : Fin 16384) = n' := Fin.ext hn'.symm
  have hsum : ∑ k : Fin 128, ibX2 V c t (ix2 p k) * ibW2 V c t (ix2 k q)
      = ∑ k : Fin 128, inX2 V c (ix2 n' k) * inW2 V c (ix2 k q) := by
    refine Finset.sum_congr rfl (fun k _ => ?_)
    rw [← hn'']
    exact congrArg₂ (· * ·) (blk2_0_apply V c t p k hp) (blk2_1_apply V c t k q)
  rw [hemb, hn'', G2fun_ix2, pay3_2_apply, pay2_2_apply, pay1_2_apply]
  unfold g2
  exact congrArg₂ (fun a b : EReal => (0 + a) + b) hsum (blk2_2_apply V c t q)

/-- The result array after the region. -/
theorem final2 (c : Dev nD) : (dat2 V c).arrAt 3 cfg2.N = G2 V c :=
  (dat2 V c).arrAt_eq_of_cover 3 (G2 V c) (flushed2_eq V c) cover2_3

end Cert.KernelIdeal.Fr

end
-- ==== Proof.KI.Blocks3.lean ====
/-
  Where the blocks of the accumulating matrix product's windows sit in their arrays.

  The grid of the product `A · H + b` with `A` of 16384 × 16384 in row blocks of 1024 and column blocks of 2048, and
  `H` of 16384 × 64, has 16 · 8 points; point `t` works on row block `t / 8` and contraction block `t % 8`. Element
  `(p, y)` of the block of `A` at `t` is `A (1024 · (t / 8) + p, 2048 · (t % 8) + y)`; element `(y, q)` of the block of
  `H` is `H (2048 · (t % 8) + y, q)`; the bias row is read whole at every point; the result's block, rows
  `1024 · (t / 8) …` of the 16384 × 64 result, is written back at the last contraction block.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t / 8` and contraction block `t % 8`. -/
theorem idx3_0 : ∀ t : Fin cfg3.N, win3_0.index t 0 = t.val / 8 ∧ win3_0.index t 1 = t.val % 8 :=
  (by decide +kernel : ∀ t : Fin grid3.N, win3_0.index t 0 = t.val / 8 ∧ win3_0.index t 1 = t.val % 8)

theorem idx3_1 : ∀ t : Fin cfg3.N, win3_1.index t 0 = t.val % 8 ∧ win3_1.index t 1 = 0 :=
  (by decide +kernel : ∀ t : Fin grid3.N, win3_1.index t 0 = t.val % 8 ∧ win3_1.index t 1 = 0)

theorem idx3_2 : ∀ t : Fin cfg3.N, win3_2.index t 0 = 0 ∧ win3_2.index t 1 = 0 :=
  (by decide +kernel : ∀ t : Fin grid3.N, win3_2.index t 0 = 0 ∧ win3_2.index t 1 = 0)

theorem idx3_3 : ∀ t : Fin cfg3.N, win3_3.index t 0 = t.val / 8 ∧ win3_3.index t 1 = 0 :=
  (by decide +kernel : ∀ t : Fin grid3.N, win3_3.index t 0 = t.val / 8 ∧ win3_3.index t 1 = 0)

/-- Element `(p, y)` of the block of the left operand at point `t`. -/
theorem blk3_0_apply (c : Dev nD) (t : Fin cfg3.N) (p : Fin 1024) (y : Fin 2048)
    (hp : 1024 * (t.val / 8) + p.val < 16384) (hy : 2048 * (t.val % 8) + y.val < 16384) :
    ((cfg3.win 0).blk t).view.read (Elt F) (V c (Pipeline.arrRef spec3 0)) (ix2 p y)
      = V c main_v57 (ix2 (⟨1024 * (t.val / 8) + p.val, hp⟩ : Fin 16384) (⟨2048 * (t.val % 8) + y.val, hy⟩ : Fin 16384)) := by
  have hi := idx3_0 t
  rw [View.read_apply]
  show V c main_v57 _ = V c main_v57 _
  congr 1
  funext a
  apply Fin.ext
  match a with
  | ⟨0, _⟩ => show win3_0.index t 0 * 1024 + 1 * p.val = 1024 * (t.val / 8) + p.val; rw [hi.1]; omega
  | ⟨1, _⟩ => show win3_0.index t 1 * 2048 + 1 * y.val = 2048 * (t.val % 8) + y.val; rw [hi.2]; omega

/-- Element `(y, q)` of the block of the right operand at point `t`. -/
theorem blk3_1_apply (c : Dev nD) (t : Fin cfg3.N) (y : Fin 2048) (q : Fin 64)
    (hy : 2048 * (t.val % 8) + y.val < 16384) :
    ((cfg3.win 1).blk t).view.read (Elt F) (V c (Pipeline.arrRef spec3 1)) (ix2 y q)
      = V c main_v65 (ix2 (⟨2048 * (t.val % 8) + y.val, hy⟩ : Fin 16384) q) := by
  have hi := idx3_1 t
  rw [View.read_apply]
  show V c main_v65 _ = V c main_v65 _
  congr 1
  funext a
  apply Fin.ext
  match a with
  | ⟨0, _⟩ => show win3_1.index t 0 * 2048 + 1 * y.val = 2048 * (t.val % 8) + y.val; rw [hi.1]; omega
  | ⟨1, _⟩ => show win3_1.index t 1 * 64 + 1 * q.val = q.val; rw [hi.2]; omega

/-- The bias row is read whole at every point. -/
theorem blk3_2_apply (c : Dev nD) (t : Fin cfg3.N) (q : Fin 64) :
    ((cfg3.win 2).blk t).view.read (Elt F) (V c (Pipeline.arrRef spec3 2)) (ix2 (0 : Fin 1) q)
      = V c main_v66 (ix2 (0 : Fin 1) q) := by
  have hi := idx3_2 t
  rw [View.read_apply]
  show V c main_v66 _ = V c main_v66 _
  congr 1
  funext a
  apply Fin.ext
  match a with
  | ⟨0, _⟩ => show win3_2.index t 0 * 1 + 1 * 0 = 0; rw [hi.1]
  | ⟨1, _⟩ => show win3_2.index t 1 * 64 + 1 * q.val = q.val; rw [hi.2]; omega

/-- The output window's blocks are whole: 1024 rows of 64 columns at every point. -/
theorem xsize3_3 : ∀ t : Fin cfg3.N, win3_3.xsize (grid3.coords t) 0 = 1024 ∧ win3_3.xsize (grid3.coords t) 1 = 64 :=
  (by decide +kernel : ∀ t : Fin grid3.N, win3_3.xsize (grid3.coords t) 0 = 1024 ∧ win3_3.xsize (grid3.coords t) 1 = 64)

/-- Every element of the result lies in the block written back at the last point of its row block. -/
theorem cover3_3 (i : S16384x64.Idx) :
    ∃ t : Fin cfg3.N, (cfg3.win 3).flush t = true ∧ i ∈ ((cfg3.win 3).blk t).view.set := by
  have h0 : (i 0 : Nat) < 16384 := (i 0).isLt
  have h1 : (i 1 : Nat) < 64 := (i 1).isLt
  have hN : cfg3.N = 128 := N_3
  have ht : 8 * ((i 0 : Nat) / 1024) + 7 < cfg3.N := by rw [hN]; omega
  obtain ⟨t, htv⟩ : ∃ t : Fin cfg3.N, t.val = 8 * ((i 0 : Nat) / 1024) + 7 := ⟨⟨_, ht⟩, rfl⟩
  refine ⟨t, (flush3_3 t).mpr (by rw [htv]; omega), ?_⟩
  have hi := idx3_3 t
  have hx := xsize3_3 t
  show i ∈ ((View.whole main_v67).slice (win3_3.rect t)).set
  rw [View.set_slice_whole, Rect.mem_set_unit]
  intro a
  match a with
  | ⟨0, _⟩ =>
    show win3_3.index t 0 * 1024 ≤ (i 0 : Nat) ∧ (i 0 : Nat) < win3_3.index t 0 * 1024 + win3_3.xsize (grid3.coords t) 0
    rw [hi.1, hx.1, htv]
    omega
  | ⟨1, _⟩ =>
    show win3_3.index t 1 * 64 ≤ (i 1 : Nat) ∧ (i 1 : Nat) < win3_3.index t 1 * 64 + win3_3.xsize (grid3.coords t) 1
    rw [hi.2, hx.2]
    omega

end Cert.KernelIdeal.Fr

end
-- ==== Proof.KI.Final3.lean ====
/-
  What the second aggregation `relu (Â · H + b)` leaves in its result array, as one function of the buffers it is
  entered with.

  Row block `t / 8` of the result is accumulated over the eight contraction blocks `t % 8 = 0 … 7`: after the step at
  block `k` the accumulator holds, at `(p, q)`, zero plus the partial sums of `Â (n, ·) · H (·, q)` over the column blocks
  `0 … k` of row `n = 1024 · (t / 8) + p`. After the last block that running sum is the whole sum over the 16384
  columns (a sum regrouped into eight consecutive blocks of 2048), and the finishing step adds the bias and rectifies. The
  blocks written back at the last steps cover the result array.
-/
import proofs.«127812_j6760278524061_1_alg».proof.Proof.KI.Region3
import proofs.«127812_j6760278524061_1_alg».proof.Proof.KI.Blocks3
import proofs.«127812_j6760278524061_1_alg».proof.Proof.KI.Payloads
import proofs.«127812_j6760278524061_1_alg».proof.Proof.LibBlockSum
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inA3 (c : Dev nD) : S16384x16384.Idx → EReal := V c main_v57
abbrev inH3 (c : Dev nD) : S16384x64.Idx → EReal := V c main_v65
abbrev inB3 (c : Dev nD) : S1x64.Idx → EReal := V c main_v66
abbrev ibA3 (c : Dev nD) (t : Fin cfg3.N) : S1024x2048.Idx → EReal := iblk3 V c 0 t
abbrev ibH3 (c : Dev nD) (t : Fin cfg3.N) : S2048x64.Idx → EReal := iblk3 V c 1 t
abbrev ibB3 (c : Dev nD) (t : Fin cfg3.N) : S1x64.Idx → EReal := iblk3 V c 2 t

/-- The contribution of contraction block `k` to entry `(n, q)`. -/
def bsum3 (c : Dev nD) (n : Fin 16384) (q : Fin 64) (k : ℕ) : EReal :=
  if hk : k < 8 then
    ∑ y : Fin 2048, inA3 V c (ix2 n (⟨2048 * k + y.val, by omega⟩ : Fin 16384))
      * inH3 V c (ix2 (⟨2048 * k + y.val, by omega⟩ : Fin 16384) q)
  else 0

/-- The accumulator after the step at contraction block `k`. -/
def accS3 (c : Dev nD) (n : Fin 16384) (q : Fin 64) : ℕ → EReal
  | 0 => 0 + bsum3 V c n q 0
  | k + 1 => accS3 c n q k + bsum3 V c n q (k + 1)

/-- The product of the two blocks at point `t`, at `(p, q)`, is the contribution of block `t % 8` to row
    `1024 · (t / 8) + p`. -/
theorem blockterm3 (c : Dev nD) (t : Fin cfg3.N) (p : Fin 1024) (q : Fin 64) (n : Fin 16384)
    (hn : n.val = 1024 * (t.val / 8) + p.val) :
    ∑ y : Fin 2048, ibA3 V c t (ix2 p y) * ibH3 V c t (ix2 y q) = bsum3 V c n q (t.val % 8) := by
  have hk : t.val % 8 < 8 := Nat.mod_lt _ (by decide)
  have hp : 1024 * (t.val / 8) + p.val < 16384 := hn ▸ n.isLt
  obtain rfl : n = ⟨1024 * (t.val / 8) + p.val, hp⟩ := Fin.ext hn
  unfold bsum3
  rw [dif_pos hk]
  refine Finset.sum_congr rfl (fun y _ => ?_)
  exact congrArg₂ (· * ·) (blk3_0_apply V c t p y hp (by omega)) (blk3_1_apply V c t y q (by omega))

/-- The accumulator's contents after every point. -/
theorem scratch3 (c : Dev nD) : ∀ (k : ℕ) (t : Fin cfg3.N), t.val % 8 = k → ∀ (p : Fin 1024) (q : Fin 64) (n : Fin 16384),
    n.val = 1024 * (t.val / 8) + p.val → (outsAt3 V c t.val t.isLt).2 (ix2 p q) = accS3 V c n q k := by
  intro k
  induction k with
  | zero =>
    intro t hk p q n hn
    rw [acc3_first V c t hk, pay2_3_apply, pay1_3_apply]
    exact congrArg (fun z => (0 : EReal) + z) ((blockterm3 V c t p q n hn).trans (by rw [hk]))
  | succ k ih =>
    intro t hk p q n hn
    have h0 : ¬ t.val % 8 = 0 := by omega
    have hlt : t.val - 1 < cfg3.N := Nat.lt_of_le_of_lt (Nat.sub_le _ _) t.isLt
    have hprev := ih ⟨t.val - 1, hlt⟩ (by show (t.val - 1) % 8 = k; omega) p q n
      (by show n.val = 1024 * ((t.val - 1) / 8) + p.val; have : (t.val - 1) / 8 = t.val / 8 := by omega
          rw [this]; exact hn)
    rw [acc3_step V c t h0, pay2_3_apply]
    exact congrArg₂ (fun a b : EReal => a + b) hprev ((blockterm3 V c t p q n hn).trans (by rw [hk]))

/-- After the eighth block the accumulator holds the whole row-by-column sum. -/
theorem acc7_3 (c : Dev nD) (n : Fin 16384) (q : Fin 64) :
    accS3 V c n q 7 = ∑ r : Fin 16384, inA3 V c (ix2 n r) * inH3 V c (ix2 r q) := by
  rw [Cert.Lib.running_sum_lt' (N := 8) (bsum3 V c n q) (accS3 V c n q) rfl (fun _ _ => rfl) 7 (by omega)]
  exact Cert.Lib.sum_range_blocks_of_eq (nb := 8) (bs := 2048) (N := 16384) rfl
    (fun r => inA3 V c (ix2 n r) * inH3 V c (ix2 r q)) (bsum3 V c n q)
    (fun t ht => by unfold bsum3; rw [dif_pos ht])

/-- Entry `(n, q)` of the result. -/
def g3 (c : Dev nD) (n : Fin 16384) (q : Fin 64) : EReal :=
  max ((∑ r : Fin 16384, inA3 V c (ix2 n r) * inH3 V c (ix2 r q)) + inB3 V c (ix2 (0 : Fin 1) q)) 0

/-- The result array. -/
def G3fun (c : Dev nD) : S16384x64.Idx → EReal := fun i =>
  g3 V c ⟨(i 0).val, by have h : (i 0).val < 16384 := (i 0).isLt; exact h⟩
    ⟨(i 1).val, by have h : (i 1).val < 64 := (i 1).isLt; exact h⟩

theorem G3fun_ix2 (c : Dev nD) (n : Fin 16384) (q : Fin 64) : G3fun V c (ix2 n q) = g3 V c n q := rfl

abbrev G3 (c : Dev nD) : Buf (Elt Ideal) ((c : Thread nD τ).loc main_v67) := G3fun V c

/-- What a point that writes back writes: its block of the result. -/
theorem flushed3_eq (c : Dev nD) (t : Fin cfg3.N) (hf : (cfg3.win 3).flush t = true) :
    (dat3 V c).flushed 3 t = ((cfg3.win 3).blk t).view.read (Elt Ideal) (G3 V c) := by
  have h7 : t.val % 8 = 7 := (flush3_3 t).mp hf
  have hN : cfg3.N = 128 := N_3
  have hi := idx3_3 t
  show (cfg3.win 3).cut (grid3.coords t) ((dat3 V c).after 3 t) = _
  rw [after3_out V c t h7]
  funext j
  obtain ⟨p, q, rfl⟩ : ∃ (p : Fin 1024) (q : Fin 64), j = ix2 p q := ⟨j 0, j 1, eq_ix2 j⟩
  have hp : 1024 * (t.val / 8) + p.val < 16384 := by have := t.isLt; omega
  show k3_pay3 (F := Ideal) (outsAt3 V c t.val t.isLt).2 (iblk3 V c 2 t) (ix2 p q)
    = G3fun V c (((cfg3.win 3).blk t).view.emb (ix2 p q))
  have hemb : ((cfg3.win 3).blk t).view.emb (ix2 p q) = ix2 (⟨1024 * (t.val / 8) + p.val, hp⟩ : Fin 16384) q := by
    funext a; apply Fin.ext
    match a with
    | ⟨0, _⟩ => show win3_3.index t 0 * 1024 + 1 * p.val = 1024 * (t.val / 8) + p.val; rw [hi.1]; omega
    | ⟨1, _⟩ => show win3_3.index t 1 * 64 + 1 * q.val = q.val; rw [hi.2]; omega
  obtain ⟨n', hn'⟩ : ∃ n' : Fin 16384, n'.val = 1024 * (t.val / 8) + p.val := ⟨⟨_, hp⟩, rfl⟩
  have hn'' : (⟨1024 * (t.val / 8) + p.val, hp⟩ : Fin 16384) = n' := Fin.ext hn'.symm
  rw [hemb, hn'', G3fun_ix2, pay3_3_apply, scratch3 V c 7 t h7 p q n' hn', acc7_3]
  unfold g3
  exact congrArg (fun z : EReal => max ((∑ r : Fin 16384, inA3 V c (ix2 n' r) * inH3 V c (ix2 r q)) + z) 0) (blk3_2_apply V c t q)

/-- The result array after the region. -/
theorem final3 (c : Dev nD) : (dat3 V c).arrAt 3 cfg3.N = G3 V c :=
  (dat3 V c).arrAt_eq_of_cover 3 (G3 V c) (flushed3_eq V c) cover3_3

end Cert.KernelIdeal.Fr

end
-- ==== Proof.KI.Blocks4.lean ====
/-
  Where the blocks of the dense layer's windows sit in their arrays.

  The grid of the product `X · W + b` with `X` of 16384 × 64 in row blocks of 2048 has 8 points; point `t` works on
  row block `t`. Element `(p, y)` of the block of `X` at `t` is `X (2048 · t + p, y)`; the matrix `W` of
  64 × 128 and the bias row are read whole at every point; the result's block at `t` is rows `2048 · t …` of
  the 16384 × 128 result, written back at every point.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t`. -/
theorem idx4_0 : ∀ t : Fin cfg4.N, win4_0.index t 0 = t.val ∧ win4_0.index t 1 = 0 :=
  (by decide +kernel : ∀ t : Fin grid4.N, win4_0.index t 0 = t.val ∧ win4_0.index t 1 = 0)

theorem idx4_1 : ∀ t : Fin cfg4.N, win4_1.index t 0 = 0 ∧ win4_1.index t 1 = 0 :=
  (by decide +kernel : ∀ t : Fin grid4.N, win4_1.index t 0 = 0 ∧ win4_1.index t 1 = 0)

theorem idx4_2 : ∀ t : Fin cfg4.N, win4_2.index t 0 = 0 ∧ win4_2.index t 1 = 0 :=
  (by decide +kernel : ∀ t : Fin grid4.N, win4_2.index t 0 = 0 ∧ win4_2.index t 1 = 0)

theorem idx4_3 : ∀ t : Fin cfg4.N, win4_3.index t 0 = t.val ∧ win4_3.index t 1 = 0 :=
  (by decide +kernel : ∀ t : Fin grid4.N, win4_3.index t 0 = t.val ∧ win4_3.index t 1 = 0)

/-- Element `(p, y)` of the block of the left operand at point `t`. -/
theorem blk4_0_apply (c : Dev nD) (t : Fin cfg4.N) (p : Fin 2048) (y : Fin 64)
    (hp : 2048 * t.val + p.val < 16384) :
    ((cfg4.win 0).blk t).view.read (Elt F) (V c (Pipeline.arrRef spec4 0)) (ix2 p y)
      = V c main_v67 (ix2 (⟨2048 * t.val + p.val, hp⟩ : Fin 16384) y) := by
  have hi := idx4_0 t
  rw [View.read_apply]
  show V c main_v67 _ = V c main_v67 _
  congr 1
  funext a
  apply Fin.ext
  match a with
  | ⟨0, _⟩ => show win4_0.index t 0 * 2048 + 1 * p.val = 2048 * t.val + p.val; rw [hi.1]; omega
  | ⟨1, _⟩ => show win4_0.index t 1 * 64 + 1 * y.val = y.val; rw [hi.2]; omega

/-- The right operand is read whole at every point. -/
theorem blk4_1_apply (c : Dev nD) (t : Fin cfg4.N) (y : Fin 64) (q : Fin 128) :
    ((cfg4.win 1).blk t).view.read (Elt F) (V c (Pipeline.arrRef spec4 1)) (ix2 y q)
      = V c main_arg6 (ix2 y q) := by
  have hi := idx4_1 t
  rw [View.read_apply]
  show V c main_arg6 _ = V c main_arg6 _
  congr 1
  funext a
  apply Fin.ext
  match a with
  | ⟨0, _⟩ => show win4_1.index t 0 * 64 + 1 * y.val = y.val; rw [hi.1]; omega
  | ⟨1, _⟩ => show win4_1.index t 1 * 128 + 1 * q.val = q.val; rw [hi.2]; omega

/-- The bias row is read whole at every point. -/
theorem blk4_2_apply (c : Dev nD) (t : Fin cfg4.N) (q : Fin 128) :
    ((cfg4.win 2).blk t).view.read (Elt F) (V c (Pipeline.arrRef spec4 2)) (ix2 (0 : Fin 1) q)
      = V c main_v69 (ix2 (0 : Fin 1) q) := by
  have hi := idx4_2 t
  rw [View.read_apply]
  show V c main_v69 _ = V c main_v69 _
  congr 1
  funext a
  apply Fin.ext
  match a with
  | ⟨0, _⟩ => show win4_2.index t 0 * 1 + 1 * 0 = 0; rw [hi.1]
  | ⟨1, _⟩ => show win4_2.index t 1 * 128 + 1 * q.val = q.val; rw [hi.2]; omega

/-- The output window's blocks are whole: 2048 rows of 128 columns at every point. -/
theorem xsize4_3 : ∀ t : Fin cfg4.N, win4_3.xsize (grid4.coords t) 0 = 2048 ∧ win4_3.xsize (grid4.coords t) 1 = 128 :=
  (by decide +kernel : ∀ t : Fin grid4.N, win4_3.xsize (grid4.coords t) 0 = 2048 ∧ win4_3.xsize (grid4.coords t) 1 = 128)

/-- Every point writes its block of the result back. -/
theorem flushall4_3 : ∀ t : Fin cfg4.N, (cfg4.win 3).flush t = true := flush4_3

/-- Every element of the result lies in the block written back at the point of its row block. -/
theorem cover4_3 (i : S16384x128.Idx) :
    ∃ t : Fin cfg4.N, (cfg4.win 3).flush t = true ∧ i ∈ ((cfg4.win 3).blk t).view.set := by
  have h0 : (i 0 : Nat) < 16384 := (i 0).isLt
  have h1 : (i 1 : Nat) < 128 := (i 1).isLt
  have hN : cfg4.N = 8 := N_4
  have ht : (i 0 : Nat) / 2048 < cfg4.N := by rw [hN]; omega
  obtain ⟨t, htv⟩ : ∃ t : Fin cfg4.N, t.val = (i 0 : Nat) / 2048 := ⟨⟨_, ht⟩, rfl⟩
  refine ⟨t, flush4_3 t, ?_⟩
  have hi := idx4_3 t
  have hx := xsize4_3 t
  show i ∈ ((View.whole main_v70).slice (win4_3.rect t)).set
  rw [View.set_slice_whole, Rect.mem_set_unit]
  intro a
  match a with
  | ⟨0, _⟩ =>
    show win4_3.index t 0 * 2048 ≤ (i 0 : Nat) ∧ (i 0 : Nat) < win4_3.index t 0 * 2048 + win4_3.xsize (grid4.coords t) 0
    rw [hi.1, hx.1, htv]
    omega
  | ⟨1, _⟩ =>
    show win4_3.index t 1 * 128 ≤ (i 1 : Nat) ∧ (i 1 : Nat) < win4_3.index t 1 * 128 + win4_3.xsize (grid4.coords t) 1
    rw [hi.2, hx.2]
    omega

end Cert.KernelIdeal.Fr

end
-- ==== Proof.KI.Final4.lean ====
/-
  What the dense layer `X · W + b` of region 4 leaves in its result array, as one function of the buffers it is entered with.

  The grid has 8 points; point `t` works on row block `t` of 2048 rows, reads the 64 × 128 matrix and the bias row whole,
  clears the accumulator, adds the product of the two blocks once, adds the bias row and writes the block back. So entry
  `(n, q)` of the result is zero plus the sum over the 64 columns of `X (n, ·) · W (·, q)`, plus `b q`; the blocks
  written back cover the result array.
-/
import proofs.«127812_j6760278524061_1_alg».proof.Proof.KI.Region4
import proofs.«127812_j6760278524061_1_alg».proof.Proof.KI.Blocks4
import proofs.«127812_j6760278524061_1_alg».proof.Proof.KI.Payloads
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inX4 (c : Dev nD) : S16384x64.Idx → EReal := V c main_v67
abbrev inW4 (c : Dev nD) : S64x128.Idx → EReal := V c main_arg6
abbrev inZ4 (c : Dev nD) : S1x128.Idx → EReal := V c main_v69
abbrev ibX4 (c : Dev nD) (t : Fin cfg4.N) : S2048x64.Idx → EReal := iblk4 V c 0 t
abbrev ibW4 (c : Dev nD) (t : Fin cfg4.N) : S64x128.Idx → EReal := iblk4 V c 1 t
abbrev ibZ4 (c : Dev nD) (t : Fin cfg4.N) : S1x128.Idx → EReal := iblk4 V c 2 t

/-- Entry `(n, q)` of the result. -/
def g4 (c : Dev nD) (n : Fin 16384) (q : Fin 128) : EReal :=
  (0 + ∑ k : Fin 64, inX4 V c (ix2 n k) * inW4 V c (ix2 k q)) + inZ4 V c (ix2 (0 : Fin 1) q)

/-- The result array. -/
def G4fun (c : Dev nD) : S16384x128.Idx → EReal := fun i =>
  g4 V c ⟨(i 0).val, by have h : (i 0).val < 16384 := (i 0).isLt; exact h⟩
    ⟨(i 1).val, by have h : (i 1).val < 128 := (i 1).isLt; exact h⟩

theorem G4fun_ix2 (c : Dev nD) (n : Fin 16384) (q : Fin 128) : G4fun V c (ix2 n q) = g4 V c n q := rfl

abbrev G4 (c : Dev nD) : Buf (Elt Ideal) ((c : Thread nD τ).loc main_v70) := G4fun V c

/-- What a point writes back: its block of the result. -/
theorem flushed4_eq (c : Dev nD) (t : Fin cfg4.N) (hf : (cfg4.win 3).flush t = true) :
    (dat4 V c).flushed 3 t = ((cfg4.win 3).blk t).view.read (Elt Ideal) (G4 V c) := by
  have hN : cfg4.N = 8 := N_4
  have hi := idx4_3 t
  show (cfg4.win 3).cut (grid4.coords t) ((dat4 V c).after 3 t) = _
  rw [after4_out V c t, out4_3_eq]
  funext j
  obtain ⟨p, q, rfl⟩ : ∃ (p : Fin 2048) (q : Fin 128), j = ix2 p q := ⟨j 0, j 1, eq_ix2 j⟩
  have hp : 2048 * t.val + p.val < 16384 := by have := t.isLt; omega
  show k4_pay3 (F := Ideal) (k4_pay2 (iblk4 V c 0 t) (iblk4 V c 1 t) (k4_pay1 (F := Ideal))) (iblk4 V c 2 t) (ix2 p q)
    = G4fun V c (((cfg4.win 3).blk t).view.emb (ix2 p q))
  have hemb : ((cfg4.win 3).blk t).view.emb (ix2 p q) = ix2 (⟨2048 * t.val + p.val, hp⟩ : Fin 16384) q := by
    funext a; apply Fin.ext
    match a with
    | ⟨0, _⟩ => show win4_3.index t 0 * 2048 + 1 * p.val = 2048 * t.val + p.val; rw [hi.1]; omega
    | ⟨1, _⟩ => show win4_3.index t 1 * 128 + 1 * q.val = q.val; rw [hi.2]; omega
  obtain ⟨n', hn'⟩ : ∃ n' : Fin 16384, n'.val = 2048 * t.val + p.val := ⟨⟨_, hp⟩, rfl⟩
  have hn'' : (⟨2048 * t.val + p.val, hp⟩ : Fin 16384) = n' := Fin.ext hn'.symm
  have hsum : ∑ k : Fin 64, ibX4 V c t (ix2 p k) * ibW4 V c t (ix2 k q)
      = ∑ k : Fin 64, inX4 V c (ix2 n' k) * inW4 V c (ix2 k q) := by
    refine Finset.sum_congr rfl (fun k _ => ?_)
    rw [← hn'']
    exact congrArg₂ (· * ·) (blk4_0_apply V c t p k hp) (blk4_1_apply V c t k q)
  rw [hemb, hn'', G4fun_ix2, pay3_4_apply, pay2_4_apply, pay1_4_apply]
  unfold g4
  exact congrArg₂ (fun a b : EReal => (0 + a) + b) hsum (blk4_2_apply V c t q)

/-- The result array after the region. -/
theorem final4 (c : Dev nD) : (dat4 V c).arrAt 3 cfg4.N = G4 V c :=
  (dat4 V c).arrAt_eq_of_cover 3 (G4 V c) (flushed4_eq V c) cover4_3

end Cert.KernelIdeal.Fr

end
-- ==== Proof.KI.Blocks5.lean ====
/-
  Where the blocks of the accumulating matrix product's windows sit in their arrays.

  The grid of the product `A · H + b` with `A` of 16384 × 16384 in row blocks of 1024 and column blocks of 2048, and
  `H` of 16384 × 128, has 16 · 8 points; point `t` works on row block `t / 8` and contraction block `t % 8`. Element
  `(p, y)` of the block of `A` at `t` is `A (1024 · (t / 8) + p, 2048 · (t % 8) + y)`; element `(y, q)` of the block of
  `H` is `H (2048 · (t % 8) + y, q)`; the bias row is read whole at every point; the result's block, rows
  `1024 · (t / 8) …` of the 16384 × 128 result, is written back at the last contraction block.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t / 8` and contraction block `t % 8`. -/
theorem idx5_0 : ∀ t : Fin cfg5.N, win5_0.index t 0 = t.val / 8 ∧ win5_0.index t 1 = t.val % 8 :=
  (by decide +kernel : ∀ t : Fin grid5.N, win5_0.index t 0 = t.val / 8 ∧ win5_0.index t 1 = t.val % 8)

theorem idx5_1 : ∀ t : Fin cfg5.N, win5_1.index t 0 = t.val % 8 ∧ win5_1.index t 1 = 0 :=
  (by decide +kernel : ∀ t : Fin grid5.N, win5_1.index t 0 = t.val % 8 ∧ win5_1.index t 1 = 0)

theorem idx5_2 : ∀ t : Fin cfg5.N, win5_2.index t 0 = 0 ∧ win5_2.index t 1 = 0 :=
  (by decide +kernel : ∀ t : Fin grid5.N, win5_2.index t 0 = 0 ∧ win5_2.index t 1 = 0)

theorem idx5_3 : ∀ t : Fin cfg5.N, win5_3.index t 0 = t.val / 8 ∧ win5_3.index t 1 = 0 :=
  (by decide +kernel : ∀ t : Fin grid5.N, win5_3.index t 0 = t.val / 8 ∧ win5_3.index t 1 = 0)

/-- Element `(p, y)` of the block of the left operand at point `t`. -/
theorem blk5_0_apply (c : Dev nD) (t : Fin cfg5.N) (p : Fin 1024) (y : Fin 2048)
    (hp : 1024 * (t.val / 8) + p.val < 16384) (hy : 2048 * (t.val % 8) + y.val < 16384) :
    ((cfg5.win 0).blk t).view.read (Elt F) (V c (Pipeline.arrRef spec5 0)) (ix2 p y)
      = V c main_v57 (ix2 (⟨1024 * (t.val / 8) + p.val, hp⟩ : Fin 16384) (⟨2048 * (t.val % 8) + y.val, hy⟩ : Fin 16384)) := by
  have hi := idx5_0 t
  rw [View.read_apply]
  show V c main_v57 _ = V c main_v57 _
  congr 1
  funext a
  apply Fin.ext
  match a with
  | ⟨0, _⟩ => show win5_0.index t 0 * 1024 + 1 * p.val = 1024 * (t.val / 8) + p.val; rw [hi.1]; omega
  | ⟨1, _⟩ => show win5_0.index t 1 * 2048 + 1 * y.val = 2048 * (t.val % 8) + y.val; rw [hi.2]; omega

/-- Element `(y, q)` of the block of the right operand at point `t`. -/
theorem blk5_1_apply (c : Dev nD) (t : Fin cfg5.N) (y : Fin 2048) (q : Fin 128)
    (hy : 2048 * (t.val % 8) + y.val < 16384) :
    ((cfg5.win 1).blk t).view.read (Elt F) (V c (Pipeline.arrRef spec5 1)) (ix2 y q)
      = V c main_v70 (ix2 (⟨2048 * (t.val % 8) + y.val, hy⟩ : Fin 16384) q) := by
  have hi := idx5_1 t
  rw [View.read_apply]
  show V c main_v70 _ = V c main_v70 _
  congr 1
  funext a
  apply Fin.ext
  match a with
  | ⟨0, _⟩ => show win5_1.index t 0 * 2048 + 1 * y.val = 2048 * (t.val % 8) + y.val; rw [hi.1]; omega
  | ⟨1, _⟩ => show win5_1.index t 1 * 128 + 1 * q.val = q.val; rw [hi.2]; omega

/-- The bias row is read whole at every point. -/
theorem blk5_2_apply (c : Dev nD) (t : Fin cfg5.N) (q : Fin 128) :
    ((cfg5.win 2).blk t).view.read (Elt F) (V c (Pipeline.arrRef spec5 2)) (ix2 (0 : Fin 1) q)
      = V c main_v71 (ix2 (0 : Fin 1) q) := by
  have hi := idx5_2 t
  rw [View.read_apply]
  show V c main_v71 _ = V c main_v71 _
  congr 1
  funext a
  apply Fin.ext
  match a with
  | ⟨0, _⟩ => show win5_2.index t 0 * 1 + 1 * 0 = 0; rw [hi.1]
  | ⟨1, _⟩ => show win5_2.index t 1 * 128 + 1 * q.val = q.val; rw [hi.2]; omega

/-- The output window's blocks are whole: 1024 rows of 128 columns at every point. -/
theorem xsize5_3 : ∀ t : Fin cfg5.N, win5_3.xsize (grid5.coords t) 0 = 1024 ∧ win5_3.xsize (grid5.coords t) 1 = 128 :=
  (by decide +kernel : ∀ t : Fin grid5.N, win5_3.xsize (grid5.coords t) 0 = 1024 ∧ win5_3.xsize (grid5.coords t) 1 = 128)

/-- Every element of the result lies in the block written back at the last point of its row block. -/
theorem cover5_3 (i : S16384x128.Idx) :
    ∃ t : Fin cfg5.N, (cfg5.win 3).flush t = true ∧ i ∈ ((cfg5.win 3).blk t).view.set := by
  have h0 : (i 0 : Nat) < 16384 := (i 0).isLt
  have h1 : (i 1 : Nat) < 128 := (i 1).isLt
  have hN : cfg5.N = 128 := N_5
  have ht : 8 * ((i 0 : Nat) / 1024) + 7 < cfg5.N := by rw [hN]; omega
  obtain ⟨t, htv⟩ : ∃ t : Fin cfg5.N, t.val = 8 * ((i 0 : Nat) / 1024) + 7 := ⟨⟨_, ht⟩, rfl⟩
  refine ⟨t, (flush5_3 t).mpr (by rw [htv]; omega), ?_⟩
  have hi := idx5_3 t
  have hx := xsize5_3 t
  show i ∈ ((View.whole main_v72).slice (win5_3.rect t)).set
  rw [View.set_slice_whole, Rect.mem_set_unit]
  intro a
  match a with
  | ⟨0, _⟩ =>
    show win5_3.index t 0 * 1024 ≤ (i 0 : Nat) ∧ (i 0 : Nat) < win5_3.index t 0 * 1024 + win5_3.xsize (grid5.coords t) 0
    rw [hi.1, hx.1, htv]
    omega
  | ⟨1, _⟩ =>
    show win5_3.index t 1 * 128 ≤ (i 1 : Nat) ∧ (i 1 : Nat) < win5_3.index t 1 * 128 + win5_3.xsize (grid5.coords t) 1
    rw [hi.2, hx.2]
    omega

end Cert.KernelIdeal.Fr

end
-- ==== Proof.KI.Final5.lean ====
/-
  What the third aggregation `relu (Â · H + b)` leaves in its result array, as one function of the buffers it is
  entered with.

  Row block `t / 8` of the result is accumulated over the eight contraction blocks `t % 8 = 0 … 7`: after the step at
  block `k` the accumulator holds, at `(p, q)`, zero plus the partial sums of `Â (n, ·) · H (·, q)` over the column blocks
  `0 … k` of row `n = 1024 · (t / 8) + p`. After the last block that running sum is the whole sum over the 16384
  columns (a sum regrouped into eight consecutive blocks of 2048), and the finishing step adds the bias and rectifies. The
  blocks written back at the last steps cover the result array.
-/
import proofs.«127812_j6760278524061_1_alg».proof.Proof.KI.Region5
import proofs.«127812_j6760278524061_1_alg».proof.Proof.KI.Blocks5
import proofs.«127812_j6760278524061_1_alg».proof.Proof.KI.Payloads
import proofs.«127812_j6760278524061_1_alg».proof.Proof.LibBlockSum
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inA5 (c : Dev nD) : S16384x16384.Idx → EReal := V c main_v57
abbrev inH5 (c : Dev nD) : S16384x128.Idx → EReal := V c main_v70
abbrev inB5 (c : Dev nD) : S1x128.Idx → EReal := V c main_v71
abbrev ibA5 (c : Dev nD) (t : Fin cfg5.N) : S1024x2048.Idx → EReal := iblk5 V c 0 t
abbrev ibH5 (c : Dev nD) (t : Fin cfg5.N) : S2048x128.Idx → EReal := iblk5 V c 1 t
abbrev ibB5 (c : Dev nD) (t : Fin cfg5.N) : S1x128.Idx → EReal := iblk5 V c 2 t

/-- The contribution of contraction block `k` to entry `(n, q)`. -/
def bsum5 (c : Dev nD) (n : Fin 16384) (q : Fin 128) (k : ℕ) : EReal :=
  if hk : k < 8 then
    ∑ y : Fin 2048, inA5 V c (ix2 n (⟨2048 * k + y.val, by omega⟩ : Fin 16384))
      * inH5 V c (ix2 (⟨2048 * k + y.val, by omega⟩ : Fin 16384) q)
  else 0

/-- The accumulator after the step at contraction block `k`. -/
def accS5 (c : Dev nD) (n : Fin 16384) (q : Fin 128) : ℕ → EReal
  | 0 => 0 + bsum5 V c n q 0
  | k + 1 => accS5 c n q k + bsum5 V c n q (k + 1)

/-- The product of the two blocks at point `t`, at `(p, q)`, is the contribution of block `t % 8` to row
    `1024 · (t / 8) + p`. -/
theorem blockterm5 (c : Dev nD) (t : Fin cfg5.N) (p : Fin 1024) (q : Fin 128) (n : Fin 16384)
    (hn : n.val = 1024 * (t.val / 8) + p.val) :
    ∑ y : Fin 2048, ibA5 V c t (ix2 p y) * ibH5 V c t (ix2 y q) = bsum5 V c n q (t.val % 8) := by
  have hk : t.val % 8 < 8 := Nat.mod_lt _ (by decide)
  have hp : 1024 * (t.val / 8) + p.val < 16384 := hn ▸ n.isLt
  obtain rfl : n = ⟨1024 * (t.val / 8) + p.val, hp⟩ := Fin.ext hn
  unfold bsum5
  rw [dif_pos hk]
  refine Finset.sum_congr rfl (fun y _ => ?_)
  exact congrArg₂ (· * ·) (blk5_0_apply V c t p y hp (by omega)) (blk5_1_apply V c t y q (by omega))

/-- The accumulator's contents after every point. -/
theorem scratch5 (c : Dev nD) : ∀ (k : ℕ) (t : Fin cfg5.N), t.val % 8 = k → ∀ (p : Fin 1024) (q : Fin 128) (n : Fin 16384),
    n.val = 1024 * (t.val / 8) + p.val → (outsAt5 V c t.val t.isLt).2 (ix2 p q) = accS5 V c n q k := by
  intro k
  induction k with
  | zero =>
    intro t hk p q n hn
    rw [acc5_first V c t hk, pay2_5_apply, pay1_5_apply]
    exact congrArg (fun z => (0 : EReal) + z) ((blockterm5 V c t p q n hn).trans (by rw [hk]))
  | succ k ih =>
    intro t hk p q n hn
    have h0 : ¬ t.val % 8 = 0 := by omega
    have hlt : t.val - 1 < cfg5.N := Nat.lt_of_le_of_lt (Nat.sub_le _ _) t.isLt
    have hprev := ih ⟨t.val - 1, hlt⟩ (by show (t.val - 1) % 8 = k; omega) p q n
      (by show n.val = 1024 * ((t.val - 1) / 8) + p.val; have : (t.val - 1) / 8 = t.val / 8 := by omega
          rw [this]; exact hn)
    rw [acc5_step V c t h0, pay2_5_apply]
    exact congrArg₂ (fun a b : EReal => a + b) hprev ((blockterm5 V c t p q n hn).trans (by rw [hk]))

/-- After the eighth block the accumulator holds the whole row-by-column sum. -/
theorem acc7_5 (c : Dev nD) (n : Fin 16384) (q : Fin 128) :
    accS5 V c n q 7 = ∑ r : Fin 16384, inA5 V c (ix2 n r) * inH5 V c (ix2 r q) := by
  rw [Cert.Lib.running_sum_lt' (N := 8) (bsum5 V c n q) (accS5 V c n q) rfl (fun _ _ => rfl) 7 (by omega)]
  exact Cert.Lib.sum_range_blocks_of_eq (nb := 8) (bs := 2048) (N := 16384) rfl
    (fun r => inA5 V c (ix2 n r) * inH5 V c (ix2 r q)) (bsum5 V c n q)
    (fun t ht => by unfold bsum5; rw [dif_pos ht])

/-- Entry `(n, q)` of the result. -/
def g5 (c : Dev nD) (n : Fin 16384) (q : Fin 128) : EReal :=
  max ((∑ r : Fin 16384, inA5 V c (ix2 n r) * inH5 V c (ix2 r q)) + inB5 V c (ix2 (0 : Fin 1) q)) 0

/-- The result array. -/
def G5fun (c : Dev nD) : S16384x128.Idx → EReal := fun i =>
  g5 V c ⟨(i 0).val, by have h : (i 0).val < 16384 := (i 0).isLt; exact h⟩
    ⟨(i 1).val, by have h : (i 1).val < 128 := (i 1).isLt; exact h⟩

theorem G5fun_ix2 (c : Dev nD) (n : Fin 16384) (q : Fin 128) : G5fun V c (ix2 n q) = g5 V c n q := rfl

abbrev G5 (c : Dev nD) : Buf (Elt Ideal) ((c : Thread nD τ).loc main_v72) := G5fun V c

/-- What a point that writes back writes: its block of the result. -/
theorem flushed5_eq (c : Dev nD) (t : Fin cfg5.N) (hf : (cfg5.win 3).flush t = true) :
    (dat5 V c).flushed 3 t = ((cfg5.win 3).blk t).view.read (Elt Ideal) (G5 V c) := by
  have h7 : t.val % 8 = 7 := (flush5_3 t).mp hf
  have hN : cfg5.N = 128 := N_5
  have hi := idx5_3 t
  show (cfg5.win 3).cut (grid5.coords t) ((dat5 V c).after 3 t) = _
  rw [after5_out V c t h7]
  funext j
  obtain ⟨p, q, rfl⟩ : ∃ (p : Fin 1024) (q : Fin 128), j = ix2 p q := ⟨j 0, j 1, eq_ix2 j⟩
  have hp : 1024 * (t.val / 8) + p.val < 16384 := by have := t.isLt; omega
  show k5_pay3 (F := Ideal) (outsAt5 V c t.val t.isLt).2 (iblk5 V c 2 t) (ix2 p q)
    = G5fun V c (((cfg5.win 3).blk t).view.emb (ix2 p q))
  have hemb : ((cfg5.win 3).blk t).view.emb (ix2 p q) = ix2 (⟨1024 * (t.val / 8) + p.val, hp⟩ : Fin 16384) q := by
    funext a; apply Fin.ext
    match a with
    | ⟨0, _⟩ => show win5_3.index t 0 * 1024 + 1 * p.val = 1024 * (t.val / 8) + p.val; rw [hi.1]; omega
    | ⟨1, _⟩ => show win5_3.index t 1 * 128 + 1 * q.val = q.val; rw [hi.2]; omega
  obtain ⟨n', hn'⟩ : ∃ n' : Fin 16384, n'.val = 1024 * (t.val / 8) + p.val := ⟨⟨_, hp⟩, rfl⟩
  have hn'' : (⟨1024 * (t.val / 8) + p.val, hp⟩ : Fin 16384) = n' := Fin.ext hn'.symm
  rw [hemb, hn'', G5fun_ix2, pay3_5_apply, scratch5 V c 7 t h7 p q n' hn', acc7_5]
  unfold g5
  exact congrArg (fun z : EReal => max ((∑ r : Fin 16384, inA5 V c (ix2 n' r) * inH5 V c (ix2 r q)) + z) 0) (blk5_2_apply V c t q)

/-- The result array after the region. -/
theorem final5 (c : Dev nD) : (dat5 V c).arrAt 3 cfg5.N = G5 V c :=
  (dat5 V c).arrAt_eq_of_cover 3 (G5 V c) (flushed5_eq V c) cover5_3

end Cert.KernelIdeal.Fr

end
-- ==== Proof.KI.Blocks6.lean ====
/-
  Where the blocks of the dense layer's windows sit in their arrays.

  The grid of the product `X · W + b` with `X` of 16384 × 128 in row blocks of 2048 has 8 points; point `t` works on
  row block `t`. Element `(p, y)` of the block of `X` at `t` is `X (2048 · t + p, y)`; the matrix `W` of
  128 × 256 and the bias row are read whole at every point; the result's block at `t` is rows `2048 · t …` of
  the 16384 × 256 result, written back at every point.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t`. -/
theorem idx6_0 : ∀ t : Fin cfg6.N, win6_0.index t 0 = t.val ∧ win6_0.index t 1 = 0 :=
  (by decide +kernel : ∀ t : Fin grid6.N, win6_0.index t 0 = t.val ∧ win6_0.index t 1 = 0)

theorem idx6_1 : ∀ t : Fin cfg6.N, win6_1.index t 0 = 0 ∧ win6_1.index t 1 = 0 :=
  (by decide +kernel : ∀ t : Fin grid6.N, win6_1.index t 0 = 0 ∧ win6_1.index t 1 = 0)

theorem idx6_2 : ∀ t : Fin cfg6.N, win6_2.index t 0 = 0 ∧ win6_2.index t 1 = 0 :=
  (by decide +kernel : ∀ t : Fin grid6.N, win6_2.index t 0 = 0 ∧ win6_2.index t 1 = 0)

theorem idx6_3 : ∀ t : Fin cfg6.N, win6_3.index t 0 = t.val ∧ win6_3.index t 1 = 0 :=
  (by decide +kernel : ∀ t : Fin grid6.N, win6_3.index t 0 = t.val ∧ win6_3.index t 1 = 0)

/-- Element `(p, y)` of the block of the left operand at point `t`. -/
theorem blk6_0_apply (c : Dev nD) (t : Fin cfg6.N) (p : Fin 2048) (y : Fin 128)
    (hp : 2048 * t.val + p.val < 16384) :
    ((cfg6.win 0).blk t).view.read (Elt F) (V c (Pipeline.arrRef spec6 0)) (ix2 p y)
      = V c main_v72 (ix2 (⟨2048 * t.val + p.val, hp⟩ : Fin 16384) y) := by
  have hi := idx6_0 t
  rw [View.read_apply]
  show V c main_v72 _ = V c main_v72 _
  congr 1
  funext a
  apply Fin.ext
  match a with
  | ⟨0, _⟩ => show win6_0.index t 0 * 2048 + 1 * p.val = 2048 * t.val + p.val; rw [hi.1]; omega
  | ⟨1, _⟩ => show win6_0.index t 1 * 128 + 1 * y.val = y.val; rw [hi.2]; omega

/-- The right operand is read whole at every point. -/
theorem blk6_1_apply (c : Dev nD) (t : Fin cfg6.N) (y : Fin 128) (q : Fin 256) :
    ((cfg6.win 1).blk t).view.read (Elt F) (V c (Pipeline.arrRef spec6 1)) (ix2 y q)
      = V c main_arg8 (ix2 y q) := by
  have hi := idx6_1 t
  rw [View.read_apply]
  show V c main_arg8 _ = V c main_arg8 _
  congr 1
  funext a
  apply Fin.ext
  match a with
  | ⟨0, _⟩ => show win6_1.index t 0 * 128 + 1 * y.val = y.val; rw [hi.1]; omega
  | ⟨1, _⟩ => show win6_1.index t 1 * 256 + 1 * q.val = q.val; rw [hi.2]; omega

/-- The bias row is read whole at every point. -/
theorem blk6_2_apply (c : Dev nD) (t : Fin cfg6.N) (q : Fin 256) :
    ((cfg6.win 2).blk t).view.read (Elt F) (V c (Pipeline.arrRef spec6 2)) (ix2 (0 : Fin 1) q)
      = V c main_v74 (ix2 (0 : Fin 1) q) := by
  have hi := idx6_2 t
  rw [View.read_apply]
  show V c main_v74 _ = V c main_v74 _
  congr 1
  funext a
  apply Fin.ext
  match a with
  | ⟨0, _⟩ => show win6_2.index t 0 * 1 + 1 * 0 = 0; rw [hi.1]
  | ⟨1, _⟩ => show win6_2.index t 1 * 256 + 1 * q.val = q.val; rw [hi.2]; omega

/-- The output window's blocks are whole: 2048 rows of 256 columns at every point. -/
theorem xsize6_3 : ∀ t : Fin cfg6.N, win6_3.xsize (grid6.coords t) 0 = 2048 ∧ win6_3.xsize (grid6.coords t) 1 = 256 :=
  (by decide +kernel : ∀ t : Fin grid6.N, win6_3.xsize (grid6.coords t) 0 = 2048 ∧ win6_3.xsize (grid6.coords t) 1 = 256)

/-- Every point writes its block of the result back. -/
theorem flushall6_3 : ∀ t : Fin cfg6.N, (cfg6.win 3).flush t = true := flush6_3

/-- Every element of the result lies in the block written back at the point of its row block. -/
theorem cover6_3 (i : S16384x256.Idx) :
    ∃ t : Fin cfg6.N, (cfg6.win 3).flush t = true ∧ i ∈ ((cfg6.win 3).blk t).view.set := by
  have h0 : (i 0 : Nat) < 16384 := (i 0).isLt
  have h1 : (i 1 : Nat) < 256 := (i 1).isLt
  have hN : cfg6.N = 8 := N_6
  have ht : (i 0 : Nat) / 2048 < cfg6.N := by rw [hN]; omega
  obtain ⟨t, htv⟩ : ∃ t : Fin cfg6.N, t.val = (i 0 : Nat) / 2048 := ⟨⟨_, ht⟩, rfl⟩
  refine ⟨t, flush6_3 t, ?_⟩
  have hi := idx6_3 t
  have hx := xsize6_3 t
  show i ∈ ((View.whole main_v75).slice (win6_3.rect t)).set
  rw [View.set_slice_whole, Rect.mem_set_unit]
  intro a
  match a with
  | ⟨0, _⟩ =>
    show win6_3.index t 0 * 2048 ≤ (i 0 : Nat) ∧ (i 0 : Nat) < win6_3.index t 0 * 2048 + win6_3.xsize (grid6.coords t) 0
    rw [hi.1, hx.1, htv]
    omega
  | ⟨1, _⟩ =>
    show win6_3.index t 1 * 256 ≤ (i 1 : Nat) ∧ (i 1 : Nat) < win6_3.index t 1 * 256 + win6_3.xsize (grid6.coords t) 1
    rw [hi.2, hx.2]
    omega

end Cert.KernelIdeal.Fr

end
-- ==== Proof.KI.Final6.lean ====
/-
  What the dense layer `X · W + b` of region 6 leaves in its result array, as one function of the buffers it is entered with.

  The grid has 8 points; point `t` works on row block `t` of 2048 rows, reads the 128 × 256 matrix and the bias row whole,
  clears the accumulator, adds the product of the two blocks once, adds the bias row and writes the block back. So entry
  `(n, q)` of the result is zero plus the sum over the 128 columns of `X (n, ·) · W (·, q)`, plus `b q`; the blocks
  written back cover the result array.
-/
import proofs.«127812_j6760278524061_1_alg».proof.Proof.KI.Region6
import proofs.«127812_j6760278524061_1_alg».proof.Proof.KI.Blocks6
import proofs.«127812_j6760278524061_1_alg».proof.Proof.KI.Payloads
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inX6 (c : Dev nD) : S16384x128.Idx → EReal := V c main_v72
abbrev inW6 (c : Dev nD) : S128x256.Idx → EReal := V c main_arg8
abbrev inZ6 (c : Dev nD) : S1x256.Idx → EReal := V c main_v74
abbrev ibX6 (c : Dev nD) (t : Fin cfg6.N) : S2048x128.Idx → EReal := iblk6 V c 0 t
abbrev ibW6 (c : Dev nD) (t : Fin cfg6.N) : S128x256.Idx → EReal := iblk6 V c 1 t
abbrev ibZ6 (c : Dev nD) (t : Fin cfg6.N) : S1x256.Idx → EReal := iblk6 V c 2 t

/-- Entry `(n, q)` of the result. -/
def g6 (c : Dev nD) (n : Fin 16384) (q : Fin 256) : EReal :=
  (0 + ∑ k : Fin 128, inX6 V c (ix2 n k) * inW6 V c (ix2 k q)) + inZ6 V c (ix2 (0 : Fin 1) q)

/-- The result array. -/
def G6fun (c : Dev nD) : S16384x256.Idx → EReal := fun i =>
  g6 V c ⟨(i 0).val, by have h : (i 0).val < 16384 := (i 0).isLt; exact h⟩
    ⟨(i 1).val, by have h : (i 1).val < 256 := (i 1).isLt; exact h⟩

theorem G6fun_ix2 (c : Dev nD) (n : Fin 16384) (q : Fin 256) : G6fun V c (ix2 n q) = g6 V c n q := rfl

abbrev G6 (c : Dev nD) : Buf (Elt Ideal) ((c : Thread nD τ).loc main_v75) := G6fun V c

/-- What a point writes back: its block of the result. -/
theorem flushed6_eq (c : Dev nD) (t : Fin cfg6.N) (hf : (cfg6.win 3).flush t = true) :
    (dat6 V c).flushed 3 t = ((cfg6.win 3).blk t).view.read (Elt Ideal) (G6 V c) := by
  have hN : cfg6.N = 8 := N_6
  have hi := idx6_3 t
  show (cfg6.win 3).cut (grid6.coords t) ((dat6 V c).after 3 t) = _
  rw [after6_out V c t, out6_3_eq]
  funext j
  obtain ⟨p, q, rfl⟩ : ∃ (p : Fin 2048) (q : Fin 256), j = ix2 p q := ⟨j 0, j 1, eq_ix2 j⟩
  have hp : 2048 * t.val + p.val < 16384 := by have := t.isLt; omega
  show k6_pay3 (F := Ideal) (k6_pay2 (iblk6 V c 0 t) (iblk6 V c 1 t) (k6_pay1 (F := Ideal))) (iblk6 V c 2 t) (ix2 p q)
    = G6fun V c (((cfg6.win 3).blk t).view.emb (ix2 p q))
  have hemb : ((cfg6.win 3).blk t).view.emb (ix2 p q) = ix2 (⟨2048 * t.val + p.val, hp⟩ : Fin 16384) q := by
    funext a; apply Fin.ext
    match a with
    | ⟨0, _⟩ => show win6_3.index t 0 * 2048 + 1 * p.val = 2048 * t.val + p.val; rw [hi.1]; omega
    | ⟨1, _⟩ => show win6_3.index t 1 * 256 + 1 * q.val = q.val; rw [hi.2]; omega
  obtain ⟨n', hn'⟩ : ∃ n' : Fin 16384, n'.val = 2048 * t.val + p.val := ⟨⟨_, hp⟩, rfl⟩
  have hn'' : (⟨2048 * t.val + p.val, hp⟩ : Fin 16384) = n' := Fin.ext hn'.symm
  have hsum : ∑ k : Fin 128, ibX6 V c t (ix2 p k) * ibW6 V c t (ix2 k q)
      = ∑ k : Fin 128, inX6 V c (ix2 n' k) * inW6 V c (ix2 k q) := by
    refine Finset.sum_congr rfl (fun k _ => ?_)
    rw [← hn'']
    exact congrArg₂ (· * ·) (blk6_0_apply V c t p k hp) (blk6_1_apply V c t k q)
  rw [hemb, hn'', G6fun_ix2, pay3_6_apply, pay2_6_apply, pay1_6_apply]
  unfold g6
  exact congrArg₂ (fun a b : EReal => (0 + a) + b) hsum (blk6_2_apply V c t q)

/-- The result array after the region. -/
theorem final6 (c : Dev nD) : (dat6 V c).arrAt 3 cfg6.N = G6 V c :=
  (dat6 V c).arrAt_eq_of_cover 3 (G6 V c) (flushed6_eq V c) cover6_3

end Cert.KernelIdeal.Fr

end
-- ==== Proof.KI.Blocks7.lean ====
/-
  Where the blocks of the accumulating matrix product's windows sit in their arrays.

  The grid of the product `A · H + b` with `A` of 16384 × 16384 in row blocks of 1024 and column blocks of 2048, and
  `H` of 16384 × 256, has 16 · 8 points; point `t` works on row block `t / 8` and contraction block `t % 8`. Element
  `(p, y)` of the block of `A` at `t` is `A (1024 · (t / 8) + p, 2048 · (t % 8) + y)`; element `(y, q)` of the block of
  `H` is `H (2048 · (t % 8) + y, q)`; the bias row is read whole at every point; the result's block, rows
  `1024 · (t / 8) …` of the 16384 × 256 result, is written back at the last contraction block.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t / 8` and contraction block `t % 8`. -/
theorem idx7_0 : ∀ t : Fin cfg7.N, win7_0.index t 0 = t.val / 8 ∧ win7_0.index t 1 = t.val % 8 :=
  (by decide +kernel : ∀ t : Fin grid7.N, win7_0.index t 0 = t.val / 8 ∧ win7_0.index t 1 = t.val % 8)

theorem idx7_1 : ∀ t : Fin cfg7.N, win7_1.index t 0 = t.val % 8 ∧ win7_1.index t 1 = 0 :=
  (by decide +kernel : ∀ t : Fin grid7.N, win7_1.index t 0 = t.val % 8 ∧ win7_1.index t 1 = 0)

theorem idx7_2 : ∀ t : Fin cfg7.N, win7_2.index t 0 = 0 ∧ win7_2.index t 1 = 0 :=
  (by decide +kernel : ∀ t : Fin grid7.N, win7_2.index t 0 = 0 ∧ win7_2.index t 1 = 0)

theorem idx7_3 : ∀ t : Fin cfg7.N, win7_3.index t 0 = t.val / 8 ∧ win7_3.index t 1 = 0 :=
  (by decide +kernel : ∀ t : Fin grid7.N, win7_3.index t 0 = t.val / 8 ∧ win7_3.index t 1 = 0)

/-- Element `(p, y)` of the block of the left operand at point `t`. -/
theorem blk7_0_apply (c : Dev nD) (t : Fin cfg7.N) (p : Fin 1024) (y : Fin 2048)
    (hp : 1024 * (t.val / 8) + p.val < 16384) (hy : 2048 * (t.val % 8) + y.val < 16384) :
    ((cfg7.win 0).blk t).view.read (Elt F) (V c (Pipeline.arrRef spec7 0)) (ix2 p y)
      = V c main_v57 (ix2 (⟨1024 * (t.val / 8) + p.val, hp⟩ : Fin 16384) (⟨2048 * (t.val % 8) + y.val, hy⟩ : Fin 16384)) := by
  have hi := idx7_0 t
  rw [View.read_apply]
  show V c main_v57 _ = V c main_v57 _
  congr 1
  funext a
  apply Fin.ext
  match a with
  | ⟨0, _⟩ => show win7_0.index t 0 * 1024 + 1 * p.val = 1024 * (t.val / 8) + p.val; rw [hi.1]; omega
  | ⟨1, _⟩ => show win7_0.index t 1 * 2048 + 1 * y.val = 2048 * (t.val % 8) + y.val; rw [hi.2]; omega

/-- Element `(y, q)` of the block of the right operand at point `t`. -/
theorem blk7_1_apply (c : Dev nD) (t : Fin cfg7.N) (y : Fin 2048) (q : Fin 256)
    (hy : 2048 * (t.val % 8) + y.val < 16384) :
    ((cfg7.win 1).blk t).view.read (Elt F) (V c (Pipeline.arrRef spec7 1)) (ix2 y q)
      = V c main_v75 (ix2 (⟨2048 * (t.val % 8) + y.val, hy⟩ : Fin 16384) q) := by
  have hi := idx7_1 t
  rw [View.read_apply]
  show V c main_v75 _ = V c main_v75 _
  congr 1
  funext a
  apply Fin.ext
  match a with
  | ⟨0, _⟩ => show win7_1.index t 0 * 2048 + 1 * y.val = 2048 * (t.val % 8) + y.val; rw [hi.1]; omega
  | ⟨1, _⟩ => show win7_1.index t 1 * 256 + 1 * q.val = q.val; rw [hi.2]; omega

/-- The bias row is read whole at every point. -/
theorem blk7_2_apply (c : Dev nD) (t : Fin cfg7.N) (q : Fin 256) :
    ((cfg7.win 2).blk t).view.read (Elt F) (V c (Pipeline.arrRef spec7 2)) (ix2 (0 : Fin 1) q)
      = V c main_v76 (ix2 (0 : Fin 1) q) := by
  have hi := idx7_2 t
  rw [View.read_apply]
  show V c main_v76 _ = V c main_v76 _
  congr 1
  funext a
  apply Fin.ext
  match a with
  | ⟨0, _⟩ => show win7_2.index t 0 * 1 + 1 * 0 = 0; rw [hi.1]
  | ⟨1, _⟩ => show win7_2.index t 1 * 256 + 1 * q.val = q.val; rw [hi.2]; omega

/-- The output window's blocks are whole: 1024 rows of 256 columns at every point. -/
theorem xsize7_3 : ∀ t : Fin cfg7.N, win7_3.xsize (grid7.coords t) 0 = 1024 ∧ win7_3.xsize (grid7.coords t) 1 = 256 :=
  (by decide +kernel : ∀ t : Fin grid7.N, win7_3.xsize (grid7.coords t) 0 = 1024 ∧ win7_3.xsize (grid7.coords t) 1 = 256)

/-- Every element of the result lies in the block written back at the last point of its row block. -/
theorem cover7_3 (i : S16384x256.Idx) :
    ∃ t : Fin cfg7.N, (cfg7.win 3).flush t = true ∧ i ∈ ((cfg7.win 3).blk t).view.set := by
  have h0 : (i 0 : Nat) < 16384 := (i 0).isLt
  have h1 : (i 1 : Nat) < 256 := (i 1).isLt
  have hN : cfg7.N = 128 := N_7
  have ht : 8 * ((i 0 : Nat) / 1024) + 7 < cfg7.N := by rw [hN]; omega
  obtain ⟨t, htv⟩ : ∃ t : Fin cfg7.N, t.val = 8 * ((i 0 : Nat) / 1024) + 7 := ⟨⟨_, ht⟩, rfl⟩
  refine ⟨t, (flush7_3 t).mpr (by rw [htv]; omega), ?_⟩
  have hi := idx7_3 t
  have hx := xsize7_3 t
  show i ∈ ((View.whole main_v77).slice (win7_3.rect t)).set
  rw [View.set_slice_whole, Rect.mem_set_unit]
  intro a
  match a with
  | ⟨0, _⟩ =>
    show win7_3.index t 0 * 1024 ≤ (i 0 : Nat) ∧ (i 0 : Nat) < win7_3.index t 0 * 1024 + win7_3.xsize (grid7.coords t) 0
    rw [hi.1, hx.1, htv]
    omega
  | ⟨1, _⟩ =>
    show win7_3.index t 1 * 256 ≤ (i 1 : Nat) ∧ (i 1 : Nat) < win7_3.index t 1 * 256 + win7_3.xsize (grid7.coords t) 1
    rw [hi.2, hx.2]
    omega

end Cert.KernelIdeal.Fr

end
-- ==== Proof.KI.Final7.lean ====
/-
  What the fourth aggregation `Â · H + b` leaves in its result array, as one function of the buffers it is
  entered with.

  Row block `t / 8` of the result is accumulated over the eight contraction blocks `t % 8 = 0 … 7`: after the step at
  block `k` the accumulator holds, at `(p, q)`, zero plus the partial sums of `Â (n, ·) · H (·, q)` over the column blocks
  `0 … k` of row `n = 1024 · (t / 8) + p`. After the last block that running sum is the whole sum over the 16384
  columns (a sum regrouped into eight consecutive blocks of 2048), and the finishing step adds the bias. The
  blocks written back at the last steps cover the result array.
-/
import proofs.«127812_j6760278524061_1_alg».proof.Proof.KI.Region7
import proofs.«127812_j6760278524061_1_alg».proof.Proof.KI.Blocks7
import proofs.«127812_j6760278524061_1_alg».proof.Proof.KI.Payloads
import proofs.«127812_j6760278524061_1_alg».proof.Proof.LibBlockSum
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inA7 (c : Dev nD) : S16384x16384.Idx → EReal := V c main_v57
abbrev inH7 (c : Dev nD) : S16384x256.Idx → EReal := V c main_v75
abbrev inB7 (c : Dev nD) : S1x256.Idx → EReal := V c main_v76
abbrev ibA7 (c : Dev nD) (t : Fin cfg7.N) : S1024x2048.Idx → EReal := iblk7 V c 0 t
abbrev ibH7 (c : Dev nD) (t : Fin cfg7.N) : S2048x256.Idx → EReal := iblk7 V c 1 t
abbrev ibB7 (c : Dev nD) (t : Fin cfg7.N) : S1x256.Idx → EReal := iblk7 V c 2 t

/-- The contribution of contraction block `k` to entry `(n, q)`. -/
def bsum7 (c : Dev nD) (n : Fin 16384) (q : Fin 256) (k : ℕ) : EReal :=
  if hk : k < 8 then
    ∑ y : Fin 2048, inA7 V c (ix2 n (⟨2048 * k + y.val, by omega⟩ : Fin 16384))
      * inH7 V c (ix2 (⟨2048 * k + y.val, by omega⟩ : Fin 16384) q)
  else 0

/-- The accumulator after the step at contraction block `k`. -/
def accS7 (c : Dev nD) (n : Fin 16384) (q : Fin 256) : ℕ → EReal
  | 0 => 0 + bsum7 V c n q 0
  | k + 1 => accS7 c n q k + bsum7 V c n q (k + 1)

/-- The product of the two blocks at point `t`, at `(p, q)`, is the contribution of block `t % 8` to row
    `1024 · (t / 8) + p`. -/
theorem blockterm7 (c : Dev nD) (t : Fin cfg7.N) (p : Fin 1024) (q : Fin 256) (n : Fin 16384)
    (hn : n.val = 1024 * (t.val / 8) + p.val) :
    ∑ y : Fin 2048, ibA7 V c t (ix2 p y) * ibH7 V c t (ix2 y q) = bsum7 V c n q (t.val % 8) := by
  have hk : t.val % 8 < 8 := Nat.mod_lt _ (by decide)
  have hp : 1024 * (t.val / 8) + p.val < 16384 := hn ▸ n.isLt
  obtain rfl : n = ⟨1024 * (t.val / 8) + p.val, hp⟩ := Fin.ext hn
  unfold bsum7
  rw [dif_pos hk]
  refine Finset.sum_congr rfl (fun y _ => ?_)
  exact congrArg₂ (· * ·) (blk7_0_apply V c t p y hp (by omega)) (blk7_1_apply V c t y q (by omega))

/-- The accumulator's contents after every point. -/
theorem scratch7 (c : Dev nD) : ∀ (k : ℕ) (t : Fin cfg7.N), t.val % 8 = k → ∀ (p : Fin 1024) (q : Fin 256) (n : Fin 16384),
    n.val = 1024 * (t.val / 8) + p.val → (outsAt7 V c t.val t.isLt).2 (ix2 p q) = accS7 V c n q k := by
  intro k
  induction k with
  | zero =>
    intro t hk p q n hn
    rw [acc7_first V c t hk, pay2_7_apply, pay1_7_apply]
    exact congrArg (fun z => (0 : EReal) + z) ((blockterm7 V c t p q n hn).trans (by rw [hk]))
  | succ k ih =>
    intro t hk p q n hn
    have h0 : ¬ t.val % 8 = 0 := by omega
    have hlt : t.val - 1 < cfg7.N := Nat.lt_of_le_of_lt (Nat.sub_le _ _) t.isLt
    have hprev := ih ⟨t.val - 1, hlt⟩ (by show (t.val - 1) % 8 = k; omega) p q n
      (by show n.val = 1024 * ((t.val - 1) / 8) + p.val; have : (t.val - 1) / 8 = t.val / 8 := by omega
          rw [this]; exact hn)
    rw [acc7_step V c t h0, pay2_7_apply]
    exact congrArg₂ (fun a b : EReal => a + b) hprev ((blockterm7 V c t p q n hn).trans (by rw [hk]))

/-- After the eighth block the accumulator holds the whole row-by-column sum. -/
theorem acc7_7 (c : Dev nD) (n : Fin 16384) (q : Fin 256) :
    accS7 V c n q 7 = ∑ r : Fin 16384, inA7 V c (ix2 n r) * inH7 V c (ix2 r q) := by
  rw [Cert.Lib.running_sum_lt' (N := 8) (bsum7 V c n q) (accS7 V c n q) rfl (fun _ _ => rfl) 7 (by omega)]
  exact Cert.Lib.sum_range_blocks_of_eq (nb := 8) (bs := 2048) (N := 16384) rfl
    (fun r => inA7 V c (ix2 n r) * inH7 V c (ix2 r q)) (bsum7 V c n q)
    (fun t ht => by unfold bsum7; rw [dif_pos ht])

/-- Entry `(n, q)` of the result. -/
def g7 (c : Dev nD) (n : Fin 16384) (q : Fin 256) : EReal :=
  (∑ r : Fin 16384, inA7 V c (ix2 n r) * inH7 V c (ix2 r q)) + inB7 V c (ix2 (0 : Fin 1) q)

/-- The result array. -/
def G7fun (c : Dev nD) : S16384x256.Idx → EReal := fun i =>
  g7 V c ⟨(i 0).val, by have h : (i 0).val < 16384 := (i 0).isLt; exact h⟩
    ⟨(i 1).val, by have h : (i 1).val < 256 := (i 1).isLt; exact h⟩

theorem G7fun_ix2 (c : Dev nD) (n : Fin 16384) (q : Fin 256) : G7fun V c (ix2 n q) = g7 V c n q := rfl

abbrev G7 (c : Dev nD) : Buf (Elt Ideal) ((c : Thread nD τ).loc main_v77) := G7fun V c

/-- What a point that writes back writes: its block of the result. -/
theorem flushed7_eq (c : Dev nD) (t : Fin cfg7.N) (hf : (cfg7.win 3).flush t = true) :
    (dat7 V c).flushed 3 t = ((cfg7.win 3).blk t).view.read (Elt Ideal) (G7 V c) := by
  have h7 : t.val % 8 = 7 := (flush7_3 t).mp hf
  have hN : cfg7.N = 128 := N_7
  have hi := idx7_3 t
  show (cfg7.win 3).cut (grid7.coords t) ((dat7 V c).after 3 t) = _
  rw [after7_out V c t h7]
  funext j
  obtain ⟨p, q, rfl⟩ : ∃ (p : Fin 1024) (q : Fin 256), j = ix2 p q := ⟨j 0, j 1, eq_ix2 j⟩
  have hp : 1024 * (t.val / 8) + p.val < 16384 := by have := t.isLt; omega
  show k7_pay3 (F := Ideal) (outsAt7 V c t.val t.isLt).2 (iblk7 V c 2 t) (ix2 p q)
    = G7fun V c (((cfg7.win 3).blk t).view.emb (ix2 p q))
  have hemb : ((cfg7.win 3).blk t).view.emb (ix2 p q) = ix2 (⟨1024 * (t.val / 8) + p.val, hp⟩ : Fin 16384) q := by
    funext a; apply Fin.ext
    match a with
    | ⟨0, _⟩ => show win7_3.index t 0 * 1024 + 1 * p.val = 1024 * (t.val / 8) + p.val; rw [hi.1]; omega
    | ⟨1, _⟩ => show win7_3.index t 1 * 256 + 1 * q.val = q.val; rw [hi.2]; omega
  obtain ⟨n', hn'⟩ : ∃ n' : Fin 16384, n'.val = 1024 * (t.val / 8) + p.val := ⟨⟨_, hp⟩, rfl⟩
  have hn'' : (⟨1024 * (t.val / 8) + p.val, hp⟩ : Fin 16384) = n' := Fin.ext hn'.symm
  rw [hemb, hn'', G7fun_ix2, pay3_7_apply, scratch7 V c 7 t h7 p q n' hn', acc7_7]
  unfold g7
  exact congrArg (fun z : EReal => (∑ r : Fin 16384, inA7 V c (ix2 n' r) * inH7 V c (ix2 r q)) + z) (blk7_2_apply V c t q)

/-- The result array after the region. -/
theorem final7 (c : Dev nD) : (dat7 V c).arrAt 3 cfg7.N = G7 V c :=
  (dat7 V c).arrAt_eq_of_cover 3 (G7 V c) (flushed7_eq V c) cover7_3

end Cert.KernelIdeal.Fr

end
-- ==== Proof.KI.Blocks8.lean ====
/-
  Where the blocks of the dense layer's windows sit in their arrays.

  The grid of the product `X · W + b` with `X` of 16384 × 64 in row blocks of 2048 has 8 points; point `t` works on
  row block `t`. Element `(p, y)` of the block of `X` at `t` is `X (2048 · t + p, y)`; the matrix `W` of
  64 × 64 and the bias row are read whole at every point; the result's block at `t` is rows `2048 · t …` of
  the 16384 × 64 result, written back at every point.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t`. -/
theorem idx8_0 : ∀ t : Fin cfg8.N, win8_0.index t 0 = t.val ∧ win8_0.index t 1 = 0 :=
  (by decide +kernel : ∀ t : Fin grid8.N, win8_0.index t 0 = t.val ∧ win8_0.index t 1 = 0)

theorem idx8_1 : ∀ t : Fin cfg8.N, win8_1.index t 0 = 0 ∧ win8_1.index t 1 = 0 :=
  (by decide +kernel : ∀ t : Fin grid8.N, win8_1.index t 0 = 0 ∧ win8_1.index t 1 = 0)

theorem idx8_2 : ∀ t : Fin cfg8.N, win8_2.index t 0 = 0 ∧ win8_2.index t 1 = 0 :=
  (by decide +kernel : ∀ t : Fin grid8.N, win8_2.index t 0 = 0 ∧ win8_2.index t 1 = 0)

theorem idx8_3 : ∀ t : Fin cfg8.N, win8_3.index t 0 = t.val ∧ win8_3.index t 1 = 0 :=
  (by decide +kernel : ∀ t : Fin grid8.N, win8_3.index t 0 = t.val ∧ win8_3.index t 1 = 0)

/-- Element `(p, y)` of the block of the left operand at point `t`. -/
theorem blk8_0_apply (c : Dev nD) (t : Fin cfg8.N) (p : Fin 2048) (y : Fin 64)
    (hp : 2048 * t.val + p.val < 16384) :
    ((cfg8.win 0).blk t).view.read (Elt F) (V c (Pipeline.arrRef spec8 0)) (ix2 p y)
      = V c main_v67 (ix2 (⟨2048 * t.val + p.val, hp⟩ : Fin 16384) y) := by
  have hi := idx8_0 t
  rw [View.read_apply]
  show V c main_v67 _ = V c main_v67 _
  congr 1
  funext a
  apply Fin.ext
  match a with
  | ⟨0, _⟩ => show win8_0.index t 0 * 2048 + 1 * p.val = 2048 * t.val + p.val; rw [hi.1]; omega
  | ⟨1, _⟩ => show win8_0.index t 1 * 64 + 1 * y.val = y.val; rw [hi.2]; omega

/-- The right operand is read whole at every point. -/
theorem blk8_1_apply (c : Dev nD) (t : Fin cfg8.N) (y : Fin 64) (q : Fin 64) :
    ((cfg8.win 1).blk t).view.read (Elt F) (V c (Pipeline.arrRef spec8 1)) (ix2 y q)
      = V c main_arg10 (ix2 y q) := by
  have hi := idx8_1 t
  rw [View.read_apply]
  show V c main_arg10 _ = V c main_arg10 _
  congr 1
  funext a
  apply Fin.ext
  match a with
  | ⟨0, _⟩ => show win8_1.index t 0 * 64 + 1 * y.val = y.val; rw [hi.1]; omega
  | ⟨1, _⟩ => show win8_1.index t 1 * 64 + 1 * q.val = q.val; rw [hi.2]; omega

/-- The bias row is read whole at every point. -/
theorem blk8_2_apply (c : Dev nD) (t : Fin cfg8.N) (q : Fin 64) :
    ((cfg8.win 2).blk t).view.read (Elt F) (V c (Pipeline.arrRef spec8 2)) (ix2 (0 : Fin 1) q)
      = V c main_v79 (ix2 (0 : Fin 1) q) := by
  have hi := idx8_2 t
  rw [View.read_apply]
  show V c main_v79 _ = V c main_v79 _
  congr 1
  funext a
  apply Fin.ext
  match a with
  | ⟨0, _⟩ => show win8_2.index t 0 * 1 + 1 * 0 = 0; rw [hi.1]
  | ⟨1, _⟩ => show win8_2.index t 1 * 64 + 1 * q.val = q.val; rw [hi.2]; omega

/-- The output window's blocks are whole: 2048 rows of 64 columns at every point. -/
theorem xsize8_3 : ∀ t : Fin cfg8.N, win8_3.xsize (grid8.coords t) 0 = 2048 ∧ win8_3.xsize (grid8.coords t) 1 = 64 :=
  (by decide +kernel : ∀ t : Fin grid8.N, win8_3.xsize (grid8.coords t) 0 = 2048 ∧ win8_3.xsize (grid8.coords t) 1 = 64)

/-- Every point writes its block of the result back. -/
theorem flushall8_3 : ∀ t : Fin cfg8.N, (cfg8.win 3).flush t = true := flush8_3

/-- Every element of the result lies in the block written back at the point of its row block. -/
theorem cover8_3 (i : S16384x64.Idx) :
    ∃ t : Fin cfg8.N, (cfg8.win 3).flush t = true ∧ i ∈ ((cfg8.win 3).blk t).view.set := by
  have h0 : (i 0 : Nat) < 16384 := (i 0).isLt
  have h1 : (i 1 : Nat) < 64 := (i 1).isLt
  have hN : cfg8.N = 8 := N_8
  have ht : (i 0 : Nat) / 2048 < cfg8.N := by rw [hN]; omega
  obtain ⟨t, htv⟩ : ∃ t : Fin cfg8.N, t.val = (i 0 : Nat) / 2048 := ⟨⟨_, ht⟩, rfl⟩
  refine ⟨t, flush8_3 t, ?_⟩
  have hi := idx8_3 t
  have hx := xsize8_3 t
  show i ∈ ((View.whole main_v80).slice (win8_3.rect t)).set
  rw [View.set_slice_whole, Rect.mem_set_unit]
  intro a
  match a with
  | ⟨0, _⟩ =>
    show win8_3.index t 0 * 2048 ≤ (i 0 : Nat) ∧ (i 0 : Nat) < win8_3.index t 0 * 2048 + win8_3.xsize (grid8.coords t) 0
    rw [hi.1, hx.1, htv]
    omega
  | ⟨1, _⟩ =>
    show win8_3.index t 1 * 64 ≤ (i 1 : Nat) ∧ (i 1 : Nat) < win8_3.index t 1 * 64 + win8_3.xsize (grid8.coords t) 1
    rw [hi.2, hx.2]
    omega

end Cert.KernelIdeal.Fr

end
-- ==== Proof.KI.Final8.lean ====
/-
  What the dense layer `X · W + b` of region 8 leaves in its result array, as one function of the buffers it is entered with.

  The grid has 8 points; point `t` works on row block `t` of 2048 rows, reads the 64 × 64 matrix and the bias row whole,
  clears the accumulator, adds the product of the two blocks once, adds the bias row and writes the block back. So entry
  `(n, q)` of the result is zero plus the sum over the 64 columns of `X (n, ·) · W (·, q)`, plus `b q`; the blocks
  written back cover the result array.
-/
import proofs.«127812_j6760278524061_1_alg».proof.Proof.KI.Region8
import proofs.«127812_j6760278524061_1_alg».proof.Proof.KI.Blocks8
import proofs.«127812_j6760278524061_1_alg».proof.Proof.KI.Payloads
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inX8 (c : Dev nD) : S16384x64.Idx → EReal := V c main_v67
abbrev inW8 (c : Dev nD) : S64x64.Idx → EReal := V c main_arg10
abbrev inZ8 (c : Dev nD) : S1x64.Idx → EReal := V c main_v79
abbrev ibX8 (c : Dev nD) (t : Fin cfg8.N) : S2048x64.Idx → EReal := iblk8 V c 0 t
abbrev ibW8 (c : Dev nD) (t : Fin cfg8.N) : S64x64.Idx → EReal := iblk8 V c 1 t
abbrev ibZ8 (c : Dev nD) (t : Fin cfg8.N) : S1x64.Idx → EReal := iblk8 V c 2 t

/-- Entry `(n, q)` of the result. -/
def g8 (c : Dev nD) (n : Fin 16384) (q : Fin 64) : EReal :=
  (0 + ∑ k : Fin 64, inX8 V c (ix2 n k) * inW8 V c (ix2 k q)) + inZ8 V c (ix2 (0 : Fin 1) q)

/-- The result array. -/
def G8fun (c : Dev nD) : S16384x64.Idx → EReal := fun i =>
  g8 V c ⟨(i 0).val, by have h : (i 0).val < 16384 := (i 0).isLt; exact h⟩
    ⟨(i 1).val, by have h : (i 1).val < 64 := (i 1).isLt; exact h⟩

theorem G8fun_ix2 (c : Dev nD) (n : Fin 16384) (q : Fin 64) : G8fun V c (ix2 n q) = g8 V c n q := rfl

abbrev G8 (c : Dev nD) : Buf (Elt Ideal) ((c : Thread nD τ).loc main_v80) := G8fun V c

/-- What a point writes back: its block of the result. -/
theorem flushed8_eq (c : Dev nD) (t : Fin cfg8.N) (hf : (cfg8.win 3).flush t = true) :
    (dat8 V c).flushed 3 t = ((cfg8.win 3).blk t).view.read (Elt Ideal) (G8 V c) := by
  have hN : cfg8.N = 8 := N_8
  have hi := idx8_3 t
  show (cfg8.win 3).cut (grid8.coords t) ((dat8 V c).after 3 t) = _
  rw [after8_out V c t, out8_3_eq]
  funext j
  obtain ⟨p, q, rfl⟩ : ∃ (p : Fin 2048) (q : Fin 64), j = ix2 p q := ⟨j 0, j 1, eq_ix2 j⟩
  have hp : 2048 * t.val + p.val < 16384 := by have := t.isLt; omega
  show k8_pay3 (F := Ideal) (k8_pay2 (iblk8 V c 0 t) (iblk8 V c 1 t) (k8_pay1 (F := Ideal))) (iblk8 V c 2 t) (ix2 p q)
    = G8fun V c (((cfg8.win 3).blk t).view.emb (ix2 p q))
  have hemb : ((cfg8.win 3).blk t).view.emb (ix2 p q) = ix2 (⟨2048 * t.val + p.val, hp⟩ : Fin 16384) q := by
    funext a; apply Fin.ext
    match a with
    | ⟨0, _⟩ => show win8_3.index t 0 * 2048 + 1 * p.val = 2048 * t.val + p.val; rw [hi.1]; omega
    | ⟨1, _⟩ => show win8_3.index t 1 * 64 + 1 * q.val = q.val; rw [hi.2]; omega
  obtain ⟨n', hn'⟩ : ∃ n' : Fin 16384, n'.val = 2048 * t.val + p.val := ⟨⟨_, hp⟩, rfl⟩
  have hn'' : (⟨2048 * t.val + p.val, hp⟩ : Fin 16384) = n' := Fin.ext hn'.symm
  have hsum : ∑ k : Fin 64, ibX8 V c t (ix2 p k) * ibW8 V c t (ix2 k q)
      = ∑ k : Fin 64, inX8 V c (ix2 n' k) * inW8 V c (ix2 k q) := by
    refine Finset.sum_congr rfl (fun k _ => ?_)
    rw [← hn'']
    exact congrArg₂ (· * ·) (blk8_0_apply V c t p k hp) (blk8_1_apply V c t k q)
  rw [hemb, hn'', G8fun_ix2, pay3_8_apply, pay2_8_apply, pay1_8_apply]
  unfold g8
  exact congrArg₂ (fun a b : EReal => (0 + a) + b) hsum (blk8_2_apply V c t q)

/-- The result array after the region. -/
theorem final8 (c : Dev nD) : (dat8 V c).arrAt 3 cfg8.N = G8 V c :=
  (dat8 V c).arrAt_eq_of_cover 3 (G8 V c) (flushed8_eq V c) cover8_3

end Cert.KernelIdeal.Fr

end
-- ==== Proof.KI.Blocks9.lean ====
/-
  Where the blocks of the accumulating matrix product's windows sit in their arrays.

  The grid of the product `A · H + b` with `A` of 16384 × 16384 in row blocks of 1024 and column blocks of 2048, and
  `H` of 16384 × 64, has 16 · 8 points; point `t` works on row block `t / 8` and contraction block `t % 8`. Element
  `(p, y)` of the block of `A` at `t` is `A (1024 · (t / 8) + p, 2048 · (t % 8) + y)`; element `(y, q)` of the block of
  `H` is `H (2048 · (t % 8) + y, q)`; the bias row is read whole at every point; the result's block, rows
  `1024 · (t / 8) …` of the 16384 × 64 result, is written back at the last contraction block.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t / 8` and contraction block `t % 8`. -/
theorem idx9_0 : ∀ t : Fin cfg9.N, win9_0.index t 0 = t.val / 8 ∧ win9_0.index t 1 = t.val % 8 :=
  (by decide +kernel : ∀ t : Fin grid9.N, win9_0.index t 0 = t.val / 8 ∧ win9_0.index t 1 = t.val % 8)

theorem idx9_1 : ∀ t : Fin cfg9.N, win9_1.index t 0 = t.val % 8 ∧ win9_1.index t 1 = 0 :=
  (by decide +kernel : ∀ t : Fin grid9.N, win9_1.index t 0 = t.val % 8 ∧ win9_1.index t 1 = 0)

theorem idx9_2 : ∀ t : Fin cfg9.N, win9_2.index t 0 = 0 ∧ win9_2.index t 1 = 0 :=
  (by decide +kernel : ∀ t : Fin grid9.N, win9_2.index t 0 = 0 ∧ win9_2.index t 1 = 0)

theorem idx9_3 : ∀ t : Fin cfg9.N, win9_3.index t 0 = t.val / 8 ∧ win9_3.index t 1 = 0 :=
  (by decide +kernel : ∀ t : Fin grid9.N, win9_3.index t 0 = t.val / 8 ∧ win9_3.index t 1 = 0)

/-- Element `(p, y)` of the block of the left operand at point `t`. -/
theorem blk9_0_apply (c : Dev nD) (t : Fin cfg9.N) (p : Fin 1024) (y : Fin 2048)
    (hp : 1024 * (t.val / 8) + p.val < 16384) (hy : 2048 * (t.val % 8) + y.val < 16384) :
    ((cfg9.win 0).blk t).view.read (Elt F) (V c (Pipeline.arrRef spec9 0)) (ix2 p y)
      = V c main_v57 (ix2 (⟨1024 * (t.val / 8) + p.val, hp⟩ : Fin 16384) (⟨2048 * (t.val % 8) + y.val, hy⟩ : Fin 16384)) := by
  have hi := idx9_0 t
  rw [View.read_apply]
  show V c main_v57 _ = V c main_v57 _
  congr 1
  funext a
  apply Fin.ext
  match a with
  | ⟨0, _⟩ => show win9_0.index t 0 * 1024 + 1 * p.val = 1024 * (t.val / 8) + p.val; rw [hi.1]; omega
  | ⟨1, _⟩ => show win9_0.index t 1 * 2048 + 1 * y.val = 2048 * (t.val % 8) + y.val; rw [hi.2]; omega

/-- Element `(y, q)` of the block of the right operand at point `t`. -/
theorem blk9_1_apply (c : Dev nD) (t : Fin cfg9.N) (y : Fin 2048) (q : Fin 64)
    (hy : 2048 * (t.val % 8) + y.val < 16384) :
    ((cfg9.win 1).blk t).view.read (Elt F) (V c (Pipeline.arrRef spec9 1)) (ix2 y q)
      = V c main_v80 (ix2 (⟨2048 * (t.val % 8) + y.val, hy⟩ : Fin 16384) q) := by
  have hi := idx9_1 t
  rw [View.read_apply]
  show V c main_v80 _ = V c main_v80 _
  congr 1
  funext a
  apply Fin.ext
  match a with
  | ⟨0, _⟩ => show win9_1.index t 0 * 2048 + 1 * y.val = 2048 * (t.val % 8) + y.val; rw [hi.1]; omega
  | ⟨1, _⟩ => show win9_1.index t 1 * 64 + 1 * q.val = q.val; rw [hi.2]; omega

/-- The bias row is read whole at every point. -/
theorem blk9_2_apply (c : Dev nD) (t : Fin cfg9.N) (q : Fin 64) :
    ((cfg9.win 2).blk t).view.read (Elt F) (V c (Pipeline.arrRef spec9 2)) (ix2 (0 : Fin 1) q)
      = V c main_v81 (ix2 (0 : Fin 1) q) := by
  have hi := idx9_2 t
  rw [View.read_apply]
  show V c main_v81 _ = V c main_v81 _
  congr 1
  funext a
  apply Fin.ext
  match a with
  | ⟨0, _⟩ => show win9_2.index t 0 * 1 + 1 * 0 = 0; rw [hi.1]
  | ⟨1, _⟩ => show win9_2.index t 1 * 64 + 1 * q.val = q.val; rw [hi.2]; omega

/-- The output window's blocks are whole: 1024 rows of 64 columns at every point. -/
theorem xsize9_3 : ∀ t : Fin cfg9.N, win9_3.xsize (grid9.coords t) 0 = 1024 ∧ win9_3.xsize (grid9.coords t) 1 = 64 :=
  (by decide +kernel : ∀ t : Fin grid9.N, win9_3.xsize (grid9.coords t) 0 = 1024 ∧ win9_3.xsize (grid9.coords t) 1 = 64)

/-- Every element of the result lies in the block written back at the last point of its row block. -/
theorem cover9_3 (i : S16384x64.Idx) :
    ∃ t : Fin cfg9.N, (cfg9.win 3).flush t = true ∧ i ∈ ((cfg9.win 3).blk t).view.set := by
  have h0 : (i 0 : Nat) < 16384 := (i 0).isLt
  have h1 : (i 1 : Nat) < 64 := (i 1).isLt
  have hN : cfg9.N = 128 := N_9
  have ht : 8 * ((i 0 : Nat) / 1024) + 7 < cfg9.N := by rw [hN]; omega
  obtain ⟨t, htv⟩ : ∃ t : Fin cfg9.N, t.val = 8 * ((i 0 : Nat) / 1024) + 7 := ⟨⟨_, ht⟩, rfl⟩
  refine ⟨t, (flush9_3 t).mpr (by rw [htv]; omega), ?_⟩
  have hi := idx9_3 t
  have hx := xsize9_3 t
  show i ∈ ((View.whole main_v82).slice (win9_3.rect t)).set
  rw [View.set_slice_whole, Rect.mem_set_unit]
  intro a
  match a with
  | ⟨0, _⟩ =>
    show win9_3.index t 0 * 1024 ≤ (i 0 : Nat) ∧ (i 0 : Nat) < win9_3.index t 0 * 1024 + win9_3.xsize (grid9.coords t) 0
    rw [hi.1, hx.1, htv]
    omega
  | ⟨1, _⟩ =>
    show win9_3.index t 1 * 64 ≤ (i 1 : Nat) ∧ (i 1 : Nat) < win9_3.index t 1 * 64 + win9_3.xsize (grid9.coords t) 1
    rw [hi.2, hx.2]
    omega

end Cert.KernelIdeal.Fr

end
-- ==== Proof.KI.Final9.lean ====
/-
  What the fifth aggregation `relu (Â · H + b)` leaves in its result array, as one function of the buffers it is
  entered with.

  Row block `t / 8` of the result is accumulated over the eight contraction blocks `t % 8 = 0 … 7`: after the step at
  block `k` the accumulator holds, at `(p, q)`, zero plus the partial sums of `Â (n, ·) · H (·, q)` over the column blocks
  `0 … k` of row `n = 1024 · (t / 8) + p`. After the last block that running sum is the whole sum over the 16384
  columns (a sum regrouped into eight consecutive blocks of 2048), and the finishing step adds the bias and rectifies. The
  blocks written back at the last steps cover the result array.
-/
import proofs.«127812_j6760278524061_1_alg».proof.Proof.KI.Region9
import proofs.«127812_j6760278524061_1_alg».proof.Proof.KI.Blocks9
import proofs.«127812_j6760278524061_1_alg».proof.Proof.KI.Payloads
import proofs.«127812_j6760278524061_1_alg».proof.Proof.LibBlockSum
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as the region finds them, and their blocks at a point. -/
abbrev inA9 (c : Dev nD) : S16384x16384.Idx → EReal := V c main_v57
abbrev inH9 (c : Dev nD) : S16384x64.Idx → EReal := V c main_v80
abbrev inB9 (c : Dev nD) : S1x64.Idx → EReal := V c main_v81
abbrev ibA9 (c : Dev nD) (t : Fin cfg9.N) : S1024x2048.Idx → EReal := iblk9 V c 0 t
abbrev ibH9 (c : Dev nD) (t : Fin cfg9.N) : S2048x64.Idx → EReal := iblk9 V c 1 t
abbrev ibB9 (c : Dev nD) (t : Fin cfg9.N) : S1x64.Idx → EReal := iblk9 V c 2 t

/-- The contribution of contraction block `k` to entry `(n, q)`. -/
def bsum9 (c : Dev nD) (n : Fin 16384) (q : Fin 64) (k : ℕ) : EReal :=
  if hk : k < 8 then
    ∑ y : Fin 2048, inA9 V c (ix2 n (⟨2048 * k + y.val, by omega⟩ : Fin 16384))
      * inH9 V c (ix2 (⟨2048 * k + y.val, by omega⟩ : Fin 16384) q)
  else 0

/-- The accumulator after the step at contraction block `k`. -/
def accS9 (c : Dev nD) (n : Fin 16384) (q : Fin 64) : ℕ → EReal
  | 0 => 0 + bsum9 V c n q 0
  | k + 1 => accS9 c n q k + bsum9 V c n q (k + 1)

/-- The product of the two blocks at point `t`, at `(p, q)`, is the contribution of block `t % 8` to row
    `1024 · (t / 8) + p`. -/
theorem blockterm9 (c : Dev nD) (t : Fin cfg9.N) (p : Fin 1024) (q : Fin 64) (n : Fin 16384)
    (hn : n.val = 1024 * (t.val / 8) + p.val) :
    ∑ y : Fin 2048, ibA9 V c t (ix2 p y) * ibH9 V c t (ix2 y q) = bsum9 V c n q (t.val % 8) := by
  have hk : t.val % 8 < 8 := Nat.mod_lt _ (by decide)
  have hp : 1024 * (t.val / 8) + p.val < 16384 := hn ▸ n.isLt
  obtain rfl : n = ⟨1024 * (t.val / 8) + p.val, hp⟩ := Fin.ext hn
  unfold bsum9
  rw [dif_pos hk]
  refine Finset.sum_congr rfl (fun y _ => ?_)
  exact congrArg₂ (· * ·) (blk9_0_apply V c t p y hp (by omega)) (blk9_1_apply V c t y q (by omega))

/-- The accumulator's contents after every point. -/
theorem scratch9 (c : Dev nD) : ∀ (k : ℕ) (t : Fin cfg9.N), t.val % 8 = k → ∀ (p : Fin 1024) (q : Fin 64) (n : Fin 16384),
    n.val = 1024 * (t.val / 8) + p.val → (outsAt9 V c t.val t.isLt).2 (ix2 p q) = accS9 V c n q k := by
  intro k
  induction k with
  | zero =>
    intro t hk p q n hn
    rw [acc9_first V c t hk, pay2_9_apply, pay1_9_apply]
    exact congrArg (fun z => (0 : EReal) + z) ((blockterm9 V c t p q n hn).trans (by rw [hk]))
  | succ k ih =>
    intro t hk p q n hn
    have h0 : ¬ t.val % 8 = 0 := by omega
    have hlt : t.val - 1 < cfg9.N := Nat.lt_of_le_of_lt (Nat.sub_le _ _) t.isLt
    have hprev := ih ⟨t.val - 1, hlt⟩ (by show (t.val - 1) % 8 = k; omega) p q n
      (by show n.val = 1024 * ((t.val - 1) / 8) + p.val; have : (t.val - 1) / 8 = t.val / 8 := by omega
          rw [this]; exact hn)
    rw [acc9_step V c t h0, pay2_9_apply]
    exact congrArg₂ (fun a b : EReal => a + b) hprev ((blockterm9 V c t p q n hn).trans (by rw [hk]))

/-- After the eighth block the accumulator holds the whole row-by-column sum. -/
theorem acc7_9 (c : Dev nD) (n : Fin 16384) (q : Fin 64) :
    accS9 V c n q 7 = ∑ r : Fin 16384, inA9 V c (ix2 n r) * inH9 V c (ix2 r q) := by
  rw [Cert.Lib.running_sum_lt' (N := 8) (bsum9 V c n q) (accS9 V c n q) rfl (fun _ _ => rfl) 7 (by omega)]
  exact Cert.Lib.sum_range_blocks_of_eq (nb := 8) (bs := 2048) (N := 16384) rfl
    (fun r => inA9 V c (ix2 n r) * inH9 V c (ix2 r q)) (bsum9 V c n q)
    (fun t ht => by unfold bsum9; rw [dif_pos ht])

/-- Entry `(n, q)` of the result. -/
def g9 (c : Dev nD) (n : Fin 16384) (q : Fin 64) : EReal :=
  max ((∑ r : Fin 16384, inA9 V c (ix2 n r) * inH9 V c (ix2 r q)) + inB9 V c (ix2 (0 : Fin 1) q)) 0

/-- The result array. -/
def G9fun (c : Dev nD) : S16384x64.Idx → EReal := fun i =>
  g9 V c ⟨(i 0).val, by have h : (i 0).val < 16384 := (i 0).isLt; exact h⟩
    ⟨(i 1).val, by have h : (i 1).val < 64 := (i 1).isLt; exact h⟩

theorem G9fun_ix2 (c : Dev nD) (n : Fin 16384) (q : Fin 64) : G9fun V c (ix2 n q) = g9 V c n q := rfl

abbrev G9 (c : Dev nD) : Buf (Elt Ideal) ((c : Thread nD τ).loc main_v82) := G9fun V c

/-- What a point that writes back writes: its block of the result. -/
theorem flushed9_eq (c : Dev nD) (t : Fin cfg9.N) (hf : (cfg9.win 3).flush t = true) :
    (dat9 V c).flushed 3 t = ((cfg9.win 3).blk t).view.read (Elt Ideal) (G9 V c) := by
  have h7 : t.val % 8 = 7 := (flush9_3 t).mp hf
  have hN : cfg9.N = 128 := N_9
  have hi := idx9_3 t
  show (cfg9.win 3).cut (grid9.coords t) ((dat9 V c).after 3 t) = _
  rw [after9_out V c t h7]
  funext j
  obtain ⟨p, q, rfl⟩ : ∃ (p : Fin 1024) (q : Fin 64), j = ix2 p q := ⟨j 0, j 1, eq_ix2 j⟩
  have hp : 1024 * (t.val / 8) + p.val < 16384 := by have := t.isLt; omega
  show k9_pay3 (F := Ideal) (outsAt9 V c t.val t.isLt).2 (iblk9 V c 2 t) (ix2 p q)
    = G9fun V c (((cfg9.win 3).blk t).view.emb (ix2 p q))
  have hemb : ((cfg9.win 3).blk t).view.emb (ix2 p q) = ix2 (⟨1024 * (t.val / 8) + p.val, hp⟩ : Fin 16384) q := by
    funext a; apply Fin.ext
    match a with
    | ⟨0, _⟩ => show win9_3.index t 0 * 1024 + 1 * p.val = 1024 * (t.val / 8) + p.val; rw [hi.1]; omega
    | ⟨1, _⟩ => show win9_3.index t 1 * 64 + 1 * q.val = q.val; rw [hi.2]; omega
  obtain ⟨n', hn'⟩ : ∃ n' : Fin 16384, n'.val = 1024 * (t.val / 8) + p.val := ⟨⟨_, hp⟩, rfl⟩
  have hn'' : (⟨1024 * (t.val / 8) + p.val, hp⟩ : Fin 16384) = n' := Fin.ext hn'.symm
  rw [hemb, hn'', G9fun_ix2, pay3_9_apply, scratch9 V c 7 t h7 p q n' hn', acc7_9]
  unfold g9
  exact congrArg (fun z : EReal => max ((∑ r : Fin 16384, inA9 V c (ix2 n' r) * inH9 V c (ix2 r q)) + z) 0) (blk9_2_apply V c t q)

/-- The result array after the region. -/
theorem final9 (c : Dev nD) : (dat9 V c).arrAt 3 cfg9.N = G9 V c :=
  (dat9 V c).arrAt_eq_of_cover 3 (G9 V c) (flushed9_eq V c) cover9_3

end Cert.KernelIdeal.Fr

end
-- ==== Proof.KI.Blocks10.lean ====
/-
  Where the blocks of the Gram matrix's windows sit in their arrays.

  The grid of the product `Z · Zᵀ` with `Z` of 16384 × 64, the result of 16384 × 16384 in row blocks of 2048 and
  column blocks of 1024, has 8 · 16 points; point `t` works on row block `t / 16` and column block `t % 16`. Element
  `(p, y)` of the first window's block at `t` is `Z (2048 · (t / 16) + p, y)`; element `(q, y)` of the second window's
  block is `Z (1024 · (t % 16) + q, y)`; the result's block at `t` is the rows `2048 · (t / 16) …` and columns
  `1024 · (t % 16) …`, written back at every point.
-/
import proofs.«127812_j6760278524061_1_alg».proof.Proof.Gen.KernelIdeal.Launch
import proofs.«127812_j6760278524061_1_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Point `t` of the grid works on row block `t / 16` and column block `t % 16`. -/
theorem idx10_0 : ∀ t : Fin cfg10.N, win10_0.index t 0 = t.val / 16 ∧ win10_0.index t 1 = 0 :=
  (by decide +kernel : ∀ t : Fin grid10.N, win10_0.index t 0 = t.val / 16 ∧ win10_0.index t 1 = 0)

theorem idx10_1 : ∀ t : Fin cfg10.N, win10_1.index t 0 = t.val % 16 ∧ win10_1.index t 1 = 0 :=
  (by decide +kernel : ∀ t : Fin grid10.N, win10_1.index t 0 = t.val % 16 ∧ win10_1.index t 1 = 0)

theorem idx10_2 : ∀ t : Fin cfg10.N, win10_2.index t 0 = t.val / 16 ∧ win10_2.index t 1 = t.val % 16 :=
  (by decide +kernel : ∀ t : Fin grid10.N, win10_2.index t 0 = t.val / 16 ∧ win10_2.index t 1 = t.val % 16)

/-- Element `(p, y)` of the block of the rows operand at point `t`. -/
theorem blk10_0_apply (c : Dev nD) (t : Fin cfg10.N) (p : Fin 2048) (y : Fin 64)
    (hp : 2048 * (t.val / 16) + p.val < 16384) :
    ((cfg10.win 0).blk t).view.read (Elt F) (V c (Pipeline.arrRef spec10 0)) (ix2 p y)
      = V c main_v82 (ix2 (⟨2048 * (t.val / 16) + p.val, hp⟩ : Fin 16384) y) := by
  have hi := idx10_0 t
  rw [View.read_apply]
  show V c main_v82 _ = V c main_v82 _
  congr 1
  funext a
  apply Fin.ext
  match a with
  | ⟨0, _⟩ => show win10_0.index t 0 * 2048 + 1 * p.val = 2048 * (t.val / 16) + p.val; rw [hi.1]; omega
  | ⟨1, _⟩ => show win10_0.index t 1 * 64 + 1 * y.val = y.val; rw [hi.2]; omega

/-- Element `(q, y)` of the block of the columns operand at point `t`. -/
theorem blk10_1_apply (c : Dev nD) (t : Fin cfg10.N) (q : Fin 1024) (y : Fin 64)
    (hq : 1024 * (t.val % 16) + q.val < 16384) :
    ((cfg10.win 1).blk t).view.read (Elt F) (V c (Pipeline.arrRef spec10 1)) (ix2 q y)
      = V c main_v82 (ix2 (⟨1024 * (t.val % 16) + q.val, hq⟩ : Fin 16384) y) := by
  have hi := idx10_1 t
  rw [View.read_apply]
  show V c main_v82 _ = V c main_v82 _
  congr 1
  funext a
  apply Fin.ext
  match a with
  | ⟨0, _⟩ => show win10_1.index t 0 * 1024 + 1 * q.val = 1024 * (t.val % 16) + q.val; rw [hi.1]; omega
  | ⟨1, _⟩ => show win10_1.index t 1 * 64 + 1 * y.val = y.val; rw [hi.2]; omega

/-- The output window's blocks are whole: 2048 rows of 1024 columns at every point. -/
theorem xsize10_2 : ∀ t : Fin cfg10.N, win10_2.xsize (grid10.coords t) 0 = 2048 ∧ win10_2.xsize (grid10.coords t) 1 = 1024 :=
  (by decide +kernel : ∀ t : Fin grid10.N, win10_2.xsize (grid10.coords t) 0 = 2048 ∧ win10_2.xsize (grid10.coords t) 1 = 1024)

/-- Every point writes its block of the result back. -/
theorem flushall10_2 : ∀ t : Fin cfg10.N, (cfg10.win 2).flush t = true := flush10_2

/-- Every element of the result lies in the block written back at the point of its row and column blocks. -/
theorem arrcover10_2 (i : S16384x16384.Idx) :
    ∃ t : Fin cfg10.N, (cfg10.win 2).flush t = true ∧ i ∈ ((cfg10.win 2).blk t).view.set := by
  have h0 : (i 0 : Nat) < 16384 := (i 0).isLt
  have h1 : (i 1 : Nat) < 16384 := (i 1).isLt
  have hN : cfg10.N = 128 := N_10
  have ht : 16 * ((i 0 : Nat) / 2048) + (i 1 : Nat) / 1024 < cfg10.N := by rw [hN]; omega
  obtain ⟨t, htv⟩ : ∃ t : Fin cfg10.N, t.val = 16 * ((i 0 : Nat) / 2048) + (i 1 : Nat) / 1024 := ⟨⟨_, ht⟩, rfl⟩
  refine ⟨t, flush10_2 t, ?_⟩
  have hi := idx10_2 t
  have hx := xsize10_2 t
  show i ∈ ((View.whole main_v83).slice (win10_2.rect t)).set
  rw [View.set_slice_whole, Rect.mem_set_unit]
  intro a
  match a with
  | ⟨0, _⟩ =>
    show win10_2.index t 0 * 2048 ≤ (i 0 : Nat) ∧ (i 0 : Nat) < win10_2.index t 0 * 2048 + win10_2.xsize (grid10.coords t) 0
    rw [hi.1, hx.1, htv]
    omega
  | ⟨1, _⟩ =>
    show win10_2.index t 1 * 1024 ≤ (i 1 : Nat) ∧ (i 1 : Nat) < win10_2.index t 1 * 1024 + win10_2.xsize (grid10.coords t) 1
    rw [hi.2, hx.2, htv]
    omega

end Cert.KernelIdeal.Fr

end
-- ==== Proof.KI.Final10.lean ====
/-
  What the Gram product `Z · Zᵀ` of the last region leaves in its result array, as one function of the buffers it is
  entered with.

  The grid has 8 · 16 points; point `t` works on row block `t / 16` (2048 rows) and column block `t % 16` (1024
  columns), reads the two blocks of rows of `Z` (16384 × 64) and writes the block of their products back, at every
  point. So entry `(n, k)` of the result is the sum over the 64 columns of `Z (n, ·) · Z (k, ·)`; the blocks written back
  cover the result array.
-/
import proofs.«127812_j6760278524061_1_alg».proof.Proof.KI.Region10
import proofs.«127812_j6760278524061_1_alg».proof.Proof.KI.Blocks10
import proofs.«127812_j6760278524061_1_alg».proof.Proof.KI.Payloads
import Idealize.ShloMosaic.Lib.Pipeline.Value

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The array the region reads (through both of its input windows), as the region finds it. -/
abbrev inS10 (c : Dev nD) : S16384x64.Idx → EReal := V c main_v82

/-- Entry `(n, k)` of the result. -/
def g10 (c : Dev nD) (n k : Fin 16384) : EReal := ∑ j : Fin 64, inS10 V c (ix2 n j) * inS10 V c (ix2 k j)

/-- The result array. -/
def G10fun (c : Dev nD) : S16384x16384.Idx → EReal := fun i =>
  g10 V c ⟨(i 0).val, by have h : (i 0).val < 16384 := (i 0).isLt; exact h⟩
    ⟨(i 1).val, by have h : (i 1).val < 16384 := (i 1).isLt; exact h⟩

theorem G10fun_ix2 (c : Dev nD) (n k : Fin 16384) : G10fun V c (ix2 n k) = g10 V c n k := rfl

abbrev G10 (c : Dev nD) : Buf (Elt Ideal) ((c : Thread nD τ).loc main_v83) := G10fun V c

/-- What a point writes back: its block of the result. -/
theorem flushed10_eq (c : Dev nD) (t : Fin cfg10.N) (hf : (cfg10.win 2).flush t = true) :
    (dat10 V c).flushed 2 t = ((cfg10.win 2).blk t).view.read (Elt Ideal) (G10 V c) := by
  have hN : cfg10.N = 128 := N_10
  have hi := idx10_2 t
  show (cfg10.win 2).cut (grid10.coords t) ((dat10 V c).after 2 t) = _
  rw [after10_out V c t]
  funext j
  obtain ⟨p, q, rfl⟩ : ∃ (p : Fin 2048) (q : Fin 1024), j = ix2 p q := ⟨j 0, j 1, eq_ix2 j⟩
  have hp : 2048 * (t.val / 16) + p.val < 16384 := by have := t.isLt; omega
  have hq : 1024 * (t.val % 16) + q.val < 16384 := by omega
  show k10_pay1 (F := Ideal) (iblk10 V c 0 t) (iblk10 V c 1 t) (ix2 p q)
    = G10fun V c (((cfg10.win 2).blk t).view.emb (ix2 p q))
  have hemb : ((cfg10.win 2).blk t).view.emb (ix2 p q)
      = ix2 (⟨2048 * (t.val / 16) + p.val, hp⟩ : Fin 16384) (⟨1024 * (t.val % 16) + q.val, hq⟩ : Fin 16384) := by
    funext a; apply Fin.ext
    match a with
    | ⟨0, _⟩ => show win10_2.index t 0 * 2048 + 1 * p.val = 2048 * (t.val / 16) + p.val; rw [hi.1]; omega
    | ⟨1, _⟩ => show win10_2.index t 1 * 1024 + 1 * q.val = 1024 * (t.val % 16) + q.val; rw [hi.2]; omega
  rw [hemb, G10fun_ix2, pay1_10_apply]
  unfold g10
  refine Finset.sum_congr rfl fun k _ => ?_
  exact congrArg₂ (fun a b : EReal => a * b) (blk10_0_apply V c t p k hp) (blk10_1_apply V c t q k hq)

/-- The result array after the region. -/
theorem final10 (c : Dev nD) : (dat10 V c).arrAt 2 cfg10.N = G10 V c :=
  (dat10 V c).arrAt_eq_of_cover 2 (G10 V c) (flushed10_eq V c) arrcover10_2

end Cert.KernelIdeal.Fr

end
-- ==== Proof.Spec.lean ====
/-
  The graph autoencoder both programs compute, written as plain functions on the extended reals.

  A graph on `N` nodes is given by its `E` edges `s e → d e`. With `deg n` the number of edges INTO `n` plus one
  (the self loop) and `dinv n = deg n ^ (-1/2)`, an edge carries the weight `enorm e = dinv (s e) · dinv (d e)`. A
  graph-convolution layer sends node features `h` to `D^{-1/2} (A + I) D^{-1/2} h + b`. It can be evaluated in two
  arrangements of the same sum:
    * edge by edge (`aggSparse`): row `n` collects `h (s e) · enorm e` over the edges with `d e = n`, plus the self
      loop's `h n · dinv n²`;
    * through the dense operator (`aggDense`): the `N × N` matrix `Ahat n m` collects `enorm e` over the edges
      `m → n` and `dinv n²` on the diagonal, and row `n` is the product of row `n` of `Ahat` with `h`.
  `net agg` is the whole network over either arrangement `agg`: two encoder layers, two attribute-decoder layers, one
  structure-decoder layer followed by the Gram matrix of its rows.
-/
import Idealize.ShloMosaic.PureOps.Ideal

noncomputable section

namespace Cert.GcnSpec

open Idealize.ShloMosaic
open scoped BigOperators

variable {N E : Nat}

/-- In-degree plus the self loop. -/
def deg (d : Fin E → Fin N) (n : Fin N) : EReal :=
  (0 + ∑ _e ∈ Finset.univ.filter (fun e => d e = n), (1 : EReal)) + 1

/-- `deg ^ (-1/2)`. -/
def dinv (d : Fin E → Fin N) (n : Fin N) : EReal := Ideal.rsqrt (deg d n)

/-- The symmetric normalisation weight of an edge. -/
def enorm (s d : Fin E → Fin N) (e : Fin E) : EReal := dinv d (s e) * dinv d (d e)

/-- The dense linear map of a layer: `h · W`. -/
def lin {K D : Nat} (h : Fin N → Fin K → EReal) (W : Fin K → Fin D → EReal) (n : Fin N) (j : Fin D) : EReal :=
  ∑ k, h n k * W k j

/-- The aggregation evaluated edge by edge. -/
def aggSparse {D : Nat} (s d : Fin E → Fin N) (h : Fin N → Fin D → EReal) (b : Fin D → EReal) (n : Fin N) (j : Fin D) :
    EReal :=
  ((0 + ∑ e ∈ Finset.univ.filter (fun e => d e = n), h (s e) j * enorm s d e) + h n j * (dinv d n * dinv d n)) + b j

/-- The dense propagation operator: the edges' weights scattered at `(d e, s e)`, then `dinv²` on the diagonal. -/
def Ahat (s d : Fin E → Fin N) (n m : Fin N) : EReal :=
  (0 + ∑ e ∈ Finset.univ.filter (fun e => d e = n ∧ s e = m), enorm s d e)
    + ∑ i ∈ Finset.univ.filter (fun i : Fin N => i = n ∧ i = m), dinv d i * dinv d i

/-- The aggregation evaluated through the dense operator. -/
def aggDense {D : Nat} (s d : Fin E → Fin N) (h : Fin N → Fin D → EReal) (b : Fin D → EReal) (n : Fin N) (j : Fin D) :
    EReal :=
  (∑ m, Ahat s d n m * h m j) + b j

/-- The shape of an aggregation: features and a bias to features. -/
abbrev Agg (N : Nat) := ∀ {D : Nat}, (Fin N → Fin D → EReal) → (Fin D → EReal) → Fin N → Fin D → EReal

/-- One layer: the linear map, the aggregation, and the rectifier when `act`. -/
def layer (agg : Agg N) (act : Bool) {K D : Nat} (h : Fin N → Fin K → EReal) (W : Fin K → Fin D → EReal)
    (b : Fin D → EReal) (n : Fin N) (j : Fin D) : EReal :=
  if act then max (agg (lin h W) b n j) 0 else agg (lin h W) b n j

/-- The network's parameters. -/
structure Params (I H1 H2 : Nat) where
  Wg1 : Fin I → Fin H1 → EReal
  bg1 : Fin H1 → EReal
  Wg2 : Fin H1 → Fin H2 → EReal
  bg2 : Fin H2 → EReal
  Wa1 : Fin H2 → Fin H1 → EReal
  ba1 : Fin H1 → EReal
  Wa2 : Fin H1 → Fin I → EReal
  ba2 : Fin I → EReal
  Ws : Fin H2 → Fin H2 → EReal
  bs : Fin H2 → EReal

variable {I H1 H2 : Nat}

/-- The encoder's output `z`. -/
def enc (agg : Agg N) (P : Params I H1 H2) (x : Fin N → Fin I → EReal) : Fin N → Fin H2 → EReal :=
  layer agg true (layer agg true x P.Wg1 P.bg1) P.Wg2 P.bg2

/-- The reconstructed attributes. -/
def xrec (agg : Agg N) (P : Params I H1 H2) (x : Fin N → Fin I → EReal) : Fin N → Fin I → EReal :=
  layer agg false (layer agg true (enc agg P x) P.Wa1 P.ba1) P.Wa2 P.ba2

/-- The structure decoder's rows. -/
def srow (agg : Agg N) (P : Params I H1 H2) (x : Fin N → Fin I → EReal) : Fin N → Fin H2 → EReal :=
  layer agg true (enc agg P x) P.Ws P.bs

/-- The reconstructed adjacency: the Gram matrix of the structure decoder's rows. -/
def adjrec (agg : Agg N) (P : Params I H1 H2) (x : Fin N → Fin I → EReal) (n m : Fin N) : EReal :=
  ∑ k, srow agg P x n k * srow agg P x m k

end Cert.GcnSpec

end
-- ==== Proof.Bridge.lean ====
/-
  From the programs' arrays to the specification's functions.

  A rank-2 array over the extended reals is read as a matrix, a rank-1 array as a vector; the `[2, E]` array of edge
  endpoints, every entry of which is a node number in `[0, N)` (`InRange`), is read as the two endpoint maps `srcOf`
  (row 0) and `dstOf` (row 1); the ten parameter arrays are bundled as the network's parameters.
-/
import proofs.«127812_j6760278524061_1_alg».proof.Proof.Spec
import Idealize.ShloMosaic.Lib.ValueIdx

noncomputable section

namespace Cert.GcnBridge

open Idealize.ShloMosaic Idealize.ShloMosaic.ValueIdx

/-- A rank-2 array as a matrix. -/
def mat {A B : Nat} (x : (⟨2, ![A, B]⟩ : Shape).Idx → EReal) : Fin A → Fin B → EReal := fun a b => x (ix2 a b)

/-- A rank-1 array as a vector. -/
def vec {A : Nat} (x : (⟨1, ![A]⟩ : Shape).Idx → EReal) : Fin A → EReal := fun a => x (ix1 a)

/-- Every endpoint is a node number: read signed, it lies in `[0, 16384)`. -/
def InRange (ei : (⟨2, ![2, 524288]⟩ : Shape).Idx → BitVec 32) : Prop :=
  ∀ i, 0 ≤ (ei i).toInt ∧ (ei i).toInt < 16384

/-- The node an in-range entry names. -/
def nodeOf (v : BitVec 32) (h : 0 ≤ v.toInt ∧ v.toInt < 16384) : Fin 16384 :=
  ⟨v.toInt.toNat, by have := h.1; have := h.2; omega⟩

theorem nodeOf_val (v : BitVec 32) (h : 0 ≤ v.toInt ∧ v.toInt < 16384) : ((nodeOf v h).val : Int) = v.toInt := by
  have := h.1; simp only [nodeOf]; omega

/-- `v` read signed is the node number `n` exactly when it names `n`. -/
theorem toInt_eq_iff (v : BitVec 32) (h : 0 ≤ v.toInt ∧ v.toInt < 16384) (n : Fin 16384) :
    v.toInt = (n.val : Int) ↔ nodeOf v h = n := by
  constructor
  · intro e; exact Fin.ext (by have := nodeOf_val v h; omega)
  · intro e; rw [← e]; exact (nodeOf_val v h).symm

/-- The source of edge `e` (row 0 of the endpoint array). -/
def srcOf (ei : (⟨2, ![2, 524288]⟩ : Shape).Idx → BitVec 32) (h : InRange ei) (e : Fin 524288) : Fin 16384 :=
  nodeOf (ei (ix2 (0 : Fin 2) e)) (h _)

/-- The destination of edge `e` (row 1 of the endpoint array). -/
def dstOf (ei : (⟨2, ![2, 524288]⟩ : Shape).Idx → BitVec 32) (h : InRange ei) (e : Fin 524288) : Fin 16384 :=
  nodeOf (ei (ix2 (1 : Fin 2) e)) (h _)

/-- The ten parameter arrays as the network's parameters. -/
def params (w1 : (⟨2, ![256, 128]⟩ : Shape).Idx → EReal) (b1 : (⟨1, ![128]⟩ : Shape).Idx → EReal)
    (w2 : (⟨2, ![128, 64]⟩ : Shape).Idx → EReal) (b2 : (⟨1, ![64]⟩ : Shape).Idx → EReal)
    (w3 : (⟨2, ![64, 128]⟩ : Shape).Idx → EReal) (b3 : (⟨1, ![128]⟩ : Shape).Idx → EReal)
    (w4 : (⟨2, ![128, 256]⟩ : Shape).Idx → EReal) (b4 : (⟨1, ![256]⟩ : Shape).Idx → EReal)
    (w5 : (⟨2, ![64, 64]⟩ : Shape).Idx → EReal) (b5 : (⟨1, ![64]⟩ : Shape).Idx → EReal) :
    Cert.GcnSpec.Params 256 128 64 :=
  ⟨mat w1, vec b1, mat w2, vec b2, mat w3, vec b3, mat w4, vec b4, mat w5, vec b5⟩

/-- The aggregation of the graph the endpoint array describes, edge by edge, -/
def sparseOf (ei : (⟨2, ![2, 524288]⟩ : Shape).Idx → BitVec 32) (h : InRange ei) : Cert.GcnSpec.Agg 16384 :=
  fun hh b => Cert.GcnSpec.aggSparse (srcOf ei h) (dstOf ei h) hh b

/-- and through the dense operator. -/
def denseOf (ei : (⟨2, ![2, 524288]⟩ : Shape).Idx → BitVec 32) (h : InRange ei) : Cert.GcnSpec.Agg 16384 :=
  fun hh b => Cert.GcnSpec.aggDense (srcOf ei h) (dstOf ei h) hh b

end Cert.GcnBridge

end
-- ==== Proof.LibScatterPairs.lean ====
/-
  The host's accumulating float scatter with TWO-component index vectors (`A.at[i, j].add(u)`: single elements of a
  matrix addressed by row and column) read at one element, at the ideal instance.

  The dimension numbers are the ones such a scatter is written with: the operand is an `[R, C]` matrix, the scatter
  indices an `[N, 2]` array whose second axis holds the two-component index vector `(row, column)`, component `0`
  naming the operand's axis 0 and component `1` its axis 1; both operand axes are inserted window axes, so the window
  of an update element is the single operand element its index vector names, and the updates are the vector `[N]`.
  Update element `p` then lands at operand element `(idx[p, 0], idx[p, 1])` (both read signed, NOT clamped), or
  nowhere when either component is outside its axis; so element `(r, k)` of the result collects exactly the update
  elements `p` with `idx[p, 0] = r` and `idx[p, 1] = k`.
-/
import Idealize.ShloMosaic.PureOps.Ideal
import Idealize.ShloMosaic.Lib.ValueIdx

noncomputable section

namespace Cert.LibScatterPairs

open Idealize.ShloMosaic Idealize.ShloMosaic.ValueIdx
open scoped BigOperators

variable {R C N : Nat}

/-- The dimension numbers of a scatter of single matrix elements by (row, column) pairs. -/
abbrev pairsDims (wf : ScatterDims.WF (⟨2, ![R, C]⟩ : Shape) (⟨2, ![N, 2]⟩ : Shape) (⟨1, ![N]⟩ : Shape) [] [0, 1] [0, 1] 1) :
    ScatterDims (⟨2, ![R, C]⟩ : Shape) (⟨2, ![N, 2]⟩ : Shape) (⟨1, ![N]⟩ : Shape) where
  updateWindowDims := []
  insertedWindowDims := [0, 1]
  scatterDimsToOperandDims := [0, 1]
  indexVectorDim := 1
  wf := wf

set_option maxHeartbeats 400000 in
/-- The start of update element `p`'s window on the operand's row axis is component `0` of the `p`-th index vector,
    read signed. -/
theorem pairs_start_zero (wf) {w : Nat} (idx : IVec (⟨2, ![N, 2]⟩ : Shape) w) (p : Fin N) :
    (pairsDims (R := R) (C := C) wf).start (ix1 p) idx 0 = (idx (ix2 p (0 : Fin 2))).toInt := by
  unfold ScatterDims.start
  rw [dif_pos (show (0 : Fin 2) ∈ (pairsDims (R := R) (C := C) (N := N) wf).scatterDimsToOperandDims from
    List.mem_cons_self)]
  congr 2
  funext b
  refine Fin.ext ?_
  match b with
  | ⟨0, _⟩ => rfl
  | ⟨1, _⟩ => rfl

set_option maxHeartbeats 400000 in
/-- The start of update element `p`'s window on the operand's column axis is component `1` of the `p`-th index
    vector, read signed. -/
theorem pairs_start_one (wf) {w : Nat} (idx : IVec (⟨2, ![N, 2]⟩ : Shape) w) (p : Fin N) :
    (pairsDims (R := R) (C := C) wf).start (ix1 p) idx 1 = (idx (ix2 p (1 : Fin 2))).toInt := by
  unfold ScatterDims.start
  rw [dif_pos (show (1 : Fin 2) ∈ (pairsDims (R := R) (C := C) (N := N) wf).scatterDimsToOperandDims from
    List.mem_cons_of_mem _ List.mem_cons_self)]
  congr 2
  funext b
  refine Fin.ext ?_
  match b with
  | ⟨0, _⟩ => rfl
  | ⟨1, _⟩ => rfl

set_option maxHeartbeats 400000 in
/-- The operand's row axis is an inserted window axis: the window coordinate on it is `0`. -/
theorem pairs_window_zero (wf) (j : (⟨1, ![N]⟩ : Shape).Idx) :
    (pairsDims (R := R) (C := C) wf).window j 0 = 0 := by
  unfold ScatterDims.window
  exact dif_neg (show (0 : Fin 2) ∉ (List.finRange 2).filter (fun a => a ∉ [(0 : Fin 2), 1]) from by decide)

set_option maxHeartbeats 400000 in
/-- The operand's column axis is an inserted window axis: the window coordinate on it is `0`. -/
theorem pairs_window_one (wf) (j : (⟨1, ![N]⟩ : Shape).Idx) :
    (pairsDims (R := R) (C := C) wf).window j 1 = 0 := by
  unfold ScatterDims.window
  exact dif_neg (show (1 : Fin 2) ∉ (List.finRange 2).filter (fun a => a ∉ [(0 : Fin 2), 1]) from by decide)

set_option maxHeartbeats 400000 in
/-- The landing place of update element `p` is operand element `(r, k)` exactly when the `p`-th index vector, read
    signed, is `(r, k)`; an index vector with a component outside its axis lands nowhere. -/
theorem pairs_resultIdx?_eq_some_iff
    (wf : ScatterDims.WF (⟨2, ![R, C]⟩ : Shape) (⟨2, ![N, 2]⟩ : Shape) (⟨1, ![N]⟩ : Shape) [] [0, 1] [0, 1] 1)
    {w : Nat} (idx : IVec (⟨2, ![N, 2]⟩ : Shape) w) (p : Fin N) (r : Fin R) (k : Fin C) :
    (pairsDims wf).resultIdx? (ix1 p) idx = some (ix2 r k)
      ↔ (idx (ix2 p (0 : Fin 2))).toInt = (r.val : Int) ∧ (idx (ix2 p (1 : Fin 2))).toInt = (k.val : Int) := by
  have h0 : (pairsDims (R := R) (C := C) wf).start (ix1 p) idx 0
      + ((pairsDims (R := R) (C := C) wf).window (ix1 p) 0 : Int) = (idx (ix2 p (0 : Fin 2))).toInt := by
    rw [pairs_start_zero, pairs_window_zero]; exact Int.add_zero _
  have h1 : (pairsDims (R := R) (C := C) wf).start (ix1 p) idx 1
      + ((pairsDims (R := R) (C := C) wf).window (ix1 p) 1 : Int) = (idx (ix2 p (1 : Fin 2))).toInt := by
    rw [pairs_start_one, pairs_window_one]; exact Int.add_zero _
  unfold ScatterDims.resultIdx?
  split
  · rename_i h
    rw [Option.some.injEq]
    constructor
    · intro e
      have e0 : ((pairsDims (R := R) (C := C) wf).start (ix1 p) idx 0
          + ((pairsDims (R := R) (C := C) wf).window (ix1 p) 0 : Int)).toNat = r.val :=
        congrArg (fun f : (⟨2, ![R, C]⟩ : Shape).Idx => (f 0).val) e
      have e1 : ((pairsDims (R := R) (C := C) wf).start (ix1 p) idx 1
          + ((pairsDims (R := R) (C := C) wf).window (ix1 p) 1 : Int)).toNat = k.val :=
        congrArg (fun f : (⟨2, ![R, C]⟩ : Shape).Idx => (f 1).val) e
      have g0 := (h 0).1
      have g1 := (h 1).1
      rw [h0] at e0 g0
      rw [h1] at e1 g1
      exact ⟨by omega, by omega⟩
    · rintro ⟨ht, hc⟩
      funext a
      refine Fin.ext ?_
      match a with
      | ⟨0, _⟩ =>
        show ((pairsDims (R := R) (C := C) wf).start (ix1 p) idx 0
          + ((pairsDims (R := R) (C := C) wf).window (ix1 p) 0 : Int)).toNat = r.val
        rw [h0, ht]; exact Int.toNat_natCast _
      | ⟨1, _⟩ =>
        show ((pairsDims (R := R) (C := C) wf).start (ix1 p) idx 1
          + ((pairsDims (R := R) (C := C) wf).window (ix1 p) 1 : Int)).toNat = k.val
        rw [h1, hc]; exact Int.toNat_natCast _
  · rename_i h
    constructor
    · intro e; cases e
    · rintro ⟨ht, hc⟩
      exfalso; apply h
      intro a
      match a with
      | ⟨0, _⟩ =>
        show 0 ≤ (pairsDims (R := R) (C := C) wf).start (ix1 p) idx 0
              + ((pairsDims (R := R) (C := C) wf).window (ix1 p) 0 : Int)
          ∧ (pairsDims (R := R) (C := C) wf).start (ix1 p) idx 0
              + ((pairsDims (R := R) (C := C) wf).window (ix1 p) 0 : Int) < (R : Int)
        rw [h0, ht]; have := r.isLt; omega
      | ⟨1, _⟩ =>
        show 0 ≤ (pairsDims (R := R) (C := C) wf).start (ix1 p) idx 1
              + ((pairsDims (R := R) (C := C) wf).window (ix1 p) 1 : Int)
          ∧ (pairsDims (R := R) (C := C) wf).start (ix1 p) idx 1
              + ((pairsDims (R := R) (C := C) wf).window (ix1 p) 1 : Int) < (C : Int)
        rw [h1, hc]; have := k.isLt; omega

set_option maxHeartbeats 400000 in
/-- Single elements scattered by (row, column) pairs, read at one element, for the literal dimension numbers:
    element `(r, k)` of the result is the operand's element plus the sum of the update elements `p` whose index
    vector is `(r, k)`. -/
theorem pairs_scatterAdd_apply
    (wf : ScatterDims.WF (⟨2, ![R, C]⟩ : Shape) (⟨2, ![N, 2]⟩ : Shape) (⟨1, ![N]⟩ : Shape) [] [0, 1] [0, 1] 1)
    {w : Nat} (x : (⟨2, ![R, C]⟩ : Shape).Idx → EReal) (idx : IVec (⟨2, ![N, 2]⟩ : Shape) w)
    (upd : (⟨1, ![N]⟩ : Shape).Idx → EReal) (r : Fin R) (k : Fin C) :
    Ideal.hostScatterAdd (pairsDims wf) x idx upd (ix2 r k)
      = x (ix2 r k) + ∑ p ∈ Finset.univ.filter (fun p : Fin N =>
            (idx (ix2 p (0 : Fin 2))).toInt = (r.val : Int) ∧ (idx (ix2 p (1 : Fin 2))).toInt = (k.val : Int)),
          upd (ix1 p) := by
  unfold Ideal.hostScatterAdd
  congr 1
  symm
  refine Finset.sum_bij (fun p _ => ix1 p) ?_ ?_ ?_ ?_
  · intro p hp
    rw [Finset.mem_filter] at hp ⊢
    exact ⟨Finset.mem_univ _, (pairs_resultIdx?_eq_some_iff wf idx p r k).mpr hp.2⟩
  · intro p _ q _ e
    exact congrArg (fun f : (⟨1, ![N]⟩ : Shape).Idx => f 0) e
  · intro j hj
    rw [Finset.mem_filter] at hj
    obtain ⟨p, rfl⟩ : ∃ p, j = ix1 p := ⟨j 0, eq_ix1 j⟩
    exact ⟨p, Finset.mem_filter.mpr ⟨Finset.mem_univ _, (pairs_resultIdx?_eq_some_iff wf idx p r k).mp hj.2⟩, rfl⟩
  · intro p _; rfl

/-- Single elements scattered by (row, column) pairs (`x.at[i, j].add(upd)`), read at one element, for any dimension
    numbers with these lists: element `(r, k)` of the result is `x (r, k)` plus the sum of `upd p` over the update
    elements `p` whose index vector, read signed, is `(r, k)`. Update elements with a component outside its axis
    contribute nothing. -/
theorem hostScatterAdd_pairs_apply
    (d : ScatterDims (⟨2, ![R, C]⟩ : Shape) (⟨2, ![N, 2]⟩ : Shape) (⟨1, ![N]⟩ : Shape))
    (huw : d.updateWindowDims = []) (hiw : d.insertedWindowDims = [0, 1])
    (hsd : d.scatterDimsToOperandDims = [0, 1]) (hiv : d.indexVectorDim = 1)
    {w : Nat} (x : (⟨2, ![R, C]⟩ : Shape).Idx → EReal) (idx : IVec (⟨2, ![N, 2]⟩ : Shape) w)
    (upd : (⟨1, ![N]⟩ : Shape).Idx → EReal) (r : Fin R) (k : Fin C) :
    Ideal.hostScatterAdd d x idx upd (ix2 r k)
      = x (ix2 r k) + ∑ p ∈ Finset.univ.filter (fun p : Fin N =>
            (idx (ix2 p (0 : Fin 2))).toInt = (r.val : Int) ∧ (idx (ix2 p (1 : Fin 2))).toInt = (k.val : Int)),
          upd (ix1 p) := by
  obtain ⟨uw, iw, sd, iv, wf⟩ := d
  dsimp only at huw hiw hsd hiv
  subst huw hiw hsd hiv
  exact pairs_scatterAdd_apply wf x idx upd r k

end Cert.LibScatterPairs

end
-- ==== Proof.LibScatterRows.lean ====
/-
  The host's accumulating float scatter (`.at[idx].add`, a segment sum) read at one element, at the ideal instance:
  rows of a matrix scattered by row number, and a vector scattered by element number.

  The dimension numbers are the ones such a scatter is written with: the scatter indices are an `[N, 1]` array whose
  second axis holds the one-component index vector, that component names the operand's axis 0, which is an inserted
  window axis; the update's remaining axis (the columns, for rows) is the window axis. Update element `(p, c)` then
  lands at operand element `(idx[p, 0], c)` (the index read signed, NOT clamped), or nowhere when `idx[p, 0]` is
  outside `[0, R)`; so element `(r, k)` of the result collects exactly the update elements `(p, k)` with
  `idx[p, 0] = r`.
-/
import Idealize.ShloMosaic.PureOps.Ideal
import Idealize.ShloMosaic.Lib.ValueIdx

noncomputable section

namespace Cert.LibScatterRows

open Idealize.ShloMosaic Idealize.ShloMosaic.ValueIdx
open scoped BigOperators

section Rows
variable {R N K : Nat}

/-- The dimension numbers of a scatter of rows by row number. -/
abbrev rowsDims (wf : ScatterDims.WF (⟨2, ![R, K]⟩ : Shape) (⟨2, ![N, 1]⟩ : Shape) (⟨2, ![N, K]⟩ : Shape) [1] [0] [0] 1) :
    ScatterDims (⟨2, ![R, K]⟩ : Shape) (⟨2, ![N, 1]⟩ : Shape) (⟨2, ![N, K]⟩ : Shape) where
  updateWindowDims := [1]
  insertedWindowDims := [0]
  scatterDimsToOperandDims := [0]
  indexVectorDim := 1
  wf := wf

set_option maxHeartbeats 400000 in
/-- The start of update element `(p, c)`'s window on the operand's row axis is the `p`-th scatter index, read signed. -/
theorem rows_start_zero (wf) {w : Nat} (idx : IVec (⟨2, ![N, 1]⟩ : Shape) w) (p : Fin N) (c : Fin K) :
    (rowsDims (R := R) wf).start (ix2 p c) idx 0 = (idx (ix2 p (0 : Fin 1))).toInt := by
  unfold ScatterDims.start
  rw [dif_pos (show (0 : Fin 2) ∈ (rowsDims (R := R) (N := N) (K := K) wf).scatterDimsToOperandDims from List.mem_singleton.mpr rfl)]
  congr 2
  funext b
  refine Fin.ext ?_
  match b with
  | ⟨0, _⟩ => rfl
  | ⟨1, _⟩ => rfl

set_option maxHeartbeats 400000 in
/-- The scatter indices do not name the operand's column axis: the window starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold ScatterDims.start
  rw [dif_neg (show (1 : Fin 2) ∉ [(0 : Fin 2)] from by decide)]

set_option maxHeartbeats 400000 in
/-- The operand's row axis is an inserted window axis: the window coordinate on it is `0`. -/
theorem rows_window_zero (wf) (j : (⟨2, ![N, K]⟩ : Shape).Idx) :
    (rowsDims (R := R) wf).window j 0 = 0 := by
  unfold ScatterDims.window
  exact dif_neg (show (0 : Fin 2) ∉ (List.finRange 2).filter (fun a => a ∉ [(0 : Fin 2)]) from by decide)

set_option maxHeartbeats 400000 in
/-- The window coordinate on the operand's column axis is the update element's column. -/
theorem rows_window_one (wf) (j : (⟨2, ![N, K]⟩ : Shape).Idx) :
    (rowsDims (R := R) wf).window j 1 = (j 1).val := by
  unfold ScatterDims.window
  exact (dif_pos (show (1 : Fin 2) ∈ (List.finRange 2).filter (fun a => a ∉ [(0 : Fin 2)]) from by decide)).trans rfl

set_option maxHeartbeats 400000 in
/-- The landing place of update element `(p, c)` is operand element `(r, k)` exactly when the `p`-th scatter index,
    read signed, is `r` and the column is the same (`c = k`); an index outside `[0, R)` lands nowhere. -/
theorem rows_resultIdx?_eq_some_iff
    (wf : ScatterDims.WF (⟨2, ![R, K]⟩ : Shape) (⟨2, ![N, 1]⟩ : Shape) (⟨2, ![N, K]⟩ : Shape) [1] [0] [0] 1)
    {w : Nat} (idx : IVec (⟨2, ![N, 1]⟩ : Shape) w) (p : Fin N) (c : Fin K) (r : Fin R) (k : Fin K) :
    (rowsDims (R := R) wf).resultIdx? (ix2 p c) idx = some (ix2 r k)
      ↔ (idx (ix2 p (0 : Fin 1))).toInt = (r.val : Int) ∧ c = k := by
  have h0 : (rowsDims (R := R) wf).start (ix2 p c) idx 0 + ((rowsDims (R := R) wf).window (ix2 p c) 0 : Int)
      = (idx (ix2 p (0 : Fin 1))).toInt := by
    rw [rows_start_zero, rows_window_zero]; exact Int.add_zero _
  have h1 : (rowsDims (R := R) wf).start (ix2 p c) idx 1 + ((rowsDims (R := R) wf).window (ix2 p c) 1 : Int)
      = (c.val : Int) := by
    rw [rows_start_one, rows_window_one]; exact Int.zero_add _
  unfold ScatterDims.resultIdx?
  split
  · rename_i h
    rw [Option.some.injEq]
    constructor
    · intro e
      have e0 : ((rowsDims (R := R) wf).start (ix2 p c) idx 0
          + ((rowsDims (R := R) wf).window (ix2 p c) 0 : Int)).toNat = r.val :=
        congrArg (fun f : (⟨2, ![R, K]⟩ : Shape).Idx => (f 0).val) e
      have e1 : ((rowsDims (R := R) wf).start (ix2 p c) idx 1
          + ((rowsDims (R := R) wf).window (ix2 p c) 1 : Int)).toNat = k.val :=
        congrArg (fun f : (⟨2, ![R, K]⟩ : Shape).Idx => (f 1).val) e
      have g0 := (h 0).1
      rw [h0] at e0 g0
      rw [h1] at e1
      exact ⟨by omega, Fin.ext (by omega)⟩
    · rintro ⟨ht, hc⟩
      funext a
      refine Fin.ext ?_
      match a with
      | ⟨0, _⟩ =>
        show ((rowsDims (R := R) wf).start (ix2 p c) idx 0
          + ((rowsDims (R := R) wf).window (ix2 p c) 0 : Int)).toNat = r.val
        rw [h0, ht]; exact Int.toNat_natCast _
      | ⟨1, _⟩ =>
        show ((rowsDims (R := R) wf).start (ix2 p c) idx 1
          + ((rowsDims (R := R) wf).window (ix2 p c) 1 : Int)).toNat = k.val
        rw [h1, hc]; exact Int.toNat_natCast _
  · rename_i h
    constructor
    · intro e; cases e
    · rintro ⟨ht, hc⟩
      exfalso; apply h
      intro a
      match a with
      | ⟨0, _⟩ =>
        show 0 ≤ (rowsDims (R := R) wf).start (ix2 p c) idx 0 + ((rowsDims (R := R) wf).window (ix2 p c) 0 : Int)
          ∧ (rowsDims (R := R) wf).start (ix2 p c) idx 0 + ((rowsDims (R := R) wf).window (ix2 p c) 0 : Int) < (R : Int)
        rw [h0, ht]; have := r.isLt; omega
      | ⟨1, _⟩ =>
        show 0 ≤ (rowsDims (R := R) wf).start (ix2 p c) idx 1 + ((rowsDims (R := R) wf).window (ix2 p c) 1 : Int)
          ∧ (rowsDims (R := R) wf).start (ix2 p c) idx 1 + ((rowsDims (R := R) wf).window (ix2 p c) 1 : Int) < (K : Int)
        rw [h1]; have := c.isLt; omega

set_option maxHeartbeats 400000 in
/-- Rows scattered by row number, read at one element, for the literal dimension numbers: element `(r, k)` of the
    result is the operand's element plus the sum, over the update rows `p` whose scatter index is `r`, of the update's
    element `(p, k)`. -/
theorem hostScatterAdd_rowsDims_apply
    (wf : ScatterDims.WF (⟨2, ![R, K]⟩ : Shape) (⟨2, ![N, 1]⟩ : Shape) (⟨2, ![N, K]⟩ : Shape) [1] [0] [0] 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd (rowsDims wf) x idx upd (ix2 r k)
      = x (ix2 r k) + ∑ p ∈ Finset.univ.filter (fun p : Fin N => (idx (ix2 p (0 : Fin 1))).toInt = (r.val : Int)),
          upd (ix2 p k) := by
  unfold Ideal.hostScatterAdd
  congr 1
  symm
  refine Finset.sum_bij (fun p _ => ix2 p k) ?_ ?_ ?_ ?_
  · intro p hp
    rw [Finset.mem_filter] at hp ⊢
    exact ⟨Finset.mem_univ _, (rows_resultIdx?_eq_some_iff wf idx p k r k).mpr ⟨hp.2, rfl⟩⟩
  · intro p _ q _ e
    exact congrArg (fun f : (⟨2, ![N, K]⟩ : Shape).Idx => f 0) e
  · intro j hj
    rw [Finset.mem_filter] at hj
    obtain ⟨p, c, rfl⟩ : ∃ p c, j = ix2 p c := ⟨j 0, j 1, eq_ix2 j⟩
    have hpc := (rows_resultIdx?_eq_some_iff wf idx p c r k).mp hj.2
    refine ⟨p, Finset.mem_filter.mpr ⟨Finset.mem_univ _, hpc.1⟩, ?_⟩
    rw [hpc.2]
  · intro p _; rfl

/-- Rows of width `K` scattered by row number (`x.at[idx].add(upd)` over rows), read at one element: element
    `(r, k)` of the result is `x (r, k)` plus the sum of `upd (p, k)` over the update rows `p` whose scatter index, read
    signed, is `r`. Update rows whose index is outside `[0, R)` contribute nothing. -/
theorem hostScatterAdd_rows_apply
    (d : ScatterDims (⟨2, ![R, K]⟩ : Shape) (⟨2, ![N, 1]⟩ : Shape) (⟨2, ![N, K]⟩ : Shape))
    (huw : d.updateWindowDims = [1]) (hiw : d.insertedWindowDims = [0]) (hsd : d.scatterDimsToOperandDims = [0])
    (hiv : d.indexVectorDim = 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd d x idx upd (ix2 r k)
      = x (ix2 r k) + ∑ p ∈ Finset.univ.filter (fun p : Fin N => (idx (ix2 p (0 : Fin 1))).toInt = (r.val : Int)),
          upd (ix2 p k) := by
  obtain ⟨uw, iw, sd, iv, wf⟩ := d
  dsimp only at huw hiw hsd hiv
  subst huw hiw hsd hiv
  exact hostScatterAdd_rowsDims_apply wf x idx upd r k

end Rows

section Vec
variable {R N : Nat}

/-- The dimension numbers of a scatter of a vector's elements by element number. -/
abbrev vecDims (wf : ScatterDims.WF (⟨1, ![R]⟩ : Shape) (⟨2, ![N, 1]⟩ : Shape) (⟨1, ![N]⟩ : Shape) [] [0] [0] 1) :
    ScatterDims (⟨1, ![R]⟩ : Shape) (⟨2, ![N, 1]⟩ : Shape) (⟨1, ![N]⟩ : Shape) where
  updateWindowDims := []
  insertedWindowDims := [0]
  scatterDimsToOperandDims := [0]
  indexVectorDim := 1
  wf := wf

set_option maxHeartbeats 400000 in
/-- The start of update element `p`'s window on the operand's one axis is the `p`-th scatter index, read signed. -/
theorem vec_start_zero (wf) {w : Nat} (idx : IVec (⟨2, ![N, 1]⟩ : Shape) w) (p : Fin N) :
    (vecDims (R := R) wf).start (ix1 p) idx 0 = (idx (ix2 p (0 : Fin 1))).toInt := by
  unfold ScatterDims.start
  rw [dif_pos (show (0 : Fin 1) ∈ (vecDims (R := R) (N := N) wf).scatterDimsToOperandDims from List.mem_singleton.mpr rfl)]
  congr 2
  funext b
  refine Fin.ext ?_
  match b with
  | ⟨0, _⟩ => rfl
  | ⟨1, _⟩ => rfl

set_option maxHeartbeats 400000 in
/-- The operand's one axis is an inserted window axis: the window coordinate on it is `0`. -/
theorem vec_window_zero (wf) (j : (⟨1, ![N]⟩ : Shape).Idx) :
    (vecDims (R := R) wf).window j 0 = 0 := by
  unfold ScatterDims.window
  exact dif_neg (show (0 : Fin 1) ∉ (List.finRange 1).filter (fun a => a ∉ [(0 : Fin 1)]) from by decide)

set_option maxHeartbeats 400000 in
/-- The landing place of update element `p` is operand element `r` exactly when the `p`-th scatter index, read
    signed, is `r`; an index outside `[0, R)` lands nowhere. -/
theorem vec_resultIdx?_eq_some_iff
    (wf : ScatterDims.WF (⟨1, ![R]⟩ : Shape) (⟨2, ![N, 1]⟩ : Shape) (⟨1, ![N]⟩ : Shape) [] [0] [0] 1)
    {w : Nat} (idx : IVec (⟨2, ![N, 1]⟩ : Shape) w) (p : Fin N) (r : Fin R) :
    (vecDims (R := R) wf).resultIdx? (ix1 p) idx = some (ix1 r)
      ↔ (idx (ix2 p (0 : Fin 1))).toInt = (r.val : Int) := by
  have h0 : (vecDims (R := R) wf).start (ix1 p) idx 0 + ((vecDims (R := R) wf).window (ix1 p) 0 : Int)
      = (idx (ix2 p (0 : Fin 1))).toInt := by
    rw [vec_start_zero, vec_window_zero]; exact Int.add_zero _
  unfold ScatterDims.resultIdx?
  split
  · rename_i h
    rw [Option.some.injEq]
    constructor
    · intro e
      have e0 : ((vecDims (R := R) wf).start (ix1 p) idx 0
          + ((vecDims (R := R) wf).window (ix1 p) 0 : Int)).toNat = r.val :=
        congrArg (fun f : (⟨1, ![R]⟩ : Shape).Idx => (f 0).val) e
      have g0 := (h 0).1
      rw [h0] at e0 g0
      omega
    · intro ht
      funext a
      refine Fin.ext ?_
      match a with
      | ⟨0, _⟩ =>
        show ((vecDims (R := R) wf).start (ix1 p) idx 0
          + ((vecDims (R := R) wf).window (ix1 p) 0 : Int)).toNat = r.val
        rw [h0, ht]; exact Int.toNat_natCast _
  · rename_i h
    constructor
    · intro e; cases e
    · intro ht
      exfalso; apply h
      intro a
      match a with
      | ⟨0, _⟩ =>
        show 0 ≤ (vecDims (R := R) wf).start (ix1 p) idx 0 + ((vecDims (R := R) wf).window (ix1 p) 0 : Int)
          ∧ (vecDims (R := R) wf).start (ix1 p) idx 0 + ((vecDims (R := R) wf).window (ix1 p) 0 : Int) < (R : Int)
        rw [h0, ht]; have := r.isLt; omega

set_option maxHeartbeats 400000 in
/-- A vector scattered by element number, read at one element, for the literal dimension numbers: element `r` of the
    result is the operand's element plus the sum of the update elements `p` whose scatter index is `r`. -/
theorem hostScatterAdd_vecDims_apply
    (wf : ScatterDims.WF (⟨1, ![R]⟩ : Shape) (⟨2, ![N, 1]⟩ : Shape) (⟨1, ![N]⟩ : Shape) [] [0] [0] 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd (vecDims wf) x idx upd (ix1 r)
      = x (ix1 r) + ∑ p ∈ Finset.univ.filter (fun p : Fin N => (idx (ix2 p (0 : Fin 1))).toInt = (r.val : Int)),
          upd (ix1 p) := by
  unfold Ideal.hostScatterAdd
  congr 1
  symm
  refine Finset.sum_bij (fun p _ => ix1 p) ?_ ?_ ?_ ?_
  · intro p hp
    rw [Finset.mem_filter] at hp ⊢
    exact ⟨Finset.mem_univ _, (vec_resultIdx?_eq_some_iff wf idx p r).mpr hp.2⟩
  · intro p _ q _ e
    exact congrArg (fun f : (⟨1, ![N]⟩ : Shape).Idx => f 0) e
  · intro j hj
    rw [Finset.mem_filter] at hj
    obtain ⟨p, rfl⟩ : ∃ p, j = ix1 p := ⟨j 0, eq_ix1 j⟩
    exact ⟨p, Finset.mem_filter.mpr ⟨Finset.mem_univ _, (vec_resultIdx?_eq_some_iff wf idx p r).mp hj.2⟩, rfl⟩
  · intro p _; rfl

/-- A vector scattered by element number (`x.at[idx].add(upd)`, a segment sum), read at one element: element `r` of
    the result is `x r` plus the sum of `upd p` over the update elements `p` whose scatter index, read signed, is `r`.
    Update elements whose index is outside `[0, R)` contribute nothing. -/
theorem hostScatterAdd_vec_apply
    (d : ScatterDims (⟨1, ![R]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd d x idx upd (ix1 r)
      = x (ix1 r) + ∑ p ∈ Finset.univ.filter (fun p : Fin N => (idx (ix2 p (0 : Fin 1))).toInt = (r.val : Int)),
          upd (ix1 p) := by
  obtain ⟨uw, iw, sd, iv, wf⟩ := d
  dsimp only at huw hiw hsd hiv
  subst huw hiw hsd hiv
  exact hostScatterAdd_vecDims_apply wf x idx upd r

end Vec

end Cert.LibScatterRows

end
-- ==== Proof.LibGatherRows.lean ====
/-
  StableHLO's gather of whole rows by row number (`table[idx]` over rows), read at one element: rows of a matrix
  gathered by row number, and elements of a vector gathered by element number.

  The dimension numbers are the ones such a gather is written with: the start indices are an `[N, 1]` array whose
  second axis holds the one-component index vector; that component names the operand's axis 0, which is a collapsed
  axis of slice size 1; the operand's remaining axis (the columns, for rows) is taken whole and is the result's offset
  axis. Result element `(p, k)` is then operand element `(r, k)` where `r` is the start index `idx[p, 0]`, read signed and
  clamped into `[0, R − 1]` (a negative index reads row 0, one past the end reads the last row).
-/
import Idealize.ShloMosaic.PureOps.Ideal
import Idealize.ShloMosaic.Lib.ValueIdx

noncomputable section

namespace Cert.LibGatherRows

open Idealize.ShloMosaic Idealize.ShloMosaic.ValueIdx

section Rows
variable {α : Type} {R N K : Nat}

/-- The dimension numbers of a gather of rows of width `K` by row number. -/
abbrev rowsDims
    (wf : GatherDims.WF (⟨2, ![R, K]⟩ : Shape) (⟨2, ![N, 1]⟩ : Shape) (⟨2, ![N, K]⟩ : Shape) [1] [0] [] [0] [] 1 ![1, K]) :
    GatherDims (⟨2, ![R, K]⟩ : Shape) (⟨2, ![N, 1]⟩ : Shape) (⟨2, ![N, K]⟩ : Shape) where
  offsetDims := [1]
  collapsedSliceDims := [0]
  operandBatchingDims := []
  startIndicesBatchingDims := []
  startIndexMap := [0]
  indexVectorDim := 1
  sliceSizes := ![1, K]
  wf := wf

set_option maxHeartbeats 400000 in
/-- The start of result element `(p, k)`'s slice on the operand's row axis is the `p`-th start index, read signed and
    clamped into `[0, R − 1]`. -/
theorem rows_start_zero (wf) {w : Nat} (idx : IVec (⟨2, ![N, 1]⟩ : Shape) w) (p : Fin N) (k : Fin K) :
    (rowsDims (R := R) wf).start (ix2 p k) idx 0 = min (idx (ix2 p (0 : Fin 1))).toInt.toNat (R - 1) := by
  unfold GatherDims.start
  rw [dif_pos (show (0 : Fin 2) ∈ (rowsDims (R := R) (N := N) (K := K) wf).startIndexMap from List.mem_singleton.mpr rfl)]
  have hsi : (rowsDims (R := R) wf).siIdx (ix2 p k) ⟨List.idxOf (0 : Fin 2) (rowsDims (R := R) (N := N) (K := K) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- The start index map does not name the operand's column axis: the slice starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold GatherDims.start
  rw [dif_neg (show (1 : Fin 2) ∉ [(0 : Fin 2)] from by decide)]

set_option maxHeartbeats 400000 in
/-- The operand's row axis is collapsed: the offset coordinate on it is `0`. -/
theorem rows_offCoord_zero (wf) (j : (⟨2, ![N, K]⟩ : Shape).Idx) :
    (rowsDims (R := R) wf).offCoord j 0 = 0 :=
  GatherDims.offCoord_eq_zero _ _ _ (fun h => ((GatherDims.mem_sKept _ _).mp h).1 (List.mem_singleton.mpr rfl))

set_option maxHeartbeats 400000 in
/-- The offset coordinate on the operand's column axis is the result element's column. -/
theorem rows_offCoord_one (wf) (j : (⟨2, ![N, K]⟩ : Shape).Idx) :
    (rowsDims (R := R) wf).offCoord j 1 = (j 1).val := by
  unfold GatherDims.offCoord
  exact (dif_pos (show (1 : Fin 2) ∈ (List.finRange 2).filter (fun a => a ∉ [(0 : Fin 2)] ++ []) from by decide)).trans rfl

set_option maxHeartbeats 400000 in
/-- Rows gathered by row number, read at one element, for the literal dimension numbers: element `(p, k)` of the result
    is the operand's element `(r, k)`, `r` the `p`-th start index read signed and clamped into `[0, R − 1]`. -/
theorem hostGather_rowsDims_apply (hR : 0 < R)
    (wf : GatherDims.WF (⟨2, ![R, K]⟩ : Shape) (⟨2, ![N, 1]⟩ : Shape) (⟨2, ![N, K]⟩ : Shape) [1] [0] [] [0] [] 1 ![1, K])
    {w : Nat} (x : (⟨2, ![R, K]⟩ : Shape).Idx → α) (idx : IVec (⟨2, ![N, 1]⟩ : Shape) w) (p : Fin N) (k : Fin K) :
    Host.gather (rowsDims wf) x idx (ix2 p k)
      = x (ix2 (⟨min (idx (ix2 p (0 : Fin 1))).toInt.toNat (R - 1), by omega⟩ : Fin R) k) := by
  unfold Host.gather
  congr 1
  funext a
  refine Fin.ext ?_
  match a with
  | ⟨0, _⟩ =>
    show (rowsDims (R := R) wf).start (ix2 p k) idx 0 + (rowsDims (R := R) wf).batchCoord (ix2 p k) 0
        + (rowsDims (R := R) wf).offCoord (ix2 p k) 0 = min (idx (ix2 p (0 : Fin 1))).toInt.toNat (R - 1)
    rw [GatherDims.batchCoord_eq_zero _ _ _ List.not_mem_nil, rows_offCoord_zero, rows_start_zero]
    rfl
  | ⟨1, _⟩ =>
    show (rowsDims (R := R) wf).start (ix2 p k) idx 1 + (rowsDims (R := R) wf).batchCoord (ix2 p k) 1
        + (rowsDims (R := R) wf).offCoord (ix2 p k) 1 = k.val
    rw [GatherDims.batchCoord_eq_zero _ _ _ List.not_mem_nil, rows_offCoord_one, rows_start_one]
    exact Nat.zero_add _

/-- Rows of width `K` gathered by row number (`x[idx]` over rows), read at one element: element `(p, k)` of the
    result is `x (r, k)` where `r` is the `p`-th start index, read signed and clamped into `[0, R − 1]`. -/
theorem hostGather_rows_apply {α : Type} {R N K w : Nat} (hR : 0 < R)
    (d : GatherDims (⟨2, ![R, K]⟩ : Shape) (⟨2, ![N, 1]⟩ : Shape) (⟨2, ![N, K]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, K])
    (x : (⟨2, ![R, K]⟩ : Shape).Idx → α) (idx : IVec (⟨2, ![N, 1]⟩ : Shape) w) (p : Fin N) (k : Fin K) :
    Host.gather d x idx (ix2 p k)
      = x (ix2 (⟨min (idx (ix2 p (0 : Fin 1))).toInt.toNat (R - 1), by omega⟩ : Fin R) k) := by
  obtain ⟨od, cs, ob, sb, sm, iv, ss, wf⟩ := d
  dsimp only at hod hcs hob hsb hsm hiv hss
  subst hod hcs hob hsb hsm hiv hss
  exact hostGather_rowsDims_apply hR wf x idx p k

end Rows

section Vec
variable {α : Type} {R N : Nat}

/-- The dimension numbers of a gather of a vector's elements by element number. -/
abbrev vecDims
    (wf : GatherDims.WF (⟨1, ![R]⟩ : Shape) (⟨2, ![N, 1]⟩ : Shape) (⟨1, ![N]⟩ : Shape) [] [0] [] [0] [] 1 ![1]) :
    GatherDims (⟨1, ![R]⟩ : Shape) (⟨2, ![N, 1]⟩ : Shape) (⟨1, ![N]⟩ : Shape) where
  offsetDims := []
  collapsedSliceDims := [0]
  operandBatchingDims := []
  startIndicesBatchingDims := []
  startIndexMap := [0]
  indexVectorDim := 1
  sliceSizes := ![1]
  wf := wf

set_option maxHeartbeats 400000 in
/-- The start of result element `p`'s slice on the operand's one axis is the `p`-th start index, read signed and
    clamped into `[0, R − 1]`. -/
theorem vec_start_zero (wf) {w : Nat} (idx : IVec (⟨2, ![N, 1]⟩ : Shape) w) (p : Fin N) :
    (vecDims (R := R) wf).start (ix1 p) idx 0 = min (idx (ix2 p (0 : Fin 1))).toInt.toNat (R - 1) := by
  unfold GatherDims.start
  rw [dif_pos (show (0 : Fin 1) ∈ (vecDims (R := R) (N := N) wf).startIndexMap from List.mem_singleton.mpr rfl)]
  have hsi : (vecDims (R := R) wf).siIdx (ix1 p) ⟨List.idxOf (0 : Fin 1) (vecDims (R := R) (N := N) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- A vector's elements gathered by element number, read at one element, for the literal dimension numbers: element
    `p` of the result is the operand's element `r`, `r` the `p`-th start index read signed and clamped into `[0, R − 1]`. -/
theorem hostGather_vecDims_apply (hR : 0 < R)
    (wf : GatherDims.WF (⟨1, ![R]⟩ : Shape) (⟨2, ![N, 1]⟩ : Shape) (⟨1, ![N]⟩ : Shape) [] [0] [] [0] [] 1 ![1])
    {w : Nat} (x : (⟨1, ![R]⟩ : Shape).Idx → α) (idx : IVec (⟨2, ![N, 1]⟩ : Shape) w) (p : Fin N) :
    Host.gather (vecDims wf) x idx (ix1 p)
      = x (ix1 (⟨min (idx (ix2 p (0 : Fin 1))).toInt.toNat (R - 1), by omega⟩ : Fin R)) := by
  unfold Host.gather
  congr 1
  funext a
  refine Fin.ext ?_
  match a with
  | ⟨0, _⟩ =>
    show (vecDims (R := R) wf).start (ix1 p) idx 0 + (vecDims (R := R) wf).batchCoord (ix1 p) 0
        + (vecDims (R := R) wf).offCoord (ix1 p) 0 = min (idx (ix2 p (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl)),
      vec_start_zero]
    rfl

/-- A vector's elements gathered by element number (`x[idx]` of a flat array), read at one element: element `p` of the
    result is `x r` where `r` is the `p`-th start index, read signed and clamped into `[0, R − 1]`. -/
theorem hostGather_vec_apply {α : Type} {R N w : Nat} (hR : 0 < R)
    (d : GatherDims (⟨1, ![R]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![R]⟩ : Shape).Idx → α) (idx : IVec (⟨2, ![N, 1]⟩ : Shape) w) (p : Fin N) :
    Host.gather d x idx (ix1 p)
      = x (ix1 (⟨min (idx (ix2 p (0 : Fin 1))).toInt.toNat (R - 1), by omega⟩ : Fin R)) := by
  obtain ⟨od, cs, ob, sb, sm, iv, ss, wf⟩ := d
  dsimp only at hod hcs hob hsb hsm hiv hss
  subst hod hcs hob hsb hsm hiv hss
  exact hostGather_vecDims_apply hR wf x idx p

end Vec

end Cert.LibGatherRows

end
-- ==== Proof.KI.HostAdj.lean ====
/-
  What the host operations before the first kernel launch compute, at the ideal instance: the dense propagation
  operator of the graph the endpoint array describes.

  From the [2, E] array of edge endpoints (row 0 the sources, row 1 the destinations) the operations form, in order:
  the in-degree plus one of every node (the ones scattered by destination into a zero vector, plus one); its inverse
  square root dinv; the edge weights dinv (source) · dinv (destination), the two factors gathered by node number; the
  N × N matrix that collects each edge's weight at (destination, source), scattered into zeros; and on top of it
  dinv i · dinv i scattered at (i, i) for every node i. Before every gather and scatter a node number x is replaced by
  x + N when it reads negative, which changes nothing for a node number in [0, N); the final format change is the
  identity at this instance. Read at one element (n, m) the result is the specification's operator Ahat n m, term by
  term: its sums are the scatters' sums over the edges with destination n and source m, and over the nodes i with
  i = n and i = m.
-/
import proofs.«127812_j6760278524061_1_alg».proof.KernelIdeal
import proofs.«127812_j6760278524061_1_alg».proof.Proof.Spec
import proofs.«127812_j6760278524061_1_alg».proof.Proof.Bridge
import proofs.«127812_j6760278524061_1_alg».proof.Proof.LibScatterPairs
import proofs.«127812_j6760278524061_1_alg».proof.Proof.LibScatterRows
import proofs.«127812_j6760278524061_1_alg».proof.Proof.LibGatherRows
import Idealize.ShloMosaic.Lib.ValueLayout

noncomputable section

namespace Cert.KernelIdeal.HostAdj

open Idealize.ShloMosaic Idealize.ShloMosaic.ValueIdx Cert.KernelIdeal
open scoped BigOperators

/-! ## Words and constants -/

/-- The pattern of the float one denotes 1. -/
theorem ofBits_one : Ideal.ofBits .f32 0x3F800000#32 = 1 := by
  simp [Ideal.ofBits, Ideal.ieee, -EReal.coe_mul]; norm_num

/-- The pattern of the float zero denotes 0. -/
theorem ofBits_zero : Ideal.ofBits .f32 0x00000000#32 = 0 := by
  simp [Ideal.ofBits, Ideal.ieee]

/-- A word that reads non-negative is not below zero: the choice between x + N and x takes x. -/
theorem select_slt_zero (v a : BitVec 32) (h0 : 0 ≤ v.toInt) :
    Scalar.select (IntOp.cmpi .slt v 0#32) a v = v := by
  have hs : v.slt 0#32 = false := by
    simp only [BitVec.slt, BitVec.toInt_zero, decide_eq_false_iff_not, not_lt]; exact h0
  show Scalar.select (BitVec.ofBool (v.slt 0#32)) a v = v
  rw [hs]
  exact if_neg (by decide)

/-- A node number written as a word reads as itself. -/
theorem toInt_ofNat_node (i : Nat) (hi : i < 16384) : (BitVec.ofNat 32 i).toInt = (i : Int) := by
  rw [BitVec.toInt_eq_toNat_cond, BitVec.toNat_ofNat]
  have e : i % 2 ^ 32 = i := Nat.mod_eq_of_lt (by omega)
  rw [e]
  split <;> omega

/-- A sum of two extended reals, rewritten term by term. -/
theorem add_congr' {a b c d : EReal} (h1 : a = c) (h2 : b = d) : a + b = c + d := by rw [h1, h2]

/-- The host's accumulating scatter at this instance is the exact sum. -/
theorem hostScatterAdd_eq {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The host's inverse square root at an index. -/
theorem hostRsqrt_apply {s : Shape} {φ : FTy} (x : FVec Ideal s φ) (i : s.Idx) : Host.rsqrt x i = Ideal.rsqrt (x i) := rfl

/-! ## Layout operations at an index -/

section Layout
variable {α : Type}

/-- A scalar broadcast to any shape reads the scalar everywhere. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector broadcast to a one-column matrix reads, at (p, 0), its element p. -/
theorem bcast_col_apply {n : Nat} (hn : n ≠ 1)
    (h : (⟨1, ![n]⟩ : Shape).BroadcastsInDim (⟨2, ![n, 1]⟩ : Shape) ![0]) (x : (⟨1, ![n]⟩ : Shape).Idx → α)
    (p : Fin n) (c : Fin 1) :
    broadcastInDim (⟨2, ![n, 1]⟩ : Shape) ![0] h x (ix2 p c) = x (ix1 p) :=
  broadcastInDim_apply _ h x _ _ (fun a => by
    match a with
    | ⟨0, _⟩ =>
      show p.val = if n = 1 then 0 else p.val
      rw [if_neg hn])

/-- Two one-column matrices side by side read, at (p, 0), the first at (p, 0), -/
theorem concat_cols_zero {n : Nat}
    (h : Shape.Concatenates [(⟨2, ![n, 1]⟩ : Shape), (⟨2, ![n, 1]⟩ : Shape)] (⟨2, ![n, 2]⟩ : Shape) 1)
    (a b : (⟨2, ![n, 1]⟩ : Shape).Idx → α) (p : Fin n) :
    concatenate (⟨2, ![n, 2]⟩ : Shape) 1 [⟨(⟨2, ![n, 1]⟩ : Shape), a⟩, ⟨(⟨2, ![n, 1]⟩ : Shape), b⟩] h (ix2 p (0 : Fin 2))
      = a (ix2 p (0 : Fin 1)) :=
  concatenate_pair_apply_left (1 : Fin 2) a b h (ix2 p (0 : Fin 2)) rfl (ix2 p (0 : Fin 1)) (fun c => by
    match c with
    | ⟨0, _⟩ => rfl
    | ⟨1, _⟩ => rfl)

/-- and, at (p, 1), the second at (p, 0). -/
theorem concat_cols_one {n : Nat}
    (h : Shape.Concatenates [(⟨2, ![n, 1]⟩ : Shape), (⟨2, ![n, 1]⟩ : Shape)] (⟨2, ![n, 2]⟩ : Shape) 1)
    (a b : (⟨2, ![n, 1]⟩ : Shape).Idx → α) (p : Fin n) :
    concatenate (⟨2, ![n, 2]⟩ : Shape) 1 [⟨(⟨2, ![n, 1]⟩ : Shape), a⟩, ⟨(⟨2, ![n, 1]⟩ : Shape), b⟩] h (ix2 p (1 : Fin 2))
      = b (ix2 p (0 : Fin 1)) :=
  concatenate_pair_apply_right (1 : Fin 2) a b h (ix2 p (1 : Fin 2)) rfl rfl (ix2 p (0 : Fin 1)) (fun c hc => by
    match c with
    | ⟨0, _⟩ => rfl
    | ⟨1, _⟩ => exact absurd rfl hc) rfl

end Layout

/-! ## The operations' terms -/

section Terms
variable [Facts₀]
open Facts₀

/-- Row 0 of the endpoint array as a vector: the sources. -/
def srcV (ei : IVec S2x524288 32) : IVec S524288 32 :=
  shapeCast S524288 (extractStridedSlice S1x524288 ![0, 0] ei slices_S2x524288_S1x524288_0_0) shapeCasts_S1x524288_S524288

/-- Row 1 of the endpoint array as a vector: the destinations. -/
def dstV (ei : IVec S2x524288 32) : IVec S524288 32 :=
  shapeCast S524288 (extractStridedSlice S1x524288 ![1, 0] ei slices_S2x524288_S1x524288_1_0) shapeCasts_S1x524288_S524288

/-- The edges' node numbers made non-negative: x + N where x reads negative, x elsewhere. -/
def normE (x : IVec S524288 32) : IVec S524288 32 :=
  select (cmpi .slt x (broadcastInDim S524288 ![] bcast_S_S524288 (constantI S_ 32 0#32)))
    (addi x (broadcastInDim S524288 ![] bcast_S_S524288 (constantI S_ 32 16384#32))) x

/-- The same for a vector of N node numbers. -/
def normN (x : IVec S16384 32) : IVec S16384 32 :=
  select (cmpi .slt x (broadcastInDim S16384 ![] bcast_S_S16384 (constantI S_ 32 0#32)))
    (addi x (broadcastInDim S16384 ![] bcast_S_S16384 (constantI S_ 32 16384#32))) x

/-- In-degree plus one: the ones scattered by destination into zeros, plus one. -/
def degV (ei : IVec S2x524288 32) : FVec Ideal S16384 .f32 :=
  addf
    (Host.scatterAdd scatter_S16384_S524288x1_S524288_n_0_0_1
      (broadcastInDim S16384 ![] bcast_S_S16384 (constant (F := Ideal) S_ .f32 0x00000000#32))
      (broadcastInDim S524288x1 ![0] bcast_S524288_S524288x1_0 (dstV ei))
      (broadcastInDim S524288 ![] bcast_S_S524288 (constant (F := Ideal) S_ .f32 0x3F800000#32)))
    (broadcastInDim S16384 ![] bcast_S_S16384 (constant (F := Ideal) S_ .f32 0x3F800000#32))

/-- Its inverse square root. -/
def dinvV (ei : IVec S2x524288 32) : FVec Ideal S16384 .f32 := Host.rsqrt (degV ei)

/-- dinv gathered by the node numbers x. -/
def gatherV (ei : IVec S2x524288 32) (x : IVec S524288 32) : FVec Ideal S524288 .f32 :=
  Host.gather gather_S16384_S524288x1_S524288_n_0_n_n_0_1_1 (dinvV ei)
    (broadcastInDim S524288x1 ![0] bcast_S524288_S524288x1_0 (normE x))

/-- The edges' weights. -/
def enormV (ei : IVec S2x524288 32) : FVec Ideal S524288 .f32 :=
  mulf (gatherV ei (srcV ei)) (gatherV ei (dstV ei))

/-- The edges' (destination, source) pairs. -/
def pairsE (ei : IVec S2x524288 32) : IVec S524288x2 32 :=
  concatenate S524288x2 1
    [⟨S524288x1, broadcastInDim S524288x1 ![0] bcast_S524288_S524288x1_0 (normE (dstV ei))⟩,
     ⟨S524288x1, broadcastInDim S524288x1 ![0] bcast_S524288_S524288x1_0 (normE (srcV ei))⟩]
    concatenates_S524288x1_S524288x1_S524288x2_d1

/-- The edges' weights scattered at (destination, source) into zeros. -/
def edgesV (ei : IVec S2x524288 32) : FVec Ideal S16384x16384 .f32 :=
  Host.scatterAdd scatter_S16384x16384_S524288x2_S524288_n_01_01_1
    (broadcastInDim S16384x16384 ![] bcast_S_S16384x16384 (constant (F := Ideal) S_ .f32 0x00000000#32))
    (pairsE ei) (enormV ei)

/-- The diagonal's (i, i) pairs. -/
def pairsN : IVec S16384x2 32 :=
  concatenate S16384x2 1
    [⟨S16384x1, broadcastInDim S16384x1 ![0] bcast_S16384_S16384x1_0 (normN (iotaInDim S16384 32 0))⟩,
     ⟨S16384x1, broadcastInDim S16384x1 ![0] bcast_S16384_S16384x1_0 (normN (iotaInDim S16384 32 0))⟩]
    concatenates_S16384x1_S16384x1_S16384x2_d1

/-- The whole operator at the wide format: dinv i · dinv i scattered at (i, i) on top of the edges' matrix. -/
def adjWide (ei : IVec S2x524288 32) : FVec Ideal S16384x16384 .f32 :=
  Host.scatterAdd scatter_S16384x16384_S16384x2_S16384_n_01_01_1 (edgesV ei) pairsN (mulf (dinvV ei) (dinvV ei))

/-- The operations' composed term of the endpoint array: the operator at the narrow format. -/
def adjTerm (ei : IVec S2x524288 32) : FVec Ideal S16384x16384 .bf16 :=
  truncf .bf16 (adjWide ei) bitsLt_bf16_f32

/-- The zero bias row: the constant 0 broadcast to [128] and reshaped to [1, 128]. -/
def zeroRow : FVec Ideal S1x128 .f32 :=
  shapeCast S1x128 (broadcastInDim S128 ![] bcast_S_S128 (constant (F := Ideal) S_ .f32 0x00000000#32)) shapeCasts_S128_S1x128

/-! ## The terms read at an index -/

theorem srcV_apply (ei : IVec S2x524288 32) (e : Fin 524288) : srcV ei (ix1 e) = ei (ix2 (0 : Fin 2) e) := by
  unfold srcV
  refine (shapeCast_1a_a_apply _ _ e).trans ?_
  exact slice2_axis0_apply 0 ei _ (0 : Fin 1) e (0 : Fin 2) rfl

theorem dstV_apply (ei : IVec S2x524288 32) (e : Fin 524288) : dstV ei (ix1 e) = ei (ix2 (1 : Fin 2) e) := by
  unfold dstV
  refine (shapeCast_1a_a_apply _ _ e).trans ?_
  exact slice2_axis0_apply 1 ei _ (0 : Fin 1) e (1 : Fin 2) rfl

/-- A non-negative node number is left as it is. -/
theorem normE_apply (x : IVec S524288 32) (e : Fin 524288) (h0 : 0 ≤ (x (ix1 e)).toInt) :
    normE x (ix1 e) = x (ix1 e) := by
  unfold normE
  rw [select_apply]
  show Scalar.select (IntOp.cmpi .slt (x (ix1 e)) (broadcastInDim S524288 ![] bcast_S_S524288 (constantI S_ 32 0#32) (ix1 e))) _ _ = _
  rw [bcast_scalar_apply]
  exact select_slt_zero _ _ h0

theorem normN_apply (x : IVec S16384 32) (i : Fin 16384) (h0 : 0 ≤ (x (ix1 i)).toInt) :
    normN x (ix1 i) = x (ix1 i) := by
  unfold normN
  rw [select_apply]
  show Scalar.select (IntOp.cmpi .slt (x (ix1 i)) (broadcastInDim S16384 ![] bcast_S_S16384 (constantI S_ 32 0#32) (ix1 i))) _ _ = _
  rw [bcast_scalar_apply]
  exact select_slt_zero _ _ h0

variable (ei : IVec S2x524288 32) (h : Cert.GcnBridge.InRange ei)

/-- The in-degree plus one. -/
theorem degV_apply (n : Fin 16384) : degV ei (ix1 n) = Cert.GcnSpec.deg (Cert.GcnBridge.dstOf ei h) n := by
  unfold degV Cert.GcnSpec.deg
  refine (addf_apply _ _ _).trans (add_congr' ?_ ?_)
  · rw [hostScatterAdd_eq]
    refine (Cert.LibScatterRows.hostScatterAdd_vec_apply scatter_S16384_S524288x1_S524288_n_0_0_1 rfl rfl rfl rfl _ _ _ n).trans
      (add_congr' ?_ ?_)
    · rw [bcast_scalar_apply, constant_apply]; exact ofBits_zero
    · refine Finset.sum_congr (Finset.filter_congr fun p _ => ?_) (fun p _ => ?_)
      · rw [bcast_col_apply (by decide), dstV_apply]
        exact Cert.GcnBridge.toInt_eq_iff _ (h _) n
      · rw [bcast_scalar_apply, constant_apply]; exact ofBits_one
  · rw [bcast_scalar_apply, constant_apply]; exact ofBits_one

theorem dinvV_apply (n : Fin 16384) : dinvV ei (ix1 n) = Cert.GcnSpec.dinv (Cert.GcnBridge.dstOf ei h) n := by
  unfold dinvV Cert.GcnSpec.dinv
  rw [hostRsqrt_apply, degV_apply ei h]

/-- dinv gathered by in-range node numbers reads dinv at the node the number names. -/
theorem gatherV_apply (x : IVec S524288 32) (e : Fin 524288)
    (hx : 0 ≤ (x (ix1 e)).toInt ∧ (x (ix1 e)).toInt < 16384) :
    gatherV ei x (ix1 e) = Cert.GcnSpec.dinv (Cert.GcnBridge.dstOf ei h) (Cert.GcnBridge.nodeOf (x (ix1 e)) hx) := by
  unfold gatherV
  refine (Cert.LibGatherRows.hostGather_vec_apply (by decide) gather_S16384_S524288x1_S524288_n_0_n_n_0_1_1
    rfl rfl rfl rfl rfl rfl rfl _ _ e).trans ?_
  rw [dinvV_apply ei h]
  congr 1
  refine Fin.ext ?_
  show min ((broadcastInDim S524288x1 ![0] bcast_S524288_S524288x1_0 (normE x)) (ix2 e (0 : Fin 1))).toInt.toNat (16384 - 1)
    = (x (ix1 e)).toInt.toNat
  rw [bcast_col_apply (by decide), normE_apply x e hx.1]
  have := hx.1; have := hx.2
  omega

theorem enormV_apply (e : Fin 524288) :
    enormV ei (ix1 e) = Cert.GcnSpec.enorm (Cert.GcnBridge.srcOf ei h) (Cert.GcnBridge.dstOf ei h) e := by
  unfold enormV Cert.GcnSpec.enorm
  rw [mulf_apply]
  have hs : 0 ≤ (srcV ei (ix1 e)).toInt ∧ (srcV ei (ix1 e)).toInt < 16384 := by rw [srcV_apply]; exact h _
  have hd : 0 ≤ (dstV ei (ix1 e)).toInt ∧ (dstV ei (ix1 e)).toInt < 16384 := by rw [dstV_apply]; exact h _
  rw [gatherV_apply ei h _ e hs, gatherV_apply ei h _ e hd]
  congr 2
  · unfold Cert.GcnBridge.srcOf; congr 1; exact srcV_apply ei e
  · unfold Cert.GcnBridge.dstOf; congr 1; exact dstV_apply ei e

theorem pairsE_zero (ei : IVec S2x524288 32) (h : Cert.GcnBridge.InRange ei) (e : Fin 524288) :
    pairsE ei (ix2 e (0 : Fin 2)) = ei (ix2 (1 : Fin 2) e) := by
  have h0 : 0 ≤ (dstV ei (ix1 e)).toInt := by rw [dstV_apply]; exact (h _).1
  unfold pairsE
  rw [concat_cols_zero, bcast_col_apply (by decide), normE_apply (dstV ei) e h0, dstV_apply]

theorem pairsE_one (ei : IVec S2x524288 32) (h : Cert.GcnBridge.InRange ei) (e : Fin 524288) :
    pairsE ei (ix2 e (1 : Fin 2)) = ei (ix2 (0 : Fin 2) e) := by
  have h0 : 0 ≤ (srcV ei (ix1 e)).toInt := by rw [srcV_apply]; exact (h _).1
  unfold pairsE
  rw [concat_cols_one, bcast_col_apply (by decide), normE_apply (srcV ei) e h0, srcV_apply]

theorem iota_toInt (i : Fin 16384) : ((iotaInDim S16384 32 0 : IVec S16384 32) (ix1 i)).toInt = (i.val : Int) :=
  toInt_ofNat_node i.val i.isLt

theorem pairsN_zero (i : Fin 16384) : (pairsN (ix2 i (0 : Fin 2))).toInt = (i.val : Int) := by
  have h0 : 0 ≤ ((iotaInDim S16384 32 0 : IVec S16384 32) (ix1 i)).toInt := by rw [iota_toInt]; omega
  unfold pairsN
  rw [concat_cols_zero, bcast_col_apply (by decide), normN_apply (iotaInDim S16384 32 0) i h0, iota_toInt]

theorem pairsN_one (i : Fin 16384) : (pairsN (ix2 i (1 : Fin 2))).toInt = (i.val : Int) := by
  have h0 : 0 ≤ ((iotaInDim S16384 32 0 : IVec S16384 32) (ix1 i)).toInt := by rw [iota_toInt]; omega
  unfold pairsN
  rw [concat_cols_one, bcast_col_apply (by decide), normN_apply (iotaInDim S16384 32 0) i h0, iota_toInt]

/-- The operations' term read at one element is the specification's operator. -/
theorem adjTerm_apply (n m : Fin 16384) :
    adjTerm ei (ix2 n m) = Cert.GcnSpec.Ahat (Cert.GcnBridge.srcOf ei h) (Cert.GcnBridge.dstOf ei h) n m := by
  unfold adjTerm Cert.GcnSpec.Ahat
  rw [truncf_apply]
  unfold adjWide
  rw [hostScatterAdd_eq]
  refine (Cert.LibScatterPairs.hostScatterAdd_pairs_apply scatter_S16384x16384_S16384x2_S16384_n_01_01_1
    rfl rfl rfl rfl _ _ _ n m).trans (add_congr' ?_ ?_)
  · unfold edgesV
    rw [hostScatterAdd_eq]
    refine (Cert.LibScatterPairs.hostScatterAdd_pairs_apply scatter_S16384x16384_S524288x2_S524288_n_01_01_1
      rfl rfl rfl rfl _ _ _ n m).trans (add_congr' ?_ ?_)
    · rw [bcast_scalar_apply, constant_apply]; exact ofBits_zero
    · refine Finset.sum_congr (Finset.filter_congr fun p _ => ?_) (fun p _ => enormV_apply ei h p)
      rw [pairsE_zero ei h, pairsE_one ei h]
      exact and_congr (Cert.GcnBridge.toInt_eq_iff _ (h _) n) (Cert.GcnBridge.toInt_eq_iff _ (h _) m)
  · refine Finset.sum_congr (Finset.filter_congr fun i _ => ?_) (fun i _ => ?_)
    · rw [pairsN_zero, pairsN_one]
      constructor
      · rintro ⟨a, b⟩; exact ⟨Fin.ext (by omega), Fin.ext (by omega)⟩
      · rintro ⟨a, b⟩; subst a; subst b; exact ⟨rfl, rfl⟩
    · rw [mulf_apply, dinvV_apply ei h]

end Terms

end Cert.KernelIdeal.HostAdj

end
-- ==== Proof.KI.HostAdjRun.lean ====
/-
  The host operations before the first kernel launch, run: whatever the TensorCore's buffers hold, after these
  operations the buffer of the narrow-format adjacency holds the operations' composed term of the endpoint array's
  contents, and the buffer of the first bias row holds the zero row.
-/
import proofs.«127812_j6760278524061_1_alg».proof.Proof.Gen.KernelIdeal.Launch
import proofs.«127812_j6760278524061_1_alg».proof.Proof.KI.HostAdj
import Idealize.ShloMosaic.Lib.StableHlo.Run

set_option maxRecDepth 4096

noncomputable section

namespace Cert.KernelIdeal.HostAdj

open Idealize.ShloMosaic Idealize.ShloMosaic.StableHlo Cert.KernelIdeal

set_option maxHeartbeats 40000000 in
/-- After the host operations the adjacency buffer holds the operations' term of the endpoint array. -/
theorem after_hostOps0_adj (W : Valuation τ sig (Elt Ideal)) :
    (StableHlo.after (Cert.KernelIdeal.Gen.hostOps0 (F := Ideal)) W (Proc.devRef .tc main_v57) : FVec Ideal S16384x16384 .bf16)
      = adjTerm (W (Proc.devRef .tc main_arg1) : IVec S2x524288 32) := by
  after_results_simp
  rfl

set_option maxHeartbeats 40000000 in
/-- After the host operations the first bias row's buffer holds the zero row. -/
theorem after_hostOps0_zeroRow (W : Valuation τ sig (Elt Ideal)) :
    (StableHlo.after (Cert.KernelIdeal.Gen.hostOps0 (F := Ideal)) W (Proc.devRef .tc main_v59) : FVec Ideal S1x128 .f32)
      = zeroRow := by
  after_results_simp
  rfl

end Cert.KernelIdeal.HostAdj

end
-- ==== Proof.KI.HostRows.lean ====
/-
  What the short stretches of host operations between the kernel calls leave in the bias rows.

  Before an aggregation call the bias vector `b` of length `n` is reshaped to the row `[1, n]`: entry `(0, q)` of the
  row is `b q`. Before a linear-map call a row of zeros is made (the zero word broadcast to length `n`, reshaped to
  `[1, n]`): every entry is zero.
-/
import proofs.«127812_j6760278524061_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Cert.KernelIdeal Cert.KernelIdeal.Gen
open Idealize.ShloMosaic Idealize.ShloMosaic.TcCoe Idealize.ShloMosaic.ValueIdx Idealize.SL.Sem Idealize.ShloMosaic.StableHlo

/-- The bias row before call 1: the vector reshaped to one row. -/
theorem hostOps1_row (W : Valuation τ sig (Elt Ideal)) (q : Fin 128) :
    (StableHlo.after (hostOps1 (F := Ideal)) W (Proc.devRef .tc main_v61) : S1x128.Idx → EReal) (ix2 (0 : Fin 1) q)
      = (W (Proc.devRef .tc main_arg3) : S128.Idx → EReal) (ix1 q) := by
  have e : (StableHlo.after (hostOps1 (F := Ideal)) W (Proc.devRef .tc main_v61) : S1x128.Idx → EReal)
      = shapeCast S1x128 (W (Proc.devRef .tc main_arg3) : S128.Idx → EReal) shapeCasts_S128_S1x128 := by
    after_results; rfl
  rw [e]
  exact shapeCast_a_1a_apply _ _ _ _

/-- The row of zeros before call 2. -/
theorem hostOps2_zero (W : Valuation τ sig (Elt Ideal)) (q : Fin 64) :
    (StableHlo.after (hostOps2 (F := Ideal)) W (Proc.devRef .tc main_v64) : S1x64.Idx → EReal) (ix2 (0 : Fin 1) q) = (0 : EReal) := by
  have e : (StableHlo.after (hostOps2 (F := Ideal)) W (Proc.devRef .tc main_v64) : S1x64.Idx → EReal)
      = shapeCast S1x64 (broadcastInDim S64 ![] bcast_S_S64 (constant (F := Ideal) S_ .f32 0x00000000#32)) shapeCasts_S64_S1x64 := by
    after_results; rfl
  rw [e, shapeCast_a_1a_apply]
  exact Ideal.ofBits_zero_f32

/-- The bias row before call 3: the vector reshaped to one row. -/
theorem hostOps3_row (W : Valuation τ sig (Elt Ideal)) (q : Fin 64) :
    (StableHlo.after (hostOps3 (F := Ideal)) W (Proc.devRef .tc main_v66) : S1x64.Idx → EReal) (ix2 (0 : Fin 1) q)
      = (W (Proc.devRef .tc main_arg5) : S64.Idx → EReal) (ix1 q) := by
  have e : (StableHlo.after (hostOps3 (F := Ideal)) W (Proc.devRef .tc main_v66) : S1x64.Idx → EReal)
      = shapeCast S1x64 (W (Proc.devRef .tc main_arg5) : S64.Idx → EReal) shapeCasts_S64_S1x64 := by
    after_results; rfl
  rw [e]
  exact shapeCast_a_1a_apply _ _ _ _

/-- The row of zeros before call 4. -/
theorem hostOps4_zero (W : Valuation τ sig (Elt Ideal)) (q : Fin 128) :
    (StableHlo.after (hostOps4 (F := Ideal)) W (Proc.devRef .tc main_v69) : S1x128.Idx → EReal) (ix2 (0 : Fin 1) q) = (0 : EReal) := by
  have e : (StableHlo.after (hostOps4 (F := Ideal)) W (Proc.devRef .tc main_v69) : S1x128.Idx → EReal)
      = shapeCast S1x128 (broadcastInDim S128 ![] bcast_S_S128 (constant (F := Ideal) S_ .f32 0x00000000#32)) shapeCasts_S128_S1x128 := by
    after_results; rfl
  rw [e, shapeCast_a_1a_apply]
  exact Ideal.ofBits_zero_f32

/-- The bias row before call 5: the vector reshaped to one row. -/
theorem hostOps5_row (W : Valuation τ sig (Elt Ideal)) (q : Fin 128) :
    (StableHlo.after (hostOps5 (F := Ideal)) W (Proc.devRef .tc main_v71) : S1x128.Idx → EReal) (ix2 (0 : Fin 1) q)
      = (W (Proc.devRef .tc main_arg7) : S128.Idx → EReal) (ix1 q) := by
  have e : (StableHlo.after (hostOps5 (F := Ideal)) W (Proc.devRef .tc main_v71) : S1x128.Idx → EReal)
      = shapeCast S1x128 (W (Proc.devRef .tc main_arg7) : S128.Idx → EReal) shapeCasts_S128_S1x128 := by
    after_results; rfl
  rw [e]
  exact shapeCast_a_1a_apply _ _ _ _

/-- The row of zeros before call 6. -/
theorem hostOps6_zero (W : Valuation τ sig (Elt Ideal)) (q : Fin 256) :
    (StableHlo.after (hostOps6 (F := Ideal)) W (Proc.devRef .tc main_v74) : S1x256.Idx → EReal) (ix2 (0 : Fin 1) q) = (0 : EReal) := by
  have e : (StableHlo.after (hostOps6 (F := Ideal)) W (Proc.devRef .tc main_v74) : S1x256.Idx → EReal)
      = shapeCast S1x256 (broadcastInDim S256 ![] bcast_S_S256 (constant (F := Ideal) S_ .f32 0x00000000#32)) shapeCasts_S256_S1x256 := by
    after_results; rfl
  rw [e, shapeCast_a_1a_apply]
  exact Ideal.ofBits_zero_f32

/-- The bias row before call 7: the vector reshaped to one row. -/
theorem hostOps7_row (W : Valuation τ sig (Elt Ideal)) (q : Fin 256) :
    (StableHlo.after (hostOps7 (F := Ideal)) W (Proc.devRef .tc main_v76) : S1x256.Idx → EReal) (ix2 (0 : Fin 1) q)
      = (W (Proc.devRef .tc main_arg9) : S256.Idx → EReal) (ix1 q) := by
  have e : (StableHlo.after (hostOps7 (F := Ideal)) W (Proc.devRef .tc main_v76) : S1x256.Idx → EReal)
      = shapeCast S1x256 (W (Proc.devRef .tc main_arg9) : S256.Idx → EReal) shapeCasts_S256_S1x256 := by
    after_results; rfl
  rw [e]
  exact shapeCast_a_1a_apply _ _ _ _

/-- The row of zeros before call 8. -/
theorem hostOps8_zero (W : Valuation τ sig (Elt Ideal)) (q : Fin 64) :
    (StableHlo.after (hostOps8 (F := Ideal)) W (Proc.devRef .tc main_v79) : S1x64.Idx → EReal) (ix2 (0 : Fin 1) q) = (0 : EReal) := by
  have e : (StableHlo.after (hostOps8 (F := Ideal)) W (Proc.devRef .tc main_v79) : S1x64.Idx → EReal)
      = shapeCast S1x64 (broadcastInDim S64 ![] bcast_S_S64 (constant (F := Ideal) S_ .f32 0x00000000#32)) shapeCasts_S64_S1x64 := by
    after_results; rfl
  rw [e, shapeCast_a_1a_apply]
  exact Ideal.ofBits_zero_f32

/-- The bias row before call 9: the vector reshaped to one row. -/
theorem hostOps9_row (W : Valuation τ sig (Elt Ideal)) (q : Fin 64) :
    (StableHlo.after (hostOps9 (F := Ideal)) W (Proc.devRef .tc main_v81) : S1x64.Idx → EReal) (ix2 (0 : Fin 1) q)
      = (W (Proc.devRef .tc main_arg11) : S64.Idx → EReal) (ix1 q) := by
  have e : (StableHlo.after (hostOps9 (F := Ideal)) W (Proc.devRef .tc main_v81) : S1x64.Idx → EReal)
      = shapeCast S1x64 (W (Proc.devRef .tc main_arg11) : S64.Idx → EReal) shapeCasts_S64_S1x64 := by
    after_results; rfl
  rw [e]
  exact shapeCast_a_1a_apply _ _ _ _

end Cert.KernelIdeal.Fr

end
-- ==== Proof.KI.Compose.lean ====
/-
  The kernel program's results, layer by layer, as the specification's network over the dense operator.

  The host operations leave the dense operator `Â` (the specification's `Ahat` of the endpoint maps) in the adjacency
  buffer and rows of zeros / the bias vectors in the bias rows. A linear-map call leaves `(0 + X · W) + 0 = X · W`; an
  aggregation call leaves `Â · H + b`, rectified where the layer has a rectifier: with `H = X · W` that is the
  specification's layer over the dense arrangement. Every buffer a call reads still holds what the call (or host
  stretch) that produced it left, because nothing in between writes it. The last call leaves the Gram matrix of the
  structure decoder's rows.
-/
import proofs.«127812_j6760278524061_1_alg».proof.Proof.KI.RunW
import proofs.«127812_j6760278524061_1_alg».proof.Proof.KI.Final0
import proofs.«127812_j6760278524061_1_alg».proof.Proof.KI.Final1
import proofs.«127812_j6760278524061_1_alg».proof.Proof.KI.Final2
import proofs.«127812_j6760278524061_1_alg».proof.Proof.KI.Final3
import proofs.«127812_j6760278524061_1_alg».proof.Proof.KI.Final4
import proofs.«127812_j6760278524061_1_alg».proof.Proof.KI.Final5
import proofs.«127812_j6760278524061_1_alg».proof.Proof.KI.Final6
import proofs.«127812_j6760278524061_1_alg».proof.Proof.KI.Final7
import proofs.«127812_j6760278524061_1_alg».proof.Proof.KI.Final8
import proofs.«127812_j6760278524061_1_alg».proof.Proof.KI.Final9
import proofs.«127812_j6760278524061_1_alg».proof.Proof.KI.Final10
import proofs.«127812_j6760278524061_1_alg».proof.Proof.KI.HostAdjRun
import proofs.«127812_j6760278524061_1_alg».proof.Proof.KI.HostRows
import proofs.«127812_j6760278524061_1_alg».proof.Proof.Spec
import proofs.«127812_j6760278524061_1_alg».proof.Proof.Bridge

set_option maxRecDepth 16384

noncomputable section

namespace Cert.KernelIdeal.Fr

open Cert.KernelIdeal Cert.KernelIdeal.Gen Cert.KernelIdeal.HostAdj
open Idealize.ShloMosaic Idealize.ShloMosaic.TcCoe Idealize.ShloMosaic.ValueIdx Idealize.SL.Sem
open Cert.GcnBridge
open scoped BigOperators

variable (m : (ℓ : Loc nD τ sig) → Buf (Elt Ideal) ℓ) (ρ : Dev nD → PrngReg) (c : Dev nD)
variable (h : InRange (m ((c : Thread nD τ).loc main_arg1)))

/-! ## The specification's data, read off the launch memory -/

abbrev sE : Fin 524288 → Fin 16384 := srcOf (m ((c : Thread nD τ).loc main_arg1)) h
abbrev dE : Fin 524288 → Fin 16384 := dstOf (m ((c : Thread nD τ).loc main_arg1)) h
abbrev dn : Cert.GcnSpec.Agg 16384 := denseOf (m ((c : Thread nD τ).loc main_arg1)) h
abbrev X0 : Fin 16384 → Fin 256 → EReal := mat (m ((c : Thread nD τ).loc main_arg0))
abbrev Wg1 : Fin 256 → Fin 128 → EReal := mat (m ((c : Thread nD τ).loc main_arg2))
abbrev bg1 : Fin 128 → EReal := vec (m ((c : Thread nD τ).loc main_arg3))
abbrev Wg2 : Fin 128 → Fin 64 → EReal := mat (m ((c : Thread nD τ).loc main_arg4))
abbrev bg2 : Fin 64 → EReal := vec (m ((c : Thread nD τ).loc main_arg5))
abbrev Wa1 : Fin 64 → Fin 128 → EReal := mat (m ((c : Thread nD τ).loc main_arg6))
abbrev ba1 : Fin 128 → EReal := vec (m ((c : Thread nD τ).loc main_arg7))
abbrev Wa2 : Fin 128 → Fin 256 → EReal := mat (m ((c : Thread nD τ).loc main_arg8))
abbrev ba2 : Fin 256 → EReal := vec (m ((c : Thread nD τ).loc main_arg9))
abbrev Ws : Fin 64 → Fin 64 → EReal := mat (m ((c : Thread nD τ).loc main_arg10))
abbrev bs : Fin 64 → EReal := vec (m ((c : Thread nD τ).loc main_arg11))
abbrev H1 := Cert.GcnSpec.lin (X0 m c) (Wg1 m c)
abbrev Z1 := Cert.GcnSpec.layer (dn m c h) true (X0 m c) (Wg1 m c) (bg1 m c)
abbrev H2 := Cert.GcnSpec.lin (Z1 m c h) (Wg2 m c)
abbrev Z2 := Cert.GcnSpec.layer (dn m c h) true (Z1 m c h) (Wg2 m c) (bg2 m c)
abbrev H3 := Cert.GcnSpec.lin (Z2 m c h) (Wa1 m c)
abbrev A3 := Cert.GcnSpec.layer (dn m c h) true (Z2 m c h) (Wa1 m c) (ba1 m c)
abbrev H4 := Cert.GcnSpec.lin (A3 m c h) (Wa2 m c)
abbrev XR := Cert.GcnSpec.layer (dn m c h) false (A3 m c h) (Wa2 m c) (ba2 m c)
abbrev H5 := Cert.GcnSpec.lin (Z2 m c h) (Ws m c)
abbrev SV := Cert.GcnSpec.layer (dn m c h) true (Z2 m c h) (Ws m c) (bs m c)

/-- The first row of zeros, entry by entry. -/
theorem zeroRow_apply (q : Fin 128) : zeroRow (ix2 (0 : Fin 1) q) = (0 : EReal) := by
  unfold zeroRow
  rw [shapeCast_a_1a_apply]
  exact Ideal.ofBits_zero_f32

/-- The adjacency buffer holds the dense operator from the first host stretch on. -/
theorem adj_W1 (n r : Fin 16384) :
    (W1 m ρ c (Proc.devRef .tc main_v57) : S16384x16384.Idx → EReal) (ix2 n r) = Cert.GcnSpec.Ahat (sE m c h) (dE m c h) n r := by
  have e := after_hostOps0_adj (W0 m ρ c)
  exact (congrFun e (ix2 n r)).trans (adjTerm_apply _ h n r)

/-- Call 0 leaves the linear map of its layer. -/
theorem r0 (n : Fin 16384) (q : Fin 128) :
    (W2 m ρ c (Proc.devRef .tc main_v60) : S16384x128.Idx → EReal) (ix2 n q) = H1 m c n q := by
  rw [W2_out m ρ c, final0 (V1 m ρ) c]
  show g0 (V1 m ρ) c n q = _
  have ea : ∀ k : Fin 256, (V1 m ρ c main_arg0 : S16384x256.Idx → EReal) (ix2 n k) = X0 m c n k := fun k => congrFun ((W1_keep m ρ c main_arg0 (by decide))) (ix2 n k)
  have eb : ∀ k : Fin 256, (V1 m ρ c main_arg2 : S256x128.Idx → EReal) (ix2 k q) = Wg1 m c k q :=
    fun k => congrFun ((W1_keep m ρ c main_arg2 (by decide))) (ix2 k q)
  have ez : (V1 m ρ c main_v59 : S1x128.Idx → EReal) (ix2 (0 : Fin 1) q) = (0 : EReal) := (congrFun (after_hostOps0_zeroRow (W0 m ρ c)) (ix2 (0 : Fin 1) q)).trans (zeroRow_apply q)
  unfold g0
  exact (congrArg₂ (fun a b : EReal => (0 + a) + b)
    (Finset.sum_congr rfl (fun k _ => congrArg₂ (fun a b : EReal => a * b) (ea k) (eb k))) ez).trans
      ((add_zero _).trans (zero_add _))

/-- Call 1 leaves its layer over the dense operator. -/
theorem r1 (n : Fin 16384) (q : Fin 128) :
    (W4 m ρ c (Proc.devRef .tc main_v62) : S16384x128.Idx → EReal) (ix2 n q) = Z1 m c h n q := by
  rw [W4_out m ρ c, final1 (V3 m ρ) c]
  show g1 (V3 m ρ) c n q = _
  have ea : ∀ r : Fin 16384, (V3 m ρ c main_v57 : S16384x16384.Idx → EReal) (ix2 n r) = Cert.GcnSpec.Ahat (sE m c h) (dE m c h) n r :=
    fun r => (congrFun (((W3_keep m ρ c main_v57 (by decide)).trans (W2_keep m ρ c main_v57 (by decide)))) (ix2 n r)).trans (adj_W1 m ρ c h n r)
  have eh : ∀ r : Fin 16384, (V3 m ρ c main_v60 : S16384x128.Idx → EReal) (ix2 r q) = H1 m c r q :=
    fun r => (congrFun ((W3_keep m ρ c main_v60 (by decide))) (ix2 r q)).trans (r0 m ρ c r q)
  have eb : (V3 m ρ c main_v61 : S1x128.Idx → EReal) (ix2 (0 : Fin 1) q) = bg1 m c q :=
    (hostOps1_row (W2 m ρ c) q).trans (congrFun (((W2_keep m ρ c main_arg3 (by decide)).trans (W1_keep m ρ c main_arg3 (by decide)))) (ix1 q))
  unfold g1
  exact congrArg₂ (fun a b : EReal => max (a + b) 0)
    (Finset.sum_congr rfl (fun r _ => congrArg₂ (fun a b : EReal => a * b) (ea r) (eh r))) eb

/-- Call 2 leaves the linear map of its layer. -/
theorem r2 (n : Fin 16384) (q : Fin 64) :
    (W6 m ρ c (Proc.devRef .tc main_v65) : S16384x64.Idx → EReal) (ix2 n q) = H2 m c h n q := by
  rw [W6_out m ρ c, final2 (V5 m ρ) c]
  show g2 (V5 m ρ) c n q = _
  have ea : ∀ k : Fin 128, (V5 m ρ c main_v62 : S16384x128.Idx → EReal) (ix2 n k) = Z1 m c h n k := fun k => (congrFun ((W5_keep m ρ c main_v62 (by decide))) (ix2 n k)).trans (r1 m ρ c h n k)
  have eb : ∀ k : Fin 128, (V5 m ρ c main_arg4 : S128x64.Idx → EReal) (ix2 k q) = Wg2 m c k q :=
    fun k => congrFun (((W5_keep m ρ c main_arg4 (by decide)).trans ((W4_keep m ρ c main_arg4 (by decide)).trans ((W3_keep m ρ c main_arg4 (by decide)).trans ((W2_keep m ρ c main_arg4 (by decide)).trans (W1_keep m ρ c main_arg4 (by decide))))))) (ix2 k q)
  have ez : (V5 m ρ c main_v64 : S1x64.Idx → EReal) (ix2 (0 : Fin 1) q) = (0 : EReal) := hostOps2_zero (W4 m ρ c) q
  unfold g2
  exact (congrArg₂ (fun a b : EReal => (0 + a) + b)
    (Finset.sum_congr rfl (fun k _ => congrArg₂ (fun a b : EReal => a * b) (ea k) (eb k))) ez).trans
      ((add_zero _).trans (zero_add _))

/-- Call 3 leaves its layer over the dense operator. -/
theorem r3 (n : Fin 16384) (q : Fin 64) :
    (W8 m ρ c (Proc.devRef .tc main_v67) : S16384x64.Idx → EReal) (ix2 n q) = Z2 m c h n q := by
  rw [W8_out m ρ c, final3 (V7 m ρ) c]
  show g3 (V7 m ρ) c n q = _
  have ea : ∀ r : Fin 16384, (V7 m ρ c main_v57 : S16384x16384.Idx → EReal) (ix2 n r) = Cert.GcnSpec.Ahat (sE m c h) (dE m c h) n r :=
    fun r => (congrFun (((W7_keep m ρ c main_v57 (by decide)).trans ((W6_keep m ρ c main_v57 (by decide)).trans ((W5_keep m ρ c main_v57 (by decide)).trans ((W4_keep m ρ c main_v57 (by decide)).trans ((W3_keep m ρ c main_v57 (by decide)).trans (W2_keep m ρ c main_v57 (by decide)))))))) (ix2 n r)).trans (adj_W1 m ρ c h n r)
  have eh : ∀ r : Fin 16384, (V7 m ρ c main_v65 : S16384x64.Idx → EReal) (ix2 r q) = H2 m c h r q :=
    fun r => (congrFun ((W7_keep m ρ c main_v65 (by decide))) (ix2 r q)).trans (r2 m ρ c h r q)
  have eb : (V7 m ρ c main_v66 : S1x64.Idx → EReal) (ix2 (0 : Fin 1) q) = bg2 m c q :=
    (hostOps3_row (W6 m ρ c) q).trans (congrFun (((W6_keep m ρ c main_arg5 (by decide)).trans ((W5_keep m ρ c main_arg5 (by decide)).trans ((W4_keep m ρ c main_arg5 (by decide)).trans ((W3_keep m ρ c main_arg5 (by decide)).trans ((W2_keep m ρ c main_arg5 (by decide)).trans (W1_keep m ρ c main_arg5 (by decide)))))))) (ix1 q))
  unfold g3
  exact congrArg₂ (fun a b : EReal => max (a + b) 0)
    (Finset.sum_congr rfl (fun r _ => congrArg₂ (fun a b : EReal => a * b) (ea r) (eh r))) eb

/-- Call 4 leaves the linear map of its layer. -/
theorem r4 (n : Fin 16384) (q : Fin 128) :
    (W10 m ρ c (Proc.devRef .tc main_v70) : S16384x128.Idx → EReal) (ix2 n q) = H3 m c h n q := by
  rw [W10_out m ρ c, final4 (V9 m ρ) c]
  show g4 (V9 m ρ) c n q = _
  have ea : ∀ k : Fin 64, (V9 m ρ c main_v67 : S16384x64.Idx → EReal) (ix2 n k) = Z2 m c h n k := fun k => (congrFun ((W9_keep m ρ c main_v67 (by decide))) (ix2 n k)).trans (r3 m ρ c h n k)
  have eb : ∀ k : Fin 64, (V9 m ρ c main_arg6 : S64x128.Idx → EReal) (ix2 k q) = Wa1 m c k q :=
    fun k => congrFun (((W9_keep m ρ c main_arg6 (by decide)).trans ((W8_keep m ρ c main_arg6 (by decide)).trans ((W7_keep m ρ c main_arg6 (by decide)).trans ((W6_keep m ρ c main_arg6 (by decide)).trans ((W5_keep m ρ c main_arg6 (by decide)).trans ((W4_keep m ρ c main_arg6 (by decide)).trans ((W3_keep m ρ c main_arg6 (by decide)).trans ((W2_keep m ρ c main_arg6 (by decide)).trans (W1_keep m ρ c main_arg6 (by decide))))))))))) (ix2 k q)
  have ez : (V9 m ρ c main_v69 : S1x128.Idx → EReal) (ix2 (0 : Fin 1) q) = (0 : EReal) := hostOps4_zero (W8 m ρ c) q
  unfold g4
  exact (congrArg₂ (fun a b : EReal => (0 + a) + b)
    (Finset.sum_congr rfl (fun k _ => congrArg₂ (fun a b : EReal => a * b) (ea k) (eb k))) ez).trans
      ((add_zero _).trans (zero_add _))

/-- Call 5 leaves its layer over the dense operator. -/
theorem r5 (n : Fin 16384) (q : Fin 128) :
    (W12 m ρ c (Proc.devRef .tc main_v72) : S16384x128.Idx → EReal) (ix2 n q) = A3 m c h n q := by
  rw [W12_out m ρ c, final5 (V11 m ρ) c]
  show g5 (V11 m ρ) c n q = _
  have ea : ∀ r : Fin 16384, (V11 m ρ c main_v57 : S16384x16384.Idx → EReal) (ix2 n r) = Cert.GcnSpec.Ahat (sE m c h) (dE m c h) n r :=
    fun r => (congrFun (((W11_keep m ρ c main_v57 (by decide)).trans ((W10_keep m ρ c main_v57 (by decide)).trans ((W9_keep m ρ c main_v57 (by decide)).trans ((W8_keep m ρ c main_v57 (by decide)).trans ((W7_keep m ρ c main_v57 (by decide)).trans ((W6_keep m ρ c main_v57 (by decide)).trans ((W5_keep m ρ c main_v57 (by decide)).trans ((W4_keep m ρ c main_v57 (by decide)).trans ((W3_keep m ρ c main_v57 (by decide)).trans (W2_keep m ρ c main_v57 (by decide)))))))))))) (ix2 n r)).trans (adj_W1 m ρ c h n r)
  have eh : ∀ r : Fin 16384, (V11 m ρ c main_v70 : S16384x128.Idx → EReal) (ix2 r q) = H3 m c h r q :=
    fun r => (congrFun ((W11_keep m ρ c main_v70 (by decide))) (ix2 r q)).trans (r4 m ρ c h r q)
  have eb : (V11 m ρ c main_v71 : S1x128.Idx → EReal) (ix2 (0 : Fin 1) q) = ba1 m c q :=
    (hostOps5_row (W10 m ρ c) q).trans (congrFun (((W10_keep m ρ c main_arg7 (by decide)).trans ((W9_keep m ρ c main_arg7 (by decide)).trans ((W8_keep m ρ c main_arg7 (by decide)).trans ((W7_keep m ρ c main_arg7 (by decide)).trans ((W6_keep m ρ c main_arg7 (by decide)).trans ((W5_keep m ρ c main_arg7 (by decide)).trans ((W4_keep m ρ c main_arg7 (by decide)).trans ((W3_keep m ρ c main_arg7 (by decide)).trans ((W2_keep m ρ c main_arg7 (by decide)).trans (W1_keep m ρ c main_arg7 (by decide)))))))))))) (ix1 q))
  unfold g5
  exact congrArg₂ (fun a b : EReal => max (a + b) 0)
    (Finset.sum_congr rfl (fun r _ => congrArg₂ (fun a b : EReal => a * b) (ea r) (eh r))) eb

/-- Call 6 leaves the linear map of its layer. -/
theorem r6 (n : Fin 16384) (q : Fin 256) :
    (W14 m ρ c (Proc.devRef .tc main_v75) : S16384x256.Idx → EReal) (ix2 n q) = H4 m c h n q := by
  rw [W14_out m ρ c, final6 (V13 m ρ) c]
  show g6 (V13 m ρ) c n q = _
  have ea : ∀ k : Fin 128, (V13 m ρ c main_v72 : S16384x128.Idx → EReal) (ix2 n k) = A3 m c h n k := fun k => (congrFun ((W13_keep m ρ c main_v72 (by decide))) (ix2 n k)).trans (r5 m ρ c h n k)
  have eb : ∀ k : Fin 128, (V13 m ρ c main_arg8 : S128x256.Idx → EReal) (ix2 k q) = Wa2 m c k q :=
    fun k => congrFun (((W13_keep m ρ c main_arg8 (by decide)).trans ((W12_keep m ρ c main_arg8 (by decide)).trans ((W11_keep m ρ c main_arg8 (by decide)).trans ((W10_keep m ρ c main_arg8 (by decide)).trans ((W9_keep m ρ c main_arg8 (by decide)).trans ((W8_keep m ρ c main_arg8 (by decide)).trans ((W7_keep m ρ c main_arg8 (by decide)).trans ((W6_keep m ρ c main_arg8 (by decide)).trans ((W5_keep m ρ c main_arg8 (by decide)).trans ((W4_keep m ρ c main_arg8 (by decide)).trans ((W3_keep m ρ c main_arg8 (by decide)).trans ((W2_keep m ρ c main_arg8 (by decide)).trans (W1_keep m ρ c main_arg8 (by decide))))))))))))))) (ix2 k q)
  have ez : (V13 m ρ c main_v74 : S1x256.Idx → EReal) (ix2 (0 : Fin 1) q) = (0 : EReal) := hostOps6_zero (W12 m ρ c) q
  unfold g6
  exact (congrArg₂ (fun a b : EReal => (0 + a) + b)
    (Finset.sum_congr rfl (fun k _ => congrArg₂ (fun a b : EReal => a * b) (ea k) (eb k))) ez).trans
      ((add_zero _).trans (zero_add _))

/-- Call 7 leaves its layer over the dense operator. -/
theorem r7 (n : Fin 16384) (q : Fin 256) :
    (W16 m ρ c (Proc.devRef .tc main_v77) : S16384x256.Idx → EReal) (ix2 n q) = XR m c h n q := by
  rw [W16_out m ρ c, final7 (V15 m ρ) c]
  show g7 (V15 m ρ) c n q = _
  have ea : ∀ r : Fin 16384, (V15 m ρ c main_v57 : S16384x16384.Idx → EReal) (ix2 n r) = Cert.GcnSpec.Ahat (sE m c h) (dE m c h) n r :=
    fun r => (congrFun (((W15_keep m ρ c main_v57 (by decide)).trans ((W14_keep m ρ c main_v57 (by decide)).trans ((W13_keep m ρ c main_v57 (by decide)).trans ((W12_keep m ρ c main_v57 (by decide)).trans ((W11_keep m ρ c main_v57 (by decide)).trans ((W10_keep m ρ c main_v57 (by decide)).trans ((W9_keep m ρ c main_v57 (by decide)).trans ((W8_keep m ρ c main_v57 (by decide)).trans ((W7_keep m ρ c main_v57 (by decide)).trans ((W6_keep m ρ c main_v57 (by decide)).trans ((W5_keep m ρ c main_v57 (by decide)).trans ((W4_keep m ρ c main_v57 (by decide)).trans ((W3_keep m ρ c main_v57 (by decide)).trans (W2_keep m ρ c main_v57 (by decide)))))))))))))))) (ix2 n r)).trans (adj_W1 m ρ c h n r)
  have eh : ∀ r : Fin 16384, (V15 m ρ c main_v75 : S16384x256.Idx → EReal) (ix2 r q) = H4 m c h r q :=
    fun r => (congrFun ((W15_keep m ρ c main_v75 (by decide))) (ix2 r q)).trans (r6 m ρ c h r q)
  have eb : (V15 m ρ c main_v76 : S1x256.Idx → EReal) (ix2 (0 : Fin 1) q) = ba2 m c q :=
    (hostOps7_row (W14 m ρ c) q).trans (congrFun (((W14_keep m ρ c main_arg9 (by decide)).trans ((W13_keep m ρ c main_arg9 (by decide)).trans ((W12_keep m ρ c main_arg9 (by decide)).trans ((W11_keep m ρ c main_arg9 (by decide)).trans ((W10_keep m ρ c main_arg9 (by decide)).trans ((W9_keep m ρ c main_arg9 (by decide)).trans ((W8_keep m ρ c main_arg9 (by decide)).trans ((W7_keep m ρ c main_arg9 (by decide)).trans ((W6_keep m ρ c main_arg9 (by decide)).trans ((W5_keep m ρ c main_arg9 (by decide)).trans ((W4_keep m ρ c main_arg9 (by decide)).trans ((W3_keep m ρ c main_arg9 (by decide)).trans ((W2_keep m ρ c main_arg9 (by decide)).trans (W1_keep m ρ c main_arg9 (by decide)))))))))))))))) (ix1 q))
  unfold g7
  exact congrArg₂ (fun a b : EReal => a + b)
    (Finset.sum_congr rfl (fun r _ => congrArg₂ (fun a b : EReal => a * b) (ea r) (eh r))) eb

/-- Call 8 leaves the linear map of its layer. -/
theorem r8 (n : Fin 16384) (q : Fin 64) :
    (W18 m ρ c (Proc.devRef .tc main_v80) : S16384x64.Idx → EReal) (ix2 n q) = H5 m c h n q := by
  rw [W18_out m ρ c, final8 (V17 m ρ) c]
  show g8 (V17 m ρ) c n q = _
  have ea : ∀ k : Fin 64, (V17 m ρ c main_v67 : S16384x64.Idx → EReal) (ix2 n k) = Z2 m c h n k := fun k => (congrFun (((W17_keep m ρ c main_v67 (by decide)).trans ((W16_keep m ρ c main_v67 (by decide)).trans ((W15_keep m ρ c main_v67 (by decide)).trans ((W14_keep m ρ c main_v67 (by decide)).trans ((W13_keep m ρ c main_v67 (by decide)).trans ((W12_keep m ρ c main_v67 (by decide)).trans ((W11_keep m ρ c main_v67 (by decide)).trans ((W10_keep m ρ c main_v67 (by decide)).trans (W9_keep m ρ c main_v67 (by decide))))))))))) (ix2 n k)).trans (r3 m ρ c h n k)
  have eb : ∀ k : Fin 64, (V17 m ρ c main_arg10 : S64x64.Idx → EReal) (ix2 k q) = Ws m c k q :=
    fun k => congrFun (((W17_keep m ρ c main_arg10 (by decide)).trans ((W16_keep m ρ c main_arg10 (by decide)).trans ((W15_keep m ρ c main_arg10 (by decide)).trans ((W14_keep m ρ c main_arg10 (by decide)).trans ((W13_keep m ρ c main_arg10 (by decide)).trans ((W12_keep m ρ c main_arg10 (by decide)).trans ((W11_keep m ρ c main_arg10 (by decide)).trans ((W10_keep m ρ c main_arg10 (by decide)).trans ((W9_keep m ρ c main_arg10 (by decide)).trans ((W8_keep m ρ c main_arg10 (by decide)).trans ((W7_keep m ρ c main_arg10 (by decide)).trans ((W6_keep m ρ c main_arg10 (by decide)).trans ((W5_keep m ρ c main_arg10 (by decide)).trans ((W4_keep m ρ c main_arg10 (by decide)).trans ((W3_keep m ρ c main_arg10 (by decide)).trans ((W2_keep m ρ c main_arg10 (by decide)).trans (W1_keep m ρ c main_arg10 (by decide))))))))))))))))))) (ix2 k q)
  have ez : (V17 m ρ c main_v79 : S1x64.Idx → EReal) (ix2 (0 : Fin 1) q) = (0 : EReal) := hostOps8_zero (W16 m ρ c) q
  unfold g8
  exact (congrArg₂ (fun a b : EReal => (0 + a) + b)
    (Finset.sum_congr rfl (fun k _ => congrArg₂ (fun a b : EReal => a * b) (ea k) (eb k))) ez).trans
      ((add_zero _).trans (zero_add _))

/-- Call 9 leaves its layer over the dense operator. -/
theorem r9 (n : Fin 16384) (q : Fin 64) :
    (W20 m ρ c (Proc.devRef .tc main_v82) : S16384x64.Idx → EReal) (ix2 n q) = SV m c h n q := by
  rw [W20_out m ρ c, final9 (V19 m ρ) c]
  show g9 (V19 m ρ) c n q = _
  have ea : ∀ r : Fin 16384, (V19 m ρ c main_v57 : S16384x16384.Idx → EReal) (ix2 n r) = Cert.GcnSpec.Ahat (sE m c h) (dE m c h) n r :=
    fun r => (congrFun (((W19_keep m ρ c main_v57 (by decide)).trans ((W18_keep m ρ c main_v57 (by decide)).trans ((W17_keep m ρ c main_v57 (by decide)).trans ((W16_keep m ρ c main_v57 (by decide)).trans ((W15_keep m ρ c main_v57 (by decide)).trans ((W14_keep m ρ c main_v57 (by decide)).trans ((W13_keep m ρ c main_v57 (by decide)).trans ((W12_keep m ρ c main_v57 (by decide)).trans ((W11_keep m ρ c main_v57 (by decide)).trans ((W10_keep m ρ c main_v57 (by decide)).trans ((W9_keep m ρ c main_v57 (by decide)).trans ((W8_keep m ρ c main_v57 (by decide)).trans ((W7_keep m ρ c main_v57 (by decide)).trans ((W6_keep m ρ c main_v57 (by decide)).trans ((W5_keep m ρ c main_v57 (by decide)).trans ((W4_keep m ρ c main_v57 (by decide)).trans ((W3_keep m ρ c main_v57 (by decide)).trans (W2_keep m ρ c main_v57 (by decide)))))))))))))))))))) (ix2 n r)).trans (adj_W1 m ρ c h n r)
  have eh : ∀ r : Fin 16384, (V19 m ρ c main_v80 : S16384x64.Idx → EReal) (ix2 r q) = H5 m c h r q :=
    fun r => (congrFun ((W19_keep m ρ c main_v80 (by decide))) (ix2 r q)).trans (r8 m ρ c h r q)
  have eb : (V19 m ρ c main_v81 : S1x64.Idx → EReal) (ix2 (0 : Fin 1) q) = bs m c q :=
    (hostOps9_row (W18 m ρ c) q).trans (congrFun (((W18_keep m ρ c main_arg11 (by decide)).trans ((W17_keep m ρ c main_arg11 (by decide)).trans ((W16_keep m ρ c main_arg11 (by decide)).trans ((W15_keep m ρ c main_arg11 (by decide)).trans ((W14_keep m ρ c main_arg11 (by decide)).trans ((W13_keep m ρ c main_arg11 (by decide)).trans ((W12_keep m ρ c main_arg11 (by decide)).trans ((W11_keep m ρ c main_arg11 (by decide)).trans ((W10_keep m ρ c main_arg11 (by decide)).trans ((W9_keep m ρ c main_arg11 (by decide)).trans ((W8_keep m ρ c main_arg11 (by decide)).trans ((W7_keep m ρ c main_arg11 (by decide)).trans ((W6_keep m ρ c main_arg11 (by decide)).trans ((W5_keep m ρ c main_arg11 (by decide)).trans ((W4_keep m ρ c main_arg11 (by decide)).trans ((W3_keep m ρ c main_arg11 (by decide)).trans ((W2_keep m ρ c main_arg11 (by decide)).trans (W1_keep m ρ c main_arg11 (by decide)))))))))))))))))))) (ix1 q))
  unfold g9
  exact congrArg₂ (fun a b : EReal => max (a + b) 0)
    (Finset.sum_congr rfl (fun r _ => congrArg₂ (fun a b : EReal => a * b) (ea r) (eh r))) eb

/-- The last call leaves the Gram matrix of the structure decoder's rows. -/
theorem r10 (n k : Fin 16384) :
    (W21 m ρ c (Proc.devRef .tc main_v83) : S16384x16384.Idx → EReal) (ix2 n k) = ∑ j : Fin 64, SV m c h n j * SV m c h k j := by
  rw [W21_out m ρ c, final10 (V20 m ρ) c]
  show g10 (V20 m ρ) c n k = _
  unfold g10
  exact Finset.sum_congr rfl (fun j _ => congrArg₂ (fun a b : EReal => a * b) (r9 m ρ c h n j) (r9 m ρ c h k j))

/-- THE RESULTS: the reconstructed attributes and the reconstructed adjacency, over the dense operator. -/
theorem kernel_xrec (n : Fin 16384) (k : Fin 256) :
    (W21 m ρ c (Proc.devRef .tc main_v77) : S16384x256.Idx → EReal) (ix2 n k)
      = Cert.GcnSpec.xrec (dn m c h) (params (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (X0 m c) n k :=
  (congrFun (((W21_keep m ρ c main_v77 (by decide)).trans ((W20_keep m ρ c main_v77 (by decide)).trans ((W19_keep m ρ c main_v77 (by decide)).trans ((W18_keep m ρ c main_v77 (by decide)).trans (W17_keep m ρ c main_v77 (by decide))))))) (ix2 n k)).trans (r7 m ρ c h n k)

theorem kernel_adj (n k : Fin 16384) :
    (W21 m ρ c (Proc.devRef .tc main_v83) : S16384x16384.Idx → EReal) (ix2 n k)
      = Cert.GcnSpec.adjrec (dn m c h) (params (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (X0 m c) n k :=
  r10 m ρ c h n k

end Cert.KernelIdeal.Fr

end
-- ==== Proof.RefOps.lean ====
/-
  The reference's index-dependent operations under the endpoint array's range condition.

  Every endpoint of an in-range endpoint array, read signed, is a node number in [0, 16384). Then
    * the index normalisation a gather is preceded by (a negative index has 16384 added) changes nothing;
    * a gather by such an index reads exactly the named node's row (the clamp into [0, 16383] is the identity);
    * an accumulating scatter by the destination row collects, at node r, exactly the edges whose destination is r.
-/
import proofs.«127812_j6760278524061_1_alg».proof.Proof.Bridge
import proofs.«127812_j6760278524061_1_alg».proof.Proof.LibGatherRows
import proofs.«127812_j6760278524061_1_alg».proof.Proof.LibScatterRows
import Idealize.ShloMosaic.PureOps.Ideal.Laws

noncomputable section

namespace Cert.ReferenceIdeal.RefValue

open Idealize.ShloMosaic Idealize.ShloMosaic.ValueIdx Cert.GcnBridge
open scoped BigOperators

/-- The f32 word of one is the extended real one. -/
theorem ofBits_one_f32 : Ideal.ofBits .f32 0x3F800000#32 = 1 := by
  simp [Ideal.ofBits, Ideal.ieee, -EReal.coe_mul]; norm_num

/-- Adding 16384 to a negative index: a non-negative index is left alone. -/
theorem norm_id (a : BitVec 32) (h : 0 ≤ a.toInt) :
    Scalar.select (IntOp.cmpi .slt a 0#32) (IntOp.addi a 16384#32) a = a := by
  have hs : a.slt 0#32 = false := by
    rw [BitVec.slt, decide_eq_false_iff_not, BitVec.toInt_zero]
    omega
  unfold Scalar.select IntOp.cmpi
  simp only [hs]
  rfl

section Gather
variable {α : Type}

/-- A vector's elements gathered by an in-range index: element e is the operand at the node the index names. -/
theorem gather_vec_node
    (d : GatherDims (⟨1, ![16384]⟩ : Shape) (⟨2, ![524288, 1]⟩ : Shape) (⟨1, ![524288]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![16384]⟩ : Shape).Idx → α) (idx : IVec (⟨2, ![524288, 1]⟩ : Shape) 32) (e : Fin 524288)
    (v : BitVec 32) (hv : 0 ≤ v.toInt ∧ v.toInt < 16384) (hidx : idx (ix2 e (0 : Fin 1)) = v) :
    Host.gather d x idx (ix1 e) = x (ix1 (nodeOf v hv)) := by
  rw [Cert.LibGatherRows.hostGather_vec_apply (by norm_num) d hod hcs hob hsb hsm hiv hss x idx e]
  congr 2
  refine Fin.ext ?_
  show min (idx (ix2 e (0 : Fin 1))).toInt.toNat (16384 - 1) = v.toInt.toNat
  rw [hidx]
  have := hv.1; have := hv.2
  omega

/-- Rows gathered by an in-range index: row e is the operand's row at the node the index names. -/
theorem gather_rows_node {K : Nat}
    (d : GatherDims (⟨2, ![16384, K]⟩ : Shape) (⟨2, ![524288, 1]⟩ : Shape) (⟨2, ![524288, K]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, K])
    (x : (⟨2, ![16384, K]⟩ : Shape).Idx → α) (idx : IVec (⟨2, ![524288, 1]⟩ : Shape) 32) (e : Fin 524288) (k : Fin K)
    (v : BitVec 32) (hv : 0 ≤ v.toInt ∧ v.toInt < 16384) (hidx : idx (ix2 e (0 : Fin 1)) = v) :
    Host.gather d x idx (ix2 e k) = x (ix2 (nodeOf v hv) k) := by
  rw [Cert.LibGatherRows.hostGather_rows_apply (by norm_num) d hod hcs hob hsb hsm hiv hss x idx e k]
  congr 2
  refine Fin.ext ?_
  show min (idx (ix2 e (0 : Fin 1))).toInt.toNat (16384 - 1) = v.toInt.toNat
  rw [hidx]
  have := hv.1; have := hv.2
  omega

end Gather

section Scatter

/-- A vector scattered by the destination row of an in-range endpoint array: node r collects the edges into r. -/
theorem scatter_vec_dst
    (d : ScatterDims (⟨1, ![16384]⟩ : Shape) (⟨2, ![524288, 1]⟩ : Shape) (⟨1, ![524288]⟩ : Shape))
    (huw : d.updateWindowDims = []) (hiw : d.insertedWindowDims = [0]) (hsd : d.scatterDimsToOperandDims = [0])
    (hiv : d.indexVectorDim = 1)
    (ei : (⟨2, ![2, 524288]⟩ : Shape).Idx → BitVec 32) (h : InRange ei)
    (x : (⟨1, ![16384]⟩ : Shape).Idx → EReal) (idx : IVec (⟨2, ![524288, 1]⟩ : Shape) 32)
    (hidx : ∀ p : Fin 524288, idx (ix2 p (0 : Fin 1)) = ei (ix2 (1 : Fin 2) p))
    (upd : (⟨1, ![524288]⟩ : Shape).Idx → EReal) (r : Fin 16384) :
    Ideal.hostScatterAdd d x idx upd (ix1 r)
      = x (ix1 r) + ∑ p ∈ Finset.univ.filter (fun p : Fin 524288 => dstOf ei h p = r), upd (ix1 p) := by
  rw [Cert.LibScatterRows.hostScatterAdd_vec_apply d huw hiw hsd hiv x idx upd r]
  refine congrArg (fun t => x (ix1 r) + t) ?_
  refine Finset.sum_congr (Finset.filter_congr fun p _ => ?_) (fun _ _ => rfl)
  rw [hidx p]
  exact toInt_eq_iff _ (h _) r

/-- Rows scattered by the destination row of an in-range endpoint array: node r collects the rows of the edges into r. -/
theorem scatter_rows_dst {K : Nat}
    (d : ScatterDims (⟨2, ![16384, K]⟩ : Shape) (⟨2, ![524288, 1]⟩ : Shape) (⟨2, ![524288, K]⟩ : Shape))
    (huw : d.updateWindowDims = [1]) (hiw : d.insertedWindowDims = [0]) (hsd : d.scatterDimsToOperandDims = [0])
    (hiv : d.indexVectorDim = 1)
    (ei : (⟨2, ![2, 524288]⟩ : Shape).Idx → BitVec 32) (h : InRange ei)
    (x : (⟨2, ![16384, K]⟩ : Shape).Idx → EReal) (idx : IVec (⟨2, ![524288, 1]⟩ : Shape) 32)
    (hidx : ∀ p : Fin 524288, idx (ix2 p (0 : Fin 1)) = ei (ix2 (1 : Fin 2) p))
    (upd : (⟨2, ![524288, K]⟩ : Shape).Idx → EReal) (r : Fin 16384) (k : Fin K) :
    Ideal.hostScatterAdd d x idx upd (ix2 r k)
      = x (ix2 r k) + ∑ p ∈ Finset.univ.filter (fun p : Fin 524288 => dstOf ei h p = r), upd (ix2 p k) := by
  rw [Cert.LibScatterRows.hostScatterAdd_rows_apply d huw hiw hsd hiv x idx upd r k]
  refine congrArg (fun t => x (ix2 r k) + t) ?_
  refine Finset.sum_congr (Finset.filter_congr fun p _ => ?_) (fun _ _ => rfl)
  rw [hidx p]
  exact toInt_eq_iff _ (h _) r

end Scatter

end Cert.ReferenceIdeal.RefValue

end
-- ==== Proof.RefCommon.lean ====
/-
  The endpoint array's two rows as the reference reads them, and the specification's layer over the edge-by-edge
  aggregation written out.

  The reference slices row 0 (the sources) and row 1 (the destinations) out of the endpoint array and flattens each:
  read at edge e they are the array's entries (0, e) and (1, e).
-/
import proofs.«127812_j6760278524061_1_alg».proof.Proof.Gen.ReferenceIdeal.Read
import proofs.«127812_j6760278524061_1_alg».proof.Proof.RefOps

noncomputable section

namespace Cert.ReferenceIdeal.RefValue

open Cert.ReferenceIdeal Cert.ReferenceIdeal.Read Idealize.ShloMosaic Idealize.ShloMosaic.ValueIdx
open Cert.GcnBridge Cert.GcnSpec
open scoped BigOperators

/-- The endpoint array's type in the generated modules. -/
abbrev EI : Type := (⟨S2x524288, .i32⟩ : BufTy).Contents (Elt Ideal)

/-- Row 0 of the endpoint array, flattened: the sources. -/
theorem v1_at (x1 : EI) (p : Fin 524288) : val_main_v1 (F := Ideal) x1 (ix1 p) = x1 (ix2 (0 : Fin 2) p) := by
  rw [val_main_v1_apply, val_main_v0_apply]
  congr 1
  funext a
  match a with
  | ⟨0, _⟩ => rfl
  | ⟨1, _⟩ => exact Fin.ext (Nat.mod_eq_of_lt p.isLt)

/-- Row 1 of the endpoint array, flattened: the destinations. -/
theorem v3_at (x1 : EI) (p : Fin 524288) : val_main_v3 (F := Ideal) x1 (ix1 p) = x1 (ix2 (1 : Fin 2) p) := by
  rw [val_main_v3_apply, val_main_v2_apply]
  congr 1
  funext a
  match a with
  | ⟨0, _⟩ => rfl
  | ⟨1, _⟩ => exact Fin.ext (Nat.mod_eq_of_lt p.isLt)

section Spec
variable {K D : Nat}

/-- A rectified layer over the edge-by-edge aggregation, written out. -/
theorem layer_sparse_true (ei : (⟨2, ![2, 524288]⟩ : Shape).Idx → BitVec 32) (h : InRange ei)
    (hh : Fin 16384 → Fin K → EReal) (W : Fin K → Fin D → EReal) (b : Fin D → EReal) (n : Fin 16384) (j : Fin D) :
    layer (sparseOf ei h) true hh W b n j
      = max (((0 + ∑ e ∈ Finset.univ.filter (fun e : Fin 524288 => dstOf ei h e = n),
            lin hh W (srcOf ei h e) j * enorm (srcOf ei h) (dstOf ei h) e)
          + lin hh W n j * (dinv (dstOf ei h) n * dinv (dstOf ei h) n)) + b j) 0 := by
  unfold layer
  rw [if_pos rfl]
  rfl

/-- A layer without the rectifier over the edge-by-edge aggregation, written out. -/
theorem layer_sparse_false (ei : (⟨2, ![2, 524288]⟩ : Shape).Idx → BitVec 32) (h : InRange ei)
    (hh : Fin 16384 → Fin K → EReal) (W : Fin K → Fin D → EReal) (b : Fin D → EReal) (n : Fin 16384) (j : Fin D) :
    layer (sparseOf ei h) false hh W b n j
      = ((0 + ∑ e ∈ Finset.univ.filter (fun e : Fin 524288 => dstOf ei h e = n),
            lin hh W (srcOf ei h e) j * enorm (srcOf ei h) (dstOf ei h) e)
          + lin hh W n j * (dinv (dstOf ei h) n * dinv (dstOf ei h) n)) + b j := by
  unfold layer
  rw [if_neg (by decide)]
  rfl

end Spec

end Cert.ReferenceIdeal.RefValue

end
-- ==== Proof.RefLayer1.lean ====
/-
  Layer 1 of the reference, read at one element.

  First what the layer recomputes from the endpoint array alone: the destination column its two scatters are indexed
  by, the normalised source and destination columns its three gathers are indexed by (under the range condition the
  normalisation changes nothing), the degree normalisation dinv (a scatter of ones by destination counts the edges into
  a node) and the edge weights enorm e = dinv (src e) * dinv (dst e).

  Then the layer: its output buffer at (n, j) is the specification's layer over the edge-by-edge aggregation: the linear
  map h = input * W (a sum over the contraction index), the rows h[src e] weighted by enorm e and summed over the edges
  into n (a gather of rows, a product, a scatter by destination into zeros), plus the self loop's h n * dinv n ^ 2, plus
  the bias, and the rectifier max(., 0).
-/
import proofs.«127812_j6760278524061_1_alg».proof.Proof.RefCommon

noncomputable section

namespace Cert.ReferenceIdeal.RefValue

open Cert.ReferenceIdeal Cert.ReferenceIdeal.Read Idealize.ShloMosaic Idealize.ShloMosaic.ValueIdx
open Cert.GcnBridge Cert.GcnSpec
open scoped BigOperators

/-- The destinations as the column of scatter indices of the degree count. -/
theorem L1_degcol (x1 : EI) (p : Fin 524288) :
    val_main_v7 (F := Ideal) x1 (ix2 p (0 : Fin 1)) = x1 (ix2 (1 : Fin 2) p) := by
  rw [val_main_v7_apply]
  have hi : idx_main_v7 (ix2 p (0 : Fin 1)) = ix1 p := by funext a; match a with | ⟨0, _⟩ => rfl
  rw [hi, v3_at]

/-- The destinations as the column of scatter indices of the aggregation. -/
theorem L1_dstcol (x1 : EI) (p : Fin 524288) :
    val_main_v38 (F := Ideal) x1 (ix2 p (0 : Fin 1)) = x1 (ix2 (1 : Fin 2) p) := by
  rw [val_main_v38_apply]
  have hi : idx_main_v38 (ix2 p (0 : Fin 1)) = ix1 p := by funext a; match a with | ⟨0, _⟩ => rfl
  rw [hi, v3_at]

/-- The sources, normalised, as a column of gather indices: under the range condition still the sources. -/
theorem L1_srcn (x1 : EI) (h : InRange x1) (p : Fin 524288) :
    val_main_v17 (F := Ideal) x1 (ix2 p (0 : Fin 1)) = x1 (ix2 (0 : Fin 2) p) := by
  rw [val_main_v17_apply]
  have hi : idx_main_v17 (ix2 p (0 : Fin 1)) = ix1 p := by funext a; match a with | ⟨0, _⟩ => rfl
  rw [hi, val_main_v16_apply, val_main_v13_apply, val_main_v15_apply, val_main_v12_apply, val_main_v14_apply,
    val_main_c_apply, val_main_c_2_apply, v1_at]
  exact norm_id _ (h _).1

/-- The destinations, normalised, as a column of gather indices: still the destinations. -/
theorem L1_dstn (x1 : EI) (h : InRange x1) (p : Fin 524288) :
    val_main_v24 (F := Ideal) x1 (ix2 p (0 : Fin 1)) = x1 (ix2 (1 : Fin 2) p) := by
  rw [val_main_v24_apply]
  have hi : idx_main_v24 (ix2 p (0 : Fin 1)) = ix1 p := by funext a; match a with | ⟨0, _⟩ => rfl
  rw [hi, val_main_v23_apply, val_main_v20_apply, val_main_v22_apply, val_main_v19_apply, val_main_v21_apply,
    val_main_c_3_apply, val_main_c_4_apply, v3_at]
  exact norm_id _ (h _).1

/-- The sources, normalised, as the column of row numbers of the row gather: still the sources. -/
theorem L1_srcrows (x1 : EI) (h : InRange x1) (p : Fin 524288) :
    val_main_v32 (F := Ideal) x1 (ix2 p (0 : Fin 1)) = x1 (ix2 (0 : Fin 2) p) := by
  rw [val_main_v32_apply]
  have hi : idx_main_v32 (ix2 p (0 : Fin 1)) = ix1 p := by funext a; match a with | ⟨0, _⟩ => rfl
  rw [hi, val_main_v31_apply, val_main_v28_apply, val_main_v30_apply, val_main_v27_apply, val_main_v29_apply,
    val_main_c_5_apply, val_main_c_6_apply, v1_at]
  exact norm_id _ (h _).1

/-- The scatter of ones by destination counts the edges into a node; one more and the reciprocal square root: dinv. -/
theorem L1_dinv (x1 : EI) (h : InRange x1) (n : Fin 16384) :
    val_main_v11 (F := Ideal) x1 (ix1 n) = dinv (dstOf x1 h) n := by
  have h8 : val_main_v8 (F := Ideal) x1 (ix1 n)
      = 0 + ∑ _p ∈ Finset.univ.filter (fun p : Fin 524288 => dstOf x1 h p = n), (1 : EReal) := by
    unfold val_main_v8 Host.scatterAdd
    rw [Ideal.hostScatterAdd_def,
      scatter_vec_dst scatter_S16384_S524288x1_S524288_n_0_0_1 rfl rfl rfl rfl x1 h _ _ (L1_degcol x1) _ n,
      val_main_v6_apply, val_main_cst_0_apply, Ideal.ofBits_def, Ideal.ofBits_zero_f32]
    refine congrArg (fun t => (0 : EReal) + t) (Finset.sum_congr rfl fun p _ => ?_)
    rw [val_main_v5_apply, val_main_cst_apply, Ideal.ofBits_def, ofBits_one_f32]
  rw [val_main_v11_apply, val_main_v10_apply, val_main_v9_apply, val_main_cst_1_apply, h8, Ideal.hostUnary_rsqrt_def, Ideal.addf_def,
    Ideal.ofBits_def, ofBits_one_f32]
  rfl

/-- The edge weight: dinv gathered at the source times dinv gathered at the destination. -/
theorem L1_enorm (x1 : EI) (h : InRange x1) (e : Fin 524288) :
    val_main_v26 (F := Ideal) x1 (ix1 e) = enorm (srcOf x1 h) (dstOf x1 h) e := by
  have h18 : val_main_v18 (F := Ideal) x1 (ix1 e) = dinv (dstOf x1 h) (srcOf x1 h e) := by
    unfold val_main_v18
    rw [gather_vec_node gather_S16384_S524288x1_S524288_n_0_n_n_0_1_1 rfl rfl rfl rfl rfl rfl rfl _ _ e _ (h _)
      (L1_srcn x1 h e)]
    exact L1_dinv x1 h _
  have h25 : val_main_v25 (F := Ideal) x1 (ix1 e) = dinv (dstOf x1 h) (dstOf x1 h e) := by
    unfold val_main_v25
    rw [gather_vec_node gather_S16384_S524288x1_S524288_n_0_n_n_0_1_1 rfl rfl rfl rfl rfl rfl rfl _ _ e _ (h _)
      (L1_dstn x1 h e)]
    exact L1_dinv x1 h _
  rw [val_main_v26_apply, h18, h25, Ideal.mulf_def]
  rfl

set_option maxHeartbeats 1000000 in
/-- Layer 1: the output buffer at (n, j) is the specification's layer of the input buffer read as a matrix. -/
theorem layer1_read (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (h : InRange x1) (n : Fin 16384) (j : Fin 128) :
    val_main_v48 (F := Ideal) x0 x1 x2 x3 (ix2 n j)
      = layer (sparseOf x1 h) true (mat x0) (mat x2) (vec x3) n j := by
  -- the linear map
  have hlin : ∀ (m : Fin 16384) (c : Fin 128),
      val_main_v4 (F := Ideal) x0 x2 (ix2 m c) = lin (mat x0) (mat x2) m c := by
    intro m c
    rw [val_main_v4_apply]
    unfold lin
    refine Finset.sum_congr rfl fun k _ => ?_
    have el : lidx_main_v4 (ix2 m c) k = ix2 m k := by
      funext a; match a with | ⟨0, _⟩ => rfl | ⟨1, _⟩ => rfl
    have er : ridx_main_v4 (ix2 m c) k = ix2 k c := by
      funext a; match a with | ⟨0, _⟩ => rfl | ⟨1, _⟩ => rfl
    rw [el, er]
    rfl
  -- the rows gathered at the sources
  have hgat : ∀ (e : Fin 524288) (c : Fin 128),
      val_main_v33 (F := Ideal) x0 x1 x2 (ix2 e c) = lin (mat x0) (mat x2) (srcOf x1 h e) c := by
    intro e c
    unfold val_main_v33
    rw [gather_rows_node gather_S16384x128_S524288x1_S524288x128_1_0_n_n_0_1_1128 rfl rfl rfl rfl rfl rfl rfl _ _ e c _ (h _) (L1_srcrows x1 h e)]
    exact hlin _ _
  -- the edge weights, one per row
  have hw : ∀ (e : Fin 524288) (c : Fin 128),
      val_main_v35 (F := Ideal) x1 (ix2 e c) = enorm (srcOf x1 h) (dstOf x1 h) e := by
    intro e c
    rw [val_main_v35_apply, val_main_v34_apply]
    have hi : idx_main_v34 (idx_main_v35 (ix2 e c)) = ix1 e := by funext a; match a with | ⟨0, _⟩ => rfl
    rw [hi]
    exact L1_enorm x1 h e
  -- the scatter by destination
  have hsc : val_main_v39 (F := Ideal) x0 x1 x2 (ix2 n j)
      = 0 + ∑ e ∈ Finset.univ.filter (fun e : Fin 524288 => dstOf x1 h e = n),
          lin (mat x0) (mat x2) (srcOf x1 h e) j * enorm (srcOf x1 h) (dstOf x1 h) e := by
    unfold val_main_v39 Host.scatterAdd
    rw [Ideal.hostScatterAdd_def, scatter_rows_dst scatter_S16384x128_S524288x1_S524288x128_1_0_0_1 rfl rfl rfl rfl x1 h _ _ (L1_dstcol x1) _ n j,
      val_main_v37_apply, val_main_cst_7_apply, Ideal.ofBits_def, Ideal.ofBits_zero_f32]
    refine congrArg (fun t => (0 : EReal) + t) (Finset.sum_congr rfl fun e _ => ?_)
    rw [val_main_v36_apply, hgat, hw, Ideal.mulf_def]
  -- the self loop
  have hself : val_main_v43 (F := Ideal) x0 x1 x2 (ix2 n j)
      = lin (mat x0) (mat x2) n j * (dinv (dstOf x1 h) n * dinv (dstOf x1 h) n) := by
    rw [val_main_v43_apply, val_main_v42_apply, val_main_v41_apply]
    have hi : idx_main_v41 (idx_main_v42 (ix2 n j)) = ix1 n := by funext a; match a with | ⟨0, _⟩ => rfl
    rw [hi, val_main_v40_apply, L1_dinv x1 h n, hlin, Ideal.mulf_def, Ideal.mulf_def]
  -- the bias
  have hb : val_main_v46 (F := Ideal) x3 (ix2 n j) = vec x3 j := by
    rw [val_main_v46_apply, val_main_v45_apply]
    have hi : idx_main_v45 (idx_main_v46 (ix2 n j)) = ix1 j := by funext a; match a with | ⟨0, _⟩ => rfl
    rw [hi]
    rfl
  rw [val_main_v48_apply, val_main_v47_apply, val_main_v44_apply, hsc, hself, hb, val_main_call0_v0_apply, val_main_call0_cst_apply,
    Ideal.maximumf_def, Ideal.addf_def, Ideal.addf_def, Ideal.ofBits_def, Ideal.ofBits_zero_f32]
  exact (layer_sparse_true x1 h _ _ _ n j).symm

end Cert.ReferenceIdeal.RefValue

end
-- ==== Proof.RefLayer2.lean ====
/-
  Layer 2 of the reference, read at one element.

  First what the layer recomputes from the endpoint array alone: the destination column its two scatters are indexed
  by, the normalised source and destination columns its three gathers are indexed by (under the range condition the
  normalisation changes nothing), the degree normalisation dinv (a scatter of ones by destination counts the edges into
  a node) and the edge weights enorm e = dinv (src e) * dinv (dst e).

  Then the layer: its output buffer at (n, j) is the specification's layer over the edge-by-edge aggregation: the linear
  map h = input * W (a sum over the contraction index), the rows h[src e] weighted by enorm e and summed over the edges
  into n (a gather of rows, a product, a scatter by destination into zeros), plus the self loop's h n * dinv n ^ 2, plus
  the bias, and the rectifier max(., 0).
-/
import proofs.«127812_j6760278524061_1_alg».proof.Proof.RefLayer1

noncomputable section

namespace Cert.ReferenceIdeal.RefValue

open Cert.ReferenceIdeal Cert.ReferenceIdeal.Read Idealize.ShloMosaic Idealize.ShloMosaic.ValueIdx
open Cert.GcnBridge Cert.GcnSpec
open scoped BigOperators

/-- The destinations as the column of scatter indices of the degree count. -/
theorem L2_degcol (x1 : EI) (p : Fin 524288) :
    val_main_v52 (F := Ideal) x1 (ix2 p (0 : Fin 1)) = x1 (ix2 (1 : Fin 2) p) := by
  rw [val_main_v52_apply]
  have hi : idx_main_v52 (ix2 p (0 : Fin 1)) = ix1 p := by funext a; match a with | ⟨0, _⟩ => rfl
  rw [hi, v3_at]

/-- The destinations as the column of scatter indices of the aggregation. -/
theorem L2_dstcol (x1 : EI) (p : Fin 524288) :
    val_main_v83 (F := Ideal) x1 (ix2 p (0 : Fin 1)) = x1 (ix2 (1 : Fin 2) p) := by
  rw [val_main_v83_apply]
  have hi : idx_main_v83 (ix2 p (0 : Fin 1)) = ix1 p := by funext a; match a with | ⟨0, _⟩ => rfl
  rw [hi, v3_at]

/-- The sources, normalised, as a column of gather indices: under the range condition still the sources. -/
theorem L2_srcn (x1 : EI) (h : InRange x1) (p : Fin 524288) :
    val_main_v62 (F := Ideal) x1 (ix2 p (0 : Fin 1)) = x1 (ix2 (0 : Fin 2) p) := by
  rw [val_main_v62_apply]
  have hi : idx_main_v62 (ix2 p (0 : Fin 1)) = ix1 p := by funext a; match a with | ⟨0, _⟩ => rfl
  rw [hi, val_main_v61_apply, val_main_v58_apply, val_main_v60_apply, val_main_v57_apply, val_main_v59_apply,
    val_main_c_11_apply, val_main_c_12_apply, v1_at]
  exact norm_id _ (h _).1

/-- The destinations, normalised, as a column of gather indices: still the destinations. -/
theorem L2_dstn (x1 : EI) (h : InRange x1) (p : Fin 524288) :
    val_main_v69 (F := Ideal) x1 (ix2 p (0 : Fin 1)) = x1 (ix2 (1 : Fin 2) p) := by
  rw [val_main_v69_apply]
  have hi : idx_main_v69 (ix2 p (0 : Fin 1)) = ix1 p := by funext a; match a with | ⟨0, _⟩ => rfl
  rw [hi, val_main_v68_apply, val_main_v65_apply, val_main_v67_apply, val_main_v64_apply, val_main_v66_apply,
    val_main_c_13_apply, val_main_c_14_apply, v3_at]
  exact norm_id _ (h _).1

/-- The sources, normalised, as the column of row numbers of the row gather: still the sources. -/
theorem L2_srcrows (x1 : EI) (h : InRange x1) (p : Fin 524288) :
    val_main_v77 (F := Ideal) x1 (ix2 p (0 : Fin 1)) = x1 (ix2 (0 : Fin 2) p) := by
  rw [val_main_v77_apply]
  have hi : idx_main_v77 (ix2 p (0 : Fin 1)) = ix1 p := by funext a; match a with | ⟨0, _⟩ => rfl
  rw [hi, val_main_v76_apply, val_main_v73_apply, val_main_v75_apply, val_main_v72_apply, val_main_v74_apply,
    val_main_c_15_apply, val_main_c_16_apply, v1_at]
  exact norm_id _ (h _).1

/-- The scatter of ones by destination counts the edges into a node; one more and the reciprocal square root: dinv. -/
theorem L2_dinv (x1 : EI) (h : InRange x1) (n : Fin 16384) :
    val_main_v56 (F := Ideal) x1 (ix1 n) = dinv (dstOf x1 h) n := by
  have h8 : val_main_v53 (F := Ideal) x1 (ix1 n)
      = 0 + ∑ _p ∈ Finset.univ.filter (fun p : Fin 524288 => dstOf x1 h p = n), (1 : EReal) := by
    unfold val_main_v53 Host.scatterAdd
    rw [Ideal.hostScatterAdd_def,
      scatter_vec_dst scatter_S16384_S524288x1_S524288_n_0_0_1 rfl rfl rfl rfl x1 h _ _ (L2_degcol x1) _ n,
      val_main_v51_apply, val_main_cst_9_apply, Ideal.ofBits_def, Ideal.ofBits_zero_f32]
    refine congrArg (fun t => (0 : EReal) + t) (Finset.sum_congr rfl fun p _ => ?_)
    rw [val_main_v50_apply, val_main_cst_8_apply, Ideal.ofBits_def, ofBits_one_f32]
  rw [val_main_v56_apply, val_main_v55_apply, val_main_v54_apply, val_main_cst_10_apply, h8, Ideal.hostUnary_rsqrt_def, Ideal.addf_def,
    Ideal.ofBits_def, ofBits_one_f32]
  rfl

/-- The edge weight: dinv gathered at the source times dinv gathered at the destination. -/
theorem L2_enorm (x1 : EI) (h : InRange x1) (e : Fin 524288) :
    val_main_v71 (F := Ideal) x1 (ix1 e) = enorm (srcOf x1 h) (dstOf x1 h) e := by
  have h18 : val_main_v63 (F := Ideal) x1 (ix1 e) = dinv (dstOf x1 h) (srcOf x1 h e) := by
    unfold val_main_v63
    rw [gather_vec_node gather_S16384_S524288x1_S524288_n_0_n_n_0_1_1 rfl rfl rfl rfl rfl rfl rfl _ _ e _ (h _)
      (L2_srcn x1 h e)]
    exact L2_dinv x1 h _
  have h25 : val_main_v70 (F := Ideal) x1 (ix1 e) = dinv (dstOf x1 h) (dstOf x1 h e) := by
    unfold val_main_v70
    rw [gather_vec_node gather_S16384_S524288x1_S524288_n_0_n_n_0_1_1 rfl rfl rfl rfl rfl rfl rfl _ _ e _ (h _)
      (L2_dstn x1 h e)]
    exact L2_dinv x1 h _
  rw [val_main_v71_apply, h18, h25, Ideal.mulf_def]
  rfl

set_option maxHeartbeats 1000000 in
/-- Layer 2: the output buffer at (n, j) is the specification's layer of the input buffer read as a matrix. -/
theorem layer2_read (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (h : InRange x1) (n : Fin 16384) (j : Fin 64) :
    val_main_v93 (F := Ideal) x0 x1 x2 x3 x4 x5 (ix2 n j)
      = layer (sparseOf x1 h) true (mat (val_main_v48 (F := Ideal) x0 x1 x2 x3)) (mat x4) (vec x5) n j := by
  -- the linear map
  have hlin : ∀ (m : Fin 16384) (c : Fin 64),
      val_main_v49 (F := Ideal) x0 x1 x2 x3 x4 (ix2 m c) = lin (mat (val_main_v48 (F := Ideal) x0 x1 x2 x3)) (mat x4) m c := by
    intro m c
    rw [val_main_v49_apply]
    unfold lin
    refine Finset.sum_congr rfl fun k _ => ?_
    have el : lidx_main_v49 (ix2 m c) k = ix2 m k := by
      funext a; match a with | ⟨0, _⟩ => rfl | ⟨1, _⟩ => rfl
    have er : ridx_main_v49 (ix2 m c) k = ix2 k c := by
      funext a; match a with | ⟨0, _⟩ => rfl | ⟨1, _⟩ => rfl
    rw [el, er]
    rfl
  -- the rows gathered at the sources
  have hgat : ∀ (e : Fin 524288) (c : Fin 64),
      val_main_v78 (F := Ideal) x0 x1 x2 x3 x4 (ix2 e c) = lin (mat (val_main_v48 (F := Ideal) x0 x1 x2 x3)) (mat x4) (srcOf x1 h e) c := by
    intro e c
    unfold val_main_v78
    rw [gather_rows_node gather_S16384x64_S524288x1_S524288x64_1_0_n_n_0_1_164 rfl rfl rfl rfl rfl rfl rfl _ _ e c _ (h _) (L2_srcrows x1 h e)]
    exact hlin _ _
  -- the edge weights, one per row
  have hw : ∀ (e : Fin 524288) (c : Fin 64),
      val_main_v80 (F := Ideal) x1 (ix2 e c) = enorm (srcOf x1 h) (dstOf x1 h) e := by
    intro e c
    rw [val_main_v80_apply, val_main_v79_apply]
    have hi : idx_main_v79 (idx_main_v80 (ix2 e c)) = ix1 e := by funext a; match a with | ⟨0, _⟩ => rfl
    rw [hi]
    exact L2_enorm x1 h e
  -- the scatter by destination
  have hsc : val_main_v84 (F := Ideal) x0 x1 x2 x3 x4 (ix2 n j)
      = 0 + ∑ e ∈ Finset.univ.filter (fun e : Fin 524288 => dstOf x1 h e = n),
          lin (mat (val_main_v48 (F := Ideal) x0 x1 x2 x3)) (mat x4) (srcOf x1 h e) j * enorm (srcOf x1 h) (dstOf x1 h) e := by
    unfold val_main_v84 Host.scatterAdd
    rw [Ideal.hostScatterAdd_def, scatter_rows_dst scatter_S16384x64_S524288x1_S524288x64_1_0_0_1 rfl rfl rfl rfl x1 h _ _ (L2_dstcol x1) _ n j,
      val_main_v82_apply, val_main_cst_17_apply, Ideal.ofBits_def, Ideal.ofBits_zero_f32]
    refine congrArg (fun t => (0 : EReal) + t) (Finset.sum_congr rfl fun e _ => ?_)
    rw [val_main_v81_apply, hgat, hw, Ideal.mulf_def]
  -- the self loop
  have hself : val_main_v88 (F := Ideal) x0 x1 x2 x3 x4 (ix2 n j)
      = lin (mat (val_main_v48 (F := Ideal) x0 x1 x2 x3)) (mat x4) n j * (dinv (dstOf x1 h) n * dinv (dstOf x1 h) n) := by
    rw [val_main_v88_apply, val_main_v87_apply, val_main_v86_apply]
    have hi : idx_main_v86 (idx_main_v87 (ix2 n j)) = ix1 n := by funext a; match a with | ⟨0, _⟩ => rfl
    rw [hi, val_main_v85_apply, L2_dinv x1 h n, hlin, Ideal.mulf_def, Ideal.mulf_def]
  -- the bias
  have hb : val_main_v91 (F := Ideal) x5 (ix2 n j) = vec x5 j := by
    rw [val_main_v91_apply, val_main_v90_apply]
    have hi : idx_main_v90 (idx_main_v91 (ix2 n j)) = ix1 j := by funext a; match a with | ⟨0, _⟩ => rfl
    rw [hi]
    rfl
  rw [val_main_v93_apply, val_main_v92_apply, val_main_v89_apply, hsc, hself, hb, val_main_call1_v0_apply, val_main_call1_cst_apply,
    Ideal.maximumf_def, Ideal.addf_def, Ideal.addf_def, Ideal.ofBits_def, Ideal.ofBits_zero_f32]
  exact (layer_sparse_true x1 h _ _ _ n j).symm

end Cert.ReferenceIdeal.RefValue

end
-- ==== Proof.RefLayer3.lean ====
/-
  Layer 3 of the reference, read at one element.

  First what the layer recomputes from the endpoint array alone: the destination column its two scatters are indexed
  by, the normalised source and destination columns its three gathers are indexed by (under the range condition the
  normalisation changes nothing), the degree normalisation dinv (a scatter of ones by destination counts the edges into
  a node) and the edge weights enorm e = dinv (src e) * dinv (dst e).

  Then the layer: its output buffer at (n, j) is the specification's layer over the edge-by-edge aggregation: the linear
  map h = input * W (a sum over the contraction index), the rows h[src e] weighted by enorm e and summed over the edges
  into n (a gather of rows, a product, a scatter by destination into zeros), plus the self loop's h n * dinv n ^ 2, plus
  the bias, and the rectifier max(., 0).
-/
import proofs.«127812_j6760278524061_1_alg».proof.Proof.RefLayer2

noncomputable section

namespace Cert.ReferenceIdeal.RefValue

open Cert.ReferenceIdeal Cert.ReferenceIdeal.Read Idealize.ShloMosaic Idealize.ShloMosaic.ValueIdx
open Cert.GcnBridge Cert.GcnSpec
open scoped BigOperators

/-- The destinations as the column of scatter indices of the degree count. -/
theorem L3_degcol (x1 : EI) (p : Fin 524288) :
    val_main_v97 (F := Ideal) x1 (ix2 p (0 : Fin 1)) = x1 (ix2 (1 : Fin 2) p) := by
  rw [val_main_v97_apply]
  have hi : idx_main_v97 (ix2 p (0 : Fin 1)) = ix1 p := by funext a; match a with | ⟨0, _⟩ => rfl
  rw [hi, v3_at]

/-- The destinations as the column of scatter indices of the aggregation. -/
theorem L3_dstcol (x1 : EI) (p : Fin 524288) :
    val_main_v128 (F := Ideal) x1 (ix2 p (0 : Fin 1)) = x1 (ix2 (1 : Fin 2) p) := by
  rw [val_main_v128_apply]
  have hi : idx_main_v128 (ix2 p (0 : Fin 1)) = ix1 p := by funext a; match a with | ⟨0, _⟩ => rfl
  rw [hi, v3_at]

/-- The sources, normalised, as a column of gather indices: under the range condition still the sources. -/
theorem L3_srcn (x1 : EI) (h : InRange x1) (p : Fin 524288) :
    val_main_v107 (F := Ideal) x1 (ix2 p (0 : Fin 1)) = x1 (ix2 (0 : Fin 2) p) := by
  rw [val_main_v107_apply]
  have hi : idx_main_v107 (ix2 p (0 : Fin 1)) = ix1 p := by funext a; match a with | ⟨0, _⟩ => rfl
  rw [hi, val_main_v106_apply, val_main_v103_apply, val_main_v105_apply, val_main_v102_apply, val_main_v104_apply,
    val_main_c_21_apply, val_main_c_22_apply, v1_at]
  exact norm_id _ (h _).1

/-- The destinations, normalised, as a column of gather indices: still the destinations. -/
theorem L3_dstn (x1 : EI) (h : InRange x1) (p : Fin 524288) :
    val_main_v114 (F := Ideal) x1 (ix2 p (0 : Fin 1)) = x1 (ix2 (1 : Fin 2) p) := by
  rw [val_main_v114_apply]
  have hi : idx_main_v114 (ix2 p (0 : Fin 1)) = ix1 p := by funext a; match a with | ⟨0, _⟩ => rfl
  rw [hi, val_main_v113_apply, val_main_v110_apply, val_main_v112_apply, val_main_v109_apply, val_main_v111_apply,
    val_main_c_23_apply, val_main_c_24_apply, v3_at]
  exact norm_id _ (h _).1

/-- The sources, normalised, as the column of row numbers of the row gather: still the sources. -/
theorem L3_srcrows (x1 : EI) (h : InRange x1) (p : Fin 524288) :
    val_main_v122 (F := Ideal) x1 (ix2 p (0 : Fin 1)) = x1 (ix2 (0 : Fin 2) p) := by
  rw [val_main_v122_apply]
  have hi : idx_main_v122 (ix2 p (0 : Fin 1)) = ix1 p := by funext a; match a with | ⟨0, _⟩ => rfl
  rw [hi, val_main_v121_apply, val_main_v118_apply, val_main_v120_apply, val_main_v117_apply, val_main_v119_apply,
    val_main_c_25_apply, val_main_c_26_apply, v1_at]
  exact norm_id _ (h _).1

/-- The scatter of ones by destination counts the edges into a node; one more and the reciprocal square root: dinv. -/
theorem L3_dinv (x1 : EI) (h : InRange x1) (n : Fin 16384) :
    val_main_v101 (F := Ideal) x1 (ix1 n) = dinv (dstOf x1 h) n := by
  have h8 : val_main_v98 (F := Ideal) x1 (ix1 n)
      = 0 + ∑ _p ∈ Finset.univ.filter (fun p : Fin 524288 => dstOf x1 h p = n), (1 : EReal) := by
    unfold val_main_v98 Host.scatterAdd
    rw [Ideal.hostScatterAdd_def,
      scatter_vec_dst scatter_S16384_S524288x1_S524288_n_0_0_1 rfl rfl rfl rfl x1 h _ _ (L3_degcol x1) _ n,
      val_main_v96_apply, val_main_cst_19_apply, Ideal.ofBits_def, Ideal.ofBits_zero_f32]
    refine congrArg (fun t => (0 : EReal) + t) (Finset.sum_congr rfl fun p _ => ?_)
    rw [val_main_v95_apply, val_main_cst_18_apply, Ideal.ofBits_def, ofBits_one_f32]
  rw [val_main_v101_apply, val_main_v100_apply, val_main_v99_apply, val_main_cst_20_apply, h8, Ideal.hostUnary_rsqrt_def, Ideal.addf_def,
    Ideal.ofBits_def, ofBits_one_f32]
  rfl

/-- The edge weight: dinv gathered at the source times dinv gathered at the destination. -/
theorem L3_enorm (x1 : EI) (h : InRange x1) (e : Fin 524288) :
    val_main_v116 (F := Ideal) x1 (ix1 e) = enorm (srcOf x1 h) (dstOf x1 h) e := by
  have h18 : val_main_v108 (F := Ideal) x1 (ix1 e) = dinv (dstOf x1 h) (srcOf x1 h e) := by
    unfold val_main_v108
    rw [gather_vec_node gather_S16384_S524288x1_S524288_n_0_n_n_0_1_1 rfl rfl rfl rfl rfl rfl rfl _ _ e _ (h _)
      (L3_srcn x1 h e)]
    exact L3_dinv x1 h _
  have h25 : val_main_v115 (F := Ideal) x1 (ix1 e) = dinv (dstOf x1 h) (dstOf x1 h e) := by
    unfold val_main_v115
    rw [gather_vec_node gather_S16384_S524288x1_S524288_n_0_n_n_0_1_1 rfl rfl rfl rfl rfl rfl rfl _ _ e _ (h _)
      (L3_dstn x1 h e)]
    exact L3_dinv x1 h _
  rw [val_main_v116_apply, h18, h25, Ideal.mulf_def]
  rfl

set_option maxHeartbeats 1000000 in
/-- Layer 3: the output buffer at (n, j) is the specification's layer of the input buffer read as a matrix. -/
theorem layer3_read (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x128, .f32⟩ : BufTy).Contents (Elt Ideal)) (x7 : (⟨S128, .f32⟩ : BufTy).Contents (Elt Ideal)) (h : InRange x1) (n : Fin 16384) (j : Fin 128) :
    val_main_v138 (F := Ideal) x0 x1 x2 x3 x4 x5 x6 x7 (ix2 n j)
      = layer (sparseOf x1 h) true (mat (val_main_v93 (F := Ideal) x0 x1 x2 x3 x4 x5)) (mat x6) (vec x7) n j := by
  -- the linear map
  have hlin : ∀ (m : Fin 16384) (c : Fin 128),
      val_main_v94 (F := Ideal) x0 x1 x2 x3 x4 x5 x6 (ix2 m c) = lin (mat (val_main_v93 (F := Ideal) x0 x1 x2 x3 x4 x5)) (mat x6) m c := by
    intro m c
    rw [val_main_v94_apply]
    unfold lin
    refine Finset.sum_congr rfl fun k _ => ?_
    have el : lidx_main_v94 (ix2 m c) k = ix2 m k := by
      funext a; match a with | ⟨0, _⟩ => rfl | ⟨1, _⟩ => rfl
    have er : ridx_main_v94 (ix2 m c) k = ix2 k c := by
      funext a; match a with | ⟨0, _⟩ => rfl | ⟨1, _⟩ => rfl
    rw [el, er]
    rfl
  -- the rows gathered at the sources
  have hgat : ∀ (e : Fin 524288) (c : Fin 128),
      val_main_v123 (F := Ideal) x0 x1 x2 x3 x4 x5 x6 (ix2 e c) = lin (mat (val_main_v93 (F := Ideal) x0 x1 x2 x3 x4 x5)) (mat x6) (srcOf x1 h e) c := by
    intro e c
    unfold val_main_v123
    rw [gather_rows_node gather_S16384x128_S524288x1_S524288x128_1_0_n_n_0_1_1128 rfl rfl rfl rfl rfl rfl rfl _ _ e c _ (h _) (L3_srcrows x1 h e)]
    exact hlin _ _
  -- the edge weights, one per row
  have hw : ∀ (e : Fin 524288) (c : Fin 128),
      val_main_v125 (F := Ideal) x1 (ix2 e c) = enorm (srcOf x1 h) (dstOf x1 h) e := by
    intro e c
    rw [val_main_v125_apply, val_main_v124_apply]
    have hi : idx_main_v124 (idx_main_v125 (ix2 e c)) = ix1 e := by funext a; match a with | ⟨0, _⟩ => rfl
    rw [hi]
    exact L3_enorm x1 h e
  -- the scatter by destination
  have hsc : val_main_v129 (F := Ideal) x0 x1 x2 x3 x4 x5 x6 (ix2 n j)
      = 0 + ∑ e ∈ Finset.univ.filter (fun e : Fin 524288 => dstOf x1 h e = n),
          lin (mat (val_main_v93 (F := Ideal) x0 x1 x2 x3 x4 x5)) (mat x6) (srcOf x1 h e) j * enorm (srcOf x1 h) (dstOf x1 h) e := by
    unfold val_main_v129 Host.scatterAdd
    rw [Ideal.hostScatterAdd_def, scatter_rows_dst scatter_S16384x128_S524288x1_S524288x128_1_0_0_1 rfl rfl rfl rfl x1 h _ _ (L3_dstcol x1) _ n j,
      val_main_v127_apply, val_main_cst_27_apply, Ideal.ofBits_def, Ideal.ofBits_zero_f32]
    refine congrArg (fun t => (0 : EReal) + t) (Finset.sum_congr rfl fun e _ => ?_)
    rw [val_main_v126_apply, hgat, hw, Ideal.mulf_def]
  -- the self loop
  have hself : val_main_v133 (F := Ideal) x0 x1 x2 x3 x4 x5 x6 (ix2 n j)
      = lin (mat (val_main_v93 (F := Ideal) x0 x1 x2 x3 x4 x5)) (mat x6) n j * (dinv (dstOf x1 h) n * dinv (dstOf x1 h) n) := by
    rw [val_main_v133_apply, val_main_v132_apply, val_main_v131_apply]
    have hi : idx_main_v131 (idx_main_v132 (ix2 n j)) = ix1 n := by funext a; match a with | ⟨0, _⟩ => rfl
    rw [hi, val_main_v130_apply, L3_dinv x1 h n, hlin, Ideal.mulf_def, Ideal.mulf_def]
  -- the bias
  have hb : val_main_v136 (F := Ideal) x7 (ix2 n j) = vec x7 j := by
    rw [val_main_v136_apply, val_main_v135_apply]
    have hi : idx_main_v135 (idx_main_v136 (ix2 n j)) = ix1 j := by funext a; match a with | ⟨0, _⟩ => rfl
    rw [hi]
    rfl
  rw [val_main_v138_apply, val_main_v137_apply, val_main_v134_apply, hsc, hself, hb, val_main_call2_v0_apply, val_main_call2_cst_apply,
    Ideal.maximumf_def, Ideal.addf_def, Ideal.addf_def, Ideal.ofBits_def, Ideal.ofBits_zero_f32]
  exact (layer_sparse_true x1 h _ _ _ n j).symm

end Cert.ReferenceIdeal.RefValue

end
-- ==== Proof.RefLayer4.lean ====
/-
  Layer 4 of the reference, read at one element.

  First what the layer recomputes from the endpoint array alone: the destination column its two scatters are indexed
  by, the normalised source and destination columns its three gathers are indexed by (under the range condition the
  normalisation changes nothing), the degree normalisation dinv (a scatter of ones by destination counts the edges into
  a node) and the edge weights enorm e = dinv (src e) * dinv (dst e).

  Then the layer: its output buffer at (n, j) is the specification's layer over the edge-by-edge aggregation: the linear
  map h = input * W (a sum over the contraction index), the rows h[src e] weighted by enorm e and summed over the edges
  into n (a gather of rows, a product, a scatter by destination into zeros), plus the self loop's h n * dinv n ^ 2, plus
  the bias.
-/
import proofs.«127812_j6760278524061_1_alg».proof.Proof.RefCommon

noncomputable section

namespace Cert.ReferenceIdeal.RefValue

open Cert.ReferenceIdeal Cert.ReferenceIdeal.Read Idealize.ShloMosaic Idealize.ShloMosaic.ValueIdx
open Cert.GcnBridge Cert.GcnSpec
open scoped BigOperators

/-- The destinations as the column of scatter indices of the degree count. -/
theorem L4_degcol (x1 : EI) (p : Fin 524288) :
    val_main_v142 (F := Ideal) x1 (ix2 p (0 : Fin 1)) = x1 (ix2 (1 : Fin 2) p) := by
  rw [val_main_v142_apply]
  have hi : idx_main_v142 (ix2 p (0 : Fin 1)) = ix1 p := by funext a; match a with | ⟨0, _⟩ => rfl
  rw [hi, v3_at]

/-- The destinations as the column of scatter indices of the aggregation. -/
theorem L4_dstcol (x1 : EI) (p : Fin 524288) :
    val_main_v173 (F := Ideal) x1 (ix2 p (0 : Fin 1)) = x1 (ix2 (1 : Fin 2) p) := by
  rw [val_main_v173_apply]
  have hi : idx_main_v173 (ix2 p (0 : Fin 1)) = ix1 p := by funext a; match a with | ⟨0, _⟩ => rfl
  rw [hi, v3_at]

/-- The sources, normalised, as a column of gather indices: under the range condition still the sources. -/
theorem L4_srcn (x1 : EI) (h : InRange x1) (p : Fin 524288) :
    val_main_v152 (F := Ideal) x1 (ix2 p (0 : Fin 1)) = x1 (ix2 (0 : Fin 2) p) := by
  rw [val_main_v152_apply]
  have hi : idx_main_v152 (ix2 p (0 : Fin 1)) = ix1 p := by funext a; match a with | ⟨0, _⟩ => rfl
  rw [hi, val_main_v151_apply, val_main_v148_apply, val_main_v150_apply, val_main_v147_apply, val_main_v149_apply,
    val_main_c_31_apply, val_main_c_32_apply, v1_at]
  exact norm_id _ (h _).1

/-- The destinations, normalised, as a column of gather indices: still the destinations. -/
theorem L4_dstn (x1 : EI) (h : InRange x1) (p : Fin 524288) :
    val_main_v159 (F := Ideal) x1 (ix2 p (0 : Fin 1)) = x1 (ix2 (1 : Fin 2) p) := by
  rw [val_main_v159_apply]
  have hi : idx_main_v159 (ix2 p (0 : Fin 1)) = ix1 p := by funext a; match a with | ⟨0, _⟩ => rfl
  rw [hi, val_main_v158_apply, val_main_v155_apply, val_main_v157_apply, val_main_v154_apply, val_main_v156_apply,
    val_main_c_33_apply, val_main_c_34_apply, v3_at]
  exact norm_id _ (h _).1

/-- The sources, normalised, as the column of row numbers of the row gather: still the sources. -/
theorem L4_srcrows (x1 : EI) (h : InRange x1) (p : Fin 524288) :
    val_main_v167 (F := Ideal) x1 (ix2 p (0 : Fin 1)) = x1 (ix2 (0 : Fin 2) p) := by
  rw [val_main_v167_apply]
  have hi : idx_main_v167 (ix2 p (0 : Fin 1)) = ix1 p := by funext a; match a with | ⟨0, _⟩ => rfl
  rw [hi, val_main_v166_apply, val_main_v163_apply, val_main_v165_apply, val_main_v162_apply, val_main_v164_apply,
    val_main_c_35_apply, val_main_c_36_apply, v1_at]
  exact norm_id _ (h _).1

/-- The scatter of ones by destination counts the edges into a node; one more and the reciprocal square root: dinv. -/
theorem L4_dinv (x1 : EI) (h : InRange x1) (n : Fin 16384) :
    val_main_v146 (F := Ideal) x1 (ix1 n) = dinv (dstOf x1 h) n := by
  have h8 : val_main_v143 (F := Ideal) x1 (ix1 n)
      = 0 + ∑ _p ∈ Finset.univ.filter (fun p : Fin 524288 => dstOf x1 h p = n), (1 : EReal) := by
    unfold val_main_v143 Host.scatterAdd
    rw [Ideal.hostScatterAdd_def,
      scatter_vec_dst scatter_S16384_S524288x1_S524288_n_0_0_1 rfl rfl rfl rfl x1 h _ _ (L4_degcol x1) _ n,
      val_main_v141_apply, val_main_cst_29_apply, Ideal.ofBits_def, Ideal.ofBits_zero_f32]
    refine congrArg (fun t => (0 : EReal) + t) (Finset.sum_congr rfl fun p _ => ?_)
    rw [val_main_v140_apply, val_main_cst_28_apply, Ideal.ofBits_def, ofBits_one_f32]
  rw [val_main_v146_apply, val_main_v145_apply, val_main_v144_apply, val_main_cst_30_apply, h8, Ideal.hostUnary_rsqrt_def, Ideal.addf_def,
    Ideal.ofBits_def, ofBits_one_f32]
  rfl

/-- The edge weight: dinv gathered at the source times dinv gathered at the destination. -/
theorem L4_enorm (x1 : EI) (h : InRange x1) (e : Fin 524288) :
    val_main_v161 (F := Ideal) x1 (ix1 e) = enorm (srcOf x1 h) (dstOf x1 h) e := by
  have h18 : val_main_v153 (F := Ideal) x1 (ix1 e) = dinv (dstOf x1 h) (srcOf x1 h e) := by
    unfold val_main_v153
    rw [gather_vec_node gather_S16384_S524288x1_S524288_n_0_n_n_0_1_1 rfl rfl rfl rfl rfl rfl rfl _ _ e _ (h _)
      (L4_srcn x1 h e)]
    exact L4_dinv x1 h _
  have h25 : val_main_v160 (F := Ideal) x1 (ix1 e) = dinv (dstOf x1 h) (dstOf x1 h e) := by
    unfold val_main_v160
    rw [gather_vec_node gather_S16384_S524288x1_S524288_n_0_n_n_0_1_1 rfl rfl rfl rfl rfl rfl rfl _ _ e _ (h _)
      (L4_dstn x1 h e)]
    exact L4_dinv x1 h _
  rw [val_main_v161_apply, h18, h25, Ideal.mulf_def]
  rfl

set_option maxHeartbeats 1000000 in
/-- Layer 4: the output buffer at (n, j) is the specification's layer of the input buffer read as a matrix. -/
theorem layer4_read (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal)) (h : InRange x1) (n : Fin 16384) (j : Fin 256) :
    val_main_v182 (F := Ideal) x0 x1 x2 x3 x4 x5 x6 x7 x8 x9 (ix2 n j)
      = layer (sparseOf x1 h) false (mat (val_main_v138 (F := Ideal) x0 x1 x2 x3 x4 x5 x6 x7)) (mat x8) (vec x9) n j := by
  -- the linear map
  have hlin : ∀ (m : Fin 16384) (c : Fin 256),
      val_main_v139 (F := Ideal) x0 x1 x2 x3 x4 x5 x6 x7 x8 (ix2 m c) = lin (mat (val_main_v138 (F := Ideal) x0 x1 x2 x3 x4 x5 x6 x7)) (mat x8) m c := by
    intro m c
    rw [val_main_v139_apply]
    unfold lin
    refine Finset.sum_congr rfl fun k _ => ?_
    have el : lidx_main_v139 (ix2 m c) k = ix2 m k := by
      funext a; match a with | ⟨0, _⟩ => rfl | ⟨1, _⟩ => rfl
    have er : ridx_main_v139 (ix2 m c) k = ix2 k c := by
      funext a; match a with | ⟨0, _⟩ => rfl | ⟨1, _⟩ => rfl
    rw [el, er]
    rfl
  -- the rows gathered at the sources
  have hgat : ∀ (e : Fin 524288) (c : Fin 256),
      val_main_v168 (F := Ideal) x0 x1 x2 x3 x4 x5 x6 x7 x8 (ix2 e c) = lin (mat (val_main_v138 (F := Ideal) x0 x1 x2 x3 x4 x5 x6 x7)) (mat x8) (srcOf x1 h e) c := by
    intro e c
    unfold val_main_v168
    rw [gather_rows_node gather_S16384x256_S524288x1_S524288x256_1_0_n_n_0_1_1256 rfl rfl rfl rfl rfl rfl rfl _ _ e c _ (h _) (L4_srcrows x1 h e)]
    exact hlin _ _
  -- the edge weights, one per row
  have hw : ∀ (e : Fin 524288) (c : Fin 256),
      val_main_v170 (F := Ideal) x1 (ix2 e c) = enorm (srcOf x1 h) (dstOf x1 h) e := by
    intro e c
    rw [val_main_v170_apply, val_main_v169_apply]
    have hi : idx_main_v169 (idx_main_v170 (ix2 e c)) = ix1 e := by funext a; match a with | ⟨0, _⟩ => rfl
    rw [hi]
    exact L4_enorm x1 h e
  -- the scatter by destination
  have hsc : val_main_v174 (F := Ideal) x0 x1 x2 x3 x4 x5 x6 x7 x8 (ix2 n j)
      = 0 + ∑ e ∈ Finset.univ.filter (fun e : Fin 524288 => dstOf x1 h e = n),
          lin (mat (val_main_v138 (F := Ideal) x0 x1 x2 x3 x4 x5 x6 x7)) (mat x8) (srcOf x1 h e) j * enorm (srcOf x1 h) (dstOf x1 h) e := by
    unfold val_main_v174 Host.scatterAdd
    rw [Ideal.hostScatterAdd_def, scatter_rows_dst scatter_S16384x256_S524288x1_S524288x256_1_0_0_1 rfl rfl rfl rfl x1 h _ _ (L4_dstcol x1) _ n j,
      val_main_v172_apply, val_main_cst_37_apply, Ideal.ofBits_def, Ideal.ofBits_zero_f32]
    refine congrArg (fun t => (0 : EReal) + t) (Finset.sum_congr rfl fun e _ => ?_)
    rw [val_main_v171_apply, hgat, hw, Ideal.mulf_def]
  -- the self loop
  have hself : val_main_v178 (F := Ideal) x0 x1 x2 x3 x4 x5 x6 x7 x8 (ix2 n j)
      = lin (mat (val_main_v138 (F := Ideal) x0 x1 x2 x3 x4 x5 x6 x7)) (mat x8) n j * (dinv (dstOf x1 h) n * dinv (dstOf x1 h) n) := by
    rw [val_main_v178_apply, val_main_v177_apply, val_main_v176_apply]
    have hi : idx_main_v176 (idx_main_v177 (ix2 n j)) = ix1 n := by funext a; match a with | ⟨0, _⟩ => rfl
    rw [hi, val_main_v175_apply, L4_dinv x1 h n, hlin, Ideal.mulf_def, Ideal.mulf_def]
  -- the bias
  have hb : val_main_v181 (F := Ideal) x9 (ix2 n j) = vec x9 j := by
    rw [val_main_v181_apply, val_main_v180_apply]
    have hi : idx_main_v180 (idx_main_v181 (ix2 n j)) = ix1 j := by funext a; match a with | ⟨0, _⟩ => rfl
    rw [hi]
    rfl
  rw [val_main_v182_apply, val_main_v179_apply, hsc, hself, hb, Ideal.addf_def, Ideal.addf_def]
  exact (layer_sparse_false x1 h _ _ _ n j).symm

end Cert.ReferenceIdeal.RefValue

end
-- ==== Proof.RefLayer5.lean ====
/-
  Layer 5 of the reference, read at one element.

  First what the layer recomputes from the endpoint array alone: the destination column its two scatters are indexed
  by, the normalised source and destination columns its three gathers are indexed by (under the range condition the
  normalisation changes nothing), the degree normalisation dinv (a scatter of ones by destination counts the edges into
  a node) and the edge weights enorm e = dinv (src e) * dinv (dst e).

  Then the layer: its output buffer at (n, j) is the specification's layer over the edge-by-edge aggregation: the linear
  map h = input * W (a sum over the contraction index), the rows h[src e] weighted by enorm e and summed over the edges
  into n (a gather of rows, a product, a scatter by destination into zeros), plus the self loop's h n * dinv n ^ 2, plus
  the bias, and the rectifier max(., 0).
-/
import proofs.«127812_j6760278524061_1_alg».proof.Proof.RefLayer4

noncomputable section

namespace Cert.ReferenceIdeal.RefValue

open Cert.ReferenceIdeal Cert.ReferenceIdeal.Read Idealize.ShloMosaic Idealize.ShloMosaic.ValueIdx
open Cert.GcnBridge Cert.GcnSpec
open scoped BigOperators

/-- The destinations as the column of scatter indices of the degree count. -/
theorem L5_degcol (x1 : EI) (p : Fin 524288) :
    val_main_v186 (F := Ideal) x1 (ix2 p (0 : Fin 1)) = x1 (ix2 (1 : Fin 2) p) := by
  rw [val_main_v186_apply]
  have hi : idx_main_v186 (ix2 p (0 : Fin 1)) = ix1 p := by funext a; match a with | ⟨0, _⟩ => rfl
  rw [hi, v3_at]

/-- The destinations as the column of scatter indices of the aggregation. -/
theorem L5_dstcol (x1 : EI) (p : Fin 524288) :
    val_main_v217 (F := Ideal) x1 (ix2 p (0 : Fin 1)) = x1 (ix2 (1 : Fin 2) p) := by
  rw [val_main_v217_apply]
  have hi : idx_main_v217 (ix2 p (0 : Fin 1)) = ix1 p := by funext a; match a with | ⟨0, _⟩ => rfl
  rw [hi, v3_at]

/-- The sources, normalised, as a column of gather indices: under the range condition still the sources. -/
theorem L5_srcn (x1 : EI) (h : InRange x1) (p : Fin 524288) :
    val_main_v196 (F := Ideal) x1 (ix2 p (0 : Fin 1)) = x1 (ix2 (0 : Fin 2) p) := by
  rw [val_main_v196_apply]
  have hi : idx_main_v196 (ix2 p (0 : Fin 1)) = ix1 p := by funext a; match a with | ⟨0, _⟩ => rfl
  rw [hi, val_main_v195_apply, val_main_v192_apply, val_main_v194_apply, val_main_v191_apply, val_main_v193_apply,
    val_main_c_41_apply, val_main_c_42_apply, v1_at]
  exact norm_id _ (h _).1

/-- The destinations, normalised, as a column of gather indices: still the destinations. -/
theorem L5_dstn (x1 : EI) (h : InRange x1) (p : Fin 524288) :
    val_main_v203 (F := Ideal) x1 (ix2 p (0 : Fin 1)) = x1 (ix2 (1 : Fin 2) p) := by
  rw [val_main_v203_apply]
  have hi : idx_main_v203 (ix2 p (0 : Fin 1)) = ix1 p := by funext a; match a with | ⟨0, _⟩ => rfl
  rw [hi, val_main_v202_apply, val_main_v199_apply, val_main_v201_apply, val_main_v198_apply, val_main_v200_apply,
    val_main_c_43_apply, val_main_c_44_apply, v3_at]
  exact norm_id _ (h _).1

/-- The sources, normalised, as the column of row numbers of the row gather: still the sources. -/
theorem L5_srcrows (x1 : EI) (h : InRange x1) (p : Fin 524288) :
    val_main_v211 (F := Ideal) x1 (ix2 p (0 : Fin 1)) = x1 (ix2 (0 : Fin 2) p) := by
  rw [val_main_v211_apply]
  have hi : idx_main_v211 (ix2 p (0 : Fin 1)) = ix1 p := by funext a; match a with | ⟨0, _⟩ => rfl
  rw [hi, val_main_v210_apply, val_main_v207_apply, val_main_v209_apply, val_main_v206_apply, val_main_v208_apply,
    val_main_c_45_apply, val_main_c_46_apply, v1_at]
  exact norm_id _ (h _).1

/-- The scatter of ones by destination counts the edges into a node; one more and the reciprocal square root: dinv. -/
theorem L5_dinv (x1 : EI) (h : InRange x1) (n : Fin 16384) :
    val_main_v190 (F := Ideal) x1 (ix1 n) = dinv (dstOf x1 h) n := by
  have h8 : val_main_v187 (F := Ideal) x1 (ix1 n)
      = 0 + ∑ _p ∈ Finset.univ.filter (fun p : Fin 524288 => dstOf x1 h p = n), (1 : EReal) := by
    unfold val_main_v187 Host.scatterAdd
    rw [Ideal.hostScatterAdd_def,
      scatter_vec_dst scatter_S16384_S524288x1_S524288_n_0_0_1 rfl rfl rfl rfl x1 h _ _ (L5_degcol x1) _ n,
      val_main_v185_apply, val_main_cst_39_apply, Ideal.ofBits_def, Ideal.ofBits_zero_f32]
    refine congrArg (fun t => (0 : EReal) + t) (Finset.sum_congr rfl fun p _ => ?_)
    rw [val_main_v184_apply, val_main_cst_38_apply, Ideal.ofBits_def, ofBits_one_f32]
  rw [val_main_v190_apply, val_main_v189_apply, val_main_v188_apply, val_main_cst_40_apply, h8, Ideal.hostUnary_rsqrt_def, Ideal.addf_def,
    Ideal.ofBits_def, ofBits_one_f32]
  rfl

/-- The edge weight: dinv gathered at the source times dinv gathered at the destination. -/
theorem L5_enorm (x1 : EI) (h : InRange x1) (e : Fin 524288) :
    val_main_v205 (F := Ideal) x1 (ix1 e) = enorm (srcOf x1 h) (dstOf x1 h) e := by
  have h18 : val_main_v197 (F := Ideal) x1 (ix1 e) = dinv (dstOf x1 h) (srcOf x1 h e) := by
    unfold val_main_v197
    rw [gather_vec_node gather_S16384_S524288x1_S524288_n_0_n_n_0_1_1 rfl rfl rfl rfl rfl rfl rfl _ _ e _ (h _)
      (L5_srcn x1 h e)]
    exact L5_dinv x1 h _
  have h25 : val_main_v204 (F := Ideal) x1 (ix1 e) = dinv (dstOf x1 h) (dstOf x1 h e) := by
    unfold val_main_v204
    rw [gather_vec_node gather_S16384_S524288x1_S524288_n_0_n_n_0_1_1 rfl rfl rfl rfl rfl rfl rfl _ _ e _ (h _)
      (L5_dstn x1 h e)]
    exact L5_dinv x1 h _
  rw [val_main_v205_apply, h18, h25, Ideal.mulf_def]
  rfl

set_option maxHeartbeats 1000000 in
/-- Layer 5: the output buffer at (n, j) is the specification's layer of the input buffer read as a matrix. -/
theorem layer5_read (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x10 : (⟨S64x64, .f32⟩ : BufTy).Contents (Elt Ideal)) (x11 : (⟨S64, .f32⟩ : BufTy).Contents (Elt Ideal)) (h : InRange x1) (n : Fin 16384) (j : Fin 64) :
    val_main_v227 (F := Ideal) x0 x1 x2 x3 x4 x5 x10 x11 (ix2 n j)
      = layer (sparseOf x1 h) true (mat (val_main_v93 (F := Ideal) x0 x1 x2 x3 x4 x5)) (mat x10) (vec x11) n j := by
  -- the linear map
  have hlin : ∀ (m : Fin 16384) (c : Fin 64),
      val_main_v183 (F := Ideal) x0 x1 x2 x3 x4 x5 x10 (ix2 m c) = lin (mat (val_main_v93 (F := Ideal) x0 x1 x2 x3 x4 x5)) (mat x10) m c := by
    intro m c
    rw [val_main_v183_apply]
    unfold lin
    refine Finset.sum_congr rfl fun k _ => ?_
    have el : lidx_main_v183 (ix2 m c) k = ix2 m k := by
      funext a; match a with | ⟨0, _⟩ => rfl | ⟨1, _⟩ => rfl
    have er : ridx_main_v183 (ix2 m c) k = ix2 k c := by
      funext a; match a with | ⟨0, _⟩ => rfl | ⟨1, _⟩ => rfl
    rw [el, er]
    rfl
  -- the rows gathered at the sources
  have hgat : ∀ (e : Fin 524288) (c : Fin 64),
      val_main_v212 (F := Ideal) x0 x1 x2 x3 x4 x5 x10 (ix2 e c) = lin (mat (val_main_v93 (F := Ideal) x0 x1 x2 x3 x4 x5)) (mat x10) (srcOf x1 h e) c := by
    intro e c
    unfold val_main_v212
    rw [gather_rows_node gather_S16384x64_S524288x1_S524288x64_1_0_n_n_0_1_164 rfl rfl rfl rfl rfl rfl rfl _ _ e c _ (h _) (L5_srcrows x1 h e)]
    exact hlin _ _
  -- the edge weights, one per row
  have hw : ∀ (e : Fin 524288) (c : Fin 64),
      val_main_v214 (F := Ideal) x1 (ix2 e c) = enorm (srcOf x1 h) (dstOf x1 h) e := by
    intro e c
    rw [val_main_v214_apply, val_main_v213_apply]
    have hi : idx_main_v213 (idx_main_v214 (ix2 e c)) = ix1 e := by funext a; match a with | ⟨0, _⟩ => rfl
    rw [hi]
    exact L5_enorm x1 h e
  -- the scatter by destination
  have hsc : val_main_v218 (F := Ideal) x0 x1 x2 x3 x4 x5 x10 (ix2 n j)
      = 0 + ∑ e ∈ Finset.univ.filter (fun e : Fin 524288 => dstOf x1 h e = n),
          lin (mat (val_main_v93 (F := Ideal) x0 x1 x2 x3 x4 x5)) (mat x10) (srcOf x1 h e) j * enorm (srcOf x1 h) (dstOf x1 h) e := by
    unfold val_main_v218 Host.scatterAdd
    rw [Ideal.hostScatterAdd_def, scatter_rows_dst scatter_S16384x64_S524288x1_S524288x64_1_0_0_1 rfl rfl rfl rfl x1 h _ _ (L5_dstcol x1) _ n j,
      val_main_v216_apply, val_main_cst_47_apply, Ideal.ofBits_def, Ideal.ofBits_zero_f32]
    refine congrArg (fun t => (0 : EReal) + t) (Finset.sum_congr rfl fun e _ => ?_)
    rw [val_main_v215_apply, hgat, hw, Ideal.mulf_def]
  -- the self loop
  have hself : val_main_v222 (F := Ideal) x0 x1 x2 x3 x4 x5 x10 (ix2 n j)
      = lin (mat (val_main_v93 (F := Ideal) x0 x1 x2 x3 x4 x5)) (mat x10) n j * (dinv (dstOf x1 h) n * dinv (dstOf x1 h) n) := by
    rw [val_main_v222_apply, val_main_v221_apply, val_main_v220_apply]
    have hi : idx_main_v220 (idx_main_v221 (ix2 n j)) = ix1 n := by funext a; match a with | ⟨0, _⟩ => rfl
    rw [hi, val_main_v219_apply, L5_dinv x1 h n, hlin, Ideal.mulf_def, Ideal.mulf_def]
  -- the bias
  have hb : val_main_v225 (F := Ideal) x11 (ix2 n j) = vec x11 j := by
    rw [val_main_v225_apply, val_main_v224_apply]
    have hi : idx_main_v224 (idx_main_v225 (ix2 n j)) = ix1 j := by funext a; match a with | ⟨0, _⟩ => rfl
    rw [hi]
    rfl
  rw [val_main_v227_apply, val_main_v226_apply, val_main_v223_apply, hsc, hself, hb, val_main_call3_v0_apply, val_main_call3_cst_apply,
    Ideal.maximumf_def, Ideal.addf_def, Ideal.addf_def, Ideal.ofBits_def, Ideal.ofBits_zero_f32]
  exact (layer_sparse_true x1 h _ _ _ n j).symm

end Cert.ReferenceIdeal.RefValue

end
-- ==== Proof.RefValue.lean ====
/-
  The reference's two results are the specification's network over the edge-by-edge aggregation.

  The five layers chain: each layer's lemma reads its output buffer as the specification's layer of its input buffer
  read as a matrix, so the encoder's output buffer is the specification's enc, the attribute decoder's last buffer its
  xrec, and the structure decoder's buffer its srow; the last product, of that buffer with its transpose, is the Gram
  matrix of the rows, adjrec.
-/
import proofs.«127812_j6760278524061_1_alg».proof.Proof.RefLayer3
import proofs.«127812_j6760278524061_1_alg».proof.Proof.RefLayer5

noncomputable section

namespace Cert.ReferenceIdeal.RefValue

open Cert.ReferenceIdeal Cert.ReferenceIdeal.Read Idealize.ShloMosaic Idealize.ShloMosaic.ValueIdx
open Cert.GcnBridge Cert.GcnSpec
open scoped BigOperators

/-- The first encoder layer's buffer as a matrix. -/
theorem z1_read (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (h : InRange x1) :
    mat (val_main_v48 (F := Ideal) x0 x1 x2 x3) = layer (sparseOf x1 h) true (mat x0) (mat x2) (vec x3) := by
  funext a b
  exact layer1_read x0 x1 x2 x3 h a b

/-- The encoder's output buffer as a matrix: two layers. -/
theorem z_read (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (h : InRange x1) :
    mat (val_main_v93 (F := Ideal) x0 x1 x2 x3 x4 x5)
      = layer (sparseOf x1 h) true (layer (sparseOf x1 h) true (mat x0) (mat x2) (vec x3)) (mat x4) (vec x5) := by
  funext a b
  rw [← z1_read x0 x1 x2 x3 h]
  exact layer2_read x0 x1 x2 x3 x4 x5 h a b

/-- The attribute decoder's first buffer as a matrix. -/
theorem a_read (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x128, .f32⟩ : BufTy).Contents (Elt Ideal)) (x7 : (⟨S128, .f32⟩ : BufTy).Contents (Elt Ideal)) (h : InRange x1) :
    mat (val_main_v138 (F := Ideal) x0 x1 x2 x3 x4 x5 x6 x7)
      = layer (sparseOf x1 h) true
          (layer (sparseOf x1 h) true (layer (sparseOf x1 h) true (mat x0) (mat x2) (vec x3)) (mat x4) (vec x5))
          (mat x6) (vec x7) := by
  funext a b
  rw [← z_read x0 x1 x2 x3 x4 x5 h]
  exact layer3_read x0 x1 x2 x3 x4 x5 x6 x7 h a b

/-- The reference's first result, the reconstructed attributes, at (n, k). -/
theorem ref_xrec (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal))
    (x10 : (⟨2, ![64, 64]⟩ : Shape).Idx → EReal) (x11 : (⟨1, ![64]⟩ : Shape).Idx → EReal)
    (h : InRange x1) (n : Fin 16384) (k : Fin 256) :
    val_main_v182 (F := Ideal) x0 x1 x2 x3 x4 x5 x6 x7 x8 x9 (ix2 n k)
      = xrec (sparseOf x1 h) (params x2 x3 x4 x5 x6 x7 x8 x9 x10 x11) (mat x0) n k := by
  rw [layer4_read x0 x1 x2 x3 x4 x5 x6 x7 x8 x9 h n k, a_read x0 x1 x2 x3 x4 x5 x6 x7 h]
  rfl

/-- The reference's second result, the reconstructed adjacency, at (n, m). -/
theorem ref_adj (x0 : (⟨S16384x256, .f32⟩ : BufTy).Contents (Elt Ideal)) (x1 : EI) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x10 : (⟨S64x64, .f32⟩ : BufTy).Contents (Elt Ideal)) (x11 : (⟨S64, .f32⟩ : BufTy).Contents (Elt Ideal))
    (x6 : (⟨2, ![64, 128]⟩ : Shape).Idx → EReal) (x7 : (⟨1, ![128]⟩ : Shape).Idx → EReal)
    (x8 : (⟨2, ![128, 256]⟩ : Shape).Idx → EReal) (x9 : (⟨1, ![256]⟩ : Shape).Idx → EReal)
    (h : InRange x1) (n m : Fin 16384) :
    val_main_v229 (F := Ideal) x0 x1 x2 x3 x4 x5 x10 x11 (ix2 n m)
      = adjrec (sparseOf x1 h) (params x2 x3 x4 x5 x6 x7 x8 x9 x10 x11) (mat x0) n m := by
  have hs : ∀ (a : Fin 16384) (b : Fin 64), val_main_v227 (F := Ideal) x0 x1 x2 x3 x4 x5 x10 x11 (ix2 a b)
      = srow (sparseOf x1 h) (params x2 x3 x4 x5 x6 x7 x8 x9 x10 x11) (mat x0) a b := by
    intro a b
    rw [layer5_read x0 x1 x2 x3 x4 x5 x10 x11 h a b, z_read x0 x1 x2 x3 x4 x5 h]
    rfl
  rw [val_main_v229_apply]
  unfold adjrec
  refine Finset.sum_congr rfl fun k _ => ?_
  rw [val_main_v228_apply]
  have el : lidx_main_v229 (ix2 n m) k = ix2 n k := by
    funext a; match a with | ⟨0, _⟩ => rfl | ⟨1, _⟩ => rfl
  have er : idx_main_v228 (ridx_main_v229 (ix2 n m) k) = ix2 m k := by
    funext a; match a with | ⟨0, _⟩ => rfl | ⟨1, _⟩ => rfl
  rw [el, er, hs, hs]

end Cert.ReferenceIdeal.RefValue

end
-- ==== Proof.GcnAlgebra.lean ====
/-
  The two arrangements of a graph-convolution layer agree on real data.

  On the extended reals multiplication does not distribute over addition at the infinities, so the identity
  "row n of (A-hat · h) = the edge-by-edge sum" is not unconditional. It holds as soon as every entry involved is a
  real number: the degree is a natural number plus one, hence a positive real, so its inverse square root is real;
  the edge weights are then products of reals; and for real features the identity is the usual one over ℝ:
      ∑_m ( ∑_{e : d e = n, s e = m} w_e + [m = n] c_n ) · h_m  =  ∑_{e : d e = n} h_{s e} · w_e + h_n · c_n ,
  obtained by distributing, exchanging the two sums (each edge lies in exactly one fibre m = s e) and keeping the one
  diagonal term. Real data stay real through every layer (sums, products and maxima of reals are real), so the whole
  network evaluates to the same values over either arrangement.
-/
import proofs.«127812_j6760278524061_1_alg».proof.Proof.Spec

noncomputable section

namespace Cert.GcnAlgebra

open Idealize.ShloMosaic Cert.GcnSpec
open scoped BigOperators

/-- An extended real that is a real number. -/
def IsReal (x : EReal) : Prop := ∃ r : ℝ, x = (r : EReal)

theorem isReal_coe (r : ℝ) : IsReal (r : EReal) := ⟨r, rfl⟩

theorem isReal_zero : IsReal 0 := ⟨0, by simp⟩

theorem isReal_one : IsReal 1 := ⟨1, by simp⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals. -/
theorem coe_sum {ι : Type*} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem IsReal.sum {ι : Type*} (S : Finset ι) (f : ι → EReal) (hf : ∀ i ∈ S, IsReal (f i)) :
    IsReal (∑ i ∈ S, f i) := by
  classical
  induction S using Finset.induction_on with
  | empty => simpa using isReal_zero
  | insert a S ha ih =>
    rw [Finset.sum_insert ha]
    exact (hf a (Finset.mem_insert_self a S)).add (ih fun i hi => hf i (Finset.mem_insert_of_mem hi))

/-- The inverse square root of a positive real is the real \`(√r)⁻¹\`. -/
theorem rsqrt_coe_pos {r : ℝ} (hr : 0 < r) : Ideal.rsqrt (r : EReal) = (((Real.sqrt r)⁻¹ : ℝ) : EReal) := by
  have h : Ideal.rsqrt (r : EReal)
      = if r < 0 then ⊥ else if r = 0 then ⊤ else (((Real.sqrt r)⁻¹ : ℝ) : EReal) := rfl
  rw [h, if_neg (not_lt.2 hr.le), if_neg hr.ne']

variable {N E : Nat}

/-! ### The real quantities of the graph -/

/-- In-degree plus one, as a real. -/
def degR (d : Fin E → Fin N) (n : Fin N) : ℝ :=
  (0 + ∑ _e ∈ Finset.univ.filter (fun e => d e = n), (1 : ℝ)) + 1

theorem degR_pos (d : Fin E → Fin N) (n : Fin N) : 0 < degR d n := by
  have h : (0 : ℝ) ≤ ∑ _e ∈ Finset.univ.filter (fun e => d e = n), (1 : ℝ) :=
    Finset.sum_nonneg fun _ _ => zero_le_one
  unfold degR
  linarith

theorem deg_eq (d : Fin E → Fin N) (n : Fin N) : deg d n = (degR d n : EReal) := by
  unfold deg degR
  rw [EReal.coe_add, EReal.coe_add, ← coe_sum, EReal.coe_zero, EReal.coe_one]

/-- \`deg ^ (-1/2)\` as a real. -/
def dinvR (d : Fin E → Fin N) (n : Fin N) : ℝ := (Real.sqrt (degR d n))⁻¹

theorem dinv_eq (d : Fin E → Fin N) (n : Fin N) : dinv d n = (dinvR d n : EReal) := by
  unfold dinv dinvR
  rw [deg_eq, rsqrt_coe_pos (degR_pos d n)]

theorem dinv_real (d : Fin E → Fin N) (n : Fin N) : IsReal (dinv d n) := ⟨_, dinv_eq d n⟩

/-- The weight of an edge as a real. -/
def enormR (s d : Fin E → Fin N) (e : Fin E) : ℝ := dinvR d (s e) * dinvR d (d e)

theorem enorm_eq (s d : Fin E → Fin N) (e : Fin E) : GcnSpec.enorm s d e = (enormR s d e : EReal) := by
  unfold GcnSpec.enorm enormR
  rw [dinv_eq, dinv_eq, EReal.coe_mul]

theorem enorm_real (s d : Fin E → Fin N) (e : Fin E) : IsReal (GcnSpec.enorm s d e) := ⟨_, enorm_eq s d e⟩

/-- The dense operator as a real matrix. -/
def AhatR (s d : Fin E → Fin N) (n m : Fin N) : ℝ :=
  (0 + ∑ e ∈ Finset.univ.filter (fun e => d e = n ∧ s e = m), enormR s d e)
    + ∑ i ∈ Finset.univ.filter (fun i : Fin N => i = n ∧ i = m), dinvR d i * dinvR d i

theorem Ahat_eq (s d : Fin E → Fin N) (n m : Fin N) : Ahat s d n m = (AhatR s d n m : EReal) := by
  unfold Ahat AhatR
  simp only [enorm_eq, dinv_eq, ← EReal.coe_mul, coe_sum, ← EReal.coe_add, ← EReal.coe_zero]

/-! ### The identity over the reals -/

/-- Row \`n\` of the dense operator against real features is the edge-by-edge sum. -/
theorem dense_eq_sparse_real {D : Nat} (s d : Fin E → Fin N) (η : Fin N → Fin D → ℝ) (n : Fin N) (j : Fin D) :
    ∑ m, AhatR s d n m * η m j
      = (0 + ∑ e ∈ Finset.univ.filter (fun e => d e = n), η (s e) j * enormR s d e)
          + η n j * (dinvR d n * dinvR d n) := by
  -- the edges: exchange the sums; the edge \`e\` lies in the one fibre \`m = s e\`
  have hA : ∑ m, (∑ e ∈ Finset.univ.filter (fun e => d e = n ∧ s e = m), enormR s d e) * η m j
      = ∑ e ∈ Finset.univ.filter (fun e => d e = n), η (s e) j * enormR s d e := by
    calc ∑ m, (∑ e ∈ Finset.univ.filter (fun e => d e = n ∧ s e = m), enormR s d e) * η m j
        = ∑ m, ∑ e, (if d e = n ∧ s e = m then enormR s d e * η m j else 0) := by
          refine Finset.sum_congr rfl fun m _ => ?_
          rw [Finset.sum_mul, Finset.sum_filter]
      _ = ∑ e, ∑ m, (if d e = n ∧ s e = m then enormR s d e * η m j else 0) := Finset.sum_comm
      _ = ∑ e, (if d e = n then η (s e) j * enormR s d e else 0) := by
          refine Finset.sum_congr rfl fun e _ => ?_
          by_cases hde : d e = n
          · simp [hde, mul_comm]
          · simp [hde]
      _ = ∑ e ∈ Finset.univ.filter (fun e => d e = n), η (s e) j * enormR s d e :=
          (Finset.sum_filter _ _).symm
  -- the diagonal: only \`m = n\` contributes, with the single term \`i = n\`
  have hB : ∑ m, (∑ i ∈ Finset.univ.filter (fun i : Fin N => i = n ∧ i = m), dinvR d i * dinvR d i) * η m j
      = η n j * (dinvR d n * dinvR d n) := by
    rw [Finset.sum_eq_single n]
    · have h1 : Finset.univ.filter (fun i : Fin N => i = n ∧ i = n) = {n} := by
        ext i; simp
      rw [h1, Finset.sum_singleton, mul_comm]
    · intro m _ hm
      have h0 : Finset.univ.filter (fun i : Fin N => i = n ∧ i = m) = ∅ := by
        ext i
        simp only [Finset.mem_filter, Finset.mem_univ, true_and, Finset.notMem_empty, iff_false, not_and]
        intro h1 h2
        exact hm (h2.symm.trans h1)
      rw [h0, Finset.sum_empty, zero_mul]
    · intro h; exact absurd (Finset.mem_univ n) h
  unfold AhatR
  simp only [zero_add, add_mul, Finset.sum_add_distrib]
  rw [hA, hB]

/-! ### The arrangements on real data -/

theorem aggDense_eq_aggSparse {D : Nat} (s d : Fin E → Fin N) (h : Fin N → Fin D → EReal) (b : Fin D → EReal)
    (hh : ∀ n j, IsReal (h n j)) : aggDense s d h b = aggSparse s d h b := by
  choose η hη using hh
  obtain rfl : h = fun n j => ((η n j : ℝ) : EReal) := by funext n j; exact hη n j
  funext n j
  unfold aggDense aggSparse
  congr 1
  simp only [Ahat_eq, enorm_eq, dinv_eq, ← EReal.coe_mul, coe_sum, ← EReal.coe_add, ← EReal.coe_zero]
  rw [dense_eq_sparse_real]

theorem aggSparse_real {D : Nat} (s d : Fin E → Fin N) (h : Fin N → Fin D → EReal) (b : Fin D → EReal)
    (hh : ∀ n j, IsReal (h n j)) (hb : ∀ j, IsReal (b j)) : ∀ n j, IsReal (aggSparse s d h b n j) := by
  intro n j
  unfold aggSparse
  refine (((isReal_zero.add ?_).add ?_)).add (hb j)
  · exact IsReal.sum _ _ fun e _ => (hh (s e) j).mul (enorm_real s d e)
  · exact (hh n j).mul ((dinv_real d n).mul (dinv_real d n))

theorem lin_real {K D : Nat} (h : Fin N → Fin K → EReal) (W : Fin K → Fin D → EReal) :
    (∀ n k, IsReal (h n k)) → (∀ k j, IsReal (W k j)) → ∀ n j, IsReal (lin h W n j) := by
  intro hh hW n j
  unfold lin
  exact IsReal.sum _ _ fun k _ => (hh n k).mul (hW k j)

/-- One layer gives the same values over either arrangement. -/
theorem layer_dense_eq_sparse (s d : Fin E → Fin N) (act : Bool) {K D : Nat} (h : Fin N → Fin K → EReal)
    (W : Fin K → Fin D → EReal) (b : Fin D → EReal) (hh : ∀ n k, IsReal (h n k)) (hW : ∀ k j, IsReal (W k j)) :
    layer (fun h b => aggDense s d h b) act h W b = layer (fun h b => aggSparse s d h b) act h W b := by
  funext n j
  simp only [layer]
  rw [aggDense_eq_aggSparse s d (lin h W) b (lin_real h W hh hW)]

/-- One layer keeps real data real. -/
theorem layer_sparse_real (s d : Fin E → Fin N) (act : Bool) {K D : Nat} (h : Fin N → Fin K → EReal)
    (W : Fin K → Fin D → EReal) (b : Fin D → EReal) (hh : ∀ n k, IsReal (h n k)) (hW : ∀ k j, IsReal (W k j))
    (hb : ∀ j, IsReal (b j)) : ∀ n j, IsReal (layer (fun h b => aggSparse s d h b) act h W b n j) := by
  intro n j
  have hr := aggSparse_real s d (lin h W) b (lin_real h W hh hW) hb n j
  simp only [layer]
  cases act
  · simpa using hr
  · simpa using hr.max isReal_zero

variable {I H1 H2 : Nat}

/-- Every parameter is a real number. -/
structure RealParams (P : Params I H1 H2) : Prop where
  Wg1 : ∀ i j, IsReal (P.Wg1 i j)
  bg1 : ∀ j, IsReal (P.bg1 j)
  Wg2 : ∀ i j, IsReal (P.Wg2 i j)
  bg2 : ∀ j, IsReal (P.bg2 j)
  Wa1 : ∀ i j, IsReal (P.Wa1 i j)
  ba1 : ∀ j, IsReal (P.ba1 j)
  Wa2 : ∀ i j, IsReal (P.Wa2 i j)
  ba2 : ∀ j, IsReal (P.ba2 j)
  Ws : ∀ i j, IsReal (P.Ws i j)
  bs : ∀ j, IsReal (P.bs j)

theorem enc_dense_eq_sparse (s d : Fin E → Fin N) (P : Params I H1 H2) (x : Fin N → Fin I → EReal)
    (hP : RealParams P) (hx : ∀ n k, IsReal (x n k)) :
    enc (fun h b => aggDense s d h b) P x = enc (fun h b => aggSparse s d h b) P x := by
  unfold enc
  rw [layer_dense_eq_sparse s d true x P.Wg1 P.bg1 hx hP.Wg1,
    layer_dense_eq_sparse s d true _ P.Wg2 P.bg2 (layer_sparse_real s d true x P.Wg1 P.bg1 hx hP.Wg1 hP.bg1) hP.Wg2]

theorem enc_sparse_real (s d : Fin E → Fin N) (P : Params I H1 H2) (x : Fin N → Fin I → EReal)
    (hP : RealParams P) (hx : ∀ n k, IsReal (x n k)) :
    ∀ n j, IsReal (enc (fun h b => aggSparse s d h b) P x n j) := by
  unfold enc
  exact layer_sparse_real s d true _ P.Wg2 P.bg2 (layer_sparse_real s d true x P.Wg1 P.bg1 hx hP.Wg1 hP.bg1)
    hP.Wg2 hP.bg2

theorem xrec_dense_eq_sparse (s d : Fin E → Fin N) (P : Params I H1 H2) (x : Fin N → Fin I → EReal)
    (hP : RealParams P) (hx : ∀ n k, IsReal (x n k)) :
    xrec (fun h b => aggDense s d h b) P x = xrec (fun h b => aggSparse s d h b) P x := by
  have hz := enc_sparse_real s d P x hP hx
  unfold xrec
  rw [enc_dense_eq_sparse s d P x hP hx,
    layer_dense_eq_sparse s d true _ P.Wa1 P.ba1 hz hP.Wa1,
    layer_dense_eq_sparse s d false _ P.Wa2 P.ba2 (layer_sparse_real s d true _ P.Wa1 P.ba1 hz hP.Wa1 hP.ba1) hP.Wa2]

theorem srow_dense_eq_sparse (s d : Fin E → Fin N) (P : Params I H1 H2) (x : Fin N → Fin I → EReal)
    (hP : RealParams P) (hx : ∀ n k, IsReal (x n k)) :
    srow (fun h b => aggDense s d h b) P x = srow (fun h b => aggSparse s d h b) P x := by
  have hz := enc_sparse_real s d P x hP hx
  unfold srow
  rw [enc_dense_eq_sparse s d P x hP hx, layer_dense_eq_sparse s d true _ P.Ws P.bs hz hP.Ws]

theorem adjrec_dense_eq_sparse (s d : Fin E → Fin N) (P : Params I H1 H2) (x : Fin N → Fin I → EReal)
    (hP : RealParams P) (hx : ∀ n k, IsReal (x n k)) :
    adjrec (fun h b => aggDense s d h b) P x = adjrec (fun h b => aggSparse s d h b) P x := by
  funext n m
  unfold adjrec
  rw [srow_dense_eq_sparse s d P x hP hx]

end Cert.GcnAlgebra

end
-- ==== Proof.PreFacts.lean ====
/-
  The precondition, decoded.

  The printed predicate `finite_inputs` is one conjunction: for each of the eleven float arrays `x`, "every entry of
  `|x|` is below `+∞`", and for the array of edge endpoints, "every entry is `≥ 0`" and "every entry is `< 16384`"
  (signed). Each "every entry" is a reduction by `and` of an array of truth values down to a single one. Here the
  conjunction is split, each reduction is read back entry by entry, and each entry's comparison is turned into the fact
  it states: an extended real `x` with `max x (-x) < ⊤` is a real number; a word with `0 ≤ toInt` and `toInt < 16384`
  is a node number.
-/
import proofs.«127812_j6760278524061_1_alg».proof.Pre_finite_inputs
import proofs.«127812_j6760278524061_1_alg».proof.Proof.Gen.Pre_finite_inputs
import proofs.«127812_j6760278524061_1_alg».proof.Proof.Bridge
import proofs.«127812_j6760278524061_1_alg».proof.Defs
import Idealize.ShloMosaic.PureOps.Ideal
import Idealize.ShloMosaic.Lib.ReduceAll
import Idealize.ShloMosaic.Lib.ValueIdx

noncomputable section

namespace Cert.PreFacts

open Idealize.ShloMosaic Idealize.ShloMosaic.ValueIdx Idealize.SL.Sem Cert.Pre_finite_inputs

/-- The shape of a single truth value has one index. -/
instance : Subsingleton S_.Idx := ⟨fun a b => funext fun d => d.elim0⟩

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` denotes `+∞`. -/
theorem inf_eq_top : Ideal.ofBits .f32 0x7F800000#32 = ⊤ := by simp [Ideal.ofBits, Ideal.ieee]

/-- "Every entry of `|x|` is below `+∞`", read back: every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu ix0 = 1#1) :
    ∀ i, ∃ r : ℝ, x i = (r : EReal) := by
  intro i
  have h := Host.reduce_andi_all _ init hr hu ix0 e i
  have h' : Ideal.cmp .olt (max (x i) (-(x i))) (Ideal.ofBits .f32 0x7F800000#32) = 1#1 := h
  rw [inf_eq_top] at h'
  have h'' : max (x i) (-(x i)) < ⊤ := by
    by_contra hn
    simp [Ideal.cmp, hn] at h'
  exact real_of_abs_lt_top _ h''

/-- "Every endpoint is `≥ 0`" and "every endpoint is `< 16384`", read back: every endpoint is a node number. -/
theorem inRange_of_all {axes : List (Fin S2x524288.rank)} (a : IVec S2x524288 32)
    (hb : S_.BroadcastsInDim S2x524288 (![] : Fin 0 → Fin S2x524288.rank)) (hr : S2x524288.ReducesTo axes S_)
    (hu : 0 < S_.numel) (init init' : IVec S_ 1)
    (e0 : Host.reduce IntOp.andi (cmpi .sge a (broadcastInDim S2x524288 ![] hb (constantI S_ 32 0#32))) init hr hu ix0 = 1#1)
    (e1 : Host.reduce IntOp.andi (cmpi .slt a (broadcastInDim S2x524288 ![] hb (constantI S_ 32 16384#32))) init' hr hu ix0 = 1#1) :
    Cert.GcnBridge.InRange a := by
  intro i
  have h0 := Host.reduce_andi_all _ init hr hu ix0 e0 i
  have h1 := Host.reduce_andi_all _ init' hr hu ix0 e1 i
  have h0' : IntOp.cmpi .sge (a i) (0#32) = 1#1 := h0
  have h1' : IntOp.cmpi .slt (a i) (16384#32) = 1#1 := h1
  rw [IntOp.cmpi_sge] at h0'
  rw [IntOp.cmpi_slt] at h1'
  have z : (0#32 : BitVec 32).toInt = 0 := by decide
  have n : (16384#32 : BitVec 32).toInt = 16384 := by decide
  rw [z] at h0'
  rw [n] at h1'
  exact ⟨h0', h1'⟩

/-- THE PRECONDITION DECODED: where `finite_inputs` holds, every entry of each float argument is a real number and every
    entry of the endpoint array is a node number. -/
theorem pre_facts [Cert.Pre_finite_inputs.Facts]
    (a0 : FVec Ideal S16384x256 .f32) (a1 : IVec S2x524288 32) (a2 : FVec Ideal S256x128 .f32)
    (a3 : FVec Ideal S128 .f32) (a4 : FVec Ideal S128x64 .f32) (a5 : FVec Ideal S64 .f32)
    (a6 : FVec Ideal S64x128 .f32) (a7 : FVec Ideal S128 .f32) (a8 : FVec Ideal S128x256 .f32)
    (a9 : FVec Ideal S256 .f32) (a10 : FVec Ideal S64x64 .f32) (a11 : FVec Ideal S64 .f32)
    (hpre : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal)) ∧ Cert.GcnBridge.InRange a1 := by
  have e := congrFun hpre ix0
  dsimp only [fn, fn_part1, fn_part2, fn_part3] at e
  simp only [andi, IntOp.andi_eq_one] at e
  obtain ⟨⟨⟨⟨⟨⟨⟨⟨⟨⟨⟨⟨h0, h2⟩, h3⟩, h4⟩, h5⟩, h6⟩, h7⟩, h8⟩, h9⟩, h10⟩, h11⟩, hge⟩, hlt⟩ := e
  exact ⟨real_of_all a0 _ _ _ _ h0, real_of_all a2 _ _ _ _ h2, real_of_all a3 _ _ _ _ h3, real_of_all a4 _ _ _ _ h4,
    real_of_all a5 _ _ _ _ h5, real_of_all a6 _ _ _ _ h6, real_of_all a7 _ _ _ _ h7, real_of_all a8 _ _ _ _ h8,
    real_of_all a9 _ _ _ _ h9, real_of_all a10 _ _ _ _ h10, real_of_all a11 _ _ _ _ h11,
    inRange_of_all a1 _ _ _ _ _ hge hlt⟩

/-- The same, of the argument arrays a memory of `KernelIdeal` holds on device `c`, where `Pre_KernelIdeal` holds. -/
theorem of_pre_kernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ Cert.GcnBridge.InRange (m ((c.tc : Thread Cert.KernelIdeal.nD Cert.KernelIdeal.τ).loc Cert.KernelIdeal.main_arg1)) :=
  pre_facts _ _ _ _ _ _ _ _ _ _ _ _ (hpre c)

/-- The same, of the argument arrays a memory of `ReferenceIdeal` holds on device `c`, where `Pre_ReferenceIdeal` holds. -/
theorem of_pre_referenceIdeal [Cert.Pre_finite_inputs.Facts]
    (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal))
      ∧ (∀ i, ∃ r : ℝ, m ((c.tc : Thread Cert.ReferenceIdeal.nD Cert.ReferenceIdeal.τ).loc Cert.ReferenceIdeal.main_arg2) i = (r : EReal))
      ∧ (∀ i, ∃ r : ℝ, m ((c.tc : Thread Cert.ReferenceIdeal.nD Cert.ReferenceIdeal.τ).loc Cert.ReferenceIdeal.main_arg3) i = (r : EReal))
      ∧ (∀ i, ∃ r : ℝ, m ((c.tc : Thread Cert.ReferenceIdeal.nD Cert.ReferenceIdeal.τ).loc Cert.ReferenceIdeal.main_arg4) i = (r : EReal))
      ∧ (∀ i, ∃ r : ℝ, m ((c.tc : Thread Cert.ReferenceIdeal.nD Cert.ReferenceIdeal.τ).loc Cert.ReferenceIdeal.main_arg5) i = (r : EReal))
      ∧ (∀ i, ∃ r : ℝ, m ((c.tc : Thread Cert.ReferenceIdeal.nD Cert.ReferenceIdeal.τ).loc Cert.ReferenceIdeal.main_arg6) i = (r : EReal))
      ∧ (∀ i, ∃ r : ℝ, m ((c.tc : Thread Cert.ReferenceIdeal.nD Cert.ReferenceIdeal.τ).loc Cert.ReferenceIdeal.main_arg7) i = (r : EReal))
      ∧ (∀ i, ∃ r : ℝ, m ((c.tc : Thread Cert.ReferenceIdeal.nD Cert.ReferenceIdeal.τ).loc Cert.ReferenceIdeal.main_arg8) i = (r : EReal))
      ∧ (∀ i, ∃ r : ℝ, m ((c.tc : Thread Cert.ReferenceIdeal.nD Cert.ReferenceIdeal.τ).loc Cert.ReferenceIdeal.main_arg9) i = (r : EReal))
      ∧ (∀ i, ∃ r : ℝ, m ((c.tc : Thread Cert.ReferenceIdeal.nD Cert.ReferenceIdeal.τ).loc Cert.ReferenceIdeal.main_arg10) i = (r : EReal))
      ∧ (∀ i, ∃ r : ℝ, m ((c.tc : Thread Cert.ReferenceIdeal.nD Cert.ReferenceIdeal.τ).loc Cert.ReferenceIdeal.main_arg11) i = (r : EReal))
      ∧ Cert.GcnBridge.InRange (m ((c.tc : Thread Cert.ReferenceIdeal.nD Cert.ReferenceIdeal.τ).loc Cert.ReferenceIdeal.main_arg1)) :=
  pre_facts _ _ _ _ _ _ _ _ _ _ _ _ (hpre c)

end Cert.PreFacts

end
-- ==== Proof.lean ====
/-
  The graph autoencoder's Pallas program against its edge-by-edge reference: the five claims.

  The kernel program builds the dense propagation operator `Â = D^{-1/2} (A + I) D^{-1/2}` once, by two host scatters of
  the edge weights, and evaluates every graph-convolution layer as two tiled matrix products, `H = X · W` and
  `Â · H + b` (accumulated over eight column blocks of `Â`), and the structure decoder as the Gram matrix `S · Sᵀ`. The
  reference evaluates the same layers edge by edge: a gather of `H` at the edges' sources, a weighting by the edge
  weights, a segment sum at the edges' destinations, and the self-loop term. At the ideal values both are the same
  network (the specification's `xrec` and `adjrec`), over the dense arrangement on the kernel's side and the edge-by-edge
  arrangement on the reference's; the two arrangements agree wherever the features are real numbers, because the dense
  sum is the edge sum regrouped by source node, which needs distributivity and so finiteness — the precondition's finite
  inputs — and endpoints that are node numbers — the precondition's index range.

  The frames: each program runs to the end, faults nowhere and leaves its arguments as they were; for the two kernel
  programs this is the launch of the eleven kernel regions among the host stretches, every region's body run at every
  grid point; for the reference it is its run with the results dropped.
-/
import proofs.«127812_j6760278524061_1_alg».proof.Defs
import proofs.«127812_j6760278524061_1_alg».proof.Proof.Gen.Kernel
import proofs.«127812_j6760278524061_1_alg».proof.Proof.Gen.KernelIdeal
import proofs.«127812_j6760278524061_1_alg».proof.Proof.Gen.ReferenceIdeal
import proofs.«127812_j6760278524061_1_alg».proof.Proof.Gen.Pre_finite_inputs
import proofs.«127812_j6760278524061_1_alg».proof.Proof.Gen.ReferenceIdeal.Run
import proofs.«127812_j6760278524061_1_alg».proof.Proof.Gen.ReferenceIdeal.Read
import proofs.«127812_j6760278524061_1_alg».proof.Proof.KB.Run
import proofs.«127812_j6760278524061_1_alg».proof.Proof.KI.Run
import proofs.«127812_j6760278524061_1_alg».proof.Proof.KI.Compose
import proofs.«127812_j6760278524061_1_alg».proof.Proof.RefValue
import proofs.«127812_j6760278524061_1_alg».proof.Proof.GcnAlgebra
import proofs.«127812_j6760278524061_1_alg».proof.Proof.PreFacts
import Idealize.ShloMosaic.Adequacy
import Idealize.ShloMosaic.Init

noncomputable section

namespace Cert.Proof

open Idealize.ShloMosaic Idealize.SL.Sem Idealize.ShloMosaic.ValueIdx

/-- A matrix as an array. -/
def ofMat {A B : Nat} (f : Fin A → Fin B → EReal) : (⟨2, ![A, B]⟩ : Shape).Idx → EReal := fun i =>
  f ⟨(i 0).val, by have h := (i 0).isLt; exact h⟩ ⟨(i 1).val, by have h := (i 1).isLt; exact h⟩

theorem ofMat_ix2 {A B : Nat} (f : Fin A → Fin B → EReal) (a : Fin A) (b : Fin B) : ofMat f (ix2 a b) = f a b := rfl

/-! ## The frames and the idealization -/

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-! ## The two programs compute one function -/

section Algebraic

variable (m : (ℓ : Loc Cert.KernelIdeal.nD Cert.KernelIdeal.τ Cert.KernelIdeal.sig) → Buf (Elt Ideal) ℓ)

/-- The endpoints are node numbers. -/
theorem inRange (hpre : Cert.Pre_KernelIdeal m) (c : Dev Cert.KernelIdeal.nD) : Cert.GcnBridge.InRange (m ((c.tc : Thread Cert.KernelIdeal.nD Cert.KernelIdeal.τ).loc Cert.KernelIdeal.main_arg1)) :=
  (Cert.PreFacts.of_pre_kernelIdeal m hpre c).2.2.2.2.2.2.2.2.2.2.2

/-- The network's parameters, read off the argument arrays. -/
abbrev Pm (c : Dev Cert.KernelIdeal.nD) : Cert.GcnSpec.Params 256 128 64 :=
  Cert.GcnBridge.params (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- The input features. -/
abbrev Xm (c : Dev Cert.KernelIdeal.nD) : Fin 16384 → Fin 256 → EReal := Cert.GcnBridge.mat (m ((c.tc : Thread Cert.KernelIdeal.nD Cert.KernelIdeal.τ).loc Cert.KernelIdeal.main_arg0))

/-- Every parameter is a real number. -/
theorem realParams (hpre : Cert.Pre_KernelIdeal m) (c : Dev Cert.KernelIdeal.nD) : Cert.GcnAlgebra.RealParams (Pm m c) := by
  obtain ⟨-, r2, r3, r4, r5, r6, r7, r8, r9, r10, r11, -⟩ := Cert.PreFacts.of_pre_kernelIdeal m hpre c
  exact ⟨fun i j => r2 (ix2 i j), fun j => r3 (ix1 j), fun i j => r4 (ix2 i j), fun j => r5 (ix1 j),
    fun i j => r6 (ix2 i j), fun j => r7 (ix1 j), fun i j => r8 (ix2 i j), fun j => r9 (ix1 j),
    fun i j => r10 (ix2 i j), fun j => r11 (ix1 j)⟩

/-- Every input feature is a real number. -/
theorem realX (hpre : Cert.Pre_KernelIdeal m) (c : Dev Cert.KernelIdeal.nD) : ∀ n k, Cert.GcnAlgebra.IsReal (Xm m c n k) :=
  fun n k => (Cert.PreFacts.of_pre_kernelIdeal m hpre c).1 (ix2 n k)

/-- The reconstructed attributes, edge by edge. -/
abbrev xrecS (hpre : Cert.Pre_KernelIdeal m) (c : Dev Cert.KernelIdeal.nD) : Fin 16384 → Fin 256 → EReal :=
  Cert.GcnSpec.xrec (Cert.GcnBridge.sparseOf _ (inRange m hpre c)) (Pm m c) (Xm m c)

/-- The reconstructed adjacency, edge by edge. -/
abbrev adjS (hpre : Cert.Pre_KernelIdeal m) (c : Dev Cert.KernelIdeal.nD) : Fin 16384 → Fin 16384 → EReal :=
  Cert.GcnSpec.adjrec (Cert.GcnBridge.sparseOf _ (inRange m hpre c)) (Pm m c) (Xm m c)

/-- The kernel program's first result is the reconstructed attributes. -/
theorem kernel_v77 (hpre : Cert.Pre_KernelIdeal m) (c : Dev Cert.KernelIdeal.nD) (ρ : Dev Cert.KernelIdeal.nD → PrngReg) :
    (Cert.KernelIdeal.Fr.W_last m ρ c (Proc.devRef .tc Cert.KernelIdeal.main_v77) : Cert.KernelIdeal.S16384x256.Idx → EReal)
      = ofMat (xrecS m hpre c) := by
  funext i
  obtain ⟨n, k, rfl⟩ : ∃ (n : Fin 16384) (k : Fin 256), i = ix2 n k := ⟨i 0, i 1, eq_ix2 i⟩
  rw [ofMat_ix2]
  exact (Cert.KernelIdeal.Fr.kernel_xrec m ρ c (inRange m hpre c) n k).trans
    (congrFun (congrFun (Cert.GcnAlgebra.xrec_dense_eq_sparse _ _ (Pm m c) (Xm m c) (realParams m hpre c) (realX m hpre c)) n) k)

/-- Its second result is the reconstructed adjacency. -/
theorem kernel_v83 (hpre : Cert.Pre_KernelIdeal m) (c : Dev Cert.KernelIdeal.nD) (ρ : Dev Cert.KernelIdeal.nD → PrngReg) :
    (Cert.KernelIdeal.Fr.W_last m ρ c (Proc.devRef .tc Cert.KernelIdeal.main_v83) : Cert.KernelIdeal.S16384x16384.Idx → EReal)
      = ofMat (adjS m hpre c) := by
  funext i
  obtain ⟨n, k, rfl⟩ : ∃ (n : Fin 16384) (k : Fin 16384), i = ix2 n k := ⟨i 0, i 1, eq_ix2 i⟩
  rw [ofMat_ix2]
  exact (Cert.KernelIdeal.Fr.kernel_adj m ρ c (inRange m hpre c) n k).trans
    (congrFun (congrFun (Cert.GcnAlgebra.adjrec_dense_eq_sparse _ _ (Pm m c) (Xm m c) (realParams m hpre c) (realX m hpre c)) n) k)

/-- The reference's first result, from the same arguments, is the reconstructed attributes. -/
theorem ref_v182 (hpre : Cert.Pre_KernelIdeal m) (c : Dev Cert.KernelIdeal.nD) :
    (Cert.ReferenceIdeal.Read.val_main_v182 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) : Cert.ReferenceIdeal.S16384x256.Idx → EReal)
      = ofMat (xrecS m hpre c) := by
  funext i
  obtain ⟨n, k, rfl⟩ : ∃ (n : Fin 16384) (k : Fin 256), i = ix2 n k := ⟨i 0, i 1, eq_ix2 i⟩
  rw [ofMat_ix2]
  exact Cert.ReferenceIdeal.RefValue.ref_xrec _ _ _ _ _ _ _ _ _ _ (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (inRange m hpre c) n k

/-- The reference's second result is the reconstructed adjacency. -/
theorem ref_v229 (hpre : Cert.Pre_KernelIdeal m) (c : Dev Cert.KernelIdeal.nD) :
    (Cert.ReferenceIdeal.Read.val_main_v229 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) : Cert.ReferenceIdeal.S16384x16384.Idx → EReal)
      = ofMat (adjS m hpre c) := by
  funext i
  obtain ⟨n, k, rfl⟩ : ∃ (n : Fin 16384) (k : Fin 16384), i = ix2 n k := ⟨i 0, i 1, eq_ix2 i⟩
  rw [ofMat_ix2]
  exact Cert.ReferenceIdeal.RefValue.ref_adj _ _ _ _ _ _ _ _ (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (inRange m hpre c) n k

end Algebraic

/-- From memories that agree on the arguments, both idealized programs end with the reconstructed attributes and the
    reconstructed adjacency of the edge-by-edge network, and their arguments as they were. -/
theorem algebraic : Cert.algebraic_KernelIdeal_ReferenceIdeal := by
  intro m ρ m' ρ' hpre hagree
  refine ⟨fun c => ofMat (xrecS m hpre c), fun c => ofMat (adjS m hpre c), ?_, ?_⟩
  · refine (θ_run Cert.KernelIdeal.defs _ _).mono (fun r hr c => ?_) (Cert.KernelIdeal.Fr.run_all (F := Ideal) m ρ)
    exact ⟨(hr c _ (Cert.KernelIdeal.Fr.mem_uc Cert.KernelIdeal.main_v77 (by decide))).trans (kernel_v77 m hpre c ρ),
      (hr c _ (Cert.KernelIdeal.Fr.mem_uc Cert.KernelIdeal.main_v83 (by decide))).trans (kernel_v83 m hpre c ρ),
      (hr c _ (Cert.KernelIdeal.Fr.mem_uc Cert.KernelIdeal.main_arg0 (by decide))).trans (Cert.KernelIdeal.Fr.W_last_main_arg0 m ρ c),
      (hr c _ (Cert.KernelIdeal.Fr.mem_uc Cert.KernelIdeal.main_arg1 (by decide))).trans (Cert.KernelIdeal.Fr.W_last_main_arg1 m ρ c),
      (hr c _ (Cert.KernelIdeal.Fr.mem_uc Cert.KernelIdeal.main_arg2 (by decide))).trans (Cert.KernelIdeal.Fr.W_last_main_arg2 m ρ c),
      (hr c _ (Cert.KernelIdeal.Fr.mem_uc Cert.KernelIdeal.main_arg3 (by decide))).trans (Cert.KernelIdeal.Fr.W_last_main_arg3 m ρ c),
      (hr c _ (Cert.KernelIdeal.Fr.mem_uc Cert.KernelIdeal.main_arg4 (by decide))).trans (Cert.KernelIdeal.Fr.W_last_main_arg4 m ρ c),
      (hr c _ (Cert.KernelIdeal.Fr.mem_uc Cert.KernelIdeal.main_arg5 (by decide))).trans (Cert.KernelIdeal.Fr.W_last_main_arg5 m ρ c),
      (hr c _ (Cert.KernelIdeal.Fr.mem_uc Cert.KernelIdeal.main_arg6 (by decide))).trans (Cert.KernelIdeal.Fr.W_last_main_arg6 m ρ c),
      (hr c _ (Cert.KernelIdeal.Fr.mem_uc Cert.KernelIdeal.main_arg7 (by decide))).trans (Cert.KernelIdeal.Fr.W_last_main_arg7 m ρ c),
      (hr c _ (Cert.KernelIdeal.Fr.mem_uc Cert.KernelIdeal.main_arg8 (by decide))).trans (Cert.KernelIdeal.Fr.W_last_main_arg8 m ρ c),
      (hr c _ (Cert.KernelIdeal.Fr.mem_uc Cert.KernelIdeal.main_arg9 (by decide))).trans (Cert.KernelIdeal.Fr.W_last_main_arg9 m ρ c),
      (hr c _ (Cert.KernelIdeal.Fr.mem_uc Cert.KernelIdeal.main_arg10 (by decide))).trans (Cert.KernelIdeal.Fr.W_last_main_arg10 m ρ c),
      (hr c _ (Cert.KernelIdeal.Fr.mem_uc Cert.KernelIdeal.main_arg11 (by decide))).trans (Cert.KernelIdeal.Fr.W_last_main_arg11 m ρ c)⟩
  · refine (θ_run Cert.ReferenceIdeal.defs _ _).mono (fun r hr c => ?_) (Cert.ReferenceIdeal.Value.run (F := Ideal) m' ρ')
    obtain ⟨h0, h1, hargs⟩ := hr c
    obtain ⟨a0, a1, a2, a3, a4, a5, a6, a7, a8, a9, a10, a11⟩ := hagree c
    refine ⟨h0.trans ?_, h1.trans ?_, hargs⟩
    · rw [Cert.ReferenceIdeal.Read.val_main_v182_eq, a0, a1, a2, a3, a4, a5, a6, a7, a8, a9]
      exact ref_v182 m hpre c
    · rw [Cert.ReferenceIdeal.Read.val_main_v229_eq, a0, a1, a2, a3, a4, a5, a10, a11]
      exact ref_v229 m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
